-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S512x512 .f32 .bf16
  ∧ IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x3x8x32x32 : Shape := ⟨5, ![1, 3, 8, 32, 32]⟩
abbrev S1x21x8x32x32 : Shape := ⟨5, ![1, 21, 8, 32, 32]⟩
abbrev S21x21 : Shape := ⟨2, ![21, 21]⟩
abbrev S_ : Shape := ⟨0, ![]⟩

class Facts : Prop where
  bcast_S_S1x3x8x32x32 : S_.BroadcastsInDim S1x3x8x32x32 (![] : Fin 0 → Fin S1x3x8x32x32.rank)
  reducesTo_S1x3x8x32x32_S_d0_1_2_3_4 : S1x3x8x32x32.ReducesTo [0, 1, 2, 3, 4] S_
  h_S_ : 0 < S_.numel
  bcast_S_S1x21x8x32x32 : S_.BroadcastsInDim S1x21x8x32x32 (![] : Fin 0 → Fin S1x21x8x32x32.rank)
  reducesTo_S1x21x8x32x32_S_d0_1_2_3_4 : S1x21x8x32x32.ReducesTo [0, 1, 2, 3, 4] S_
  bcast_S_S21x21 : S_.BroadcastsInDim S21x21 (![] : Fin 0 → Fin S21x21.rank)
  reducesTo_S21x21_S_d0_1 : S21x21.ReducesTo [0, 1] S_

variable [Facts]

def fn_part1 {F : FTy → Type} [FloatOps F] (main_arg4 : FVec F S21x21 .f32) (main_arg5 : FVec F S21x21 .f32) (main_v13 : IVec S_ 1) (main_v16 : IVec S21x21 1) : IVec S_ 1 :=
  let main_c_5 : IVec S_ 1 := constantI S_ 1 1#1
  let main_v17 : IVec S_ 1 := (fun x v => Host.reduce IntOp.andi x v reducesTo_S21x21_S_d0_1 h_S_) main_v16 main_c_5
  let main_v18 : IVec S_ 1 := andi main_v13 main_v17
  let main_v19 : FVec F S21x21 .f32 := Host.absf main_arg4
  let main_cst_6 : FVec F S_ .f32 := constant S_ .f32 0x7F800000#32
  let main_v20 : FVec F S21x21 .f32 := broadcastInDim S21x21 ![] bcast_S_S21x21 main_cst_6
  let main_v21 : IVec S21x21 1 := cmpf .olt main_v19 main_v20
  let main_c_7 : IVec S_ 1 := constantI S_ 1 1#1
  let main_v22 : IVec S_ 1 := (fun x v => Host.reduce IntOp.andi x v reducesTo_S21x21_S_d0_1 h_S_) main_v21 main_c_7
  let main_v23 : IVec S_ 1 := andi main_v18 main_v22
  let main_v24 : FVec F S21x21 .f32 := Host.absf main_arg5
  let main_cst_8 : FVec F S_ .f32 := constant S_ .f32 0x7F800000#32
  let main_v25 : FVec F S21x21 .f32 := broadcastInDim S21x21 ![] bcast_S_S21x21 main_cst_8
  let main_v26 : IVec S21x21 1 := cmpf .olt main_v24 main_v25
  let main_c_9 : IVec S_ 1 := constantI S_ 1 1#1
  let main_v27 : IVec S_ 1 := (fun x v => Host.reduce IntOp.andi x v reducesTo_S21x21_S_d0_1 h_S_) main_v26 main_c_9
  let main_v28 : IVec S_ 1 := andi main_v23 main_v27
  main_v28

def fn {F : FTy → Type} [FloatOps F] (main_arg0 : FVec F S1x3x8x32x32 .f32) (main_arg1 : FVec F S1x21x8x32x32 .f32) (main_arg2 : FVec F S1x21x8x32x32 .f32) (main_arg3 : FVec F S21x21 .f32) (main_arg4 : FVec F S21x21 .f32) (main_arg5 : FVec F S21x21 .f32) : IVec S_ 1 :=
  let main_v0 : FVec F S1x3x8x32x32 .f32 := Host.absf main_arg0
  let main_cst : FVec F S_ .f32 := constant S_ .f32 0x7F800000#32
  let main_v1 : FVec F S1x3x8x32x32 .f32 := broadcastInDim S1x3x8x32x32 ![] bcast_S_S1x3x8x32x32 main_cst
  let main_v2 : IVec S1x3x8x32x32 1 := cmpf .olt main_v0 main_v1
  let main_c : IVec S_ 1 := constantI S_ 1 1#1
  let main_v3 : IVec S_ 1 := (fun x v => Host.reduce IntOp.andi x v reducesTo_S1x3x8x32x32_S_d0_1_2_3_4 h_S_) main_v2 main_c
  let main_v4 : FVec F S1x21x8x32x32 .f32 := Host.absf main_arg1
  let main_cst_0 : FVec F S_ .f32 := constant S_ .f32 0x7F800000#32
  let main_v5 : FVec F S1x21x8x32x32 .f32 := broadcastInDim S1x21x8x32x32 ![] bcast_S_S1x21x8x32x32 main_cst_0
  let main_v6 : IVec S1x21x8x32x32 1 := cmpf .olt main_v4 main_v5
  let main_c_1 : IVec S_ 1 := constantI S_ 1 1#1
  let main_v7 : IVec S_ 1 := (fun x v => Host.reduce IntOp.andi x v reducesTo_S1x21x8x32x32_S_d0_1_2_3_4 h_S_) main_v6 main_c_1
  let main_v8 : IVec S_ 1 := andi main_v3 main_v7
  let main_v9 : FVec F S1x21x8x32x32 .f32 := Host.absf main_arg2
  let main_cst_2 : FVec F S_ .f32 := constant S_ .f32 0x7F800000#32
  let main_v10 : FVec F S1x21x8x32x32 .f32 := broadcastInDim S1x21x8x32x32 ![] bcast_S_S1x21x8x32x32 main_cst_2
  let main_v11 : IVec S1x21x8x32x32 1 := cmpf .olt main_v9 main_v10
  let main_c_3 : IVec S_ 1 := constantI S_ 1 1#1
  let main_v12 : IVec S_ 1 := (fun x v => Host.reduce IntOp.andi x v reducesTo_S1x21x8x32x32_S_d0_1_2_3_4 h_S_) main_v11 main_c_3
  let main_v13 : IVec S_ 1 := andi main_v8 main_v12
  let main_v14 : FVec F S21x21 .f32 := Host.absf main_arg3
  let main_cst_4 : FVec F S_ .f32 := constant S_ .f32 0x7F800000#32
  let main_v15 : FVec F S21x21 .f32 := broadcastInDim S21x21 ![] bcast_S_S21x21 main_cst_4
  let main_v16 : IVec S21x21 1 := cmpf .olt main_v14 main_v15
  fn_part1 (F := F) main_arg4 main_arg5 main_v13 main_v16
-- ==== Kernel.lean ====
abbrev S1x3x8x32x32 : Shape := ⟨5, ![1, 3, 8, 32, 32]⟩
abbrev S1x21x8x32x32 : Shape := ⟨5, ![1, 21, 8, 32, 32]⟩
abbrev S21x21 : Shape := ⟨2, ![21, 21]⟩
abbrev S3x8x32x32 : Shape := ⟨4, ![3, 8, 32, 32]⟩
abbrev S3x8192 : Shape := ⟨2, ![3, 8192]⟩
abbrev S8 : Shape := ⟨1, ![8]⟩
abbrev S32 : Shape := ⟨1, ![32]⟩
abbrev S8x32x32 : Shape := ⟨3, ![8, 32, 32]⟩
abbrev S1x8x32x32 : Shape := ⟨4, ![1, 8, 32, 32]⟩
abbrev S_ : Shape := ⟨0, ![]⟩
abbrev S6x8192 : Shape := ⟨2, ![6, 8192]⟩
abbrev S8192x8192 : Shape := ⟨2, ![8192, 8192]⟩
abbrev S8192x1 : Shape := ⟨2, ![8192, 1]⟩
abbrev S3x512 : Shape := ⟨2, ![3, 512]⟩
abbrev S6x512 : Shape := ⟨2, ![6, 512]⟩
abbrev S512x512 : Shape := ⟨2, ![512, 512]⟩
abbrev S512x1 : Shape := ⟨2, ![512, 1]⟩
abbrev S512x3 : Shape := ⟨2, ![512, 3]⟩
abbrev S512 : Shape := ⟨1, ![512]⟩
abbrev S1x512 : Shape := ⟨2, ![1, 512]⟩
abbrev S512x6 : Shape := ⟨2, ![512, 6]⟩
abbrev S1x8192 : Shape := ⟨2, ![1, 8192]⟩
abbrev S21x8x32x32 : Shape := ⟨4, ![21, 8, 32, 32]⟩
abbrev S21x8192 : Shape := ⟨2, ![21, 8192]⟩
abbrev S21x4096 : Shape := ⟨2, ![21, 4096]⟩
abbrev S256x4096 : Shape := ⟨2, ![256, 4096]⟩
abbrev S1x4096 : Shape := ⟨2, ![1, 4096]⟩
abbrev S8192 : Shape := ⟨1, ![8192]⟩
abbrev S21x256 : Shape := ⟨2, ![21, 256]⟩
abbrev S4096 : Shape := ⟨1, ![4096]⟩

abbrev nBuf : Space → Nat
  | .hbm => 46
  | .vmem => 98
  | .smem => 0
  | _ => 0

abbrev bufTy : (tb : Table) → Fin (tcTables nBuf tb) → BufTy
  | .hbm, ⟨0, _⟩ => ⟨S1x3x8x32x32, .f32⟩
  | .hbm, ⟨1, _⟩ => ⟨S1x21x8x32x32, .f32⟩
  | .hbm, ⟨2, _⟩ => ⟨S1x21x8x32x32, .f32⟩
  | .hbm, ⟨3, _⟩ => ⟨S21x21, .f32⟩
  | .hbm, ⟨4, _⟩ => ⟨S21x21, .f32⟩
  | .hbm, ⟨5, _⟩ => ⟨S21x21, .f32⟩
  | .hbm, ⟨6, _⟩ => ⟨S3x8x32x32, .f32⟩
  | .hbm, ⟨7, _⟩ => ⟨S3x8192, .f32⟩
  | .hbm, ⟨8, _⟩ => ⟨S8, .i32⟩
  | .hbm, ⟨9, _⟩ => ⟨S32, .i32⟩
  | .hbm, ⟨10, _⟩ => ⟨S32, .i32⟩
  | .hbm, ⟨11, _⟩ => ⟨S8x32x32, .i32⟩
  | .hbm, ⟨12, _⟩ => ⟨S8x32x32, .i32⟩
  | .hbm, ⟨13, _⟩ => ⟨S8x32x32, .i32⟩
  | .hbm, ⟨14, _⟩ => ⟨S1x8x32x32, .i32⟩
  | .hbm, ⟨15, _⟩ => ⟨S1x8x32x32, .i32⟩
  | .hbm, ⟨16, _⟩ => ⟨S1x8x32x32, .i32⟩
  | .hbm, ⟨17, _⟩ => ⟨S3x8x32x32, .i32⟩
  | .hbm, ⟨18, _⟩ => ⟨S3x8192, .i32⟩
  | .hbm, ⟨19, _⟩ => ⟨S3x8192, .f32⟩
  | .hbm, ⟨20, _⟩ => ⟨S_, .f32⟩
  | .hbm, ⟨21, _⟩ => ⟨S3x8192, .f32⟩
  | .hbm, ⟨22, _⟩ => ⟨S3x8192, .f32⟩
  | .hbm, ⟨23, _⟩ => ⟨S_, .f32⟩
  | .hbm, ⟨24, _⟩ => ⟨S3x8192, .f32⟩
  | .hbm, ⟨25, _⟩ => ⟨S3x8192, .f32⟩
  | .hbm, ⟨26, _⟩ => ⟨S_, .f32⟩
  | .hbm, ⟨27, _⟩ => ⟨S3x8192, .f32⟩
  | .hbm, ⟨28, _⟩ => ⟨S3x8192, .f32⟩
  | .hbm, ⟨29, _⟩ => ⟨S6x8192, .f32⟩
  | .hbm, ⟨30, _⟩ => ⟨S8192x8192, .bf16⟩
  | .hbm, ⟨31, _⟩ => ⟨S8192x8192, .bf16⟩
  | .hbm, ⟨32, _⟩ => ⟨S8192x1, .f32⟩
  | .hbm, ⟨33, _⟩ => ⟨S8192x1, .f32⟩
  | .hbm, ⟨34, _⟩ => ⟨S1x8192, .f32⟩
  | .hbm, ⟨35, _⟩ => ⟨S1x8192, .f32⟩
  | .hbm, ⟨36, _⟩ => ⟨S21x8x32x32, .f32⟩
  | .hbm, ⟨37, _⟩ => ⟨S21x8192, .f32⟩
  | .hbm, ⟨38, _⟩ => ⟨S21x8x32x32, .f32⟩
  | .hbm, ⟨39, _⟩ => ⟨S21x8192, .f32⟩
  | .hbm, ⟨40, _⟩ => ⟨S21x8192, .f32⟩
  | .hbm, ⟨41, _⟩ => ⟨S21x8192, .f32⟩
  | .hbm, ⟨42, _⟩ => ⟨S21x8192, .f32⟩
  | .hbm, ⟨43, _⟩ => ⟨S21x8192, .f32⟩
  | .hbm, ⟨44, _⟩ => ⟨S21x8192, .f32⟩
  | .hbm, ⟨45, _⟩ => ⟨S1x21x8x32x32, .f32⟩
  | .local _ .vmem, ⟨0, _⟩ => ⟨S3x512, .f32⟩
  | .local _ .vmem, ⟨1, _⟩ => ⟨S3x512, .f32⟩
  | .local _ .vmem, ⟨2, _⟩ => ⟨S3x512, .f32⟩
  | .local _ .vmem, ⟨3, _⟩ => ⟨S3x512, .f32⟩
  | .local _ .vmem, ⟨4, _⟩ => ⟨S6x512, .f32⟩
  | .local _ .vmem, ⟨5, _⟩ => ⟨S6x512, .f32⟩
  | .local _ .vmem, ⟨6, _⟩ => ⟨S6x512, .f32⟩
  | .local _ .vmem, ⟨7, _⟩ => ⟨S6x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S21x8192, .f32⟩
  | .local _ .vmem, ⟨19, _⟩ => ⟨S21x4096, .f32⟩
  | .local _ .vmem, ⟨20, _⟩ => ⟨S256x4096, .bf16⟩
  | .local _ .vmem, ⟨21, _⟩ => ⟨S256x4096, .bf16⟩
  | .local _ .vmem, ⟨22, _⟩ => ⟨S256x4096, .bf16⟩
  | .local _ .vmem, ⟨23, _⟩ => ⟨S256x4096, .bf16⟩
  | .local _ .vmem, ⟨24, _⟩ => ⟨S1x4096, .f32⟩
  | .local _ .vmem, ⟨25, _⟩ => ⟨S1x4096, .f32⟩
  | .local _ .vmem, ⟨26, _⟩ => ⟨S21x21, .f32⟩
  | .local _ .vmem, ⟨27, _⟩ => ⟨S21x21, .f32⟩
  | .local _ .vmem, ⟨28, _⟩ => ⟨S21x21, .f32⟩
  | .local _ .vmem, ⟨29, _⟩ => ⟨S21x4096, .f32⟩
  | .local _ .vmem, ⟨30, _⟩ => ⟨S21x4096, .f32⟩
  | .local _ .vmem, ⟨31, _⟩ => ⟨S21x8192, .f32⟩
  | .local _ .vmem, ⟨32, _⟩ => ⟨S21x4096, .f32⟩
  | .local _ .vmem, ⟨33, _⟩ => ⟨S21x4096, .f32⟩
  | .local _ .vmem, ⟨34, _⟩ => ⟨S21x8192, .f32⟩
  | .local _ .vmem, ⟨35, _⟩ => ⟨S21x4096, .f32⟩
  | .local _ .vmem, ⟨36, _⟩ => ⟨S256x4096, .bf16⟩
  | .local _ .vmem, ⟨37, _⟩ => ⟨S256x4096, .bf16⟩
  | .local _ .vmem, ⟨38, _⟩ => ⟨S256x4096, .bf16⟩
  | .local _ .vmem, ⟨39, _⟩ => ⟨S256x4096, .bf16⟩
  | .local _ .vmem, ⟨40, _⟩ => ⟨S1x4096, .f32⟩
  | .local _ .vmem, ⟨41, _⟩ => ⟨S1x4096, .f32⟩
  | .local _ .vmem, ⟨42, _⟩ => ⟨S21x21, .f32⟩
  | .local _ .vmem, ⟨43, _⟩ => ⟨S21x21, .f32⟩
  | .local _ .vmem, ⟨44, _⟩ => ⟨S21x21, .f32⟩
  | .local _ .vmem, ⟨45, _⟩ => ⟨S21x4096, .f32⟩
  | .local _ .vmem, ⟨46, _⟩ => ⟨S21x4096, .f32⟩
  | .local _ .vmem, ⟨47, _⟩ => ⟨S21x8192, .f32⟩
  | .local _ .vmem, ⟨48, _⟩ => ⟨S21x4096, .f32⟩
  | .local _ .vmem, ⟨49, _⟩ => ⟨S21x4096, .f32⟩
  | .local _ .vmem, ⟨50, _⟩ => ⟨S21x8192, .f32⟩
  | .local _ .vmem, ⟨51, _⟩ => ⟨S21x4096, .f32⟩
  | .local _ .vmem, ⟨52, _⟩ => ⟨S256x4096, .bf16⟩
  | .local _ .vmem, ⟨53, _⟩ => ⟨S256x4096, .bf16⟩
  | .local _ .vmem, ⟨54, _⟩ => ⟨S256x4096, .bf16⟩
  | .local _ .vmem, ⟨55, _⟩ => ⟨S256x4096, .bf16⟩
  | .local _ .vmem, ⟨56, _⟩ => ⟨S1x4096, .f32⟩
  | .local _ .vmem, ⟨57, _⟩ => ⟨S1x4096, .f32⟩
  | .local _ .vmem, ⟨58, _⟩ => ⟨S21x21, .f32⟩
  | .local _ .vmem, ⟨59, _⟩ => ⟨S21x21, .f32⟩
  | .local _ .vmem, ⟨60, _⟩ => ⟨S21x21, .f32⟩
  | .local _ .vmem, ⟨61, _⟩ => ⟨S21x4096, .f32⟩
  | .local _ .vmem, ⟨62, _⟩ => ⟨S21x4096, .f32⟩
  | .local _ .vmem, ⟨63, _⟩ => ⟨S21x8192, .f32⟩
  | .local _ .vmem, ⟨64, _⟩ => ⟨S21x4096, .f32⟩
  | .local _ .vmem, ⟨65, _⟩ => ⟨S21x4096, .f32⟩
  | .local _ .vmem, ⟨66, _⟩ => ⟨S21x8192, .f32⟩
  | .local _ .vmem, ⟨67, _⟩ => ⟨S21x4096, .f32⟩
  | .local _ .vmem, ⟨68, _⟩ => ⟨S256x4096, .bf16⟩
  | .local _ .vmem, ⟨69, _⟩ => ⟨S256x4096, .bf16⟩
  | .local _ .vmem, ⟨70, _⟩ => ⟨S256x4096, .bf16⟩
  | .local _ .vmem, ⟨71, _⟩ => ⟨S256x4096, .bf16⟩
  | .local _ .vmem, ⟨72, _⟩ => ⟨S1x4096, .f32⟩
  | .local _ .vmem, ⟨73, _⟩ => ⟨S1x4096, .f32⟩
  | .local _ .vmem, ⟨74, _⟩ => ⟨S21x21, .f32⟩
  | .local _ .vmem, ⟨75, _⟩ => ⟨S21x21, .f32⟩
  | .local _ .vmem, ⟨76, _⟩ => ⟨S21x21, .f32⟩
  | .local _ .vmem, ⟨77, _⟩ => ⟨S21x4096, .f32⟩
  | .local _ .vmem, ⟨78, _⟩ => ⟨S21x4096, .f32⟩
  | .local _ .vmem, ⟨79, _⟩ => ⟨S21x8192, .f32⟩
  | .local _ .vmem, ⟨80, _⟩ => ⟨S21x4096, .f32⟩
  | .local _ .vmem, ⟨81, _⟩ => ⟨S21x4096, .f32⟩
  | .local _ .vmem, ⟨82, _⟩ => ⟨S21x8192, .f32⟩
  | .local _ .vmem, ⟨83, _⟩ => ⟨S21x4096, .f32⟩
  | .local _ .vmem, ⟨84, _⟩ => ⟨S256x4096, .bf16⟩
  | .local _ .vmem, ⟨85, _⟩ => ⟨S256x4096, .bf16⟩
  | .local _ .vmem, ⟨86, _⟩ => ⟨S256x4096, .bf16⟩
  | .local _ .vmem, ⟨87, _⟩ => ⟨S256x4096, .bf16⟩
  | .local _ .vmem, ⟨88, _⟩ => ⟨S1x4096, .f32⟩
  | .local _ .vmem, ⟨89, _⟩ => ⟨S1x4096, .f32⟩
  | .local _ .vmem, ⟨90, _⟩ => ⟨S21x21, .f32⟩
  | .local _ .vmem, ⟨91, _⟩ => ⟨S21x21, .f32⟩
  | .local _ .vmem, ⟨92, _⟩ => ⟨S21x21, .f32⟩
  | .local _ .vmem, ⟨93, _⟩ => ⟨S21x4096, .f32⟩
  | .local _ .vmem, ⟨94, _⟩ => ⟨S21x4096, .f32⟩
  | .local _ .vmem, ⟨95, _⟩ => ⟨S21x8192, .f32⟩
  | .local _ .vmem, ⟨96, _⟩ => ⟨S21x4096, .f32⟩
  | .local _ .vmem, ⟨97, _⟩ => ⟨S21x4096, .f32⟩
  | _, _ => ⟨S1x3x8x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg9_1 : Ref sig .tc := ⟨.vmem, 30, rfl⟩
abbrev cc1_scratch0 : Ref sig .tc := ⟨.vmem, 31, rfl⟩
abbrev cc1_scratch1 : Ref sig .tc := ⟨.vmem, 32, rfl⟩
abbrev cc1_scratch2 : Ref sig .tc := ⟨.vmem, 33, rfl⟩
abbrev cc2_stg0_0 : Ref sig .tc := ⟨.vmem, 34, rfl⟩
abbrev cc2_stg1_0 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg8_0 : Ref sig .tc := ⟨.vmem, 44, rfl⟩
abbrev cc2_stg9_0 : Ref sig .tc := ⟨.vmem, 45, rfl⟩
abbrev cc2_stg9_1 : Ref sig .tc := ⟨.vmem, 46, rfl⟩
abbrev cc2_scratch0 : Ref sig .tc := ⟨.vmem, 47, rfl⟩
abbrev cc2_scratch1 : Ref sig .tc := ⟨.vmem, 48, rfl⟩
abbrev cc2_scratch2 : Ref sig .tc := ⟨.vmem, 49, rfl⟩
abbrev cc3_stg0_0 : Ref sig .tc := ⟨.vmem, 50, rfl⟩
abbrev cc3_stg1_0 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg5_0 : Ref sig .tc := ⟨.vmem, 57, rfl⟩
abbrev cc3_stg6_0 : Ref sig .tc := ⟨.vmem, 58, rfl⟩
abbrev cc3_stg7_0 : Ref sig .tc := ⟨.vmem, 59, rfl⟩
abbrev cc3_stg8_0 : Ref sig .tc := ⟨.vmem, 60, rfl⟩
abbrev cc3_stg9_0 : Ref sig .tc := ⟨.vmem, 61, rfl⟩
abbrev cc3_stg9_1 : Ref sig .tc := ⟨.vmem, 62, rfl⟩
abbrev cc3_scratch0 : Ref sig .tc := ⟨.vmem, 63, rfl⟩
abbrev cc3_scratch1 : Ref sig .tc := ⟨.vmem, 64, rfl⟩
abbrev cc3_scratch2 : Ref sig .tc := ⟨.vmem, 65, rfl⟩
abbrev cc4_stg0_0 : Ref sig .tc := ⟨.vmem, 66, rfl⟩
abbrev cc4_stg1_0 : Ref sig .tc := ⟨.vmem, 67, rfl⟩
abbrev cc4_stg2_0 : Ref sig .tc := ⟨.vmem, 68, rfl⟩
abbrev cc4_stg2_1 : Ref sig .tc := ⟨.vmem, 69, rfl⟩
abbrev cc4_stg3_0 : Ref sig .tc := ⟨.vmem, 70, rfl⟩
abbrev cc4_stg3_1 : Ref sig .tc := ⟨.vmem, 71, rfl⟩
abbrev cc4_stg4_0 : Ref sig .tc := ⟨.vmem, 72, rfl⟩
abbrev cc4_stg5_0 : Ref sig .tc := ⟨.vmem, 73, rfl⟩
abbrev cc4_stg6_0 : Ref sig .tc := ⟨.vmem, 74, rfl⟩
abbrev cc4_stg7_0 : Ref sig .tc := ⟨.vmem, 75, rfl⟩
abbrev cc4_stg8_0 : Ref sig .tc := ⟨.vmem, 76, rfl⟩
abbrev cc4_stg9_0 : Ref sig .tc := ⟨.vmem, 77, rfl⟩
abbrev cc4_stg9_1 : Ref sig .tc := ⟨.vmem, 78, rfl⟩
abbrev cc4_scratch0 : Ref sig .tc := ⟨.vmem, 79, rfl⟩
abbrev cc4_scratch1 : Ref sig .tc := ⟨.vmem, 80, rfl⟩
abbrev cc4_scratch2 : Ref sig .tc := ⟨.vmem, 81, rfl⟩
abbrev cc5_stg0_0 : Ref sig .tc := ⟨.vmem, 82, rfl⟩
abbrev cc5_stg1_0 : Ref sig .tc := ⟨.vmem, 83, rfl⟩
abbrev cc5_stg2_0 : Ref sig .tc := ⟨.vmem, 84, rfl⟩
abbrev cc5_stg2_1 : Ref sig .tc := ⟨.vmem, 85, rfl⟩
abbrev cc5_stg3_0 : Ref sig .tc := ⟨.vmem, 86, rfl⟩
abbrev cc5_stg3_1 : Ref sig .tc := ⟨.vmem, 87, rfl⟩
abbrev cc5_stg4_0 : Ref sig .tc := ⟨.vmem, 88, rfl⟩
abbrev cc5_stg5_0 : Ref sig .tc := ⟨.vmem, 89, rfl⟩
abbrev cc5_stg6_0 : Ref sig .tc := ⟨.vmem, 90, rfl⟩
abbrev cc5_stg7_0 : Ref sig .tc := ⟨.vmem, 91, rfl⟩
abbrev cc5_stg8_0 : Ref sig .tc := ⟨.vmem, 92, rfl⟩
abbrev cc5_stg9_0 : Ref sig .tc := ⟨.vmem, 93, rfl⟩
abbrev cc5_stg9_1 : Ref sig .tc := ⟨.vmem, 94, rfl⟩
abbrev cc5_scratch0 : Ref sig .tc := ⟨.vmem, 95, rfl⟩
abbrev cc5_scratch1 : Ref sig .tc := ⟨.vmem, 96, rfl⟩
abbrev cc5_scratch2 : Ref sig .tc := ⟨.vmem, 97, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem9_1 : DmaSem sig := 28
abbrev cc2_sem0_0 : DmaSem sig := 29
abbrev cc2_sem1_0 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem9_1 : DmaSem sig := 41
abbrev cc3_sem0_0 : DmaSem sig := 42
abbrev cc3_sem1_0 : DmaSem sig := 43
abbrev cc3_sem2_0 : DmaSem sig := 44
abbrev cc3_sem2_1 : DmaSem sig := 45
abbrev cc3_sem3_0 : DmaSem sig := 46
abbrev cc3_sem3_1 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem8_0 : DmaSem sig := 52
abbrev cc3_sem9_0 : DmaSem sig := 53
abbrev cc3_sem9_1 : DmaSem sig := 54
abbrev cc4_sem0_0 : DmaSem sig := 55
abbrev cc4_sem1_0 : DmaSem sig := 56
abbrev cc4_sem2_0 : DmaSem sig := 57
abbrev cc4_sem2_1 : DmaSem sig := 58
abbrev cc4_sem3_0 : DmaSem sig := 59
abbrev cc4_sem3_1 : DmaSem sig := 60
abbrev cc4_sem4_0 : DmaSem sig := 61
abbrev cc4_sem5_0 : DmaSem sig := 62
abbrev cc4_sem6_0 : DmaSem sig := 63
abbrev cc4_sem7_0 : DmaSem sig := 64
abbrev cc4_sem8_0 : DmaSem sig := 65
abbrev cc4_sem9_0 : DmaSem sig := 66
abbrev cc4_sem9_1 : DmaSem sig := 67
abbrev cc5_sem0_0 : DmaSem sig := 68
abbrev cc5_sem1_0 : DmaSem sig := 69
abbrev cc5_sem2_0 : DmaSem sig := 70
abbrev cc5_sem2_1 : DmaSem sig := 71
abbrev cc5_sem3_0 : DmaSem sig := 72
abbrev cc5_sem3_1 : DmaSem sig := 73
abbrev cc5_sem4_0 : DmaSem sig := 74
abbrev cc5_sem5_0 : DmaSem sig := 75
abbrev cc5_sem6_0 : DmaSem sig := 76
abbrev cc5_sem7_0 : DmaSem sig := 77
abbrev cc5_sem8_0 : DmaSem sig := 78
abbrev cc5_sem9_0 : DmaSem sig := 79
abbrev cc5_sem9_1 : DmaSem sig := 80

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v69 : BitVec 1 := Scalar.cmpi .eq arg1 c15_i32
  let v70 : BitVec 32 := Scalar.extui v69
  let c0_i32_33 : BitVec 32 := 0#32
  let v71 : BitVec 1 := Scalar.cmpi .ne v70 c0_i32_33
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S6x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 32], ![false, false]⟩

def k1_mult1 (i : grid1.Coords) : BitVec 32 :=
  let arg1 : BitVec 32 := BitVec.ofNat 32 (i 1).val
  let c256_i32 : BitVec 32 := 256#32
  let v3 : BitVec 32 := Scalar.muli arg1 c256_i32
  v3
def k1_off1 (i : grid1.Coords) : Fin 2 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  ![0, v5.toNat]
def k1_cond2 (i : grid1.Coords) : BitVec 1 :=
  let arg1 : BitVec 32 := BitVec.ofNat 32 (i 1).val
  let c31_i32 : BitVec 32 := 31#32
  let v24 : BitVec 1 := Scalar.cmpi .eq arg1 c31_i32
  let v25 : BitVec 32 := Scalar.extui v24
  let c0_i32_14 : BitVec 32 := 0#32
  let v26 : BitVec 1 := Scalar.cmpi .ne v25 c0_i32_14
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S21x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S21x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

abbrev stage1_6 : Fin 1 → Memref sig .tc .vmem S21x21 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S21x21 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S21x21 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S21x4096 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨2, ![2, 32], ![false, false]⟩

def k2_mult1 (i : grid2.Coords) : BitVec 32 :=
  let arg1 : BitVec 32 := BitVec.ofNat 32 (i 1).val
  let c256_i32 : BitVec 32 := 256#32
  let v3 : BitVec 32 := Scalar.muli arg1 c256_i32
  v3
def k2_off1 (i : grid2.Coords) : Fin 2 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  ![0, v5.toNat]
def k2_cond2 (i : grid2.Coords) : BitVec 1 :=
  let arg1 : BitVec 32 := BitVec.ofNat 32 (i 1).val
  let c31_i32 : BitVec 32 := 31#32
  let v24 : BitVec 1 := Scalar.cmpi .eq arg1 c31_i32
  let v25 : BitVec 32 := Scalar.extui v24
  let c0_i32_14 : BitVec 32 := 0#32
  let v26 : BitVec 1 := Scalar.cmpi .ne v25 c0_i32_14
  v26

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 1 → Memref sig .tc .vmem S21x8192 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S21x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S256x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x4096 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S1x4096 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, false]

abbrev stage2_5 : Fin 1 → Memref sig .tc .vmem S1x4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true, false]

abbrev stage2_6 : Fin 1 → Memref sig .tc .vmem S21x21 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S21x21 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S21x21 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S21x4096 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev grid3 : Pipeline.Grid := ⟨2, ![2, 32], ![false, false]⟩

def k3_mult1 (i : grid3.Coords) : BitVec 32 :=
  let arg1 : BitVec 32 := BitVec.ofNat 32 (i 1).val
  let c256_i32 : BitVec 32 := 256#32
  let v3 : BitVec 32 := Scalar.muli arg1 c256_i32
  v3
def k3_off1 (i : grid3.Coords) : Fin 2 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  ![0, v5.toNat]
def k3_cond2 (i : grid3.Coords) : BitVec 1 :=
  let arg1 : BitVec 32 := BitVec.ofNat 32 (i 1).val
  let c31_i32 : BitVec 32 := 31#32
  let v24 : BitVec 1 := Scalar.cmpi .eq arg1 c31_i32
  let v25 : BitVec 32 := Scalar.extui v24
  let c0_i32_14 : BitVec 32 := 0#32
  let v26 : BitVec 1 := Scalar.cmpi .ne v25 c0_i32_14
  v26

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 1 → Memref sig .tc .vmem S21x8192 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 1 → Memref sig .tc .vmem S21x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S256x4096 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S256x4096 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S1x4096 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, false]

abbrev stage3_5 : Fin 1 → Memref sig .tc .vmem S1x4096 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, false]

abbrev stage3_6 : Fin 1 → Memref sig .tc .vmem S21x21 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S21x21 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S21x21 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 2 → Memref sig .tc .vmem S21x4096 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, false]

abbrev grid4 : Pipeline.Grid := ⟨2, ![2, 32], ![false, false]⟩

def k4_mult1 (i : grid4.Coords) : BitVec 32 :=
  let arg1 : BitVec 32 := BitVec.ofNat 32 (i 1).val
  let c256_i32 : BitVec 32 := 256#32
  let v3 : BitVec 32 := Scalar.muli arg1 c256_i32
  v3
def k4_off1 (i : grid4.Coords) : Fin 2 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  ![0, v5.toNat]
def k4_cond2 (i : grid4.Coords) : BitVec 1 :=
  let arg1 : BitVec 32 := BitVec.ofNat 32 (i 1).val
  let c31_i32 : BitVec 32 := 31#32
  let v24 : BitVec 1 := Scalar.cmpi .eq arg1 c31_i32
  let v25 : BitVec 32 := Scalar.extui v24
  let c0_i32_14 : BitVec 32 := 0#32
  let v26 : BitVec 1 := Scalar.cmpi .ne v25 c0_i32_14
  v26

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 1 → Memref sig .tc .vmem S21x8192 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 1 → Memref sig .tc .vmem S21x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S256x4096 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S256x4096 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 1 → Memref sig .tc .vmem S1x4096 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true, false]

abbrev stage4_5 : Fin 1 → Memref sig .tc .vmem S1x4096 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true, false]

abbrev stage4_6 : Fin 1 → Memref sig .tc .vmem S21x21 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 1 → Memref sig .tc .vmem S21x21 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 1 → Memref sig .tc .vmem S21x21 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false, false]

abbrev stage4_9 : Fin 2 → Memref sig .tc .vmem S21x4096 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, false]

abbrev grid5 : Pipeline.Grid := ⟨2, ![2, 32], ![false, false]⟩

def k5_mult1 (i : grid5.Coords) : BitVec 32 :=
  let arg1 : BitVec 32 := BitVec.ofNat 32 (i 1).val
  let c256_i32 : BitVec 32 := 256#32
  let v3 : BitVec 32 := Scalar.muli arg1 c256_i32
  v3
def k5_off1 (i : grid5.Coords) : Fin 2 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  ![0, v5.toNat]
def k5_cond2 (i : grid5.Coords) : BitVec 1 :=
  let arg1 : BitVec 32 := BitVec.ofNat 32 (i 1).val
  let c31_i32 : BitVec 32 := 31#32
  let v24 : BitVec 1 := Scalar.cmpi .eq arg1 c31_i32
  let v25 : BitVec 32 := Scalar.extui v24
  let c0_i32_14 : BitVec 32 := 0#32
  let v26 : BitVec 1 := Scalar.cmpi .ne v25 c0_i32_14
  v26

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 1 → Memref sig .tc .vmem S21x8192 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false]

abbrev stage5_1 : Fin 1 → Memref sig .tc .vmem S21x4096 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S256x4096 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S256x4096 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 1 → Memref sig .tc .vmem S1x4096 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true, false]

abbrev stage5_5 : Fin 1 → Memref sig .tc .vmem S1x4096 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true, false]

abbrev stage5_6 : Fin 1 → Memref sig .tc .vmem S21x21 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 1 → Memref sig .tc .vmem S21x21 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false, false]

abbrev stage5_8 : Fin 1 → Memref sig .tc .vmem S21x21 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false, false]

abbrev stage5_9 : Fin 2 → Memref sig .tc .vmem S21x4096 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true, false]

class Facts₀ : Prop where
  shapeCasts_S1x3x8x32x32_S3x8x32x32 : S1x3x8x32x32.ShapeCasts S3x8x32x32
  shapeCasts_S3x8x32x32_S3x8192 : S3x8x32x32.ShapeCasts S3x8192
  bcast_S8_S8x32x32_0 : S8.BroadcastsInDim S8x32x32 (![0] : Fin 1 → Fin S8x32x32.rank)
  bcast_S32_S8x32x32_1 : S32.BroadcastsInDim S8x32x32 (![1] : Fin 1 → Fin S8x32x32.rank)
  bcast_S32_S8x32x32_2 : S32.BroadcastsInDim S8x32x32 (![2] : Fin 1 → Fin S8x32x32.rank)
  bcast_S8x32x32_S1x8x32x32_1_2_3 : S8x32x32.BroadcastsInDim S1x8x32x32 (![1, 2, 3] : Fin 3 → Fin S1x8x32x32.rank)
  concatenates_S1x8x32x32_S1x8x32x32_S1x8x32x32_S3x8x32x32_d0 : Shape.Concatenates [S1x8x32x32, S1x8x32x32, S1x8x32x32] S3x8x32x32 0
  bcast_S_S3x8192 : S_.BroadcastsInDim S3x8192 (![] : Fin 0 → Fin S3x8192.rank)
  concatenates_S3x8192_S3x8192_S6x8192_d0 : Shape.Concatenates [S3x8192, S3x8192] S6x8192 0
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S3x512_S3x512_0_0 : ∀ a, (![0, 0] : Fin 2 → Nat) a + S3x512.size a ≤ S3x512.size a
  h_S3x512 : 0 < S3x512.numel
  shapeCasts_S3x512_S3x512 : S3x512.ShapeCasts S3x512
  transposes_S3x512_p1_0_S512x3 : S3x512.Transposes [1, 0] S512x3
  reduces_S512x3_S512 : S512x3.Reduces [1] S512
  shapeCasts_S512_S512x1 : S512.ShapeCasts S512x1
  reduces_S3x512_S512 : S3x512.Reduces [0] S512
  shapeCasts_S512_S1x512 : S512.ShapeCasts S1x512
  broadcasts_S512x1_S512x512 : S512x1.Broadcasts S512x512
  broadcasts_S1x512_S512x512 : S1x512.Broadcasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  reduces_S512x512_S512 : S512x512.Reduces [1] S512
  inb_S6x512_S6x512_0_0 : ∀ a, (![0, 0] : Fin 2 → Nat) a + S6x512.size a ≤ S6x512.size a
  h_S6x512 : 0 < S6x512.numel
  shapeCasts_S6x512_S6x512 : S6x512.ShapeCasts S6x512
  transposes_S6x512_p1_0_S512x6 : S6x512.Transposes [1, 0] S512x6
  reduces_S512x6_S512 : S512x6.Reduces [1] S512
  reduces_S6x512_S512 : S6x512.Reduces [0] S512
  shapeCasts_S8192x1_S1x8192 : S8192x1.ShapeCasts S1x8192
  shapeCasts_S1x21x8x32x32_S21x8x32x32 : S1x21x8x32x32.ShapeCasts S21x8x32x32
  shapeCasts_S21x8x32x32_S21x8192 : S21x8x32x32.ShapeCasts S21x8192
  inb_S21x8192_S21x8192_0_0 : ∀ a, (![0, 0] : Fin 2 → Nat) a + S21x8192.size a ≤ S21x8192.size a
  h_S21x8192 : 0 < S21x8192.numel
  shapeCasts_S21x8192_S21x8192 : S21x8192.ShapeCasts S21x8192
  reduces_S21x8192_S8192 : S21x8192.Reduces [0] S8192
  shapeCasts_S8192_S1x8192 : S8192.ShapeCasts S1x8192
  broadcasts_S1x8192_S21x8192 : S1x8192.Broadcasts S21x8192
  inb_S21x4096_S21x4096_0_0 : ∀ a, (![0, 0] : Fin 2 → Nat) a + S21x4096.size a ≤ S21x4096.size a
  h_S21x4096 : 0 < S21x4096.numel
  shapeCasts_S21x4096_S21x4096 : S21x4096.ShapeCasts S21x4096
  h_S21x256 : 0 < S21x256.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S21x4096 : S1x4096.Broadcasts S21x4096
  inb_S21x21_S21x21_0_0 : ∀ a, (![0, 0] : Fin 2 → Nat) a + S21x21.size a ≤ S21x21.size a
  h_S21x21 : 0 < S21x21.numel
  reduces_S21x4096_S4096 : S21x4096.Reduces [0] S4096
  shapeCasts_S4096_S1x4096 : S4096.ShapeCasts S1x4096
  shapeCasts_S21x8192_S1x21x8x32x32 : S21x8192.ShapeCasts S1x21x8x32x32
  dot_S512x3_S3x512_S512x512_1_0_0_1_n_n_wf : DotDims.WF S512x3 S3x512 S512x512 [1] [0] [0] [1] [] []
  dot_S512x6_S6x512_S512x512_1_0_0_1_n_n_wf : DotDims.WF S512x6 S6x512 S512x512 [1] [0] [0] [1] [] []
  dot_S21x256_S256x4096_S21x4096_1_0_0_1_n_n_wf : DotDims.WF S21x256 S256x4096 S21x4096 [1] [0] [0] [1] [] []
  dot_S21x21_S21x4096_S21x4096_1_0_0_1_n_n_wf : DotDims.WF S21x21 S21x4096 S21x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x512.size a ≤ S3x8192.size a
  hwx0_0 : ∀ i : grid0.Coords, EltTy.bits .f32 = 32 ∨ (Rect.block (s := S3x8192) S3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x512.size a ≤ S3x8192.size a
  hwx0_1 : ∀ i : grid0.Coords, EltTy.bits .f32 = 32 ∨ (Rect.block (s := S3x8192) S3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6x512.size a ≤ S6x8192.size a
  hwx0_2 : ∀ i : grid0.Coords, EltTy.bits .f32 = 32 ∨ (Rect.block (s := S6x8192) S6x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6x512.size a ≤ S6x8192.size a
  hwx0_3 : ∀ i : grid0.Coords, EltTy.bits .f32 = 32 ∨ (Rect.block (s := S6x8192) S6x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x8192.size a
  hwx0_4 : ∀ i : grid0.Coords, EltTy.bits .bf16 = 32 ∨ (Rect.block (s := S8192x8192) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x8192.size a
  hwx0_5 : ∀ i : grid0.Coords, EltTy.bits .bf16 = 32 ∨ (Rect.block (s := S8192x8192) S512x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S8192x1.size a
  hwx0_7 : ∀ i : grid0.Coords, EltTy.bits .f32 = 32 ∨ (Rect.block (s := S8192x1) S512x1.size (cc0_transform_7 i) (hinb0_7 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S21x256.size a ≤ S21x8192.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S21x8192.size a ≤ S21x8192.size a
  hwx1_0 : ∀ i : grid1.Coords, EltTy.bits .f32 = 32 ∨ (Rect.block (s := S21x8192) S21x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S21x4096.size a ≤ S21x8192.size a
  hwx1_1 : ∀ i : grid1.Coords, EltTy.bits .f32 = 32 ∨ (Rect.block (s := S21x8192) S21x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S8192x8192.size a
  hwx1_2 : ∀ i : grid1.Coords, EltTy.bits .bf16 = 32 ∨ (Rect.block (s := S8192x8192) S256x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S8192x8192.size a
  hwx1_3 : ∀ i : grid1.Coords, EltTy.bits .bf16 = 32 ∨ (Rect.block (s := S8192x8192) S256x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x8192.size a
  hwx1_4 : ∀ i : grid1.Coords, EltTy.bits .f32 = 32 ∨ (Rect.block (s := S1x8192) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x8192.size a
  hwx1_5 : ∀ i : grid1.Coords, EltTy.bits .f32 = 32 ∨ (Rect.block (s := S1x8192) S1x4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S21x21.size a ≤ S21x21.size a
  hwx1_6 : ∀ i : grid1.Coords, EltTy.bits .f32 = 32 ∨ (Rect.block (s := S21x21) S21x21.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S21x21.size a ≤ S21x21.size a
  hwx1_7 : ∀ i : grid1.Coords, EltTy.bits .f32 = 32 ∨ (Rect.block (s := S21x21) S21x21.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S21x21.size a ≤ S21x21.size a
  hwx1_8 : ∀ i : grid1.Coords, EltTy.bits .f32 = 32 ∨ (Rect.block (s := S21x21) S21x21.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S21x4096.size a ≤ S21x8192.size a
  hwx1_9 : ∀ i : grid1.Coords, EltTy.bits .f32 = 32 ∨ (Rect.block (s := S21x8192) S21x4096.size (cc1_transform_9 i) (hinb1_9 i)).WholeWords (EltTy.packing .f32)
  hrank2 : 0 < grid2.rank
  k2_mult1_dvd : ∀ i : grid2.Coords, 256 ∣ (k2_mult1 i).toNat
  k2_off1_inb : ∀ i : grid2.Coords, ∀ a, (k2_off1 i) a + S21x256.size a ≤ S21x8192.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S21x8192.size a ≤ S21x8192.size a
  hwx2_0 : ∀ i : grid2.Coords, EltTy.bits .f32 = 32 ∨ (Rect.block (s := S21x8192) S21x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S21x4096.size a ≤ S21x8192.size a
  hwx2_1 : ∀ i : grid2.Coords, EltTy.bits .f32 = 32 ∨ (Rect.block (s := S21x8192) S21x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x4096.size a ≤ S8192x8192.size a
  hwx2_2 : ∀ i : grid2.Coords, EltTy.bits .bf16 = 32 ∨ (Rect.block (s := S8192x8192) S256x4096.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x4096.size a ≤ S8192x8192.size a
  hwx2_3 : ∀ i : grid2.Coords, EltTy.bits .bf16 = 32 ∨ (Rect.block (s := S8192x8192) S256x4096.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x4096.size a ≤ S1x8192.size a
  hwx2_4 : ∀ i : grid2.Coords, EltTy.bits .f32 = 32 ∨ (Rect.block (s := S1x8192) S1x4096.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x4096.size a ≤ S1x8192.size a
  hwx2_5 : ∀ i : grid2.Coords, EltTy.bits .f32 = 32 ∨ (Rect.block (s := S1x8192) S1x4096.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S21x21.size a ≤ S21x21.size a
  hwx2_6 : ∀ i : grid2.Coords, EltTy.bits .f32 = 32 ∨ (Rect.block (s := S21x21) S21x21.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S21x21.size a ≤ S21x21.size a
  hwx2_7 : ∀ i : grid2.Coords, EltTy.bits .f32 = 32 ∨ (Rect.block (s := S21x21) S21x21.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S21x21.size a ≤ S21x21.size a
  hwx2_8 : ∀ i : grid2.Coords, EltTy.bits .f32 = 32 ∨ (Rect.block (s := S21x21) S21x21.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S21x4096.size a ≤ S21x8192.size a
  hwx2_9 : ∀ i : grid2.Coords, EltTy.bits .f32 = 32 ∨ (Rect.block (s := S21x8192) S21x4096.size (cc2_transform_9 i) (hinb2_9 i)).WholeWords (EltTy.packing .f32)
  hrank3 : 0 < grid3.rank
  k3_mult1_dvd : ∀ i : grid3.Coords, 256 ∣ (k3_mult1 i).toNat
  k3_off1_inb : ∀ i : grid3.Coords, ∀ a, (k3_off1 i) a + S21x256.size a ≤ S21x8192.size a
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S21x8192.size a ≤ S21x8192.size a
  hwx3_0 : ∀ i : grid3.Coords, EltTy.bits .f32 = 32 ∨ (Rect.block (s := S21x8192) S21x8192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S21x4096.size a ≤ S21x8192.size a
  hwx3_1 : ∀ i : grid3.Coords, EltTy.bits .f32 = 32 ∨ (Rect.block (s := S21x8192) S21x4096.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x4096.size a ≤ S8192x8192.size a
  hwx3_2 : ∀ i : grid3.Coords, EltTy.bits .bf16 = 32 ∨ (Rect.block (s := S8192x8192) S256x4096.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x4096.size a ≤ S8192x8192.size a
  hwx3_3 : ∀ i : grid3.Coords, EltTy.bits .bf16 = 32 ∨ (Rect.block (s := S8192x8192) S256x4096.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x4096.size a ≤ S1x8192.size a
  hwx3_4 : ∀ i : grid3.Coords, EltTy.bits .f32 = 32 ∨ (Rect.block (s := S1x8192) S1x4096.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x4096.size a ≤ S1x8192.size a
  hwx3_5 : ∀ i : grid3.Coords, EltTy.bits .f32 = 32 ∨ (Rect.block (s := S1x8192) S1x4096.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S21x21.size a ≤ S21x21.size a
  hwx3_6 : ∀ i : grid3.Coords, EltTy.bits .f32 = 32 ∨ (Rect.block (s := S21x21) S21x21.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S21x21.size a ≤ S21x21.size a
  hwx3_7 : ∀ i : grid3.Coords, EltTy.bits .f32 = 32 ∨ (Rect.block (s := S21x21) S21x21.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S21x21.size a ≤ S21x21.size a
  hwx3_8 : ∀ i : grid3.Coords, EltTy.bits .f32 = 32 ∨ (Rect.block (s := S21x21) S21x21.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S21x4096.size a ≤ S21x8192.size a
  hwx3_9 : ∀ i : grid3.Coords, EltTy.bits .f32 = 32 ∨ (Rect.block (s := S21x8192) S21x4096.size (cc3_transform_9 i) (hinb3_9 i)).WholeWords (EltTy.packing .f32)
  hrank4 : 0 < grid4.rank
  k4_mult1_dvd : ∀ i : grid4.Coords, 256 ∣ (k4_mult1 i).toNat
  k4_off1_inb : ∀ i : grid4.Coords, ∀ a, (k4_off1 i) a + S21x256.size a ≤ S21x8192.size a
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S21x8192.size a ≤ S21x8192.size a
  hwx4_0 : ∀ i : grid4.Coords, EltTy.bits .f32 = 32 ∨ (Rect.block (s := S21x8192) S21x8192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S21x4096.size a ≤ S21x8192.size a
  hwx4_1 : ∀ i : grid4.Coords, EltTy.bits .f32 = 32 ∨ (Rect.block (s := S21x8192) S21x4096.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x4096.size a ≤ S8192x8192.size a
  hwx4_2 : ∀ i : grid4.Coords, EltTy.bits .bf16 = 32 ∨ (Rect.block (s := S8192x8192) S256x4096.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x4096.size a ≤ S8192x8192.size a
  hwx4_3 : ∀ i : grid4.Coords, EltTy.bits .bf16 = 32 ∨ (Rect.block (s := S8192x8192) S256x4096.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x4096.size a ≤ S1x8192.size a
  hwx4_4 : ∀ i : grid4.Coords, EltTy.bits .f32 = 32 ∨ (Rect.block (s := S1x8192) S1x4096.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x4096.size a ≤ S1x8192.size a
  hwx4_5 : ∀ i : grid4.Coords, EltTy.bits .f32 = 32 ∨ (Rect.block (s := S1x8192) S1x4096.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S21x21.size a ≤ S21x21.size a
  hwx4_6 : ∀ i : grid4.Coords, EltTy.bits .f32 = 32 ∨ (Rect.block (s := S21x21) S21x21.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S21x21.size a ≤ S21x21.size a
  hwx4_7 : ∀ i : grid4.Coords, EltTy.bits .f32 = 32 ∨ (Rect.block (s := S21x21) S21x21.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S21x21.size a ≤ S21x21.size a
  hwx4_8 : ∀ i : grid4.Coords, EltTy.bits .f32 = 32 ∨ (Rect.block (s := S21x21) S21x21.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S21x4096.size a ≤ S21x8192.size a
  hwx4_9 : ∀ i : grid4.Coords, EltTy.bits .f32 = 32 ∨ (Rect.block (s := S21x8192) S21x4096.size (cc4_transform_9 i) (hinb4_9 i)).WholeWords (EltTy.packing .f32)
  hrank5 : 0 < grid5.rank
  k5_mult1_dvd : ∀ i : grid5.Coords, 256 ∣ (k5_mult1 i).toNat
  k5_off1_inb : ∀ i : grid5.Coords, ∀ a, (k5_off1 i) a + S21x256.size a ≤ S21x8192.size a
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S21x8192.size a ≤ S21x8192.size a
  hwx5_0 : ∀ i : grid5.Coords, EltTy.bits .f32 = 32 ∨ (Rect.block (s := S21x8192) S21x8192.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S21x4096.size a ≤ S21x8192.size a
  hwx5_1 : ∀ i : grid5.Coords, EltTy.bits .f32 = 32 ∨ (Rect.block (s := S21x8192) S21x4096.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x4096.size a ≤ S8192x8192.size a
  hwx5_2 : ∀ i : grid5.Coords, EltTy.bits .bf16 = 32 ∨ (Rect.block (s := S8192x8192) S256x4096.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x4096.size a ≤ S8192x8192.size a
  hwx5_3 : ∀ i : grid5.Coords, EltTy.bits .bf16 = 32 ∨ (Rect.block (s := S8192x8192) S256x4096.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x4096.size a ≤ S1x8192.size a
  hwx5_4 : ∀ i : grid5.Coords, EltTy.bits .f32 = 32 ∨ (Rect.block (s := S1x8192) S1x4096.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x4096.size a ≤ S1x8192.size a
  hwx5_5 : ∀ i : grid5.Coords, EltTy.bits .f32 = 32 ∨ (Rect.block (s := S1x8192) S1x4096.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S21x21.size a ≤ S21x21.size a
  hwx5_6 : ∀ i : grid5.Coords, EltTy.bits .f32 = 32 ∨ (Rect.block (s := S21x21) S21x21.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S21x21.size a ≤ S21x21.size a
  hwx5_7 : ∀ i : grid5.Coords, EltTy.bits .f32 = 32 ∨ (Rect.block (s := S21x21) S21x21.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S21x21.size a ≤ S21x21.size a
  hwx5_8 : ∀ i : grid5.Coords, EltTy.bits .f32 = 32 ∨ (Rect.block (s := S21x21) S21x21.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S21x4096.size a ≤ S21x8192.size a
  hwx5_9 : ∀ i : grid5.Coords, EltTy.bits .f32 = 32 ∨ (Rect.block (s := S21x8192) S21x4096.size (cc5_transform_9 i) (hinb5_9 i)).WholeWords (EltTy.packing .f32)

variable [Facts₀]

def dot_S512x3_S3x512_S512x512_1_0_0_1_n_n : DotDims S512x3 S3x512 S512x512 where
  lhsContracting := [1]
  rhsContracting := [0]
  lhsNonContracting := [0]
  rhsNonContracting := [1]
  lhsBatch := []
  rhsBatch := []
  wf := dot_S512x3_S3x512_S512x512_1_0_0_1_n_n_wf
def dot_S512x6_S6x512_S512x512_1_0_0_1_n_n : DotDims S512x6 S6x512 S512x512 where
  lhsContracting := [1]
  rhsContracting := [0]
  lhsNonContracting := [0]
  rhsNonContracting := [1]
  lhsBatch := []
  rhsBatch := []
  wf := dot_S512x6_S6x512_S512x512_1_0_0_1_n_n_wf
def dot_S21x256_S256x4096_S21x4096_1_0_0_1_n_n : DotDims S21x256 S256x4096 S21x4096 where
  lhsContracting := [1]
  rhsContracting := [0]
  lhsNonContracting := [0]
  rhsNonContracting := [1]
  lhsBatch := []
  rhsBatch := []
  wf := dot_S21x256_S256x4096_S21x4096_1_0_0_1_n_n_wf
def dot_S21x21_S21x4096_S21x4096_1_0_0_1_n_n : DotDims S21x21 S21x4096 S21x4096 where
  lhsContracting := [1]
  rhsContracting := [0]
  lhsNonContracting := [0]
  rhsNonContracting := [1]
  lhsBatch := []
  rhsBatch := []
  wf := dot_S21x21_S21x4096_S21x4096_1_0_0_1_n_n_wf

abbrev win0_0 : Pipeline.Window sig grid0 :=
  Pipeline.Window.ofSpec (Memref.whole main_v15) S3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S6x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S6x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21_0) S512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21_1) S512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_2) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v21_3) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v25) S21x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v27) S21x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21_0) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21_1) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg3) S21x21.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg4) S21x21.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg5) S21x21.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v28) S21x4096.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v28) S21x8192.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v27) S21x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21_0) S256x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21_1) S256x4096.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1x4096.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S1x4096.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg3) S21x21.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg4) S21x21.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg5) S21x21.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v29) S21x4096.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun _ => false | 9 => fun i => !(k2_cond2 i == 1#1) | ⟨_ + 10, h⟩ => absurd h (Nat.not_lt.2 (Nat.le_add_left _ _))

abbrev win3_0 : Pipeline.Window sig grid3 :=
  Pipeline.Window.ofSpec (Memref.whole main_v29) S21x8192.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v27) S21x4096.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v21_0) S256x4096.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v21_1) S256x4096.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v22) S1x4096.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v23) S1x4096.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg3) S21x21.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg4) S21x21.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg5) S21x21.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v30) S21x4096.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev idle3 : Fin 10 → grid3.Coords → Bool := fun | 0 => fun _ => false | 1 => fun _ => false | 2 => fun _ => false | 3 => fun _ => false | 4 => fun _ => false | 5 => fun _ => false | 6 => fun _ => false | 7 => fun _ => false | 8 => fun _ => false | 9 => fun i => !(k3_cond2 i == 1#1) | ⟨_ + 10, h⟩ => absurd h (Nat.not_lt.2 (Nat.le_add_left _ _))

abbrev win4_0 : Pipeline.Window sig grid4 :=
  Pipeline.Window.ofSpec (Memref.whole main_v30) S21x8192.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v27) S21x4096.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v21_0) S256x4096.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v21_1) S256x4096.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v22) S1x4096.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v23) S1x4096.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg3) S21x21.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg4) S21x21.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg5) S21x21.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v31) S21x4096.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev idle4 : Fin 10 → grid4.Coords → Bool := fun | 0 => fun _ => false | 1 => fun _ => false | 2 => fun _ => false | 3 => fun _ => false | 4 => fun _ => false | 5 => fun _ => false | 6 => fun _ => false | 7 => fun _ => false | 8 => fun _ => false | 9 => fun i => !(k4_cond2 i == 1#1) | ⟨_ + 10, h⟩ => absurd h (Nat.not_lt.2 (Nat.le_add_left _ _))

abbrev win5_0 : Pipeline.Window sig grid5 :=
  Pipeline.Window.ofSpec (Memref.whole main_v31) S21x8192.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v27) S21x4096.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v21_0) S256x4096.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v21_1) S256x4096.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v22) S1x4096.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v23) S1x4096.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg3) S21x21.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg4) S21x21.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg5) S21x21.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v32) S21x4096.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev idle5 : Fin 10 → grid5.Coords → Bool := fun | 0 => fun _ => false | 1 => fun _ => false | 2 => fun _ => false | 3 => fun _ => false | 4 => fun _ => false | 5 => fun _ => false | 6 => fun _ => false | 7 => fun _ => false | 8 => fun _ => false | 9 => fun i => !(k5_cond2 i == 1#1) | ⟨_ + 10, h⟩ => absurd h (Nat.not_lt.2 (Nat.le_add_left _ _))

class Facts : Prop extends Facts₀ where

variable [Facts]
-- ==== ReferenceIdeal.lean ====
abbrev S1x3x8x32x32 : Shape := ⟨5, ![1, 3, 8, 32, 32]⟩
abbrev S1x21x8x32x32 : Shape := ⟨5, ![1, 21, 8, 32, 32]⟩
abbrev S21x21 : Shape := ⟨2, ![21, 21]⟩
abbrev S3x8x32x32 : Shape := ⟨4, ![3, 8, 32, 32]⟩
abbrev S8 : Shape := ⟨1, ![8]⟩
abbrev S32 : Shape := ⟨1, ![32]⟩
abbrev S8x32x32 : Shape := ⟨3, ![8, 32, 32]⟩
abbrev S1x8x32x32 : Shape := ⟨4, ![1, 8, 32, 32]⟩
abbrev S3x8192 : Shape := ⟨2, ![3, 8192]⟩
abbrev S_ : Shape := ⟨0, ![]⟩
abbrev S8192 : Shape := ⟨1, ![8192]⟩
abbrev S8192x3 : Shape := ⟨2, ![8192, 3]⟩
abbrev S8192x8192 : Shape := ⟨2, ![8192, 8192]⟩
abbrev S8192x1 : Shape := ⟨2, ![8192, 1]⟩
abbrev S1x8192 : Shape := ⟨2, ![1, 8192]⟩
abbrev S6x8192 : Shape := ⟨2, ![6, 8192]⟩
abbrev S8192x6 : Shape := ⟨2, ![8192, 6]⟩
abbrev S21x8x32x32 : Shape := ⟨4, ![21, 8, 32, 32]⟩
abbrev S21x8192 : Shape := ⟨2, ![21, 8192]⟩

abbrev nBuf : Space → Nat
  | .hbm => 230
  | .vmem => 0
  | .smem => 0
  | _ => 0

abbrev hbmTy0_0 (i : Nat) : BufTy := match i % 128 with
  | 0 => ⟨S1x3x8x32x32, .f32⟩
  | 1 => ⟨S1x21x8x32x32, .f32⟩
  | 2 => ⟨S1x21x8x32x32, .f32⟩
  | 3 => ⟨S21x21, .f32⟩
  | 4 => ⟨S21x21, .f32⟩
  | 5 => ⟨S21x21, .f32⟩
  | 6 => ⟨S3x8x32x32, .f32⟩
  | 7 => ⟨S8, .i32⟩
  | 8 => ⟨S32, .i32⟩
  | 9 => ⟨S32, .i32⟩
  | 10 => ⟨S8x32x32, .i32⟩
  | 11 => ⟨S8x32x32, .i32⟩
  | 12 => ⟨S8x32x32, .i32⟩
  | 13 => ⟨S1x8x32x32, .i32⟩
  | 14 => ⟨S1x8x32x32, .i32⟩
  | 15 => ⟨S1x8x32x32, .i32⟩
  | 16 => ⟨S3x8x32x32, .i32⟩
  | 17 => ⟨S3x8192, .i32⟩
  | 18 => ⟨S3x8192, .f32⟩
  | 19 => ⟨S_, .f32⟩
  | 20 => ⟨S3x8192, .f32⟩
  | 21 => ⟨S3x8192, .f32⟩
  | 22 => ⟨S3x8192, .f32⟩
  | 23 => ⟨S_, .f32⟩
  | 24 => ⟨S8192, .f32⟩
  | 25 => ⟨S8192x3, .f32⟩
  | 26 => ⟨S8192x8192, .f32⟩
  | 27 => ⟨S8192x1, .f32⟩
  | 28 => ⟨S1x8192, .f32⟩
  | 29 => ⟨S8192x8192, .f32⟩
  | 30 => ⟨S8192x8192, .f32⟩
  | 31 => ⟨S8192x8192, .f32⟩
  | 32 => ⟨S_, .f32⟩
  | 33 => ⟨S8192x8192, .f32⟩
  | 34 => ⟨S8192x8192, .f32⟩
  | 35 => ⟨S8192x8192, .f32⟩
  | 36 => ⟨S_, .f32⟩
  | 37 => ⟨S8192x8192, .f32⟩
  | 38 => ⟨S8192x8192, .f32⟩
  | 39 => ⟨S_, .f32⟩
  | 40 => ⟨S8192x8192, .f32⟩
  | 41 => ⟨S8192x8192, .f32⟩
  | 42 => ⟨S8192x8192, .f32⟩
  | 43 => ⟨S_, .f32⟩
  | 44 => ⟨S3x8192, .f32⟩
  | 45 => ⟨S3x8192, .f32⟩
  | 46 => ⟨S3x8192, .f32⟩
  | 47 => ⟨S_, .f32⟩
  | 48 => ⟨S3x8192, .f32⟩
  | 49 => ⟨S3x8192, .f32⟩
  | 50 => ⟨S6x8192, .f32⟩
  | 51 => ⟨S6x8192, .f32⟩
  | 52 => ⟨S_, .f32⟩
  | 53 => ⟨S8192, .f32⟩
  | 54 => ⟨S8192x6, .f32⟩
  | 55 => ⟨S8192x8192, .f32⟩
  | 56 => ⟨S8192x1, .f32⟩
  | 57 => ⟨S1x8192, .f32⟩
  | 58 => ⟨S8192x8192, .f32⟩
  | 59 => ⟨S8192x8192, .f32⟩
  | 60 => ⟨S8192x8192, .f32⟩
  | 61 => ⟨S_, .f32⟩
  | 62 => ⟨S8192x8192, .f32⟩
  | 63 => ⟨S8192x8192, .f32⟩
  | 64 => ⟨S8192x8192, .f32⟩
  | 65 => ⟨S_, .f32⟩
  | 66 => ⟨S8192x8192, .f32⟩
  | 67 => ⟨S8192x8192, .f32⟩
  | 68 => ⟨S_, .f32⟩
  | 69 => ⟨S8192x8192, .f32⟩
  | 70 => ⟨S8192x8192, .f32⟩
  | 71 => ⟨S8192x8192, .f32⟩
  | 72 => ⟨S_, .f32⟩
  | 73 => ⟨S8192, .f32⟩
  | 74 => ⟨S_, .f32⟩
  | 75 => ⟨S8192, .f32⟩
  | 76 => ⟨S21x8x32x32, .f32⟩
  | 77 => ⟨S21x8192, .f32⟩
  | 78 => ⟨S21x8x32x32, .f32⟩
  | 79 => ⟨S21x8192, .f32⟩
  | 80 => ⟨S_, .f32⟩
  | 81 => ⟨S8192, .f32⟩
  | 82 => ⟨S_, .f32⟩
  | 83 => ⟨S8192, .f32⟩
  | 84 => ⟨S8192, .f32⟩
  | 85 => ⟨S1x8192, .f32⟩
  | 86 => ⟨S21x8192, .f32⟩
  | 87 => ⟨S21x8192, .f32⟩
  | 88 => ⟨S21x8192, .f32⟩
  | 89 => ⟨S_, .f32⟩
  | 90 => ⟨S8192, .f32⟩
  | 91 => ⟨S1x8192, .f32⟩
  | 92 => ⟨S21x8192, .f32⟩
  | 93 => ⟨S21x8192, .f32⟩
  | 94 => ⟨S21x8192, .f32⟩
  | 95 => ⟨S1x8192, .f32⟩
  | 96 => ⟨S21x8192, .f32⟩
  | 97 => ⟨S21x8192, .f32⟩
  | 98 => ⟨S21x8192, .f32⟩
  | 99 => ⟨S1x8192, .f32⟩
  | 100 => ⟨S21x8192, .f32⟩
  | 101 => ⟨S21x8192, .f32⟩
  | 102 => ⟨S21x8192, .f32⟩
  | 103 => ⟨S21x8192, .f32⟩
  | 104 => ⟨S21x8192, .f32⟩
  | 105 => ⟨S21x8192, .f32⟩
  | 106 => ⟨S21x8192, .f32⟩
  | 107 => ⟨S_, .f32⟩
  | 108 => ⟨S8192, .f32⟩
  | 109 => ⟨S_, .f32⟩
  | 110 => ⟨S8192, .f32⟩
  | 111 => ⟨S8192, .f32⟩
  | 112 => ⟨S1x8192, .f32⟩
  | 113 => ⟨S21x8192, .f32⟩
  | 114 => ⟨S21x8192, .f32⟩
  | 115 => ⟨S21x8192, .f32⟩
  | 116 => ⟨S_, .f32⟩
  | 117 => ⟨S8192, .f32⟩
  | 118 => ⟨S1x8192, .f32⟩
  | 119 => ⟨S21x8192, .f32⟩
  | 120 => ⟨S21x8192, .f32⟩
  | 121 => ⟨S21x8192, .f32⟩
  | 122 => ⟨S1x8192, .f32⟩
  | 123 => ⟨S21x8192, .f32⟩
  | 124 => ⟨S21x8192, .f32⟩
  | 125 => ⟨S21x8192, .f32⟩
  | 126 => ⟨S1x8192, .f32⟩
  | 127 => ⟨S21x8192, .f32⟩
  | _ => ⟨S1x3x8x32x32, .f32⟩

abbrev hbmTy0_1 (i : Nat) : BufTy := match i % 128 with
  | 0 => ⟨S21x8192, .f32⟩
  | 1 => ⟨S21x8192, .f32⟩
  | 2 => ⟨S21x8192, .f32⟩
  | 3 => ⟨S21x8192, .f32⟩
  | 4 => ⟨S21x8192, .f32⟩
  | 5 => ⟨S21x8192, .f32⟩
  | 6 => ⟨S_, .f32⟩
  | 7 => ⟨S8192, .f32⟩
  | 8 => ⟨S_, .f32⟩
  | 9 => ⟨S8192, .f32⟩
  | 10 => ⟨S8192, .f32⟩
  | 11 => ⟨S1x8192, .f32⟩
  | 12 => ⟨S21x8192, .f32⟩
  | 13 => ⟨S21x8192, .f32⟩
  | 14 => ⟨S21x8192, .f32⟩
  | 15 => ⟨S_, .f32⟩
  | 16 => ⟨S8192, .f32⟩
  | 17 => ⟨S1x8192, .f32⟩
  | 18 => ⟨S21x8192, .f32⟩
  | 19 => ⟨S21x8192, .f32⟩
  | 20 => ⟨S21x8192, .f32⟩
  | 21 => ⟨S1x8192, .f32⟩
  | 22 => ⟨S21x8192, .f32⟩
  | 23 => ⟨S21x8192, .f32⟩
  | 24 => ⟨S21x8192, .f32⟩
  | 25 => ⟨S1x8192, .f32⟩
  | 26 => ⟨S21x8192, .f32⟩
  | 27 => ⟨S21x8192, .f32⟩
  | 28 => ⟨S21x8192, .f32⟩
  | 29 => ⟨S21x8192, .f32⟩
  | 30 => ⟨S21x8192, .f32⟩
  | 31 => ⟨S21x8192, .f32⟩
  | 32 => ⟨S21x8192, .f32⟩
  | 33 => ⟨S_, .f32⟩
  | 34 => ⟨S8192, .f32⟩
  | 35 => ⟨S_, .f32⟩
  | 36 => ⟨S8192, .f32⟩
  | 37 => ⟨S8192, .f32⟩
  | 38 => ⟨S1x8192, .f32⟩
  | 39 => ⟨S21x8192, .f32⟩
  | 40 => ⟨S21x8192, .f32⟩
  | 41 => ⟨S21x8192, .f32⟩
  | 42 => ⟨S_, .f32⟩
  | 43 => ⟨S8192, .f32⟩
  | 44 => ⟨S1x8192, .f32⟩
  | 45 => ⟨S21x8192, .f32⟩
  | 46 => ⟨S21x8192, .f32⟩
  | 47 => ⟨S21x8192, .f32⟩
  | 48 => ⟨S1x8192, .f32⟩
  | 49 => ⟨S21x8192, .f32⟩
  | 50 => ⟨S21x8192, .f32⟩
  | 51 => ⟨S21x8192, .f32⟩
  | 52 => ⟨S1x8192, .f32⟩
  | 53 => ⟨S21x8192, .f32⟩
  | 54 => ⟨S21x8192, .f32⟩
  | 55 => ⟨S21x8192, .f32⟩
  | 56 => ⟨S21x8192, .f32⟩
  | 57 => ⟨S21x8192, .f32⟩
  | 58 => ⟨S21x8192, .f32⟩
  | 59 => ⟨S21x8192, .f32⟩
  | 60 => ⟨S_, .f32⟩
  | 61 => ⟨S8192, .f32⟩
  | 62 => ⟨S_, .f32⟩
  | 63 => ⟨S8192, .f32⟩
  | 64 => ⟨S8192, .f32⟩
  | 65 => ⟨S1x8192, .f32⟩
  | 66 => ⟨S21x8192, .f32⟩
  | 67 => ⟨S21x8192, .f32⟩
  | 68 => ⟨S21x8192, .f32⟩
  | 69 => ⟨S_, .f32⟩
  | 70 => ⟨S8192, .f32⟩
  | 71 => ⟨S1x8192, .f32⟩
  | 72 => ⟨S21x8192, .f32⟩
  | 73 => ⟨S21x8192, .f32⟩
  | 74 => ⟨S21x8192, .f32⟩
  | 75 => ⟨S1x8192, .f32⟩
  | 76 => ⟨S21x8192, .f32⟩
  | 77 => ⟨S21x8192, .f32⟩
  | 78 => ⟨S21x8192, .f32⟩
  | 79 => ⟨S1x8192, .f32⟩
  | 80 => ⟨S21x8192, .f32⟩
  | 81 => ⟨S21x8192, .f32⟩
  | 82 => ⟨S21x8192, .f32⟩
  | 83 => ⟨S21x8192, .f32⟩
  | 84 => ⟨S21x8192, .f32⟩
  | 85 => ⟨S21x8192, .f32⟩
  | 86 => ⟨S21x8192, .f32⟩
  | 87 => ⟨S_, .f32⟩
  | 88 => ⟨S8192, .f32⟩
  | 89 => ⟨S_, .f32⟩
  | 90 => ⟨S8192, .f32⟩
  | 91 => ⟨S8192, .f32⟩
  | 92 => ⟨S1x8192, .f32⟩
  | 93 => ⟨S21x8192, .f32⟩
  | 94 => ⟨S21x8192, .f32⟩
  | 95 => ⟨S21x8192, .f32⟩
  | 96 => ⟨S_, .f32⟩
  | 97 => ⟨S8192, .f32⟩
  | 98 => ⟨S1x8192, .f32⟩
  | 99 => ⟨S21x8192, .f32⟩
  | 100 => ⟨S21x8192, .f32⟩
  | 101 => ⟨S1x21x8x32x32, .f32⟩
  | _ => ⟨S1x3x8x32x32, .f32⟩

abbrev hbmTy (i : Nat) : BufTy := match i / 128 with
  | 0 => hbmTy0_0 i
  | 1 => hbmTy0_1 i
  | _ => ⟨S1x3x8x32x32, .f32⟩

abbrev bufTy : (tb : Table) → Fin (tcTables nBuf tb) → BufTy
  | .hbm, ⟨i, _⟩ => hbmTy i
  | _, _ => ⟨S1x3x8x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_15 : Ref sig .tc := ⟨.hbm, 107, rfl⟩
abbrev main_v85 : Ref sig .tc := ⟨.hbm, 108, rfl⟩
abbrev main_cst_16 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_17 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_18 : Ref sig .tc := ⟨.hbm, 134, rfl⟩
abbrev main_v109 : Ref sig .tc := ⟨.hbm, 135, rfl⟩
abbrev main_cst_19 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_20 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_cst_21 : Ref sig .tc := ⟨.hbm, 161, rfl⟩
abbrev main_v133 : Ref sig .tc := ⟨.hbm, 162, rfl⟩
abbrev main_cst_22 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_cst_23 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_cst_24 : Ref sig .tc := ⟨.hbm, 188, rfl⟩
abbrev main_v157 : Ref sig .tc := ⟨.hbm, 189, rfl⟩
abbrev main_cst_25 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_cst_26 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_cst_27 : Ref sig .tc := ⟨.hbm, 215, rfl⟩
abbrev main_v181 : Ref sig .tc := ⟨.hbm, 216, rfl⟩
abbrev main_cst_28 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_cst_29 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩

abbrev nD : Nat := 1
abbrev τ : Topo := Topo.v7x

variable {F : FTy → Type} [FloatOps F]

class Facts₀ : Prop where
  shapeCasts_S1x3x8x32x32_S3x8x32x32 : S1x3x8x32x32.ShapeCasts S3x8x32x32
  bcast_S8_S8x32x32_0 : S8.BroadcastsInDim S8x32x32 (![0] : Fin 1 → Fin S8x32x32.rank)
  bcast_S32_S8x32x32_1 : S32.BroadcastsInDim S8x32x32 (![1] : Fin 1 → Fin S8x32x32.rank)
  bcast_S32_S8x32x32_2 : S32.BroadcastsInDim S8x32x32 (![2] : Fin 1 → Fin S8x32x32.rank)
  bcast_S8x32x32_S1x8x32x32_1_2_3 : S8x32x32.BroadcastsInDim S1x8x32x32 (![1, 2, 3] : Fin 3 → Fin S1x8x32x32.rank)
  concatenates_S1x8x32x32_S1x8x32x32_S1x8x32x32_S3x8x32x32_d0 : Shape.Concatenates [S1x8x32x32, S1x8x32x32, S1x8x32x32] S3x8x32x32 0
  shapeCasts_S3x8x32x32_S3x8192 : S3x8x32x32.ShapeCasts S3x8192
  bcast_S_S3x8192 : S_.BroadcastsInDim S3x8192 (![] : Fin 0 → Fin S3x8192.rank)
  reducesTo_S3x8192_S8192_d0 : S3x8192.ReducesTo [0] S8192
  h_S_ : 0 < S_.numel
  transposes_S3x8192_S8192x3_1_0 : S3x8192.Transposes [1, 0] S8192x3
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  concatenates_S3x8192_S3x8192_S6x8192_d0 : Shape.Concatenates [S3x8192, S3x8192] S6x8192 0
  reducesTo_S6x8192_S8192_d0 : S6x8192.ReducesTo [0] S8192
  transposes_S6x8192_S8192x6_1_0 : S6x8192.Transposes [1, 0] S8192x6
  reducesTo_S8192x8192_S8192_d1 : S8192x8192.ReducesTo [1] S8192
  shapeCasts_S1x21x8x32x32_S21x8x32x32 : S1x21x8x32x32.ShapeCasts S21x8x32x32
  shapeCasts_S21x8x32x32_S21x8192 : S21x8x32x32.ShapeCasts S21x8192
  reducesTo_S21x8192_S8192_d0 : S21x8192.ReducesTo [0] S8192
  bcast_S_S8192 : S_.BroadcastsInDim S8192 (![] : Fin 0 → Fin S8192.rank)
  bcast_S1x8192_S21x8192_0_1 : S1x8192.BroadcastsInDim S21x8192 (![0, 1] : Fin 2 → Fin S21x8192.rank)
  shapeCasts_S21x8192_S1x21x8x32x32 : S21x8192.ShapeCasts S1x21x8x32x32
  dot_S8192x3_S3x8192_S8192x8192_1_0_0_1_n_n_wf : DotDims.WF S8192x3 S3x8192 S8192x8192 [1] [0] [0] [1] [] []
  dot_S8192x6_S6x8192_S8192x8192_1_0_0_1_n_n_wf : DotDims.WF S8192x6 S6x8192 S8192x8192 [1] [0] [0] [1] [] []
  dot_S21x8192_S8192x8192_S21x8192_1_0_0_1_n_n_wf : DotDims.WF S21x8192 S8192x8192 S21x8192 [1] [0] [0] [1] [] []
  dot_S21x21_S21x8192_S21x8192_1_0_0_1_n_n_wf : DotDims.WF S21x21 S21x8192 S21x8192 [1] [0] [0] [1] [] []

variable [Facts₀]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf
def dot_S8192x6_S6x8192_S8192x8192_1_0_0_1_n_n : DotDims S8192x6 S6x8192 S8192x8192 where
  lhsContracting := [1]
  rhsContracting := [0]
  lhsNonContracting := [0]
  rhsNonContracting := [1]
  lhsBatch := []
  rhsBatch := []
  wf := dot_S8192x6_S6x8192_S8192x8192_1_0_0_1_n_n_wf
def dot_S21x8192_S8192x8192_S21x8192_1_0_0_1_n_n : DotDims S21x8192 S8192x8192 S21x8192 where
  lhsContracting := [1]
  rhsContracting := [0]
  lhsNonContracting := [0]
  rhsNonContracting := [1]
  lhsBatch := []
  rhsBatch := []
  wf := dot_S21x8192_S8192x8192_S21x8192_1_0_0_1_n_n_wf
def dot_S21x21_S21x8192_S21x8192_1_0_0_1_n_n : DotDims S21x21 S21x8192 S21x8192 where
  lhsContracting := [1]
  rhsContracting := [0]
  lhsNonContracting := [0]
  rhsNonContracting := [1]
  lhsBatch := []
  rhsBatch := []
  wf := dot_S21x21_S21x8192_S21x8192_1_0_0_1_n_n_wf

class Facts : Prop extends Facts₀ where

variable [Facts]
-- ==== Proof.BitsR0Runs.lean ====
/- Region 0 (the 16 x 16 grid of 512 x 512 blocks): what its three whole-body runs share — the body's two branch
   conditions in closed form over the grid, where the two column outputs are idle, the staging and scratch memrefs, and
   the region's invariant with the two carried column accumulators opened. -/
import proofs.«162179_j58609123721967_2_alg».proof.Proof.Gen.Kernel.Launch
import proofs.«162179_j58609123721967_2_alg».proof.Proof.Gen.Kernel.Skeleton
import proofs.«162179_j58609123721967_2_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The body's branch conditions

Region 0's grid is 16 x 16; a point's second coordinate `j` is its position within a row of 16 blocks.
The body zeroes the two carried column accumulators where `j = 0` and copies them to the two column outputs
where `j = 15`. -/

/-- The condition of the body's first `scf.if` (`k0_h1`, in the body's first part): `j = 0`, from the grid
    coordinates (the scalar chain substituted). -/
abbrev cond0_0 (i : grid0.Coords) : Prop := (Scalar.cmpi .ne (Scalar.extui (Scalar.cmpi .eq (BitVec.ofNat 32 (i 1).val) 0#32)) 0#32) = 1#1
/-- It holds at the first point of each row of 16 — decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second `scf.if` (`k0_h2`): `j = 15`. -/
abbrev cond0_1 (i : grid0.Coords) : Prop := k0_cond2 i = 1#1
/-- It holds at the last point of each row of 16 — decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle

Windows 0–3 are inputs and windows 4, 5 are stored at every point: never idle. Windows 6, 7 are stored only
where `j = 15` (case C); elsewhere they are idle and not written back. -/

/-- Window 0 is never idle. -/
theorem liveAt0_0 : ∀ t : Fin cfg0.N, cfg0.idle 0 (grid0.coords t) = false := by decide +kernel
/-- Window 1 is never idle. -/
theorem liveAt0_1 : ∀ t : Fin cfg0.N, cfg0.idle 1 (grid0.coords t) = false := by decide +kernel
/-- Window 2 is never idle. -/
theorem liveAt0_2 : ∀ t : Fin cfg0.N, cfg0.idle 2 (grid0.coords t) = false := by decide +kernel
/-- Window 3 is never idle. -/
theorem liveAt0_3 : ∀ t : Fin cfg0.N, cfg0.idle 3 (grid0.coords t) = false := by decide +kernel
/-- Window 4 is never idle. -/
theorem liveAt0_4 : ∀ t : Fin cfg0.N, cfg0.idle 4 (grid0.coords t) = false := by decide +kernel
/-- Window 5 is never idle. -/
theorem liveAt0_5 : ∀ t : Fin cfg0.N, cfg0.idle 5 (grid0.coords t) = false := by decide +kernel
/-- At the points of case A (`j = 0`) output 6 is idle: the case stores nothing into it. -/
theorem idleAt0_6_A : ∀ t : Fin cfg0.N, cond0_0 (grid0.coords t) → ¬cond0_1 (grid0.coords t) → cfg0.idle 6 (grid0.coords t) = true := by decide +kernel
/-- At the points of case A output 6's block is not written back. -/
theorem noFlush0_6_A : ∀ t : Fin cfg0.N, cond0_0 (grid0.coords t) → ¬cond0_1 (grid0.coords t) → (cfg0.win 6).flush t = false := by decide +kernel
/-- At the points of case B (`0 < j < 15`) output 6 is idle. -/
theorem idleAt0_6_B : ∀ t : Fin cfg0.N, ¬cond0_0 (grid0.coords t) → ¬cond0_1 (grid0.coords t) → cfg0.idle 6 (grid0.coords t) = true := by decide +kernel
/-- At the points of case B output 6's block is not written back. -/
theorem noFlush0_6_B : ∀ t : Fin cfg0.N, ¬cond0_0 (grid0.coords t) → ¬cond0_1 (grid0.coords t) → (cfg0.win 6).flush t = false := by decide +kernel
/-- At the points of case C (`j = 15`) output 6 is live: the case stores into it. -/
theorem liveAt0_6_C : ∀ t : Fin cfg0.N, ¬cond0_0 (grid0.coords t) → cond0_1 (grid0.coords t) → cfg0.idle 6 (grid0.coords t) = false := by decide +kernel
/-- At the points of case A (`j = 0`) output 7 is idle: the case stores nothing into it. -/
theorem idleAt0_7_A : ∀ t : Fin cfg0.N, cond0_0 (grid0.coords t) → ¬cond0_1 (grid0.coords t) → cfg0.idle 7 (grid0.coords t) = true := by decide +kernel
/-- At the points of case A output 7's block is not written back. -/
theorem noFlush0_7_A : ∀ t : Fin cfg0.N, cond0_0 (grid0.coords t) → ¬cond0_1 (grid0.coords t) → (cfg0.win 7).flush t = false := by decide +kernel
/-- At the points of case B (`0 < j < 15`) output 7 is idle. -/
theorem idleAt0_7_B : ∀ t : Fin cfg0.N, ¬cond0_0 (grid0.coords t) → ¬cond0_1 (grid0.coords t) → cfg0.idle 7 (grid0.coords t) = true := by decide +kernel
/-- At the points of case B output 7's block is not written back. -/
theorem noFlush0_7_B : ∀ t : Fin cfg0.N, ¬cond0_0 (grid0.coords t) → ¬cond0_1 (grid0.coords t) → (cfg0.win 7).flush t = false := by decide +kernel
/-- At the points of case C (`j = 15`) output 7 is live: the case stores into it. -/
theorem liveAt0_7_C : ∀ t : Fin cfg0.N, ¬cond0_0 (grid0.coords t) → cond0_1 (grid0.coords t) → cfg0.idle 7 (grid0.coords t) = false := by decide +kernel

/-! ## The staging memrefs, the scratch operands and the views contents are stated through -/

/-- One staging buffer of output window 4, through which its contents are stated (the choice does not matter). -/
abbrev VO0_4 : View sig .tc .vmem S512x512 .bf16 := (Memref.whole cc0_stg4_0 : Memref sig .tc .vmem S512x512 .bf16).view
/-- One staging buffer of output window 5, through which its contents are stated (the choice does not matter). -/
abbrev VO0_5 : View sig .tc .vmem S512x512 .bf16 := (Memref.whole cc0_stg5_0 : Memref sig .tc .vmem S512x512 .bf16).view
/-- One staging buffer of output window 6, through which its contents are stated (the choice does not matter). -/
abbrev VO0_6 : View sig .tc .vmem S512x1 .f32 := (Memref.whole cc0_stg6_0 : Memref sig .tc .vmem S512x1 .f32).view
/-- One staging buffer of output window 7, through which its contents are stated (the choice does not matter). -/
abbrev VO0_7 : View sig .tc .vmem S512x1 .f32 := (Memref.whole cc0_stg7_0 : Memref sig .tc .vmem S512x1 .f32).view
/-- Each window's current staging memref at point `t`, as the pipeline passes it to the body, and its wholeness. -/
abbrev ms0_0 (t : Fin cfg0.N) : Memref sig .tc .vmem S3x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows — the two column
    accumulators (512 rows, one column) carried along a row of 16 points. -/
abbrev scM0_0 : Memref sig .tc .vmem S512x1 .f32 := Memref.whole cc0_scratch0
abbrev scM0_1 : Memref sig .tc .vmem S512x1 .f32 := Memref.whole cc0_scratch1
/-- The carried scratch as views: what they hold is stated through them. -/
abbrev VS0_0 : View sig .tc .vmem S512x1 .f32 := scM0_0.view
abbrev VS0_1 : View sig .tc .vmem S512x1 .f32 := scM0_1.view

/-- Every scoped buffer of the core that is neither a staging buffer of region 0 nor one of its two scratch operands,
    at some contents each: carried through the region unopened. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The region's invariant with the two scratch operands as memrefs owned at some contents, the other scoped buffers
    unopened, and the generator register at some state: what the body obligation hands the run and takes back. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

end Cert.Kernel.Hand

end
-- ==== Proof.BitsR0RunA.lean ====
/- Region 0: the whole-body run of the kernel in case A (`j = 0`: the first point of a row of 16) — the body's triple, with the pieces each
   stored buffer ends with as its witness. One module per case. -/
import proofs.«162179_j58609123721967_2_alg».proof.Proof.BitsR0Runs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- (the run's proof term is large: the definition's epilogue walks it past the default budget)
set_option maxHeartbeats 1000000 in
/-- What the body's stores leave in each output window's staging memref and in the two carried column accumulators, as
    pieces (last first), IN CASE A (`j = 0`: the first point of a row of 16), WITH the proof that on whole memrefs — the four inputs' at their
    blocks `x0 … x3`; the two 512 x 512 outputs' at anything; the two column outputs' at contents `xi6`, `xi7` handed back untouched (the case stores nothing into them);
    the two accumulators at anything (the case zeroes them first) — the body runs to the continuation holding the inputs as they were and
    every stored buffer with its pieces written. The body is its first part followed by the rest; each `scf.if` is decided
    by the case's hypotheses. -/
noncomputable def kernelRun0_A (c : Dev nD) (i : grid0.Coords) (arg2 : Memref sig .tc .vmem S3x512 .f32) (harg2 : arg2.IsWhole) (arg3 : Memref sig .tc .vmem S3x512 .f32) (harg3 : arg3.IsWhole) (arg4 : Memref sig .tc .vmem S6x512 .f32) (harg4 : arg4.IsWhole) (arg5 : Memref sig .tc .vmem S6x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S3x512 .f32) (x1 : Vec F S3x512 .f32) (x2 : Vec F S6x512 .f32) (x3 : Vec F S6x512 .f32) :
    Σ' (L4 : List (View.Piece (Elt F) S512x512 .bf16)) (L5 : List (View.Piece (Elt F) S512x512 .bf16)) (L6 : List (View.Piece (Elt F) S512x1 .f32)) (L7 : List (View.Piece (Elt F) S512x1 .f32)) (LS0 : List (View.Piece (Elt F) S512x1 .f32)), { LS1 : List (View.Piece (Elt F) S512x1 .f32) //
      ∀ (xi6 : Vec F S512x1 .f32) (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__kernel1 i arg2 harg2 arg3 harg3 arg4 harg4 arg5 harg5 arg6 harg6 arg7 harg7 arg8 harg8 arg9 harg9 arg10 harg10 arg11 harg11) K } := by
  refine ⟨?_, ?_, [], [], ?_, ?_, fun xi6 xi7 E K => ?run⟩
  case run =>
    simp only [cc0__kernel1_eq_skeleton]; unfold cc0__kernel1_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Hand

end
-- ==== Proof.BitsR0RunB.lean ====
/- Region 0: the whole-body run of the kernel in case B (`0 < j < 15`: the middle points of a row of 16) — the body's triple, with the pieces each
   stored buffer ends with as its witness. One module per case. -/
import proofs.«162179_j58609123721967_2_alg».proof.Proof.BitsR0RunA

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- (the run's proof term is large: the definition's epilogue walks it past the default budget)
set_option maxHeartbeats 1000000 in
/-- What the body's stores leave in each output window's staging memref and in the two carried column accumulators, as
    pieces (last first), IN CASE B (`0 < j < 15`: the middle points of a row of 16), WITH the proof that on whole memrefs — the four inputs' at their
    blocks `x0 … x3`; the two 512 x 512 outputs' at anything; the two column outputs' at contents `xi6`, `xi7` handed back untouched (the case stores nothing into them);
    the two accumulators at what the point before left (`xs0`, `xs1`) — the body runs to the continuation holding the inputs as they were and
    every stored buffer with its pieces written. The body is its first part followed by the rest; each `scf.if` is decided
    by the case's hypotheses. -/
noncomputable def kernelRun0_B (c : Dev nD) (i : grid0.Coords) (arg2 : Memref sig .tc .vmem S3x512 .f32) (harg2 : arg2.IsWhole) (arg3 : Memref sig .tc .vmem S3x512 .f32) (harg3 : arg3.IsWhole) (arg4 : Memref sig .tc .vmem S6x512 .f32) (harg4 : arg4.IsWhole) (arg5 : Memref sig .tc .vmem S6x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S3x512 .f32) (x1 : Vec F S3x512 .f32) (x2 : Vec F S6x512 .f32) (x3 : Vec F S6x512 .f32) (xs0 : Vec F S512x1 .f32) (xs1 : Vec F S512x1 .f32) :
    Σ' (L4 : List (View.Piece (Elt F) S512x512 .bf16)) (L5 : List (View.Piece (Elt F) S512x512 .bf16)) (L6 : List (View.Piece (Elt F) S512x1 .f32)) (L7 : List (View.Piece (Elt F) S512x1 .f32)) (LS0 : List (View.Piece (Elt F) S512x1 .f32)), { LS1 : List (View.Piece (Elt F) S512x1 .f32) //
      ∀ (xi6 : Vec F S512x1 .f32) (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__kernel1 i arg2 harg2 arg3 harg3 arg4 harg4 arg5 harg5 arg6 harg6 arg7 harg7 arg8 harg8 arg9 harg9 arg10 harg10 arg11 harg11) K } := by
  refine ⟨?_, ?_, [], [], ?_, ?_, fun xi6 xi7 E K => ?run⟩
  case run =>
    simp only [cc0__kernel1_eq_skeleton]; unfold cc0__kernel1_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Hand

end
-- ==== Proof.BitsR0RunC.lean ====
/- Region 0: the whole-body run of the kernel in case C (`j = 15`: the last point of a row of 16) — the body's triple, with the pieces each
   stored buffer ends with as its witness. One module per case. -/
import proofs.«162179_j58609123721967_2_alg».proof.Proof.BitsR0RunB

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- (the run's proof term is large: the definition's epilogue walks it past the default budget)
set_option maxHeartbeats 1000000 in
/-- What the body's stores leave in each output window's staging memref and in the two carried column accumulators, as
    pieces (last first), IN CASE C (`j = 15`: the last point of a row of 16), WITH the proof that on whole memrefs — the four inputs' at their
    blocks `x0 … x3`; the two 512 x 512 outputs' at anything; the two column outputs' at anything (the case copies the two accumulators into them);
    the two accumulators at what the point before left (`xs0`, `xs1`) — the body runs to the continuation holding the inputs as they were and
    every stored buffer with its pieces written. The body is its first part followed by the rest; each `scf.if` is decided
    by the case's hypotheses. -/
noncomputable def kernelRun0_C (c : Dev nD) (i : grid0.Coords) (arg2 : Memref sig .tc .vmem S3x512 .f32) (harg2 : arg2.IsWhole) (arg3 : Memref sig .tc .vmem S3x512 .f32) (harg3 : arg3.IsWhole) (arg4 : Memref sig .tc .vmem S6x512 .f32) (harg4 : arg4.IsWhole) (arg5 : Memref sig .tc .vmem S6x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S3x512 .f32) (x1 : Vec F S3x512 .f32) (x2 : Vec F S6x512 .f32) (x3 : Vec F S6x512 .f32) (xs0 : Vec F S512x1 .f32) (xs1 : Vec F S512x1 .f32) :
    Σ' (L4 : List (View.Piece (Elt F) S512x512 .bf16)) (L5 : List (View.Piece (Elt F) S512x512 .bf16)) (L6 : List (View.Piece (Elt F) S512x1 .f32)) (L7 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__kernel1 i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__kernel1_eq_skeleton]; unfold cc0__kernel1_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    iexists _; iexact HS1

end Cert.Kernel.Hand

end
-- ==== Proof.BitsR0Frame.lean ====
/- Region 0 (the 16 x 16 grid of 512 x 512 blocks), the frame half at a parameter V, the TensorCore's buffer contents when
   the region is entered: what each case of the body leaves in the stored buffers (covers and contents), what the four
   outputs and the two carried column accumulators hold point by point, the region's invariant along the grid, the proof
   data, the body obligation, and the invariant's entry and exit. -/
import proofs.«162179_j58609123721967_2_alg».proof.Proof.BitsR0RunC

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What region 0 leaves after a point, as one tuple: output windows 4, 5 (the two 512 x 512 blocks), output windows
    6, 7 (the two columns written at the end of a row), then the two carried column accumulators. -/
abbrev Outs0 (F : FTy → Type) [FloatOps F] : Type :=
  Vec F S512x512 .bf16 × Vec F S512x512 .bf16 × Vec F S512x1 .f32 × Vec F S512x1 .f32 × Vec F S512x1 .f32 × Vec F S512x1 .f32

/-! ## What each case leaves in the stored buffers: covers and contents

Stated on any whole memrefs, as the runs are. Every stored buffer receives covering stores of its whole shape, so what
it holds afterwards is its pieces read back over anything. -/

section Cases

variable (c : Dev nD) (i : grid0.Coords)
  (arg2 : Memref sig .tc .vmem S3x512 .f32) (harg2 : arg2.IsWhole) (arg3 : Memref sig .tc .vmem S3x512 .f32) (harg3 : arg3.IsWhole)
  (arg4 : Memref sig .tc .vmem S6x512 .f32) (harg4 : arg4.IsWhole) (arg5 : Memref sig .tc .vmem S6x512 .f32) (harg5 : arg5.IsWhole)
  (arg6 : Memref sig .tc .vmem S512x512 .bf16) (harg6 : arg6.IsWhole) (arg7 : Memref sig .tc .vmem S512x512 .bf16) (harg7 : arg7.IsWhole)
  (arg8 : Memref sig .tc .vmem S512x1 .f32) (harg8 : arg8.IsWhole) (arg9 : Memref sig .tc .vmem S512x1 .f32) (harg9 : arg9.IsWhole)
  (arg10 : Memref sig .tc .vmem S512x1 .f32) (harg10 : arg10.IsWhole) (arg11 : Memref sig .tc .vmem S512x1 .f32) (harg11 : arg11.IsWhole)

section CaseA
/-! ### Case A: j = 0 (the accumulators are zeroed, then the point's contribution is added) -/

variable (hc0 : cond0_0 i) (hc1 : ¬cond0_1 i)
  (x0 : Vec F S3x512 .f32) (x1 : Vec F S3x512 .f32) (x2 : Vec F S6x512 .f32) (x3 : Vec F S6x512 .f32)

local notation "runA" => kernelRun0_A c i arg2 harg2 arg3 harg3 arg4 harg4 arg5 harg5 arg6 harg6 arg7 harg7 arg8 harg8 arg9 harg9 arg10 harg10 arg11 harg11 hc0 hc1 x0 x1 x2 x3

/-- Case A's pieces for output 4 tile its block (one covering store), so they cover it. -/
theorem cover0_A_4 (y : S512x512.Idx) : ∃ pc ∈ (runA).1, y ∈ pc.1.set :=
  View.cover_of_tiledL (runA).1 S512x512.size (by sl_kernel_rfl) y
/-- What case A leaves in output 4's staging buffer: its pieces read back over junk. -/
def out0_A_4 : Vec F S512x512 .bf16 := VO0_4.read (Elt F) (VO0_4.writes (Elt F) VO0_4.junk (runA).1)

/-- Case A's pieces for output 5 tile its block (one covering store), so they cover it. -/
theorem cover0_A_5 (y : S512x512.Idx) : ∃ pc ∈ (runA).2.1, y ∈ pc.1.set :=
  View.cover_of_tiledL (runA).2.1 S512x512.size (by sl_kernel_rfl) y
/-- What case A leaves in output 5's staging buffer. -/
def out0_A_5 : Vec F S512x512 .bf16 := VO0_5.read (Elt F) (VO0_5.writes (Elt F) VO0_5.junk (runA).2.1)

/-- Case A stores nothing into output 6 (idle at its points and not written back there): no pieces, a placeholder that
    nothing consults. -/
def out0_A_6 : Vec F S512x1 .f32 := VO0_6.read (Elt F) (VO0_6.writes (Elt F) VO0_6.junk (runA).2.2.1)
/-- Case A stores nothing into output 7: a placeholder likewise. -/
def out0_A_7 : Vec F S512x1 .f32 := VO0_7.read (Elt F) (VO0_7.writes (Elt F) VO0_7.junk (runA).2.2.2.1)

/-- Case A's pieces for column accumulator 0 cover it (the zeroing store and the accumulating store are each whole). -/
theorem scover0_A_0 (y : S512x1.Idx) : ∃ pc ∈ (runA).2.2.2.2.1, y ∈ pc.1.set :=
  View.cover_of_tiledL (runA).2.2.2.2.1 S512x1.size (by sl_kernel_rfl) y
/-- What case A leaves in column accumulator 0. -/
def sout0_A_0 : Vec F S512x1 .f32 := VS0_0.read (Elt F) (VS0_0.writes (Elt F) VS0_0.junk (runA).2.2.2.2.1)

/-- Case A's pieces for column accumulator 1 cover it. -/
theorem scover0_A_1 (y : S512x1.Idx) : ∃ pc ∈ (runA).2.2.2.2.2.1, y ∈ pc.1.set :=
  View.cover_of_tiledL (runA).2.2.2.2.2.1 S512x1.size (by sl_kernel_rfl) y
/-- What case A leaves in column accumulator 1. -/
def sout0_A_1 : Vec F S512x1 .f32 := VS0_1.read (Elt F) (VS0_1.writes (Elt F) VS0_1.junk (runA).2.2.2.2.2.1)

end CaseA

section CaseB
/-! ### Case B: 0 < j < 15 (the point's contribution is added to what the point before left) -/

variable (hc0 : ¬cond0_0 i) (hc1 : ¬cond0_1 i)
  (x0 : Vec F S3x512 .f32) (x1 : Vec F S3x512 .f32) (x2 : Vec F S6x512 .f32) (x3 : Vec F S6x512 .f32)
  (xs0 : Vec F S512x1 .f32) (xs1 : Vec F S512x1 .f32)

local notation "runB" => kernelRun0_B c i arg2 harg2 arg3 harg3 arg4 harg4 arg5 harg5 arg6 harg6 arg7 harg7 arg8 harg8 arg9 harg9 arg10 harg10 arg11 harg11 hc0 hc1 x0 x1 x2 x3 xs0 xs1

/-- Case B's pieces for output 4 tile its block (one covering store), so they cover it. -/
theorem cover0_B_4 (y : S512x512.Idx) : ∃ pc ∈ (runB).1, y ∈ pc.1.set :=
  View.cover_of_tiledL (runB).1 S512x512.size (by sl_kernel_rfl) y
/-- What case B leaves in output 4's staging buffer: its pieces read back over junk. -/
def out0_B_4 : Vec F S512x512 .bf16 := VO0_4.read (Elt F) (VO0_4.writes (Elt F) VO0_4.junk (runB).1)

/-- Case B's pieces for output 5 tile its block (one covering store), so they cover it. -/
theorem cover0_B_5 (y : S512x512.Idx) : ∃ pc ∈ (runB).2.1, y ∈ pc.1.set :=
  View.cover_of_tiledL (runB).2.1 S512x512.size (by sl_kernel_rfl) y
/-- What case B leaves in output 5's staging buffer. -/
def out0_B_5 : Vec F S512x512 .bf16 := VO0_5.read (Elt F) (VO0_5.writes (Elt F) VO0_5.junk (runB).2.1)

/-- Case B stores nothing into output 6 (idle at its points and not written back there): a placeholder that nothing
    consults. -/
def out0_B_6 : Vec F S512x1 .f32 := VO0_6.read (Elt F) (VO0_6.writes (Elt F) VO0_6.junk (runB).2.2.1)
/-- Case B stores nothing into output 7: a placeholder likewise. -/
def out0_B_7 : Vec F S512x1 .f32 := VO0_7.read (Elt F) (VO0_7.writes (Elt F) VO0_7.junk (runB).2.2.2.1)

/-- Case B's one (whole) store into column accumulator 0 covers it. -/
theorem scover0_B_0 (y : S512x1.Idx) : ∃ pc ∈ (runB).2.2.2.2.1, y ∈ pc.1.set :=
  View.cover_of_tiledL (runB).2.2.2.2.1 S512x1.size (by sl_kernel_rfl) y
/-- What case B leaves in column accumulator 0. -/
def sout0_B_0 : Vec F S512x1 .f32 := VS0_0.read (Elt F) (VS0_0.writes (Elt F) VS0_0.junk (runB).2.2.2.2.1)

/-- Case B's one (whole) store into column accumulator 1 covers it. -/
theorem scover0_B_1 (y : S512x1.Idx) : ∃ pc ∈ (runB).2.2.2.2.2.1, y ∈ pc.1.set :=
  View.cover_of_tiledL (runB).2.2.2.2.2.1 S512x1.size (by sl_kernel_rfl) y
/-- What case B leaves in column accumulator 1. -/
def sout0_B_1 : Vec F S512x1 .f32 := VS0_1.read (Elt F) (VS0_1.writes (Elt F) VS0_1.junk (runB).2.2.2.2.2.1)

end CaseB

section CaseC
/-! ### Case C: j = 15 (as case B, then the two accumulators are copied to output windows 6 and 7) -/

variable (hc0 : ¬cond0_0 i) (hc1 : cond0_1 i)
  (x0 : Vec F S3x512 .f32) (x1 : Vec F S3x512 .f32) (x2 : Vec F S6x512 .f32) (x3 : Vec F S6x512 .f32)
  (xs0 : Vec F S512x1 .f32) (xs1 : Vec F S512x1 .f32)

local notation "runC" => kernelRun0_C c i arg2 harg2 arg3 harg3 arg4 harg4 arg5 harg5 arg6 harg6 arg7 harg7 arg8 harg8 arg9 harg9 arg10 harg10 arg11 harg11 hc0 hc1 x0 x1 x2 x3 xs0 xs1

/-- Case C's pieces for output 4 tile its block (one covering store), so they cover it. -/
theorem cover0_C_4 (y : S512x512.Idx) : ∃ pc ∈ (runC).1, y ∈ pc.1.set :=
  View.cover_of_tiledL (runC).1 S512x512.size (by sl_kernel_rfl) y
/-- What case C leaves in output 4's staging buffer: its pieces read back over junk. -/
def out0_C_4 : Vec F S512x512 .bf16 := VO0_4.read (Elt F) (VO0_4.writes (Elt F) VO0_4.junk (runC).1)

/-- Case C's pieces for output 5 tile its block (one covering store), so they cover it. -/
theorem cover0_C_5 (y : S512x512.Idx) : ∃ pc ∈ (runC).2.1, y ∈ pc.1.set :=
  View.cover_of_tiledL (runC).2.1 S512x512.size (by sl_kernel_rfl) y
/-- What case C leaves in output 5's staging buffer. -/
def out0_C_5 : Vec F S512x512 .bf16 := VO0_5.read (Elt F) (VO0_5.writes (Elt F) VO0_5.junk (runC).2.1)

/-- Case C's one (whole) store into output 6 covers it. -/
theorem cover0_C_6 (y : S512x1.Idx) : ∃ pc ∈ (runC).2.2.1, y ∈ pc.1.set :=
  View.cover_of_tiledL (runC).2.2.1 S512x1.size (by sl_kernel_rfl) y
/-- What case C leaves in output 6's staging buffer. -/
def out0_C_6 : Vec F S512x1 .f32 := VO0_6.read (Elt F) (VO0_6.writes (Elt F) VO0_6.junk (runC).2.2.1)

/-- Case C's one (whole) store into output 7 covers it. -/
theorem cover0_C_7 (y : S512x1.Idx) : ∃ pc ∈ (runC).2.2.2.1, y ∈ pc.1.set :=
  View.cover_of_tiledL (runC).2.2.2.1 S512x1.size (by sl_kernel_rfl) y
/-- What case C leaves in output 7's staging buffer. -/
def out0_C_7 : Vec F S512x1 .f32 := VO0_7.read (Elt F) (VO0_7.writes (Elt F) VO0_7.junk (runC).2.2.2.1)

/-- Case C's one (whole) store into column accumulator 0 covers it. -/
theorem scover0_C_0 (y : S512x1.Idx) : ∃ pc ∈ (runC).2.2.2.2.1, y ∈ pc.1.set :=
  View.cover_of_tiledL (runC).2.2.2.2.1 S512x1.size (by sl_kernel_rfl) y
/-- What case C leaves in column accumulator 0. -/
def sout0_C_0 : Vec F S512x1 .f32 := VS0_0.read (Elt F) (VS0_0.writes (Elt F) VS0_0.junk (runC).2.2.2.2.1)

/-- Case C's one (whole) store into column accumulator 1 covers it. -/
theorem scover0_C_1 (y : S512x1.Idx) : ∃ pc ∈ (runC).2.2.2.2.2.1, y ∈ pc.1.set :=
  View.cover_of_tiledL (runC).2.2.2.2.2.1 S512x1.size (by sl_kernel_rfl) y
/-- What case C leaves in column accumulator 1. -/
def sout0_C_1 : Vec F S512x1 .f32 := VS0_1.read (Elt F) (VS0_1.writes (Elt F) VS0_1.junk (runC).2.2.2.2.2.1)

end CaseC

end Cases

/-! ## At the entry contents V -/

section Entry
-- the TensorCore's buffer contents when region 0 is entered: the parameter the region's half is stated at
variable (V : (c : Dev nD) → (b : Ref sig .tc) → Buf (Elt F) ((c : Thread nD τ).loc b))

/-! ### The windows' blocks -/

/-- Window w's block at point t, read off its array as the region finds it (V). Windows 0 and 1 read one array, three
    rows of coordinates: window 0 its column block i, window 1 its column block j. Windows 2 and 3 read one array of six
    rows in the same way. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (it is fetched at the
    first point of a row only: along the row its block index does not move), for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (fetched at every point) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (fetched at the first point of a row only) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (fetched at every point) likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ### Each case's contents at a point of the grid -/

section AtPoint
variable (c : Dev nD) (t : Fin cfg0.N)

-- a case's contents f at point t: on the point's staging memrefs and the two scratch operands, the conditions read off
-- the closed forms, the four inputs at their blocks
set_option quotPrecheck false in
local notation "ptA[" f ", " h0 ", " h1 "]" => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)
set_option quotPrecheck false in
local notation "ptB[" f ", " h0 ", " h1 ", " xs0 ", " xs1 "]" => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) xs0 xs1
set_option quotPrecheck false in
local notation "ptC[" f ", " h0 ", " h1 ", " xs0 ", " xs1 "]" => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) xs0 xs1

/-- Case A's contents at a point t with t mod 16 = 0. -/
def atA0 (h0 : t.val % 16 = 0) (h1 : ¬t.val % 16 = 15) : Outs0 F :=
  (ptA[out0_A_4, h0, h1], ptA[out0_A_5, h0, h1], ptA[out0_A_6, h0, h1], ptA[out0_A_7, h0, h1], ptA[sout0_A_0, h0, h1], ptA[sout0_A_1, h0, h1])

/-- Case B's contents at a point t in the middle of a row, over what the point before left in the two accumulators. -/
def atB0 (h0 : ¬t.val % 16 = 0) (h1 : ¬t.val % 16 = 15) (xs0 xs1 : Vec F S512x1 .f32) : Outs0 F :=
  (ptB[out0_B_4, h0, h1, xs0, xs1], ptB[out0_B_5, h0, h1, xs0, xs1], ptB[out0_B_6, h0, h1, xs0, xs1], ptB[out0_B_7, h0, h1, xs0, xs1], ptB[sout0_B_0, h0, h1, xs0, xs1], ptB[sout0_B_1, h0, h1, xs0, xs1])

/-- Case C's contents at a point t with t mod 16 = 15, over what the point before left in the two accumulators. -/
def atC0 (h0 : ¬t.val % 16 = 0) (h1 : t.val % 16 = 15) (xs0 xs1 : Vec F S512x1 .f32) : Outs0 F :=
  (ptC[out0_C_4, h0, h1, xs0, xs1], ptC[out0_C_5, h0, h1, xs0, xs1], ptC[out0_C_6, h0, h1, xs0, xs1], ptC[out0_C_7, h0, h1, xs0, xs1], ptC[sout0_C_0, h0, h1, xs0, xs1], ptC[sout0_C_1, h0, h1, xs0, xs1])

end AtPoint

/-! ### What the outputs and the carried accumulators hold after each point -/

/-- THE ACCUMULATION. What the four outputs' staging buffers and the two carried column accumulators hold after the body
    at position n: the case the closed forms select at n (n mod 16 = 0: A; = 15: C; otherwise B), run at the point's memrefs
    and input blocks, the accumulators at what this leaves at n - 1 (cases B and C). Both conditions at once is no case. -/
def outsAt0 (c : Dev nD) : (n : ℕ) → n < cfg0.N → Outs0 F
  | 0, hn => atA0 V c ⟨0, hn⟩ (Nat.zero_mod _) (fun h => by (try dsimp only at h); omega)
  | n + 1, hn =>
    if h0 : (n + 1) % 16 = 0 then
      if h1 : (n + 1) % 16 = 15 then
        False.elim (by omega)
      else
        atA0 V c ⟨n + 1, hn⟩ h0 h1
    else
      if h1 : (n + 1) % 16 = 15 then
        atC0 V c ⟨n + 1, hn⟩ h0 h1 (outsAt0 c n (Nat.lt_of_succ_lt hn)).2.2.2.2.1 (outsAt0 c n (Nat.lt_of_succ_lt hn)).2.2.2.2.2
      else
        atB0 V c ⟨n + 1, hn⟩ h0 h1 (outsAt0 c n (Nat.lt_of_succ_lt hn)).2.2.2.2.1 (outsAt0 c n (Nat.lt_of_succ_lt hn)).2.2.2.2.2

/-- outsAt0 at a point of case A: that case's contents. -/
theorem outsAt0_A (c : Dev nD) (t : Fin cfg0.N) (h0 : t.val % 16 = 0) (h1 : ¬t.val % 16 = 15) :
    outsAt0 V c t.val t.isLt = atA0 V c t h0 h1 := by
  obtain ⟨n, hn⟩ := t
  cases n with
  | zero => exact rfl
  | succ n => exact (dif_pos h0).trans ((dif_neg h1).trans rfl)

/-- outsAt0 at a point of case B: that case's contents, over what the point before left. -/
theorem outsAt0_B (c : Dev nD) (t : Fin cfg0.N) (h0 : ¬t.val % 16 = 0) (h1 : ¬t.val % 16 = 15) :
    outsAt0 V c t.val t.isLt = atB0 V c t h0 h1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_neg h1).trans rfl)

/-- outsAt0 at a point of case C: that case's contents, over what the point before left. -/
theorem outsAt0_C (c : Dev nD) (t : Fin cfg0.N) (h0 : ¬t.val % 16 = 0) (h1 : t.val % 16 = 15) :
    outsAt0 V c t.val t.isLt = atC0 V c t h0 h1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_pos h1).trans rfl)

/-! ### The region's invariant along the grid -/

/-- The invariant before position n: before the first point the region's own (every scratch at anything); afterwards the
    two carried accumulators at what the point before left in them, the other scoped buffers unopened, and the generator
    register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.2.1) ∗ owns (c : Thread nD τ) scM0_1 fullShare ((outsAt0 V c n hn).2.2.2.2.2)) ∗ rest0 c) ∗ (∃ r, prngReg c r))

theorem PhiS0_zero (c : Dev nD) (n : ℕ) (h : n ≤ cfg0.N) (hz : n = 0) : PhiS0 V c n h = Pipeline.ΦA spec0 c := by
  subst hz; rfl

/-- After point n (before point n + 1): the carried accumulators at that point's contents. -/
theorem PhiS0_succ (c : Dev nD) (n : ℕ) (hn : n < cfg0.N) :
    PhiS0 V c (n + 1) hn = iprop(iprop(iprop(owns (c : Thread nD τ) scM0_0 fullShare ((outsAt0 V c n hn).2.2.2.2.1) ∗ owns (c : Thread nD τ) scM0_1 fullShare ((outsAt0 V c n hn).2.2.2.2.2)) ∗ rest0 c) ∗ (∃ r, prngReg c r)) := rfl

/-- Before a point that is not the first: the carried accumulators at what the point before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.2.1) ∗ owns (c : Thread nD τ) scM0_1 fullShare ((outsAt0 V c (n - 1) (by omega)).2.2.2.2.2)) ∗ rest0 c) ∗ (∃ r, prngReg c r)) := by
  cases n with
  | zero => exact absurd rfl hz
  | succ n => rfl

/-! ### The pipeline's proof data -/

/-- The proof data of region 0's pipeline on core c: the arrays as the region finds them (V); after the body at point t
    each input's buffer at its block and the outputs' at outsAt0's components; the invariant PhiS0; nothing owed. Windows 0
    and 1 stage one array, and so do windows 2 and 3: each of the two holds a half share of it; the outputs' arrays are held
    whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
    | ⟨7, _⟩ => (outsAt0 V c t.val t.isLt).2.2.2.1
  Φ t := PhiS0 V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
  owed _ := 0

/-- The proof data's arrays are the region-entry contents (the definition projected, V never unfolded). -/
theorem A_eq0 (c : Dev nD) (w : Fin cfg0.W) : (dat0 V c).A w = V c (Pipeline.arrRef spec0 w) := by
  dsimp only [dat0]

/-- The invariant at a point's start (the proof data at t.castSucc), restated at t.val. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window (the proof data's match reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]
theorem after0_7 (c : Dev nD) (t : Fin cfg0.N) : (dat0 V c).after 7 t = (outsAt0 V c t.val t.isLt).2.2.2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ### The body obligation, at a generic point -/

/-- What the body is called with at point t: the invariant, what the core owes, and each window's current staging buffer
    at what it then holds. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. The inputs' memrefs hold their blocks; the closed forms say which case the point is in; so that
    case's run applies. The invariant hands the body the two accumulators at what the point before left (at anything at the
    very first point, and in case A whatever they hold is dropped: the case zeroes them) and takes them back at this
    point's contents, each covered by whole stores; the other scoped buffers and the generator register pass through
    unread; the core owes nothing throughout. Outputs 4 and 5 are stored whole at every point; outputs 6 and 7 only in
    case C, and elsewhere their buffers are handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  rw [show (dat0 V c).leavesExact 4 t = owns (c : Thread nD τ) (ms0_4 t) fullShare ((dat0 V c).after 4 t) from by
      unfold Dat.leavesExact; rw [liveAt0_4 t], after0_4]
  rw [show (dat0 V c).leavesExact 5 t = owns (c : Thread nD τ) (ms0_5 t) fullShare ((dat0 V c).after 5 t) from by
      unfold Dat.leavesExact; rw [liveAt0_5 t], after0_5]
  by_cases h0 : t.val % 16 = 0
  · by_cases h1 : t.val % 16 = 15
    · exfalso; omega
    · -- case A
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold atA0 out0_A_4 out0_A_5 sout0_A_0 sout0_A_1; (try dsimp only)
      by_cases hz : t.val = 0
      · rw [PhiS0_castSucc V c t, PhiS0_zero V c _ _ hz, PhiA0_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [H7]; · iexact H7
        isplitl [HS0]; · iexact HS0
        isplitl [HS1]; · iexact HS1
        iintro ⟨H0, H1, H2, H3, ⟨%e4, H4⟩, ⟨%e5, H5⟩, H6, H7, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _)
        isplitl [H6]; · iexists _; iexact H6
        iexists _; iexact H7
      · rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [H7]; · iexact H7
        isplitl [HS0]; · iexists _; iexact HS0
        isplitl [HS1]; · iexists _; iexact HS1
        iintro ⟨H0, H1, H2, H3, ⟨%e4, H4⟩, ⟨%e5, H5⟩, H6, H7, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _)
        isplitl [H6]; · iexists _; iexact H6
        iexists _; iexact H7
  · by_cases h1 : t.val % 16 = 15
    · -- case C
      rw [show (dat0 V c).leavesExact 6 t = owns (c : Thread nD τ) (ms0_6 t) fullShare ((dat0 V c).after 6 t) from by
          unfold Dat.leavesExact; rw [liveAt0_6_C t (fun h => h0 ((hcond0_0 t).mp h)) ((hcond0_1 t).mpr h1)], after0_6]
      rw [show (dat0 V c).leavesExact 7 t = owns (c : Thread nD τ) (ms0_7 t) fullShare ((dat0 V c).after 7 t) from by
          unfold Dat.leavesExact; rw [liveAt0_7_C t (fun h => h0 ((hcond0_0 t).mp h)) ((hcond0_1 t).mpr h1)], after0_7]
      rw [outsAt0_C V c t h0 h1]
      unfold atC0 out0_C_4 out0_C_5 out0_C_6 out0_C_7 sout0_C_0 sout0_C_1; (try dsimp only)
      have hz : t.val ≠ 0 := fun hz => h0 (by rw [hz])
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, ⟨%e4, H4⟩, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _)
    · -- case B
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold atB0 out0_B_4 out0_B_5 sout0_B_0 sout0_B_1; (try dsimp only)
      have hz : t.val ≠ 0 := fun hz => h0 (by rw [hz])
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [H7]; · iexact H7
      isplitl [HS0]; · iexact HS0
      isplitl [HS1]; · iexact HS1
      iintro ⟨H0, H1, H2, H3, ⟨%e4, H4⟩, ⟨%e5, H5⟩, H6, H7, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _)
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the region's own back: the accumulators' named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 256 := N_0; omega)

end Entry

end Cert.Kernel.Hand

end
-- ==== Proof.BitsR1Runs.lean ====
/- Region 1 (custom_call 1, `cc1__kernel2_iter_body`, grid 2 x 32): what the three runs of its body share — the body's two
   branch conditions in closed form over the grid, where output window 9 is idle and not written back, the staging and
   scratch memrefs the body is called with, and the region's invariant with the three scratch operands opened. -/
import proofs.«162179_j58609123721967_2_alg».proof.Proof.Gen.Kernel.Launch
import proofs.«162179_j58609123721967_2_alg».proof.Proof.Gen.Kernel.Skeleton
import proofs.«162179_j58609123721967_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the step index `k = i 1` is zero), from the grid coordinates: the
    skeleton's scalar chain substituted. -/
abbrev cond1_0 (i : grid1.Coords) : Prop := (Scalar.cmpi .ne (Scalar.extui (Scalar.cmpi .eq (BitVec.ofNat 32 (i 1).val) 0#32)) 0#32) = 1#1
/-- It holds at the first step of each row of 32 — decided over the grid. -/
theorem hcond1_0 : ∀ t : Fin cfg1.N, cond1_0 (grid1.coords t) ↔ t.val % 32 = 0 :=
  (by decide +kernel : ∀ t : Fin grid1.N, cond1_0 (grid1.coords t) ↔ t.val % 32 = 0)

/-- The condition of the body's last `scf.if` (the step index is 31). -/
abbrev cond1_1 (i : grid1.Coords) : Prop := k1_cond2 i = 1#1
/-- It holds at the last step of each row of 32 — decided over the grid. -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle (the configuration's table `Cfg.idle`) -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- Window 6 is never idle (an input). -/
theorem liveAt1_6 : ∀ t : Fin cfg1.N, cfg1.idle 6 (grid1.coords t) = false := by decide +kernel
/-- Window 7 is never idle (an input). -/
theorem liveAt1_7 : ∀ t : Fin cfg1.N, cfg1.idle 7 (grid1.coords t) = false := by decide +kernel
/-- Window 8 is never idle (an input). -/
theorem liveAt1_8 : ∀ t : Fin cfg1.N, cfg1.idle 8 (grid1.coords t) = false := by decide +kernel
/-- At the first step of a row the configuration calls output 9 idle: the body stores nothing into it there. -/
theorem idleAt1_9_A : ∀ t : Fin cfg1.N, cond1_0 (grid1.coords t) → ¬cond1_1 (grid1.coords t) → cfg1.idle 9 (grid1.coords t) = true := by decide +kernel
/-- At the first step of a row the pipeline does not write output 9's block back. -/
theorem noFlush1_9_A : ∀ t : Fin cfg1.N, cond1_0 (grid1.coords t) → ¬cond1_1 (grid1.coords t) → (cfg1.win 9).flush t = false := by decide +kernel
/-- At a middle step the configuration calls output 9 idle. -/
theorem idleAt1_9_B : ∀ t : Fin cfg1.N, ¬cond1_0 (grid1.coords t) → ¬cond1_1 (grid1.coords t) → cfg1.idle 9 (grid1.coords t) = true := by decide +kernel
/-- At a middle step the pipeline does not write output 9's block back. -/
theorem noFlush1_9_B : ∀ t : Fin cfg1.N, ¬cond1_0 (grid1.coords t) → ¬cond1_1 (grid1.coords t) → (cfg1.win 9).flush t = false := by decide +kernel
/-- At the last step of a row the configuration calls output 9 live: the body stores into it. -/
theorem liveAt1_9_C : ∀ t : Fin cfg1.N, ¬cond1_0 (grid1.coords t) → cond1_1 (grid1.coords t) → cfg1.idle 9 (grid1.coords t) = false := by decide +kernel

/-! ## The memrefs the body is called with -/

/-- One staging buffer of output window 9, through which its contents are stated (the choice does not matter). -/
abbrev VO1_9 : View sig .tc .vmem S21x4096 .f32 := (Memref.whole cc1_stg9_0 : Memref sig .tc .vmem S21x4096 .f32).view
/-- Each window's current staging memref at point `t`, spelled as the pipeline passes it (`bodyAt1`), and its wholeness. -/
abbrev ms1_0 (t : Fin cfg1.N) : Memref sig .tc .vmem S21x8192 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S21x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x4096 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x4096 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S21x21 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S21x21 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S21x21 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S21x4096 .f32 := win1_9.stage (cfg1.slots t 9)
abbrev hs1_9 (t : Fin cfg1.N) : (ms1_9 t).IsWhole := hstage1_9 ((cfg1.slots t 9).cast nbuf1_9)
/-- The scratch operands: whole scoped buffers of the kernel's own, passed beside the windows. -/
abbrev scM1_0 : Memref sig .tc .vmem S21x8192 .f32 := Memref.whole cc1_scratch0
abbrev scM1_1 : Memref sig .tc .vmem S21x4096 .f32 := Memref.whole cc1_scratch1
abbrev scM1_2 : Memref sig .tc .vmem S21x4096 .f32 := Memref.whole cc1_scratch2
/-- The scratch the kernel carries between points, as views: what each holds is stated through its view. -/
abbrev VS1_0 : View sig .tc .vmem S21x8192 .f32 := scM1_0.view
abbrev VS1_1 : View sig .tc .vmem S21x4096 .f32 := scM1_1.view
abbrev VS1_2 : View sig .tc .vmem S21x4096 .f32 := scM1_2.view

/-! ## The region's invariant with the scratch operands opened -/

/-- The scoped buffers of the core that are neither a staging buffer of this region nor one of its three scratch
    operands, each at some contents: carried unopened through every point. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The region's invariant with the scratch operands as memrefs owned at some contents: what the body obligation
    hands the run and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ restBut1 c) ∗ (∃ r, prngReg c r)) := by
  unfold Pipeline.ΦA; rw [scopedRest1_split]; simp only [scM1_0, scM1_1, scM1_2, owns_whole]; try rfl

end Cert.Kernel.Hand

end
-- ==== Proof.BitsR1RunA.lean ====
/- Region 1 (custom_call 1, `cc1__kernel2_iter_body`): the whole-body run of the kernel at the first step of a row of 32 (k = 0). -/
import proofs.«162179_j58609123721967_2_alg».proof.Proof.BitsR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the first step of a row (the first `scf.if` taken, the last not taken), WITH the proof that on whole memrefs — the nine inputs' at their contents `x·`,
    output 9's, into which this case stores nothing, at contents `xi9` handed back untouched, the three scratch buffers at anything (this case stores each of them whole before it reads it back) —
    the body runs to the continuation holding the inputs' as they were, each scratch buffer with its pieces written (`LS·`).
    The printed body is its skeleton; the run executes it, each `scf.if` decided by `hc0`, `hc1`; the piece lists are the
    witness the run finds. -/
noncomputable def kernelRun1_A (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc1__kernel2_iter_body_eq_skeleton]; unfold cc1__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.Kernel.Hand

end
-- ==== Proof.BitsR1RunB.lean ====
/- Region 1 (custom_call 1, `cc1__kernel2_iter_body`): the whole-body run of the kernel at a middle step of a row (0 < k < 31). -/
import proofs.«162179_j58609123721967_2_alg».proof.Proof.BitsR1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    a middle step of a row (neither `scf.if` taken), WITH the proof that on whole memrefs — the nine inputs' at their contents `x·`,
    output 9's, into which this case stores nothing, at contents `xi9` handed back untouched, the three scratch buffers at the contents the step before left (`xs·`) —
    the body runs to the continuation holding the inputs' as they were, scratch 0, which it only reads, as it was, scratch 1 and 2 with their pieces written (`LS1`, `LS2`).
    The printed body is its skeleton; the run executes it, each `scf.if` decided by `hc0`, `hc1`; the piece lists are the
    witness the run finds. -/
noncomputable def kernelRun1_B (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, fun xi9 E K => ?run⟩
  case run =>
    simp only [cc1__kernel2_iter_body_eq_skeleton]; unfold cc1__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    isplitl [HS1]; · iexists _; iexact HS1
    iexists _; iexact HS2

end Cert.Kernel.Hand

end
-- ==== Proof.BitsR1RunC.lean ====
/- Region 1 (custom_call 1, `cc1__kernel2_iter_body`): the whole-body run of the kernel at the last step of a row (k = 31). -/
import proofs.«162179_j58609123721967_2_alg».proof.Proof.BitsR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the last step of a row (the first `scf.if` not taken, the last taken), WITH the proof that on whole memrefs — the nine inputs' at their contents `x·`,
    output 9's at anything, the three scratch buffers at the contents the step before left (`xs·`) —
    the body runs to the continuation holding the inputs' as they were, scratch 0 as it was, scratch 1 and 2 with their pieces written, output 9's buffer with its pieces written (`L9`).
    The printed body is its skeleton; the run executes it, each `scf.if` decided by `hc0`, `hc1`; the piece lists are the
    witness the run finds. -/
noncomputable def kernelRun1_C (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, ?_, fun E K => ?run⟩
  case run =>
    simp only [cc1__kernel2_iter_body_eq_skeleton]; unfold cc1__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _; isplitr; · ipureintro; exact harg12.read_unread _
      iexact HS0
    isplitl [HS1]; · iexists _; iexact HS1
    iexists _; iexact HS2

end Cert.Kernel.Hand

end
-- ==== Proof.BitsR1Frame.lean ====
/- Region 1 (custom_call 1, `cc1__kernel2_iter_body`, grid 2 x 32), at the entry contents `V`: what output 9 and the three
   scratch buffers the kernel carries between points hold per case and point by point, the pipeline's proof data, the
   body obligation, and the invariant's two ends. -/
import proofs.«162179_j58609123721967_2_alg».proof.Proof.BitsR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data whose
    array is `V`'s (`hA`) and whose body leaves the block in place (`hafter`): unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data whose
    array is `V`'s (`hA`) and whose body leaves the block in place (`hafter`): unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data whose
    array is `V`'s (`hA`) and whose body leaves the block in place (`hafter`): unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data whose
    array is `V`'s (`hA`) and whose body leaves the block in place (`hafter`): unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data whose
    array is `V`'s (`hA`) and whose body leaves the block in place (`hafter`): unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data whose
    array is `V`'s (`hA`) and whose body leaves the block in place (`hafter`): unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data whose
    array is `V`'s (`hA`) and whose body leaves the block in place (`hafter`): unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof data whose
    array is `V`'s (`hA`) and whose body leaves the block in place (`hafter`): unfetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof data whose
    array is `V`'s (`hA`) and whose body leaves the block in place (`hafter`): unfetched, the block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in output 9 and in the carried scratch -/

/-- At the first step of a row the body stores nothing into output 9 (the window is idle there and not written back): no pieces —
    a placeholder (junk read back) that nothing consults, since at these points the window is neither written back nor
    read at the next point. -/
def out1_A_9 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

/-- At the first step of a row the body's pieces for scratch 0, which the kernel carries between points, cover it: each is a store of the whole buffer. -/
theorem scover1_A_0 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x8192.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S21x8192.size (by sl_kernel_rfl) y

/-- What the first step of a row leaves in scratch 0: its pieces read back over junk. -/
def sout1_A_0 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x8192 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

/-- At the first step of a row the body's pieces for scratch 1, which the kernel carries between points, cover it: each is a store of the whole buffer. -/
theorem scover1_A_1 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S21x4096.size (by sl_kernel_rfl) y

/-- What the first step of a row leaves in scratch 1: its pieces read back over junk. -/
def sout1_A_1 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)

/-- At the first step of a row the body's pieces for scratch 2, which the kernel carries between points, cover it: each is a store of the whole buffer. -/
theorem scover1_A_2 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1 S21x4096.size (by sl_kernel_rfl) y

/-- What the first step of a row leaves in scratch 2: its pieces read back over junk. -/
def sout1_A_2 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1)

/-- At a middle step of a row the body stores nothing into output 9 (the window is idle there and not written back): no pieces —
    a placeholder (junk read back) that nothing consults, since at these points the window is neither written back nor
    read at the next point. -/
def out1_B_9 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO1_9.read (Elt F) (VO1_9.writes (Elt F) VO1_9.junk (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At a middle step of a row the body stores nothing into scratch 0: it holds what the step before left. -/
def sout1_B_0 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At a middle step of a row the body's pieces for scratch 1, which the kernel carries between points, cover it: each is a store of the whole buffer. -/
theorem scover1_B_1 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What a middle step of a row leaves in scratch 1: its pieces read back over junk. -/
def sout1_B_1 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At a middle step of a row the body's pieces for scratch 2, which the kernel carries between points, cover it: each is a store of the whole buffer. -/
theorem scover1_B_2 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What a middle step of a row leaves in scratch 2: its pieces read back over junk. -/
def sout1_B_2 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-- At the last step of a row the body's pieces for output 9 tile its block (one store of the whole block), so they cover it. -/
theorem cover1_C_9 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1 S21x4096.size (by sl_kernel_rfl) y

/-- What the last step of a row leaves in output 9's staging buffer: its pieces read back over junk. -/
def out1_C_9 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO1_9.read (Elt F) (VO1_9.writes (Elt F) VO1_9.junk (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At the last step of a row the body stores nothing into scratch 0: it holds what the step before left. -/
def sout1_C_0 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At the last step of a row the body's pieces for scratch 1, which the kernel carries between points, cover it: each is a store of the whole buffer. -/
theorem scover1_C_1 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What the last step of a row leaves in scratch 1: its pieces read back over junk. -/
def sout1_C_1 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At the last step of a row the body's pieces for scratch 2, which the kernel carries between points, cover it: each is a store of the whole buffer. -/
theorem scover1_C_2 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What the last step of a row leaves in scratch 2: its pieces read back over junk. -/
def sout1_C_2 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-! ## What output 9 and the carried scratch hold after each point -/

/-- THE ACCUMULATION. What output 9's staging buffer and the three scratch buffers the kernel carries between points hold
    after the body at position `n` (a tuple: output 9, then scratch 0, 1, 2): the case the closed forms select at `n`, run at
    the point's memrefs and input blocks, a scratch it reads before storing at what this leaves at `n - 1`. Both conditions
    at once is no case (`False.elim`). -/
def outsAt1 (c : Dev nD) : (n : ℕ) → n < cfg1.N → Vec F S21x4096 .f32 × Vec F S21x8192 .f32 × Vec F S21x4096 .f32 × Vec F S21x4096 .f32
  | 0, hn => (out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩))
  | n + 1, hn =>
    if h0 : (n + 1) % 32 = 0 then
      if h1 : (n + 1) % 32 = 31 then
        False.elim (by omega)
      else
        (out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩))
    else
      if h1 : (n + 1) % 32 = 31 then
        (out1_C_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at the first step of a row: that case's contents. -/
theorem outsAt1_A (c : Dev nD) (t : Fin cfg1.N) (h0 : t.val % 32 = 0) (h1 : ¬t.val % 32 = 31) :
    outsAt1 V c t.val t.isLt = (out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)) := by
  obtain ⟨n, hn⟩ := t
  cases n with
  | zero => exact rfl
  | succ n => exact (dif_pos h0).trans ((dif_neg h1).trans rfl)

/-- `outsAt1` at a middle step of a row: that case's contents, over what the point before left. -/
theorem outsAt1_B (c : Dev nD) (t : Fin cfg1.N) (h0 : ¬t.val % 32 = 0) (h1 : ¬t.val % 32 = 31) :
    outsAt1 V c t.val t.isLt = (out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last step of a row: that case's contents, over what the point before left. -/
theorem outsAt1_C (c : Dev nD) (t : Fin cfg1.N) (h0 : ¬t.val % 32 = 0) (h1 : t.val % 32 = 31) :
    outsAt1 V c t.val t.isLt = (out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scratch at anything); afterwards
    the same with each of the three carried scratch buffers at what the point before left in it (`outsAt1`'s scratch
    components), the other scoped buffers unopened, and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ restBut1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ restBut1 c) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ restBut1 c) ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and output 9's at `outsAt1`'s first component; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
  Φ t := PhiS1 V c t.val (Nat.le_of_lt_succ t.isLt)
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 4800000 in
/-- The body at any point: the inputs' memrefs hold their blocks (`before1_w`); the closed forms say which of the three cases
    the point is in; the invariant hands the body the three carried scratch buffers at what the point before left (at
    anything at the very first point; at the first step of the second row the case takes them at anything too), and takes
    them back at this point's contents (the stores cover each buffer a case stores into; a buffer a case only reads comes
    back as it was); output 9 is handed back untouched where it is idle, and holds the case's one store at the last step
    of a row; the other scoped buffers, the generator register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 32 = 0
  · by_cases h1 : t.val % 32 = 31
    · exfalso; omega
    ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [show (dat1 V c).leavesExact 5 t = owns (c : Thread nD τ) (ms1_5 t) fullShare ((dat1 V c).after 5 t) from by
          unfold Dat.leavesExact; rw [liveAt1_5 t], after1_5]
        rw [show (dat1 V c).leavesExact 6 t = owns (c : Thread nD τ) (ms1_6 t) fullShare ((dat1 V c).after 6 t) from by
          unfold Dat.leavesExact; rw [liveAt1_6 t], after1_6]
        rw [show (dat1 V c).leavesExact 7 t = owns (c : Thread nD τ) (ms1_7 t) fullShare ((dat1 V c).after 7 t) from by
          unfold Dat.leavesExact; rw [liveAt1_7 t], after1_7]
        rw [show (dat1 V c).leavesExact 8 t = owns (c : Thread nD τ) (ms1_8 t) fullShare ((dat1 V c).after 8 t) from by
          unfold Dat.leavesExact; rw [liveAt1_8 t], after1_8]
        rw [Dat.leavesExact_idle (dat1 V c) 9 t (idleAt1_9_A t ((hcond1_0 t).mpr h0) (fun h => h1 ((hcond1_1 t).mp h))) (noFlush1_9_A t ((hcond1_0 t).mpr h0) (fun h => h1 ((hcond1_1 t).mp h)))]
        rw [outsAt1_A V c t h0 h1]
        unfold sout1_A_0 sout1_A_1 sout1_A_2; (try dsimp only)
        by_cases hz : t.val = 0
        ·
          rw [PhiS1_castSucc V c t, PhiS1_zero V c _ _ hz, PhiA1_eq]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun1_A c (grid1.coords t) _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover1_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover1_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover1_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
        ·
          rw [PhiS1_castSucc V c t, PhiS1_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun1_A c (grid1.coords t) _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexists _; iexact HS0
          isplitl [HS1]; · iexists _; iexact HS1
          isplitl [HS2]; · iexists _; iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover1_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover1_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover1_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
  · by_cases h1 : t.val % 32 = 31
    ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [show (dat1 V c).leavesExact 5 t = owns (c : Thread nD τ) (ms1_5 t) fullShare ((dat1 V c).after 5 t) from by
          unfold Dat.leavesExact; rw [liveAt1_5 t], after1_5]
        rw [show (dat1 V c).leavesExact 6 t = owns (c : Thread nD τ) (ms1_6 t) fullShare ((dat1 V c).after 6 t) from by
          unfold Dat.leavesExact; rw [liveAt1_6 t], after1_6]
        rw [show (dat1 V c).leavesExact 7 t = owns (c : Thread nD τ) (ms1_7 t) fullShare ((dat1 V c).after 7 t) from by
          unfold Dat.leavesExact; rw [liveAt1_7 t], after1_7]
        rw [show (dat1 V c).leavesExact 8 t = owns (c : Thread nD τ) (ms1_8 t) fullShare ((dat1 V c).after 8 t) from by
          unfold Dat.leavesExact; rw [liveAt1_8 t], after1_8]
        rw [show (dat1 V c).leavesExact 9 t = owns (c : Thread nD τ) (ms1_9 t) fullShare ((dat1 V c).after 9 t) from by
          unfold Dat.leavesExact; rw [liveAt1_9_C t (fun h => h0 ((hcond1_0 t).mp h)) ((hcond1_1 t).mpr h1)], after1_9]
        rw [outsAt1_C V c t h0 h1]
        unfold out1_C_9 sout1_C_0 sout1_C_1 sout1_C_2; (try dsimp only)
        by_cases hz : t.val = 0
        · exfalso; omega
        ·
          rw [PhiS1_castSucc V c t, PhiS1_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun1_C c (grid1.coords t) _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [HS0]; · iexact HS0
          isplitl [HS1]; · iexact HS1
          isplitl [HS2]; · iexact HS2
          iintro ⟨H0, H1, H2, H3, H4, H5, H6, H7, H8, ⟨%e9, H9⟩, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover1_C_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover1_C_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          unfold owns; iexists _; isplitr
          swap; · iexact H9
          ipureintro; exact View.read_writes_of_cover _ _ _ _ _ (cover1_C_9 c _ _ _ _ _ _ _ _ _ _ _ _ _ _ _ _ _ _ _ _ _ _ _ _ _ _ _ _ _ _ _ _ _ _ _ _ _ _ _ _ _)
    ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [show (dat1 V c).leavesExact 5 t = owns (c : Thread nD τ) (ms1_5 t) fullShare ((dat1 V c).after 5 t) from by
          unfold Dat.leavesExact; rw [liveAt1_5 t], after1_5]
        rw [show (dat1 V c).leavesExact 6 t = owns (c : Thread nD τ) (ms1_6 t) fullShare ((dat1 V c).after 6 t) from by
          unfold Dat.leavesExact; rw [liveAt1_6 t], after1_6]
        rw [show (dat1 V c).leavesExact 7 t = owns (c : Thread nD τ) (ms1_7 t) fullShare ((dat1 V c).after 7 t) from by
          unfold Dat.leavesExact; rw [liveAt1_7 t], after1_7]
        rw [show (dat1 V c).leavesExact 8 t = owns (c : Thread nD τ) (ms1_8 t) fullShare ((dat1 V c).after 8 t) from by
          unfold Dat.leavesExact; rw [liveAt1_8 t], after1_8]
        rw [Dat.leavesExact_idle (dat1 V c) 9 t (idleAt1_9_B t (fun h => h0 ((hcond1_0 t).mp h)) (fun h => h1 ((hcond1_1 t).mp h))) (noFlush1_9_B t (fun h => h0 ((hcond1_0 t).mp h)) (fun h => h1 ((hcond1_1 t).mp h)))]
        rw [outsAt1_B V c t h0 h1]
        unfold sout1_B_0 sout1_B_1 sout1_B_2; (try dsimp only)
        by_cases hz : t.val = 0
        · exfalso; omega
        ·
          rw [PhiS1_castSucc V c t, PhiS1_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun1_B c (grid1.coords t) _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _ _ _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover1_B_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover1_B_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, Hr⟩, Hg⟩
  isplitl [HS0 HS1 HS2 Hr]
  · isplitl [HS0 HS1 HS2]
    · isplitl [HS0]
      · iexists _; iexact HS0
      isplitl [HS1]
      · iexists _; iexact HS1
      iexists _; iexact HS2
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.BitsR2Runs.lean ====
/- Region 2 (custom_call 2, `cc2__kernel2_iter_body`, grid 2 x 32): what the three runs of its body share — the body's two
   branch conditions in closed form over the grid, where output window 9 is idle and not written back, the staging and
   scratch memrefs the body is called with, and the region's invariant with the three scratch operands opened. -/
import proofs.«162179_j58609123721967_2_alg».proof.Proof.Gen.Kernel.Launch
import proofs.«162179_j58609123721967_2_alg».proof.Proof.Gen.Kernel.Skeleton
import proofs.«162179_j58609123721967_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the step index `k = i 1` is zero), from the grid coordinates: the
    skeleton's scalar chain substituted. -/
abbrev cond2_0 (i : grid2.Coords) : Prop := (Scalar.cmpi .ne (Scalar.extui (Scalar.cmpi .eq (BitVec.ofNat 32 (i 1).val) 0#32)) 0#32) = 1#1
/-- It holds at the first step of each row of 32 — decided over the grid. -/
theorem hcond2_0 : ∀ t : Fin cfg2.N, cond2_0 (grid2.coords t) ↔ t.val % 32 = 0 :=
  (by decide +kernel : ∀ t : Fin grid2.N, cond2_0 (grid2.coords t) ↔ t.val % 32 = 0)

/-- The condition of the body's last `scf.if` (the step index is 31). -/
abbrev cond2_1 (i : grid2.Coords) : Prop := k2_cond2 i = 1#1
/-- It holds at the last step of each row of 32 — decided over the grid. -/
theorem hcond2_1 : ∀ t : Fin cfg2.N, cond2_1 (grid2.coords t) ↔ t.val % 32 = 31 :=
  (by decide +kernel : ∀ t : Fin grid2.N, cond2_1 (grid2.coords t) ↔ t.val % 32 = 31)

/-! ## Where the windows are idle (the configuration's table `Cfg.idle`) -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- Window 5 is never idle (an input). -/
theorem liveAt2_5 : ∀ t : Fin cfg2.N, cfg2.idle 5 (grid2.coords t) = false := by decide +kernel
/-- Window 6 is never idle (an input). -/
theorem liveAt2_6 : ∀ t : Fin cfg2.N, cfg2.idle 6 (grid2.coords t) = false := by decide +kernel
/-- Window 7 is never idle (an input). -/
theorem liveAt2_7 : ∀ t : Fin cfg2.N, cfg2.idle 7 (grid2.coords t) = false := by decide +kernel
/-- Window 8 is never idle (an input). -/
theorem liveAt2_8 : ∀ t : Fin cfg2.N, cfg2.idle 8 (grid2.coords t) = false := by decide +kernel
/-- At the first step of a row the configuration calls output 9 idle: the body stores nothing into it there. -/
theorem idleAt2_9_A : ∀ t : Fin cfg2.N, cond2_0 (grid2.coords t) → ¬cond2_1 (grid2.coords t) → cfg2.idle 9 (grid2.coords t) = true := by decide +kernel
/-- At the first step of a row the pipeline does not write output 9's block back. -/
theorem noFlush2_9_A : ∀ t : Fin cfg2.N, cond2_0 (grid2.coords t) → ¬cond2_1 (grid2.coords t) → (cfg2.win 9).flush t = false := by decide +kernel
/-- At a middle step the configuration calls output 9 idle. -/
theorem idleAt2_9_B : ∀ t : Fin cfg2.N, ¬cond2_0 (grid2.coords t) → ¬cond2_1 (grid2.coords t) → cfg2.idle 9 (grid2.coords t) = true := by decide +kernel
/-- At a middle step the pipeline does not write output 9's block back. -/
theorem noFlush2_9_B : ∀ t : Fin cfg2.N, ¬cond2_0 (grid2.coords t) → ¬cond2_1 (grid2.coords t) → (cfg2.win 9).flush t = false := by decide +kernel
/-- At the last step of a row the configuration calls output 9 live: the body stores into it. -/
theorem liveAt2_9_C : ∀ t : Fin cfg2.N, ¬cond2_0 (grid2.coords t) → cond2_1 (grid2.coords t) → cfg2.idle 9 (grid2.coords t) = false := by decide +kernel

/-! ## The memrefs the body is called with -/

/-- One staging buffer of output window 9, through which its contents are stated (the choice does not matter). -/
abbrev VO2_9 : View sig .tc .vmem S21x4096 .f32 := (Memref.whole cc2_stg9_0 : Memref sig .tc .vmem S21x4096 .f32).view
/-- Each window's current staging memref at point `t`, spelled as the pipeline passes it (`bodyAt2`), and its wholeness. -/
abbrev ms2_0 (t : Fin cfg2.N) : Memref sig .tc .vmem S21x8192 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S21x4096 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x4096 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x4096 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x4096 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x4096 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S21x21 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S21x21 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S21x21 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S21x4096 .f32 := win2_9.stage (cfg2.slots t 9)
abbrev hs2_9 (t : Fin cfg2.N) : (ms2_9 t).IsWhole := hstage2_9 ((cfg2.slots t 9).cast nbuf2_9)
/-- The scratch operands: whole scoped buffers of the kernel's own, passed beside the windows. -/
abbrev scM2_0 : Memref sig .tc .vmem S21x8192 .f32 := Memref.whole cc2_scratch0
abbrev scM2_1 : Memref sig .tc .vmem S21x4096 .f32 := Memref.whole cc2_scratch1
abbrev scM2_2 : Memref sig .tc .vmem S21x4096 .f32 := Memref.whole cc2_scratch2
/-- The scratch the kernel carries between points, as views: what each holds is stated through its view. -/
abbrev VS2_0 : View sig .tc .vmem S21x8192 .f32 := scM2_0.view
abbrev VS2_1 : View sig .tc .vmem S21x4096 .f32 := scM2_1.view
abbrev VS2_2 : View sig .tc .vmem S21x4096 .f32 := scM2_2.view

/-! ## The region's invariant with the scratch operands opened -/

/-- The scoped buffers of the core that are neither a staging buffer of this region nor one of its three scratch
    operands, each at some contents: carried unopened through every point. -/
abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- The region's invariant with the scratch operands as memrefs owned at some contents: what the body obligation
    hands the run and takes back. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d)) ∗ restBut2 c) ∗ (∃ r, prngReg c r)) := by
  unfold Pipeline.ΦA; rw [scopedRest2_split]; simp only [scM2_0, scM2_1, scM2_2, owns_whole]; try rfl

end Cert.Kernel.Hand

end
-- ==== Proof.BitsR2RunA.lean ====
/- Region 2 (custom_call 2, `cc2__kernel2_iter_body`): the whole-body run of the kernel at the first step of a row of 32 (k = 0). -/
import proofs.«162179_j58609123721967_2_alg».proof.Proof.BitsR2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the first step of a row (the first `scf.if` taken, the last not taken), WITH the proof that on whole memrefs — the nine inputs' at their contents `x·`,
    output 9's, into which this case stores nothing, at contents `xi9` handed back untouched, the three scratch buffers at anything (this case stores each of them whole before it reads it back) —
    the body runs to the continuation holding the inputs' as they were, each scratch buffer with its pieces written (`LS·`).
    The printed body is its skeleton; the run executes it, each `scf.if` decided by `hc0`, `hc1`; the piece lists are the
    witness the run finds. -/
noncomputable def kernelRun2_A (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc2__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc2__kernel2_iter_body_eq_skeleton]; unfold cc2__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.Kernel.Hand

end
-- ==== Proof.BitsR2RunB.lean ====
/- Region 2 (custom_call 2, `cc2__kernel2_iter_body`): the whole-body run of the kernel at a middle step of a row (0 < k < 31). -/
import proofs.«162179_j58609123721967_2_alg».proof.Proof.BitsR2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    a middle step of a row (neither `scf.if` taken), WITH the proof that on whole memrefs — the nine inputs' at their contents `x·`,
    output 9's, into which this case stores nothing, at contents `xi9` handed back untouched, the three scratch buffers at the contents the step before left (`xs·`) —
    the body runs to the continuation holding the inputs' as they were, scratch 0, which it only reads, as it was, scratch 1 and 2 with their pieces written (`LS1`, `LS2`).
    The printed body is its skeleton; the run executes it, each `scf.if` decided by `hc0`, `hc1`; the piece lists are the
    witness the run finds. -/
noncomputable def kernelRun2_B (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc2__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, fun xi9 E K => ?run⟩
  case run =>
    simp only [cc2__kernel2_iter_body_eq_skeleton]; unfold cc2__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    isplitl [HS1]; · iexists _; iexact HS1
    iexists _; iexact HS2

end Cert.Kernel.Hand

end
-- ==== Proof.BitsR2RunC.lean ====
/- Region 2 (custom_call 2, `cc2__kernel2_iter_body`): the whole-body run of the kernel at the last step of a row (k = 31). -/
import proofs.«162179_j58609123721967_2_alg».proof.Proof.BitsR2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the last step of a row (the first `scf.if` not taken, the last taken), WITH the proof that on whole memrefs — the nine inputs' at their contents `x·`,
    output 9's at anything, the three scratch buffers at the contents the step before left (`xs·`) —
    the body runs to the continuation holding the inputs' as they were, scratch 0 as it was, scratch 1 and 2 with their pieces written, output 9's buffer with its pieces written (`L9`).
    The printed body is its skeleton; the run executes it, each `scf.if` decided by `hc0`, `hc1`; the piece lists are the
    witness the run finds. -/
noncomputable def kernelRun2_C (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc2__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, ?_, fun E K => ?run⟩
  case run =>
    simp only [cc2__kernel2_iter_body_eq_skeleton]; unfold cc2__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _; isplitr; · ipureintro; exact harg12.read_unread _
      iexact HS0
    isplitl [HS1]; · iexists _; iexact HS1
    iexists _; iexact HS2

end Cert.Kernel.Hand

end
-- ==== Proof.BitsR2Frame.lean ====
/- Region 2 (custom_call 2, `cc2__kernel2_iter_body`, grid 2 x 32), at the entry contents `V`: what output 9 and the three
   scratch buffers the kernel carries between points hold per case and point by point, the pipeline's proof data, the
   body obligation, and the invariant's two ends. -/
import proofs.«162179_j58609123721967_2_alg».proof.Proof.BitsR2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data whose
    array is `V`'s (`hA`) and whose body leaves the block in place (`hafter`): unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data whose
    array is `V`'s (`hA`) and whose body leaves the block in place (`hafter`): unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data whose
    array is `V`'s (`hA`) and whose body leaves the block in place (`hafter`): unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data whose
    array is `V`'s (`hA`) and whose body leaves the block in place (`hafter`): unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data whose
    array is `V`'s (`hA`) and whose body leaves the block in place (`hafter`): unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data whose
    array is `V`'s (`hA`) and whose body leaves the block in place (`hafter`): unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof data whose
    array is `V`'s (`hA`) and whose body leaves the block in place (`hafter`): unfetched, the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof data whose
    array is `V`'s (`hA`) and whose body leaves the block in place (`hafter`): unfetched, the block index has not moved. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof data whose
    array is `V`'s (`hA`) and whose body leaves the block in place (`hafter`): unfetched, the block index has not moved. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in output 9 and in the carried scratch -/

/-- At the first step of a row the body stores nothing into output 9 (the window is idle there and not written back): no pieces —
    a placeholder (junk read back) that nothing consults, since at these points the window is neither written back nor
    read at the next point. -/
def out2_A_9 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VO2_9.read (Elt F) (VO2_9.writes (Elt F) VO2_9.junk (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

/-- At the first step of a row the body's pieces for scratch 0, which the kernel carries between points, cover it: each is a store of the whole buffer. -/
theorem scover2_A_0 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x8192.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S21x8192.size (by sl_kernel_rfl) y

/-- What the first step of a row leaves in scratch 0: its pieces read back over junk. -/
def sout2_A_0 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x8192 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

/-- At the first step of a row the body's pieces for scratch 1, which the kernel carries between points, cover it: each is a store of the whole buffer. -/
theorem scover2_A_1 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S21x4096.size (by sl_kernel_rfl) y

/-- What the first step of a row leaves in scratch 1: its pieces read back over junk. -/
def sout2_A_1 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)

/-- At the first step of a row the body's pieces for scratch 2, which the kernel carries between points, cover it: each is a store of the whole buffer. -/
theorem scover2_A_2 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1 S21x4096.size (by sl_kernel_rfl) y

/-- What the first step of a row leaves in scratch 2: its pieces read back over junk. -/
def sout2_A_2 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS2_2.read (Elt F) (VS2_2.writes (Elt F) VS2_2.junk (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1)

/-- At a middle step of a row the body stores nothing into output 9 (the window is idle there and not written back): no pieces —
    a placeholder (junk read back) that nothing consults, since at these points the window is neither written back nor
    read at the next point. -/
def out2_B_9 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO2_9.read (Elt F) (VO2_9.writes (Elt F) VO2_9.junk (kernelRun2_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At a middle step of a row the body stores nothing into scratch 0: it holds what the step before left. -/
def sout2_B_0 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At a middle step of a row the body's pieces for scratch 1, which the kernel carries between points, cover it: each is a store of the whole buffer. -/
theorem scover2_B_1 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What a middle step of a row leaves in scratch 1: its pieces read back over junk. -/
def sout2_B_1 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At a middle step of a row the body's pieces for scratch 2, which the kernel carries between points, cover it: each is a store of the whole buffer. -/
theorem scover2_B_2 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What a middle step of a row leaves in scratch 2: its pieces read back over junk. -/
def sout2_B_2 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS2_2.read (Elt F) (VS2_2.writes (Elt F) VS2_2.junk (kernelRun2_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-- At the last step of a row the body's pieces for output 9 tile its block (one store of the whole block), so they cover it. -/
theorem cover2_C_9 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1 S21x4096.size (by sl_kernel_rfl) y

/-- What the last step of a row leaves in output 9's staging buffer: its pieces read back over junk. -/
def out2_C_9 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO2_9.read (Elt F) (VO2_9.writes (Elt F) VO2_9.junk (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At the last step of a row the body stores nothing into scratch 0: it holds what the step before left. -/
def sout2_C_0 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At the last step of a row the body's pieces for scratch 1, which the kernel carries between points, cover it: each is a store of the whole buffer. -/
theorem scover2_C_1 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What the last step of a row leaves in scratch 1: its pieces read back over junk. -/
def sout2_C_1 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At the last step of a row the body's pieces for scratch 2, which the kernel carries between points, cover it: each is a store of the whole buffer. -/
theorem scover2_C_2 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What the last step of a row leaves in scratch 2: its pieces read back over junk. -/
def sout2_C_2 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS2_2.read (Elt F) (VS2_2.writes (Elt F) VS2_2.junk (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-! ## What output 9 and the carried scratch hold after each point -/

/-- THE ACCUMULATION. What output 9's staging buffer and the three scratch buffers the kernel carries between points hold
    after the body at position `n` (a tuple: output 9, then scratch 0, 1, 2): the case the closed forms select at `n`, run at
    the point's memrefs and input blocks, a scratch it reads before storing at what this leaves at `n - 1`. Both conditions
    at once is no case (`False.elim`). -/
def outsAt2 (c : Dev nD) : (n : ℕ) → n < cfg2.N → Vec F S21x4096 .f32 × Vec F S21x8192 .f32 × Vec F S21x4096 .f32 × Vec F S21x4096 .f32
  | 0, hn => (out2_A_9 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩), sout2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩))
  | n + 1, hn =>
    if h0 : (n + 1) % 32 = 0 then
      if h1 : (n + 1) % 32 = 31 then
        False.elim (by omega)
      else
        (out2_A_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩), sout2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩))
    else
      if h1 : (n + 1) % 32 = 31 then
        (out2_C_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.1 (outsAt2 c n (Nat.lt_of_succ_lt hn)).2.2.1 (outsAt2 c n (Nat.lt_of_succ_lt hn)).2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.1 (outsAt2 c n (Nat.lt_of_succ_lt hn)).2.2.1 (outsAt2 c n (Nat.lt_of_succ_lt hn)).2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.1 (outsAt2 c n (Nat.lt_of_succ_lt hn)).2.2.1 (outsAt2 c n (Nat.lt_of_succ_lt hn)).2.2.2, sout2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.1 (outsAt2 c n (Nat.lt_of_succ_lt hn)).2.2.1 (outsAt2 c n (Nat.lt_of_succ_lt hn)).2.2.2)
      else
        (out2_B_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.1 (outsAt2 c n (Nat.lt_of_succ_lt hn)).2.2.1 (outsAt2 c n (Nat.lt_of_succ_lt hn)).2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.1 (outsAt2 c n (Nat.lt_of_succ_lt hn)).2.2.1 (outsAt2 c n (Nat.lt_of_succ_lt hn)).2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.1 (outsAt2 c n (Nat.lt_of_succ_lt hn)).2.2.1 (outsAt2 c n (Nat.lt_of_succ_lt hn)).2.2.2, sout2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.1 (outsAt2 c n (Nat.lt_of_succ_lt hn)).2.2.1 (outsAt2 c n (Nat.lt_of_succ_lt hn)).2.2.2)

/-- `outsAt2` at the first step of a row: that case's contents. -/
theorem outsAt2_A (c : Dev nD) (t : Fin cfg2.N) (h0 : t.val % 32 = 0) (h1 : ¬t.val % 32 = 31) :
    outsAt2 V c t.val t.isLt = (out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t), sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t)) := by
  obtain ⟨n, hn⟩ := t
  cases n with
  | zero => exact rfl
  | succ n => exact (dif_pos h0).trans ((dif_neg h1).trans rfl)

/-- `outsAt2` at a middle step of a row: that case's contents, over what the point before left. -/
theorem outsAt2_B (c : Dev nD) (t : Fin cfg2.N) (h0 : ¬t.val % 32 = 0) (h1 : ¬t.val % 32 = 31) :
    outsAt2 V c t.val t.isLt = (out2_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last step of a row: that case's contents, over what the point before left. -/
theorem outsAt2_C (c : Dev nD) (t : Fin cfg2.N) (h0 : ¬t.val % 32 = 0) (h1 : t.val % 32 = 31) :
    outsAt2 V c t.val t.isLt = (out2_C_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_C_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scratch at anything); afterwards
    the same with each of the three carried scratch buffers at what the point before left in it (`outsAt2`'s scratch
    components), the other scoped buffers unopened, and the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2)) ∗ restBut2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2)) ∗ restBut2 c) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2.1) ∗ owns (c : Thread nD τ) scM2_2 fullShare ((outsAt2 V c (n - 1) (by omega)).2.2.2)) ∗ restBut2 c) ∗ (∃ r, prngReg c r)) := by
  cases n with
  | zero => exact absurd rfl hz
  | succ n => rfl

/-! ## The pipeline's proof data -/

/-- The proof data of pipeline 2 on core `c`: the arrays as the region finds them (`V`); after the body at point `t` each
    input's buffer at its block and output 9's at `outsAt2`'s first component; the invariant `PhiS2`; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => (outsAt2 V c t.val t.isLt).1
  Φ t := PhiS2 V c t.val (Nat.le_of_lt_succ t.isLt)
  q _ := fullShare
  owed _ := 0

/-- The proof data's arrays are the region-entry contents (the definition projected, `V` never unfolded). -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4800000 in
/-- The body at any point: the inputs' memrefs hold their blocks (`before2_w`); the closed forms say which of the three cases
    the point is in; the invariant hands the body the three carried scratch buffers at what the point before left (at
    anything at the very first point; at the first step of the second row the case takes them at anything too), and takes
    them back at this point's contents (the stores cover each buffer a case stores into; a buffer a case only reads comes
    back as it was); output 9 is handed back untouched where it is idle, and holds the case's one store at the last step
    of a row; the other scoped buffers, the generator register and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 32 = 0
  · by_cases h1 : t.val % 32 = 31
    · exfalso; omega
    ·
        rw [show (dat2 V c).leavesExact 0 t = owns (c : Thread nD τ) (ms2_0 t) fullShare ((dat2 V c).after 0 t) from by
          unfold Dat.leavesExact; rw [liveAt2_0 t], after2_0]
        rw [show (dat2 V c).leavesExact 1 t = owns (c : Thread nD τ) (ms2_1 t) fullShare ((dat2 V c).after 1 t) from by
          unfold Dat.leavesExact; rw [liveAt2_1 t], after2_1]
        rw [show (dat2 V c).leavesExact 2 t = owns (c : Thread nD τ) (ms2_2 t) fullShare ((dat2 V c).after 2 t) from by
          unfold Dat.leavesExact; rw [liveAt2_2 t], after2_2]
        rw [show (dat2 V c).leavesExact 3 t = owns (c : Thread nD τ) (ms2_3 t) fullShare ((dat2 V c).after 3 t) from by
          unfold Dat.leavesExact; rw [liveAt2_3 t], after2_3]
        rw [show (dat2 V c).leavesExact 4 t = owns (c : Thread nD τ) (ms2_4 t) fullShare ((dat2 V c).after 4 t) from by
          unfold Dat.leavesExact; rw [liveAt2_4 t], after2_4]
        rw [show (dat2 V c).leavesExact 5 t = owns (c : Thread nD τ) (ms2_5 t) fullShare ((dat2 V c).after 5 t) from by
          unfold Dat.leavesExact; rw [liveAt2_5 t], after2_5]
        rw [show (dat2 V c).leavesExact 6 t = owns (c : Thread nD τ) (ms2_6 t) fullShare ((dat2 V c).after 6 t) from by
          unfold Dat.leavesExact; rw [liveAt2_6 t], after2_6]
        rw [show (dat2 V c).leavesExact 7 t = owns (c : Thread nD τ) (ms2_7 t) fullShare ((dat2 V c).after 7 t) from by
          unfold Dat.leavesExact; rw [liveAt2_7 t], after2_7]
        rw [show (dat2 V c).leavesExact 8 t = owns (c : Thread nD τ) (ms2_8 t) fullShare ((dat2 V c).after 8 t) from by
          unfold Dat.leavesExact; rw [liveAt2_8 t], after2_8]
        rw [Dat.leavesExact_idle (dat2 V c) 9 t (idleAt2_9_A t ((hcond2_0 t).mpr h0) (fun h => h1 ((hcond2_1 t).mp h))) (noFlush2_9_A t ((hcond2_0 t).mpr h0) (fun h => h1 ((hcond2_1 t).mp h)))]
        rw [outsAt2_A V c t h0 h1]
        unfold sout2_A_0 sout2_A_1 sout2_A_2; (try dsimp only)
        by_cases hz : t.val = 0
        ·
          rw [PhiS2_castSucc V c t, PhiS2_zero V c _ _ hz, PhiA2_eq]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun2_A c (grid2.coords t) _ _ _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover2_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover2_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover2_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
        ·
          rw [PhiS2_castSucc V c t, PhiS2_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun2_A c (grid2.coords t) _ _ _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexists _; iexact HS0
          isplitl [HS1]; · iexists _; iexact HS1
          isplitl [HS2]; · iexists _; iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover2_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover2_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover2_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
  · by_cases h1 : t.val % 32 = 31
    ·
        rw [show (dat2 V c).leavesExact 0 t = owns (c : Thread nD τ) (ms2_0 t) fullShare ((dat2 V c).after 0 t) from by
          unfold Dat.leavesExact; rw [liveAt2_0 t], after2_0]
        rw [show (dat2 V c).leavesExact 1 t = owns (c : Thread nD τ) (ms2_1 t) fullShare ((dat2 V c).after 1 t) from by
          unfold Dat.leavesExact; rw [liveAt2_1 t], after2_1]
        rw [show (dat2 V c).leavesExact 2 t = owns (c : Thread nD τ) (ms2_2 t) fullShare ((dat2 V c).after 2 t) from by
          unfold Dat.leavesExact; rw [liveAt2_2 t], after2_2]
        rw [show (dat2 V c).leavesExact 3 t = owns (c : Thread nD τ) (ms2_3 t) fullShare ((dat2 V c).after 3 t) from by
          unfold Dat.leavesExact; rw [liveAt2_3 t], after2_3]
        rw [show (dat2 V c).leavesExact 4 t = owns (c : Thread nD τ) (ms2_4 t) fullShare ((dat2 V c).after 4 t) from by
          unfold Dat.leavesExact; rw [liveAt2_4 t], after2_4]
        rw [show (dat2 V c).leavesExact 5 t = owns (c : Thread nD τ) (ms2_5 t) fullShare ((dat2 V c).after 5 t) from by
          unfold Dat.leavesExact; rw [liveAt2_5 t], after2_5]
        rw [show (dat2 V c).leavesExact 6 t = owns (c : Thread nD τ) (ms2_6 t) fullShare ((dat2 V c).after 6 t) from by
          unfold Dat.leavesExact; rw [liveAt2_6 t], after2_6]
        rw [show (dat2 V c).leavesExact 7 t = owns (c : Thread nD τ) (ms2_7 t) fullShare ((dat2 V c).after 7 t) from by
          unfold Dat.leavesExact; rw [liveAt2_7 t], after2_7]
        rw [show (dat2 V c).leavesExact 8 t = owns (c : Thread nD τ) (ms2_8 t) fullShare ((dat2 V c).after 8 t) from by
          unfold Dat.leavesExact; rw [liveAt2_8 t], after2_8]
        rw [show (dat2 V c).leavesExact 9 t = owns (c : Thread nD τ) (ms2_9 t) fullShare ((dat2 V c).after 9 t) from by
          unfold Dat.leavesExact; rw [liveAt2_9_C t (fun h => h0 ((hcond2_0 t).mp h)) ((hcond2_1 t).mpr h1)], after2_9]
        rw [outsAt2_C V c t h0 h1]
        unfold out2_C_9 sout2_C_0 sout2_C_1 sout2_C_2; (try dsimp only)
        by_cases hz : t.val = 0
        · exfalso; omega
        ·
          rw [PhiS2_castSucc V c t, PhiS2_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun2_C c (grid2.coords t) _ _ _ _ _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [HS0]; · iexact HS0
          isplitl [HS1]; · iexact HS1
          isplitl [HS2]; · iexact HS2
          iintro ⟨H0, H1, H2, H3, H4, H5, H6, H7, H8, ⟨%e9, H9⟩, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover2_C_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover2_C_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          unfold owns; iexists _; isplitr
          swap; · iexact H9
          ipureintro; exact View.read_writes_of_cover _ _ _ _ _ (cover2_C_9 c _ _ _ _ _ _ _ _ _ _ _ _ _ _ _ _ _ _ _ _ _ _ _ _ _ _ _ _ _ _ _ _ _ _ _ _ _ _ _ _ _)
    ·
        rw [show (dat2 V c).leavesExact 0 t = owns (c : Thread nD τ) (ms2_0 t) fullShare ((dat2 V c).after 0 t) from by
          unfold Dat.leavesExact; rw [liveAt2_0 t], after2_0]
        rw [show (dat2 V c).leavesExact 1 t = owns (c : Thread nD τ) (ms2_1 t) fullShare ((dat2 V c).after 1 t) from by
          unfold Dat.leavesExact; rw [liveAt2_1 t], after2_1]
        rw [show (dat2 V c).leavesExact 2 t = owns (c : Thread nD τ) (ms2_2 t) fullShare ((dat2 V c).after 2 t) from by
          unfold Dat.leavesExact; rw [liveAt2_2 t], after2_2]
        rw [show (dat2 V c).leavesExact 3 t = owns (c : Thread nD τ) (ms2_3 t) fullShare ((dat2 V c).after 3 t) from by
          unfold Dat.leavesExact; rw [liveAt2_3 t], after2_3]
        rw [show (dat2 V c).leavesExact 4 t = owns (c : Thread nD τ) (ms2_4 t) fullShare ((dat2 V c).after 4 t) from by
          unfold Dat.leavesExact; rw [liveAt2_4 t], after2_4]
        rw [show (dat2 V c).leavesExact 5 t = owns (c : Thread nD τ) (ms2_5 t) fullShare ((dat2 V c).after 5 t) from by
          unfold Dat.leavesExact; rw [liveAt2_5 t], after2_5]
        rw [show (dat2 V c).leavesExact 6 t = owns (c : Thread nD τ) (ms2_6 t) fullShare ((dat2 V c).after 6 t) from by
          unfold Dat.leavesExact; rw [liveAt2_6 t], after2_6]
        rw [show (dat2 V c).leavesExact 7 t = owns (c : Thread nD τ) (ms2_7 t) fullShare ((dat2 V c).after 7 t) from by
          unfold Dat.leavesExact; rw [liveAt2_7 t], after2_7]
        rw [show (dat2 V c).leavesExact 8 t = owns (c : Thread nD τ) (ms2_8 t) fullShare ((dat2 V c).after 8 t) from by
          unfold Dat.leavesExact; rw [liveAt2_8 t], after2_8]
        rw [Dat.leavesExact_idle (dat2 V c) 9 t (idleAt2_9_B t (fun h => h0 ((hcond2_0 t).mp h)) (fun h => h1 ((hcond2_1 t).mp h))) (noFlush2_9_B t (fun h => h0 ((hcond2_0 t).mp h)) (fun h => h1 ((hcond2_1 t).mp h)))]
        rw [outsAt2_B V c t h0 h1]
        unfold sout2_B_0 sout2_B_1 sout2_B_2; (try dsimp only)
        by_cases hz : t.val = 0
        · exfalso; omega
        ·
          rw [PhiS2_castSucc V c t, PhiS2_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun2_B c (grid2.coords t) _ _ _ _ _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) _ _ _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover2_B_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover2_B_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives `ΦA` back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1, HS2⟩, Hr⟩, Hg⟩
  isplitl [HS0 HS1 HS2 Hr]
  · isplitl [HS0 HS1 HS2]
    · isplitl [HS0]
      · iexists _; iexact HS0
      isplitl [HS1]
      · iexists _; iexact HS1
      iexists _; iexact HS2
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.Kernel.Hand

end
-- ==== Proof.BitsR3Runs.lean ====
/- Region 3 (custom_call 3, `cc3__kernel2_iter_body`, grid 2 x 32): what the three runs of its body share — the body's two
   branch conditions in closed form over the grid, where output window 9 is idle and not written back, the staging and
   scratch memrefs the body is called with, and the region's invariant with the three scratch operands opened. -/
import proofs.«162179_j58609123721967_2_alg».proof.Proof.Gen.Kernel.Launch
import proofs.«162179_j58609123721967_2_alg».proof.Proof.Gen.Kernel.Skeleton
import proofs.«162179_j58609123721967_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the step index `k = i 1` is zero), from the grid coordinates: the
    skeleton's scalar chain substituted. -/
abbrev cond3_0 (i : grid3.Coords) : Prop := (Scalar.cmpi .ne (Scalar.extui (Scalar.cmpi .eq (BitVec.ofNat 32 (i 1).val) 0#32)) 0#32) = 1#1
/-- It holds at the first step of each row of 32 — decided over the grid. -/
theorem hcond3_0 : ∀ t : Fin cfg3.N, cond3_0 (grid3.coords t) ↔ t.val % 32 = 0 :=
  (by decide +kernel : ∀ t : Fin grid3.N, cond3_0 (grid3.coords t) ↔ t.val % 32 = 0)

/-- The condition of the body's last `scf.if` (the step index is 31). -/
abbrev cond3_1 (i : grid3.Coords) : Prop := k3_cond2 i = 1#1
/-- It holds at the last step of each row of 32 — decided over the grid. -/
theorem hcond3_1 : ∀ t : Fin cfg3.N, cond3_1 (grid3.coords t) ↔ t.val % 32 = 31 :=
  (by decide +kernel : ∀ t : Fin grid3.N, cond3_1 (grid3.coords t) ↔ t.val % 32 = 31)

/-! ## Where the windows are idle (the configuration's table `Cfg.idle`) -/

/-- Window 0 is never idle (an input). -/
theorem liveAt3_0 : ∀ t : Fin cfg3.N, cfg3.idle 0 (grid3.coords t) = false := by decide +kernel
/-- Window 1 is never idle (an input). -/
theorem liveAt3_1 : ∀ t : Fin cfg3.N, cfg3.idle 1 (grid3.coords t) = false := by decide +kernel
/-- Window 2 is never idle (an input). -/
theorem liveAt3_2 : ∀ t : Fin cfg3.N, cfg3.idle 2 (grid3.coords t) = false := by decide +kernel
/-- Window 3 is never idle (an input). -/
theorem liveAt3_3 : ∀ t : Fin cfg3.N, cfg3.idle 3 (grid3.coords t) = false := by decide +kernel
/-- Window 4 is never idle (an input). -/
theorem liveAt3_4 : ∀ t : Fin cfg3.N, cfg3.idle 4 (grid3.coords t) = false := by decide +kernel
/-- Window 5 is never idle (an input). -/
theorem liveAt3_5 : ∀ t : Fin cfg3.N, cfg3.idle 5 (grid3.coords t) = false := by decide +kernel
/-- Window 6 is never idle (an input). -/
theorem liveAt3_6 : ∀ t : Fin cfg3.N, cfg3.idle 6 (grid3.coords t) = false := by decide +kernel
/-- Window 7 is never idle (an input). -/
theorem liveAt3_7 : ∀ t : Fin cfg3.N, cfg3.idle 7 (grid3.coords t) = false := by decide +kernel
/-- Window 8 is never idle (an input). -/
theorem liveAt3_8 : ∀ t : Fin cfg3.N, cfg3.idle 8 (grid3.coords t) = false := by decide +kernel
/-- At the first step of a row the configuration calls output 9 idle: the body stores nothing into it there. -/
theorem idleAt3_9_A : ∀ t : Fin cfg3.N, cond3_0 (grid3.coords t) → ¬cond3_1 (grid3.coords t) → cfg3.idle 9 (grid3.coords t) = true := by decide +kernel
/-- At the first step of a row the pipeline does not write output 9's block back. -/
theorem noFlush3_9_A : ∀ t : Fin cfg3.N, cond3_0 (grid3.coords t) → ¬cond3_1 (grid3.coords t) → (cfg3.win 9).flush t = false := by decide +kernel
/-- At a middle step the configuration calls output 9 idle. -/
theorem idleAt3_9_B : ∀ t : Fin cfg3.N, ¬cond3_0 (grid3.coords t) → ¬cond3_1 (grid3.coords t) → cfg3.idle 9 (grid3.coords t) = true := by decide +kernel
/-- At a middle step the pipeline does not write output 9's block back. -/
theorem noFlush3_9_B : ∀ t : Fin cfg3.N, ¬cond3_0 (grid3.coords t) → ¬cond3_1 (grid3.coords t) → (cfg3.win 9).flush t = false := by decide +kernel
/-- At the last step of a row the configuration calls output 9 live: the body stores into it. -/
theorem liveAt3_9_C : ∀ t : Fin cfg3.N, ¬cond3_0 (grid3.coords t) → cond3_1 (grid3.coords t) → cfg3.idle 9 (grid3.coords t) = false := by decide +kernel

/-! ## The memrefs the body is called with -/

/-- One staging buffer of output window 9, through which its contents are stated (the choice does not matter). -/
abbrev VO3_9 : View sig .tc .vmem S21x4096 .f32 := (Memref.whole cc3_stg9_0 : Memref sig .tc .vmem S21x4096 .f32).view
/-- Each window's current staging memref at point `t`, spelled as the pipeline passes it (`bodyAt3`), and its wholeness. -/
abbrev ms3_0 (t : Fin cfg3.N) : Memref sig .tc .vmem S21x8192 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S21x4096 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x4096 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x4096 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x4096 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x4096 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S21x21 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S21x21 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S21x21 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S21x4096 .f32 := win3_9.stage (cfg3.slots t 9)
abbrev hs3_9 (t : Fin cfg3.N) : (ms3_9 t).IsWhole := hstage3_9 ((cfg3.slots t 9).cast nbuf3_9)
/-- The scratch operands: whole scoped buffers of the kernel's own, passed beside the windows. -/
abbrev scM3_0 : Memref sig .tc .vmem S21x8192 .f32 := Memref.whole cc3_scratch0
abbrev scM3_1 : Memref sig .tc .vmem S21x4096 .f32 := Memref.whole cc3_scratch1
abbrev scM3_2 : Memref sig .tc .vmem S21x4096 .f32 := Memref.whole cc3_scratch2
/-- The scratch the kernel carries between points, as views: what each holds is stated through its view. -/
abbrev VS3_0 : View sig .tc .vmem S21x8192 .f32 := scM3_0.view
abbrev VS3_1 : View sig .tc .vmem S21x4096 .f32 := scM3_1.view
abbrev VS3_2 : View sig .tc .vmem S21x4096 .f32 := scM3_2.view

/-! ## The region's invariant with the scratch operands opened -/

/-- The scoped buffers of the core that are neither a staging buffer of this region nor one of its three scratch
    operands, each at some contents: carried unopened through every point. -/
abbrev restBut3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- The region's invariant with the scratch operands as memrefs owned at some contents: what the body obligation
    hands the run and takes back. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d)) ∗ restBut3 c) ∗ (∃ r, prngReg c r)) := by
  unfold Pipeline.ΦA; rw [scopedRest3_split]; simp only [scM3_0, scM3_1, scM3_2, owns_whole]; try rfl

end Cert.Kernel.Hand

end
-- ==== Proof.BitsR3RunA.lean ====
/- Region 3 (custom_call 3, `cc3__kernel2_iter_body`): the whole-body run of the kernel at the first step of a row of 32 (k = 0). -/
import proofs.«162179_j58609123721967_2_alg».proof.Proof.BitsR3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the first step of a row (the first `scf.if` taken, the last not taken), WITH the proof that on whole memrefs — the nine inputs' at their contents `x·`,
    output 9's, into which this case stores nothing, at contents `xi9` handed back untouched, the three scratch buffers at anything (this case stores each of them whole before it reads it back) —
    the body runs to the continuation holding the inputs' as they were, each scratch buffer with its pieces written (`LS·`).
    The printed body is its skeleton; the run executes it, each `scf.if` decided by `hc0`, `hc1`; the piece lists are the
    witness the run finds. -/
noncomputable def kernelRun3_A (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc3__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc3__kernel2_iter_body_eq_skeleton]; unfold cc3__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.Kernel.Hand

end
-- ==== Proof.BitsR3RunB.lean ====
/- Region 3 (custom_call 3, `cc3__kernel2_iter_body`): the whole-body run of the kernel at a middle step of a row (0 < k < 31). -/
import proofs.«162179_j58609123721967_2_alg».proof.Proof.BitsR3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    a middle step of a row (neither `scf.if` taken), WITH the proof that on whole memrefs — the nine inputs' at their contents `x·`,
    output 9's, into which this case stores nothing, at contents `xi9` handed back untouched, the three scratch buffers at the contents the step before left (`xs·`) —
    the body runs to the continuation holding the inputs' as they were, scratch 0, which it only reads, as it was, scratch 1 and 2 with their pieces written (`LS1`, `LS2`).
    The printed body is its skeleton; the run executes it, each `scf.if` decided by `hc0`, `hc1`; the piece lists are the
    witness the run finds. -/
noncomputable def kernelRun3_B (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc3__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, fun xi9 E K => ?run⟩
  case run =>
    simp only [cc3__kernel2_iter_body_eq_skeleton]; unfold cc3__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    isplitl [HS1]; · iexists _; iexact HS1
    iexists _; iexact HS2

end Cert.Kernel.Hand

end
-- ==== Proof.BitsR3RunC.lean ====
/- Region 3 (custom_call 3, `cc3__kernel2_iter_body`): the whole-body run of the kernel at the last step of a row (k = 31). -/
import proofs.«162179_j58609123721967_2_alg».proof.Proof.BitsR3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the last step of a row (the first `scf.if` not taken, the last taken), WITH the proof that on whole memrefs — the nine inputs' at their contents `x·`,
    output 9's at anything, the three scratch buffers at the contents the step before left (`xs·`) —
    the body runs to the continuation holding the inputs' as they were, scratch 0 as it was, scratch 1 and 2 with their pieces written, output 9's buffer with its pieces written (`L9`).
    The printed body is its skeleton; the run executes it, each `scf.if` decided by `hc0`, `hc1`; the piece lists are the
    witness the run finds. -/
noncomputable def kernelRun3_C (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc3__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, ?_, fun E K => ?run⟩
  case run =>
    simp only [cc3__kernel2_iter_body_eq_skeleton]; unfold cc3__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _; isplitr; · ipureintro; exact harg12.read_unread _
      iexact HS0
    isplitl [HS1]; · iexists _; iexact HS1
    iexists _; iexact HS2

end Cert.Kernel.Hand

end
-- ==== Proof.BitsR3Frame.lean ====
/- Region 3 (custom_call 3, `cc3__kernel2_iter_body`, grid 2 x 32), at the entry contents `V`: what output 9 and the three
   scratch buffers the kernel carries between points hold per case and point by point, the pipeline's proof data, the
   body obligation, and the invariant's two ends. -/
import proofs.«162179_j58609123721967_2_alg».proof.Proof.BitsR3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data whose
    array is `V`'s (`hA`) and whose body leaves the block in place (`hafter`): unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data whose
    array is `V`'s (`hA`) and whose body leaves the block in place (`hafter`): unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data whose
    array is `V`'s (`hA`) and whose body leaves the block in place (`hafter`): unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data whose
    array is `V`'s (`hA`) and whose body leaves the block in place (`hafter`): unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data whose
    array is `V`'s (`hA`) and whose body leaves the block in place (`hafter`): unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof data whose
    array is `V`'s (`hA`) and whose body leaves the block in place (`hafter`): unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof data whose
    array is `V`'s (`hA`) and whose body leaves the block in place (`hafter`): unfetched, the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not, for any proof data whose
    array is `V`'s (`hA`) and whose body leaves the block in place (`hafter`): unfetched, the block index has not moved. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not, for any proof data whose
    array is `V`'s (`hA`) and whose body leaves the block in place (`hafter`): unfetched, the block index has not moved. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves in output 9 and in the carried scratch -/

/-- At the first step of a row the body stores nothing into output 9 (the window is idle there and not written back): no pieces —
    a placeholder (junk read back) that nothing consults, since at these points the window is neither written back nor
    read at the next point. -/
def out3_A_9 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VO3_9.read (Elt F) (VO3_9.writes (Elt F) VO3_9.junk (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

/-- At the first step of a row the body's pieces for scratch 0, which the kernel carries between points, cover it: each is a store of the whole buffer. -/
theorem scover3_A_0 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x8192.Idx) :
    ∃ pc ∈ (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S21x8192.size (by sl_kernel_rfl) y

/-- What the first step of a row leaves in scratch 0: its pieces read back over junk. -/
def sout3_A_0 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x8192 .f32 :=
  VS3_0.read (Elt F) (VS3_0.writes (Elt F) VS3_0.junk (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

/-- At the first step of a row the body's pieces for scratch 1, which the kernel carries between points, cover it: each is a store of the whole buffer. -/
theorem scover3_A_1 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S21x4096.size (by sl_kernel_rfl) y

/-- What the first step of a row leaves in scratch 1: its pieces read back over junk. -/
def sout3_A_1 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS3_1.read (Elt F) (VS3_1.writes (Elt F) VS3_1.junk (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)

/-- At the first step of a row the body's pieces for scratch 2, which the kernel carries between points, cover it: each is a store of the whole buffer. -/
theorem scover3_A_2 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1 S21x4096.size (by sl_kernel_rfl) y

/-- What the first step of a row leaves in scratch 2: its pieces read back over junk. -/
def sout3_A_2 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS3_2.read (Elt F) (VS3_2.writes (Elt F) VS3_2.junk (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1)

/-- At a middle step of a row the body stores nothing into output 9 (the window is idle there and not written back): no pieces —
    a placeholder (junk read back) that nothing consults, since at these points the window is neither written back nor
    read at the next point. -/
def out3_B_9 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO3_9.read (Elt F) (VO3_9.writes (Elt F) VO3_9.junk (kernelRun3_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At a middle step of a row the body stores nothing into scratch 0: it holds what the step before left. -/
def sout3_B_0 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At a middle step of a row the body's pieces for scratch 1, which the kernel carries between points, cover it: each is a store of the whole buffer. -/
theorem scover3_B_1 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun3_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What a middle step of a row leaves in scratch 1: its pieces read back over junk. -/
def sout3_B_1 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS3_1.read (Elt F) (VS3_1.writes (Elt F) VS3_1.junk (kernelRun3_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At a middle step of a row the body's pieces for scratch 2, which the kernel carries between points, cover it: each is a store of the whole buffer. -/
theorem scover3_B_2 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun3_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What a middle step of a row leaves in scratch 2: its pieces read back over junk. -/
def sout3_B_2 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS3_2.read (Elt F) (VS3_2.writes (Elt F) VS3_2.junk (kernelRun3_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-- At the last step of a row the body's pieces for output 9 tile its block (one store of the whole block), so they cover it. -/
theorem cover3_C_9 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1 S21x4096.size (by sl_kernel_rfl) y

/-- What the last step of a row leaves in output 9's staging buffer: its pieces read back over junk. -/
def out3_C_9 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO3_9.read (Elt F) (VO3_9.writes (Elt F) VO3_9.junk (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At the last step of a row the body stores nothing into scratch 0: it holds what the step before left. -/
def sout3_C_0 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At the last step of a row the body's pieces for scratch 1, which the kernel carries between points, cover it: each is a store of the whole buffer. -/
theorem scover3_C_1 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What the last step of a row leaves in scratch 1: its pieces read back over junk. -/
def sout3_C_1 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS3_1.read (Elt F) (VS3_1.writes (Elt F) VS3_1.junk (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At the last step of a row the body's pieces for scratch 2, which the kernel carries between points, cover it: each is a store of the whole buffer. -/
theorem scover3_C_2 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What the last step of a row leaves in scratch 2: its pieces read back over junk. -/
def sout3_C_2 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS3_2.read (Elt F) (VS3_2.writes (Elt F) VS3_2.junk (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-! ## What output 9 and the carried scratch hold after each point -/

/-- THE ACCUMULATION. What output 9's staging buffer and the three scratch buffers the kernel carries between points hold
    after the body at position `n` (a tuple: output 9, then scratch 0, 1, 2): the case the closed forms select at `n`, run at
    the point's memrefs and input blocks, a scratch it reads before storing at what this leaves at `n - 1`. Both conditions
    at once is no case (`False.elim`). -/
def outsAt3 (c : Dev nD) : (n : ℕ) → n < cfg3.N → Vec F S21x4096 .f32 × Vec F S21x8192 .f32 × Vec F S21x4096 .f32 × Vec F S21x4096 .f32
  | 0, hn => (out3_A_9 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩), sout3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩))
  | n + 1, hn =>
    if h0 : (n + 1) % 32 = 0 then
      if h1 : (n + 1) % 32 = 31 then
        False.elim (by omega)
      else
        (out3_A_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩), sout3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩))
    else
      if h1 : (n + 1) % 32 = 31 then
        (out3_C_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.1 (outsAt3 c n (Nat.lt_of_succ_lt hn)).2.2.1 (outsAt3 c n (Nat.lt_of_succ_lt hn)).2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.1 (outsAt3 c n (Nat.lt_of_succ_lt hn)).2.2.1 (outsAt3 c n (Nat.lt_of_succ_lt hn)).2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.1 (outsAt3 c n (Nat.lt_of_succ_lt hn)).2.2.1 (outsAt3 c n (Nat.lt_of_succ_lt hn)).2.2.2, sout3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.1 (outsAt3 c n (Nat.lt_of_succ_lt hn)).2.2.1 (outsAt3 c n (Nat.lt_of_succ_lt hn)).2.2.2)
      else
        (out3_B_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.1 (outsAt3 c n (Nat.lt_of_succ_lt hn)).2.2.1 (outsAt3 c n (Nat.lt_of_succ_lt hn)).2.2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.1 (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.1 (outsAt3 c n (Nat.lt_of_succ_lt hn)).2.2.1 (outsAt3 c n (Nat.lt_of_succ_lt hn)).2.2.2, sout3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.1 (outsAt3 c n (Nat.lt_of_succ_lt hn)).2.2.1 (outsAt3 c n (Nat.lt_of_succ_lt hn)).2.2.2)

/-- `outsAt3` at the first step of a row: that case's contents. -/
theorem outsAt3_A (c : Dev nD) (t : Fin cfg3.N) (h0 : t.val % 32 = 0) (h1 : ¬t.val % 32 = 31) :
    outsAt3 V c t.val t.isLt = (out3_A_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t), sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t), sout3_A_2 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t)) := by
  obtain ⟨n, hn⟩ := t
  cases n with
  | zero => exact rfl
  | succ n => exact (dif_pos h0).trans ((dif_neg h1).trans rfl)

/-- `outsAt3` at a middle step of a row: that case's contents, over what the point before left. -/
theorem outsAt3_B (c : Dev nD) (t : Fin cfg3.N) (h0 : ¬t.val % 32 = 0) (h1 : ¬t.val % 32 = 31) :
    outsAt3 V c t.val t.isLt = (out3_B_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_2 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at the last step of a row: that case's contents, over what the point before left. -/
theorem outsAt3_C (c : Dev nD) (t : Fin cfg3.N) (h0 : ¬t.val % 32 = 0) (h1 : t.val % 32 = 31) :
    outsAt3 V c t.val t.isLt = (out3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_2 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scratch at anything); afterwards
    the same with each of the three carried scratch buffers at what the point before left in it (`outsAt3`'s scratch
    components), the other scoped buffers unopened, and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ restBut3 c) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the carried scratch at that point's contents. -/
theorem PhiS3_succ (c : Dev nD) (n : ℕ) (hn : n < cfg3.N) :
    PhiS3 V c (n + 1) hn = iprop(iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ restBut3 c) ∗ (∃ r, prngReg c r)) := rfl

/-- Before a point that is not the first: the carried scratch at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.1) ∗ owns (c : Thread nD τ) scM3_1 fullShare ((outsAt3 V c (n - 1) (by omega)).2.2.1) ∗ owns (c : Thread nD τ) scM3_2 fullShare ((outsAt3 V c (n - 1) (by omega)).2.2.2)) ∗ restBut3 c) ∗ (∃ r, prngReg c r)) := by
  cases n with
  | zero => exact absurd rfl hz
  | succ n => rfl

/-! ## The pipeline's proof data -/

/-- The proof data of pipeline 3 on core `c`: the arrays as the region finds them (`V`); after the body at point `t` each
    input's buffer at its block and output 9's at `outsAt3`'s first component; the invariant `PhiS3`; nothing owed; full
    shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => (outsAt3 V c t.val t.isLt).1
  Φ t := PhiS3 V c t.val (Nat.le_of_lt_succ t.isLt)
  q _ := fullShare
  owed _ := 0

/-- The proof data's arrays are the region-entry contents (the definition projected, `V` never unfolded). -/
theorem A_eq3 (c : Dev nD) (w : Fin cfg3.W) : (dat3 V c).A w = V c (Pipeline.arrRef spec3 w) := by
  dsimp only [dat3]

/-- The invariant at a point's start (the proof data at `t.castSucc`), restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t)

set_option maxHeartbeats 4800000 in
/-- The body at any point: the inputs' memrefs hold their blocks (`before3_w`); the closed forms say which of the three cases
    the point is in; the invariant hands the body the three carried scratch buffers at what the point before left (at
    anything at the very first point; at the first step of the second row the case takes them at anything too), and takes
    them back at this point's contents (the stores cover each buffer a case stores into; a buffer a case only reads comes
    back as it was); output 9 is handed back untouched where it is idle, and holds the case's one store at the last step
    of a row; the other scoped buffers, the generator register and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 32 = 0
  · by_cases h1 : t.val % 32 = 31
    · exfalso; omega
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [show (dat3 V c).leavesExact 3 t = owns (c : Thread nD τ) (ms3_3 t) fullShare ((dat3 V c).after 3 t) from by
          unfold Dat.leavesExact; rw [liveAt3_3 t], after3_3]
        rw [show (dat3 V c).leavesExact 4 t = owns (c : Thread nD τ) (ms3_4 t) fullShare ((dat3 V c).after 4 t) from by
          unfold Dat.leavesExact; rw [liveAt3_4 t], after3_4]
        rw [show (dat3 V c).leavesExact 5 t = owns (c : Thread nD τ) (ms3_5 t) fullShare ((dat3 V c).after 5 t) from by
          unfold Dat.leavesExact; rw [liveAt3_5 t], after3_5]
        rw [show (dat3 V c).leavesExact 6 t = owns (c : Thread nD τ) (ms3_6 t) fullShare ((dat3 V c).after 6 t) from by
          unfold Dat.leavesExact; rw [liveAt3_6 t], after3_6]
        rw [show (dat3 V c).leavesExact 7 t = owns (c : Thread nD τ) (ms3_7 t) fullShare ((dat3 V c).after 7 t) from by
          unfold Dat.leavesExact; rw [liveAt3_7 t], after3_7]
        rw [show (dat3 V c).leavesExact 8 t = owns (c : Thread nD τ) (ms3_8 t) fullShare ((dat3 V c).after 8 t) from by
          unfold Dat.leavesExact; rw [liveAt3_8 t], after3_8]
        rw [Dat.leavesExact_idle (dat3 V c) 9 t (idleAt3_9_A t ((hcond3_0 t).mpr h0) (fun h => h1 ((hcond3_1 t).mp h))) (noFlush3_9_A t ((hcond3_0 t).mpr h0) (fun h => h1 ((hcond3_1 t).mp h)))]
        rw [outsAt3_A V c t h0 h1]
        unfold sout3_A_0 sout3_A_1 sout3_A_2; (try dsimp only)
        by_cases hz : t.val = 0
        ·
          rw [PhiS3_castSucc V c t, PhiS3_zero V c _ _ hz, PhiA3_eq]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun3_A c (grid3.coords t) _ _ _ _ _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover3_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover3_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover3_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
        ·
          rw [PhiS3_castSucc V c t, PhiS3_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun3_A c (grid3.coords t) _ _ _ _ _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexists _; iexact HS0
          isplitl [HS1]; · iexists _; iexact HS1
          isplitl [HS2]; · iexists _; iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover3_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover3_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover3_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
  · by_cases h1 : t.val % 32 = 31
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [show (dat3 V c).leavesExact 3 t = owns (c : Thread nD τ) (ms3_3 t) fullShare ((dat3 V c).after 3 t) from by
          unfold Dat.leavesExact; rw [liveAt3_3 t], after3_3]
        rw [show (dat3 V c).leavesExact 4 t = owns (c : Thread nD τ) (ms3_4 t) fullShare ((dat3 V c).after 4 t) from by
          unfold Dat.leavesExact; rw [liveAt3_4 t], after3_4]
        rw [show (dat3 V c).leavesExact 5 t = owns (c : Thread nD τ) (ms3_5 t) fullShare ((dat3 V c).after 5 t) from by
          unfold Dat.leavesExact; rw [liveAt3_5 t], after3_5]
        rw [show (dat3 V c).leavesExact 6 t = owns (c : Thread nD τ) (ms3_6 t) fullShare ((dat3 V c).after 6 t) from by
          unfold Dat.leavesExact; rw [liveAt3_6 t], after3_6]
        rw [show (dat3 V c).leavesExact 7 t = owns (c : Thread nD τ) (ms3_7 t) fullShare ((dat3 V c).after 7 t) from by
          unfold Dat.leavesExact; rw [liveAt3_7 t], after3_7]
        rw [show (dat3 V c).leavesExact 8 t = owns (c : Thread nD τ) (ms3_8 t) fullShare ((dat3 V c).after 8 t) from by
          unfold Dat.leavesExact; rw [liveAt3_8 t], after3_8]
        rw [show (dat3 V c).leavesExact 9 t = owns (c : Thread nD τ) (ms3_9 t) fullShare ((dat3 V c).after 9 t) from by
          unfold Dat.leavesExact; rw [liveAt3_9_C t (fun h => h0 ((hcond3_0 t).mp h)) ((hcond3_1 t).mpr h1)], after3_9]
        rw [outsAt3_C V c t h0 h1]
        unfold out3_C_9 sout3_C_0 sout3_C_1 sout3_C_2; (try dsimp only)
        by_cases hz : t.val = 0
        · exfalso; omega
        ·
          rw [PhiS3_castSucc V c t, PhiS3_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun3_C c (grid3.coords t) _ _ _ _ _ _ _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [HS0]; · iexact HS0
          isplitl [HS1]; · iexact HS1
          isplitl [HS2]; · iexact HS2
          iintro ⟨H0, H1, H2, H3, H4, H5, H6, H7, H8, ⟨%e9, H9⟩, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover3_C_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover3_C_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          unfold owns; iexists _; isplitr
          swap; · iexact H9
          ipureintro; exact View.read_writes_of_cover _ _ _ _ _ (cover3_C_9 c _ _ _ _ _ _ _ _ _ _ _ _ _ _ _ _ _ _ _ _ _ _ _ _ _ _ _ _ _ _ _ _ _ _ _ _ _ _ _ _ _)
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [show (dat3 V c).leavesExact 3 t = owns (c : Thread nD τ) (ms3_3 t) fullShare ((dat3 V c).after 3 t) from by
          unfold Dat.leavesExact; rw [liveAt3_3 t], after3_3]
        rw [show (dat3 V c).leavesExact 4 t = owns (c : Thread nD τ) (ms3_4 t) fullShare ((dat3 V c).after 4 t) from by
          unfold Dat.leavesExact; rw [liveAt3_4 t], after3_4]
        rw [show (dat3 V c).leavesExact 5 t = owns (c : Thread nD τ) (ms3_5 t) fullShare ((dat3 V c).after 5 t) from by
          unfold Dat.leavesExact; rw [liveAt3_5 t], after3_5]
        rw [show (dat3 V c).leavesExact 6 t = owns (c : Thread nD τ) (ms3_6 t) fullShare ((dat3 V c).after 6 t) from by
          unfold Dat.leavesExact; rw [liveAt3_6 t], after3_6]
        rw [show (dat3 V c).leavesExact 7 t = owns (c : Thread nD τ) (ms3_7 t) fullShare ((dat3 V c).after 7 t) from by
          unfold Dat.leavesExact; rw [liveAt3_7 t], after3_7]
        rw [show (dat3 V c).leavesExact 8 t = owns (c : Thread nD τ) (ms3_8 t) fullShare ((dat3 V c).after 8 t) from by
          unfold Dat.leavesExact; rw [liveAt3_8 t], after3_8]
        rw [Dat.leavesExact_idle (dat3 V c) 9 t (idleAt3_9_B t (fun h => h0 ((hcond3_0 t).mp h)) (fun h => h1 ((hcond3_1 t).mp h))) (noFlush3_9_B t (fun h => h0 ((hcond3_0 t).mp h)) (fun h => h1 ((hcond3_1 t).mp h)))]
        rw [outsAt3_B V c t h0 h1]
        unfold sout3_B_0 sout3_B_1 sout3_B_2; (try dsimp only)
        by_cases hz : t.val = 0
        · exfalso; omega
        ·
          rw [PhiS3_castSucc V c t, PhiS3_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun3_B c (grid3.coords t) _ _ _ _ _ _ _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) _ _ _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover3_B_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover3_B_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region (`ΦA`) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives `ΦA` back: the carried scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1, HS2⟩, Hr⟩, Hg⟩
  isplitl [HS0 HS1 HS2 Hr]
  · isplitl [HS0 HS1 HS2]
    · isplitl [HS0]
      · iexists _; iexact HS0
      isplitl [HS1]
      · iexists _; iexact HS1
      iexists _; iexact HS2
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Cert.Kernel.Hand

end
-- ==== Proof.BitsR4Runs.lean ====
/- Region 4 (custom_call 4, `cc4__kernel2_iter_body`, grid 2 x 32): what the three runs of its body share — the body's two
   branch conditions in closed form over the grid, where output window 9 is idle and not written back, the staging and
   scratch memrefs the body is called with, and the region's invariant with the three scratch operands opened. -/
import proofs.«162179_j58609123721967_2_alg».proof.Proof.Gen.Kernel.Launch
import proofs.«162179_j58609123721967_2_alg».proof.Proof.Gen.Kernel.Skeleton
import proofs.«162179_j58609123721967_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the step index `k = i 1` is zero), from the grid coordinates: the
    skeleton's scalar chain substituted. -/
abbrev cond4_0 (i : grid4.Coords) : Prop := (Scalar.cmpi .ne (Scalar.extui (Scalar.cmpi .eq (BitVec.ofNat 32 (i 1).val) 0#32)) 0#32) = 1#1
/-- It holds at the first step of each row of 32 — decided over the grid. -/
theorem hcond4_0 : ∀ t : Fin cfg4.N, cond4_0 (grid4.coords t) ↔ t.val % 32 = 0 :=
  (by decide +kernel : ∀ t : Fin grid4.N, cond4_0 (grid4.coords t) ↔ t.val % 32 = 0)

/-- The condition of the body's last `scf.if` (the step index is 31). -/
abbrev cond4_1 (i : grid4.Coords) : Prop := k4_cond2 i = 1#1
/-- It holds at the last step of each row of 32 — decided over the grid. -/
theorem hcond4_1 : ∀ t : Fin cfg4.N, cond4_1 (grid4.coords t) ↔ t.val % 32 = 31 :=
  (by decide +kernel : ∀ t : Fin grid4.N, cond4_1 (grid4.coords t) ↔ t.val % 32 = 31)

/-! ## Where the windows are idle (the configuration's table `Cfg.idle`) -/

/-- Window 0 is never idle (an input). -/
theorem liveAt4_0 : ∀ t : Fin cfg4.N, cfg4.idle 0 (grid4.coords t) = false := by decide +kernel
/-- Window 1 is never idle (an input). -/
theorem liveAt4_1 : ∀ t : Fin cfg4.N, cfg4.idle 1 (grid4.coords t) = false := by decide +kernel
/-- Window 2 is never idle (an input). -/
theorem liveAt4_2 : ∀ t : Fin cfg4.N, cfg4.idle 2 (grid4.coords t) = false := by decide +kernel
/-- Window 3 is never idle (an input). -/
theorem liveAt4_3 : ∀ t : Fin cfg4.N, cfg4.idle 3 (grid4.coords t) = false := by decide +kernel
/-- Window 4 is never idle (an input). -/
theorem liveAt4_4 : ∀ t : Fin cfg4.N, cfg4.idle 4 (grid4.coords t) = false := by decide +kernel
/-- Window 5 is never idle (an input). -/
theorem liveAt4_5 : ∀ t : Fin cfg4.N, cfg4.idle 5 (grid4.coords t) = false := by decide +kernel
/-- Window 6 is never idle (an input). -/
theorem liveAt4_6 : ∀ t : Fin cfg4.N, cfg4.idle 6 (grid4.coords t) = false := by decide +kernel
/-- Window 7 is never idle (an input). -/
theorem liveAt4_7 : ∀ t : Fin cfg4.N, cfg4.idle 7 (grid4.coords t) = false := by decide +kernel
/-- Window 8 is never idle (an input). -/
theorem liveAt4_8 : ∀ t : Fin cfg4.N, cfg4.idle 8 (grid4.coords t) = false := by decide +kernel
/-- At the first step of a row the configuration calls output 9 idle: the body stores nothing into it there. -/
theorem idleAt4_9_A : ∀ t : Fin cfg4.N, cond4_0 (grid4.coords t) → ¬cond4_1 (grid4.coords t) → cfg4.idle 9 (grid4.coords t) = true := by decide +kernel
/-- At the first step of a row the pipeline does not write output 9's block back. -/
theorem noFlush4_9_A : ∀ t : Fin cfg4.N, cond4_0 (grid4.coords t) → ¬cond4_1 (grid4.coords t) → (cfg4.win 9).flush t = false := by decide +kernel
/-- At a middle step the configuration calls output 9 idle. -/
theorem idleAt4_9_B : ∀ t : Fin cfg4.N, ¬cond4_0 (grid4.coords t) → ¬cond4_1 (grid4.coords t) → cfg4.idle 9 (grid4.coords t) = true := by decide +kernel
/-- At a middle step the pipeline does not write output 9's block back. -/
theorem noFlush4_9_B : ∀ t : Fin cfg4.N, ¬cond4_0 (grid4.coords t) → ¬cond4_1 (grid4.coords t) → (cfg4.win 9).flush t = false := by decide +kernel
/-- At the last step of a row the configuration calls output 9 live: the body stores into it. -/
theorem liveAt4_9_C : ∀ t : Fin cfg4.N, ¬cond4_0 (grid4.coords t) → cond4_1 (grid4.coords t) → cfg4.idle 9 (grid4.coords t) = false := by decide +kernel

/-! ## The memrefs the body is called with -/

/-- One staging buffer of output window 9, through which its contents are stated (the choice does not matter). -/
abbrev VO4_9 : View sig .tc .vmem S21x4096 .f32 := (Memref.whole cc4_stg9_0 : Memref sig .tc .vmem S21x4096 .f32).view
/-- Each window's current staging memref at point `t`, spelled as the pipeline passes it (`bodyAt4`), and its wholeness. -/
abbrev ms4_0 (t : Fin cfg4.N) : Memref sig .tc .vmem S21x8192 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S21x4096 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S256x4096 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256x4096 .bf16 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x4096 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x4096 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S21x21 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S21x21 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S21x21 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S21x4096 .f32 := win4_9.stage (cfg4.slots t 9)
abbrev hs4_9 (t : Fin cfg4.N) : (ms4_9 t).IsWhole := hstage4_9 ((cfg4.slots t 9).cast nbuf4_9)
/-- The scratch operands: whole scoped buffers of the kernel's own, passed beside the windows. -/
abbrev scM4_0 : Memref sig .tc .vmem S21x8192 .f32 := Memref.whole cc4_scratch0
abbrev scM4_1 : Memref sig .tc .vmem S21x4096 .f32 := Memref.whole cc4_scratch1
abbrev scM4_2 : Memref sig .tc .vmem S21x4096 .f32 := Memref.whole cc4_scratch2
/-- The scratch the kernel carries between points, as views: what each holds is stated through its view. -/
abbrev VS4_0 : View sig .tc .vmem S21x8192 .f32 := scM4_0.view
abbrev VS4_1 : View sig .tc .vmem S21x4096 .f32 := scM4_1.view
abbrev VS4_2 : View sig .tc .vmem S21x4096 .f32 := scM4_2.view

/-! ## The region's invariant with the scratch operands opened -/

/-- The scoped buffers of the core that are neither a staging buffer of this region nor one of its three scratch
    operands, each at some contents: carried unopened through every point. -/
abbrev restBut4 (c : Dev nD) : sProp 𝕄 :=
  Pipeline.scopedRestBut (Ix := Unit) (Name := ℕ) (U := UR sig nD τ) (Lvl := ℕ) (Val := Elt F) spec4 c [cc4_scratch0, cc4_scratch1, cc4_scratch2]

/-- The region's invariant with the scratch operands as memrefs owned at some contents: what the body obligation
    hands the run and takes back. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d) ∗ (∃ d, owns (c : Thread nD τ) scM4_2 fullShare d)) ∗ restBut4 c) ∗ (∃ r, prngReg c r)) := by
  unfold Pipeline.ΦA; rw [scopedRest4_split]; simp only [scM4_0, scM4_1, scM4_2, owns_whole]; try rfl

end Cert.Kernel.Hand

end
-- ==== Proof.BitsR4RunA.lean ====
/- Region 4 (custom_call 4, `cc4__kernel2_iter_body`): the whole-body run of the kernel at the first step of a row of 32 (k = 0). -/
import proofs.«162179_j58609123721967_2_alg».proof.Proof.BitsR4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the first step of a row (the first `scf.if` taken, the last not taken), WITH the proof that on whole memrefs — the nine inputs' at their contents `x·`,
    output 9's, into which this case stores nothing, at contents `xi9` handed back untouched, the three scratch buffers at anything (this case stores each of them whole before it reads it back) —
    the body runs to the continuation holding the inputs' as they were, each scratch buffer with its pieces written (`LS·`).
    The printed body is its skeleton; the run executes it, each `scf.if` decided by `hc0`, `hc1`; the piece lists are the
    witness the run finds. -/
noncomputable def kernelRun4_A (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc4__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc4__kernel2_iter_body_eq_skeleton]; unfold cc4__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.Kernel.Hand

end
-- ==== Proof.BitsR4RunB.lean ====
/- Region 4 (custom_call 4, `cc4__kernel2_iter_body`): the whole-body run of the kernel at a middle step of a row (0 < k < 31). -/
import proofs.«162179_j58609123721967_2_alg».proof.Proof.BitsR4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    a middle step of a row (neither `scf.if` taken), WITH the proof that on whole memrefs — the nine inputs' at their contents `x·`,
    output 9's, into which this case stores nothing, at contents `xi9` handed back untouched, the three scratch buffers at the contents the step before left (`xs·`) —
    the body runs to the continuation holding the inputs' as they were, scratch 0, which it only reads, as it was, scratch 1 and 2 with their pieces written (`LS1`, `LS2`).
    The printed body is its skeleton; the run executes it, each `scf.if` decided by `hc0`, `hc1`; the piece lists are the
    witness the run finds. -/
noncomputable def kernelRun4_B (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc4__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, fun xi9 E K => ?run⟩
  case run =>
    simp only [cc4__kernel2_iter_body_eq_skeleton]; unfold cc4__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    isplitl [HS1]; · iexists _; iexact HS1
    iexists _; iexact HS2

end Cert.Kernel.Hand

end
-- ==== Proof.BitsR4RunC.lean ====
/- Region 4 (custom_call 4, `cc4__kernel2_iter_body`): the whole-body run of the kernel at the last step of a row (k = 31). -/
import proofs.«162179_j58609123721967_2_alg».proof.Proof.BitsR4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the last step of a row (the first `scf.if` not taken, the last taken), WITH the proof that on whole memrefs — the nine inputs' at their contents `x·`,
    output 9's at anything, the three scratch buffers at the contents the step before left (`xs·`) —
    the body runs to the continuation holding the inputs' as they were, scratch 0 as it was, scratch 1 and 2 with their pieces written, output 9's buffer with its pieces written (`L9`).
    The printed body is its skeleton; the run executes it, each `scf.if` decided by `hc0`, `hc1`; the piece lists are the
    witness the run finds. -/
noncomputable def kernelRun4_C (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc4__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, ?_, fun E K => ?run⟩
  case run =>
    simp only [cc4__kernel2_iter_body_eq_skeleton]; unfold cc4__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _; isplitr; · ipureintro; exact harg12.read_unread _
      iexact HS0
    isplitl [HS1]; · iexists _; iexact HS1
    iexists _; iexact HS2

end Cert.Kernel.Hand

end
-- ==== Proof.BitsR4Frame.lean ====
/- Region 4 (custom_call 4, `cc4__kernel2_iter_body`, grid 2 x 32), at the entry contents `V`: what output 9 and the three
   scratch buffers the kernel carries between points hold per case and point by point, the pipeline's proof data, the
   body obligation, and the invariant's two ends. -/
import proofs.«162179_j58609123721967_2_alg».proof.Proof.BitsR4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data whose
    array is `V`'s (`hA`) and whose body leaves the block in place (`hafter`): unfetched, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data whose
    array is `V`'s (`hA`) and whose body leaves the block in place (`hafter`): unfetched, the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data whose
    array is `V`'s (`hA`) and whose body leaves the block in place (`hafter`): unfetched, the block index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof data whose
    array is `V`'s (`hA`) and whose body leaves the block in place (`hafter`): unfetched, the block index has not moved. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof data whose
    array is `V`'s (`hA`) and whose body leaves the block in place (`hafter`): unfetched, the block index has not moved. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof data whose
    array is `V`'s (`hA`) and whose body leaves the block in place (`hafter`): unfetched, the block index has not moved. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof data whose
    array is `V`'s (`hA`) and whose body leaves the block in place (`hafter`): unfetched, the block index has not moved. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not, for any proof data whose
    array is `V`'s (`hA`) and whose body leaves the block in place (`hafter`): unfetched, the block index has not moved. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, fetched there or not, for any proof data whose
    array is `V`'s (`hA`) and whose body leaves the block in place (`hafter`): unfetched, the block index has not moved. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## What each case leaves in output 9 and in the carried scratch -/

/-- At the first step of a row the body stores nothing into output 9 (the window is idle there and not written back): no pieces —
    a placeholder (junk read back) that nothing consults, since at these points the window is neither written back nor
    read at the next point. -/
def out4_A_9 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VO4_9.read (Elt F) (VO4_9.writes (Elt F) VO4_9.junk (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

/-- At the first step of a row the body's pieces for scratch 0, which the kernel carries between points, cover it: each is a store of the whole buffer. -/
theorem scover4_A_0 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x8192.Idx) :
    ∃ pc ∈ (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S21x8192.size (by sl_kernel_rfl) y

/-- What the first step of a row leaves in scratch 0: its pieces read back over junk. -/
def sout4_A_0 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x8192 .f32 :=
  VS4_0.read (Elt F) (VS4_0.writes (Elt F) VS4_0.junk (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

/-- At the first step of a row the body's pieces for scratch 1, which the kernel carries between points, cover it: each is a store of the whole buffer. -/
theorem scover4_A_1 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S21x4096.size (by sl_kernel_rfl) y

/-- What the first step of a row leaves in scratch 1: its pieces read back over junk. -/
def sout4_A_1 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS4_1.read (Elt F) (VS4_1.writes (Elt F) VS4_1.junk (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)

/-- At the first step of a row the body's pieces for scratch 2, which the kernel carries between points, cover it: each is a store of the whole buffer. -/
theorem scover4_A_2 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1 S21x4096.size (by sl_kernel_rfl) y

/-- What the first step of a row leaves in scratch 2: its pieces read back over junk. -/
def sout4_A_2 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS4_2.read (Elt F) (VS4_2.writes (Elt F) VS4_2.junk (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1)

/-- At a middle step of a row the body stores nothing into output 9 (the window is idle there and not written back): no pieces —
    a placeholder (junk read back) that nothing consults, since at these points the window is neither written back nor
    read at the next point. -/
def out4_B_9 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO4_9.read (Elt F) (VO4_9.writes (Elt F) VO4_9.junk (kernelRun4_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At a middle step of a row the body stores nothing into scratch 0: it holds what the step before left. -/
def sout4_B_0 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At a middle step of a row the body's pieces for scratch 1, which the kernel carries between points, cover it: each is a store of the whole buffer. -/
theorem scover4_B_1 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun4_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun4_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What a middle step of a row leaves in scratch 1: its pieces read back over junk. -/
def sout4_B_1 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS4_1.read (Elt F) (VS4_1.writes (Elt F) VS4_1.junk (kernelRun4_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At a middle step of a row the body's pieces for scratch 2, which the kernel carries between points, cover it: each is a store of the whole buffer. -/
theorem scover4_B_2 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun4_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun4_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What a middle step of a row leaves in scratch 2: its pieces read back over junk. -/
def sout4_B_2 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS4_2.read (Elt F) (VS4_2.writes (Elt F) VS4_2.junk (kernelRun4_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-- At the last step of a row the body's pieces for output 9 tile its block (one store of the whole block), so they cover it. -/
theorem cover4_C_9 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1 S21x4096.size (by sl_kernel_rfl) y

/-- What the last step of a row leaves in output 9's staging buffer: its pieces read back over junk. -/
def out4_C_9 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO4_9.read (Elt F) (VO4_9.writes (Elt F) VO4_9.junk (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At the last step of a row the body stores nothing into scratch 0: it holds what the step before left. -/
def sout4_C_0 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At the last step of a row the body's pieces for scratch 1, which the kernel carries between points, cover it: each is a store of the whole buffer. -/
theorem scover4_C_1 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What the last step of a row leaves in scratch 1: its pieces read back over junk. -/
def sout4_C_1 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS4_1.read (Elt F) (VS4_1.writes (Elt F) VS4_1.junk (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At the last step of a row the body's pieces for scratch 2, which the kernel carries between points, cover it: each is a store of the whole buffer. -/
theorem scover4_C_2 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What the last step of a row leaves in scratch 2: its pieces read back over junk. -/
def sout4_C_2 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS4_2.read (Elt F) (VS4_2.writes (Elt F) VS4_2.junk (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-! ## What output 9 and the carried scratch hold after each point -/

/-- THE ACCUMULATION. What output 9's staging buffer and the three scratch buffers the kernel carries between points hold
    after the body at position `n` (a tuple: output 9, then scratch 0, 1, 2): the case the closed forms select at `n`, run at
    the point's memrefs and input blocks, a scratch it reads before storing at what this leaves at `n - 1`. Both conditions
    at once is no case (`False.elim`). -/
def outsAt4 (c : Dev nD) : (n : ℕ) → n < cfg4.N → Vec F S21x4096 .f32 × Vec F S21x8192 .f32 × Vec F S21x4096 .f32 × Vec F S21x4096 .f32
  | 0, hn => (out4_A_9 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) scM4_0 (Memref.isWhole_whole _) scM4_1 (Memref.isWhole_whole _) scM4_2 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩) (iblk4 V c 8 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) scM4_0 (Memref.isWhole_whole _) scM4_1 (Memref.isWhole_whole _) scM4_2 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩) (iblk4 V c 8 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) scM4_0 (Memref.isWhole_whole _) scM4_1 (Memref.isWhole_whole _) scM4_2 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩) (iblk4 V c 8 ⟨0, hn⟩), sout4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) scM4_0 (Memref.isWhole_whole _) scM4_1 (Memref.isWhole_whole _) scM4_2 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩) (iblk4 V c 8 ⟨0, hn⟩))
  | n + 1, hn =>
    if h0 : (n + 1) % 32 = 0 then
      if h1 : (n + 1) % 32 = 31 then
        False.elim (by omega)
      else
        (out4_A_9 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩), sout4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩))
    else
      if h1 : (n + 1) % 32 = 31 then
        (out4_C_9 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2.1 (outsAt4 c n (Nat.lt_of_succ_lt hn)).2.2.2, sout4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2.1 (outsAt4 c n (Nat.lt_of_succ_lt hn)).2.2.2)
      else
        (out4_B_9 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2.1 (outsAt4 c n (Nat.lt_of_succ_lt hn)).2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2.1 (outsAt4 c n (Nat.lt_of_succ_lt hn)).2.2.2, sout4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2.1 (outsAt4 c n (Nat.lt_of_succ_lt hn)).2.2.2)

/-- `outsAt4` at the first step of a row: that case's contents. -/
theorem outsAt4_A (c : Dev nD) (t : Fin cfg4.N) (h0 : t.val % 32 = 0) (h1 : ¬t.val % 32 = 31) :
    outsAt4 V c t.val t.isLt = (out4_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t), sout4_A_2 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t)) := by
  obtain ⟨n, hn⟩ := t
  cases n with
  | zero => exact rfl
  | succ n => exact (dif_pos h0).trans ((dif_neg h1).trans rfl)

/-- `outsAt4` at a middle step of a row: that case's contents, over what the point before left. -/
theorem outsAt4_B (c : Dev nD) (t : Fin cfg4.N) (h0 : ¬t.val % 32 = 0) (h1 : ¬t.val % 32 = 31) :
    outsAt4 V c t.val t.isLt = (out4_B_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_B_2 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt4` at the last step of a row: that case's contents, over what the point before left. -/
theorem outsAt4_C (c : Dev nD) (t : Fin cfg4.N) (h0 : ¬t.val % 32 = 0) (h1 : t.val % 32 = 31) :
    outsAt4 V c t.val t.isLt = (out4_C_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_C_2 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scratch at anything); afterwards
    the same with each of the three carried scratch buffers at what the point before left in it (`outsAt4`'s scratch
    components), the other scoped buffers unopened, and the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.1) ∗ owns (c : Thread nD τ) scM4_1 fullShare ((outsAt4 V c n hn).2.2.1) ∗ owns (c : Thread nD τ) scM4_2 fullShare ((outsAt4 V c n hn).2.2.2)) ∗ restBut4 c) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the carried scratch at that point's contents. -/
theorem PhiS4_succ (c : Dev nD) (n : ℕ) (hn : n < cfg4.N) :
    PhiS4 V c (n + 1) hn = iprop(iprop(iprop(owns (c : Thread nD τ) scM4_0 fullShare ((outsAt4 V c n hn).2.1) ∗ owns (c : Thread nD τ) scM4_1 fullShare ((outsAt4 V c n hn).2.2.1) ∗ owns (c : Thread nD τ) scM4_2 fullShare ((outsAt4 V c n hn).2.2.2)) ∗ restBut4 c) ∗ (∃ r, prngReg c r)) := rfl

/-- Before a point that is not the first: the carried scratch at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.1) ∗ owns (c : Thread nD τ) scM4_1 fullShare ((outsAt4 V c (n - 1) (by omega)).2.2.1) ∗ owns (c : Thread nD τ) scM4_2 fullShare ((outsAt4 V c (n - 1) (by omega)).2.2.2)) ∗ restBut4 c) ∗ (∃ r, prngReg c r)) := by
  cases n with
  | zero => exact absurd rfl hz
  | succ n => rfl

/-! ## The pipeline's proof data -/

/-- The proof data of pipeline 4 on core `c`: the arrays as the region finds them (`V`); after the body at point `t` each
    input's buffer at its block and output 9's at `outsAt4`'s first component; the invariant `PhiS4`; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => (outsAt4 V c t.val t.isLt).1
  Φ t := PhiS4 V c t.val (Nat.le_of_lt_succ t.isLt)
  q _ := fullShare
  owed _ := 0

/-- The proof data's arrays are the region-entry contents (the definition projected, `V` never unfolded). -/
theorem A_eq4 (c : Dev nD) (w : Fin cfg4.W) : (dat4 V c).A w = V c (Pipeline.arrRef spec4 w) := by
  dsimp only [dat4]

/-- The invariant at a point's start (the proof data at `t.castSucc`), restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation, at a generic point -/

/-- What the body is called with at point `t` (the body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t
    ∗ (dat4 V c).leavesExact 9 t)

set_option maxHeartbeats 4800000 in
/-- The body at any point: the inputs' memrefs hold their blocks (`before4_w`); the closed forms say which of the three cases
    the point is in; the invariant hands the body the three carried scratch buffers at what the point before left (at
    anything at the very first point; at the first step of the second row the case takes them at anything too), and takes
    them back at this point's contents (the stores cover each buffer a case stores into; a buffer a case only reads comes
    back as it was); output 9 is handed back untouched where it is idle, and holds the case's one store at the last step
    of a row; the other scoped buffers, the generator register and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).owesAt () t.succ = (dat4 V c).owesAt () t.castSucc from rfl]
  rw [show (dat4 V c).Φ t.succ = PhiS4 V c (t.val + 1) t.isLt from rfl, PhiS4_succ]
  have hN : t.val < 64 := lt_of_lt_of_eq t.isLt (show cfg4.N = 64 from N_4)
  by_cases h0 : t.val % 32 = 0
  · by_cases h1 : t.val % 32 = 31
    · exfalso; omega
    ·
        rw [show (dat4 V c).leavesExact 0 t = owns (c : Thread nD τ) (ms4_0 t) fullShare ((dat4 V c).after 0 t) from by
          unfold Dat.leavesExact; rw [liveAt4_0 t], after4_0]
        rw [show (dat4 V c).leavesExact 1 t = owns (c : Thread nD τ) (ms4_1 t) fullShare ((dat4 V c).after 1 t) from by
          unfold Dat.leavesExact; rw [liveAt4_1 t], after4_1]
        rw [show (dat4 V c).leavesExact 2 t = owns (c : Thread nD τ) (ms4_2 t) fullShare ((dat4 V c).after 2 t) from by
          unfold Dat.leavesExact; rw [liveAt4_2 t], after4_2]
        rw [show (dat4 V c).leavesExact 3 t = owns (c : Thread nD τ) (ms4_3 t) fullShare ((dat4 V c).after 3 t) from by
          unfold Dat.leavesExact; rw [liveAt4_3 t], after4_3]
        rw [show (dat4 V c).leavesExact 4 t = owns (c : Thread nD τ) (ms4_4 t) fullShare ((dat4 V c).after 4 t) from by
          unfold Dat.leavesExact; rw [liveAt4_4 t], after4_4]
        rw [show (dat4 V c).leavesExact 5 t = owns (c : Thread nD τ) (ms4_5 t) fullShare ((dat4 V c).after 5 t) from by
          unfold Dat.leavesExact; rw [liveAt4_5 t], after4_5]
        rw [show (dat4 V c).leavesExact 6 t = owns (c : Thread nD τ) (ms4_6 t) fullShare ((dat4 V c).after 6 t) from by
          unfold Dat.leavesExact; rw [liveAt4_6 t], after4_6]
        rw [show (dat4 V c).leavesExact 7 t = owns (c : Thread nD τ) (ms4_7 t) fullShare ((dat4 V c).after 7 t) from by
          unfold Dat.leavesExact; rw [liveAt4_7 t], after4_7]
        rw [show (dat4 V c).leavesExact 8 t = owns (c : Thread nD τ) (ms4_8 t) fullShare ((dat4 V c).after 8 t) from by
          unfold Dat.leavesExact; rw [liveAt4_8 t], after4_8]
        rw [Dat.leavesExact_idle (dat4 V c) 9 t (idleAt4_9_A t ((hcond4_0 t).mpr h0) (fun h => h1 ((hcond4_1 t).mp h))) (noFlush4_9_A t ((hcond4_0 t).mpr h0) (fun h => h1 ((hcond4_1 t).mp h)))]
        rw [outsAt4_A V c t h0 h1]
        unfold sout4_A_0 sout4_A_1 sout4_A_2; (try dsimp only)
        by_cases hz : t.val = 0
        ·
          rw [PhiS4_castSucc V c t, PhiS4_zero V c _ _ hz, PhiA4_eq]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun4_A c (grid4.coords t) _ _ _ _ _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover4_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover4_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover4_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
        ·
          rw [PhiS4_castSucc V c t, PhiS4_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun4_A c (grid4.coords t) _ _ _ _ _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexists _; iexact HS0
          isplitl [HS1]; · iexists _; iexact HS1
          isplitl [HS2]; · iexists _; iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover4_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover4_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover4_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
  · by_cases h1 : t.val % 32 = 31
    ·
        rw [show (dat4 V c).leavesExact 0 t = owns (c : Thread nD τ) (ms4_0 t) fullShare ((dat4 V c).after 0 t) from by
          unfold Dat.leavesExact; rw [liveAt4_0 t], after4_0]
        rw [show (dat4 V c).leavesExact 1 t = owns (c : Thread nD τ) (ms4_1 t) fullShare ((dat4 V c).after 1 t) from by
          unfold Dat.leavesExact; rw [liveAt4_1 t], after4_1]
        rw [show (dat4 V c).leavesExact 2 t = owns (c : Thread nD τ) (ms4_2 t) fullShare ((dat4 V c).after 2 t) from by
          unfold Dat.leavesExact; rw [liveAt4_2 t], after4_2]
        rw [show (dat4 V c).leavesExact 3 t = owns (c : Thread nD τ) (ms4_3 t) fullShare ((dat4 V c).after 3 t) from by
          unfold Dat.leavesExact; rw [liveAt4_3 t], after4_3]
        rw [show (dat4 V c).leavesExact 4 t = owns (c : Thread nD τ) (ms4_4 t) fullShare ((dat4 V c).after 4 t) from by
          unfold Dat.leavesExact; rw [liveAt4_4 t], after4_4]
        rw [show (dat4 V c).leavesExact 5 t = owns (c : Thread nD τ) (ms4_5 t) fullShare ((dat4 V c).after 5 t) from by
          unfold Dat.leavesExact; rw [liveAt4_5 t], after4_5]
        rw [show (dat4 V c).leavesExact 6 t = owns (c : Thread nD τ) (ms4_6 t) fullShare ((dat4 V c).after 6 t) from by
          unfold Dat.leavesExact; rw [liveAt4_6 t], after4_6]
        rw [show (dat4 V c).leavesExact 7 t = owns (c : Thread nD τ) (ms4_7 t) fullShare ((dat4 V c).after 7 t) from by
          unfold Dat.leavesExact; rw [liveAt4_7 t], after4_7]
        rw [show (dat4 V c).leavesExact 8 t = owns (c : Thread nD τ) (ms4_8 t) fullShare ((dat4 V c).after 8 t) from by
          unfold Dat.leavesExact; rw [liveAt4_8 t], after4_8]
        rw [show (dat4 V c).leavesExact 9 t = owns (c : Thread nD τ) (ms4_9 t) fullShare ((dat4 V c).after 9 t) from by
          unfold Dat.leavesExact; rw [liveAt4_9_C t (fun h => h0 ((hcond4_0 t).mp h)) ((hcond4_1 t).mpr h1)], after4_9]
        rw [outsAt4_C V c t h0 h1]
        unfold out4_C_9 sout4_C_0 sout4_C_1 sout4_C_2; (try dsimp only)
        by_cases hz : t.val = 0
        · exfalso; omega
        ·
          rw [PhiS4_castSucc V c t, PhiS4_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun4_C c (grid4.coords t) _ _ _ _ _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (iblk4 V c 8 t) _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [HS0]; · iexact HS0
          isplitl [HS1]; · iexact HS1
          isplitl [HS2]; · iexact HS2
          iintro ⟨H0, H1, H2, H3, H4, H5, H6, H7, H8, ⟨%e9, H9⟩, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover4_C_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover4_C_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          unfold owns; iexists _; isplitr
          swap; · iexact H9
          ipureintro; exact View.read_writes_of_cover _ _ _ _ _ (cover4_C_9 c _ _ _ _ _ _ _ _ _ _ _ _ _ _ _ _ _ _ _ _ _ _ _ _ _ _ _ _ _ _ _ _ _ _ _ _ _ _ _ _ _)
    ·
        rw [show (dat4 V c).leavesExact 0 t = owns (c : Thread nD τ) (ms4_0 t) fullShare ((dat4 V c).after 0 t) from by
          unfold Dat.leavesExact; rw [liveAt4_0 t], after4_0]
        rw [show (dat4 V c).leavesExact 1 t = owns (c : Thread nD τ) (ms4_1 t) fullShare ((dat4 V c).after 1 t) from by
          unfold Dat.leavesExact; rw [liveAt4_1 t], after4_1]
        rw [show (dat4 V c).leavesExact 2 t = owns (c : Thread nD τ) (ms4_2 t) fullShare ((dat4 V c).after 2 t) from by
          unfold Dat.leavesExact; rw [liveAt4_2 t], after4_2]
        rw [show (dat4 V c).leavesExact 3 t = owns (c : Thread nD τ) (ms4_3 t) fullShare ((dat4 V c).after 3 t) from by
          unfold Dat.leavesExact; rw [liveAt4_3 t], after4_3]
        rw [show (dat4 V c).leavesExact 4 t = owns (c : Thread nD τ) (ms4_4 t) fullShare ((dat4 V c).after 4 t) from by
          unfold Dat.leavesExact; rw [liveAt4_4 t], after4_4]
        rw [show (dat4 V c).leavesExact 5 t = owns (c : Thread nD τ) (ms4_5 t) fullShare ((dat4 V c).after 5 t) from by
          unfold Dat.leavesExact; rw [liveAt4_5 t], after4_5]
        rw [show (dat4 V c).leavesExact 6 t = owns (c : Thread nD τ) (ms4_6 t) fullShare ((dat4 V c).after 6 t) from by
          unfold Dat.leavesExact; rw [liveAt4_6 t], after4_6]
        rw [show (dat4 V c).leavesExact 7 t = owns (c : Thread nD τ) (ms4_7 t) fullShare ((dat4 V c).after 7 t) from by
          unfold Dat.leavesExact; rw [liveAt4_7 t], after4_7]
        rw [show (dat4 V c).leavesExact 8 t = owns (c : Thread nD τ) (ms4_8 t) fullShare ((dat4 V c).after 8 t) from by
          unfold Dat.leavesExact; rw [liveAt4_8 t], after4_8]
        rw [Dat.leavesExact_idle (dat4 V c) 9 t (idleAt4_9_B t (fun h => h0 ((hcond4_0 t).mp h)) (fun h => h1 ((hcond4_1 t).mp h))) (noFlush4_9_B t (fun h => h0 ((hcond4_0 t).mp h)) (fun h => h1 ((hcond4_1 t).mp h)))]
        rw [outsAt4_B V c t h0 h1]
        unfold sout4_B_0 sout4_B_1 sout4_B_2; (try dsimp only)
        by_cases hz : t.val = 0
        · exfalso; omega
        ·
          rw [PhiS4_castSucc V c t, PhiS4_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun4_B c (grid4.coords t) _ _ _ _ _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) _ _ _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover4_B_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover4_B_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region (`ΦA`) is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives `ΦA` back: the carried scratch's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1, HS2⟩, Hr⟩, Hg⟩
  isplitl [HS0 HS1 HS2 Hr]
  · isplitl [HS0 HS1 HS2]
    · isplitl [HS0]
      · iexists _; iexact HS0
      isplitl [HS1]
      · iexists _; iexact HS1
      iexists _; iexact HS2
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 64 := N_4; omega)

end Cert.Kernel.Hand

end
-- ==== Proof.BitsR5Runs.lean ====
/- Region 5 (custom_call 5, `cc5__kernel2_iter_body`, grid 2 x 32): what the three runs of its body share — the body's two
   branch conditions in closed form over the grid, where output window 9 is idle and not written back, the staging and
   scratch memrefs the body is called with, and the region's invariant with the three scratch operands opened. -/
import proofs.«162179_j58609123721967_2_alg».proof.Proof.Gen.Kernel.Launch
import proofs.«162179_j58609123721967_2_alg».proof.Proof.Gen.Kernel.Skeleton
import proofs.«162179_j58609123721967_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the step index `k = i 1` is zero), from the grid coordinates: the
    skeleton's scalar chain substituted. -/
abbrev cond5_0 (i : grid5.Coords) : Prop := (Scalar.cmpi .ne (Scalar.extui (Scalar.cmpi .eq (BitVec.ofNat 32 (i 1).val) 0#32)) 0#32) = 1#1
/-- It holds at the first step of each row of 32 — decided over the grid. -/
theorem hcond5_0 : ∀ t : Fin cfg5.N, cond5_0 (grid5.coords t) ↔ t.val % 32 = 0 :=
  (by decide +kernel : ∀ t : Fin grid5.N, cond5_0 (grid5.coords t) ↔ t.val % 32 = 0)

/-- The condition of the body's last `scf.if` (the step index is 31). -/
abbrev cond5_1 (i : grid5.Coords) : Prop := k5_cond2 i = 1#1
/-- It holds at the last step of each row of 32 — decided over the grid. -/
theorem hcond5_1 : ∀ t : Fin cfg5.N, cond5_1 (grid5.coords t) ↔ t.val % 32 = 31 :=
  (by decide +kernel : ∀ t : Fin grid5.N, cond5_1 (grid5.coords t) ↔ t.val % 32 = 31)

/-! ## Where the windows are idle (the configuration's table `Cfg.idle`) -/

/-- Window 0 is never idle (an input). -/
theorem liveAt5_0 : ∀ t : Fin cfg5.N, cfg5.idle 0 (grid5.coords t) = false := by decide +kernel
/-- Window 1 is never idle (an input). -/
theorem liveAt5_1 : ∀ t : Fin cfg5.N, cfg5.idle 1 (grid5.coords t) = false := by decide +kernel
/-- Window 2 is never idle (an input). -/
theorem liveAt5_2 : ∀ t : Fin cfg5.N, cfg5.idle 2 (grid5.coords t) = false := by decide +kernel
/-- Window 3 is never idle (an input). -/
theorem liveAt5_3 : ∀ t : Fin cfg5.N, cfg5.idle 3 (grid5.coords t) = false := by decide +kernel
/-- Window 4 is never idle (an input). -/
theorem liveAt5_4 : ∀ t : Fin cfg5.N, cfg5.idle 4 (grid5.coords t) = false := by decide +kernel
/-- Window 5 is never idle (an input). -/
theorem liveAt5_5 : ∀ t : Fin cfg5.N, cfg5.idle 5 (grid5.coords t) = false := by decide +kernel
/-- Window 6 is never idle (an input). -/
theorem liveAt5_6 : ∀ t : Fin cfg5.N, cfg5.idle 6 (grid5.coords t) = false := by decide +kernel
/-- Window 7 is never idle (an input). -/
theorem liveAt5_7 : ∀ t : Fin cfg5.N, cfg5.idle 7 (grid5.coords t) = false := by decide +kernel
/-- Window 8 is never idle (an input). -/
theorem liveAt5_8 : ∀ t : Fin cfg5.N, cfg5.idle 8 (grid5.coords t) = false := by decide +kernel
/-- At the first step of a row the configuration calls output 9 idle: the body stores nothing into it there. -/
theorem idleAt5_9_A : ∀ t : Fin cfg5.N, cond5_0 (grid5.coords t) → ¬cond5_1 (grid5.coords t) → cfg5.idle 9 (grid5.coords t) = true := by decide +kernel
/-- At the first step of a row the pipeline does not write output 9's block back. -/
theorem noFlush5_9_A : ∀ t : Fin cfg5.N, cond5_0 (grid5.coords t) → ¬cond5_1 (grid5.coords t) → (cfg5.win 9).flush t = false := by decide +kernel
/-- At a middle step the configuration calls output 9 idle. -/
theorem idleAt5_9_B : ∀ t : Fin cfg5.N, ¬cond5_0 (grid5.coords t) → ¬cond5_1 (grid5.coords t) → cfg5.idle 9 (grid5.coords t) = true := by decide +kernel
/-- At a middle step the pipeline does not write output 9's block back. -/
theorem noFlush5_9_B : ∀ t : Fin cfg5.N, ¬cond5_0 (grid5.coords t) → ¬cond5_1 (grid5.coords t) → (cfg5.win 9).flush t = false := by decide +kernel
/-- At the last step of a row the configuration calls output 9 live: the body stores into it. -/
theorem liveAt5_9_C : ∀ t : Fin cfg5.N, ¬cond5_0 (grid5.coords t) → cond5_1 (grid5.coords t) → cfg5.idle 9 (grid5.coords t) = false := by decide +kernel

/-! ## The memrefs the body is called with -/

/-- One staging buffer of output window 9, through which its contents are stated (the choice does not matter). -/
abbrev VO5_9 : View sig .tc .vmem S21x4096 .f32 := (Memref.whole cc5_stg9_0 : Memref sig .tc .vmem S21x4096 .f32).view
/-- Each window's current staging memref at point `t`, spelled as the pipeline passes it (`bodyAt5`), and its wholeness. -/
abbrev ms5_0 (t : Fin cfg5.N) : Memref sig .tc .vmem S21x8192 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S21x4096 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S256x4096 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S256x4096 .bf16 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x4096 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x4096 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S21x21 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S21x21 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S21x21 .f32 := win5_8.stage (cfg5.slots t 8)
abbrev hs5_8 (t : Fin cfg5.N) : (ms5_8 t).IsWhole := hstage5_8 ((cfg5.slots t 8).cast nbuf5_8)
abbrev ms5_9 (t : Fin cfg5.N) : Memref sig .tc .vmem S21x4096 .f32 := win5_9.stage (cfg5.slots t 9)
abbrev hs5_9 (t : Fin cfg5.N) : (ms5_9 t).IsWhole := hstage5_9 ((cfg5.slots t 9).cast nbuf5_9)
/-- The scratch operands: whole scoped buffers of the kernel's own, passed beside the windows. -/
abbrev scM5_0 : Memref sig .tc .vmem S21x8192 .f32 := Memref.whole cc5_scratch0
abbrev scM5_1 : Memref sig .tc .vmem S21x4096 .f32 := Memref.whole cc5_scratch1
abbrev scM5_2 : Memref sig .tc .vmem S21x4096 .f32 := Memref.whole cc5_scratch2
/-- The scratch the kernel carries between points, as views: what each holds is stated through its view. -/
abbrev VS5_0 : View sig .tc .vmem S21x8192 .f32 := scM5_0.view
abbrev VS5_1 : View sig .tc .vmem S21x4096 .f32 := scM5_1.view
abbrev VS5_2 : View sig .tc .vmem S21x4096 .f32 := scM5_2.view

/-! ## The region's invariant with the scratch operands opened -/

/-- The scoped buffers of the core that are neither a staging buffer of this region nor one of its three scratch
    operands, each at some contents: carried unopened through every point. -/
abbrev restBut5 (c : Dev nD) : sProp 𝕄 :=
  Pipeline.scopedRestBut (Ix := Unit) (Name := ℕ) (U := UR sig nD τ) (Lvl := ℕ) (Val := Elt F) spec5 c [cc5_scratch0, cc5_scratch1, cc5_scratch2]

/-- The region's invariant with the scratch operands as memrefs owned at some contents: what the body obligation
    hands the run and takes back. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d) ∗ (∃ d, owns (c : Thread nD τ) scM5_2 fullShare d)) ∗ restBut5 c) ∗ (∃ r, prngReg c r)) := by
  unfold Pipeline.ΦA; rw [scopedRest5_split]; simp only [scM5_0, scM5_1, scM5_2, owns_whole]; try rfl

end Cert.Kernel.Hand

end
-- ==== Proof.BitsR5RunA.lean ====
/- Region 5 (custom_call 5, `cc5__kernel2_iter_body`): the whole-body run of the kernel at the first step of a row of 32 (k = 0). -/
import proofs.«162179_j58609123721967_2_alg».proof.Proof.BitsR5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the first step of a row (the first `scf.if` taken, the last not taken), WITH the proof that on whole memrefs — the nine inputs' at their contents `x·`,
    output 9's, into which this case stores nothing, at contents `xi9` handed back untouched, the three scratch buffers at anything (this case stores each of them whole before it reads it back) —
    the body runs to the continuation holding the inputs' as they were, each scratch buffer with its pieces written (`LS·`).
    The printed body is its skeleton; the run executes it, each `scf.if` decided by `hc0`, `hc1`; the piece lists are the
    witness the run finds. -/
noncomputable def kernelRun5_A (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc5__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc5__kernel2_iter_body_eq_skeleton]; unfold cc5__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.Kernel.Hand

end
-- ==== Proof.BitsR5RunB.lean ====
/- Region 5 (custom_call 5, `cc5__kernel2_iter_body`): the whole-body run of the kernel at a middle step of a row (0 < k < 31). -/
import proofs.«162179_j58609123721967_2_alg».proof.Proof.BitsR5RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    a middle step of a row (neither `scf.if` taken), WITH the proof that on whole memrefs — the nine inputs' at their contents `x·`,
    output 9's, into which this case stores nothing, at contents `xi9` handed back untouched, the three scratch buffers at the contents the step before left (`xs·`) —
    the body runs to the continuation holding the inputs' as they were, scratch 0, which it only reads, as it was, scratch 1 and 2 with their pieces written (`LS1`, `LS2`).
    The printed body is its skeleton; the run executes it, each `scf.if` decided by `hc0`, `hc1`; the piece lists are the
    witness the run finds. -/
noncomputable def kernelRun5_B (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc5__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, fun xi9 E K => ?run⟩
  case run =>
    simp only [cc5__kernel2_iter_body_eq_skeleton]; unfold cc5__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    isplitl [HS1]; · iexists _; iexact HS1
    iexists _; iexact HS2

end Cert.Kernel.Hand

end
-- ==== Proof.BitsR5RunC.lean ====
/- Region 5 (custom_call 5, `cc5__kernel2_iter_body`): the whole-body run of the kernel at the last step of a row (k = 31). -/
import proofs.«162179_j58609123721967_2_alg».proof.Proof.BitsR5RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the last step of a row (the first `scf.if` not taken, the last taken), WITH the proof that on whole memrefs — the nine inputs' at their contents `x·`,
    output 9's at anything, the three scratch buffers at the contents the step before left (`xs·`) —
    the body runs to the continuation holding the inputs' as they were, scratch 0 as it was, scratch 1 and 2 with their pieces written, output 9's buffer with its pieces written (`L9`).
    The printed body is its skeleton; the run executes it, each `scf.if` decided by `hc0`, `hc1`; the piece lists are the
    witness the run finds. -/
noncomputable def kernelRun5_C (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc5__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, ?_, fun E K => ?run⟩
  case run =>
    simp only [cc5__kernel2_iter_body_eq_skeleton]; unfold cc5__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _; isplitr; · ipureintro; exact harg12.read_unread _
      iexact HS0
    isplitl [HS1]; · iexists _; iexact HS1
    iexists _; iexact HS2

end Cert.Kernel.Hand

end
-- ==== Proof.BitsR5Frame.lean ====
/- Region 5 (custom_call 5, `cc5__kernel2_iter_body`, grid 2 x 32), at the entry contents `V`: what output 9 and the three
   scratch buffers the kernel carries between points hold per case and point by point, the pipeline's proof data, the
   body obligation, and the invariant's two ends. -/
import proofs.«162179_j58609123721967_2_alg».proof.Proof.BitsR5RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data whose
    array is `V`'s (`hA`) and whose body leaves the block in place (`hafter`): unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data whose
    array is `V`'s (`hA`) and whose body leaves the block in place (`hafter`): unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data whose
    array is `V`'s (`hA`) and whose body leaves the block in place (`hafter`): unfetched, the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof data whose
    array is `V`'s (`hA`) and whose body leaves the block in place (`hafter`): unfetched, the block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof data whose
    array is `V`'s (`hA`) and whose body leaves the block in place (`hafter`): unfetched, the block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof data whose
    array is `V`'s (`hA`) and whose body leaves the block in place (`hafter`): unfetched, the block index has not moved. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof data whose
    array is `V`'s (`hA`) and whose body leaves the block in place (`hafter`): unfetched, the block index has not moved. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, fetched there or not, for any proof data whose
    array is `V`'s (`hA`) and whose body leaves the block in place (`hafter`): unfetched, the block index has not moved. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, fetched there or not, for any proof data whose
    array is `V`'s (`hA`) and whose body leaves the block in place (`hafter`): unfetched, the block index has not moved. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## What each case leaves in output 9 and in the carried scratch -/

/-- At the first step of a row the body stores nothing into output 9 (the window is idle there and not written back): no pieces —
    a placeholder (junk read back) that nothing consults, since at these points the window is neither written back nor
    read at the next point. -/
def out5_A_9 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VO5_9.read (Elt F) (VO5_9.writes (Elt F) VO5_9.junk (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

/-- At the first step of a row the body's pieces for scratch 0, which the kernel carries between points, cover it: each is a store of the whole buffer. -/
theorem scover5_A_0 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x8192.Idx) :
    ∃ pc ∈ (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S21x8192.size (by sl_kernel_rfl) y

/-- What the first step of a row leaves in scratch 0: its pieces read back over junk. -/
def sout5_A_0 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x8192 .f32 :=
  VS5_0.read (Elt F) (VS5_0.writes (Elt F) VS5_0.junk (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

/-- At the first step of a row the body's pieces for scratch 1, which the kernel carries between points, cover it: each is a store of the whole buffer. -/
theorem scover5_A_1 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S21x4096.size (by sl_kernel_rfl) y

/-- What the first step of a row leaves in scratch 1: its pieces read back over junk. -/
def sout5_A_1 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS5_1.read (Elt F) (VS5_1.writes (Elt F) VS5_1.junk (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)

/-- At the first step of a row the body's pieces for scratch 2, which the kernel carries between points, cover it: each is a store of the whole buffer. -/
theorem scover5_A_2 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1 S21x4096.size (by sl_kernel_rfl) y

/-- What the first step of a row leaves in scratch 2: its pieces read back over junk. -/
def sout5_A_2 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS5_2.read (Elt F) (VS5_2.writes (Elt F) VS5_2.junk (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1)

/-- At a middle step of a row the body stores nothing into output 9 (the window is idle there and not written back): no pieces —
    a placeholder (junk read back) that nothing consults, since at these points the window is neither written back nor
    read at the next point. -/
def out5_B_9 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO5_9.read (Elt F) (VO5_9.writes (Elt F) VO5_9.junk (kernelRun5_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At a middle step of a row the body stores nothing into scratch 0: it holds what the step before left. -/
def sout5_B_0 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At a middle step of a row the body's pieces for scratch 1, which the kernel carries between points, cover it: each is a store of the whole buffer. -/
theorem scover5_B_1 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun5_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun5_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What a middle step of a row leaves in scratch 1: its pieces read back over junk. -/
def sout5_B_1 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS5_1.read (Elt F) (VS5_1.writes (Elt F) VS5_1.junk (kernelRun5_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At a middle step of a row the body's pieces for scratch 2, which the kernel carries between points, cover it: each is a store of the whole buffer. -/
theorem scover5_B_2 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun5_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun5_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What a middle step of a row leaves in scratch 2: its pieces read back over junk. -/
def sout5_B_2 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS5_2.read (Elt F) (VS5_2.writes (Elt F) VS5_2.junk (kernelRun5_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-- At the last step of a row the body's pieces for output 9 tile its block (one store of the whole block), so they cover it. -/
theorem cover5_C_9 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1, y ∈ pc.1.set :=
  View.cover_of_tiledL (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1 S21x4096.size (by sl_kernel_rfl) y

/-- What the last step of a row leaves in output 9's staging buffer: its pieces read back over junk. -/
def out5_C_9 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO5_9.read (Elt F) (VO5_9.writes (Elt F) VO5_9.junk (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At the last step of a row the body stores nothing into scratch 0: it holds what the step before left. -/
def sout5_C_0 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At the last step of a row the body's pieces for scratch 1, which the kernel carries between points, cover it: each is a store of the whole buffer. -/
theorem scover5_C_1 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What the last step of a row leaves in scratch 1: its pieces read back over junk. -/
def sout5_C_1 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS5_1.read (Elt F) (VS5_1.writes (Elt F) VS5_1.junk (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At the last step of a row the body's pieces for scratch 2, which the kernel carries between points, cover it: each is a store of the whole buffer. -/
theorem scover5_C_2 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What the last step of a row leaves in scratch 2: its pieces read back over junk. -/
def sout5_C_2 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS5_2.read (Elt F) (VS5_2.writes (Elt F) VS5_2.junk (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-! ## What output 9 and the carried scratch hold after each point -/

/-- THE ACCUMULATION. What output 9's staging buffer and the three scratch buffers the kernel carries between points hold
    after the body at position `n` (a tuple: output 9, then scratch 0, 1, 2): the case the closed forms select at `n`, run at
    the point's memrefs and input blocks, a scratch it reads before storing at what this leaves at `n - 1`. Both conditions
    at once is no case (`False.elim`). -/
def outsAt5 (c : Dev nD) : (n : ℕ) → n < cfg5.N → Vec F S21x4096 .f32 × Vec F S21x8192 .f32 × Vec F S21x4096 .f32 × Vec F S21x4096 .f32
  | 0, hn => (out5_A_9 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) scM5_0 (Memref.isWhole_whole _) scM5_1 (Memref.isWhole_whole _) scM5_2 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩) (iblk5 V c 7 ⟨0, hn⟩) (iblk5 V c 8 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) scM5_0 (Memref.isWhole_whole _) scM5_1 (Memref.isWhole_whole _) scM5_2 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩) (iblk5 V c 7 ⟨0, hn⟩) (iblk5 V c 8 ⟨0, hn⟩), sout5_A_1 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) scM5_0 (Memref.isWhole_whole _) scM5_1 (Memref.isWhole_whole _) scM5_2 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩) (iblk5 V c 7 ⟨0, hn⟩) (iblk5 V c 8 ⟨0, hn⟩), sout5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) scM5_0 (Memref.isWhole_whole _) scM5_1 (Memref.isWhole_whole _) scM5_2 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩) (iblk5 V c 7 ⟨0, hn⟩) (iblk5 V c 8 ⟨0, hn⟩))
  | n + 1, hn =>
    if h0 : (n + 1) % 32 = 0 then
      if h1 : (n + 1) % 32 = 31 then
        False.elim (by omega)
      else
        (out5_A_9 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩), sout5_A_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩), sout5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩))
    else
      if h1 : (n + 1) % 32 = 31 then
        (out5_C_9 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (outsAt5 c n (Nat.lt_of_succ_lt hn)).2.1 (outsAt5 c n (Nat.lt_of_succ_lt hn)).2.2.1 (outsAt5 c n (Nat.lt_of_succ_lt hn)).2.2.2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (outsAt5 c n (Nat.lt_of_succ_lt hn)).2.1 (outsAt5 c n (Nat.lt_of_succ_lt hn)).2.2.1 (outsAt5 c n (Nat.lt_of_succ_lt hn)).2.2.2, sout5_C_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (outsAt5 c n (Nat.lt_of_succ_lt hn)).2.1 (outsAt5 c n (Nat.lt_of_succ_lt hn)).2.2.1 (outsAt5 c n (Nat.lt_of_succ_lt hn)).2.2.2, sout5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (outsAt5 c n (Nat.lt_of_succ_lt hn)).2.1 (outsAt5 c n (Nat.lt_of_succ_lt hn)).2.2.1 (outsAt5 c n (Nat.lt_of_succ_lt hn)).2.2.2)
      else
        (out5_B_9 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (outsAt5 c n (Nat.lt_of_succ_lt hn)).2.1 (outsAt5 c n (Nat.lt_of_succ_lt hn)).2.2.1 (outsAt5 c n (Nat.lt_of_succ_lt hn)).2.2.2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (outsAt5 c n (Nat.lt_of_succ_lt hn)).2.1 (outsAt5 c n (Nat.lt_of_succ_lt hn)).2.2.1 (outsAt5 c n (Nat.lt_of_succ_lt hn)).2.2.2, sout5_B_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (outsAt5 c n (Nat.lt_of_succ_lt hn)).2.1 (outsAt5 c n (Nat.lt_of_succ_lt hn)).2.2.1 (outsAt5 c n (Nat.lt_of_succ_lt hn)).2.2.2, sout5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (outsAt5 c n (Nat.lt_of_succ_lt hn)).2.1 (outsAt5 c n (Nat.lt_of_succ_lt hn)).2.2.1 (outsAt5 c n (Nat.lt_of_succ_lt hn)).2.2.2)

/-- `outsAt5` at the first step of a row: that case's contents. -/
theorem outsAt5_A (c : Dev nD) (t : Fin cfg5.N) (h0 : t.val % 32 = 0) (h1 : ¬t.val % 32 = 31) :
    outsAt5 V c t.val t.isLt = (out5_A_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t), sout5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t), sout5_A_2 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t)) := by
  obtain ⟨n, hn⟩ := t
  cases n with
  | zero => exact rfl
  | succ n => exact (dif_pos h0).trans ((dif_neg h1).trans rfl)

/-- `outsAt5` at a middle step of a row: that case's contents, over what the point before left. -/
theorem outsAt5_B (c : Dev nD) (t : Fin cfg5.N) (h0 : ¬t.val % 32 = 0) (h1 : ¬t.val % 32 = 31) :
    outsAt5 V c t.val t.isLt = (out5_B_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2, sout5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2, sout5_B_2 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt5` at the last step of a row: that case's contents, over what the point before left. -/
theorem outsAt5_C (c : Dev nD) (t : Fin cfg5.N) (h0 : ¬t.val % 32 = 0) (h1 : t.val % 32 = 31) :
    outsAt5 V c t.val t.isLt = (out5_C_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2, sout5_C_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2, sout5_C_2 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scratch at anything); afterwards
    the same with each of the three carried scratch buffers at what the point before left in it (`outsAt5`'s scratch
    components), the other scoped buffers unopened, and the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.1) ∗ owns (c : Thread nD τ) scM5_1 fullShare ((outsAt5 V c n hn).2.2.1) ∗ owns (c : Thread nD τ) scM5_2 fullShare ((outsAt5 V c n hn).2.2.2)) ∗ restBut5 c) ∗ (∃ r, prngReg c r))

theorem PhiS5_zero (c : Dev nD) (n : ℕ) (h : n ≤ cfg5.N) (hz : n = 0) : PhiS5 V c n h = Pipeline.ΦA spec5 c := by
  subst hz; rfl

/-- After point `n` (before point `n + 1`): the carried scratch at that point's contents. -/
theorem PhiS5_succ (c : Dev nD) (n : ℕ) (hn : n < cfg5.N) :
    PhiS5 V c (n + 1) hn = iprop(iprop(iprop(owns (c : Thread nD τ) scM5_0 fullShare ((outsAt5 V c n hn).2.1) ∗ owns (c : Thread nD τ) scM5_1 fullShare ((outsAt5 V c n hn).2.2.1) ∗ owns (c : Thread nD τ) scM5_2 fullShare ((outsAt5 V c n hn).2.2.2)) ∗ restBut5 c) ∗ (∃ r, prngReg c r)) := rfl

/-- Before a point that is not the first: the carried scratch at what the point before left. -/
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.1) ∗ owns (c : Thread nD τ) scM5_1 fullShare ((outsAt5 V c (n - 1) (by omega)).2.2.1) ∗ owns (c : Thread nD τ) scM5_2 fullShare ((outsAt5 V c (n - 1) (by omega)).2.2.2)) ∗ restBut5 c) ∗ (∃ r, prngReg c r)) := by
  cases n with
  | zero => exact absurd rfl hz
  | succ n => rfl

/-! ## The pipeline's proof data -/

/-- The proof data of pipeline 5 on core `c`: the arrays as the region finds them (`V`); after the body at point `t` each
    input's buffer at its block and output 9's at `outsAt5`'s first component; the invariant `PhiS5`; nothing owed; full
    shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => (outsAt5 V c t.val t.isLt).1
  Φ t := PhiS5 V c t.val (Nat.le_of_lt_succ t.isLt)
  q _ := fullShare
  owed _ := 0

/-- The proof data's arrays are the region-entry contents (the definition projected, `V` never unfolded). -/
theorem A_eq5 (c : Dev nD) (w : Fin cfg5.W) : (dat5 V c).A w = V c (Pipeline.arrRef spec5 w) := by
  dsimp only [dat5]

/-- The invariant at a point's start (the proof data at `t.castSucc`), restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = (outsAt5 V c t.val t.isLt).1 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-! ## The body obligation, at a generic point -/

/-- What the body is called with at point `t` (the body obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d))
    ∗ (∃ d, owns (c : Thread nD τ) (ms5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t
    ∗ (dat5 V c).leavesExact 9 t)

set_option maxHeartbeats 4800000 in
/-- The body at any point: the inputs' memrefs hold their blocks (`before5_w`); the closed forms say which of the three cases
    the point is in; the invariant hands the body the three carried scratch buffers at what the point before left (at
    anything at the very first point; at the first step of the second row the case takes them at anything too), and takes
    them back at this point's contents (the stores cover each buffer a case stores into; a buffer a case only reads comes
    back as it was); output 9 is handed back untouched where it is idle, and holds the case's one store at the last step
    of a row; the other scoped buffers, the generator register and what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).owesAt () t.succ = (dat5 V c).owesAt () t.castSucc from rfl]
  rw [show (dat5 V c).Φ t.succ = PhiS5 V c (t.val + 1) t.isLt from rfl, PhiS5_succ]
  have hN : t.val < 64 := lt_of_lt_of_eq t.isLt (show cfg5.N = 64 from N_5)
  by_cases h0 : t.val % 32 = 0
  · by_cases h1 : t.val % 32 = 31
    · exfalso; omega
    ·
        rw [show (dat5 V c).leavesExact 0 t = owns (c : Thread nD τ) (ms5_0 t) fullShare ((dat5 V c).after 0 t) from by
          unfold Dat.leavesExact; rw [liveAt5_0 t], after5_0]
        rw [show (dat5 V c).leavesExact 1 t = owns (c : Thread nD τ) (ms5_1 t) fullShare ((dat5 V c).after 1 t) from by
          unfold Dat.leavesExact; rw [liveAt5_1 t], after5_1]
        rw [show (dat5 V c).leavesExact 2 t = owns (c : Thread nD τ) (ms5_2 t) fullShare ((dat5 V c).after 2 t) from by
          unfold Dat.leavesExact; rw [liveAt5_2 t], after5_2]
        rw [show (dat5 V c).leavesExact 3 t = owns (c : Thread nD τ) (ms5_3 t) fullShare ((dat5 V c).after 3 t) from by
          unfold Dat.leavesExact; rw [liveAt5_3 t], after5_3]
        rw [show (dat5 V c).leavesExact 4 t = owns (c : Thread nD τ) (ms5_4 t) fullShare ((dat5 V c).after 4 t) from by
          unfold Dat.leavesExact; rw [liveAt5_4 t], after5_4]
        rw [show (dat5 V c).leavesExact 5 t = owns (c : Thread nD τ) (ms5_5 t) fullShare ((dat5 V c).after 5 t) from by
          unfold Dat.leavesExact; rw [liveAt5_5 t], after5_5]
        rw [show (dat5 V c).leavesExact 6 t = owns (c : Thread nD τ) (ms5_6 t) fullShare ((dat5 V c).after 6 t) from by
          unfold Dat.leavesExact; rw [liveAt5_6 t], after5_6]
        rw [show (dat5 V c).leavesExact 7 t = owns (c : Thread nD τ) (ms5_7 t) fullShare ((dat5 V c).after 7 t) from by
          unfold Dat.leavesExact; rw [liveAt5_7 t], after5_7]
        rw [show (dat5 V c).leavesExact 8 t = owns (c : Thread nD τ) (ms5_8 t) fullShare ((dat5 V c).after 8 t) from by
          unfold Dat.leavesExact; rw [liveAt5_8 t], after5_8]
        rw [Dat.leavesExact_idle (dat5 V c) 9 t (idleAt5_9_A t ((hcond5_0 t).mpr h0) (fun h => h1 ((hcond5_1 t).mp h))) (noFlush5_9_A t ((hcond5_0 t).mpr h0) (fun h => h1 ((hcond5_1 t).mp h)))]
        rw [outsAt5_A V c t h0 h1]
        unfold sout5_A_0 sout5_A_1 sout5_A_2; (try dsimp only)
        by_cases hz : t.val = 0
        ·
          rw [PhiS5_castSucc V c t, PhiS5_zero V c _ _ hz, PhiA5_eq]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun5_A c (grid5.coords t) _ _ _ _ _ _ _ _ _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover5_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover5_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover5_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
        ·
          rw [PhiS5_castSucc V c t, PhiS5_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun5_A c (grid5.coords t) _ _ _ _ _ _ _ _ _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexists _; iexact HS0
          isplitl [HS1]; · iexists _; iexact HS1
          isplitl [HS2]; · iexists _; iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover5_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover5_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover5_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
  · by_cases h1 : t.val % 32 = 31
    ·
        rw [show (dat5 V c).leavesExact 0 t = owns (c : Thread nD τ) (ms5_0 t) fullShare ((dat5 V c).after 0 t) from by
          unfold Dat.leavesExact; rw [liveAt5_0 t], after5_0]
        rw [show (dat5 V c).leavesExact 1 t = owns (c : Thread nD τ) (ms5_1 t) fullShare ((dat5 V c).after 1 t) from by
          unfold Dat.leavesExact; rw [liveAt5_1 t], after5_1]
        rw [show (dat5 V c).leavesExact 2 t = owns (c : Thread nD τ) (ms5_2 t) fullShare ((dat5 V c).after 2 t) from by
          unfold Dat.leavesExact; rw [liveAt5_2 t], after5_2]
        rw [show (dat5 V c).leavesExact 3 t = owns (c : Thread nD τ) (ms5_3 t) fullShare ((dat5 V c).after 3 t) from by
          unfold Dat.leavesExact; rw [liveAt5_3 t], after5_3]
        rw [show (dat5 V c).leavesExact 4 t = owns (c : Thread nD τ) (ms5_4 t) fullShare ((dat5 V c).after 4 t) from by
          unfold Dat.leavesExact; rw [liveAt5_4 t], after5_4]
        rw [show (dat5 V c).leavesExact 5 t = owns (c : Thread nD τ) (ms5_5 t) fullShare ((dat5 V c).after 5 t) from by
          unfold Dat.leavesExact; rw [liveAt5_5 t], after5_5]
        rw [show (dat5 V c).leavesExact 6 t = owns (c : Thread nD τ) (ms5_6 t) fullShare ((dat5 V c).after 6 t) from by
          unfold Dat.leavesExact; rw [liveAt5_6 t], after5_6]
        rw [show (dat5 V c).leavesExact 7 t = owns (c : Thread nD τ) (ms5_7 t) fullShare ((dat5 V c).after 7 t) from by
          unfold Dat.leavesExact; rw [liveAt5_7 t], after5_7]
        rw [show (dat5 V c).leavesExact 8 t = owns (c : Thread nD τ) (ms5_8 t) fullShare ((dat5 V c).after 8 t) from by
          unfold Dat.leavesExact; rw [liveAt5_8 t], after5_8]
        rw [show (dat5 V c).leavesExact 9 t = owns (c : Thread nD τ) (ms5_9 t) fullShare ((dat5 V c).after 9 t) from by
          unfold Dat.leavesExact; rw [liveAt5_9_C t (fun h => h0 ((hcond5_0 t).mp h)) ((hcond5_1 t).mpr h1)], after5_9]
        rw [outsAt5_C V c t h0 h1]
        unfold out5_C_9 sout5_C_0 sout5_C_1 sout5_C_2; (try dsimp only)
        by_cases hz : t.val = 0
        · exfalso; omega
        ·
          rw [PhiS5_castSucc V c t, PhiS5_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun5_C c (grid5.coords t) _ _ _ _ _ _ _ _ _ _ _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [HS0]; · iexact HS0
          isplitl [HS1]; · iexact HS1
          isplitl [HS2]; · iexact HS2
          iintro ⟨H0, H1, H2, H3, H4, H5, H6, H7, H8, ⟨%e9, H9⟩, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover5_C_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover5_C_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          unfold owns; iexists _; isplitr
          swap; · iexact H9
          ipureintro; exact View.read_writes_of_cover _ _ _ _ _ (cover5_C_9 c _ _ _ _ _ _ _ _ _ _ _ _ _ _ _ _ _ _ _ _ _ _ _ _ _ _ _ _ _ _ _ _ _ _ _ _ _ _ _ _ _)
    ·
        rw [show (dat5 V c).leavesExact 0 t = owns (c : Thread nD τ) (ms5_0 t) fullShare ((dat5 V c).after 0 t) from by
          unfold Dat.leavesExact; rw [liveAt5_0 t], after5_0]
        rw [show (dat5 V c).leavesExact 1 t = owns (c : Thread nD τ) (ms5_1 t) fullShare ((dat5 V c).after 1 t) from by
          unfold Dat.leavesExact; rw [liveAt5_1 t], after5_1]
        rw [show (dat5 V c).leavesExact 2 t = owns (c : Thread nD τ) (ms5_2 t) fullShare ((dat5 V c).after 2 t) from by
          unfold Dat.leavesExact; rw [liveAt5_2 t], after5_2]
        rw [show (dat5 V c).leavesExact 3 t = owns (c : Thread nD τ) (ms5_3 t) fullShare ((dat5 V c).after 3 t) from by
          unfold Dat.leavesExact; rw [liveAt5_3 t], after5_3]
        rw [show (dat5 V c).leavesExact 4 t = owns (c : Thread nD τ) (ms5_4 t) fullShare ((dat5 V c).after 4 t) from by
          unfold Dat.leavesExact; rw [liveAt5_4 t], after5_4]
        rw [show (dat5 V c).leavesExact 5 t = owns (c : Thread nD τ) (ms5_5 t) fullShare ((dat5 V c).after 5 t) from by
          unfold Dat.leavesExact; rw [liveAt5_5 t], after5_5]
        rw [show (dat5 V c).leavesExact 6 t = owns (c : Thread nD τ) (ms5_6 t) fullShare ((dat5 V c).after 6 t) from by
          unfold Dat.leavesExact; rw [liveAt5_6 t], after5_6]
        rw [show (dat5 V c).leavesExact 7 t = owns (c : Thread nD τ) (ms5_7 t) fullShare ((dat5 V c).after 7 t) from by
          unfold Dat.leavesExact; rw [liveAt5_7 t], after5_7]
        rw [show (dat5 V c).leavesExact 8 t = owns (c : Thread nD τ) (ms5_8 t) fullShare ((dat5 V c).after 8 t) from by
          unfold Dat.leavesExact; rw [liveAt5_8 t], after5_8]
        rw [Dat.leavesExact_idle (dat5 V c) 9 t (idleAt5_9_B t (fun h => h0 ((hcond5_0 t).mp h)) (fun h => h1 ((hcond5_1 t).mp h))) (noFlush5_9_B t (fun h => h0 ((hcond5_0 t).mp h)) (fun h => h1 ((hcond5_1 t).mp h)))]
        rw [outsAt5_B V c t h0 h1]
        unfold sout5_B_0 sout5_B_1 sout5_B_2; (try dsimp only)
        by_cases hz : t.val = 0
        · exfalso; omega
        ·
          rw [PhiS5_castSucc V c t, PhiS5_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun5_B c (grid5.coords t) _ _ _ _ _ _ _ _ _ _ _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) _ _ _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover5_B_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover5_B_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region (`ΦA`) is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives `ΦA` back: the carried scratch's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1, HS2⟩, Hr⟩, Hg⟩
  isplitl [HS0 HS1 HS2 Hr]
  · isplitl [HS0 HS1 HS2]
    · isplitl [HS0]
      · iexists _; iexact HS0
      isplitl [HS1]
      · iexists _; iexact HS1
      iexists _; iexact HS2
    iexact Hr
  iexact Hg

/-- The same after the last point. -/
theorem hout5 (c : Dev nD) : (dat5 V c).Φ (Fin.last cfg5.N) ⊢ Pipeline.ΦA spec5 c :=
  Phi_out5 V c _ (by rw [Fin.val_last]; have : cfg5.N = 64 := N_5; omega)

end Cert.Kernel.Hand

end
-- ==== Proof.BitsRun.lean ====
import proofs.«162179_j58609123721967_2_alg».proof.Proof.BitsR0Frame
import proofs.«162179_j58609123721967_2_alg».proof.Proof.BitsR1Frame
import proofs.«162179_j58609123721967_2_alg».proof.Proof.BitsR2Frame
import proofs.«162179_j58609123721967_2_alg».proof.Proof.BitsR3Frame
import proofs.«162179_j58609123721967_2_alg».proof.Proof.BitsR4Frame
import proofs.«162179_j58609123721967_2_alg».proof.Proof.BitsR5Frame
import proofs.«162179_j58609123721967_2_alg».proof.Proof.Gen.Kernel.Launch
import proofs.«162179_j58609123721967_2_alg».proof.Proof.Gen.Kernel.Skeleton
import proofs.«162179_j58609123721967_2_alg».proof.Proof.Gen.Kernel.Points
import proofs.«162179_j58609123721967_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  The whole program as one run. Between two items of the entry function every core holds each of its unscoped buffers
  at a known contents: the launch contents, then what a stretch of host operations computes from them, then — after a
  kernel region — the same with the region's output arrays replaced by what its write-backs leave. Each region is entered
  by splitting its windows' arrays out of the unscoped buffers and left by putting them back; the first region stages
  two of its input arrays through two windows each, so there each of the two is held in two half shares. The run's
  conclusion is that every unscoped buffer ends at the last contents; read at the six arguments, which no item writes,
  it is the frame.
-/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- Core `c`'s buffers at launch. -/
abbrev W0 : Dev nD → Valuation τ sig (Elt F) := fun c b => (s₀ m ρ).mem ((c : Dev nD), b)
/-- After the first stretch of host operations (the positions and the two feature arrays). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the region that builds the two Gaussian kernels and their row sums: its four output arrays at what the
    write-backs leave, every other buffer as entered. -/
def W2 (c : Dev nD) : Valuation τ sig (Elt F) :=
  Function.update (Function.update (Function.update (Function.update (W1 m ρ c)
    (Proc.devRef .tc main_v21_0) ((dat0 (V1 m ρ) c).arrAt 4 cfg0.N))
    (Proc.devRef .tc main_v21_1) ((dat0 (V1 m ρ) c).arrAt 5 cfg0.N))
    (Proc.devRef .tc main_v21_2) ((dat0 (V1 m ρ) c).arrAt 6 cfg0.N))
    (Proc.devRef .tc main_v21_3) ((dat0 (V1 m ρ) c).arrAt 7 cfg0.N)
abbrev V2 : (c : Dev nD) → (b : Ref sig .tc) → Buf (Elt F) ((c : Thread nD τ).loc b) := fun c b => W2 m ρ c b
/-- After the re-shapings before the first mean-field step. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After mean-field step 1: its output array at what the write-backs leave. -/
def W4 (c : Dev nD) : Valuation τ sig (Elt F) :=
  Function.update (W3 m ρ c) (Proc.devRef .tc main_v28) ((dat1 (V3 m ρ) c).arrAt 9 cfg1.N)
abbrev V4 : (c : Dev nD) → (b : Ref sig .tc) → Buf (Elt F) ((c : Thread nD τ).loc b) := fun c b => W4 m ρ c b
/-- After mean-field step 2: its output array at what the write-backs leave. -/
def W5 (c : Dev nD) : Valuation τ sig (Elt F) :=
  Function.update (W4 m ρ c) (Proc.devRef .tc main_v29) ((dat2 (V4 m ρ) c).arrAt 9 cfg2.N)
abbrev V5 : (c : Dev nD) → (b : Ref sig .tc) → Buf (Elt F) ((c : Thread nD τ).loc b) := fun c b => W5 m ρ c b
/-- After mean-field step 3: its output array at what the write-backs leave. -/
def W6 (c : Dev nD) : Valuation τ sig (Elt F) :=
  Function.update (W5 m ρ c) (Proc.devRef .tc main_v30) ((dat3 (V5 m ρ) c).arrAt 9 cfg3.N)
abbrev V6 : (c : Dev nD) → (b : Ref sig .tc) → Buf (Elt F) ((c : Thread nD τ).loc b) := fun c b => W6 m ρ c b
/-- After mean-field step 4: its output array at what the write-backs leave. -/
def W7 (c : Dev nD) : Valuation τ sig (Elt F) :=
  Function.update (W6 m ρ c) (Proc.devRef .tc main_v31) ((dat4 (V6 m ρ) c).arrAt 9 cfg4.N)
abbrev V7 : (c : Dev nD) → (b : Ref sig .tc) → Buf (Elt F) ((c : Thread nD τ).loc b) := fun c b => W7 m ρ c b
/-- After mean-field step 5: its output array at what the write-backs leave. -/
def W8 (c : Dev nD) : Valuation τ sig (Elt F) :=
  Function.update (W7 m ρ c) (Proc.devRef .tc main_v32) ((dat5 (V7 m ρ) c).arrAt 9 cfg5.N)
abbrev V8 : (c : Dev nD) → (b : Ref sig .tc) → Buf (Elt F) ((c : Thread nD τ).loc b) := fun c b => W8 m ρ c b
/-- After the last re-shaping: the result. -/
abbrev W9 : Dev nD → Valuation τ sig (Elt F) := fun c => StableHlo.after hostOps6 (W8 m ρ c)

/-! ## What each region leaves: its output arrays at the write-backs' result, everything else as entered -/

theorem hF0 (c : Dev nD) (w : Fin cfg0.W) : (dat0 (V1 m ρ) c).arrAt w cfg0.N = V2 m ρ c (Pipeline.arrRef spec0 w) := by
  have key : ∀ w : Fin cfg0.W, (w = 4 ∨ w = 5 ∨ w = 6 ∨ w = 7) ∨ ((cfg0.win w).isOut = false ∧ Pipeline.arrRef spec0 w ≠ main_v21_0
      ∧ Pipeline.arrRef spec0 w ≠ main_v21_1 ∧ Pipeline.arrRef spec0 w ≠ main_v21_2 ∧ Pipeline.arrRef spec0 w ≠ main_v21_3) := by decide
  rcases key w with (rfl | rfl | rfl | rfl) | ⟨hin, h0, h1, h2, h3⟩
  · show _ = W2 m ρ c (Proc.devRef .tc main_v21_0); unfold W2
    rw [Function.update_of_ne (StableHlo.devRef_ne_of_ne (by decide)), Function.update_of_ne (StableHlo.devRef_ne_of_ne (by decide)),
      Function.update_of_ne (StableHlo.devRef_ne_of_ne (by decide)), Function.update_self]
  · show _ = W2 m ρ c (Proc.devRef .tc main_v21_1); unfold W2
    rw [Function.update_of_ne (StableHlo.devRef_ne_of_ne (by decide)), Function.update_of_ne (StableHlo.devRef_ne_of_ne (by decide)), Function.update_self]
  · show _ = W2 m ρ c (Proc.devRef .tc main_v21_2); unfold W2
    rw [Function.update_of_ne (StableHlo.devRef_ne_of_ne (by decide)), Function.update_self]
  · show _ = W2 m ρ c (Proc.devRef .tc main_v21_3); unfold W2
    rw [Function.update_self]
  · rw [(dat0 (V1 m ρ) c).arrAt_in w hin, A_eq0]
    show W1 m ρ c (Proc.devRef .tc _) = W2 m ρ c (Proc.devRef .tc _); unfold W2
    rw [Function.update_of_ne (StableHlo.devRef_ne_of_ne h3), Function.update_of_ne (StableHlo.devRef_ne_of_ne h2),
      Function.update_of_ne (StableHlo.devRef_ne_of_ne h1), Function.update_of_ne (StableHlo.devRef_ne_of_ne h0)]

theorem hrest0 (c : Dev nD) : ∀ b, b ∉ Finset.univ.image (Pipeline.arrRef spec0) → V2 m ρ c b = V1 m ρ c b := by
  intro b hb
  have hne : ∀ w : Fin cfg0.W, Pipeline.arrRef spec0 w ≠ b := fun w e => hb (Finset.mem_image.mpr ⟨w, Finset.mem_univ _, e⟩)
  show W2 m ρ c (Proc.devRef .tc b) = W1 m ρ c (Proc.devRef .tc b); unfold W2
  rw [Function.update_of_ne (StableHlo.devRef_ne_of_ne (hne 7).symm), Function.update_of_ne (StableHlo.devRef_ne_of_ne (hne 6).symm),
    Function.update_of_ne (StableHlo.devRef_ne_of_ne (hne 5).symm), Function.update_of_ne (StableHlo.devRef_ne_of_ne (hne 4).symm)]

theorem hF1 (c : Dev nD) (w : Fin cfg1.W) : (dat1 (V3 m ρ) c).arrAt w cfg1.N = V4 m ρ c (Pipeline.arrRef spec1 w) := by
  have key : ∀ w : Fin cfg1.W, w = 9 ∨ ((cfg1.win w).isOut = false ∧ Pipeline.arrRef spec1 w ≠ main_v28) := by decide
  rcases key w with rfl | ⟨hin, hne⟩
  · show _ = W4 m ρ c (Proc.devRef .tc main_v28); unfold W4
    rw [Function.update_self]
  · rw [(dat1 (V3 m ρ) c).arrAt_in w hin, A_eq1]
    show W3 m ρ c (Proc.devRef .tc _) = W4 m ρ c (Proc.devRef .tc _); unfold W4
    rw [Function.update_of_ne (StableHlo.devRef_ne_of_ne hne)]

theorem hrest1 (c : Dev nD) : ∀ b, b ∉ Finset.univ.image (Pipeline.arrRef spec1) → V4 m ρ c b = V3 m ρ c b := by
  intro b hb
  have hne : Pipeline.arrRef spec1 9 ≠ b := fun e => hb (Finset.mem_image.mpr ⟨9, Finset.mem_univ _, e⟩)
  show W4 m ρ c (Proc.devRef .tc b) = W3 m ρ c (Proc.devRef .tc b); unfold W4
  rw [Function.update_of_ne (StableHlo.devRef_ne_of_ne hne.symm)]

theorem hF2 (c : Dev nD) (w : Fin cfg2.W) : (dat2 (V4 m ρ) c).arrAt w cfg2.N = V5 m ρ c (Pipeline.arrRef spec2 w) := by
  have key : ∀ w : Fin cfg2.W, w = 9 ∨ ((cfg2.win w).isOut = false ∧ Pipeline.arrRef spec2 w ≠ main_v29) := by decide
  rcases key w with rfl | ⟨hin, hne⟩
  · show _ = W5 m ρ c (Proc.devRef .tc main_v29); unfold W5
    rw [Function.update_self]
  · rw [(dat2 (V4 m ρ) c).arrAt_in w hin, A_eq2]
    show W4 m ρ c (Proc.devRef .tc _) = W5 m ρ c (Proc.devRef .tc _); unfold W5
    rw [Function.update_of_ne (StableHlo.devRef_ne_of_ne hne)]

theorem hrest2 (c : Dev nD) : ∀ b, b ∉ Finset.univ.image (Pipeline.arrRef spec2) → V5 m ρ c b = V4 m ρ c b := by
  intro b hb
  have hne : Pipeline.arrRef spec2 9 ≠ b := fun e => hb (Finset.mem_image.mpr ⟨9, Finset.mem_univ _, e⟩)
  show W5 m ρ c (Proc.devRef .tc b) = W4 m ρ c (Proc.devRef .tc b); unfold W5
  rw [Function.update_of_ne (StableHlo.devRef_ne_of_ne hne.symm)]

theorem hF3 (c : Dev nD) (w : Fin cfg3.W) : (dat3 (V5 m ρ) c).arrAt w cfg3.N = V6 m ρ c (Pipeline.arrRef spec3 w) := by
  have key : ∀ w : Fin cfg3.W, w = 9 ∨ ((cfg3.win w).isOut = false ∧ Pipeline.arrRef spec3 w ≠ main_v30) := by decide
  rcases key w with rfl | ⟨hin, hne⟩
  · show _ = W6 m ρ c (Proc.devRef .tc main_v30); unfold W6
    rw [Function.update_self]
  · rw [(dat3 (V5 m ρ) c).arrAt_in w hin, A_eq3]
    show W5 m ρ c (Proc.devRef .tc _) = W6 m ρ c (Proc.devRef .tc _); unfold W6
    rw [Function.update_of_ne (StableHlo.devRef_ne_of_ne hne)]

theorem hrest3 (c : Dev nD) : ∀ b, b ∉ Finset.univ.image (Pipeline.arrRef spec3) → V6 m ρ c b = V5 m ρ c b := by
  intro b hb
  have hne : Pipeline.arrRef spec3 9 ≠ b := fun e => hb (Finset.mem_image.mpr ⟨9, Finset.mem_univ _, e⟩)
  show W6 m ρ c (Proc.devRef .tc b) = W5 m ρ c (Proc.devRef .tc b); unfold W6
  rw [Function.update_of_ne (StableHlo.devRef_ne_of_ne hne.symm)]

theorem hF4 (c : Dev nD) (w : Fin cfg4.W) : (dat4 (V6 m ρ) c).arrAt w cfg4.N = V7 m ρ c (Pipeline.arrRef spec4 w) := by
  have key : ∀ w : Fin cfg4.W, w = 9 ∨ ((cfg4.win w).isOut = false ∧ Pipeline.arrRef spec4 w ≠ main_v31) := by decide
  rcases key w with rfl | ⟨hin, hne⟩
  · show _ = W7 m ρ c (Proc.devRef .tc main_v31); unfold W7
    rw [Function.update_self]
  · rw [(dat4 (V6 m ρ) c).arrAt_in w hin, A_eq4]
    show W6 m ρ c (Proc.devRef .tc _) = W7 m ρ c (Proc.devRef .tc _); unfold W7
    rw [Function.update_of_ne (StableHlo.devRef_ne_of_ne hne)]

theorem hrest4 (c : Dev nD) : ∀ b, b ∉ Finset.univ.image (Pipeline.arrRef spec4) → V7 m ρ c b = V6 m ρ c b := by
  intro b hb
  have hne : Pipeline.arrRef spec4 9 ≠ b := fun e => hb (Finset.mem_image.mpr ⟨9, Finset.mem_univ _, e⟩)
  show W7 m ρ c (Proc.devRef .tc b) = W6 m ρ c (Proc.devRef .tc b); unfold W7
  rw [Function.update_of_ne (StableHlo.devRef_ne_of_ne hne.symm)]

theorem hF5 (c : Dev nD) (w : Fin cfg5.W) : (dat5 (V7 m ρ) c).arrAt w cfg5.N = V8 m ρ c (Pipeline.arrRef spec5 w) := by
  have key : ∀ w : Fin cfg5.W, w = 9 ∨ ((cfg5.win w).isOut = false ∧ Pipeline.arrRef spec5 w ≠ main_v32) := by decide
  rcases key w with rfl | ⟨hin, hne⟩
  · show _ = W8 m ρ c (Proc.devRef .tc main_v32); unfold W8
    rw [Function.update_self]
  · rw [(dat5 (V7 m ρ) c).arrAt_in w hin, A_eq5]
    show W7 m ρ c (Proc.devRef .tc _) = W8 m ρ c (Proc.devRef .tc _); unfold W8
    rw [Function.update_of_ne (StableHlo.devRef_ne_of_ne hne)]

theorem hrest5 (c : Dev nD) : ∀ b, b ∉ Finset.univ.image (Pipeline.arrRef spec5) → V8 m ρ c b = V7 m ρ c b := by
  intro b hb
  have hne : Pipeline.arrRef spec5 9 ≠ b := fun e => hb (Finset.mem_image.mpr ⟨9, Finset.mem_univ _, e⟩)
  show W8 m ρ c (Proc.devRef .tc b) = W7 m ρ c (Proc.devRef .tc b); unfold W8
  rw [Function.update_of_ne (StableHlo.devRef_ne_of_ne hne.symm)]

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V5 m ρ) c
  | ⟨4, _⟩ => fun c => dat4 (V6 m ρ) c
  | ⟨5, _⟩ => fun c => dat5 (V7 m ρ) c
  | ⟨_ + 6, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W9 m ρ c) ∗ ∃ r, prngReg c r)

/-! ## The regions as segments -/

/-! ## The first region: two of its input arrays are each staged by two windows -/

/-- The six distinct buffers behind the eight windows. -/
theorem image_arr0 : Finset.univ.image (Pipeline.arrRef spec0)
    = ({main_v15, main_v20, main_v21_0, main_v21_1, main_v21_2, main_v21_3} : Finset (Ref sig .tc)) := by decide

/-- A core's unscoped buffers are the buffers behind the region's windows and the rest. -/
theorem unscopedBufs_split0 (c : Dev nD) (V : (b : Ref sig .tc) → Buf (Elt F) ((c : Thread nD τ).loc b)) :
    (unscopedBufs c V : sProp 𝕄) = iprop(Pipeline.arrBufs spec0 c V ∗ Pipeline.unscopedRest spec0 c V) := by
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl

/-- Splitting one index off an iterated separating conjunction, the right side in the proof mode's own spelling. -/
theorem bigSep_insert_sep {I : Type} [DecidableEq I] {s : Finset I} {i : I} (hi : i ∉ s) (Φ : I → sProp 𝕄) :
    bigSep (insert i s) Φ = iprop(Φ i ∗ bigSep s Φ) := BI.bigSep_insert hi

set_option maxHeartbeats 2000000 in
/-- The buffers behind the windows, each whole at the full share, are the region's arrays at the same contents: an array
    two windows stage is held in two halves, one per window. -/
theorem arrays0_iff (V : (c : Dev nD) → (b : Ref sig .tc) → Buf (Elt F) ((c : Thread nD τ).loc b)) (c : Dev nD) (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w)) :
    (Pipeline.arrBufs spec0 c V' : sProp 𝕄) ⊣⊢ (dat0 V c).arrays G := by
  unfold Pipeline.arrBufs Dat.arrays
  rw [image_arr0, bigSep_W0,
    bigSep_insert_sep (by decide), bigSep_insert_sep (by decide), bigSep_insert_sep (by decide), bigSep_insert_sep (by decide), bigSep_insert_sep (by decide), bigSep_singleton]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ, (arr_whole0 7).set_eq_univ]
  rw [hG 0, hG 1, hG 2, hG 3, hG 4, hG 5, hG 6, hG 7]
  have h15 : (((c : Thread nD τ).loc main_v15) ↦{fullShare} V' main_v15 : sProp 𝕄)
      ⊣⊢ iprop((((c : Thread nD τ).loc main_v15) ↦{fullShare.left} V' main_v15) ∗ ((c : Thread nD τ).loc main_v15) ↦{fullShare.right} V' main_v15) :=
    pointsTo_share (PosShare.mem_left_op_right fullShare)
  have h20 : (((c : Thread nD τ).loc main_v20) ↦{fullShare} V' main_v20 : sProp 𝕄)
      ⊣⊢ iprop((((c : Thread nD τ).loc main_v20) ↦{fullShare.left} V' main_v20) ∗ ((c : Thread nD τ).loc main_v20) ↦{fullShare.right} V' main_v20) :=
    pointsTo_share (PosShare.mem_left_op_right fullShare)
  constructor
  · iintro ⟨H15, H20, H0, H1, H2, H3⟩
    ihave H15' := h15.1 $$ H15
    icases H15' with ⟨Ha, Hb⟩
    ihave H20' := h20.1 $$ H20
    icases H20' with ⟨Hc, Hd⟩
    isplitl [Ha]; · iexact Ha
    isplitl [Hb]; · iexact Hb
    isplitl [Hc]; · iexact Hc
    isplitl [Hd]; · iexact Hd
    isplitl [H0]; · iexact H0
    isplitl [H1]; · iexact H1
    isplitl [H2]; · iexact H2
    iexact H3
  · iintro ⟨Ha, Hb, Hc, Hd, H0, H1, H2, H3⟩
    isplitl [Ha Hb]
    · iapply h15.2; isplitl [Ha]; · iexact Ha
      iexact Hb
    isplitl [Hc Hd]
    · iapply h20.2; isplitl [Hc]; · iexact Hc
      iexact Hd
    isplitl [H0]; · iexact H0
    isplitl [H1]; · iexact H1
    isplitl [H2]; · iexact H2
    iexact H3

set_option backward.isDefEq.respectTransparency.types false in
/-- The region that builds the two Gaussian kernels and their row sums, over the thread state. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄) ⊢ iprop((pdats m ρ 0 c).arrays ((pdats m ρ 0 c).arrAt · 0) ∗ Pipeline.unscopedRest spec0 c (V1 m ρ c)) := by
      rw [unscopedBufs_split0]
      exact sep_mono (arrays0_iff (V1 m ρ) c (V1 m ρ c) _ (fun w => A_eq0 (V1 m ρ) c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c)) ⊢ (unscopedBufs c (V2 m ρ c) : sProp 𝕄) := by
      rw [unscopedBufs_split0]
      refine sep_mono ?_ (Entails.of_eq ?_)
      · exact (arrays0_iff (V1 m ρ) c (V2 m ρ c) _ (hF0 m ρ c)).2
      · unfold Pipeline.unscopedRest
        exact bigSep_congr fun b hb => by rw [hrest0 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Mean-field step 1 over the thread state: its arrays split out of the unscoped buffers and put back at the exit contents;
    the generator register into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

set_option backward.isDefEq.respectTransparency.types false in
/-- Mean-field step 2 over the thread state: its arrays split out of the unscoped buffers and put back at the exit contents;
    the generator register into the region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun w => A_eq2 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine BIBase.Entails.trans (hout2 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

set_option backward.isDefEq.respectTransparency.types false in
/-- Mean-field step 3 over the thread state: its arrays split out of the unscoped buffers and put back at the exit contents;
    the generator register into the region's invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun w => A_eq3 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V5 m ρ) c)
    unfold Pipeline.ΦA
    iintro ⟨Hp, -, Hr⟩
    isplitl [Hr]; · iexact Hr
    iexact Hp
  hout c := by
    rw [Pipeline.ownSems0_none]
    refine BIBase.Entails.trans (hout3 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

set_option backward.isDefEq.respectTransparency.types false in
/-- Mean-field step 4 over the thread state: its arrays split out of the unscoped buffers and put back at the exit contents;
    the generator register into the region's invariant and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) fun w => A_eq4 (V6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V6 m ρ) c)
    unfold Pipeline.ΦA
    iintro ⟨Hp, -, Hr⟩
    isplitl [Hr]; · iexact Hr
    iexact Hp
  hout c := by
    rw [Pipeline.ownSems0_none]
    refine BIBase.Entails.trans (hout4 (V6 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

set_option backward.isDefEq.respectTransparency.types false in
/-- Mean-field step 5 over the thread state: its arrays split out of the unscoped buffers and put back at the exit contents;
    the generator register into the region's invariant and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V7 m ρ) c).loose
  hwaits := Pipeline.hwaits_of_owed_zero _ _ _ _ L lv 5 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec5 c (V7 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V7 m ρ c) fun w => A_eq5 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (V7 m ρ) c)
    unfold Pipeline.ΦA
    iintro ⟨Hp, -, Hr⟩
    isplitl [Hr]; · iexact Hr
    iexact Hp
  hout c := by
    rw [Pipeline.ownSems0_none]
    refine BIBase.Entails.trans (hout5 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V7 m ρ c) (V8 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

/-! ## @main as segments, and the launch -/

/-- @main's nine items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ), .region (reg2 m ρ), .region (reg3 m ρ), .region (reg4 m ρ), .region (reg5 m ρ),
    .host (hseg hostOps6 hostOps6_sub hostOps6_fresh (W8 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and every final state holds every unscoped buffer at the last contents `W9`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-! ## The arguments reach the end as launched -/

/-- A buffer that no host operation writes and that is no region's output array holds at the end what it held at launch. -/
theorem W9_kept (c : Dev nD) (r : Ref sig .tc) (h0 : r ∉ hostOps0_W) (h1 : r ∉ hostOps1_W) (h6 : r ∉ hostOps6_W)
    (n0 : r ≠ main_v21_0) (n1 : r ≠ main_v21_1) (n2 : r ≠ main_v21_2) (n3 : r ≠ main_v21_3)
    (n28 : r ≠ main_v28) (n29 : r ≠ main_v29) (n30 : r ≠ main_v30) (n31 : r ≠ main_v31) (n32 : r ≠ main_v32) :
    W9 m ρ c (Proc.devRef .tc r) = m ((c : Thread nD τ).loc r) := by
  show StableHlo.after hostOps6 (W8 m ρ c) (Proc.devRef .tc r) = _
  rw [StableHlo.after_of_writes_sub hostOps6 _ hostOps6_writes h6]
  unfold W8; rw [Function.update_of_ne (StableHlo.devRef_ne_of_ne n32)]
  unfold W7; rw [Function.update_of_ne (StableHlo.devRef_ne_of_ne n31)]
  unfold W6; rw [Function.update_of_ne (StableHlo.devRef_ne_of_ne n30)]
  unfold W5; rw [Function.update_of_ne (StableHlo.devRef_ne_of_ne n29)]
  unfold W4; rw [Function.update_of_ne (StableHlo.devRef_ne_of_ne n28)]
  show StableHlo.after hostOps1 (W2 m ρ c) (Proc.devRef .tc r) = _
  rw [StableHlo.after_of_writes_sub hostOps1 _ hostOps1_writes h1]
  unfold W2
  rw [Function.update_of_ne (StableHlo.devRef_ne_of_ne n3), Function.update_of_ne (StableHlo.devRef_ne_of_ne n2),
    Function.update_of_ne (StableHlo.devRef_ne_of_ne n1), Function.update_of_ne (StableHlo.devRef_ne_of_ne n0)]
  show StableHlo.after hostOps0 (W0 m ρ c) (Proc.devRef .tc r) = _
  rw [StableHlo.after_of_writes_sub hostOps0 _ hostOps0_writes h0]

/-- THE FRAME. Every weakly fair execution terminates, nothing faulting, and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W9_kept m ρ c main_arg0 (by decide) (by decide) (by decide) (by decide) (by decide) (by decide) (by decide) (by decide) (by decide) (by decide) (by decide) (by decide)),
     (h c _ (mem_uc main_arg1 (by decide))).trans (W9_kept m ρ c main_arg1 (by decide) (by decide) (by decide) (by decide) (by decide) (by decide) (by decide) (by decide) (by decide) (by decide) (by decide) (by decide)),
     (h c _ (mem_uc main_arg2 (by decide))).trans (W9_kept m ρ c main_arg2 (by decide) (by decide) (by decide) (by decide) (by decide) (by decide) (by decide) (by decide) (by decide) (by decide) (by decide) (by decide)),
     (h c _ (mem_uc main_arg3 (by decide))).trans (W9_kept m ρ c main_arg3 (by decide) (by decide) (by decide) (by decide) (by decide) (by decide) (by decide) (by decide) (by decide) (by decide) (by decide) (by decide)),
     (h c _ (mem_uc main_arg4 (by decide))).trans (W9_kept m ρ c main_arg4 (by decide) (by decide) (by decide) (by decide) (by decide) (by decide) (by decide) (by decide) (by decide) (by decide) (by decide) (by decide)),
     (h c _ (mem_uc main_arg5 (by decide))).trans (W9_kept m ρ c main_arg5 (by decide) (by decide) (by decide) (by decide) (by decide) (by decide) (by decide) (by decide) (by decide) (by decide) (by decide) (by decide))⟩)
    (run m ρ)

end Cert.Kernel.Hand
end
-- ==== Proof.IdealR0Runs.lean ====
/- Region 0 (the 16 x 16 grid of 512 x 512 blocks): what its three whole-body runs share — the body's two branch
   conditions in closed form over the grid, where the two column outputs are idle, the staging and scratch memrefs, and
   the region's invariant with the two carried column accumulators opened. -/
import proofs.«162179_j58609123721967_2_alg».proof.Proof.Gen.KernelIdeal.Launch
import proofs.«162179_j58609123721967_2_alg».proof.Proof.Gen.KernelIdeal.Skeleton
import proofs.«162179_j58609123721967_2_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The body's branch conditions

Region 0's grid is 16 x 16; a point's second coordinate `j` is its position within a row of 16 blocks.
The body zeroes the two carried column accumulators where `j = 0` and copies them to the two column outputs
where `j = 15`. -/

/-- The condition of the body's first `scf.if` (`k0_h1`, in the body's first part): `j = 0`, from the grid
    coordinates (the scalar chain substituted). -/
abbrev cond0_0 (i : grid0.Coords) : Prop := (Scalar.cmpi .ne (Scalar.extui (Scalar.cmpi .eq (BitVec.ofNat 32 (i 1).val) 0#32)) 0#32) = 1#1
/-- It holds at the first point of each row of 16 — decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second `scf.if` (`k0_h2`): `j = 15`. -/
abbrev cond0_1 (i : grid0.Coords) : Prop := k0_cond2 i = 1#1
/-- It holds at the last point of each row of 16 — decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle

Windows 0–3 are inputs and windows 4, 5 are stored at every point: never idle. Windows 6, 7 are stored only
where `j = 15` (case C); elsewhere they are idle and not written back. -/

/-- Window 0 is never idle. -/
theorem liveAt0_0 : ∀ t : Fin cfg0.N, cfg0.idle 0 (grid0.coords t) = false := by decide +kernel
/-- Window 1 is never idle. -/
theorem liveAt0_1 : ∀ t : Fin cfg0.N, cfg0.idle 1 (grid0.coords t) = false := by decide +kernel
/-- Window 2 is never idle. -/
theorem liveAt0_2 : ∀ t : Fin cfg0.N, cfg0.idle 2 (grid0.coords t) = false := by decide +kernel
/-- Window 3 is never idle. -/
theorem liveAt0_3 : ∀ t : Fin cfg0.N, cfg0.idle 3 (grid0.coords t) = false := by decide +kernel
/-- Window 4 is never idle. -/
theorem liveAt0_4 : ∀ t : Fin cfg0.N, cfg0.idle 4 (grid0.coords t) = false := by decide +kernel
/-- Window 5 is never idle. -/
theorem liveAt0_5 : ∀ t : Fin cfg0.N, cfg0.idle 5 (grid0.coords t) = false := by decide +kernel
/-- At the points of case A (`j = 0`) output 6 is idle: the case stores nothing into it. -/
theorem idleAt0_6_A : ∀ t : Fin cfg0.N, cond0_0 (grid0.coords t) → ¬cond0_1 (grid0.coords t) → cfg0.idle 6 (grid0.coords t) = true := by decide +kernel
/-- At the points of case A output 6's block is not written back. -/
theorem noFlush0_6_A : ∀ t : Fin cfg0.N, cond0_0 (grid0.coords t) → ¬cond0_1 (grid0.coords t) → (cfg0.win 6).flush t = false := by decide +kernel
/-- At the points of case B (`0 < j < 15`) output 6 is idle. -/
theorem idleAt0_6_B : ∀ t : Fin cfg0.N, ¬cond0_0 (grid0.coords t) → ¬cond0_1 (grid0.coords t) → cfg0.idle 6 (grid0.coords t) = true := by decide +kernel
/-- At the points of case B output 6's block is not written back. -/
theorem noFlush0_6_B : ∀ t : Fin cfg0.N, ¬cond0_0 (grid0.coords t) → ¬cond0_1 (grid0.coords t) → (cfg0.win 6).flush t = false := by decide +kernel
/-- At the points of case C (`j = 15`) output 6 is live: the case stores into it. -/
theorem liveAt0_6_C : ∀ t : Fin cfg0.N, ¬cond0_0 (grid0.coords t) → cond0_1 (grid0.coords t) → cfg0.idle 6 (grid0.coords t) = false := by decide +kernel
/-- At the points of case A (`j = 0`) output 7 is idle: the case stores nothing into it. -/
theorem idleAt0_7_A : ∀ t : Fin cfg0.N, cond0_0 (grid0.coords t) → ¬cond0_1 (grid0.coords t) → cfg0.idle 7 (grid0.coords t) = true := by decide +kernel
/-- At the points of case A output 7's block is not written back. -/
theorem noFlush0_7_A : ∀ t : Fin cfg0.N, cond0_0 (grid0.coords t) → ¬cond0_1 (grid0.coords t) → (cfg0.win 7).flush t = false := by decide +kernel
/-- At the points of case B (`0 < j < 15`) output 7 is idle. -/
theorem idleAt0_7_B : ∀ t : Fin cfg0.N, ¬cond0_0 (grid0.coords t) → ¬cond0_1 (grid0.coords t) → cfg0.idle 7 (grid0.coords t) = true := by decide +kernel
/-- At the points of case B output 7's block is not written back. -/
theorem noFlush0_7_B : ∀ t : Fin cfg0.N, ¬cond0_0 (grid0.coords t) → ¬cond0_1 (grid0.coords t) → (cfg0.win 7).flush t = false := by decide +kernel
/-- At the points of case C (`j = 15`) output 7 is live: the case stores into it. -/
theorem liveAt0_7_C : ∀ t : Fin cfg0.N, ¬cond0_0 (grid0.coords t) → cond0_1 (grid0.coords t) → cfg0.idle 7 (grid0.coords t) = false := by decide +kernel

/-! ## The staging memrefs, the scratch operands and the views contents are stated through -/

/-- One staging buffer of output window 4, through which its contents are stated (the choice does not matter). -/
abbrev VO0_4 : View sig .tc .vmem S512x512 .bf16 := (Memref.whole cc0_stg4_0 : Memref sig .tc .vmem S512x512 .bf16).view
/-- One staging buffer of output window 5, through which its contents are stated (the choice does not matter). -/
abbrev VO0_5 : View sig .tc .vmem S512x512 .bf16 := (Memref.whole cc0_stg5_0 : Memref sig .tc .vmem S512x512 .bf16).view
/-- One staging buffer of output window 6, through which its contents are stated (the choice does not matter). -/
abbrev VO0_6 : View sig .tc .vmem S512x1 .f32 := (Memref.whole cc0_stg6_0 : Memref sig .tc .vmem S512x1 .f32).view
/-- One staging buffer of output window 7, through which its contents are stated (the choice does not matter). -/
abbrev VO0_7 : View sig .tc .vmem S512x1 .f32 := (Memref.whole cc0_stg7_0 : Memref sig .tc .vmem S512x1 .f32).view
/-- Each window's current staging memref at point `t`, as the pipeline passes it to the body, and its wholeness. -/
abbrev ms0_0 (t : Fin cfg0.N) : Memref sig .tc .vmem S3x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows — the two column
    accumulators (512 rows, one column) carried along a row of 16 points. -/
abbrev scM0_0 : Memref sig .tc .vmem S512x1 .f32 := Memref.whole cc0_scratch0
abbrev scM0_1 : Memref sig .tc .vmem S512x1 .f32 := Memref.whole cc0_scratch1
/-- The carried scratch as views: what they hold is stated through them. -/
abbrev VS0_0 : View sig .tc .vmem S512x1 .f32 := scM0_0.view
abbrev VS0_1 : View sig .tc .vmem S512x1 .f32 := scM0_1.view

/-- Every scoped buffer of the core that is neither a staging buffer of region 0 nor one of its two scratch operands,
    at some contents each: carried through the region unopened. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The region's invariant with the two scratch operands as memrefs owned at some contents, the other scoped buffers
    unopened, and the generator register at some state: what the body obligation hands the run and takes back. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

end Cert.KernelIdeal.Hand

end
-- ==== Proof.IdealR0RunA.lean ====
/- Region 0: the whole-body run of the kernel in case A (`j = 0`: the first point of a row of 16) — the body's triple, with the pieces each
   stored buffer ends with as its witness. One module per case. -/
import proofs.«162179_j58609123721967_2_alg».proof.Proof.IdealR0Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- (the run's proof term is large: the definition's epilogue walks it past the default budget)
set_option maxHeartbeats 1000000 in
/-- What the body's stores leave in each output window's staging memref and in the two carried column accumulators, as
    pieces (last first), IN CASE A (`j = 0`: the first point of a row of 16), WITH the proof that on whole memrefs — the four inputs' at their
    blocks `x0 … x3`; the two 512 x 512 outputs' at anything; the two column outputs' at contents `xi6`, `xi7` handed back untouched (the case stores nothing into them);
    the two accumulators at anything (the case zeroes them first) — the body runs to the continuation holding the inputs as they were and
    every stored buffer with its pieces written. The body is its first part followed by the rest; each `scf.if` is decided
    by the case's hypotheses. -/
noncomputable def kernelRun0_A (c : Dev nD) (i : grid0.Coords) (arg2 : Memref sig .tc .vmem S3x512 .f32) (harg2 : arg2.IsWhole) (arg3 : Memref sig .tc .vmem S3x512 .f32) (harg3 : arg3.IsWhole) (arg4 : Memref sig .tc .vmem S6x512 .f32) (harg4 : arg4.IsWhole) (arg5 : Memref sig .tc .vmem S6x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S3x512 .f32) (x1 : Vec F S3x512 .f32) (x2 : Vec F S6x512 .f32) (x3 : Vec F S6x512 .f32) :
    Σ' (L4 : List (View.Piece (Elt F) S512x512 .bf16)) (L5 : List (View.Piece (Elt F) S512x512 .bf16)) (L6 : List (View.Piece (Elt F) S512x1 .f32)) (L7 : List (View.Piece (Elt F) S512x1 .f32)) (LS0 : List (View.Piece (Elt F) S512x1 .f32)), { LS1 : List (View.Piece (Elt F) S512x1 .f32) //
      ∀ (xi6 : Vec F S512x1 .f32) (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__kernel1 i arg2 harg2 arg3 harg3 arg4 harg4 arg5 harg5 arg6 harg6 arg7 harg7 arg8 harg8 arg9 harg9 arg10 harg10 arg11 harg11) K } := by
  refine ⟨?_, ?_, [], [], ?_, ?_, fun xi6 xi7 E K => ?run⟩
  case run =>
    simp only [cc0__kernel1_eq_skeleton]; unfold cc0__kernel1_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Hand

end
-- ==== Proof.IdealR0RunB.lean ====
/- Region 0: the whole-body run of the kernel in case B (`0 < j < 15`: the middle points of a row of 16) — the body's triple, with the pieces each
   stored buffer ends with as its witness. One module per case. -/
import proofs.«162179_j58609123721967_2_alg».proof.Proof.IdealR0RunA

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- (the run's proof term is large: the definition's epilogue walks it past the default budget)
set_option maxHeartbeats 1000000 in
/-- What the body's stores leave in each output window's staging memref and in the two carried column accumulators, as
    pieces (last first), IN CASE B (`0 < j < 15`: the middle points of a row of 16), WITH the proof that on whole memrefs — the four inputs' at their
    blocks `x0 … x3`; the two 512 x 512 outputs' at anything; the two column outputs' at contents `xi6`, `xi7` handed back untouched (the case stores nothing into them);
    the two accumulators at what the point before left (`xs0`, `xs1`) — the body runs to the continuation holding the inputs as they were and
    every stored buffer with its pieces written. The body is its first part followed by the rest; each `scf.if` is decided
    by the case's hypotheses. -/
noncomputable def kernelRun0_B (c : Dev nD) (i : grid0.Coords) (arg2 : Memref sig .tc .vmem S3x512 .f32) (harg2 : arg2.IsWhole) (arg3 : Memref sig .tc .vmem S3x512 .f32) (harg3 : arg3.IsWhole) (arg4 : Memref sig .tc .vmem S6x512 .f32) (harg4 : arg4.IsWhole) (arg5 : Memref sig .tc .vmem S6x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S3x512 .f32) (x1 : Vec F S3x512 .f32) (x2 : Vec F S6x512 .f32) (x3 : Vec F S6x512 .f32) (xs0 : Vec F S512x1 .f32) (xs1 : Vec F S512x1 .f32) :
    Σ' (L4 : List (View.Piece (Elt F) S512x512 .bf16)) (L5 : List (View.Piece (Elt F) S512x512 .bf16)) (L6 : List (View.Piece (Elt F) S512x1 .f32)) (L7 : List (View.Piece (Elt F) S512x1 .f32)) (LS0 : List (View.Piece (Elt F) S512x1 .f32)), { LS1 : List (View.Piece (Elt F) S512x1 .f32) //
      ∀ (xi6 : Vec F S512x1 .f32) (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__kernel1 i arg2 harg2 arg3 harg3 arg4 harg4 arg5 harg5 arg6 harg6 arg7 harg7 arg8 harg8 arg9 harg9 arg10 harg10 arg11 harg11) K } := by
  refine ⟨?_, ?_, [], [], ?_, ?_, fun xi6 xi7 E K => ?run⟩
  case run =>
    simp only [cc0__kernel1_eq_skeleton]; unfold cc0__kernel1_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Hand

end
-- ==== Proof.IdealR0RunC.lean ====
/- Region 0: the whole-body run of the kernel in case C (`j = 15`: the last point of a row of 16) — the body's triple, with the pieces each
   stored buffer ends with as its witness. One module per case. -/
import proofs.«162179_j58609123721967_2_alg».proof.Proof.IdealR0RunB

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- (the run's proof term is large: the definition's epilogue walks it past the default budget)
set_option maxHeartbeats 1000000 in
/-- What the body's stores leave in each output window's staging memref and in the two carried column accumulators, as
    pieces (last first), IN CASE C (`j = 15`: the last point of a row of 16), WITH the proof that on whole memrefs — the four inputs' at their
    blocks `x0 … x3`; the two 512 x 512 outputs' at anything; the two column outputs' at anything (the case copies the two accumulators into them);
    the two accumulators at what the point before left (`xs0`, `xs1`) — the body runs to the continuation holding the inputs as they were and
    every stored buffer with its pieces written. The body is its first part followed by the rest; each `scf.if` is decided
    by the case's hypotheses. -/
noncomputable def kernelRun0_C (c : Dev nD) (i : grid0.Coords) (arg2 : Memref sig .tc .vmem S3x512 .f32) (harg2 : arg2.IsWhole) (arg3 : Memref sig .tc .vmem S3x512 .f32) (harg3 : arg3.IsWhole) (arg4 : Memref sig .tc .vmem S6x512 .f32) (harg4 : arg4.IsWhole) (arg5 : Memref sig .tc .vmem S6x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S3x512 .f32) (x1 : Vec F S3x512 .f32) (x2 : Vec F S6x512 .f32) (x3 : Vec F S6x512 .f32) (xs0 : Vec F S512x1 .f32) (xs1 : Vec F S512x1 .f32) :
    Σ' (L4 : List (View.Piece (Elt F) S512x512 .bf16)) (L5 : List (View.Piece (Elt F) S512x512 .bf16)) (L6 : List (View.Piece (Elt F) S512x1 .f32)) (L7 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__kernel1 i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__kernel1_eq_skeleton]; unfold cc0__kernel1_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    iexists _; iexact HS1

end Cert.KernelIdeal.Hand

end
-- ==== Proof.IdealR0Frame.lean ====
/- Region 0 (the 16 x 16 grid of 512 x 512 blocks), the frame half at a parameter V, the TensorCore's buffer contents when
   the region is entered: what each case of the body leaves in the stored buffers (covers and contents), what the four
   outputs and the two carried column accumulators hold point by point, the region's invariant along the grid, the proof
   data, the body obligation, and the invariant's entry and exit. -/
import proofs.«162179_j58609123721967_2_alg».proof.Proof.IdealR0RunC

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What region 0 leaves after a point, as one tuple: output windows 4, 5 (the two 512 x 512 blocks), output windows
    6, 7 (the two columns written at the end of a row), then the two carried column accumulators. -/
abbrev Outs0 (F : FTy → Type) [FloatOps F] : Type :=
  Vec F S512x512 .bf16 × Vec F S512x512 .bf16 × Vec F S512x1 .f32 × Vec F S512x1 .f32 × Vec F S512x1 .f32 × Vec F S512x1 .f32

/-! ## What each case leaves in the stored buffers: covers and contents

Stated on any whole memrefs, as the runs are. Every stored buffer receives covering stores of its whole shape, so what
it holds afterwards is its pieces read back over anything. -/

section Cases

variable (c : Dev nD) (i : grid0.Coords)
  (arg2 : Memref sig .tc .vmem S3x512 .f32) (harg2 : arg2.IsWhole) (arg3 : Memref sig .tc .vmem S3x512 .f32) (harg3 : arg3.IsWhole)
  (arg4 : Memref sig .tc .vmem S6x512 .f32) (harg4 : arg4.IsWhole) (arg5 : Memref sig .tc .vmem S6x512 .f32) (harg5 : arg5.IsWhole)
  (arg6 : Memref sig .tc .vmem S512x512 .bf16) (harg6 : arg6.IsWhole) (arg7 : Memref sig .tc .vmem S512x512 .bf16) (harg7 : arg7.IsWhole)
  (arg8 : Memref sig .tc .vmem S512x1 .f32) (harg8 : arg8.IsWhole) (arg9 : Memref sig .tc .vmem S512x1 .f32) (harg9 : arg9.IsWhole)
  (arg10 : Memref sig .tc .vmem S512x1 .f32) (harg10 : arg10.IsWhole) (arg11 : Memref sig .tc .vmem S512x1 .f32) (harg11 : arg11.IsWhole)

section CaseA
/-! ### Case A: j = 0 (the accumulators are zeroed, then the point's contribution is added) -/

variable (hc0 : cond0_0 i) (hc1 : ¬cond0_1 i)
  (x0 : Vec F S3x512 .f32) (x1 : Vec F S3x512 .f32) (x2 : Vec F S6x512 .f32) (x3 : Vec F S6x512 .f32)

local notation "runA" => kernelRun0_A c i arg2 harg2 arg3 harg3 arg4 harg4 arg5 harg5 arg6 harg6 arg7 harg7 arg8 harg8 arg9 harg9 arg10 harg10 arg11 harg11 hc0 hc1 x0 x1 x2 x3

/-- Case A's pieces for output 4 tile its block (one covering store), so they cover it. -/
theorem cover0_A_4 (y : S512x512.Idx) : ∃ pc ∈ (runA).1, y ∈ pc.1.set :=
  View.cover_of_tiledL (runA).1 S512x512.size (by sl_kernel_rfl) y
/-- What case A leaves in output 4's staging buffer: its pieces read back over junk. -/
def out0_A_4 : Vec F S512x512 .bf16 := VO0_4.read (Elt F) (VO0_4.writes (Elt F) VO0_4.junk (runA).1)

/-- Case A's pieces for output 5 tile its block (one covering store), so they cover it. -/
theorem cover0_A_5 (y : S512x512.Idx) : ∃ pc ∈ (runA).2.1, y ∈ pc.1.set :=
  View.cover_of_tiledL (runA).2.1 S512x512.size (by sl_kernel_rfl) y
/-- What case A leaves in output 5's staging buffer. -/
def out0_A_5 : Vec F S512x512 .bf16 := VO0_5.read (Elt F) (VO0_5.writes (Elt F) VO0_5.junk (runA).2.1)

/-- Case A stores nothing into output 6 (idle at its points and not written back there): no pieces, a placeholder that
    nothing consults. -/
def out0_A_6 : Vec F S512x1 .f32 := VO0_6.read (Elt F) (VO0_6.writes (Elt F) VO0_6.junk (runA).2.2.1)
/-- Case A stores nothing into output 7: a placeholder likewise. -/
def out0_A_7 : Vec F S512x1 .f32 := VO0_7.read (Elt F) (VO0_7.writes (Elt F) VO0_7.junk (runA).2.2.2.1)

/-- Case A's pieces for column accumulator 0 cover it (the zeroing store and the accumulating store are each whole). -/
theorem scover0_A_0 (y : S512x1.Idx) : ∃ pc ∈ (runA).2.2.2.2.1, y ∈ pc.1.set :=
  View.cover_of_tiledL (runA).2.2.2.2.1 S512x1.size (by sl_kernel_rfl) y
/-- What case A leaves in column accumulator 0. -/
def sout0_A_0 : Vec F S512x1 .f32 := VS0_0.read (Elt F) (VS0_0.writes (Elt F) VS0_0.junk (runA).2.2.2.2.1)

/-- Case A's pieces for column accumulator 1 cover it. -/
theorem scover0_A_1 (y : S512x1.Idx) : ∃ pc ∈ (runA).2.2.2.2.2.1, y ∈ pc.1.set :=
  View.cover_of_tiledL (runA).2.2.2.2.2.1 S512x1.size (by sl_kernel_rfl) y
/-- What case A leaves in column accumulator 1. -/
def sout0_A_1 : Vec F S512x1 .f32 := VS0_1.read (Elt F) (VS0_1.writes (Elt F) VS0_1.junk (runA).2.2.2.2.2.1)

end CaseA

section CaseB
/-! ### Case B: 0 < j < 15 (the point's contribution is added to what the point before left) -/

variable (hc0 : ¬cond0_0 i) (hc1 : ¬cond0_1 i)
  (x0 : Vec F S3x512 .f32) (x1 : Vec F S3x512 .f32) (x2 : Vec F S6x512 .f32) (x3 : Vec F S6x512 .f32)
  (xs0 : Vec F S512x1 .f32) (xs1 : Vec F S512x1 .f32)

local notation "runB" => kernelRun0_B c i arg2 harg2 arg3 harg3 arg4 harg4 arg5 harg5 arg6 harg6 arg7 harg7 arg8 harg8 arg9 harg9 arg10 harg10 arg11 harg11 hc0 hc1 x0 x1 x2 x3 xs0 xs1

/-- Case B's pieces for output 4 tile its block (one covering store), so they cover it. -/
theorem cover0_B_4 (y : S512x512.Idx) : ∃ pc ∈ (runB).1, y ∈ pc.1.set :=
  View.cover_of_tiledL (runB).1 S512x512.size (by sl_kernel_rfl) y
/-- What case B leaves in output 4's staging buffer: its pieces read back over junk. -/
def out0_B_4 : Vec F S512x512 .bf16 := VO0_4.read (Elt F) (VO0_4.writes (Elt F) VO0_4.junk (runB).1)

/-- Case B's pieces for output 5 tile its block (one covering store), so they cover it. -/
theorem cover0_B_5 (y : S512x512.Idx) : ∃ pc ∈ (runB).2.1, y ∈ pc.1.set :=
  View.cover_of_tiledL (runB).2.1 S512x512.size (by sl_kernel_rfl) y
/-- What case B leaves in output 5's staging buffer. -/
def out0_B_5 : Vec F S512x512 .bf16 := VO0_5.read (Elt F) (VO0_5.writes (Elt F) VO0_5.junk (runB).2.1)

/-- Case B stores nothing into output 6 (idle at its points and not written back there): a placeholder that nothing
    consults. -/
def out0_B_6 : Vec F S512x1 .f32 := VO0_6.read (Elt F) (VO0_6.writes (Elt F) VO0_6.junk (runB).2.2.1)
/-- Case B stores nothing into output 7: a placeholder likewise. -/
def out0_B_7 : Vec F S512x1 .f32 := VO0_7.read (Elt F) (VO0_7.writes (Elt F) VO0_7.junk (runB).2.2.2.1)

/-- Case B's one (whole) store into column accumulator 0 covers it. -/
theorem scover0_B_0 (y : S512x1.Idx) : ∃ pc ∈ (runB).2.2.2.2.1, y ∈ pc.1.set :=
  View.cover_of_tiledL (runB).2.2.2.2.1 S512x1.size (by sl_kernel_rfl) y
/-- What case B leaves in column accumulator 0. -/
def sout0_B_0 : Vec F S512x1 .f32 := VS0_0.read (Elt F) (VS0_0.writes (Elt F) VS0_0.junk (runB).2.2.2.2.1)

/-- Case B's one (whole) store into column accumulator 1 covers it. -/
theorem scover0_B_1 (y : S512x1.Idx) : ∃ pc ∈ (runB).2.2.2.2.2.1, y ∈ pc.1.set :=
  View.cover_of_tiledL (runB).2.2.2.2.2.1 S512x1.size (by sl_kernel_rfl) y
/-- What case B leaves in column accumulator 1. -/
def sout0_B_1 : Vec F S512x1 .f32 := VS0_1.read (Elt F) (VS0_1.writes (Elt F) VS0_1.junk (runB).2.2.2.2.2.1)

end CaseB

section CaseC
/-! ### Case C: j = 15 (as case B, then the two accumulators are copied to output windows 6 and 7) -/

variable (hc0 : ¬cond0_0 i) (hc1 : cond0_1 i)
  (x0 : Vec F S3x512 .f32) (x1 : Vec F S3x512 .f32) (x2 : Vec F S6x512 .f32) (x3 : Vec F S6x512 .f32)
  (xs0 : Vec F S512x1 .f32) (xs1 : Vec F S512x1 .f32)

local notation "runC" => kernelRun0_C c i arg2 harg2 arg3 harg3 arg4 harg4 arg5 harg5 arg6 harg6 arg7 harg7 arg8 harg8 arg9 harg9 arg10 harg10 arg11 harg11 hc0 hc1 x0 x1 x2 x3 xs0 xs1

/-- Case C's pieces for output 4 tile its block (one covering store), so they cover it. -/
theorem cover0_C_4 (y : S512x512.Idx) : ∃ pc ∈ (runC).1, y ∈ pc.1.set :=
  View.cover_of_tiledL (runC).1 S512x512.size (by sl_kernel_rfl) y
/-- What case C leaves in output 4's staging buffer: its pieces read back over junk. -/
def out0_C_4 : Vec F S512x512 .bf16 := VO0_4.read (Elt F) (VO0_4.writes (Elt F) VO0_4.junk (runC).1)

/-- Case C's pieces for output 5 tile its block (one covering store), so they cover it. -/
theorem cover0_C_5 (y : S512x512.Idx) : ∃ pc ∈ (runC).2.1, y ∈ pc.1.set :=
  View.cover_of_tiledL (runC).2.1 S512x512.size (by sl_kernel_rfl) y
/-- What case C leaves in output 5's staging buffer. -/
def out0_C_5 : Vec F S512x512 .bf16 := VO0_5.read (Elt F) (VO0_5.writes (Elt F) VO0_5.junk (runC).2.1)

/-- Case C's one (whole) store into output 6 covers it. -/
theorem cover0_C_6 (y : S512x1.Idx) : ∃ pc ∈ (runC).2.2.1, y ∈ pc.1.set :=
  View.cover_of_tiledL (runC).2.2.1 S512x1.size (by sl_kernel_rfl) y
/-- What case C leaves in output 6's staging buffer. -/
def out0_C_6 : Vec F S512x1 .f32 := VO0_6.read (Elt F) (VO0_6.writes (Elt F) VO0_6.junk (runC).2.2.1)

/-- Case C's one (whole) store into output 7 covers it. -/
theorem cover0_C_7 (y : S512x1.Idx) : ∃ pc ∈ (runC).2.2.2.1, y ∈ pc.1.set :=
  View.cover_of_tiledL (runC).2.2.2.1 S512x1.size (by sl_kernel_rfl) y
/-- What case C leaves in output 7's staging buffer. -/
def out0_C_7 : Vec F S512x1 .f32 := VO0_7.read (Elt F) (VO0_7.writes (Elt F) VO0_7.junk (runC).2.2.2.1)

/-- Case C's one (whole) store into column accumulator 0 covers it. -/
theorem scover0_C_0 (y : S512x1.Idx) : ∃ pc ∈ (runC).2.2.2.2.1, y ∈ pc.1.set :=
  View.cover_of_tiledL (runC).2.2.2.2.1 S512x1.size (by sl_kernel_rfl) y
/-- What case C leaves in column accumulator 0. -/
def sout0_C_0 : Vec F S512x1 .f32 := VS0_0.read (Elt F) (VS0_0.writes (Elt F) VS0_0.junk (runC).2.2.2.2.1)

/-- Case C's one (whole) store into column accumulator 1 covers it. -/
theorem scover0_C_1 (y : S512x1.Idx) : ∃ pc ∈ (runC).2.2.2.2.2.1, y ∈ pc.1.set :=
  View.cover_of_tiledL (runC).2.2.2.2.2.1 S512x1.size (by sl_kernel_rfl) y
/-- What case C leaves in column accumulator 1. -/
def sout0_C_1 : Vec F S512x1 .f32 := VS0_1.read (Elt F) (VS0_1.writes (Elt F) VS0_1.junk (runC).2.2.2.2.2.1)

end CaseC

end Cases

/-! ## At the entry contents V -/

section Entry
-- the TensorCore's buffer contents when region 0 is entered: the parameter the region's half is stated at
variable (V : (c : Dev nD) → (b : Ref sig .tc) → Buf (Elt F) ((c : Thread nD τ).loc b))

/-! ### The windows' blocks -/

/-- Window w's block at point t, read off its array as the region finds it (V). Windows 0 and 1 read one array, three
    rows of coordinates: window 0 its column block i, window 1 its column block j. Windows 2 and 3 read one array of six
    rows in the same way. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (it is fetched at the
    first point of a row only: along the row its block index does not move), for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (fetched at every point) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (fetched at the first point of a row only) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (fetched at every point) likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ### Each case's contents at a point of the grid -/

section AtPoint
variable (c : Dev nD) (t : Fin cfg0.N)

-- a case's contents f at point t: on the point's staging memrefs and the two scratch operands, the conditions read off
-- the closed forms, the four inputs at their blocks
set_option quotPrecheck false in
local notation "ptA[" f ", " h0 ", " h1 "]" => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)
set_option quotPrecheck false in
local notation "ptB[" f ", " h0 ", " h1 ", " xs0 ", " xs1 "]" => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) xs0 xs1
set_option quotPrecheck false in
local notation "ptC[" f ", " h0 ", " h1 ", " xs0 ", " xs1 "]" => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) xs0 xs1

/-- Case A's contents at a point t with t mod 16 = 0. -/
def atA0 (h0 : t.val % 16 = 0) (h1 : ¬t.val % 16 = 15) : Outs0 F :=
  (ptA[out0_A_4, h0, h1], ptA[out0_A_5, h0, h1], ptA[out0_A_6, h0, h1], ptA[out0_A_7, h0, h1], ptA[sout0_A_0, h0, h1], ptA[sout0_A_1, h0, h1])

/-- Case B's contents at a point t in the middle of a row, over what the point before left in the two accumulators. -/
def atB0 (h0 : ¬t.val % 16 = 0) (h1 : ¬t.val % 16 = 15) (xs0 xs1 : Vec F S512x1 .f32) : Outs0 F :=
  (ptB[out0_B_4, h0, h1, xs0, xs1], ptB[out0_B_5, h0, h1, xs0, xs1], ptB[out0_B_6, h0, h1, xs0, xs1], ptB[out0_B_7, h0, h1, xs0, xs1], ptB[sout0_B_0, h0, h1, xs0, xs1], ptB[sout0_B_1, h0, h1, xs0, xs1])

/-- Case C's contents at a point t with t mod 16 = 15, over what the point before left in the two accumulators. -/
def atC0 (h0 : ¬t.val % 16 = 0) (h1 : t.val % 16 = 15) (xs0 xs1 : Vec F S512x1 .f32) : Outs0 F :=
  (ptC[out0_C_4, h0, h1, xs0, xs1], ptC[out0_C_5, h0, h1, xs0, xs1], ptC[out0_C_6, h0, h1, xs0, xs1], ptC[out0_C_7, h0, h1, xs0, xs1], ptC[sout0_C_0, h0, h1, xs0, xs1], ptC[sout0_C_1, h0, h1, xs0, xs1])

end AtPoint

/-! ### What the outputs and the carried accumulators hold after each point -/

/-- THE ACCUMULATION. What the four outputs' staging buffers and the two carried column accumulators hold after the body
    at position n: the case the closed forms select at n (n mod 16 = 0: A; = 15: C; otherwise B), run at the point's memrefs
    and input blocks, the accumulators at what this leaves at n - 1 (cases B and C). Both conditions at once is no case. -/
def outsAt0 (c : Dev nD) : (n : ℕ) → n < cfg0.N → Outs0 F
  | 0, hn => atA0 V c ⟨0, hn⟩ (Nat.zero_mod _) (fun h => by (try dsimp only at h); omega)
  | n + 1, hn =>
    if h0 : (n + 1) % 16 = 0 then
      if h1 : (n + 1) % 16 = 15 then
        False.elim (by omega)
      else
        atA0 V c ⟨n + 1, hn⟩ h0 h1
    else
      if h1 : (n + 1) % 16 = 15 then
        atC0 V c ⟨n + 1, hn⟩ h0 h1 (outsAt0 c n (Nat.lt_of_succ_lt hn)).2.2.2.2.1 (outsAt0 c n (Nat.lt_of_succ_lt hn)).2.2.2.2.2
      else
        atB0 V c ⟨n + 1, hn⟩ h0 h1 (outsAt0 c n (Nat.lt_of_succ_lt hn)).2.2.2.2.1 (outsAt0 c n (Nat.lt_of_succ_lt hn)).2.2.2.2.2

/-- outsAt0 at a point of case A: that case's contents. -/
theorem outsAt0_A (c : Dev nD) (t : Fin cfg0.N) (h0 : t.val % 16 = 0) (h1 : ¬t.val % 16 = 15) :
    outsAt0 V c t.val t.isLt = atA0 V c t h0 h1 := by
  obtain ⟨n, hn⟩ := t
  cases n with
  | zero => exact rfl
  | succ n => exact (dif_pos h0).trans ((dif_neg h1).trans rfl)

/-- outsAt0 at a point of case B: that case's contents, over what the point before left. -/
theorem outsAt0_B (c : Dev nD) (t : Fin cfg0.N) (h0 : ¬t.val % 16 = 0) (h1 : ¬t.val % 16 = 15) :
    outsAt0 V c t.val t.isLt = atB0 V c t h0 h1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_neg h1).trans rfl)

/-- outsAt0 at a point of case C: that case's contents, over what the point before left. -/
theorem outsAt0_C (c : Dev nD) (t : Fin cfg0.N) (h0 : ¬t.val % 16 = 0) (h1 : t.val % 16 = 15) :
    outsAt0 V c t.val t.isLt = atC0 V c t h0 h1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_pos h1).trans rfl)

/-! ### The region's invariant along the grid -/

/-- The invariant before position n: before the first point the region's own (every scratch at anything); afterwards the
    two carried accumulators at what the point before left in them, the other scoped buffers unopened, and the generator
    register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.2.1) ∗ owns (c : Thread nD τ) scM0_1 fullShare ((outsAt0 V c n hn).2.2.2.2.2)) ∗ rest0 c) ∗ (∃ r, prngReg c r))

theorem PhiS0_zero (c : Dev nD) (n : ℕ) (h : n ≤ cfg0.N) (hz : n = 0) : PhiS0 V c n h = Pipeline.ΦA spec0 c := by
  subst hz; rfl

/-- After point n (before point n + 1): the carried accumulators at that point's contents. -/
theorem PhiS0_succ (c : Dev nD) (n : ℕ) (hn : n < cfg0.N) :
    PhiS0 V c (n + 1) hn = iprop(iprop(iprop(owns (c : Thread nD τ) scM0_0 fullShare ((outsAt0 V c n hn).2.2.2.2.1) ∗ owns (c : Thread nD τ) scM0_1 fullShare ((outsAt0 V c n hn).2.2.2.2.2)) ∗ rest0 c) ∗ (∃ r, prngReg c r)) := rfl

/-- Before a point that is not the first: the carried accumulators at what the point before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.2.1) ∗ owns (c : Thread nD τ) scM0_1 fullShare ((outsAt0 V c (n - 1) (by omega)).2.2.2.2.2)) ∗ rest0 c) ∗ (∃ r, prngReg c r)) := by
  cases n with
  | zero => exact absurd rfl hz
  | succ n => rfl

/-! ### The pipeline's proof data -/

/-- The proof data of region 0's pipeline on core c: the arrays as the region finds them (V); after the body at point t
    each input's buffer at its block and the outputs' at outsAt0's components; the invariant PhiS0; nothing owed. Windows 0
    and 1 stage one array, and so do windows 2 and 3: each of the two holds a half share of it; the outputs' arrays are held
    whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
    | ⟨7, _⟩ => (outsAt0 V c t.val t.isLt).2.2.2.1
  Φ t := PhiS0 V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
  owed _ := 0

/-- The proof data's arrays are the region-entry contents (the definition projected, V never unfolded). -/
theorem A_eq0 (c : Dev nD) (w : Fin cfg0.W) : (dat0 V c).A w = V c (Pipeline.arrRef spec0 w) := by
  dsimp only [dat0]

/-- The invariant at a point's start (the proof data at t.castSucc), restated at t.val. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window (the proof data's match reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]
theorem after0_7 (c : Dev nD) (t : Fin cfg0.N) : (dat0 V c).after 7 t = (outsAt0 V c t.val t.isLt).2.2.2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ### The body obligation, at a generic point -/

/-- What the body is called with at point t: the invariant, what the core owes, and each window's current staging buffer
    at what it then holds. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. The inputs' memrefs hold their blocks; the closed forms say which case the point is in; so that
    case's run applies. The invariant hands the body the two accumulators at what the point before left (at anything at the
    very first point, and in case A whatever they hold is dropped: the case zeroes them) and takes them back at this
    point's contents, each covered by whole stores; the other scoped buffers and the generator register pass through
    unread; the core owes nothing throughout. Outputs 4 and 5 are stored whole at every point; outputs 6 and 7 only in
    case C, and elsewhere their buffers are handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  rw [show (dat0 V c).leavesExact 4 t = owns (c : Thread nD τ) (ms0_4 t) fullShare ((dat0 V c).after 4 t) from by
      unfold Dat.leavesExact; rw [liveAt0_4 t], after0_4]
  rw [show (dat0 V c).leavesExact 5 t = owns (c : Thread nD τ) (ms0_5 t) fullShare ((dat0 V c).after 5 t) from by
      unfold Dat.leavesExact; rw [liveAt0_5 t], after0_5]
  by_cases h0 : t.val % 16 = 0
  · by_cases h1 : t.val % 16 = 15
    · exfalso; omega
    · -- case A
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold atA0 out0_A_4 out0_A_5 sout0_A_0 sout0_A_1; (try dsimp only)
      by_cases hz : t.val = 0
      · rw [PhiS0_castSucc V c t, PhiS0_zero V c _ _ hz, PhiA0_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [H7]; · iexact H7
        isplitl [HS0]; · iexact HS0
        isplitl [HS1]; · iexact HS1
        iintro ⟨H0, H1, H2, H3, ⟨%e4, H4⟩, ⟨%e5, H5⟩, H6, H7, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _)
        isplitl [H6]; · iexists _; iexact H6
        iexists _; iexact H7
      · rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [H7]; · iexact H7
        isplitl [HS0]; · iexists _; iexact HS0
        isplitl [HS1]; · iexists _; iexact HS1
        iintro ⟨H0, H1, H2, H3, ⟨%e4, H4⟩, ⟨%e5, H5⟩, H6, H7, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _)
        isplitl [H6]; · iexists _; iexact H6
        iexists _; iexact H7
  · by_cases h1 : t.val % 16 = 15
    · -- case C
      rw [show (dat0 V c).leavesExact 6 t = owns (c : Thread nD τ) (ms0_6 t) fullShare ((dat0 V c).after 6 t) from by
          unfold Dat.leavesExact; rw [liveAt0_6_C t (fun h => h0 ((hcond0_0 t).mp h)) ((hcond0_1 t).mpr h1)], after0_6]
      rw [show (dat0 V c).leavesExact 7 t = owns (c : Thread nD τ) (ms0_7 t) fullShare ((dat0 V c).after 7 t) from by
          unfold Dat.leavesExact; rw [liveAt0_7_C t (fun h => h0 ((hcond0_0 t).mp h)) ((hcond0_1 t).mpr h1)], after0_7]
      rw [outsAt0_C V c t h0 h1]
      unfold atC0 out0_C_4 out0_C_5 out0_C_6 out0_C_7 sout0_C_0 sout0_C_1; (try dsimp only)
      have hz : t.val ≠ 0 := fun hz => h0 (by rw [hz])
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, ⟨%e4, H4⟩, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _)
    · -- case B
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold atB0 out0_B_4 out0_B_5 sout0_B_0 sout0_B_1; (try dsimp only)
      have hz : t.val ≠ 0 := fun hz => h0 (by rw [hz])
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [H7]; · iexact H7
      isplitl [HS0]; · iexact HS0
      isplitl [HS1]; · iexact HS1
      iintro ⟨H0, H1, H2, H3, ⟨%e4, H4⟩, ⟨%e5, H5⟩, H6, H7, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _)
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the region's own back: the accumulators' named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 256 := N_0; omega)

end Entry

end Cert.KernelIdeal.Hand

end
-- ==== Proof.IdealR1Runs.lean ====
/- Region 1 (custom_call 1, `cc1__kernel2_iter_body`, grid 2 x 32): what the three runs of its body share — the body's two
   branch conditions in closed form over the grid, where output window 9 is idle and not written back, the staging and
   scratch memrefs the body is called with, and the region's invariant with the three scratch operands opened. -/
import proofs.«162179_j58609123721967_2_alg».proof.Proof.Gen.KernelIdeal.Launch
import proofs.«162179_j58609123721967_2_alg».proof.Proof.Gen.KernelIdeal.Skeleton
import proofs.«162179_j58609123721967_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the step index `k = i 1` is zero), from the grid coordinates: the
    skeleton's scalar chain substituted. -/
abbrev cond1_0 (i : grid1.Coords) : Prop := (Scalar.cmpi .ne (Scalar.extui (Scalar.cmpi .eq (BitVec.ofNat 32 (i 1).val) 0#32)) 0#32) = 1#1
/-- It holds at the first step of each row of 32 — decided over the grid. -/
theorem hcond1_0 : ∀ t : Fin cfg1.N, cond1_0 (grid1.coords t) ↔ t.val % 32 = 0 :=
  (by decide +kernel : ∀ t : Fin grid1.N, cond1_0 (grid1.coords t) ↔ t.val % 32 = 0)

/-- The condition of the body's last `scf.if` (the step index is 31). -/
abbrev cond1_1 (i : grid1.Coords) : Prop := k1_cond2 i = 1#1
/-- It holds at the last step of each row of 32 — decided over the grid. -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle (the configuration's table `Cfg.idle`) -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- Window 6 is never idle (an input). -/
theorem liveAt1_6 : ∀ t : Fin cfg1.N, cfg1.idle 6 (grid1.coords t) = false := by decide +kernel
/-- Window 7 is never idle (an input). -/
theorem liveAt1_7 : ∀ t : Fin cfg1.N, cfg1.idle 7 (grid1.coords t) = false := by decide +kernel
/-- Window 8 is never idle (an input). -/
theorem liveAt1_8 : ∀ t : Fin cfg1.N, cfg1.idle 8 (grid1.coords t) = false := by decide +kernel
/-- At the first step of a row the configuration calls output 9 idle: the body stores nothing into it there. -/
theorem idleAt1_9_A : ∀ t : Fin cfg1.N, cond1_0 (grid1.coords t) → ¬cond1_1 (grid1.coords t) → cfg1.idle 9 (grid1.coords t) = true := by decide +kernel
/-- At the first step of a row the pipeline does not write output 9's block back. -/
theorem noFlush1_9_A : ∀ t : Fin cfg1.N, cond1_0 (grid1.coords t) → ¬cond1_1 (grid1.coords t) → (cfg1.win 9).flush t = false := by decide +kernel
/-- At a middle step the configuration calls output 9 idle. -/
theorem idleAt1_9_B : ∀ t : Fin cfg1.N, ¬cond1_0 (grid1.coords t) → ¬cond1_1 (grid1.coords t) → cfg1.idle 9 (grid1.coords t) = true := by decide +kernel
/-- At a middle step the pipeline does not write output 9's block back. -/
theorem noFlush1_9_B : ∀ t : Fin cfg1.N, ¬cond1_0 (grid1.coords t) → ¬cond1_1 (grid1.coords t) → (cfg1.win 9).flush t = false := by decide +kernel
/-- At the last step of a row the configuration calls output 9 live: the body stores into it. -/
theorem liveAt1_9_C : ∀ t : Fin cfg1.N, ¬cond1_0 (grid1.coords t) → cond1_1 (grid1.coords t) → cfg1.idle 9 (grid1.coords t) = false := by decide +kernel

/-! ## The memrefs the body is called with -/

/-- One staging buffer of output window 9, through which its contents are stated (the choice does not matter). -/
abbrev VO1_9 : View sig .tc .vmem S21x4096 .f32 := (Memref.whole cc1_stg9_0 : Memref sig .tc .vmem S21x4096 .f32).view
/-- Each window's current staging memref at point `t`, spelled as the pipeline passes it (`bodyAt1`), and its wholeness. -/
abbrev ms1_0 (t : Fin cfg1.N) : Memref sig .tc .vmem S21x8192 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S21x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x4096 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x4096 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S21x21 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S21x21 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S21x21 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S21x4096 .f32 := win1_9.stage (cfg1.slots t 9)
abbrev hs1_9 (t : Fin cfg1.N) : (ms1_9 t).IsWhole := hstage1_9 ((cfg1.slots t 9).cast nbuf1_9)
/-- The scratch operands: whole scoped buffers of the kernel's own, passed beside the windows. -/
abbrev scM1_0 : Memref sig .tc .vmem S21x8192 .f32 := Memref.whole cc1_scratch0
abbrev scM1_1 : Memref sig .tc .vmem S21x4096 .f32 := Memref.whole cc1_scratch1
abbrev scM1_2 : Memref sig .tc .vmem S21x4096 .f32 := Memref.whole cc1_scratch2
/-- The scratch the kernel carries between points, as views: what each holds is stated through its view. -/
abbrev VS1_0 : View sig .tc .vmem S21x8192 .f32 := scM1_0.view
abbrev VS1_1 : View sig .tc .vmem S21x4096 .f32 := scM1_1.view
abbrev VS1_2 : View sig .tc .vmem S21x4096 .f32 := scM1_2.view

/-! ## The region's invariant with the scratch operands opened -/

/-- The scoped buffers of the core that are neither a staging buffer of this region nor one of its three scratch
    operands, each at some contents: carried unopened through every point. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The region's invariant with the scratch operands as memrefs owned at some contents: what the body obligation
    hands the run and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ restBut1 c) ∗ (∃ r, prngReg c r)) := by
  unfold Pipeline.ΦA; rw [scopedRest1_split]; simp only [scM1_0, scM1_1, scM1_2, owns_whole]; try rfl

end Cert.KernelIdeal.Hand

end
-- ==== Proof.IdealR1RunA.lean ====
/- Region 1 (custom_call 1, `cc1__kernel2_iter_body`): the whole-body run of the kernel at the first step of a row of 32 (k = 0). -/
import proofs.«162179_j58609123721967_2_alg».proof.Proof.IdealR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the first step of a row (the first `scf.if` taken, the last not taken), WITH the proof that on whole memrefs — the nine inputs' at their contents `x·`,
    output 9's, into which this case stores nothing, at contents `xi9` handed back untouched, the three scratch buffers at anything (this case stores each of them whole before it reads it back) —
    the body runs to the continuation holding the inputs' as they were, each scratch buffer with its pieces written (`LS·`).
    The printed body is its skeleton; the run executes it, each `scf.if` decided by `hc0`, `hc1`; the piece lists are the
    witness the run finds. -/
noncomputable def kernelRun1_A (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc1__kernel2_iter_body_eq_skeleton]; unfold cc1__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.KernelIdeal.Hand

end
-- ==== Proof.IdealR1RunB.lean ====
/- Region 1 (custom_call 1, `cc1__kernel2_iter_body`): the whole-body run of the kernel at a middle step of a row (0 < k < 31). -/
import proofs.«162179_j58609123721967_2_alg».proof.Proof.IdealR1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    a middle step of a row (neither `scf.if` taken), WITH the proof that on whole memrefs — the nine inputs' at their contents `x·`,
    output 9's, into which this case stores nothing, at contents `xi9` handed back untouched, the three scratch buffers at the contents the step before left (`xs·`) —
    the body runs to the continuation holding the inputs' as they were, scratch 0, which it only reads, as it was, scratch 1 and 2 with their pieces written (`LS1`, `LS2`).
    The printed body is its skeleton; the run executes it, each `scf.if` decided by `hc0`, `hc1`; the piece lists are the
    witness the run finds. -/
noncomputable def kernelRun1_B (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, fun xi9 E K => ?run⟩
  case run =>
    simp only [cc1__kernel2_iter_body_eq_skeleton]; unfold cc1__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    isplitl [HS1]; · iexists _; iexact HS1
    iexists _; iexact HS2

end Cert.KernelIdeal.Hand

end
-- ==== Proof.IdealR1RunC.lean ====
/- Region 1 (custom_call 1, `cc1__kernel2_iter_body`): the whole-body run of the kernel at the last step of a row (k = 31). -/
import proofs.«162179_j58609123721967_2_alg».proof.Proof.IdealR1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the last step of a row (the first `scf.if` not taken, the last taken), WITH the proof that on whole memrefs — the nine inputs' at their contents `x·`,
    output 9's at anything, the three scratch buffers at the contents the step before left (`xs·`) —
    the body runs to the continuation holding the inputs' as they were, scratch 0 as it was, scratch 1 and 2 with their pieces written, output 9's buffer with its pieces written (`L9`).
    The printed body is its skeleton; the run executes it, each `scf.if` decided by `hc0`, `hc1`; the piece lists are the
    witness the run finds. -/
noncomputable def kernelRun1_C (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, ?_, fun E K => ?run⟩
  case run =>
    simp only [cc1__kernel2_iter_body_eq_skeleton]; unfold cc1__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _; isplitr; · ipureintro; exact harg12.read_unread _
      iexact HS0
    isplitl [HS1]; · iexists _; iexact HS1
    iexists _; iexact HS2

end Cert.KernelIdeal.Hand

end
-- ==== Proof.IdealR1Frame.lean ====
/- Region 1 (custom_call 1, `cc1__kernel2_iter_body`, grid 2 x 32), at the entry contents `V`: what output 9 and the three
   scratch buffers the kernel carries between points hold per case and point by point, the pipeline's proof data, the
   body obligation, and the invariant's two ends. -/
import proofs.«162179_j58609123721967_2_alg».proof.Proof.IdealR1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data whose
    array is `V`'s (`hA`) and whose body leaves the block in place (`hafter`): unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data whose
    array is `V`'s (`hA`) and whose body leaves the block in place (`hafter`): unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data whose
    array is `V`'s (`hA`) and whose body leaves the block in place (`hafter`): unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data whose
    array is `V`'s (`hA`) and whose body leaves the block in place (`hafter`): unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data whose
    array is `V`'s (`hA`) and whose body leaves the block in place (`hafter`): unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data whose
    array is `V`'s (`hA`) and whose body leaves the block in place (`hafter`): unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data whose
    array is `V`'s (`hA`) and whose body leaves the block in place (`hafter`): unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof data whose
    array is `V`'s (`hA`) and whose body leaves the block in place (`hafter`): unfetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof data whose
    array is `V`'s (`hA`) and whose body leaves the block in place (`hafter`): unfetched, the block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in output 9 and in the carried scratch -/

/-- At the first step of a row the body stores nothing into output 9 (the window is idle there and not written back): no pieces —
    a placeholder (junk read back) that nothing consults, since at these points the window is neither written back nor
    read at the next point. -/
def out1_A_9 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

/-- At the first step of a row the body's pieces for scratch 0, which the kernel carries between points, cover it: each is a store of the whole buffer. -/
theorem scover1_A_0 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x8192.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S21x8192.size (by sl_kernel_rfl) y

/-- What the first step of a row leaves in scratch 0: its pieces read back over junk. -/
def sout1_A_0 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x8192 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

/-- At the first step of a row the body's pieces for scratch 1, which the kernel carries between points, cover it: each is a store of the whole buffer. -/
theorem scover1_A_1 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S21x4096.size (by sl_kernel_rfl) y

/-- What the first step of a row leaves in scratch 1: its pieces read back over junk. -/
def sout1_A_1 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)

/-- At the first step of a row the body's pieces for scratch 2, which the kernel carries between points, cover it: each is a store of the whole buffer. -/
theorem scover1_A_2 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1 S21x4096.size (by sl_kernel_rfl) y

/-- What the first step of a row leaves in scratch 2: its pieces read back over junk. -/
def sout1_A_2 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1)

/-- At a middle step of a row the body stores nothing into output 9 (the window is idle there and not written back): no pieces —
    a placeholder (junk read back) that nothing consults, since at these points the window is neither written back nor
    read at the next point. -/
def out1_B_9 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO1_9.read (Elt F) (VO1_9.writes (Elt F) VO1_9.junk (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At a middle step of a row the body stores nothing into scratch 0: it holds what the step before left. -/
def sout1_B_0 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At a middle step of a row the body's pieces for scratch 1, which the kernel carries between points, cover it: each is a store of the whole buffer. -/
theorem scover1_B_1 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What a middle step of a row leaves in scratch 1: its pieces read back over junk. -/
def sout1_B_1 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At a middle step of a row the body's pieces for scratch 2, which the kernel carries between points, cover it: each is a store of the whole buffer. -/
theorem scover1_B_2 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What a middle step of a row leaves in scratch 2: its pieces read back over junk. -/
def sout1_B_2 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : ¬cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-- At the last step of a row the body's pieces for output 9 tile its block (one store of the whole block), so they cover it. -/
theorem cover1_C_9 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1 S21x4096.size (by sl_kernel_rfl) y

/-- What the last step of a row leaves in output 9's staging buffer: its pieces read back over junk. -/
def out1_C_9 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO1_9.read (Elt F) (VO1_9.writes (Elt F) VO1_9.junk (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At the last step of a row the body stores nothing into scratch 0: it holds what the step before left. -/
def sout1_C_0 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At the last step of a row the body's pieces for scratch 1, which the kernel carries between points, cover it: each is a store of the whole buffer. -/
theorem scover1_C_1 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What the last step of a row leaves in scratch 1: its pieces read back over junk. -/
def sout1_C_1 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At the last step of a row the body's pieces for scratch 2, which the kernel carries between points, cover it: each is a store of the whole buffer. -/
theorem scover1_C_2 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What the last step of a row leaves in scratch 2: its pieces read back over junk. -/
def sout1_C_2 (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-! ## What output 9 and the carried scratch hold after each point -/

/-- THE ACCUMULATION. What output 9's staging buffer and the three scratch buffers the kernel carries between points hold
    after the body at position `n` (a tuple: output 9, then scratch 0, 1, 2): the case the closed forms select at `n`, run at
    the point's memrefs and input blocks, a scratch it reads before storing at what this leaves at `n - 1`. Both conditions
    at once is no case (`False.elim`). -/
def outsAt1 (c : Dev nD) : (n : ℕ) → n < cfg1.N → Vec F S21x4096 .f32 × Vec F S21x8192 .f32 × Vec F S21x4096 .f32 × Vec F S21x4096 .f32
  | 0, hn => (out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩))
  | n + 1, hn =>
    if h0 : (n + 1) % 32 = 0 then
      if h1 : (n + 1) % 32 = 31 then
        False.elim (by omega)
      else
        (out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩))
    else
      if h1 : (n + 1) % 32 = 31 then
        (out1_C_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at the first step of a row: that case's contents. -/
theorem outsAt1_A (c : Dev nD) (t : Fin cfg1.N) (h0 : t.val % 32 = 0) (h1 : ¬t.val % 32 = 31) :
    outsAt1 V c t.val t.isLt = (out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)) := by
  obtain ⟨n, hn⟩ := t
  cases n with
  | zero => exact rfl
  | succ n => exact (dif_pos h0).trans ((dif_neg h1).trans rfl)

/-- `outsAt1` at a middle step of a row: that case's contents, over what the point before left. -/
theorem outsAt1_B (c : Dev nD) (t : Fin cfg1.N) (h0 : ¬t.val % 32 = 0) (h1 : ¬t.val % 32 = 31) :
    outsAt1 V c t.val t.isLt = (out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last step of a row: that case's contents, over what the point before left. -/
theorem outsAt1_C (c : Dev nD) (t : Fin cfg1.N) (h0 : ¬t.val % 32 = 0) (h1 : t.val % 32 = 31) :
    outsAt1 V c t.val t.isLt = (out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scratch at anything); afterwards
    the same with each of the three carried scratch buffers at what the point before left in it (`outsAt1`'s scratch
    components), the other scoped buffers unopened, and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ restBut1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ restBut1 c) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ restBut1 c) ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and output 9's at `outsAt1`'s first component; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
  Φ t := PhiS1 V c t.val (Nat.le_of_lt_succ t.isLt)
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 4800000 in
/-- The body at any point: the inputs' memrefs hold their blocks (`before1_w`); the closed forms say which of the three cases
    the point is in; the invariant hands the body the three carried scratch buffers at what the point before left (at
    anything at the very first point; at the first step of the second row the case takes them at anything too), and takes
    them back at this point's contents (the stores cover each buffer a case stores into; a buffer a case only reads comes
    back as it was); output 9 is handed back untouched where it is idle, and holds the case's one store at the last step
    of a row; the other scoped buffers, the generator register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 32 = 0
  · by_cases h1 : t.val % 32 = 31
    · exfalso; omega
    ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [show (dat1 V c).leavesExact 5 t = owns (c : Thread nD τ) (ms1_5 t) fullShare ((dat1 V c).after 5 t) from by
          unfold Dat.leavesExact; rw [liveAt1_5 t], after1_5]
        rw [show (dat1 V c).leavesExact 6 t = owns (c : Thread nD τ) (ms1_6 t) fullShare ((dat1 V c).after 6 t) from by
          unfold Dat.leavesExact; rw [liveAt1_6 t], after1_6]
        rw [show (dat1 V c).leavesExact 7 t = owns (c : Thread nD τ) (ms1_7 t) fullShare ((dat1 V c).after 7 t) from by
          unfold Dat.leavesExact; rw [liveAt1_7 t], after1_7]
        rw [show (dat1 V c).leavesExact 8 t = owns (c : Thread nD τ) (ms1_8 t) fullShare ((dat1 V c).after 8 t) from by
          unfold Dat.leavesExact; rw [liveAt1_8 t], after1_8]
        rw [Dat.leavesExact_idle (dat1 V c) 9 t (idleAt1_9_A t ((hcond1_0 t).mpr h0) (fun h => h1 ((hcond1_1 t).mp h))) (noFlush1_9_A t ((hcond1_0 t).mpr h0) (fun h => h1 ((hcond1_1 t).mp h)))]
        rw [outsAt1_A V c t h0 h1]
        unfold sout1_A_0 sout1_A_1 sout1_A_2; (try dsimp only)
        by_cases hz : t.val = 0
        ·
          rw [PhiS1_castSucc V c t, PhiS1_zero V c _ _ hz, PhiA1_eq]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun1_A c (grid1.coords t) _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover1_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover1_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover1_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
        ·
          rw [PhiS1_castSucc V c t, PhiS1_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun1_A c (grid1.coords t) _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexists _; iexact HS0
          isplitl [HS1]; · iexists _; iexact HS1
          isplitl [HS2]; · iexists _; iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover1_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover1_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover1_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
  · by_cases h1 : t.val % 32 = 31
    ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [show (dat1 V c).leavesExact 5 t = owns (c : Thread nD τ) (ms1_5 t) fullShare ((dat1 V c).after 5 t) from by
          unfold Dat.leavesExact; rw [liveAt1_5 t], after1_5]
        rw [show (dat1 V c).leavesExact 6 t = owns (c : Thread nD τ) (ms1_6 t) fullShare ((dat1 V c).after 6 t) from by
          unfold Dat.leavesExact; rw [liveAt1_6 t], after1_6]
        rw [show (dat1 V c).leavesExact 7 t = owns (c : Thread nD τ) (ms1_7 t) fullShare ((dat1 V c).after 7 t) from by
          unfold Dat.leavesExact; rw [liveAt1_7 t], after1_7]
        rw [show (dat1 V c).leavesExact 8 t = owns (c : Thread nD τ) (ms1_8 t) fullShare ((dat1 V c).after 8 t) from by
          unfold Dat.leavesExact; rw [liveAt1_8 t], after1_8]
        rw [show (dat1 V c).leavesExact 9 t = owns (c : Thread nD τ) (ms1_9 t) fullShare ((dat1 V c).after 9 t) from by
          unfold Dat.leavesExact; rw [liveAt1_9_C t (fun h => h0 ((hcond1_0 t).mp h)) ((hcond1_1 t).mpr h1)], after1_9]
        rw [outsAt1_C V c t h0 h1]
        unfold out1_C_9 sout1_C_0 sout1_C_1 sout1_C_2; (try dsimp only)
        by_cases hz : t.val = 0
        · exfalso; omega
        ·
          rw [PhiS1_castSucc V c t, PhiS1_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun1_C c (grid1.coords t) _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [HS0]; · iexact HS0
          isplitl [HS1]; · iexact HS1
          isplitl [HS2]; · iexact HS2
          iintro ⟨H0, H1, H2, H3, H4, H5, H6, H7, H8, ⟨%e9, H9⟩, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover1_C_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover1_C_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          unfold owns; iexists _; isplitr
          swap; · iexact H9
          ipureintro; exact View.read_writes_of_cover _ _ _ _ _ (cover1_C_9 c _ _ _ _ _ _ _ _ _ _ _ _ _ _ _ _ _ _ _ _ _ _ _ _ _ _ _ _ _ _ _ _ _ _ _ _ _ _ _ _ _)
    ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [show (dat1 V c).leavesExact 5 t = owns (c : Thread nD τ) (ms1_5 t) fullShare ((dat1 V c).after 5 t) from by
          unfold Dat.leavesExact; rw [liveAt1_5 t], after1_5]
        rw [show (dat1 V c).leavesExact 6 t = owns (c : Thread nD τ) (ms1_6 t) fullShare ((dat1 V c).after 6 t) from by
          unfold Dat.leavesExact; rw [liveAt1_6 t], after1_6]
        rw [show (dat1 V c).leavesExact 7 t = owns (c : Thread nD τ) (ms1_7 t) fullShare ((dat1 V c).after 7 t) from by
          unfold Dat.leavesExact; rw [liveAt1_7 t], after1_7]
        rw [show (dat1 V c).leavesExact 8 t = owns (c : Thread nD τ) (ms1_8 t) fullShare ((dat1 V c).after 8 t) from by
          unfold Dat.leavesExact; rw [liveAt1_8 t], after1_8]
        rw [Dat.leavesExact_idle (dat1 V c) 9 t (idleAt1_9_B t (fun h => h0 ((hcond1_0 t).mp h)) (fun h => h1 ((hcond1_1 t).mp h))) (noFlush1_9_B t (fun h => h0 ((hcond1_0 t).mp h)) (fun h => h1 ((hcond1_1 t).mp h)))]
        rw [outsAt1_B V c t h0 h1]
        unfold sout1_B_0 sout1_B_1 sout1_B_2; (try dsimp only)
        by_cases hz : t.val = 0
        · exfalso; omega
        ·
          rw [PhiS1_castSucc V c t, PhiS1_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun1_B c (grid1.coords t) _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _ _ _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover1_B_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover1_B_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, Hr⟩, Hg⟩
  isplitl [HS0 HS1 HS2 Hr]
  · isplitl [HS0 HS1 HS2]
    · isplitl [HS0]
      · iexists _; iexact HS0
      isplitl [HS1]
      · iexists _; iexact HS1
      iexists _; iexact HS2
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.IdealR2Runs.lean ====
/- Region 2 (custom_call 2, `cc2__kernel2_iter_body`, grid 2 x 32): what the three runs of its body share — the body's two
   branch conditions in closed form over the grid, where output window 9 is idle and not written back, the staging and
   scratch memrefs the body is called with, and the region's invariant with the three scratch operands opened. -/
import proofs.«162179_j58609123721967_2_alg».proof.Proof.Gen.KernelIdeal.Launch
import proofs.«162179_j58609123721967_2_alg».proof.Proof.Gen.KernelIdeal.Skeleton
import proofs.«162179_j58609123721967_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the step index `k = i 1` is zero), from the grid coordinates: the
    skeleton's scalar chain substituted. -/
abbrev cond2_0 (i : grid2.Coords) : Prop := (Scalar.cmpi .ne (Scalar.extui (Scalar.cmpi .eq (BitVec.ofNat 32 (i 1).val) 0#32)) 0#32) = 1#1
/-- It holds at the first step of each row of 32 — decided over the grid. -/
theorem hcond2_0 : ∀ t : Fin cfg2.N, cond2_0 (grid2.coords t) ↔ t.val % 32 = 0 :=
  (by decide +kernel : ∀ t : Fin grid2.N, cond2_0 (grid2.coords t) ↔ t.val % 32 = 0)

/-- The condition of the body's last `scf.if` (the step index is 31). -/
abbrev cond2_1 (i : grid2.Coords) : Prop := k2_cond2 i = 1#1
/-- It holds at the last step of each row of 32 — decided over the grid. -/
theorem hcond2_1 : ∀ t : Fin cfg2.N, cond2_1 (grid2.coords t) ↔ t.val % 32 = 31 :=
  (by decide +kernel : ∀ t : Fin grid2.N, cond2_1 (grid2.coords t) ↔ t.val % 32 = 31)

/-! ## Where the windows are idle (the configuration's table `Cfg.idle`) -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- Window 5 is never idle (an input). -/
theorem liveAt2_5 : ∀ t : Fin cfg2.N, cfg2.idle 5 (grid2.coords t) = false := by decide +kernel
/-- Window 6 is never idle (an input). -/
theorem liveAt2_6 : ∀ t : Fin cfg2.N, cfg2.idle 6 (grid2.coords t) = false := by decide +kernel
/-- Window 7 is never idle (an input). -/
theorem liveAt2_7 : ∀ t : Fin cfg2.N, cfg2.idle 7 (grid2.coords t) = false := by decide +kernel
/-- Window 8 is never idle (an input). -/
theorem liveAt2_8 : ∀ t : Fin cfg2.N, cfg2.idle 8 (grid2.coords t) = false := by decide +kernel
/-- At the first step of a row the configuration calls output 9 idle: the body stores nothing into it there. -/
theorem idleAt2_9_A : ∀ t : Fin cfg2.N, cond2_0 (grid2.coords t) → ¬cond2_1 (grid2.coords t) → cfg2.idle 9 (grid2.coords t) = true := by decide +kernel
/-- At the first step of a row the pipeline does not write output 9's block back. -/
theorem noFlush2_9_A : ∀ t : Fin cfg2.N, cond2_0 (grid2.coords t) → ¬cond2_1 (grid2.coords t) → (cfg2.win 9).flush t = false := by decide +kernel
/-- At a middle step the configuration calls output 9 idle. -/
theorem idleAt2_9_B : ∀ t : Fin cfg2.N, ¬cond2_0 (grid2.coords t) → ¬cond2_1 (grid2.coords t) → cfg2.idle 9 (grid2.coords t) = true := by decide +kernel
/-- At a middle step the pipeline does not write output 9's block back. -/
theorem noFlush2_9_B : ∀ t : Fin cfg2.N, ¬cond2_0 (grid2.coords t) → ¬cond2_1 (grid2.coords t) → (cfg2.win 9).flush t = false := by decide +kernel
/-- At the last step of a row the configuration calls output 9 live: the body stores into it. -/
theorem liveAt2_9_C : ∀ t : Fin cfg2.N, ¬cond2_0 (grid2.coords t) → cond2_1 (grid2.coords t) → cfg2.idle 9 (grid2.coords t) = false := by decide +kernel

/-! ## The memrefs the body is called with -/

/-- One staging buffer of output window 9, through which its contents are stated (the choice does not matter). -/
abbrev VO2_9 : View sig .tc .vmem S21x4096 .f32 := (Memref.whole cc2_stg9_0 : Memref sig .tc .vmem S21x4096 .f32).view
/-- Each window's current staging memref at point `t`, spelled as the pipeline passes it (`bodyAt2`), and its wholeness. -/
abbrev ms2_0 (t : Fin cfg2.N) : Memref sig .tc .vmem S21x8192 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S21x4096 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x4096 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x4096 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x4096 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x4096 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S21x21 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S21x21 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S21x21 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S21x4096 .f32 := win2_9.stage (cfg2.slots t 9)
abbrev hs2_9 (t : Fin cfg2.N) : (ms2_9 t).IsWhole := hstage2_9 ((cfg2.slots t 9).cast nbuf2_9)
/-- The scratch operands: whole scoped buffers of the kernel's own, passed beside the windows. -/
abbrev scM2_0 : Memref sig .tc .vmem S21x8192 .f32 := Memref.whole cc2_scratch0
abbrev scM2_1 : Memref sig .tc .vmem S21x4096 .f32 := Memref.whole cc2_scratch1
abbrev scM2_2 : Memref sig .tc .vmem S21x4096 .f32 := Memref.whole cc2_scratch2
/-- The scratch the kernel carries between points, as views: what each holds is stated through its view. -/
abbrev VS2_0 : View sig .tc .vmem S21x8192 .f32 := scM2_0.view
abbrev VS2_1 : View sig .tc .vmem S21x4096 .f32 := scM2_1.view
abbrev VS2_2 : View sig .tc .vmem S21x4096 .f32 := scM2_2.view

/-! ## The region's invariant with the scratch operands opened -/

/-- The scoped buffers of the core that are neither a staging buffer of this region nor one of its three scratch
    operands, each at some contents: carried unopened through every point. -/
abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- The region's invariant with the scratch operands as memrefs owned at some contents: what the body obligation
    hands the run and takes back. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d)) ∗ restBut2 c) ∗ (∃ r, prngReg c r)) := by
  unfold Pipeline.ΦA; rw [scopedRest2_split]; simp only [scM2_0, scM2_1, scM2_2, owns_whole]; try rfl

end Cert.KernelIdeal.Hand

end
-- ==== Proof.IdealR2RunA.lean ====
/- Region 2 (custom_call 2, `cc2__kernel2_iter_body`): the whole-body run of the kernel at the first step of a row of 32 (k = 0). -/
import proofs.«162179_j58609123721967_2_alg».proof.Proof.IdealR2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the first step of a row (the first `scf.if` taken, the last not taken), WITH the proof that on whole memrefs — the nine inputs' at their contents `x·`,
    output 9's, into which this case stores nothing, at contents `xi9` handed back untouched, the three scratch buffers at anything (this case stores each of them whole before it reads it back) —
    the body runs to the continuation holding the inputs' as they were, each scratch buffer with its pieces written (`LS·`).
    The printed body is its skeleton; the run executes it, each `scf.if` decided by `hc0`, `hc1`; the piece lists are the
    witness the run finds. -/
noncomputable def kernelRun2_A (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc2__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc2__kernel2_iter_body_eq_skeleton]; unfold cc2__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.KernelIdeal.Hand

end
-- ==== Proof.IdealR2RunB.lean ====
/- Region 2 (custom_call 2, `cc2__kernel2_iter_body`): the whole-body run of the kernel at a middle step of a row (0 < k < 31). -/
import proofs.«162179_j58609123721967_2_alg».proof.Proof.IdealR2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    a middle step of a row (neither `scf.if` taken), WITH the proof that on whole memrefs — the nine inputs' at their contents `x·`,
    output 9's, into which this case stores nothing, at contents `xi9` handed back untouched, the three scratch buffers at the contents the step before left (`xs·`) —
    the body runs to the continuation holding the inputs' as they were, scratch 0, which it only reads, as it was, scratch 1 and 2 with their pieces written (`LS1`, `LS2`).
    The printed body is its skeleton; the run executes it, each `scf.if` decided by `hc0`, `hc1`; the piece lists are the
    witness the run finds. -/
noncomputable def kernelRun2_B (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc2__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, fun xi9 E K => ?run⟩
  case run =>
    simp only [cc2__kernel2_iter_body_eq_skeleton]; unfold cc2__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    isplitl [HS1]; · iexists _; iexact HS1
    iexists _; iexact HS2

end Cert.KernelIdeal.Hand

end
-- ==== Proof.IdealR2RunC.lean ====
/- Region 2 (custom_call 2, `cc2__kernel2_iter_body`): the whole-body run of the kernel at the last step of a row (k = 31). -/
import proofs.«162179_j58609123721967_2_alg».proof.Proof.IdealR2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the last step of a row (the first `scf.if` not taken, the last taken), WITH the proof that on whole memrefs — the nine inputs' at their contents `x·`,
    output 9's at anything, the three scratch buffers at the contents the step before left (`xs·`) —
    the body runs to the continuation holding the inputs' as they were, scratch 0 as it was, scratch 1 and 2 with their pieces written, output 9's buffer with its pieces written (`L9`).
    The printed body is its skeleton; the run executes it, each `scf.if` decided by `hc0`, `hc1`; the piece lists are the
    witness the run finds. -/
noncomputable def kernelRun2_C (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc2__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, ?_, fun E K => ?run⟩
  case run =>
    simp only [cc2__kernel2_iter_body_eq_skeleton]; unfold cc2__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _; isplitr; · ipureintro; exact harg12.read_unread _
      iexact HS0
    isplitl [HS1]; · iexists _; iexact HS1
    iexists _; iexact HS2

end Cert.KernelIdeal.Hand

end
-- ==== Proof.IdealR2Frame.lean ====
/- Region 2 (custom_call 2, `cc2__kernel2_iter_body`, grid 2 x 32), at the entry contents `V`: what output 9 and the three
   scratch buffers the kernel carries between points hold per case and point by point, the pipeline's proof data, the
   body obligation, and the invariant's two ends. -/
import proofs.«162179_j58609123721967_2_alg».proof.Proof.IdealR2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data whose
    array is `V`'s (`hA`) and whose body leaves the block in place (`hafter`): unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data whose
    array is `V`'s (`hA`) and whose body leaves the block in place (`hafter`): unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data whose
    array is `V`'s (`hA`) and whose body leaves the block in place (`hafter`): unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data whose
    array is `V`'s (`hA`) and whose body leaves the block in place (`hafter`): unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data whose
    array is `V`'s (`hA`) and whose body leaves the block in place (`hafter`): unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data whose
    array is `V`'s (`hA`) and whose body leaves the block in place (`hafter`): unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof data whose
    array is `V`'s (`hA`) and whose body leaves the block in place (`hafter`): unfetched, the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof data whose
    array is `V`'s (`hA`) and whose body leaves the block in place (`hafter`): unfetched, the block index has not moved. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof data whose
    array is `V`'s (`hA`) and whose body leaves the block in place (`hafter`): unfetched, the block index has not moved. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in output 9 and in the carried scratch -/

/-- At the first step of a row the body stores nothing into output 9 (the window is idle there and not written back): no pieces —
    a placeholder (junk read back) that nothing consults, since at these points the window is neither written back nor
    read at the next point. -/
def out2_A_9 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VO2_9.read (Elt F) (VO2_9.writes (Elt F) VO2_9.junk (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

/-- At the first step of a row the body's pieces for scratch 0, which the kernel carries between points, cover it: each is a store of the whole buffer. -/
theorem scover2_A_0 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x8192.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S21x8192.size (by sl_kernel_rfl) y

/-- What the first step of a row leaves in scratch 0: its pieces read back over junk. -/
def sout2_A_0 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x8192 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

/-- At the first step of a row the body's pieces for scratch 1, which the kernel carries between points, cover it: each is a store of the whole buffer. -/
theorem scover2_A_1 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S21x4096.size (by sl_kernel_rfl) y

/-- What the first step of a row leaves in scratch 1: its pieces read back over junk. -/
def sout2_A_1 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)

/-- At the first step of a row the body's pieces for scratch 2, which the kernel carries between points, cover it: each is a store of the whole buffer. -/
theorem scover2_A_2 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1 S21x4096.size (by sl_kernel_rfl) y

/-- What the first step of a row leaves in scratch 2: its pieces read back over junk. -/
def sout2_A_2 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS2_2.read (Elt F) (VS2_2.writes (Elt F) VS2_2.junk (kernelRun2_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1)

/-- At a middle step of a row the body stores nothing into output 9 (the window is idle there and not written back): no pieces —
    a placeholder (junk read back) that nothing consults, since at these points the window is neither written back nor
    read at the next point. -/
def out2_B_9 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO2_9.read (Elt F) (VO2_9.writes (Elt F) VO2_9.junk (kernelRun2_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At a middle step of a row the body stores nothing into scratch 0: it holds what the step before left. -/
def sout2_B_0 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At a middle step of a row the body's pieces for scratch 1, which the kernel carries between points, cover it: each is a store of the whole buffer. -/
theorem scover2_B_1 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What a middle step of a row leaves in scratch 1: its pieces read back over junk. -/
def sout2_B_1 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At a middle step of a row the body's pieces for scratch 2, which the kernel carries between points, cover it: each is a store of the whole buffer. -/
theorem scover2_B_2 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What a middle step of a row leaves in scratch 2: its pieces read back over junk. -/
def sout2_B_2 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : ¬cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS2_2.read (Elt F) (VS2_2.writes (Elt F) VS2_2.junk (kernelRun2_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-- At the last step of a row the body's pieces for output 9 tile its block (one store of the whole block), so they cover it. -/
theorem cover2_C_9 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1 S21x4096.size (by sl_kernel_rfl) y

/-- What the last step of a row leaves in output 9's staging buffer: its pieces read back over junk. -/
def out2_C_9 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO2_9.read (Elt F) (VO2_9.writes (Elt F) VO2_9.junk (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At the last step of a row the body stores nothing into scratch 0: it holds what the step before left. -/
def sout2_C_0 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At the last step of a row the body's pieces for scratch 1, which the kernel carries between points, cover it: each is a store of the whole buffer. -/
theorem scover2_C_1 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What the last step of a row leaves in scratch 1: its pieces read back over junk. -/
def sout2_C_1 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At the last step of a row the body's pieces for scratch 2, which the kernel carries between points, cover it: each is a store of the whole buffer. -/
theorem scover2_C_2 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What the last step of a row leaves in scratch 2: its pieces read back over junk. -/
def sout2_C_2 (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS2_2.read (Elt F) (VS2_2.writes (Elt F) VS2_2.junk (kernelRun2_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-! ## What output 9 and the carried scratch hold after each point -/

/-- THE ACCUMULATION. What output 9's staging buffer and the three scratch buffers the kernel carries between points hold
    after the body at position `n` (a tuple: output 9, then scratch 0, 1, 2): the case the closed forms select at `n`, run at
    the point's memrefs and input blocks, a scratch it reads before storing at what this leaves at `n - 1`. Both conditions
    at once is no case (`False.elim`). -/
def outsAt2 (c : Dev nD) : (n : ℕ) → n < cfg2.N → Vec F S21x4096 .f32 × Vec F S21x8192 .f32 × Vec F S21x4096 .f32 × Vec F S21x4096 .f32
  | 0, hn => (out2_A_9 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩), sout2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩))
  | n + 1, hn =>
    if h0 : (n + 1) % 32 = 0 then
      if h1 : (n + 1) % 32 = 31 then
        False.elim (by omega)
      else
        (out2_A_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩), sout2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩))
    else
      if h1 : (n + 1) % 32 = 31 then
        (out2_C_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.1 (outsAt2 c n (Nat.lt_of_succ_lt hn)).2.2.1 (outsAt2 c n (Nat.lt_of_succ_lt hn)).2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.1 (outsAt2 c n (Nat.lt_of_succ_lt hn)).2.2.1 (outsAt2 c n (Nat.lt_of_succ_lt hn)).2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.1 (outsAt2 c n (Nat.lt_of_succ_lt hn)).2.2.1 (outsAt2 c n (Nat.lt_of_succ_lt hn)).2.2.2, sout2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.1 (outsAt2 c n (Nat.lt_of_succ_lt hn)).2.2.1 (outsAt2 c n (Nat.lt_of_succ_lt hn)).2.2.2)
      else
        (out2_B_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.1 (outsAt2 c n (Nat.lt_of_succ_lt hn)).2.2.1 (outsAt2 c n (Nat.lt_of_succ_lt hn)).2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.1 (outsAt2 c n (Nat.lt_of_succ_lt hn)).2.2.1 (outsAt2 c n (Nat.lt_of_succ_lt hn)).2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.1 (outsAt2 c n (Nat.lt_of_succ_lt hn)).2.2.1 (outsAt2 c n (Nat.lt_of_succ_lt hn)).2.2.2, sout2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.1 (outsAt2 c n (Nat.lt_of_succ_lt hn)).2.2.1 (outsAt2 c n (Nat.lt_of_succ_lt hn)).2.2.2)

/-- `outsAt2` at the first step of a row: that case's contents. -/
theorem outsAt2_A (c : Dev nD) (t : Fin cfg2.N) (h0 : t.val % 32 = 0) (h1 : ¬t.val % 32 = 31) :
    outsAt2 V c t.val t.isLt = (out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t), sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t)) := by
  obtain ⟨n, hn⟩ := t
  cases n with
  | zero => exact rfl
  | succ n => exact (dif_pos h0).trans ((dif_neg h1).trans rfl)

/-- `outsAt2` at a middle step of a row: that case's contents, over what the point before left. -/
theorem outsAt2_B (c : Dev nD) (t : Fin cfg2.N) (h0 : ¬t.val % 32 = 0) (h1 : ¬t.val % 32 = 31) :
    outsAt2 V c t.val t.isLt = (out2_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last step of a row: that case's contents, over what the point before left. -/
theorem outsAt2_C (c : Dev nD) (t : Fin cfg2.N) (h0 : ¬t.val % 32 = 0) (h1 : t.val % 32 = 31) :
    outsAt2 V c t.val t.isLt = (out2_C_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_C_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scratch at anything); afterwards
    the same with each of the three carried scratch buffers at what the point before left in it (`outsAt2`'s scratch
    components), the other scoped buffers unopened, and the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2)) ∗ restBut2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2)) ∗ restBut2 c) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2.1) ∗ owns (c : Thread nD τ) scM2_2 fullShare ((outsAt2 V c (n - 1) (by omega)).2.2.2)) ∗ restBut2 c) ∗ (∃ r, prngReg c r)) := by
  cases n with
  | zero => exact absurd rfl hz
  | succ n => rfl

/-! ## The pipeline's proof data -/

/-- The proof data of pipeline 2 on core `c`: the arrays as the region finds them (`V`); after the body at point `t` each
    input's buffer at its block and output 9's at `outsAt2`'s first component; the invariant `PhiS2`; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => (outsAt2 V c t.val t.isLt).1
  Φ t := PhiS2 V c t.val (Nat.le_of_lt_succ t.isLt)
  q _ := fullShare
  owed _ := 0

/-- The proof data's arrays are the region-entry contents (the definition projected, `V` never unfolded). -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4800000 in
/-- The body at any point: the inputs' memrefs hold their blocks (`before2_w`); the closed forms say which of the three cases
    the point is in; the invariant hands the body the three carried scratch buffers at what the point before left (at
    anything at the very first point; at the first step of the second row the case takes them at anything too), and takes
    them back at this point's contents (the stores cover each buffer a case stores into; a buffer a case only reads comes
    back as it was); output 9 is handed back untouched where it is idle, and holds the case's one store at the last step
    of a row; the other scoped buffers, the generator register and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 32 = 0
  · by_cases h1 : t.val % 32 = 31
    · exfalso; omega
    ·
        rw [show (dat2 V c).leavesExact 0 t = owns (c : Thread nD τ) (ms2_0 t) fullShare ((dat2 V c).after 0 t) from by
          unfold Dat.leavesExact; rw [liveAt2_0 t], after2_0]
        rw [show (dat2 V c).leavesExact 1 t = owns (c : Thread nD τ) (ms2_1 t) fullShare ((dat2 V c).after 1 t) from by
          unfold Dat.leavesExact; rw [liveAt2_1 t], after2_1]
        rw [show (dat2 V c).leavesExact 2 t = owns (c : Thread nD τ) (ms2_2 t) fullShare ((dat2 V c).after 2 t) from by
          unfold Dat.leavesExact; rw [liveAt2_2 t], after2_2]
        rw [show (dat2 V c).leavesExact 3 t = owns (c : Thread nD τ) (ms2_3 t) fullShare ((dat2 V c).after 3 t) from by
          unfold Dat.leavesExact; rw [liveAt2_3 t], after2_3]
        rw [show (dat2 V c).leavesExact 4 t = owns (c : Thread nD τ) (ms2_4 t) fullShare ((dat2 V c).after 4 t) from by
          unfold Dat.leavesExact; rw [liveAt2_4 t], after2_4]
        rw [show (dat2 V c).leavesExact 5 t = owns (c : Thread nD τ) (ms2_5 t) fullShare ((dat2 V c).after 5 t) from by
          unfold Dat.leavesExact; rw [liveAt2_5 t], after2_5]
        rw [show (dat2 V c).leavesExact 6 t = owns (c : Thread nD τ) (ms2_6 t) fullShare ((dat2 V c).after 6 t) from by
          unfold Dat.leavesExact; rw [liveAt2_6 t], after2_6]
        rw [show (dat2 V c).leavesExact 7 t = owns (c : Thread nD τ) (ms2_7 t) fullShare ((dat2 V c).after 7 t) from by
          unfold Dat.leavesExact; rw [liveAt2_7 t], after2_7]
        rw [show (dat2 V c).leavesExact 8 t = owns (c : Thread nD τ) (ms2_8 t) fullShare ((dat2 V c).after 8 t) from by
          unfold Dat.leavesExact; rw [liveAt2_8 t], after2_8]
        rw [Dat.leavesExact_idle (dat2 V c) 9 t (idleAt2_9_A t ((hcond2_0 t).mpr h0) (fun h => h1 ((hcond2_1 t).mp h))) (noFlush2_9_A t ((hcond2_0 t).mpr h0) (fun h => h1 ((hcond2_1 t).mp h)))]
        rw [outsAt2_A V c t h0 h1]
        unfold sout2_A_0 sout2_A_1 sout2_A_2; (try dsimp only)
        by_cases hz : t.val = 0
        ·
          rw [PhiS2_castSucc V c t, PhiS2_zero V c _ _ hz, PhiA2_eq]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun2_A c (grid2.coords t) _ _ _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover2_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover2_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover2_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
        ·
          rw [PhiS2_castSucc V c t, PhiS2_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun2_A c (grid2.coords t) _ _ _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexists _; iexact HS0
          isplitl [HS1]; · iexists _; iexact HS1
          isplitl [HS2]; · iexists _; iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover2_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover2_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover2_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
  · by_cases h1 : t.val % 32 = 31
    ·
        rw [show (dat2 V c).leavesExact 0 t = owns (c : Thread nD τ) (ms2_0 t) fullShare ((dat2 V c).after 0 t) from by
          unfold Dat.leavesExact; rw [liveAt2_0 t], after2_0]
        rw [show (dat2 V c).leavesExact 1 t = owns (c : Thread nD τ) (ms2_1 t) fullShare ((dat2 V c).after 1 t) from by
          unfold Dat.leavesExact; rw [liveAt2_1 t], after2_1]
        rw [show (dat2 V c).leavesExact 2 t = owns (c : Thread nD τ) (ms2_2 t) fullShare ((dat2 V c).after 2 t) from by
          unfold Dat.leavesExact; rw [liveAt2_2 t], after2_2]
        rw [show (dat2 V c).leavesExact 3 t = owns (c : Thread nD τ) (ms2_3 t) fullShare ((dat2 V c).after 3 t) from by
          unfold Dat.leavesExact; rw [liveAt2_3 t], after2_3]
        rw [show (dat2 V c).leavesExact 4 t = owns (c : Thread nD τ) (ms2_4 t) fullShare ((dat2 V c).after 4 t) from by
          unfold Dat.leavesExact; rw [liveAt2_4 t], after2_4]
        rw [show (dat2 V c).leavesExact 5 t = owns (c : Thread nD τ) (ms2_5 t) fullShare ((dat2 V c).after 5 t) from by
          unfold Dat.leavesExact; rw [liveAt2_5 t], after2_5]
        rw [show (dat2 V c).leavesExact 6 t = owns (c : Thread nD τ) (ms2_6 t) fullShare ((dat2 V c).after 6 t) from by
          unfold Dat.leavesExact; rw [liveAt2_6 t], after2_6]
        rw [show (dat2 V c).leavesExact 7 t = owns (c : Thread nD τ) (ms2_7 t) fullShare ((dat2 V c).after 7 t) from by
          unfold Dat.leavesExact; rw [liveAt2_7 t], after2_7]
        rw [show (dat2 V c).leavesExact 8 t = owns (c : Thread nD τ) (ms2_8 t) fullShare ((dat2 V c).after 8 t) from by
          unfold Dat.leavesExact; rw [liveAt2_8 t], after2_8]
        rw [show (dat2 V c).leavesExact 9 t = owns (c : Thread nD τ) (ms2_9 t) fullShare ((dat2 V c).after 9 t) from by
          unfold Dat.leavesExact; rw [liveAt2_9_C t (fun h => h0 ((hcond2_0 t).mp h)) ((hcond2_1 t).mpr h1)], after2_9]
        rw [outsAt2_C V c t h0 h1]
        unfold out2_C_9 sout2_C_0 sout2_C_1 sout2_C_2; (try dsimp only)
        by_cases hz : t.val = 0
        · exfalso; omega
        ·
          rw [PhiS2_castSucc V c t, PhiS2_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun2_C c (grid2.coords t) _ _ _ _ _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [HS0]; · iexact HS0
          isplitl [HS1]; · iexact HS1
          isplitl [HS2]; · iexact HS2
          iintro ⟨H0, H1, H2, H3, H4, H5, H6, H7, H8, ⟨%e9, H9⟩, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover2_C_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover2_C_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          unfold owns; iexists _; isplitr
          swap; · iexact H9
          ipureintro; exact View.read_writes_of_cover _ _ _ _ _ (cover2_C_9 c _ _ _ _ _ _ _ _ _ _ _ _ _ _ _ _ _ _ _ _ _ _ _ _ _ _ _ _ _ _ _ _ _ _ _ _ _ _ _ _ _)
    ·
        rw [show (dat2 V c).leavesExact 0 t = owns (c : Thread nD τ) (ms2_0 t) fullShare ((dat2 V c).after 0 t) from by
          unfold Dat.leavesExact; rw [liveAt2_0 t], after2_0]
        rw [show (dat2 V c).leavesExact 1 t = owns (c : Thread nD τ) (ms2_1 t) fullShare ((dat2 V c).after 1 t) from by
          unfold Dat.leavesExact; rw [liveAt2_1 t], after2_1]
        rw [show (dat2 V c).leavesExact 2 t = owns (c : Thread nD τ) (ms2_2 t) fullShare ((dat2 V c).after 2 t) from by
          unfold Dat.leavesExact; rw [liveAt2_2 t], after2_2]
        rw [show (dat2 V c).leavesExact 3 t = owns (c : Thread nD τ) (ms2_3 t) fullShare ((dat2 V c).after 3 t) from by
          unfold Dat.leavesExact; rw [liveAt2_3 t], after2_3]
        rw [show (dat2 V c).leavesExact 4 t = owns (c : Thread nD τ) (ms2_4 t) fullShare ((dat2 V c).after 4 t) from by
          unfold Dat.leavesExact; rw [liveAt2_4 t], after2_4]
        rw [show (dat2 V c).leavesExact 5 t = owns (c : Thread nD τ) (ms2_5 t) fullShare ((dat2 V c).after 5 t) from by
          unfold Dat.leavesExact; rw [liveAt2_5 t], after2_5]
        rw [show (dat2 V c).leavesExact 6 t = owns (c : Thread nD τ) (ms2_6 t) fullShare ((dat2 V c).after 6 t) from by
          unfold Dat.leavesExact; rw [liveAt2_6 t], after2_6]
        rw [show (dat2 V c).leavesExact 7 t = owns (c : Thread nD τ) (ms2_7 t) fullShare ((dat2 V c).after 7 t) from by
          unfold Dat.leavesExact; rw [liveAt2_7 t], after2_7]
        rw [show (dat2 V c).leavesExact 8 t = owns (c : Thread nD τ) (ms2_8 t) fullShare ((dat2 V c).after 8 t) from by
          unfold Dat.leavesExact; rw [liveAt2_8 t], after2_8]
        rw [Dat.leavesExact_idle (dat2 V c) 9 t (idleAt2_9_B t (fun h => h0 ((hcond2_0 t).mp h)) (fun h => h1 ((hcond2_1 t).mp h))) (noFlush2_9_B t (fun h => h0 ((hcond2_0 t).mp h)) (fun h => h1 ((hcond2_1 t).mp h)))]
        rw [outsAt2_B V c t h0 h1]
        unfold sout2_B_0 sout2_B_1 sout2_B_2; (try dsimp only)
        by_cases hz : t.val = 0
        · exfalso; omega
        ·
          rw [PhiS2_castSucc V c t, PhiS2_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun2_B c (grid2.coords t) _ _ _ _ _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) _ _ _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover2_B_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover2_B_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives `ΦA` back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1, HS2⟩, Hr⟩, Hg⟩
  isplitl [HS0 HS1 HS2 Hr]
  · isplitl [HS0 HS1 HS2]
    · isplitl [HS0]
      · iexists _; iexact HS0
      isplitl [HS1]
      · iexists _; iexact HS1
      iexists _; iexact HS2
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Hand

end
-- ==== Proof.IdealR3Runs.lean ====
/- Region 3 (custom_call 3, `cc3__kernel2_iter_body`, grid 2 x 32): what the three runs of its body share — the body's two
   branch conditions in closed form over the grid, where output window 9 is idle and not written back, the staging and
   scratch memrefs the body is called with, and the region's invariant with the three scratch operands opened. -/
import proofs.«162179_j58609123721967_2_alg».proof.Proof.Gen.KernelIdeal.Launch
import proofs.«162179_j58609123721967_2_alg».proof.Proof.Gen.KernelIdeal.Skeleton
import proofs.«162179_j58609123721967_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the step index `k = i 1` is zero), from the grid coordinates: the
    skeleton's scalar chain substituted. -/
abbrev cond3_0 (i : grid3.Coords) : Prop := (Scalar.cmpi .ne (Scalar.extui (Scalar.cmpi .eq (BitVec.ofNat 32 (i 1).val) 0#32)) 0#32) = 1#1
/-- It holds at the first step of each row of 32 — decided over the grid. -/
theorem hcond3_0 : ∀ t : Fin cfg3.N, cond3_0 (grid3.coords t) ↔ t.val % 32 = 0 :=
  (by decide +kernel : ∀ t : Fin grid3.N, cond3_0 (grid3.coords t) ↔ t.val % 32 = 0)

/-- The condition of the body's last `scf.if` (the step index is 31). -/
abbrev cond3_1 (i : grid3.Coords) : Prop := k3_cond2 i = 1#1
/-- It holds at the last step of each row of 32 — decided over the grid. -/
theorem hcond3_1 : ∀ t : Fin cfg3.N, cond3_1 (grid3.coords t) ↔ t.val % 32 = 31 :=
  (by decide +kernel : ∀ t : Fin grid3.N, cond3_1 (grid3.coords t) ↔ t.val % 32 = 31)

/-! ## Where the windows are idle (the configuration's table `Cfg.idle`) -/

/-- Window 0 is never idle (an input). -/
theorem liveAt3_0 : ∀ t : Fin cfg3.N, cfg3.idle 0 (grid3.coords t) = false := by decide +kernel
/-- Window 1 is never idle (an input). -/
theorem liveAt3_1 : ∀ t : Fin cfg3.N, cfg3.idle 1 (grid3.coords t) = false := by decide +kernel
/-- Window 2 is never idle (an input). -/
theorem liveAt3_2 : ∀ t : Fin cfg3.N, cfg3.idle 2 (grid3.coords t) = false := by decide +kernel
/-- Window 3 is never idle (an input). -/
theorem liveAt3_3 : ∀ t : Fin cfg3.N, cfg3.idle 3 (grid3.coords t) = false := by decide +kernel
/-- Window 4 is never idle (an input). -/
theorem liveAt3_4 : ∀ t : Fin cfg3.N, cfg3.idle 4 (grid3.coords t) = false := by decide +kernel
/-- Window 5 is never idle (an input). -/
theorem liveAt3_5 : ∀ t : Fin cfg3.N, cfg3.idle 5 (grid3.coords t) = false := by decide +kernel
/-- Window 6 is never idle (an input). -/
theorem liveAt3_6 : ∀ t : Fin cfg3.N, cfg3.idle 6 (grid3.coords t) = false := by decide +kernel
/-- Window 7 is never idle (an input). -/
theorem liveAt3_7 : ∀ t : Fin cfg3.N, cfg3.idle 7 (grid3.coords t) = false := by decide +kernel
/-- Window 8 is never idle (an input). -/
theorem liveAt3_8 : ∀ t : Fin cfg3.N, cfg3.idle 8 (grid3.coords t) = false := by decide +kernel
/-- At the first step of a row the configuration calls output 9 idle: the body stores nothing into it there. -/
theorem idleAt3_9_A : ∀ t : Fin cfg3.N, cond3_0 (grid3.coords t) → ¬cond3_1 (grid3.coords t) → cfg3.idle 9 (grid3.coords t) = true := by decide +kernel
/-- At the first step of a row the pipeline does not write output 9's block back. -/
theorem noFlush3_9_A : ∀ t : Fin cfg3.N, cond3_0 (grid3.coords t) → ¬cond3_1 (grid3.coords t) → (cfg3.win 9).flush t = false := by decide +kernel
/-- At a middle step the configuration calls output 9 idle. -/
theorem idleAt3_9_B : ∀ t : Fin cfg3.N, ¬cond3_0 (grid3.coords t) → ¬cond3_1 (grid3.coords t) → cfg3.idle 9 (grid3.coords t) = true := by decide +kernel
/-- At a middle step the pipeline does not write output 9's block back. -/
theorem noFlush3_9_B : ∀ t : Fin cfg3.N, ¬cond3_0 (grid3.coords t) → ¬cond3_1 (grid3.coords t) → (cfg3.win 9).flush t = false := by decide +kernel
/-- At the last step of a row the configuration calls output 9 live: the body stores into it. -/
theorem liveAt3_9_C : ∀ t : Fin cfg3.N, ¬cond3_0 (grid3.coords t) → cond3_1 (grid3.coords t) → cfg3.idle 9 (grid3.coords t) = false := by decide +kernel

/-! ## The memrefs the body is called with -/

/-- One staging buffer of output window 9, through which its contents are stated (the choice does not matter). -/
abbrev VO3_9 : View sig .tc .vmem S21x4096 .f32 := (Memref.whole cc3_stg9_0 : Memref sig .tc .vmem S21x4096 .f32).view
/-- Each window's current staging memref at point `t`, spelled as the pipeline passes it (`bodyAt3`), and its wholeness. -/
abbrev ms3_0 (t : Fin cfg3.N) : Memref sig .tc .vmem S21x8192 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S21x4096 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x4096 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x4096 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x4096 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x4096 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S21x21 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S21x21 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S21x21 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S21x4096 .f32 := win3_9.stage (cfg3.slots t 9)
abbrev hs3_9 (t : Fin cfg3.N) : (ms3_9 t).IsWhole := hstage3_9 ((cfg3.slots t 9).cast nbuf3_9)
/-- The scratch operands: whole scoped buffers of the kernel's own, passed beside the windows. -/
abbrev scM3_0 : Memref sig .tc .vmem S21x8192 .f32 := Memref.whole cc3_scratch0
abbrev scM3_1 : Memref sig .tc .vmem S21x4096 .f32 := Memref.whole cc3_scratch1
abbrev scM3_2 : Memref sig .tc .vmem S21x4096 .f32 := Memref.whole cc3_scratch2
/-- The scratch the kernel carries between points, as views: what each holds is stated through its view. -/
abbrev VS3_0 : View sig .tc .vmem S21x8192 .f32 := scM3_0.view
abbrev VS3_1 : View sig .tc .vmem S21x4096 .f32 := scM3_1.view
abbrev VS3_2 : View sig .tc .vmem S21x4096 .f32 := scM3_2.view

/-! ## The region's invariant with the scratch operands opened -/

/-- The scoped buffers of the core that are neither a staging buffer of this region nor one of its three scratch
    operands, each at some contents: carried unopened through every point. -/
abbrev restBut3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- The region's invariant with the scratch operands as memrefs owned at some contents: what the body obligation
    hands the run and takes back. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d)) ∗ restBut3 c) ∗ (∃ r, prngReg c r)) := by
  unfold Pipeline.ΦA; rw [scopedRest3_split]; simp only [scM3_0, scM3_1, scM3_2, owns_whole]; try rfl

end Cert.KernelIdeal.Hand

end
-- ==== Proof.IdealR3RunA.lean ====
/- Region 3 (custom_call 3, `cc3__kernel2_iter_body`): the whole-body run of the kernel at the first step of a row of 32 (k = 0). -/
import proofs.«162179_j58609123721967_2_alg».proof.Proof.IdealR3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the first step of a row (the first `scf.if` taken, the last not taken), WITH the proof that on whole memrefs — the nine inputs' at their contents `x·`,
    output 9's, into which this case stores nothing, at contents `xi9` handed back untouched, the three scratch buffers at anything (this case stores each of them whole before it reads it back) —
    the body runs to the continuation holding the inputs' as they were, each scratch buffer with its pieces written (`LS·`).
    The printed body is its skeleton; the run executes it, each `scf.if` decided by `hc0`, `hc1`; the piece lists are the
    witness the run finds. -/
noncomputable def kernelRun3_A (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc3__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc3__kernel2_iter_body_eq_skeleton]; unfold cc3__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.KernelIdeal.Hand

end
-- ==== Proof.IdealR3RunB.lean ====
/- Region 3 (custom_call 3, `cc3__kernel2_iter_body`): the whole-body run of the kernel at a middle step of a row (0 < k < 31). -/
import proofs.«162179_j58609123721967_2_alg».proof.Proof.IdealR3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    a middle step of a row (neither `scf.if` taken), WITH the proof that on whole memrefs — the nine inputs' at their contents `x·`,
    output 9's, into which this case stores nothing, at contents `xi9` handed back untouched, the three scratch buffers at the contents the step before left (`xs·`) —
    the body runs to the continuation holding the inputs' as they were, scratch 0, which it only reads, as it was, scratch 1 and 2 with their pieces written (`LS1`, `LS2`).
    The printed body is its skeleton; the run executes it, each `scf.if` decided by `hc0`, `hc1`; the piece lists are the
    witness the run finds. -/
noncomputable def kernelRun3_B (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc3__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, fun xi9 E K => ?run⟩
  case run =>
    simp only [cc3__kernel2_iter_body_eq_skeleton]; unfold cc3__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    isplitl [HS1]; · iexists _; iexact HS1
    iexists _; iexact HS2

end Cert.KernelIdeal.Hand

end
-- ==== Proof.IdealR3RunC.lean ====
/- Region 3 (custom_call 3, `cc3__kernel2_iter_body`): the whole-body run of the kernel at the last step of a row (k = 31). -/
import proofs.«162179_j58609123721967_2_alg».proof.Proof.IdealR3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the last step of a row (the first `scf.if` not taken, the last taken), WITH the proof that on whole memrefs — the nine inputs' at their contents `x·`,
    output 9's at anything, the three scratch buffers at the contents the step before left (`xs·`) —
    the body runs to the continuation holding the inputs' as they were, scratch 0 as it was, scratch 1 and 2 with their pieces written, output 9's buffer with its pieces written (`L9`).
    The printed body is its skeleton; the run executes it, each `scf.if` decided by `hc0`, `hc1`; the piece lists are the
    witness the run finds. -/
noncomputable def kernelRun3_C (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc3__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, ?_, fun E K => ?run⟩
  case run =>
    simp only [cc3__kernel2_iter_body_eq_skeleton]; unfold cc3__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _; isplitr; · ipureintro; exact harg12.read_unread _
      iexact HS0
    isplitl [HS1]; · iexists _; iexact HS1
    iexists _; iexact HS2

end Cert.KernelIdeal.Hand

end
-- ==== Proof.IdealR3Frame.lean ====
/- Region 3 (custom_call 3, `cc3__kernel2_iter_body`, grid 2 x 32), at the entry contents `V`: what output 9 and the three
   scratch buffers the kernel carries between points hold per case and point by point, the pipeline's proof data, the
   body obligation, and the invariant's two ends. -/
import proofs.«162179_j58609123721967_2_alg».proof.Proof.IdealR3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data whose
    array is `V`'s (`hA`) and whose body leaves the block in place (`hafter`): unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data whose
    array is `V`'s (`hA`) and whose body leaves the block in place (`hafter`): unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data whose
    array is `V`'s (`hA`) and whose body leaves the block in place (`hafter`): unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data whose
    array is `V`'s (`hA`) and whose body leaves the block in place (`hafter`): unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data whose
    array is `V`'s (`hA`) and whose body leaves the block in place (`hafter`): unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof data whose
    array is `V`'s (`hA`) and whose body leaves the block in place (`hafter`): unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof data whose
    array is `V`'s (`hA`) and whose body leaves the block in place (`hafter`): unfetched, the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not, for any proof data whose
    array is `V`'s (`hA`) and whose body leaves the block in place (`hafter`): unfetched, the block index has not moved. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not, for any proof data whose
    array is `V`'s (`hA`) and whose body leaves the block in place (`hafter`): unfetched, the block index has not moved. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves in output 9 and in the carried scratch -/

/-- At the first step of a row the body stores nothing into output 9 (the window is idle there and not written back): no pieces —
    a placeholder (junk read back) that nothing consults, since at these points the window is neither written back nor
    read at the next point. -/
def out3_A_9 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VO3_9.read (Elt F) (VO3_9.writes (Elt F) VO3_9.junk (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

/-- At the first step of a row the body's pieces for scratch 0, which the kernel carries between points, cover it: each is a store of the whole buffer. -/
theorem scover3_A_0 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x8192.Idx) :
    ∃ pc ∈ (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S21x8192.size (by sl_kernel_rfl) y

/-- What the first step of a row leaves in scratch 0: its pieces read back over junk. -/
def sout3_A_0 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x8192 .f32 :=
  VS3_0.read (Elt F) (VS3_0.writes (Elt F) VS3_0.junk (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

/-- At the first step of a row the body's pieces for scratch 1, which the kernel carries between points, cover it: each is a store of the whole buffer. -/
theorem scover3_A_1 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S21x4096.size (by sl_kernel_rfl) y

/-- What the first step of a row leaves in scratch 1: its pieces read back over junk. -/
def sout3_A_1 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS3_1.read (Elt F) (VS3_1.writes (Elt F) VS3_1.junk (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)

/-- At the first step of a row the body's pieces for scratch 2, which the kernel carries between points, cover it: each is a store of the whole buffer. -/
theorem scover3_A_2 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1 S21x4096.size (by sl_kernel_rfl) y

/-- What the first step of a row leaves in scratch 2: its pieces read back over junk. -/
def sout3_A_2 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS3_2.read (Elt F) (VS3_2.writes (Elt F) VS3_2.junk (kernelRun3_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1)

/-- At a middle step of a row the body stores nothing into output 9 (the window is idle there and not written back): no pieces —
    a placeholder (junk read back) that nothing consults, since at these points the window is neither written back nor
    read at the next point. -/
def out3_B_9 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO3_9.read (Elt F) (VO3_9.writes (Elt F) VO3_9.junk (kernelRun3_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At a middle step of a row the body stores nothing into scratch 0: it holds what the step before left. -/
def sout3_B_0 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At a middle step of a row the body's pieces for scratch 1, which the kernel carries between points, cover it: each is a store of the whole buffer. -/
theorem scover3_B_1 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun3_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What a middle step of a row leaves in scratch 1: its pieces read back over junk. -/
def sout3_B_1 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS3_1.read (Elt F) (VS3_1.writes (Elt F) VS3_1.junk (kernelRun3_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At a middle step of a row the body's pieces for scratch 2, which the kernel carries between points, cover it: each is a store of the whole buffer. -/
theorem scover3_B_2 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun3_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What a middle step of a row leaves in scratch 2: its pieces read back over junk. -/
def sout3_B_2 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : ¬cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS3_2.read (Elt F) (VS3_2.writes (Elt F) VS3_2.junk (kernelRun3_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-- At the last step of a row the body's pieces for output 9 tile its block (one store of the whole block), so they cover it. -/
theorem cover3_C_9 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1 S21x4096.size (by sl_kernel_rfl) y

/-- What the last step of a row leaves in output 9's staging buffer: its pieces read back over junk. -/
def out3_C_9 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO3_9.read (Elt F) (VO3_9.writes (Elt F) VO3_9.junk (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At the last step of a row the body stores nothing into scratch 0: it holds what the step before left. -/
def sout3_C_0 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At the last step of a row the body's pieces for scratch 1, which the kernel carries between points, cover it: each is a store of the whole buffer. -/
theorem scover3_C_1 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What the last step of a row leaves in scratch 1: its pieces read back over junk. -/
def sout3_C_1 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS3_1.read (Elt F) (VS3_1.writes (Elt F) VS3_1.junk (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At the last step of a row the body's pieces for scratch 2, which the kernel carries between points, cover it: each is a store of the whole buffer. -/
theorem scover3_C_2 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What the last step of a row leaves in scratch 2: its pieces read back over junk. -/
def sout3_C_2 (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS3_2.read (Elt F) (VS3_2.writes (Elt F) VS3_2.junk (kernelRun3_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-! ## What output 9 and the carried scratch hold after each point -/

/-- THE ACCUMULATION. What output 9's staging buffer and the three scratch buffers the kernel carries between points hold
    after the body at position `n` (a tuple: output 9, then scratch 0, 1, 2): the case the closed forms select at `n`, run at
    the point's memrefs and input blocks, a scratch it reads before storing at what this leaves at `n - 1`. Both conditions
    at once is no case (`False.elim`). -/
def outsAt3 (c : Dev nD) : (n : ℕ) → n < cfg3.N → Vec F S21x4096 .f32 × Vec F S21x8192 .f32 × Vec F S21x4096 .f32 × Vec F S21x4096 .f32
  | 0, hn => (out3_A_9 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩), sout3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩))
  | n + 1, hn =>
    if h0 : (n + 1) % 32 = 0 then
      if h1 : (n + 1) % 32 = 31 then
        False.elim (by omega)
      else
        (out3_A_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩), sout3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩))
    else
      if h1 : (n + 1) % 32 = 31 then
        (out3_C_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.1 (outsAt3 c n (Nat.lt_of_succ_lt hn)).2.2.1 (outsAt3 c n (Nat.lt_of_succ_lt hn)).2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.1 (outsAt3 c n (Nat.lt_of_succ_lt hn)).2.2.1 (outsAt3 c n (Nat.lt_of_succ_lt hn)).2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.1 (outsAt3 c n (Nat.lt_of_succ_lt hn)).2.2.1 (outsAt3 c n (Nat.lt_of_succ_lt hn)).2.2.2, sout3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.1 (outsAt3 c n (Nat.lt_of_succ_lt hn)).2.2.1 (outsAt3 c n (Nat.lt_of_succ_lt hn)).2.2.2)
      else
        (out3_B_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.1 (outsAt3 c n (Nat.lt_of_succ_lt hn)).2.2.1 (outsAt3 c n (Nat.lt_of_succ_lt hn)).2.2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.1 (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.1 (outsAt3 c n (Nat.lt_of_succ_lt hn)).2.2.1 (outsAt3 c n (Nat.lt_of_succ_lt hn)).2.2.2, sout3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.1 (outsAt3 c n (Nat.lt_of_succ_lt hn)).2.2.1 (outsAt3 c n (Nat.lt_of_succ_lt hn)).2.2.2)

/-- `outsAt3` at the first step of a row: that case's contents. -/
theorem outsAt3_A (c : Dev nD) (t : Fin cfg3.N) (h0 : t.val % 32 = 0) (h1 : ¬t.val % 32 = 31) :
    outsAt3 V c t.val t.isLt = (out3_A_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t), sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t), sout3_A_2 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t)) := by
  obtain ⟨n, hn⟩ := t
  cases n with
  | zero => exact rfl
  | succ n => exact (dif_pos h0).trans ((dif_neg h1).trans rfl)

/-- `outsAt3` at a middle step of a row: that case's contents, over what the point before left. -/
theorem outsAt3_B (c : Dev nD) (t : Fin cfg3.N) (h0 : ¬t.val % 32 = 0) (h1 : ¬t.val % 32 = 31) :
    outsAt3 V c t.val t.isLt = (out3_B_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_2 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at the last step of a row: that case's contents, over what the point before left. -/
theorem outsAt3_C (c : Dev nD) (t : Fin cfg3.N) (h0 : ¬t.val % 32 = 0) (h1 : t.val % 32 = 31) :
    outsAt3 V c t.val t.isLt = (out3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_2 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scratch at anything); afterwards
    the same with each of the three carried scratch buffers at what the point before left in it (`outsAt3`'s scratch
    components), the other scoped buffers unopened, and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ restBut3 c) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the carried scratch at that point's contents. -/
theorem PhiS3_succ (c : Dev nD) (n : ℕ) (hn : n < cfg3.N) :
    PhiS3 V c (n + 1) hn = iprop(iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ restBut3 c) ∗ (∃ r, prngReg c r)) := rfl

/-- Before a point that is not the first: the carried scratch at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.1) ∗ owns (c : Thread nD τ) scM3_1 fullShare ((outsAt3 V c (n - 1) (by omega)).2.2.1) ∗ owns (c : Thread nD τ) scM3_2 fullShare ((outsAt3 V c (n - 1) (by omega)).2.2.2)) ∗ restBut3 c) ∗ (∃ r, prngReg c r)) := by
  cases n with
  | zero => exact absurd rfl hz
  | succ n => rfl

/-! ## The pipeline's proof data -/

/-- The proof data of pipeline 3 on core `c`: the arrays as the region finds them (`V`); after the body at point `t` each
    input's buffer at its block and output 9's at `outsAt3`'s first component; the invariant `PhiS3`; nothing owed; full
    shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => (outsAt3 V c t.val t.isLt).1
  Φ t := PhiS3 V c t.val (Nat.le_of_lt_succ t.isLt)
  q _ := fullShare
  owed _ := 0

/-- The proof data's arrays are the region-entry contents (the definition projected, `V` never unfolded). -/
theorem A_eq3 (c : Dev nD) (w : Fin cfg3.W) : (dat3 V c).A w = V c (Pipeline.arrRef spec3 w) := by
  dsimp only [dat3]

/-- The invariant at a point's start (the proof data at `t.castSucc`), restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t)

set_option maxHeartbeats 4800000 in
/-- The body at any point: the inputs' memrefs hold their blocks (`before3_w`); the closed forms say which of the three cases
    the point is in; the invariant hands the body the three carried scratch buffers at what the point before left (at
    anything at the very first point; at the first step of the second row the case takes them at anything too), and takes
    them back at this point's contents (the stores cover each buffer a case stores into; a buffer a case only reads comes
    back as it was); output 9 is handed back untouched where it is idle, and holds the case's one store at the last step
    of a row; the other scoped buffers, the generator register and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 32 = 0
  · by_cases h1 : t.val % 32 = 31
    · exfalso; omega
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [show (dat3 V c).leavesExact 3 t = owns (c : Thread nD τ) (ms3_3 t) fullShare ((dat3 V c).after 3 t) from by
          unfold Dat.leavesExact; rw [liveAt3_3 t], after3_3]
        rw [show (dat3 V c).leavesExact 4 t = owns (c : Thread nD τ) (ms3_4 t) fullShare ((dat3 V c).after 4 t) from by
          unfold Dat.leavesExact; rw [liveAt3_4 t], after3_4]
        rw [show (dat3 V c).leavesExact 5 t = owns (c : Thread nD τ) (ms3_5 t) fullShare ((dat3 V c).after 5 t) from by
          unfold Dat.leavesExact; rw [liveAt3_5 t], after3_5]
        rw [show (dat3 V c).leavesExact 6 t = owns (c : Thread nD τ) (ms3_6 t) fullShare ((dat3 V c).after 6 t) from by
          unfold Dat.leavesExact; rw [liveAt3_6 t], after3_6]
        rw [show (dat3 V c).leavesExact 7 t = owns (c : Thread nD τ) (ms3_7 t) fullShare ((dat3 V c).after 7 t) from by
          unfold Dat.leavesExact; rw [liveAt3_7 t], after3_7]
        rw [show (dat3 V c).leavesExact 8 t = owns (c : Thread nD τ) (ms3_8 t) fullShare ((dat3 V c).after 8 t) from by
          unfold Dat.leavesExact; rw [liveAt3_8 t], after3_8]
        rw [Dat.leavesExact_idle (dat3 V c) 9 t (idleAt3_9_A t ((hcond3_0 t).mpr h0) (fun h => h1 ((hcond3_1 t).mp h))) (noFlush3_9_A t ((hcond3_0 t).mpr h0) (fun h => h1 ((hcond3_1 t).mp h)))]
        rw [outsAt3_A V c t h0 h1]
        unfold sout3_A_0 sout3_A_1 sout3_A_2; (try dsimp only)
        by_cases hz : t.val = 0
        ·
          rw [PhiS3_castSucc V c t, PhiS3_zero V c _ _ hz, PhiA3_eq]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun3_A c (grid3.coords t) _ _ _ _ _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover3_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover3_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover3_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
        ·
          rw [PhiS3_castSucc V c t, PhiS3_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun3_A c (grid3.coords t) _ _ _ _ _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexists _; iexact HS0
          isplitl [HS1]; · iexists _; iexact HS1
          isplitl [HS2]; · iexists _; iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover3_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover3_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover3_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
  · by_cases h1 : t.val % 32 = 31
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [show (dat3 V c).leavesExact 3 t = owns (c : Thread nD τ) (ms3_3 t) fullShare ((dat3 V c).after 3 t) from by
          unfold Dat.leavesExact; rw [liveAt3_3 t], after3_3]
        rw [show (dat3 V c).leavesExact 4 t = owns (c : Thread nD τ) (ms3_4 t) fullShare ((dat3 V c).after 4 t) from by
          unfold Dat.leavesExact; rw [liveAt3_4 t], after3_4]
        rw [show (dat3 V c).leavesExact 5 t = owns (c : Thread nD τ) (ms3_5 t) fullShare ((dat3 V c).after 5 t) from by
          unfold Dat.leavesExact; rw [liveAt3_5 t], after3_5]
        rw [show (dat3 V c).leavesExact 6 t = owns (c : Thread nD τ) (ms3_6 t) fullShare ((dat3 V c).after 6 t) from by
          unfold Dat.leavesExact; rw [liveAt3_6 t], after3_6]
        rw [show (dat3 V c).leavesExact 7 t = owns (c : Thread nD τ) (ms3_7 t) fullShare ((dat3 V c).after 7 t) from by
          unfold Dat.leavesExact; rw [liveAt3_7 t], after3_7]
        rw [show (dat3 V c).leavesExact 8 t = owns (c : Thread nD τ) (ms3_8 t) fullShare ((dat3 V c).after 8 t) from by
          unfold Dat.leavesExact; rw [liveAt3_8 t], after3_8]
        rw [show (dat3 V c).leavesExact 9 t = owns (c : Thread nD τ) (ms3_9 t) fullShare ((dat3 V c).after 9 t) from by
          unfold Dat.leavesExact; rw [liveAt3_9_C t (fun h => h0 ((hcond3_0 t).mp h)) ((hcond3_1 t).mpr h1)], after3_9]
        rw [outsAt3_C V c t h0 h1]
        unfold out3_C_9 sout3_C_0 sout3_C_1 sout3_C_2; (try dsimp only)
        by_cases hz : t.val = 0
        · exfalso; omega
        ·
          rw [PhiS3_castSucc V c t, PhiS3_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun3_C c (grid3.coords t) _ _ _ _ _ _ _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [HS0]; · iexact HS0
          isplitl [HS1]; · iexact HS1
          isplitl [HS2]; · iexact HS2
          iintro ⟨H0, H1, H2, H3, H4, H5, H6, H7, H8, ⟨%e9, H9⟩, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover3_C_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover3_C_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          unfold owns; iexists _; isplitr
          swap; · iexact H9
          ipureintro; exact View.read_writes_of_cover _ _ _ _ _ (cover3_C_9 c _ _ _ _ _ _ _ _ _ _ _ _ _ _ _ _ _ _ _ _ _ _ _ _ _ _ _ _ _ _ _ _ _ _ _ _ _ _ _ _ _)
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [show (dat3 V c).leavesExact 3 t = owns (c : Thread nD τ) (ms3_3 t) fullShare ((dat3 V c).after 3 t) from by
          unfold Dat.leavesExact; rw [liveAt3_3 t], after3_3]
        rw [show (dat3 V c).leavesExact 4 t = owns (c : Thread nD τ) (ms3_4 t) fullShare ((dat3 V c).after 4 t) from by
          unfold Dat.leavesExact; rw [liveAt3_4 t], after3_4]
        rw [show (dat3 V c).leavesExact 5 t = owns (c : Thread nD τ) (ms3_5 t) fullShare ((dat3 V c).after 5 t) from by
          unfold Dat.leavesExact; rw [liveAt3_5 t], after3_5]
        rw [show (dat3 V c).leavesExact 6 t = owns (c : Thread nD τ) (ms3_6 t) fullShare ((dat3 V c).after 6 t) from by
          unfold Dat.leavesExact; rw [liveAt3_6 t], after3_6]
        rw [show (dat3 V c).leavesExact 7 t = owns (c : Thread nD τ) (ms3_7 t) fullShare ((dat3 V c).after 7 t) from by
          unfold Dat.leavesExact; rw [liveAt3_7 t], after3_7]
        rw [show (dat3 V c).leavesExact 8 t = owns (c : Thread nD τ) (ms3_8 t) fullShare ((dat3 V c).after 8 t) from by
          unfold Dat.leavesExact; rw [liveAt3_8 t], after3_8]
        rw [Dat.leavesExact_idle (dat3 V c) 9 t (idleAt3_9_B t (fun h => h0 ((hcond3_0 t).mp h)) (fun h => h1 ((hcond3_1 t).mp h))) (noFlush3_9_B t (fun h => h0 ((hcond3_0 t).mp h)) (fun h => h1 ((hcond3_1 t).mp h)))]
        rw [outsAt3_B V c t h0 h1]
        unfold sout3_B_0 sout3_B_1 sout3_B_2; (try dsimp only)
        by_cases hz : t.val = 0
        · exfalso; omega
        ·
          rw [PhiS3_castSucc V c t, PhiS3_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun3_B c (grid3.coords t) _ _ _ _ _ _ _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) _ _ _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover3_B_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover3_B_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region (`ΦA`) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives `ΦA` back: the carried scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1, HS2⟩, Hr⟩, Hg⟩
  isplitl [HS0 HS1 HS2 Hr]
  · isplitl [HS0 HS1 HS2]
    · isplitl [HS0]
      · iexists _; iexact HS0
      isplitl [HS1]
      · iexists _; iexact HS1
      iexists _; iexact HS2
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Cert.KernelIdeal.Hand

end
-- ==== Proof.IdealR4Runs.lean ====
/- Region 4 (custom_call 4, `cc4__kernel2_iter_body`, grid 2 x 32): what the three runs of its body share — the body's two
   branch conditions in closed form over the grid, where output window 9 is idle and not written back, the staging and
   scratch memrefs the body is called with, and the region's invariant with the three scratch operands opened. -/
import proofs.«162179_j58609123721967_2_alg».proof.Proof.Gen.KernelIdeal.Launch
import proofs.«162179_j58609123721967_2_alg».proof.Proof.Gen.KernelIdeal.Skeleton
import proofs.«162179_j58609123721967_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the step index `k = i 1` is zero), from the grid coordinates: the
    skeleton's scalar chain substituted. -/
abbrev cond4_0 (i : grid4.Coords) : Prop := (Scalar.cmpi .ne (Scalar.extui (Scalar.cmpi .eq (BitVec.ofNat 32 (i 1).val) 0#32)) 0#32) = 1#1
/-- It holds at the first step of each row of 32 — decided over the grid. -/
theorem hcond4_0 : ∀ t : Fin cfg4.N, cond4_0 (grid4.coords t) ↔ t.val % 32 = 0 :=
  (by decide +kernel : ∀ t : Fin grid4.N, cond4_0 (grid4.coords t) ↔ t.val % 32 = 0)

/-- The condition of the body's last `scf.if` (the step index is 31). -/
abbrev cond4_1 (i : grid4.Coords) : Prop := k4_cond2 i = 1#1
/-- It holds at the last step of each row of 32 — decided over the grid. -/
theorem hcond4_1 : ∀ t : Fin cfg4.N, cond4_1 (grid4.coords t) ↔ t.val % 32 = 31 :=
  (by decide +kernel : ∀ t : Fin grid4.N, cond4_1 (grid4.coords t) ↔ t.val % 32 = 31)

/-! ## Where the windows are idle (the configuration's table `Cfg.idle`) -/

/-- Window 0 is never idle (an input). -/
theorem liveAt4_0 : ∀ t : Fin cfg4.N, cfg4.idle 0 (grid4.coords t) = false := by decide +kernel
/-- Window 1 is never idle (an input). -/
theorem liveAt4_1 : ∀ t : Fin cfg4.N, cfg4.idle 1 (grid4.coords t) = false := by decide +kernel
/-- Window 2 is never idle (an input). -/
theorem liveAt4_2 : ∀ t : Fin cfg4.N, cfg4.idle 2 (grid4.coords t) = false := by decide +kernel
/-- Window 3 is never idle (an input). -/
theorem liveAt4_3 : ∀ t : Fin cfg4.N, cfg4.idle 3 (grid4.coords t) = false := by decide +kernel
/-- Window 4 is never idle (an input). -/
theorem liveAt4_4 : ∀ t : Fin cfg4.N, cfg4.idle 4 (grid4.coords t) = false := by decide +kernel
/-- Window 5 is never idle (an input). -/
theorem liveAt4_5 : ∀ t : Fin cfg4.N, cfg4.idle 5 (grid4.coords t) = false := by decide +kernel
/-- Window 6 is never idle (an input). -/
theorem liveAt4_6 : ∀ t : Fin cfg4.N, cfg4.idle 6 (grid4.coords t) = false := by decide +kernel
/-- Window 7 is never idle (an input). -/
theorem liveAt4_7 : ∀ t : Fin cfg4.N, cfg4.idle 7 (grid4.coords t) = false := by decide +kernel
/-- Window 8 is never idle (an input). -/
theorem liveAt4_8 : ∀ t : Fin cfg4.N, cfg4.idle 8 (grid4.coords t) = false := by decide +kernel
/-- At the first step of a row the configuration calls output 9 idle: the body stores nothing into it there. -/
theorem idleAt4_9_A : ∀ t : Fin cfg4.N, cond4_0 (grid4.coords t) → ¬cond4_1 (grid4.coords t) → cfg4.idle 9 (grid4.coords t) = true := by decide +kernel
/-- At the first step of a row the pipeline does not write output 9's block back. -/
theorem noFlush4_9_A : ∀ t : Fin cfg4.N, cond4_0 (grid4.coords t) → ¬cond4_1 (grid4.coords t) → (cfg4.win 9).flush t = false := by decide +kernel
/-- At a middle step the configuration calls output 9 idle. -/
theorem idleAt4_9_B : ∀ t : Fin cfg4.N, ¬cond4_0 (grid4.coords t) → ¬cond4_1 (grid4.coords t) → cfg4.idle 9 (grid4.coords t) = true := by decide +kernel
/-- At a middle step the pipeline does not write output 9's block back. -/
theorem noFlush4_9_B : ∀ t : Fin cfg4.N, ¬cond4_0 (grid4.coords t) → ¬cond4_1 (grid4.coords t) → (cfg4.win 9).flush t = false := by decide +kernel
/-- At the last step of a row the configuration calls output 9 live: the body stores into it. -/
theorem liveAt4_9_C : ∀ t : Fin cfg4.N, ¬cond4_0 (grid4.coords t) → cond4_1 (grid4.coords t) → cfg4.idle 9 (grid4.coords t) = false := by decide +kernel

/-! ## The memrefs the body is called with -/

/-- One staging buffer of output window 9, through which its contents are stated (the choice does not matter). -/
abbrev VO4_9 : View sig .tc .vmem S21x4096 .f32 := (Memref.whole cc4_stg9_0 : Memref sig .tc .vmem S21x4096 .f32).view
/-- Each window's current staging memref at point `t`, spelled as the pipeline passes it (`bodyAt4`), and its wholeness. -/
abbrev ms4_0 (t : Fin cfg4.N) : Memref sig .tc .vmem S21x8192 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S21x4096 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S256x4096 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256x4096 .bf16 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x4096 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x4096 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S21x21 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S21x21 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S21x21 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S21x4096 .f32 := win4_9.stage (cfg4.slots t 9)
abbrev hs4_9 (t : Fin cfg4.N) : (ms4_9 t).IsWhole := hstage4_9 ((cfg4.slots t 9).cast nbuf4_9)
/-- The scratch operands: whole scoped buffers of the kernel's own, passed beside the windows. -/
abbrev scM4_0 : Memref sig .tc .vmem S21x8192 .f32 := Memref.whole cc4_scratch0
abbrev scM4_1 : Memref sig .tc .vmem S21x4096 .f32 := Memref.whole cc4_scratch1
abbrev scM4_2 : Memref sig .tc .vmem S21x4096 .f32 := Memref.whole cc4_scratch2
/-- The scratch the kernel carries between points, as views: what each holds is stated through its view. -/
abbrev VS4_0 : View sig .tc .vmem S21x8192 .f32 := scM4_0.view
abbrev VS4_1 : View sig .tc .vmem S21x4096 .f32 := scM4_1.view
abbrev VS4_2 : View sig .tc .vmem S21x4096 .f32 := scM4_2.view

/-! ## The region's invariant with the scratch operands opened -/

/-- The scoped buffers of the core that are neither a staging buffer of this region nor one of its three scratch
    operands, each at some contents: carried unopened through every point. -/
abbrev restBut4 (c : Dev nD) : sProp 𝕄 :=
  Pipeline.scopedRestBut (Ix := Unit) (Name := ℕ) (U := UR sig nD τ) (Lvl := ℕ) (Val := Elt F) spec4 c [cc4_scratch0, cc4_scratch1, cc4_scratch2]

/-- The region's invariant with the scratch operands as memrefs owned at some contents: what the body obligation
    hands the run and takes back. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d) ∗ (∃ d, owns (c : Thread nD τ) scM4_2 fullShare d)) ∗ restBut4 c) ∗ (∃ r, prngReg c r)) := by
  unfold Pipeline.ΦA; rw [scopedRest4_split]; simp only [scM4_0, scM4_1, scM4_2, owns_whole]; try rfl

end Cert.KernelIdeal.Hand

end
-- ==== Proof.IdealR4RunA.lean ====
/- Region 4 (custom_call 4, `cc4__kernel2_iter_body`): the whole-body run of the kernel at the first step of a row of 32 (k = 0). -/
import proofs.«162179_j58609123721967_2_alg».proof.Proof.IdealR4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the first step of a row (the first `scf.if` taken, the last not taken), WITH the proof that on whole memrefs — the nine inputs' at their contents `x·`,
    output 9's, into which this case stores nothing, at contents `xi9` handed back untouched, the three scratch buffers at anything (this case stores each of them whole before it reads it back) —
    the body runs to the continuation holding the inputs' as they were, each scratch buffer with its pieces written (`LS·`).
    The printed body is its skeleton; the run executes it, each `scf.if` decided by `hc0`, `hc1`; the piece lists are the
    witness the run finds. -/
noncomputable def kernelRun4_A (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc4__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc4__kernel2_iter_body_eq_skeleton]; unfold cc4__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.KernelIdeal.Hand

end
-- ==== Proof.IdealR4RunB.lean ====
/- Region 4 (custom_call 4, `cc4__kernel2_iter_body`): the whole-body run of the kernel at a middle step of a row (0 < k < 31). -/
import proofs.«162179_j58609123721967_2_alg».proof.Proof.IdealR4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    a middle step of a row (neither `scf.if` taken), WITH the proof that on whole memrefs — the nine inputs' at their contents `x·`,
    output 9's, into which this case stores nothing, at contents `xi9` handed back untouched, the three scratch buffers at the contents the step before left (`xs·`) —
    the body runs to the continuation holding the inputs' as they were, scratch 0, which it only reads, as it was, scratch 1 and 2 with their pieces written (`LS1`, `LS2`).
    The printed body is its skeleton; the run executes it, each `scf.if` decided by `hc0`, `hc1`; the piece lists are the
    witness the run finds. -/
noncomputable def kernelRun4_B (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc4__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, fun xi9 E K => ?run⟩
  case run =>
    simp only [cc4__kernel2_iter_body_eq_skeleton]; unfold cc4__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    isplitl [HS1]; · iexists _; iexact HS1
    iexists _; iexact HS2

end Cert.KernelIdeal.Hand

end
-- ==== Proof.IdealR4RunC.lean ====
/- Region 4 (custom_call 4, `cc4__kernel2_iter_body`): the whole-body run of the kernel at the last step of a row (k = 31). -/
import proofs.«162179_j58609123721967_2_alg».proof.Proof.IdealR4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the last step of a row (the first `scf.if` not taken, the last taken), WITH the proof that on whole memrefs — the nine inputs' at their contents `x·`,
    output 9's at anything, the three scratch buffers at the contents the step before left (`xs·`) —
    the body runs to the continuation holding the inputs' as they were, scratch 0 as it was, scratch 1 and 2 with their pieces written, output 9's buffer with its pieces written (`L9`).
    The printed body is its skeleton; the run executes it, each `scf.if` decided by `hc0`, `hc1`; the piece lists are the
    witness the run finds. -/
noncomputable def kernelRun4_C (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc4__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, ?_, fun E K => ?run⟩
  case run =>
    simp only [cc4__kernel2_iter_body_eq_skeleton]; unfold cc4__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _; isplitr; · ipureintro; exact harg12.read_unread _
      iexact HS0
    isplitl [HS1]; · iexists _; iexact HS1
    iexists _; iexact HS2

end Cert.KernelIdeal.Hand

end
-- ==== Proof.IdealR4Frame.lean ====
/- Region 4 (custom_call 4, `cc4__kernel2_iter_body`, grid 2 x 32), at the entry contents `V`: what output 9 and the three
   scratch buffers the kernel carries between points hold per case and point by point, the pipeline's proof data, the
   body obligation, and the invariant's two ends. -/
import proofs.«162179_j58609123721967_2_alg».proof.Proof.IdealR4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data whose
    array is `V`'s (`hA`) and whose body leaves the block in place (`hafter`): unfetched, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data whose
    array is `V`'s (`hA`) and whose body leaves the block in place (`hafter`): unfetched, the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data whose
    array is `V`'s (`hA`) and whose body leaves the block in place (`hafter`): unfetched, the block index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof data whose
    array is `V`'s (`hA`) and whose body leaves the block in place (`hafter`): unfetched, the block index has not moved. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof data whose
    array is `V`'s (`hA`) and whose body leaves the block in place (`hafter`): unfetched, the block index has not moved. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof data whose
    array is `V`'s (`hA`) and whose body leaves the block in place (`hafter`): unfetched, the block index has not moved. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof data whose
    array is `V`'s (`hA`) and whose body leaves the block in place (`hafter`): unfetched, the block index has not moved. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not, for any proof data whose
    array is `V`'s (`hA`) and whose body leaves the block in place (`hafter`): unfetched, the block index has not moved. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, fetched there or not, for any proof data whose
    array is `V`'s (`hA`) and whose body leaves the block in place (`hafter`): unfetched, the block index has not moved. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## What each case leaves in output 9 and in the carried scratch -/

/-- At the first step of a row the body stores nothing into output 9 (the window is idle there and not written back): no pieces —
    a placeholder (junk read back) that nothing consults, since at these points the window is neither written back nor
    read at the next point. -/
def out4_A_9 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VO4_9.read (Elt F) (VO4_9.writes (Elt F) VO4_9.junk (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

/-- At the first step of a row the body's pieces for scratch 0, which the kernel carries between points, cover it: each is a store of the whole buffer. -/
theorem scover4_A_0 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x8192.Idx) :
    ∃ pc ∈ (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S21x8192.size (by sl_kernel_rfl) y

/-- What the first step of a row leaves in scratch 0: its pieces read back over junk. -/
def sout4_A_0 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x8192 .f32 :=
  VS4_0.read (Elt F) (VS4_0.writes (Elt F) VS4_0.junk (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

/-- At the first step of a row the body's pieces for scratch 1, which the kernel carries between points, cover it: each is a store of the whole buffer. -/
theorem scover4_A_1 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S21x4096.size (by sl_kernel_rfl) y

/-- What the first step of a row leaves in scratch 1: its pieces read back over junk. -/
def sout4_A_1 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS4_1.read (Elt F) (VS4_1.writes (Elt F) VS4_1.junk (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)

/-- At the first step of a row the body's pieces for scratch 2, which the kernel carries between points, cover it: each is a store of the whole buffer. -/
theorem scover4_A_2 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1 S21x4096.size (by sl_kernel_rfl) y

/-- What the first step of a row leaves in scratch 2: its pieces read back over junk. -/
def sout4_A_2 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS4_2.read (Elt F) (VS4_2.writes (Elt F) VS4_2.junk (kernelRun4_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1)

/-- At a middle step of a row the body stores nothing into output 9 (the window is idle there and not written back): no pieces —
    a placeholder (junk read back) that nothing consults, since at these points the window is neither written back nor
    read at the next point. -/
def out4_B_9 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO4_9.read (Elt F) (VO4_9.writes (Elt F) VO4_9.junk (kernelRun4_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At a middle step of a row the body stores nothing into scratch 0: it holds what the step before left. -/
def sout4_B_0 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At a middle step of a row the body's pieces for scratch 1, which the kernel carries between points, cover it: each is a store of the whole buffer. -/
theorem scover4_B_1 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun4_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun4_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What a middle step of a row leaves in scratch 1: its pieces read back over junk. -/
def sout4_B_1 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS4_1.read (Elt F) (VS4_1.writes (Elt F) VS4_1.junk (kernelRun4_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At a middle step of a row the body's pieces for scratch 2, which the kernel carries between points, cover it: each is a store of the whole buffer. -/
theorem scover4_B_2 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun4_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun4_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What a middle step of a row leaves in scratch 2: its pieces read back over junk. -/
def sout4_B_2 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : ¬cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS4_2.read (Elt F) (VS4_2.writes (Elt F) VS4_2.junk (kernelRun4_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-- At the last step of a row the body's pieces for output 9 tile its block (one store of the whole block), so they cover it. -/
theorem cover4_C_9 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1 S21x4096.size (by sl_kernel_rfl) y

/-- What the last step of a row leaves in output 9's staging buffer: its pieces read back over junk. -/
def out4_C_9 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO4_9.read (Elt F) (VO4_9.writes (Elt F) VO4_9.junk (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At the last step of a row the body stores nothing into scratch 0: it holds what the step before left. -/
def sout4_C_0 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At the last step of a row the body's pieces for scratch 1, which the kernel carries between points, cover it: each is a store of the whole buffer. -/
theorem scover4_C_1 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What the last step of a row leaves in scratch 1: its pieces read back over junk. -/
def sout4_C_1 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS4_1.read (Elt F) (VS4_1.writes (Elt F) VS4_1.junk (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At the last step of a row the body's pieces for scratch 2, which the kernel carries between points, cover it: each is a store of the whole buffer. -/
theorem scover4_C_2 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What the last step of a row leaves in scratch 2: its pieces read back over junk. -/
def sout4_C_2 (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS4_2.read (Elt F) (VS4_2.writes (Elt F) VS4_2.junk (kernelRun4_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-! ## What output 9 and the carried scratch hold after each point -/

/-- THE ACCUMULATION. What output 9's staging buffer and the three scratch buffers the kernel carries between points hold
    after the body at position `n` (a tuple: output 9, then scratch 0, 1, 2): the case the closed forms select at `n`, run at
    the point's memrefs and input blocks, a scratch it reads before storing at what this leaves at `n - 1`. Both conditions
    at once is no case (`False.elim`). -/
def outsAt4 (c : Dev nD) : (n : ℕ) → n < cfg4.N → Vec F S21x4096 .f32 × Vec F S21x8192 .f32 × Vec F S21x4096 .f32 × Vec F S21x4096 .f32
  | 0, hn => (out4_A_9 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) scM4_0 (Memref.isWhole_whole _) scM4_1 (Memref.isWhole_whole _) scM4_2 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩) (iblk4 V c 8 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) scM4_0 (Memref.isWhole_whole _) scM4_1 (Memref.isWhole_whole _) scM4_2 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩) (iblk4 V c 8 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) scM4_0 (Memref.isWhole_whole _) scM4_1 (Memref.isWhole_whole _) scM4_2 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩) (iblk4 V c 8 ⟨0, hn⟩), sout4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) scM4_0 (Memref.isWhole_whole _) scM4_1 (Memref.isWhole_whole _) scM4_2 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩) (iblk4 V c 8 ⟨0, hn⟩))
  | n + 1, hn =>
    if h0 : (n + 1) % 32 = 0 then
      if h1 : (n + 1) % 32 = 31 then
        False.elim (by omega)
      else
        (out4_A_9 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩), sout4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩))
    else
      if h1 : (n + 1) % 32 = 31 then
        (out4_C_9 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2.1 (outsAt4 c n (Nat.lt_of_succ_lt hn)).2.2.2, sout4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2.1 (outsAt4 c n (Nat.lt_of_succ_lt hn)).2.2.2)
      else
        (out4_B_9 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2.1 (outsAt4 c n (Nat.lt_of_succ_lt hn)).2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2.1 (outsAt4 c n (Nat.lt_of_succ_lt hn)).2.2.2, sout4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) scM4_2 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2.1 (outsAt4 c n (Nat.lt_of_succ_lt hn)).2.2.2)

/-- `outsAt4` at the first step of a row: that case's contents. -/
theorem outsAt4_A (c : Dev nD) (t : Fin cfg4.N) (h0 : t.val % 32 = 0) (h1 : ¬t.val % 32 = 31) :
    outsAt4 V c t.val t.isLt = (out4_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t), sout4_A_2 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t)) := by
  obtain ⟨n, hn⟩ := t
  cases n with
  | zero => exact rfl
  | succ n => exact (dif_pos h0).trans ((dif_neg h1).trans rfl)

/-- `outsAt4` at a middle step of a row: that case's contents, over what the point before left. -/
theorem outsAt4_B (c : Dev nD) (t : Fin cfg4.N) (h0 : ¬t.val % 32 = 0) (h1 : ¬t.val % 32 = 31) :
    outsAt4 V c t.val t.isLt = (out4_B_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_B_2 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt4` at the last step of a row: that case's contents, over what the point before left. -/
theorem outsAt4_C (c : Dev nD) (t : Fin cfg4.N) (h0 : ¬t.val % 32 = 0) (h1 : t.val % 32 = 31) :
    outsAt4 V c t.val t.isLt = (out4_C_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_C_2 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) scM4_2 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scratch at anything); afterwards
    the same with each of the three carried scratch buffers at what the point before left in it (`outsAt4`'s scratch
    components), the other scoped buffers unopened, and the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.1) ∗ owns (c : Thread nD τ) scM4_1 fullShare ((outsAt4 V c n hn).2.2.1) ∗ owns (c : Thread nD τ) scM4_2 fullShare ((outsAt4 V c n hn).2.2.2)) ∗ restBut4 c) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the carried scratch at that point's contents. -/
theorem PhiS4_succ (c : Dev nD) (n : ℕ) (hn : n < cfg4.N) :
    PhiS4 V c (n + 1) hn = iprop(iprop(iprop(owns (c : Thread nD τ) scM4_0 fullShare ((outsAt4 V c n hn).2.1) ∗ owns (c : Thread nD τ) scM4_1 fullShare ((outsAt4 V c n hn).2.2.1) ∗ owns (c : Thread nD τ) scM4_2 fullShare ((outsAt4 V c n hn).2.2.2)) ∗ restBut4 c) ∗ (∃ r, prngReg c r)) := rfl

/-- Before a point that is not the first: the carried scratch at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.1) ∗ owns (c : Thread nD τ) scM4_1 fullShare ((outsAt4 V c (n - 1) (by omega)).2.2.1) ∗ owns (c : Thread nD τ) scM4_2 fullShare ((outsAt4 V c (n - 1) (by omega)).2.2.2)) ∗ restBut4 c) ∗ (∃ r, prngReg c r)) := by
  cases n with
  | zero => exact absurd rfl hz
  | succ n => rfl

/-! ## The pipeline's proof data -/

/-- The proof data of pipeline 4 on core `c`: the arrays as the region finds them (`V`); after the body at point `t` each
    input's buffer at its block and output 9's at `outsAt4`'s first component; the invariant `PhiS4`; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => (outsAt4 V c t.val t.isLt).1
  Φ t := PhiS4 V c t.val (Nat.le_of_lt_succ t.isLt)
  q _ := fullShare
  owed _ := 0

/-- The proof data's arrays are the region-entry contents (the definition projected, `V` never unfolded). -/
theorem A_eq4 (c : Dev nD) (w : Fin cfg4.W) : (dat4 V c).A w = V c (Pipeline.arrRef spec4 w) := by
  dsimp only [dat4]

/-- The invariant at a point's start (the proof data at `t.castSucc`), restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation, at a generic point -/

/-- What the body is called with at point `t` (the body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t
    ∗ (dat4 V c).leavesExact 9 t)

set_option maxHeartbeats 4800000 in
/-- The body at any point: the inputs' memrefs hold their blocks (`before4_w`); the closed forms say which of the three cases
    the point is in; the invariant hands the body the three carried scratch buffers at what the point before left (at
    anything at the very first point; at the first step of the second row the case takes them at anything too), and takes
    them back at this point's contents (the stores cover each buffer a case stores into; a buffer a case only reads comes
    back as it was); output 9 is handed back untouched where it is idle, and holds the case's one store at the last step
    of a row; the other scoped buffers, the generator register and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).owesAt () t.succ = (dat4 V c).owesAt () t.castSucc from rfl]
  rw [show (dat4 V c).Φ t.succ = PhiS4 V c (t.val + 1) t.isLt from rfl, PhiS4_succ]
  have hN : t.val < 64 := lt_of_lt_of_eq t.isLt (show cfg4.N = 64 from N_4)
  by_cases h0 : t.val % 32 = 0
  · by_cases h1 : t.val % 32 = 31
    · exfalso; omega
    ·
        rw [show (dat4 V c).leavesExact 0 t = owns (c : Thread nD τ) (ms4_0 t) fullShare ((dat4 V c).after 0 t) from by
          unfold Dat.leavesExact; rw [liveAt4_0 t], after4_0]
        rw [show (dat4 V c).leavesExact 1 t = owns (c : Thread nD τ) (ms4_1 t) fullShare ((dat4 V c).after 1 t) from by
          unfold Dat.leavesExact; rw [liveAt4_1 t], after4_1]
        rw [show (dat4 V c).leavesExact 2 t = owns (c : Thread nD τ) (ms4_2 t) fullShare ((dat4 V c).after 2 t) from by
          unfold Dat.leavesExact; rw [liveAt4_2 t], after4_2]
        rw [show (dat4 V c).leavesExact 3 t = owns (c : Thread nD τ) (ms4_3 t) fullShare ((dat4 V c).after 3 t) from by
          unfold Dat.leavesExact; rw [liveAt4_3 t], after4_3]
        rw [show (dat4 V c).leavesExact 4 t = owns (c : Thread nD τ) (ms4_4 t) fullShare ((dat4 V c).after 4 t) from by
          unfold Dat.leavesExact; rw [liveAt4_4 t], after4_4]
        rw [show (dat4 V c).leavesExact 5 t = owns (c : Thread nD τ) (ms4_5 t) fullShare ((dat4 V c).after 5 t) from by
          unfold Dat.leavesExact; rw [liveAt4_5 t], after4_5]
        rw [show (dat4 V c).leavesExact 6 t = owns (c : Thread nD τ) (ms4_6 t) fullShare ((dat4 V c).after 6 t) from by
          unfold Dat.leavesExact; rw [liveAt4_6 t], after4_6]
        rw [show (dat4 V c).leavesExact 7 t = owns (c : Thread nD τ) (ms4_7 t) fullShare ((dat4 V c).after 7 t) from by
          unfold Dat.leavesExact; rw [liveAt4_7 t], after4_7]
        rw [show (dat4 V c).leavesExact 8 t = owns (c : Thread nD τ) (ms4_8 t) fullShare ((dat4 V c).after 8 t) from by
          unfold Dat.leavesExact; rw [liveAt4_8 t], after4_8]
        rw [Dat.leavesExact_idle (dat4 V c) 9 t (idleAt4_9_A t ((hcond4_0 t).mpr h0) (fun h => h1 ((hcond4_1 t).mp h))) (noFlush4_9_A t ((hcond4_0 t).mpr h0) (fun h => h1 ((hcond4_1 t).mp h)))]
        rw [outsAt4_A V c t h0 h1]
        unfold sout4_A_0 sout4_A_1 sout4_A_2; (try dsimp only)
        by_cases hz : t.val = 0
        ·
          rw [PhiS4_castSucc V c t, PhiS4_zero V c _ _ hz, PhiA4_eq]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun4_A c (grid4.coords t) _ _ _ _ _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover4_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover4_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover4_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
        ·
          rw [PhiS4_castSucc V c t, PhiS4_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun4_A c (grid4.coords t) _ _ _ _ _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexists _; iexact HS0
          isplitl [HS1]; · iexists _; iexact HS1
          isplitl [HS2]; · iexists _; iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover4_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover4_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover4_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
  · by_cases h1 : t.val % 32 = 31
    ·
        rw [show (dat4 V c).leavesExact 0 t = owns (c : Thread nD τ) (ms4_0 t) fullShare ((dat4 V c).after 0 t) from by
          unfold Dat.leavesExact; rw [liveAt4_0 t], after4_0]
        rw [show (dat4 V c).leavesExact 1 t = owns (c : Thread nD τ) (ms4_1 t) fullShare ((dat4 V c).after 1 t) from by
          unfold Dat.leavesExact; rw [liveAt4_1 t], after4_1]
        rw [show (dat4 V c).leavesExact 2 t = owns (c : Thread nD τ) (ms4_2 t) fullShare ((dat4 V c).after 2 t) from by
          unfold Dat.leavesExact; rw [liveAt4_2 t], after4_2]
        rw [show (dat4 V c).leavesExact 3 t = owns (c : Thread nD τ) (ms4_3 t) fullShare ((dat4 V c).after 3 t) from by
          unfold Dat.leavesExact; rw [liveAt4_3 t], after4_3]
        rw [show (dat4 V c).leavesExact 4 t = owns (c : Thread nD τ) (ms4_4 t) fullShare ((dat4 V c).after 4 t) from by
          unfold Dat.leavesExact; rw [liveAt4_4 t], after4_4]
        rw [show (dat4 V c).leavesExact 5 t = owns (c : Thread nD τ) (ms4_5 t) fullShare ((dat4 V c).after 5 t) from by
          unfold Dat.leavesExact; rw [liveAt4_5 t], after4_5]
        rw [show (dat4 V c).leavesExact 6 t = owns (c : Thread nD τ) (ms4_6 t) fullShare ((dat4 V c).after 6 t) from by
          unfold Dat.leavesExact; rw [liveAt4_6 t], after4_6]
        rw [show (dat4 V c).leavesExact 7 t = owns (c : Thread nD τ) (ms4_7 t) fullShare ((dat4 V c).after 7 t) from by
          unfold Dat.leavesExact; rw [liveAt4_7 t], after4_7]
        rw [show (dat4 V c).leavesExact 8 t = owns (c : Thread nD τ) (ms4_8 t) fullShare ((dat4 V c).after 8 t) from by
          unfold Dat.leavesExact; rw [liveAt4_8 t], after4_8]
        rw [show (dat4 V c).leavesExact 9 t = owns (c : Thread nD τ) (ms4_9 t) fullShare ((dat4 V c).after 9 t) from by
          unfold Dat.leavesExact; rw [liveAt4_9_C t (fun h => h0 ((hcond4_0 t).mp h)) ((hcond4_1 t).mpr h1)], after4_9]
        rw [outsAt4_C V c t h0 h1]
        unfold out4_C_9 sout4_C_0 sout4_C_1 sout4_C_2; (try dsimp only)
        by_cases hz : t.val = 0
        · exfalso; omega
        ·
          rw [PhiS4_castSucc V c t, PhiS4_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun4_C c (grid4.coords t) _ _ _ _ _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (iblk4 V c 8 t) _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [HS0]; · iexact HS0
          isplitl [HS1]; · iexact HS1
          isplitl [HS2]; · iexact HS2
          iintro ⟨H0, H1, H2, H3, H4, H5, H6, H7, H8, ⟨%e9, H9⟩, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover4_C_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover4_C_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          unfold owns; iexists _; isplitr
          swap; · iexact H9
          ipureintro; exact View.read_writes_of_cover _ _ _ _ _ (cover4_C_9 c _ _ _ _ _ _ _ _ _ _ _ _ _ _ _ _ _ _ _ _ _ _ _ _ _ _ _ _ _ _ _ _ _ _ _ _ _ _ _ _ _)
    ·
        rw [show (dat4 V c).leavesExact 0 t = owns (c : Thread nD τ) (ms4_0 t) fullShare ((dat4 V c).after 0 t) from by
          unfold Dat.leavesExact; rw [liveAt4_0 t], after4_0]
        rw [show (dat4 V c).leavesExact 1 t = owns (c : Thread nD τ) (ms4_1 t) fullShare ((dat4 V c).after 1 t) from by
          unfold Dat.leavesExact; rw [liveAt4_1 t], after4_1]
        rw [show (dat4 V c).leavesExact 2 t = owns (c : Thread nD τ) (ms4_2 t) fullShare ((dat4 V c).after 2 t) from by
          unfold Dat.leavesExact; rw [liveAt4_2 t], after4_2]
        rw [show (dat4 V c).leavesExact 3 t = owns (c : Thread nD τ) (ms4_3 t) fullShare ((dat4 V c).after 3 t) from by
          unfold Dat.leavesExact; rw [liveAt4_3 t], after4_3]
        rw [show (dat4 V c).leavesExact 4 t = owns (c : Thread nD τ) (ms4_4 t) fullShare ((dat4 V c).after 4 t) from by
          unfold Dat.leavesExact; rw [liveAt4_4 t], after4_4]
        rw [show (dat4 V c).leavesExact 5 t = owns (c : Thread nD τ) (ms4_5 t) fullShare ((dat4 V c).after 5 t) from by
          unfold Dat.leavesExact; rw [liveAt4_5 t], after4_5]
        rw [show (dat4 V c).leavesExact 6 t = owns (c : Thread nD τ) (ms4_6 t) fullShare ((dat4 V c).after 6 t) from by
          unfold Dat.leavesExact; rw [liveAt4_6 t], after4_6]
        rw [show (dat4 V c).leavesExact 7 t = owns (c : Thread nD τ) (ms4_7 t) fullShare ((dat4 V c).after 7 t) from by
          unfold Dat.leavesExact; rw [liveAt4_7 t], after4_7]
        rw [show (dat4 V c).leavesExact 8 t = owns (c : Thread nD τ) (ms4_8 t) fullShare ((dat4 V c).after 8 t) from by
          unfold Dat.leavesExact; rw [liveAt4_8 t], after4_8]
        rw [Dat.leavesExact_idle (dat4 V c) 9 t (idleAt4_9_B t (fun h => h0 ((hcond4_0 t).mp h)) (fun h => h1 ((hcond4_1 t).mp h))) (noFlush4_9_B t (fun h => h0 ((hcond4_0 t).mp h)) (fun h => h1 ((hcond4_1 t).mp h)))]
        rw [outsAt4_B V c t h0 h1]
        unfold sout4_B_0 sout4_B_1 sout4_B_2; (try dsimp only)
        by_cases hz : t.val = 0
        · exfalso; omega
        ·
          rw [PhiS4_castSucc V c t, PhiS4_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun4_B c (grid4.coords t) _ _ _ _ _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) _ _ _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover4_B_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover4_B_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region (`ΦA`) is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives `ΦA` back: the carried scratch's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1, HS2⟩, Hr⟩, Hg⟩
  isplitl [HS0 HS1 HS2 Hr]
  · isplitl [HS0 HS1 HS2]
    · isplitl [HS0]
      · iexists _; iexact HS0
      isplitl [HS1]
      · iexists _; iexact HS1
      iexists _; iexact HS2
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 64 := N_4; omega)

end Cert.KernelIdeal.Hand

end
-- ==== Proof.IdealR5Runs.lean ====
/- Region 5 (custom_call 5, `cc5__kernel2_iter_body`, grid 2 x 32): what the three runs of its body share — the body's two
   branch conditions in closed form over the grid, where output window 9 is idle and not written back, the staging and
   scratch memrefs the body is called with, and the region's invariant with the three scratch operands opened. -/
import proofs.«162179_j58609123721967_2_alg».proof.Proof.Gen.KernelIdeal.Launch
import proofs.«162179_j58609123721967_2_alg».proof.Proof.Gen.KernelIdeal.Skeleton
import proofs.«162179_j58609123721967_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the step index `k = i 1` is zero), from the grid coordinates: the
    skeleton's scalar chain substituted. -/
abbrev cond5_0 (i : grid5.Coords) : Prop := (Scalar.cmpi .ne (Scalar.extui (Scalar.cmpi .eq (BitVec.ofNat 32 (i 1).val) 0#32)) 0#32) = 1#1
/-- It holds at the first step of each row of 32 — decided over the grid. -/
theorem hcond5_0 : ∀ t : Fin cfg5.N, cond5_0 (grid5.coords t) ↔ t.val % 32 = 0 :=
  (by decide +kernel : ∀ t : Fin grid5.N, cond5_0 (grid5.coords t) ↔ t.val % 32 = 0)

/-- The condition of the body's last `scf.if` (the step index is 31). -/
abbrev cond5_1 (i : grid5.Coords) : Prop := k5_cond2 i = 1#1
/-- It holds at the last step of each row of 32 — decided over the grid. -/
theorem hcond5_1 : ∀ t : Fin cfg5.N, cond5_1 (grid5.coords t) ↔ t.val % 32 = 31 :=
  (by decide +kernel : ∀ t : Fin grid5.N, cond5_1 (grid5.coords t) ↔ t.val % 32 = 31)

/-! ## Where the windows are idle (the configuration's table `Cfg.idle`) -/

/-- Window 0 is never idle (an input). -/
theorem liveAt5_0 : ∀ t : Fin cfg5.N, cfg5.idle 0 (grid5.coords t) = false := by decide +kernel
/-- Window 1 is never idle (an input). -/
theorem liveAt5_1 : ∀ t : Fin cfg5.N, cfg5.idle 1 (grid5.coords t) = false := by decide +kernel
/-- Window 2 is never idle (an input). -/
theorem liveAt5_2 : ∀ t : Fin cfg5.N, cfg5.idle 2 (grid5.coords t) = false := by decide +kernel
/-- Window 3 is never idle (an input). -/
theorem liveAt5_3 : ∀ t : Fin cfg5.N, cfg5.idle 3 (grid5.coords t) = false := by decide +kernel
/-- Window 4 is never idle (an input). -/
theorem liveAt5_4 : ∀ t : Fin cfg5.N, cfg5.idle 4 (grid5.coords t) = false := by decide +kernel
/-- Window 5 is never idle (an input). -/
theorem liveAt5_5 : ∀ t : Fin cfg5.N, cfg5.idle 5 (grid5.coords t) = false := by decide +kernel
/-- Window 6 is never idle (an input). -/
theorem liveAt5_6 : ∀ t : Fin cfg5.N, cfg5.idle 6 (grid5.coords t) = false := by decide +kernel
/-- Window 7 is never idle (an input). -/
theorem liveAt5_7 : ∀ t : Fin cfg5.N, cfg5.idle 7 (grid5.coords t) = false := by decide +kernel
/-- Window 8 is never idle (an input). -/
theorem liveAt5_8 : ∀ t : Fin cfg5.N, cfg5.idle 8 (grid5.coords t) = false := by decide +kernel
/-- At the first step of a row the configuration calls output 9 idle: the body stores nothing into it there. -/
theorem idleAt5_9_A : ∀ t : Fin cfg5.N, cond5_0 (grid5.coords t) → ¬cond5_1 (grid5.coords t) → cfg5.idle 9 (grid5.coords t) = true := by decide +kernel
/-- At the first step of a row the pipeline does not write output 9's block back. -/
theorem noFlush5_9_A : ∀ t : Fin cfg5.N, cond5_0 (grid5.coords t) → ¬cond5_1 (grid5.coords t) → (cfg5.win 9).flush t = false := by decide +kernel
/-- At a middle step the configuration calls output 9 idle. -/
theorem idleAt5_9_B : ∀ t : Fin cfg5.N, ¬cond5_0 (grid5.coords t) → ¬cond5_1 (grid5.coords t) → cfg5.idle 9 (grid5.coords t) = true := by decide +kernel
/-- At a middle step the pipeline does not write output 9's block back. -/
theorem noFlush5_9_B : ∀ t : Fin cfg5.N, ¬cond5_0 (grid5.coords t) → ¬cond5_1 (grid5.coords t) → (cfg5.win 9).flush t = false := by decide +kernel
/-- At the last step of a row the configuration calls output 9 live: the body stores into it. -/
theorem liveAt5_9_C : ∀ t : Fin cfg5.N, ¬cond5_0 (grid5.coords t) → cond5_1 (grid5.coords t) → cfg5.idle 9 (grid5.coords t) = false := by decide +kernel

/-! ## The memrefs the body is called with -/

/-- One staging buffer of output window 9, through which its contents are stated (the choice does not matter). -/
abbrev VO5_9 : View sig .tc .vmem S21x4096 .f32 := (Memref.whole cc5_stg9_0 : Memref sig .tc .vmem S21x4096 .f32).view
/-- Each window's current staging memref at point `t`, spelled as the pipeline passes it (`bodyAt5`), and its wholeness. -/
abbrev ms5_0 (t : Fin cfg5.N) : Memref sig .tc .vmem S21x8192 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S21x4096 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S256x4096 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S256x4096 .bf16 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x4096 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x4096 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S21x21 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S21x21 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S21x21 .f32 := win5_8.stage (cfg5.slots t 8)
abbrev hs5_8 (t : Fin cfg5.N) : (ms5_8 t).IsWhole := hstage5_8 ((cfg5.slots t 8).cast nbuf5_8)
abbrev ms5_9 (t : Fin cfg5.N) : Memref sig .tc .vmem S21x4096 .f32 := win5_9.stage (cfg5.slots t 9)
abbrev hs5_9 (t : Fin cfg5.N) : (ms5_9 t).IsWhole := hstage5_9 ((cfg5.slots t 9).cast nbuf5_9)
/-- The scratch operands: whole scoped buffers of the kernel's own, passed beside the windows. -/
abbrev scM5_0 : Memref sig .tc .vmem S21x8192 .f32 := Memref.whole cc5_scratch0
abbrev scM5_1 : Memref sig .tc .vmem S21x4096 .f32 := Memref.whole cc5_scratch1
abbrev scM5_2 : Memref sig .tc .vmem S21x4096 .f32 := Memref.whole cc5_scratch2
/-- The scratch the kernel carries between points, as views: what each holds is stated through its view. -/
abbrev VS5_0 : View sig .tc .vmem S21x8192 .f32 := scM5_0.view
abbrev VS5_1 : View sig .tc .vmem S21x4096 .f32 := scM5_1.view
abbrev VS5_2 : View sig .tc .vmem S21x4096 .f32 := scM5_2.view

/-! ## The region's invariant with the scratch operands opened -/

/-- The scoped buffers of the core that are neither a staging buffer of this region nor one of its three scratch
    operands, each at some contents: carried unopened through every point. -/
abbrev restBut5 (c : Dev nD) : sProp 𝕄 :=
  Pipeline.scopedRestBut (Ix := Unit) (Name := ℕ) (U := UR sig nD τ) (Lvl := ℕ) (Val := Elt F) spec5 c [cc5_scratch0, cc5_scratch1, cc5_scratch2]

/-- The region's invariant with the scratch operands as memrefs owned at some contents: what the body obligation
    hands the run and takes back. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d) ∗ (∃ d, owns (c : Thread nD τ) scM5_2 fullShare d)) ∗ restBut5 c) ∗ (∃ r, prngReg c r)) := by
  unfold Pipeline.ΦA; rw [scopedRest5_split]; simp only [scM5_0, scM5_1, scM5_2, owns_whole]; try rfl

end Cert.KernelIdeal.Hand

end
-- ==== Proof.IdealR5RunA.lean ====
/- Region 5 (custom_call 5, `cc5__kernel2_iter_body`): the whole-body run of the kernel at the first step of a row of 32 (k = 0). -/
import proofs.«162179_j58609123721967_2_alg».proof.Proof.IdealR5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the first step of a row (the first `scf.if` taken, the last not taken), WITH the proof that on whole memrefs — the nine inputs' at their contents `x·`,
    output 9's, into which this case stores nothing, at contents `xi9` handed back untouched, the three scratch buffers at anything (this case stores each of them whole before it reads it back) —
    the body runs to the continuation holding the inputs' as they were, each scratch buffer with its pieces written (`LS·`).
    The printed body is its skeleton; the run executes it, each `scf.if` decided by `hc0`, `hc1`; the piece lists are the
    witness the run finds. -/
noncomputable def kernelRun5_A (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc5__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc5__kernel2_iter_body_eq_skeleton]; unfold cc5__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.KernelIdeal.Hand

end
-- ==== Proof.IdealR5RunB.lean ====
/- Region 5 (custom_call 5, `cc5__kernel2_iter_body`): the whole-body run of the kernel at a middle step of a row (0 < k < 31). -/
import proofs.«162179_j58609123721967_2_alg».proof.Proof.IdealR5RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    a middle step of a row (neither `scf.if` taken), WITH the proof that on whole memrefs — the nine inputs' at their contents `x·`,
    output 9's, into which this case stores nothing, at contents `xi9` handed back untouched, the three scratch buffers at the contents the step before left (`xs·`) —
    the body runs to the continuation holding the inputs' as they were, scratch 0, which it only reads, as it was, scratch 1 and 2 with their pieces written (`LS1`, `LS2`).
    The printed body is its skeleton; the run executes it, each `scf.if` decided by `hc0`, `hc1`; the piece lists are the
    witness the run finds. -/
noncomputable def kernelRun5_B (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (xi9 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc5__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, fun xi9 E K => ?run⟩
  case run =>
    simp only [cc5__kernel2_iter_body_eq_skeleton]; unfold cc5__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    isplitl [HS1]; · iexists _; iexact HS1
    iexists _; iexact HS2

end Cert.KernelIdeal.Hand

end
-- ==== Proof.IdealR5RunC.lean ====
/- Region 5 (custom_call 5, `cc5__kernel2_iter_body`): the whole-body run of the kernel at the last step of a row (k = 31). -/
import proofs.«162179_j58609123721967_2_alg».proof.Proof.IdealR5RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output 9's staging memref and in the three scratch buffers, as pieces (last first), at
    the last step of a row (the first `scf.if` not taken, the last taken), WITH the proof that on whole memrefs — the nine inputs' at their contents `x·`,
    output 9's at anything, the three scratch buffers at the contents the step before left (`xs·`) —
    the body runs to the continuation holding the inputs' as they were, scratch 0 as it was, scratch 1 and 2 with their pieces written, output 9's buffer with its pieces written (`L9`).
    The printed body is its skeleton; the run executes it, each `scf.if` decided by `hc0`, `hc1`; the piece lists are the
    witness the run finds. -/
noncomputable def kernelRun5_C (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    Σ' (L9 : List (View.Piece (Elt F) S21x4096 .f32)), Σ' (LS0 : List (View.Piece (Elt F) S21x8192 .f32)), Σ' (LS1 : List (View.Piece (Elt F) S21x4096 .f32)), { LS2 : List (View.Piece (Elt F) S21x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc5__kernel2_iter_body i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, ?_, fun E K => ?run⟩
  case run =>
    simp only [cc5__kernel2_iter_body_eq_skeleton]; unfold cc5__kernel2_iter_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _; isplitr; · ipureintro; exact harg12.read_unread _
      iexact HS0
    isplitl [HS1]; · iexists _; iexact HS1
    iexists _; iexact HS2

end Cert.KernelIdeal.Hand

end
-- ==== Proof.IdealR5Frame.lean ====
/- Region 5 (custom_call 5, `cc5__kernel2_iter_body`, grid 2 x 32), at the entry contents `V`: what output 9 and the three
   scratch buffers the kernel carries between points hold per case and point by point, the pipeline's proof data, the
   body obligation, and the invariant's two ends. -/
import proofs.«162179_j58609123721967_2_alg».proof.Proof.IdealR5RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data whose
    array is `V`'s (`hA`) and whose body leaves the block in place (`hafter`): unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data whose
    array is `V`'s (`hA`) and whose body leaves the block in place (`hafter`): unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data whose
    array is `V`'s (`hA`) and whose body leaves the block in place (`hafter`): unfetched, the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof data whose
    array is `V`'s (`hA`) and whose body leaves the block in place (`hafter`): unfetched, the block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof data whose
    array is `V`'s (`hA`) and whose body leaves the block in place (`hafter`): unfetched, the block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof data whose
    array is `V`'s (`hA`) and whose body leaves the block in place (`hafter`): unfetched, the block index has not moved. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof data whose
    array is `V`'s (`hA`) and whose body leaves the block in place (`hafter`): unfetched, the block index has not moved. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, fetched there or not, for any proof data whose
    array is `V`'s (`hA`) and whose body leaves the block in place (`hafter`): unfetched, the block index has not moved. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, fetched there or not, for any proof data whose
    array is `V`'s (`hA`) and whose body leaves the block in place (`hafter`): unfetched, the block index has not moved. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## What each case leaves in output 9 and in the carried scratch -/

/-- At the first step of a row the body stores nothing into output 9 (the window is idle there and not written back): no pieces —
    a placeholder (junk read back) that nothing consults, since at these points the window is neither written back nor
    read at the next point. -/
def out5_A_9 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VO5_9.read (Elt F) (VO5_9.writes (Elt F) VO5_9.junk (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

/-- At the first step of a row the body's pieces for scratch 0, which the kernel carries between points, cover it: each is a store of the whole buffer. -/
theorem scover5_A_0 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x8192.Idx) :
    ∃ pc ∈ (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S21x8192.size (by sl_kernel_rfl) y

/-- What the first step of a row leaves in scratch 0: its pieces read back over junk. -/
def sout5_A_0 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x8192 .f32 :=
  VS5_0.read (Elt F) (VS5_0.writes (Elt F) VS5_0.junk (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

/-- At the first step of a row the body's pieces for scratch 1, which the kernel carries between points, cover it: each is a store of the whole buffer. -/
theorem scover5_A_1 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S21x4096.size (by sl_kernel_rfl) y

/-- What the first step of a row leaves in scratch 1: its pieces read back over junk. -/
def sout5_A_1 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS5_1.read (Elt F) (VS5_1.writes (Elt F) VS5_1.junk (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)

/-- At the first step of a row the body's pieces for scratch 2, which the kernel carries between points, cover it: each is a store of the whole buffer. -/
theorem scover5_A_2 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (y : S21x4096.Idx) :
    ∃ pc ∈ (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1 S21x4096.size (by sl_kernel_rfl) y

/-- What the first step of a row leaves in scratch 2: its pieces read back over junk. -/
def sout5_A_2 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) : Vec F S21x4096 .f32 :=
  VS5_2.read (Elt F) (VS5_2.writes (Elt F) VS5_2.junk (kernelRun5_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1)

/-- At a middle step of a row the body stores nothing into output 9 (the window is idle there and not written back): no pieces —
    a placeholder (junk read back) that nothing consults, since at these points the window is neither written back nor
    read at the next point. -/
def out5_B_9 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO5_9.read (Elt F) (VO5_9.writes (Elt F) VO5_9.junk (kernelRun5_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At a middle step of a row the body stores nothing into scratch 0: it holds what the step before left. -/
def sout5_B_0 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At a middle step of a row the body's pieces for scratch 1, which the kernel carries between points, cover it: each is a store of the whole buffer. -/
theorem scover5_B_1 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun5_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun5_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What a middle step of a row leaves in scratch 1: its pieces read back over junk. -/
def sout5_B_1 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS5_1.read (Elt F) (VS5_1.writes (Elt F) VS5_1.junk (kernelRun5_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At a middle step of a row the body's pieces for scratch 2, which the kernel carries between points, cover it: each is a store of the whole buffer. -/
theorem scover5_B_2 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun5_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun5_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What a middle step of a row leaves in scratch 2: its pieces read back over junk. -/
def sout5_B_2 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : ¬cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS5_2.read (Elt F) (VS5_2.writes (Elt F) VS5_2.junk (kernelRun5_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-- At the last step of a row the body's pieces for output 9 tile its block (one store of the whole block), so they cover it. -/
theorem cover5_C_9 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1, y ∈ pc.1.set :=
  View.cover_of_tiledL (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1 S21x4096.size (by sl_kernel_rfl) y

/-- What the last step of a row leaves in output 9's staging buffer: its pieces read back over junk. -/
def out5_C_9 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VO5_9.read (Elt F) (VO5_9.writes (Elt F) VO5_9.junk (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- At the last step of a row the body stores nothing into scratch 0: it holds what the step before left. -/
def sout5_C_0 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x8192 .f32 := xs0

/-- At the last step of a row the body's pieces for scratch 1, which the kernel carries between points, cover it: each is a store of the whole buffer. -/
theorem scover5_C_1 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S21x4096.size (by sl_kernel_rfl) y

/-- What the last step of a row leaves in scratch 1: its pieces read back over junk. -/
def sout5_C_1 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS5_1.read (Elt F) (VS5_1.writes (Elt F) VS5_1.junk (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- At the last step of a row the body's pieces for scratch 2, which the kernel carries between points, cover it: each is a store of the whole buffer. -/
theorem scover5_C_2 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) (y : S21x4096.Idx) :
    ∃ pc ∈ (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S21x4096.size (by sl_kernel_rfl) y

/-- What the last step of a row leaves in scratch 2: its pieces read back over junk. -/
def sout5_C_2 (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i)
    (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) : Vec F S21x4096 .f32 :=
  VS5_2.read (Elt F) (VS5_2.writes (Elt F) VS5_2.junk (kernelRun5_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-! ## What output 9 and the carried scratch hold after each point -/

/-- THE ACCUMULATION. What output 9's staging buffer and the three scratch buffers the kernel carries between points hold
    after the body at position `n` (a tuple: output 9, then scratch 0, 1, 2): the case the closed forms select at `n`, run at
    the point's memrefs and input blocks, a scratch it reads before storing at what this leaves at `n - 1`. Both conditions
    at once is no case (`False.elim`). -/
def outsAt5 (c : Dev nD) : (n : ℕ) → n < cfg5.N → Vec F S21x4096 .f32 × Vec F S21x8192 .f32 × Vec F S21x4096 .f32 × Vec F S21x4096 .f32
  | 0, hn => (out5_A_9 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) scM5_0 (Memref.isWhole_whole _) scM5_1 (Memref.isWhole_whole _) scM5_2 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩) (iblk5 V c 7 ⟨0, hn⟩) (iblk5 V c 8 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) scM5_0 (Memref.isWhole_whole _) scM5_1 (Memref.isWhole_whole _) scM5_2 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩) (iblk5 V c 7 ⟨0, hn⟩) (iblk5 V c 8 ⟨0, hn⟩), sout5_A_1 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) scM5_0 (Memref.isWhole_whole _) scM5_1 (Memref.isWhole_whole _) scM5_2 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩) (iblk5 V c 7 ⟨0, hn⟩) (iblk5 V c 8 ⟨0, hn⟩), sout5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) scM5_0 (Memref.isWhole_whole _) scM5_1 (Memref.isWhole_whole _) scM5_2 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩) (iblk5 V c 7 ⟨0, hn⟩) (iblk5 V c 8 ⟨0, hn⟩))
  | n + 1, hn =>
    if h0 : (n + 1) % 32 = 0 then
      if h1 : (n + 1) % 32 = 31 then
        False.elim (by omega)
      else
        (out5_A_9 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩), sout5_A_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩), sout5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩))
    else
      if h1 : (n + 1) % 32 = 31 then
        (out5_C_9 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (outsAt5 c n (Nat.lt_of_succ_lt hn)).2.1 (outsAt5 c n (Nat.lt_of_succ_lt hn)).2.2.1 (outsAt5 c n (Nat.lt_of_succ_lt hn)).2.2.2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (outsAt5 c n (Nat.lt_of_succ_lt hn)).2.1 (outsAt5 c n (Nat.lt_of_succ_lt hn)).2.2.1 (outsAt5 c n (Nat.lt_of_succ_lt hn)).2.2.2, sout5_C_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (outsAt5 c n (Nat.lt_of_succ_lt hn)).2.1 (outsAt5 c n (Nat.lt_of_succ_lt hn)).2.2.1 (outsAt5 c n (Nat.lt_of_succ_lt hn)).2.2.2, sout5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (outsAt5 c n (Nat.lt_of_succ_lt hn)).2.1 (outsAt5 c n (Nat.lt_of_succ_lt hn)).2.2.1 (outsAt5 c n (Nat.lt_of_succ_lt hn)).2.2.2)
      else
        (out5_B_9 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (outsAt5 c n (Nat.lt_of_succ_lt hn)).2.1 (outsAt5 c n (Nat.lt_of_succ_lt hn)).2.2.1 (outsAt5 c n (Nat.lt_of_succ_lt hn)).2.2.2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (outsAt5 c n (Nat.lt_of_succ_lt hn)).2.1 (outsAt5 c n (Nat.lt_of_succ_lt hn)).2.2.1 (outsAt5 c n (Nat.lt_of_succ_lt hn)).2.2.2, sout5_B_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (outsAt5 c n (Nat.lt_of_succ_lt hn)).2.1 (outsAt5 c n (Nat.lt_of_succ_lt hn)).2.2.1 (outsAt5 c n (Nat.lt_of_succ_lt hn)).2.2.2, sout5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) scM5_0 (Memref.isWhole_whole _) scM5_1 (Memref.isWhole_whole _) scM5_2 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (outsAt5 c n (Nat.lt_of_succ_lt hn)).2.1 (outsAt5 c n (Nat.lt_of_succ_lt hn)).2.2.1 (outsAt5 c n (Nat.lt_of_succ_lt hn)).2.2.2)

/-- `outsAt5` at the first step of a row: that case's contents. -/
theorem outsAt5_A (c : Dev nD) (t : Fin cfg5.N) (h0 : t.val % 32 = 0) (h1 : ¬t.val % 32 = 31) :
    outsAt5 V c t.val t.isLt = (out5_A_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t), sout5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t), sout5_A_2 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t)) := by
  obtain ⟨n, hn⟩ := t
  cases n with
  | zero => exact rfl
  | succ n => exact (dif_pos h0).trans ((dif_neg h1).trans rfl)

/-- `outsAt5` at a middle step of a row: that case's contents, over what the point before left. -/
theorem outsAt5_B (c : Dev nD) (t : Fin cfg5.N) (h0 : ¬t.val % 32 = 0) (h1 : ¬t.val % 32 = 31) :
    outsAt5 V c t.val t.isLt = (out5_B_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2, sout5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2, sout5_B_2 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt5` at the last step of a row: that case's contents, over what the point before left. -/
theorem outsAt5_C (c : Dev nD) (t : Fin cfg5.N) (h0 : ¬t.val % 32 = 0) (h1 : t.val % 32 = 31) :
    outsAt5 V c t.val t.isLt = (out5_C_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2, sout5_C_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2, sout5_C_2 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) scM5_2 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scratch at anything); afterwards
    the same with each of the three carried scratch buffers at what the point before left in it (`outsAt5`'s scratch
    components), the other scoped buffers unopened, and the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.1) ∗ owns (c : Thread nD τ) scM5_1 fullShare ((outsAt5 V c n hn).2.2.1) ∗ owns (c : Thread nD τ) scM5_2 fullShare ((outsAt5 V c n hn).2.2.2)) ∗ restBut5 c) ∗ (∃ r, prngReg c r))

theorem PhiS5_zero (c : Dev nD) (n : ℕ) (h : n ≤ cfg5.N) (hz : n = 0) : PhiS5 V c n h = Pipeline.ΦA spec5 c := by
  subst hz; rfl

/-- After point `n` (before point `n + 1`): the carried scratch at that point's contents. -/
theorem PhiS5_succ (c : Dev nD) (n : ℕ) (hn : n < cfg5.N) :
    PhiS5 V c (n + 1) hn = iprop(iprop(iprop(owns (c : Thread nD τ) scM5_0 fullShare ((outsAt5 V c n hn).2.1) ∗ owns (c : Thread nD τ) scM5_1 fullShare ((outsAt5 V c n hn).2.2.1) ∗ owns (c : Thread nD τ) scM5_2 fullShare ((outsAt5 V c n hn).2.2.2)) ∗ restBut5 c) ∗ (∃ r, prngReg c r)) := rfl

/-- Before a point that is not the first: the carried scratch at what the point before left. -/
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.1) ∗ owns (c : Thread nD τ) scM5_1 fullShare ((outsAt5 V c (n - 1) (by omega)).2.2.1) ∗ owns (c : Thread nD τ) scM5_2 fullShare ((outsAt5 V c (n - 1) (by omega)).2.2.2)) ∗ restBut5 c) ∗ (∃ r, prngReg c r)) := by
  cases n with
  | zero => exact absurd rfl hz
  | succ n => rfl

/-! ## The pipeline's proof data -/

/-- The proof data of pipeline 5 on core `c`: the arrays as the region finds them (`V`); after the body at point `t` each
    input's buffer at its block and output 9's at `outsAt5`'s first component; the invariant `PhiS5`; nothing owed; full
    shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => (outsAt5 V c t.val t.isLt).1
  Φ t := PhiS5 V c t.val (Nat.le_of_lt_succ t.isLt)
  q _ := fullShare
  owed _ := 0

/-- The proof data's arrays are the region-entry contents (the definition projected, `V` never unfolded). -/
theorem A_eq5 (c : Dev nD) (w : Fin cfg5.W) : (dat5 V c).A w = V c (Pipeline.arrRef spec5 w) := by
  dsimp only [dat5]

/-- The invariant at a point's start (the proof data at `t.castSucc`), restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = (outsAt5 V c t.val t.isLt).1 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-! ## The body obligation, at a generic point -/

/-- What the body is called with at point `t` (the body obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d))
    ∗ (∃ d, owns (c : Thread nD τ) (ms5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t
    ∗ (dat5 V c).leavesExact 9 t)

set_option maxHeartbeats 4800000 in
/-- The body at any point: the inputs' memrefs hold their blocks (`before5_w`); the closed forms say which of the three cases
    the point is in; the invariant hands the body the three carried scratch buffers at what the point before left (at
    anything at the very first point; at the first step of the second row the case takes them at anything too), and takes
    them back at this point's contents (the stores cover each buffer a case stores into; a buffer a case only reads comes
    back as it was); output 9 is handed back untouched where it is idle, and holds the case's one store at the last step
    of a row; the other scoped buffers, the generator register and what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).owesAt () t.succ = (dat5 V c).owesAt () t.castSucc from rfl]
  rw [show (dat5 V c).Φ t.succ = PhiS5 V c (t.val + 1) t.isLt from rfl, PhiS5_succ]
  have hN : t.val < 64 := lt_of_lt_of_eq t.isLt (show cfg5.N = 64 from N_5)
  by_cases h0 : t.val % 32 = 0
  · by_cases h1 : t.val % 32 = 31
    · exfalso; omega
    ·
        rw [show (dat5 V c).leavesExact 0 t = owns (c : Thread nD τ) (ms5_0 t) fullShare ((dat5 V c).after 0 t) from by
          unfold Dat.leavesExact; rw [liveAt5_0 t], after5_0]
        rw [show (dat5 V c).leavesExact 1 t = owns (c : Thread nD τ) (ms5_1 t) fullShare ((dat5 V c).after 1 t) from by
          unfold Dat.leavesExact; rw [liveAt5_1 t], after5_1]
        rw [show (dat5 V c).leavesExact 2 t = owns (c : Thread nD τ) (ms5_2 t) fullShare ((dat5 V c).after 2 t) from by
          unfold Dat.leavesExact; rw [liveAt5_2 t], after5_2]
        rw [show (dat5 V c).leavesExact 3 t = owns (c : Thread nD τ) (ms5_3 t) fullShare ((dat5 V c).after 3 t) from by
          unfold Dat.leavesExact; rw [liveAt5_3 t], after5_3]
        rw [show (dat5 V c).leavesExact 4 t = owns (c : Thread nD τ) (ms5_4 t) fullShare ((dat5 V c).after 4 t) from by
          unfold Dat.leavesExact; rw [liveAt5_4 t], after5_4]
        rw [show (dat5 V c).leavesExact 5 t = owns (c : Thread nD τ) (ms5_5 t) fullShare ((dat5 V c).after 5 t) from by
          unfold Dat.leavesExact; rw [liveAt5_5 t], after5_5]
        rw [show (dat5 V c).leavesExact 6 t = owns (c : Thread nD τ) (ms5_6 t) fullShare ((dat5 V c).after 6 t) from by
          unfold Dat.leavesExact; rw [liveAt5_6 t], after5_6]
        rw [show (dat5 V c).leavesExact 7 t = owns (c : Thread nD τ) (ms5_7 t) fullShare ((dat5 V c).after 7 t) from by
          unfold Dat.leavesExact; rw [liveAt5_7 t], after5_7]
        rw [show (dat5 V c).leavesExact 8 t = owns (c : Thread nD τ) (ms5_8 t) fullShare ((dat5 V c).after 8 t) from by
          unfold Dat.leavesExact; rw [liveAt5_8 t], after5_8]
        rw [Dat.leavesExact_idle (dat5 V c) 9 t (idleAt5_9_A t ((hcond5_0 t).mpr h0) (fun h => h1 ((hcond5_1 t).mp h))) (noFlush5_9_A t ((hcond5_0 t).mpr h0) (fun h => h1 ((hcond5_1 t).mp h)))]
        rw [outsAt5_A V c t h0 h1]
        unfold sout5_A_0 sout5_A_1 sout5_A_2; (try dsimp only)
        by_cases hz : t.val = 0
        ·
          rw [PhiS5_castSucc V c t, PhiS5_zero V c _ _ hz, PhiA5_eq]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun5_A c (grid5.coords t) _ _ _ _ _ _ _ _ _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover5_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover5_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover5_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
        ·
          rw [PhiS5_castSucc V c t, PhiS5_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun5_A c (grid5.coords t) _ _ _ _ _ _ _ _ _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexists _; iexact HS0
          isplitl [HS1]; · iexists _; iexact HS1
          isplitl [HS2]; · iexists _; iexact HS2
          iintro ⟨H0, H1, H2, H3, H4, H5, H6, H7, H8, H9, ⟨%es0, HS0⟩, ⟨%es1, HS1⟩, ⟨%es2, HS2⟩⟩
          isplitl [HS0 HS1 HS2 Hr Hg]
          · isplitl [HS0 HS1 HS2 Hr]
            · isplitl [HS0 HS1 HS2]
              · isplitl [HS0]
                · unfold owns; iexists _; isplitr
                  swap; · iexact HS0
                  ipureintro; exact View.read_writes_of_cover _ _ _ _ _ (scover5_A_0 c _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover5_A_1 c _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover5_A_2 c _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
  · by_cases h1 : t.val % 32 = 31
    ·
        rw [show (dat5 V c).leavesExact 0 t = owns (c : Thread nD τ) (ms5_0 t) fullShare ((dat5 V c).after 0 t) from by
          unfold Dat.leavesExact; rw [liveAt5_0 t], after5_0]
        rw [show (dat5 V c).leavesExact 1 t = owns (c : Thread nD τ) (ms5_1 t) fullShare ((dat5 V c).after 1 t) from by
          unfold Dat.leavesExact; rw [liveAt5_1 t], after5_1]
        rw [show (dat5 V c).leavesExact 2 t = owns (c : Thread nD τ) (ms5_2 t) fullShare ((dat5 V c).after 2 t) from by
          unfold Dat.leavesExact; rw [liveAt5_2 t], after5_2]
        rw [show (dat5 V c).leavesExact 3 t = owns (c : Thread nD τ) (ms5_3 t) fullShare ((dat5 V c).after 3 t) from by
          unfold Dat.leavesExact; rw [liveAt5_3 t], after5_3]
        rw [show (dat5 V c).leavesExact 4 t = owns (c : Thread nD τ) (ms5_4 t) fullShare ((dat5 V c).after 4 t) from by
          unfold Dat.leavesExact; rw [liveAt5_4 t], after5_4]
        rw [show (dat5 V c).leavesExact 5 t = owns (c : Thread nD τ) (ms5_5 t) fullShare ((dat5 V c).after 5 t) from by
          unfold Dat.leavesExact; rw [liveAt5_5 t], after5_5]
        rw [show (dat5 V c).leavesExact 6 t = owns (c : Thread nD τ) (ms5_6 t) fullShare ((dat5 V c).after 6 t) from by
          unfold Dat.leavesExact; rw [liveAt5_6 t], after5_6]
        rw [show (dat5 V c).leavesExact 7 t = owns (c : Thread nD τ) (ms5_7 t) fullShare ((dat5 V c).after 7 t) from by
          unfold Dat.leavesExact; rw [liveAt5_7 t], after5_7]
        rw [show (dat5 V c).leavesExact 8 t = owns (c : Thread nD τ) (ms5_8 t) fullShare ((dat5 V c).after 8 t) from by
          unfold Dat.leavesExact; rw [liveAt5_8 t], after5_8]
        rw [show (dat5 V c).leavesExact 9 t = owns (c : Thread nD τ) (ms5_9 t) fullShare ((dat5 V c).after 9 t) from by
          unfold Dat.leavesExact; rw [liveAt5_9_C t (fun h => h0 ((hcond5_0 t).mp h)) ((hcond5_1 t).mpr h1)], after5_9]
        rw [outsAt5_C V c t h0 h1]
        unfold out5_C_9 sout5_C_0 sout5_C_1 sout5_C_2; (try dsimp only)
        by_cases hz : t.val = 0
        · exfalso; omega
        ·
          rw [PhiS5_castSucc V c t, PhiS5_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun5_C c (grid5.coords t) _ _ _ _ _ _ _ _ _ _ _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [HS0]; · iexact HS0
          isplitl [HS1]; · iexact HS1
          isplitl [HS2]; · iexact HS2
          iintro ⟨H0, H1, H2, H3, H4, H5, H6, H7, H8, ⟨%e9, H9⟩, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover5_C_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover5_C_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          unfold owns; iexists _; isplitr
          swap; · iexact H9
          ipureintro; exact View.read_writes_of_cover _ _ _ _ _ (cover5_C_9 c _ _ _ _ _ _ _ _ _ _ _ _ _ _ _ _ _ _ _ _ _ _ _ _ _ _ _ _ _ _ _ _ _ _ _ _ _ _ _ _ _)
    ·
        rw [show (dat5 V c).leavesExact 0 t = owns (c : Thread nD τ) (ms5_0 t) fullShare ((dat5 V c).after 0 t) from by
          unfold Dat.leavesExact; rw [liveAt5_0 t], after5_0]
        rw [show (dat5 V c).leavesExact 1 t = owns (c : Thread nD τ) (ms5_1 t) fullShare ((dat5 V c).after 1 t) from by
          unfold Dat.leavesExact; rw [liveAt5_1 t], after5_1]
        rw [show (dat5 V c).leavesExact 2 t = owns (c : Thread nD τ) (ms5_2 t) fullShare ((dat5 V c).after 2 t) from by
          unfold Dat.leavesExact; rw [liveAt5_2 t], after5_2]
        rw [show (dat5 V c).leavesExact 3 t = owns (c : Thread nD τ) (ms5_3 t) fullShare ((dat5 V c).after 3 t) from by
          unfold Dat.leavesExact; rw [liveAt5_3 t], after5_3]
        rw [show (dat5 V c).leavesExact 4 t = owns (c : Thread nD τ) (ms5_4 t) fullShare ((dat5 V c).after 4 t) from by
          unfold Dat.leavesExact; rw [liveAt5_4 t], after5_4]
        rw [show (dat5 V c).leavesExact 5 t = owns (c : Thread nD τ) (ms5_5 t) fullShare ((dat5 V c).after 5 t) from by
          unfold Dat.leavesExact; rw [liveAt5_5 t], after5_5]
        rw [show (dat5 V c).leavesExact 6 t = owns (c : Thread nD τ) (ms5_6 t) fullShare ((dat5 V c).after 6 t) from by
          unfold Dat.leavesExact; rw [liveAt5_6 t], after5_6]
        rw [show (dat5 V c).leavesExact 7 t = owns (c : Thread nD τ) (ms5_7 t) fullShare ((dat5 V c).after 7 t) from by
          unfold Dat.leavesExact; rw [liveAt5_7 t], after5_7]
        rw [show (dat5 V c).leavesExact 8 t = owns (c : Thread nD τ) (ms5_8 t) fullShare ((dat5 V c).after 8 t) from by
          unfold Dat.leavesExact; rw [liveAt5_8 t], after5_8]
        rw [Dat.leavesExact_idle (dat5 V c) 9 t (idleAt5_9_B t (fun h => h0 ((hcond5_0 t).mp h)) (fun h => h1 ((hcond5_1 t).mp h))) (noFlush5_9_B t (fun h => h0 ((hcond5_0 t).mp h)) (fun h => h1 ((hcond5_1 t).mp h)))]
        rw [outsAt5_B V c t h0 h1]
        unfold sout5_B_0 sout5_B_1 sout5_B_2; (try dsimp only)
        by_cases hz : t.val = 0
        · exfalso; omega
        ·
          rw [PhiS5_castSucc V c t, PhiS5_pos V c _ _ hz]
          iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun5_B c (grid5.coords t) _ _ _ _ _ _ _ _ _ _ _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) _ _ _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          iintro ⟨H0, H1, H2, H3, H4, H5, H6, H7, H8, H9, HS0, ⟨%es1, HS1⟩, ⟨%es2, HS2⟩⟩
          isplitl [HS0 HS1 HS2 Hr Hg]
          · isplitl [HS0 HS1 HS2 Hr]
            · isplitl [HS0 HS1 HS2]
              · isplitl [HS0]
                · iexact HS0
                isplitl [HS1]
                · unfold owns; iexists _; isplitr
                  swap; · iexact HS1
                  ipureintro; exact View.read_writes_of_cover _ _ _ _ _ (scover5_B_1 c _ _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover5_B_2 c _ _ _ _ _ _ _ _ _ _ _ _ _ _ _ _ _ _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region (`ΦA`) is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives `ΦA` back: the carried scratch's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1, HS2⟩, Hr⟩, Hg⟩
  isplitl [HS0 HS1 HS2 Hr]
  · isplitl [HS0 HS1 HS2]
    · isplitl [HS0]
      · iexists _; iexact HS0
      isplitl [HS1]
      · iexists _; iexact HS1
      iexists _; iexact HS2
    iexact Hr
  iexact Hg

/-- The same after the last point. -/
theorem hout5 (c : Dev nD) : (dat5 V c).Φ (Fin.last cfg5.N) ⊢ Pipeline.ΦA spec5 c :=
  Phi_out5 V c _ (by rw [Fin.val_last]; have : cfg5.N = 64 := N_5; omega)

end Cert.KernelIdeal.Hand

end
-- ==== Proof.IdealRun.lean ====
import proofs.«162179_j58609123721967_2_alg».proof.Proof.IdealR0Frame
import proofs.«162179_j58609123721967_2_alg».proof.Proof.IdealR1Frame
import proofs.«162179_j58609123721967_2_alg».proof.Proof.IdealR2Frame
import proofs.«162179_j58609123721967_2_alg».proof.Proof.IdealR3Frame
import proofs.«162179_j58609123721967_2_alg».proof.Proof.IdealR4Frame
import proofs.«162179_j58609123721967_2_alg».proof.Proof.IdealR5Frame
import proofs.«162179_j58609123721967_2_alg».proof.Proof.Gen.KernelIdeal.Launch
import proofs.«162179_j58609123721967_2_alg».proof.Proof.Gen.KernelIdeal.Skeleton
import proofs.«162179_j58609123721967_2_alg».proof.Proof.Gen.KernelIdeal.Points
import proofs.«162179_j58609123721967_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  The whole program as one run. Between two items of the entry function every core holds each of its unscoped buffers
  at a known contents: the launch contents, then what a stretch of host operations computes from them, then — after a
  kernel region — the same with the region's output arrays replaced by what its write-backs leave. Each region is entered
  by splitting its windows' arrays out of the unscoped buffers and left by putting them back; the first region stages
  two of its input arrays through two windows each, so there each of the two is held in two half shares. The run's
  conclusion is that every unscoped buffer ends at the last contents; read at the six arguments, which no item writes,
  it is the frame.
-/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- Core `c`'s buffers at launch. -/
abbrev W0 : Dev nD → Valuation τ sig (Elt F) := fun c b => (s₀ m ρ).mem ((c : Dev nD), b)
/-- After the first stretch of host operations (the positions and the two feature arrays). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the region that builds the two Gaussian kernels and their row sums: its four output arrays at what the
    write-backs leave, every other buffer as entered. -/
def W2 (c : Dev nD) : Valuation τ sig (Elt F) :=
  Function.update (Function.update (Function.update (Function.update (W1 m ρ c)
    (Proc.devRef .tc main_v21_0) ((dat0 (V1 m ρ) c).arrAt 4 cfg0.N))
    (Proc.devRef .tc main_v21_1) ((dat0 (V1 m ρ) c).arrAt 5 cfg0.N))
    (Proc.devRef .tc main_v21_2) ((dat0 (V1 m ρ) c).arrAt 6 cfg0.N))
    (Proc.devRef .tc main_v21_3) ((dat0 (V1 m ρ) c).arrAt 7 cfg0.N)
abbrev V2 : (c : Dev nD) → (b : Ref sig .tc) → Buf (Elt F) ((c : Thread nD τ).loc b) := fun c b => W2 m ρ c b
/-- After the re-shapings before the first mean-field step. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After mean-field step 1: its output array at what the write-backs leave. -/
def W4 (c : Dev nD) : Valuation τ sig (Elt F) :=
  Function.update (W3 m ρ c) (Proc.devRef .tc main_v28) ((dat1 (V3 m ρ) c).arrAt 9 cfg1.N)
abbrev V4 : (c : Dev nD) → (b : Ref sig .tc) → Buf (Elt F) ((c : Thread nD τ).loc b) := fun c b => W4 m ρ c b
/-- After mean-field step 2: its output array at what the write-backs leave. -/
def W5 (c : Dev nD) : Valuation τ sig (Elt F) :=
  Function.update (W4 m ρ c) (Proc.devRef .tc main_v29) ((dat2 (V4 m ρ) c).arrAt 9 cfg2.N)
abbrev V5 : (c : Dev nD) → (b : Ref sig .tc) → Buf (Elt F) ((c : Thread nD τ).loc b) := fun c b => W5 m ρ c b
/-- After mean-field step 3: its output array at what the write-backs leave. -/
def W6 (c : Dev nD) : Valuation τ sig (Elt F) :=
  Function.update (W5 m ρ c) (Proc.devRef .tc main_v30) ((dat3 (V5 m ρ) c).arrAt 9 cfg3.N)
abbrev V6 : (c : Dev nD) → (b : Ref sig .tc) → Buf (Elt F) ((c : Thread nD τ).loc b) := fun c b => W6 m ρ c b
/-- After mean-field step 4: its output array at what the write-backs leave. -/
def W7 (c : Dev nD) : Valuation τ sig (Elt F) :=
  Function.update (W6 m ρ c) (Proc.devRef .tc main_v31) ((dat4 (V6 m ρ) c).arrAt 9 cfg4.N)
abbrev V7 : (c : Dev nD) → (b : Ref sig .tc) → Buf (Elt F) ((c : Thread nD τ).loc b) := fun c b => W7 m ρ c b
/-- After mean-field step 5: its output array at what the write-backs leave. -/
def W8 (c : Dev nD) : Valuation τ sig (Elt F) :=
  Function.update (W7 m ρ c) (Proc.devRef .tc main_v32) ((dat5 (V7 m ρ) c).arrAt 9 cfg5.N)
abbrev V8 : (c : Dev nD) → (b : Ref sig .tc) → Buf (Elt F) ((c : Thread nD τ).loc b) := fun c b => W8 m ρ c b
/-- After the last re-shaping: the result. -/
abbrev W9 : Dev nD → Valuation τ sig (Elt F) := fun c => StableHlo.after hostOps6 (W8 m ρ c)

/-! ## What each region leaves: its output arrays at the write-backs' result, everything else as entered -/

theorem hF0 (c : Dev nD) (w : Fin cfg0.W) : (dat0 (V1 m ρ) c).arrAt w cfg0.N = V2 m ρ c (Pipeline.arrRef spec0 w) := by
  have key : ∀ w : Fin cfg0.W, (w = 4 ∨ w = 5 ∨ w = 6 ∨ w = 7) ∨ ((cfg0.win w).isOut = false ∧ Pipeline.arrRef spec0 w ≠ main_v21_0
      ∧ Pipeline.arrRef spec0 w ≠ main_v21_1 ∧ Pipeline.arrRef spec0 w ≠ main_v21_2 ∧ Pipeline.arrRef spec0 w ≠ main_v21_3) := by decide
  rcases key w with (rfl | rfl | rfl | rfl) | ⟨hin, h0, h1, h2, h3⟩
  · show _ = W2 m ρ c (Proc.devRef .tc main_v21_0); unfold W2
    rw [Function.update_of_ne (StableHlo.devRef_ne_of_ne (by decide)), Function.update_of_ne (StableHlo.devRef_ne_of_ne (by decide)),
      Function.update_of_ne (StableHlo.devRef_ne_of_ne (by decide)), Function.update_self]
  · show _ = W2 m ρ c (Proc.devRef .tc main_v21_1); unfold W2
    rw [Function.update_of_ne (StableHlo.devRef_ne_of_ne (by decide)), Function.update_of_ne (StableHlo.devRef_ne_of_ne (by decide)), Function.update_self]
  · show _ = W2 m ρ c (Proc.devRef .tc main_v21_2); unfold W2
    rw [Function.update_of_ne (StableHlo.devRef_ne_of_ne (by decide)), Function.update_self]
  · show _ = W2 m ρ c (Proc.devRef .tc main_v21_3); unfold W2
    rw [Function.update_self]
  · rw [(dat0 (V1 m ρ) c).arrAt_in w hin, A_eq0]
    show W1 m ρ c (Proc.devRef .tc _) = W2 m ρ c (Proc.devRef .tc _); unfold W2
    rw [Function.update_of_ne (StableHlo.devRef_ne_of_ne h3), Function.update_of_ne (StableHlo.devRef_ne_of_ne h2),
      Function.update_of_ne (StableHlo.devRef_ne_of_ne h1), Function.update_of_ne (StableHlo.devRef_ne_of_ne h0)]

theorem hrest0 (c : Dev nD) : ∀ b, b ∉ Finset.univ.image (Pipeline.arrRef spec0) → V2 m ρ c b = V1 m ρ c b := by
  intro b hb
  have hne : ∀ w : Fin cfg0.W, Pipeline.arrRef spec0 w ≠ b := fun w e => hb (Finset.mem_image.mpr ⟨w, Finset.mem_univ _, e⟩)
  show W2 m ρ c (Proc.devRef .tc b) = W1 m ρ c (Proc.devRef .tc b); unfold W2
  rw [Function.update_of_ne (StableHlo.devRef_ne_of_ne (hne 7).symm), Function.update_of_ne (StableHlo.devRef_ne_of_ne (hne 6).symm),
    Function.update_of_ne (StableHlo.devRef_ne_of_ne (hne 5).symm), Function.update_of_ne (StableHlo.devRef_ne_of_ne (hne 4).symm)]

theorem hF1 (c : Dev nD) (w : Fin cfg1.W) : (dat1 (V3 m ρ) c).arrAt w cfg1.N = V4 m ρ c (Pipeline.arrRef spec1 w) := by
  have key : ∀ w : Fin cfg1.W, w = 9 ∨ ((cfg1.win w).isOut = false ∧ Pipeline.arrRef spec1 w ≠ main_v28) := by decide
  rcases key w with rfl | ⟨hin, hne⟩
  · show _ = W4 m ρ c (Proc.devRef .tc main_v28); unfold W4
    rw [Function.update_self]
  · rw [(dat1 (V3 m ρ) c).arrAt_in w hin, A_eq1]
    show W3 m ρ c (Proc.devRef .tc _) = W4 m ρ c (Proc.devRef .tc _); unfold W4
    rw [Function.update_of_ne (StableHlo.devRef_ne_of_ne hne)]

theorem hrest1 (c : Dev nD) : ∀ b, b ∉ Finset.univ.image (Pipeline.arrRef spec1) → V4 m ρ c b = V3 m ρ c b := by
  intro b hb
  have hne : Pipeline.arrRef spec1 9 ≠ b := fun e => hb (Finset.mem_image.mpr ⟨9, Finset.mem_univ _, e⟩)
  show W4 m ρ c (Proc.devRef .tc b) = W3 m ρ c (Proc.devRef .tc b); unfold W4
  rw [Function.update_of_ne (StableHlo.devRef_ne_of_ne hne.symm)]

theorem hF2 (c : Dev nD) (w : Fin cfg2.W) : (dat2 (V4 m ρ) c).arrAt w cfg2.N = V5 m ρ c (Pipeline.arrRef spec2 w) := by
  have key : ∀ w : Fin cfg2.W, w = 9 ∨ ((cfg2.win w).isOut = false ∧ Pipeline.arrRef spec2 w ≠ main_v29) := by decide
  rcases key w with rfl | ⟨hin, hne⟩
  · show _ = W5 m ρ c (Proc.devRef .tc main_v29); unfold W5
    rw [Function.update_self]
  · rw [(dat2 (V4 m ρ) c).arrAt_in w hin, A_eq2]
    show W4 m ρ c (Proc.devRef .tc _) = W5 m ρ c (Proc.devRef .tc _); unfold W5
    rw [Function.update_of_ne (StableHlo.devRef_ne_of_ne hne)]

theorem hrest2 (c : Dev nD) : ∀ b, b ∉ Finset.univ.image (Pipeline.arrRef spec2) → V5 m ρ c b = V4 m ρ c b := by
  intro b hb
  have hne : Pipeline.arrRef spec2 9 ≠ b := fun e => hb (Finset.mem_image.mpr ⟨9, Finset.mem_univ _, e⟩)
  show W5 m ρ c (Proc.devRef .tc b) = W4 m ρ c (Proc.devRef .tc b); unfold W5
  rw [Function.update_of_ne (StableHlo.devRef_ne_of_ne hne.symm)]

theorem hF3 (c : Dev nD) (w : Fin cfg3.W) : (dat3 (V5 m ρ) c).arrAt w cfg3.N = V6 m ρ c (Pipeline.arrRef spec3 w) := by
  have key : ∀ w : Fin cfg3.W, w = 9 ∨ ((cfg3.win w).isOut = false ∧ Pipeline.arrRef spec3 w ≠ main_v30) := by decide
  rcases key w with rfl | ⟨hin, hne⟩
  · show _ = W6 m ρ c (Proc.devRef .tc main_v30); unfold W6
    rw [Function.update_self]
  · rw [(dat3 (V5 m ρ) c).arrAt_in w hin, A_eq3]
    show W5 m ρ c (Proc.devRef .tc _) = W6 m ρ c (Proc.devRef .tc _); unfold W6
    rw [Function.update_of_ne (StableHlo.devRef_ne_of_ne hne)]

theorem hrest3 (c : Dev nD) : ∀ b, b ∉ Finset.univ.image (Pipeline.arrRef spec3) → V6 m ρ c b = V5 m ρ c b := by
  intro b hb
  have hne : Pipeline.arrRef spec3 9 ≠ b := fun e => hb (Finset.mem_image.mpr ⟨9, Finset.mem_univ _, e⟩)
  show W6 m ρ c (Proc.devRef .tc b) = W5 m ρ c (Proc.devRef .tc b); unfold W6
  rw [Function.update_of_ne (StableHlo.devRef_ne_of_ne hne.symm)]

theorem hF4 (c : Dev nD) (w : Fin cfg4.W) : (dat4 (V6 m ρ) c).arrAt w cfg4.N = V7 m ρ c (Pipeline.arrRef spec4 w) := by
  have key : ∀ w : Fin cfg4.W, w = 9 ∨ ((cfg4.win w).isOut = false ∧ Pipeline.arrRef spec4 w ≠ main_v31) := by decide
  rcases key w with rfl | ⟨hin, hne⟩
  · show _ = W7 m ρ c (Proc.devRef .tc main_v31); unfold W7
    rw [Function.update_self]
  · rw [(dat4 (V6 m ρ) c).arrAt_in w hin, A_eq4]
    show W6 m ρ c (Proc.devRef .tc _) = W7 m ρ c (Proc.devRef .tc _); unfold W7
    rw [Function.update_of_ne (StableHlo.devRef_ne_of_ne hne)]

theorem hrest4 (c : Dev nD) : ∀ b, b ∉ Finset.univ.image (Pipeline.arrRef spec4) → V7 m ρ c b = V6 m ρ c b := by
  intro b hb
  have hne : Pipeline.arrRef spec4 9 ≠ b := fun e => hb (Finset.mem_image.mpr ⟨9, Finset.mem_univ _, e⟩)
  show W7 m ρ c (Proc.devRef .tc b) = W6 m ρ c (Proc.devRef .tc b); unfold W7
  rw [Function.update_of_ne (StableHlo.devRef_ne_of_ne hne.symm)]

theorem hF5 (c : Dev nD) (w : Fin cfg5.W) : (dat5 (V7 m ρ) c).arrAt w cfg5.N = V8 m ρ c (Pipeline.arrRef spec5 w) := by
  have key : ∀ w : Fin cfg5.W, w = 9 ∨ ((cfg5.win w).isOut = false ∧ Pipeline.arrRef spec5 w ≠ main_v32) := by decide
  rcases key w with rfl | ⟨hin, hne⟩
  · show _ = W8 m ρ c (Proc.devRef .tc main_v32); unfold W8
    rw [Function.update_self]
  · rw [(dat5 (V7 m ρ) c).arrAt_in w hin, A_eq5]
    show W7 m ρ c (Proc.devRef .tc _) = W8 m ρ c (Proc.devRef .tc _); unfold W8
    rw [Function.update_of_ne (StableHlo.devRef_ne_of_ne hne)]

theorem hrest5 (c : Dev nD) : ∀ b, b ∉ Finset.univ.image (Pipeline.arrRef spec5) → V8 m ρ c b = V7 m ρ c b := by
  intro b hb
  have hne : Pipeline.arrRef spec5 9 ≠ b := fun e => hb (Finset.mem_image.mpr ⟨9, Finset.mem_univ _, e⟩)
  show W8 m ρ c (Proc.devRef .tc b) = W7 m ρ c (Proc.devRef .tc b); unfold W8
  rw [Function.update_of_ne (StableHlo.devRef_ne_of_ne hne.symm)]

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V5 m ρ) c
  | ⟨4, _⟩ => fun c => dat4 (V6 m ρ) c
  | ⟨5, _⟩ => fun c => dat5 (V7 m ρ) c
  | ⟨_ + 6, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W9 m ρ c) ∗ ∃ r, prngReg c r)

/-! ## The regions as segments -/

/-! ## The first region: two of its input arrays are each staged by two windows -/

/-- The six distinct buffers behind the eight windows. -/
theorem image_arr0 : Finset.univ.image (Pipeline.arrRef spec0)
    = ({main_v15, main_v20, main_v21_0, main_v21_1, main_v21_2, main_v21_3} : Finset (Ref sig .tc)) := by decide

/-- A core's unscoped buffers are the buffers behind the region's windows and the rest. -/
theorem unscopedBufs_split0 (c : Dev nD) (V : (b : Ref sig .tc) → Buf (Elt F) ((c : Thread nD τ).loc b)) :
    (unscopedBufs c V : sProp 𝕄) = iprop(Pipeline.arrBufs spec0 c V ∗ Pipeline.unscopedRest spec0 c V) := by
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl

/-- Splitting one index off an iterated separating conjunction, the right side in the proof mode's own spelling. -/
theorem bigSep_insert_sep {I : Type} [DecidableEq I] {s : Finset I} {i : I} (hi : i ∉ s) (Φ : I → sProp 𝕄) :
    bigSep (insert i s) Φ = iprop(Φ i ∗ bigSep s Φ) := BI.bigSep_insert hi

set_option maxHeartbeats 2000000 in
/-- The buffers behind the windows, each whole at the full share, are the region's arrays at the same contents: an array
    two windows stage is held in two halves, one per window. -/
theorem arrays0_iff (V : (c : Dev nD) → (b : Ref sig .tc) → Buf (Elt F) ((c : Thread nD τ).loc b)) (c : Dev nD) (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w)) :
    (Pipeline.arrBufs spec0 c V' : sProp 𝕄) ⊣⊢ (dat0 V c).arrays G := by
  unfold Pipeline.arrBufs Dat.arrays
  rw [image_arr0, bigSep_W0,
    bigSep_insert_sep (by decide), bigSep_insert_sep (by decide), bigSep_insert_sep (by decide), bigSep_insert_sep (by decide), bigSep_insert_sep (by decide), bigSep_singleton]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ, (arr_whole0 7).set_eq_univ]
  rw [hG 0, hG 1, hG 2, hG 3, hG 4, hG 5, hG 6, hG 7]
  have h15 : (((c : Thread nD τ).loc main_v15) ↦{fullShare} V' main_v15 : sProp 𝕄)
      ⊣⊢ iprop((((c : Thread nD τ).loc main_v15) ↦{fullShare.left} V' main_v15) ∗ ((c : Thread nD τ).loc main_v15) ↦{fullShare.right} V' main_v15) :=
    pointsTo_share (PosShare.mem_left_op_right fullShare)
  have h20 : (((c : Thread nD τ).loc main_v20) ↦{fullShare} V' main_v20 : sProp 𝕄)
      ⊣⊢ iprop((((c : Thread nD τ).loc main_v20) ↦{fullShare.left} V' main_v20) ∗ ((c : Thread nD τ).loc main_v20) ↦{fullShare.right} V' main_v20) :=
    pointsTo_share (PosShare.mem_left_op_right fullShare)
  constructor
  · iintro ⟨H15, H20, H0, H1, H2, H3⟩
    ihave H15' := h15.1 $$ H15
    icases H15' with ⟨Ha, Hb⟩
    ihave H20' := h20.1 $$ H20
    icases H20' with ⟨Hc, Hd⟩
    isplitl [Ha]; · iexact Ha
    isplitl [Hb]; · iexact Hb
    isplitl [Hc]; · iexact Hc
    isplitl [Hd]; · iexact Hd
    isplitl [H0]; · iexact H0
    isplitl [H1]; · iexact H1
    isplitl [H2]; · iexact H2
    iexact H3
  · iintro ⟨Ha, Hb, Hc, Hd, H0, H1, H2, H3⟩
    isplitl [Ha Hb]
    · iapply h15.2; isplitl [Ha]; · iexact Ha
      iexact Hb
    isplitl [Hc Hd]
    · iapply h20.2; isplitl [Hc]; · iexact Hc
      iexact Hd
    isplitl [H0]; · iexact H0
    isplitl [H1]; · iexact H1
    isplitl [H2]; · iexact H2
    iexact H3

set_option backward.isDefEq.respectTransparency.types false in
/-- The region that builds the two Gaussian kernels and their row sums, over the thread state. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄) ⊢ iprop((pdats m ρ 0 c).arrays ((pdats m ρ 0 c).arrAt · 0) ∗ Pipeline.unscopedRest spec0 c (V1 m ρ c)) := by
      rw [unscopedBufs_split0]
      exact sep_mono (arrays0_iff (V1 m ρ) c (V1 m ρ c) _ (fun w => A_eq0 (V1 m ρ) c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c)) ⊢ (unscopedBufs c (V2 m ρ c) : sProp 𝕄) := by
      rw [unscopedBufs_split0]
      refine sep_mono ?_ (Entails.of_eq ?_)
      · exact (arrays0_iff (V1 m ρ) c (V2 m ρ c) _ (hF0 m ρ c)).2
      · unfold Pipeline.unscopedRest
        exact bigSep_congr fun b hb => by rw [hrest0 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Mean-field step 1 over the thread state: its arrays split out of the unscoped buffers and put back at the exit contents;
    the generator register into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

set_option backward.isDefEq.respectTransparency.types false in
/-- Mean-field step 2 over the thread state: its arrays split out of the unscoped buffers and put back at the exit contents;
    the generator register into the region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun w => A_eq2 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine BIBase.Entails.trans (hout2 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

set_option backward.isDefEq.respectTransparency.types false in
/-- Mean-field step 3 over the thread state: its arrays split out of the unscoped buffers and put back at the exit contents;
    the generator register into the region's invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun w => A_eq3 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V5 m ρ) c)
    unfold Pipeline.ΦA
    iintro ⟨Hp, -, Hr⟩
    isplitl [Hr]; · iexact Hr
    iexact Hp
  hout c := by
    rw [Pipeline.ownSems0_none]
    refine BIBase.Entails.trans (hout3 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

set_option backward.isDefEq.respectTransparency.types false in
/-- Mean-field step 4 over the thread state: its arrays split out of the unscoped buffers and put back at the exit contents;
    the generator register into the region's invariant and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) fun w => A_eq4 (V6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V6 m ρ) c)
    unfold Pipeline.ΦA
    iintro ⟨Hp, -, Hr⟩
    isplitl [Hr]; · iexact Hr
    iexact Hp
  hout c := by
    rw [Pipeline.ownSems0_none]
    refine BIBase.Entails.trans (hout4 (V6 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

set_option backward.isDefEq.respectTransparency.types false in
/-- Mean-field step 5 over the thread state: its arrays split out of the unscoped buffers and put back at the exit contents;
    the generator register into the region's invariant and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V7 m ρ) c).loose
  hwaits := Pipeline.hwaits_of_owed_zero _ _ _ _ L lv 5 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec5 c (V7 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V7 m ρ c) fun w => A_eq5 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (V7 m ρ) c)
    unfold Pipeline.ΦA
    iintro ⟨Hp, -, Hr⟩
    isplitl [Hr]; · iexact Hr
    iexact Hp
  hout c := by
    rw [Pipeline.ownSems0_none]
    refine BIBase.Entails.trans (hout5 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V7 m ρ c) (V8 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

/-! ## @main as segments, and the launch -/

/-- @main's nine items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ), .region (reg2 m ρ), .region (reg3 m ρ), .region (reg4 m ρ), .region (reg5 m ρ),
    .host (hseg hostOps6 hostOps6_sub hostOps6_fresh (W8 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and every final state holds every unscoped buffer at the last contents `W9`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-! ## The arguments reach the end as launched -/

/-- A buffer that no host operation writes and that is no region's output array holds at the end what it held at launch. -/
theorem W9_kept (c : Dev nD) (r : Ref sig .tc) (h0 : r ∉ hostOps0_W) (h1 : r ∉ hostOps1_W) (h6 : r ∉ hostOps6_W)
    (n0 : r ≠ main_v21_0) (n1 : r ≠ main_v21_1) (n2 : r ≠ main_v21_2) (n3 : r ≠ main_v21_3)
    (n28 : r ≠ main_v28) (n29 : r ≠ main_v29) (n30 : r ≠ main_v30) (n31 : r ≠ main_v31) (n32 : r ≠ main_v32) :
    W9 m ρ c (Proc.devRef .tc r) = m ((c : Thread nD τ).loc r) := by
  show StableHlo.after hostOps6 (W8 m ρ c) (Proc.devRef .tc r) = _
  rw [StableHlo.after_of_writes_sub hostOps6 _ hostOps6_writes h6]
  unfold W8; rw [Function.update_of_ne (StableHlo.devRef_ne_of_ne n32)]
  unfold W7; rw [Function.update_of_ne (StableHlo.devRef_ne_of_ne n31)]
  unfold W6; rw [Function.update_of_ne (StableHlo.devRef_ne_of_ne n30)]
  unfold W5; rw [Function.update_of_ne (StableHlo.devRef_ne_of_ne n29)]
  unfold W4; rw [Function.update_of_ne (StableHlo.devRef_ne_of_ne n28)]
  show StableHlo.after hostOps1 (W2 m ρ c) (Proc.devRef .tc r) = _
  rw [StableHlo.after_of_writes_sub hostOps1 _ hostOps1_writes h1]
  unfold W2
  rw [Function.update_of_ne (StableHlo.devRef_ne_of_ne n3), Function.update_of_ne (StableHlo.devRef_ne_of_ne n2),
    Function.update_of_ne (StableHlo.devRef_ne_of_ne n1), Function.update_of_ne (StableHlo.devRef_ne_of_ne n0)]
  show StableHlo.after hostOps0 (W0 m ρ c) (Proc.devRef .tc r) = _
  rw [StableHlo.after_of_writes_sub hostOps0 _ hostOps0_writes h0]

/-- THE FRAME. Every weakly fair execution terminates, nothing faulting, and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W9_kept m ρ c main_arg0 (by decide) (by decide) (by decide) (by decide) (by decide) (by decide) (by decide) (by decide) (by decide) (by decide) (by decide) (by decide)),
     (h c _ (mem_uc main_arg1 (by decide))).trans (W9_kept m ρ c main_arg1 (by decide) (by decide) (by decide) (by decide) (by decide) (by decide) (by decide) (by decide) (by decide) (by decide) (by decide) (by decide)),
     (h c _ (mem_uc main_arg2 (by decide))).trans (W9_kept m ρ c main_arg2 (by decide) (by decide) (by decide) (by decide) (by decide) (by decide) (by decide) (by decide) (by decide) (by decide) (by decide) (by decide)),
     (h c _ (mem_uc main_arg3 (by decide))).trans (W9_kept m ρ c main_arg3 (by decide) (by decide) (by decide) (by decide) (by decide) (by decide) (by decide) (by decide) (by decide) (by decide) (by decide) (by decide)),
     (h c _ (mem_uc main_arg4 (by decide))).trans (W9_kept m ρ c main_arg4 (by decide) (by decide) (by decide) (by decide) (by decide) (by decide) (by decide) (by decide) (by decide) (by decide) (by decide) (by decide)),
     (h c _ (mem_uc main_arg5 (by decide))).trans (W9_kept m ρ c main_arg5 (by decide) (by decide) (by decide) (by decide) (by decide) (by decide) (by decide) (by decide) (by decide) (by decide) (by decide) (by decide))⟩)
    (run m ρ)

end Cert.KernelIdeal.Hand
end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibColumnSums.lean ====
/-
  Sums along the first axis of a two-axis array, on the extended reals.

  The sum along the first axis of an a×b array is, at column q, the sum over the rows k of the entry (k, q) — for a
  kernel body's lane reduction from the zero accumulator (`colsum_apply`), and for a host program's reduce-add, which
  also adds its initial value (`host_colsum_apply`). Both rest on one index fact: a column index q with the row index
  k put back on the first axis is (k, q) (`lift_col`). Nothing here mentions a program.
-/
import Idealize.ShloMosaic.PureOps.Ideal
import Idealize.ShloMosaic.PureOps.Ideal.Laws
import Idealize.ShloMosaic.PureOps.Reduce
import Idealize.ShloMosaic.Lib.ValueIdx

open scoped BigOperators

noncomputable section

namespace Cert.Lib.ColumnSums

open Idealize.ShloMosaic Idealize.ShloMosaic.ValueIdx

variable {a b : Nat} {φ : FTy}

/-- A column index q of an a×b array with a row index k put back on the first axis is (k, q). -/
theorem lift_col (h : (⟨2, ![a, b]⟩ : Shape).Reduces [0] ⟨1, ![b]⟩) (q : Fin b)
    (k : Fin ((⟨2, ![a, b]⟩ : Shape).size 0)) : h.lift (ix1 q) k = ix2 (⟨k.val, k.isLt⟩ : Fin a) q := by
  funext ax; apply Fin.ext
  match ax with
  | ⟨0, _⟩ => rfl
  | ⟨1, _⟩ => rfl

/-- The sum along the first axis of an a×b block, from the neutral accumulator, is at q the sum over k of the block at
    (k, q). -/
theorem colsum_apply (src : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (q : Fin b) :
    multiReduction .add [0] ⟨1, ![b]⟩ src acc h hφ hacc (ix1 q) = ∑ k : Fin a, src (ix2 k q) := by
  rw [Ideal.multiReduction_add_single]
  exact Finset.sum_congr rfl fun k _ => congrArg src (lift_col h q k)

/-- The host's reduce-add along the first axis of an a×b array is at q the initial value plus the sum over k of the
    array at (k, q). -/
theorem host_colsum_apply (h' : (⟨2, ![a, b]⟩ : Shape).ReducesTo [0] ⟨1, ![b]⟩) (h : (⟨2, ![a, b]⟩ : Shape).Reduces [0] ⟨1, ![b]⟩)
    (x : (⟨2, ![a, b]⟩ : Shape).Idx → EReal) (init : EReal) (q : Fin b) :
    Ideal.hostReduceAdd h' x init (ix1 q) = init + ∑ k : Fin a, x (ix2 k q) := by
  rw [Ideal.hostReduceAdd_single h' h]
  exact congrArg (init + ·) (Finset.sum_congr rfl fun k _ => congrArg x (lift_col h q k))

end Cert.Lib.ColumnSums

end
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«162179_j58609123721967_2_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«162179_j58609123721967_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«162179_j58609123721967_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibHostColumnMax.lean ====
/-
  The reference's maximum along the first axis of an a×b array, on the extended reals, read at an index: at column q
  the fold of max, from the initial value's element, over the entries (k, q) of the column. Nothing here mentions a
  program.
-/
import Idealize.ShloMosaic.PureOps.Ideal
import Idealize.ShloMosaic.PureOps.Ideal.Laws
import Idealize.ShloMosaic.PureOps.Reduce
import Idealize.ShloMosaic.Lib.ValueIdx
import proofs.«162179_j58609123721967_2_alg».proof.Proof.LibColumnSums

namespace Cert.Lib.HostColumnMax

open Idealize.ShloMosaic Idealize.ShloMosaic.ValueIdx

variable {a b : Nat}

/-- The reference's one-operand reduce with a maximum body along the first axis of an a×b array is at q the fold of
    max, from the initial value's element, over the entries (k, q) of column q. -/
theorem host_colmax_apply {u : Shape} (x : (⟨2, ![a, b]⟩ : Shape).Idx → Ideal .f32) (init : u.Idx → Ideal .f32)
    (h' : (⟨2, ![a, b]⟩ : Shape).ReducesTo [0] ⟨1, ![b]⟩) (hu : 0 < u.numel) (q : Fin b) :
    Host.reduce (FloatOps.maximumf (F := Ideal) (φ := .f32)) x init h' hu (ix1 q)
      = (Finset.univ : Finset (Fin a)).fold max (init (Shape.Idx.first hu)) (fun k => x (ix2 k q)) := by
  have h : (⟨2, ![a, b]⟩ : Shape).Reduces [0] ⟨1, ![b]⟩ := ⟨h'.1, Nat.one_pos, h'.2⟩
  rw [Host.reduce_eq_fold_single FloatOps.maximumf x init h' h hu]
  have hf : (x ∘ h.lift (ix1 q)) = fun k : Fin a => x (ix2 k q) :=
    funext fun k => congrArg x (Cert.Lib.ColumnSums.lift_col h q k)
  exact congrArg (fun f => Finset.fold max (init (Shape.Idx.first hu)) f (Finset.univ : Finset (Fin a))) hf

end Cert.Lib.HostColumnMax
-- ==== Proof.RefSpec.lean ====
/-
  Mean-field inference of a dense conditional random field over an 8 × 32 × 32 volume of 8192 sites and 21 labels, as
  functions of whole arrays on the extended reals. Nothing here mentions a program.

  A feature array f (C rows, one column per site) gives the Gaussian affinity of two sites i and j,
      gaussK f i j = exp (−½ · max (‖f i‖² + ‖f j‖² − 2 · ⟨f i, f j⟩, 0)),
  with ‖f n‖² the sum over the C rows of the squares (sqNorm) and ⟨f i, f j⟩ the sum of the products, and the
  normalizer of site i, the sum over every site j of its affinity to i (rowNorm). The softmax over the 21 labels of a
  21 × 8192 array is taken column by column (softmax0): the column's maximum, the exponentials of the differences,
  their sum, the quotient. One mean-field step sends the current scores cur to
      unary + compat · (spw · ((softmax0 cur · Ksp) / nsp) + biw · ((softmax0 cur · Kbi) / nbi)),
  the products being matrix products and each quotient dividing column n by the normalizer of site n. The result is
  the softmax of the scores after five steps from the logits, laid back over the volume.

  The two feature arrays are functions of the image alone. The position of site n is its three coordinates in the
  volume (n / 1024, n / 32 mod 32, n mod 32), each an integer word read as a real; the spatial features are the
  positions divided by the word of 3; the bilateral features are the positions divided by the word of 160 over the
  image's three channels divided by the word of 3.

  Every sum is written as the sum it is: a matrix product as the plain sum over the contracted coordinate, a
  reduction from an initial word as that word's value plus the sum (the zero word 0x00000000 for a sum) or as the fold
  of max from that word's value (0xFF800000, −∞, for a maximum). Float literals stay words.
-/
import Idealize.ShloMosaic.PureOps.Ideal
import Idealize.ShloMosaic.Lib.ValueIdx
import proofs.«162179_j58609123721967_2_alg».proof.Proof.LibMatProd

open scoped BigOperators

noncomputable section

namespace Cert.ReferenceIdeal.RefValue

open Idealize.ShloMosaic Idealize.ShloMosaic.ValueIdx Cert.Lib.MatProd

/-- An a × b array of extended reals. -/
abbrev Mat (a b : Nat) : Type := (⟨2, ![a, b]⟩ : Shape).Idx → EReal

/-- An array of extended reals over one batch entry, l channels and the 8 × 32 × 32 volume. -/
abbrev Vol (l : Nat) : Type := (⟨5, ![1, l, 8, 32, 32]⟩ : Shape).Idx → EReal

/-! ## The Gaussian affinity of a feature array -/

section Gauss
variable {C : Nat}

/-- The squared norm of column n of a feature array: the zero word's value plus the sum over the rows of the
    squares. -/
def sqNorm (f : Mat C 8192) (n : Fin 8192) : EReal :=
  Ideal.ofBits .f32 0x00000000#32 + ∑ c : Fin C, f (ix2 c n) * f (ix2 c n)

/-- The inner product of columns i and j of a feature array. -/
def gram (f : Mat C 8192) (i j : Fin 8192) : EReal := ∑ c : Fin C, f (ix2 c i) * f (ix2 c j)

/-- The Gaussian affinity of sites i and j: exp (−½ · max (‖f i‖² + ‖f j‖² − 2 · ⟨f i, f j⟩, 0)). -/
def gaussK (f : Mat C 8192) (i j : Fin 8192) : EReal :=
  Ideal.exp (Ideal.ofBits .f32 0xBF000000#32 *
    max ((sqNorm f i + sqNorm f j) - Ideal.ofBits .f32 0x40000000#32 * gram f i j) (Ideal.ofBits .f32 0x00000000#32))

/-- The affinities as an 8192 × 8192 array. -/
def gaussMat (f : Mat C 8192) : Mat 8192 8192 := fun i => gaussK f (i 0) (i 1)

theorem gaussMat_apply (f : Mat C 8192) (i j : Fin 8192) : gaussMat f (ix2 i j) = gaussK f i j := rfl

/-- The normalizer of site i: the zero word's value plus the sum over every site j of the affinity of i and j. -/
def rowNorm (f : Mat C 8192) (i : Fin 8192) : EReal :=
  Ideal.ofBits .f32 0x00000000#32 + ∑ j : Fin 8192, gaussK f i j

end Gauss

/-! ## The softmax over the labels -/

/-- The maximum of column n over the 21 labels: the fold of max from −∞, and once more the maximum with −∞. -/
def colMax (cur : Mat 21 8192) (n : Fin 8192) : EReal :=
  max (Ideal.ofBits .f32 0xFF800000#32)
    ((Finset.univ : Finset (Fin 21)).fold max (Ideal.ofBits .f32 0xFF800000#32) fun l => cur (ix2 l n))

/-- The exponential of an entry less its column's maximum. -/
def expShift (cur : Mat 21 8192) (l : Fin 21) (n : Fin 8192) : EReal := Ideal.exp (cur (ix2 l n) - colMax cur n)

/-- The sum over the labels of column n's exponentials, from the zero word's value. -/
def expSum (cur : Mat 21 8192) (n : Fin 8192) : EReal :=
  Ideal.ofBits .f32 0x00000000#32 + ∑ l : Fin 21, expShift cur l n

/-- The softmax over the labels, column by column. -/
def softmax0 (cur : Mat 21 8192) : Mat 21 8192 := fun i => Ideal.div (expShift cur (i 0) (i 1)) (expSum cur (i 1))

theorem softmax0_apply (cur : Mat 21 8192) (l : Fin 21) (n : Fin 8192) :
    softmax0 cur (ix2 l n) = Ideal.div (expShift cur l n) (expSum cur n) := rfl

/-! ## One mean-field step, and five -/

/-- The label distributions filtered by an affinity array and normalized: column n of q · K divided by the normalizer
    of site n. -/
def filtered (q : Mat 21 8192) (K : Mat 8192 8192) (nrm : Fin 8192 → EReal) : Mat 21 8192 :=
  fun i => Ideal.div (matProd q K i) (nrm (i 1))

theorem filtered_apply (q : Mat 21 8192) (K : Mat 8192 8192) (nrm : Fin 8192 → EReal) (l : Fin 21) (n : Fin 8192) :
    filtered q K nrm (ix2 l n) = Ideal.div (∑ k : Fin 8192, q (ix2 l k) * K (ix2 k n)) (nrm n) := rfl

/-- The weighted sum of the two filtered arrays: spw · sp + biw · bi. -/
def weighted (spw biw : Mat 21 21) (sp bi : Mat 21 8192) : Mat 21 8192 :=
  fun i => matProd spw sp i + matProd biw bi i

/-- The scores that label distributions q give: unary + compat · (spw · ((q · Ksp) / nsp) + biw · ((q · Kbi) / nbi)). -/
def meanFieldUpdate (Ksp Kbi : Mat 8192 8192) (nsp nbi : Fin 8192 → EReal) (un : Mat 21 8192) (spw biw compat : Mat 21 21)
    (q : Mat 21 8192) : Mat 21 8192 :=
  fun i => un i + matProd compat (weighted spw biw (filtered q Ksp nsp) (filtered q Kbi nbi)) i

/-- One mean-field step: the scores that the softmax of the current scores gives. -/
def meanFieldStep (Ksp Kbi : Mat 8192 8192) (nsp nbi : Fin 8192 → EReal) (un : Mat 21 8192) (spw biw compat : Mat 21 21)
    (cur : Mat 21 8192) : Mat 21 8192 :=
  meanFieldUpdate Ksp Kbi nsp nbi un spw biw compat (softmax0 cur)

/-- Five applications of a step. -/
def fiveSteps (step : Mat 21 8192 → Mat 21 8192) (cur : Mat 21 8192) : Mat 21 8192 :=
  step (step (step (step (step cur))))

/-! ## The volume laid out as 8192 sites, and back -/

/-- Site n of the volume is the voxel (n / 1024, n / 32 mod 32, n mod 32): an array over the volume as l rows of 8192
    sites. -/
def flat {l : Nat} (x : Vol l) : Mat l 8192 := fun i =>
  x (ix5 (0 : Fin 1) (i 0)
    (⟨(i 1).val / 1024, by have := idx2_lt1 i; omega⟩ : Fin 8)
    (⟨(i 1).val / 32 % 32, Nat.mod_lt _ (by decide)⟩ : Fin 32)
    (⟨(i 1).val % 32, Nat.mod_lt _ (by decide)⟩ : Fin 32))

/-- The voxel (d, h, w) is site 1024 · d + 32 · h + w: l rows of 8192 sites as an array over the volume. -/
def unflat {l : Nat} (y : Mat l 8192) : Vol l := fun i =>
  y (ix2 (i 1) (⟨1024 * (i 2).val + 32 * (i 3).val + (i 4).val, by
    have h2 : (i 2).val < 8 := (i 2).isLt
    have h3 : (i 3).val < 32 := (i 3).isLt
    have h4 : (i 4).val < 32 := (i 4).isLt
    omega⟩ : Fin 8192))

/-! ## The positions of the sites and the two feature arrays -/

/-- Coordinate c of site n of the 8 × 32 × 32 volume: its depth n / 1024, its row n / 32 mod 32, its column n mod 32. -/
def siteCoord (c : Fin 3) (n : Fin 8192) : Nat :=
  if c.val = 0 then n.val / 1024 else if c.val = 1 then n.val / 32 % 32 else n.val % 32

/-- The positions of the sites: coordinate c of site n, a 32-bit integer word read signed, as a real. -/
def positions : Mat 3 8192 := fun i => (((BitVec.ofNat 32 (siteCoord (i 0) (i 1))).toInt : ℝ) : EReal)

theorem positions_apply (c : Fin 3) (n : Fin 8192) :
    positions (ix2 c n) = (((BitVec.ofNat 32 (siteCoord c n)).toInt : ℝ) : EReal) := rfl

/-- The spatial features: the positions divided by the word of 3. -/
def spFeat : Mat 3 8192 := fun i => Ideal.div (positions i) (Ideal.ofBits .f32 0x40400000#32)

/-- The bilateral features: rows 0, 1, 2 the positions divided by the word of 160, rows 3, 4, 5 the image's three
    channels over the sites divided by the word of 3. -/
def biFeat (image : Vol 3) : Mat 6 8192 := fun i =>
  if h : (i 0).val < 3 then
    Ideal.div (positions (ix2 (⟨(i 0).val, h⟩ : Fin 3) (i 1))) (Ideal.ofBits .f32 0x43200000#32)
  else
    Ideal.div (flat image (ix2 (⟨(i 0).val - 3, by have := idx2_lt0 i; omega⟩ : Fin 3) (i 1)))
      (Ideal.ofBits .f32 0x40400000#32)

theorem biFeat_apply_lo (image : Vol 3) (c : Fin 6) (n : Fin 8192) (h : c.val < 3) :
    biFeat image (ix2 c n)
      = Ideal.div (positions (ix2 (⟨c.val, h⟩ : Fin 3) n)) (Ideal.ofBits .f32 0x43200000#32) := dif_pos h

theorem biFeat_apply_hi (image : Vol 3) (c : Fin 6) (n : Fin 8192) (h : ¬ c.val < 3) :
    biFeat image (ix2 c n)
      = Ideal.div (flat image (ix2 (⟨c.val - 3, by have := c.isLt; omega⟩ : Fin 3) n)) (Ideal.ofBits .f32 0x40400000#32) :=
  dif_neg h

/-! ## The result -/

/-- The label distributions after five mean-field steps from the logits: a function of the spatial features (3 rows),
    the bilateral features (6 rows), the logits, the unary scores and the three 21 × 21 weight arrays. -/
def crfOut (fsp : Mat 3 8192) (fbi : Mat 6 8192) (logits unary : Vol 21) (spw biw compat : Mat 21 21) : Vol 21 :=
  unflat (softmax0 (fiveSteps
    (meanFieldStep (gaussMat fsp) (gaussMat fbi) (rowNorm fsp) (rowNorm fbi) (flat unary) spw biw compat)
    (flat logits)))

end Cert.ReferenceIdeal.RefValue

end
-- ==== Proof.RefStages.lean ====
/-
  The reference's chains of host operations, read as the whole-array functions of the specification.

  Each lemma takes one chain as the reference spells it — over any operand arrays of the literal shapes, the shape
  facts as hypotheses — and says which function of the operands it is: the squared norms of a feature array's columns
  and the Gaussian affinities built from them; the normalizers (the affinities summed along each row); the softmax over
  the labels (the column maxima from −∞, the exponentials of the differences, their column sums, the quotients); a
  label array filtered by an affinity array and divided column by column by the normalizers; the scores of one
  mean-field update; the two re-shapings between the volume and its 8192 sites; and the positions of the sites (the
  three coordinate grids stacked and converted) with the two feature arrays made from them and the image. A sum along an axis is the initial
  word's value plus the sum over that axis's coordinate, a maximum the fold of max from the initial word's value, a
  matrix product the plain sum over the contracted coordinate. Nothing here mentions a program.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«162179_j58609123721967_2_alg».proof.Proof.LibRowReductions
import proofs.«162179_j58609123721967_2_alg».proof.Proof.LibColumnSums
import proofs.«162179_j58609123721967_2_alg».proof.Proof.LibHostRows
import proofs.«162179_j58609123721967_2_alg».proof.Proof.LibRowVector
import proofs.«162179_j58609123721967_2_alg».proof.Proof.LibMatProd
import proofs.«162179_j58609123721967_2_alg».proof.Proof.LibHostColumnMax
import proofs.«162179_j58609123721967_2_alg».proof.Proof.RefSpec

open scoped BigOperators

noncomputable section

namespace Cert.ReferenceIdeal.RefValue

open Idealize.ShloMosaic Idealize.ShloMosaic.ValueIdx Cert.Lib.MatProd

/-! ## Broadcasts of a vector and of a scalar, read at an index -/

section Broadcasts
variable {α : Type} {n c r : Nat}

/-- A vector of n entries made an n × 1 column and repeated across c columns reads its entry p at every (p, q). -/
theorem colBcast_apply (x : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 x) (ix2 p q) = x (ix1 p) :=
  (Cert.Lib.RowReductions.bcastInDim_cols_apply _ h2 p q).trans (Cert.Lib.RowReductions.bcastInDim_col_apply x h1 p)

/-- A vector of n entries made a 1 × n row and repeated down r rows reads its entry q at every (p, q). -/
theorem rowBcast_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![r, n]⟩ ![0, 1]) (p : Fin r) (q : Fin n) :
    broadcastInDim ⟨2, ![r, n]⟩ ![0, 1] h2 (broadcastInDim ⟨2, ![1, n]⟩ ![1] h1 x) (ix2 p q) = x (ix1 q) :=
  (Cert.Lib.RowVector.bcastInDim_rows_apply _ h2 p q).trans
    (by rw [Cert.Lib.RowVector.bcastInDim_eq_asRow]; rfl)

/-- A scalar constant broadcast to any shape reads the word's value everywhere. -/
theorem scalarBcast_apply {s : Shape} (w : BitVec 32) (h : (⟨0, ![]⟩ : Shape).BroadcastsInDim s ![]) (i : s.Idx) :
    broadcastInDim s ![] h (constant (F := Ideal) ⟨0, ![]⟩ .f32 w) i = Ideal.ofBits .f32 w :=
  Cert.Lib.RowVector.bcastInDim_scalar_apply _ h i

end Broadcasts

/-- The host's matrix product of an m × k by a k × n array is the whole-array product. -/
theorem hostDot_eq_matProd {m k n : Nat} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![m, k]⟩ .f32) (B : FVec Ideal ⟨2, ![k, n]⟩ .f32) :
    Host.dotGeneral (F := Ideal) d none A B = matProd A B :=
  dotGeneral_eq_matProd d hlc hrc hln hrn hlb hrb none .single A B

/-! ## The Gaussian affinities and their normalizers -/

section Gauss
variable {C : Nat}

/-- The sum along the first axis of the squares of a feature array is at column n its squared norm. -/
theorem sqNorm_stage (f : FVec Ideal ⟨2, ![C, 8192]⟩ .f32)
    (hred : (⟨2, ![C, 8192]⟩ : Shape).ReducesTo [0] ⟨1, ![8192]⟩) (hS : 0 < (⟨0, ![]⟩ : Shape).numel) (n : Fin 8192) :
    Host.reduceAdd (F := Ideal) (mulf f f) (constant (F := Ideal) ⟨0, ![]⟩ .f32 0x00000000#32) hred hS (ix1 n)
      = sqNorm f n := by
  have h : (⟨2, ![C, 8192]⟩ : Shape).Reduces [0] ⟨1, ![8192]⟩ := ⟨hred.1, Nat.one_pos, hred.2⟩
  exact Cert.Lib.ColumnSums.host_colsum_apply hred h (mulf f f) (Ideal.ofBits .f32 0x00000000#32) n

/-- The exponential of a scaled, clamped difference of arrays, element by element. -/
theorem gauss_pointwise {s : Shape} (c1 A B c2 D c0 : FVec Ideal s .f32) (i : s.Idx) :
    Host.exp (F := Ideal) (mulf c1 (maximumf (subf (addf A B) (mulf c2 D)) c0)) i
      = Ideal.exp (c1 i * max ((A i + B i) - c2 i * D i) (c0 i)) := rfl

/-- The product of a feature array's transpose with the array is at (p, q) the inner product of columns p and q. -/
theorem gram_stage (f : FVec Ideal ⟨2, ![C, 8192]⟩ .f32)
    (htr : (⟨2, ![C, 8192]⟩ : Shape).Transposes [1, 0] ⟨2, ![8192, C]⟩)
    (d : DotDims ⟨2, ![8192, C]⟩ ⟨2, ![C, 8192]⟩ ⟨2, ![8192, 8192]⟩)
    (hlc : d.lhsContracting = [1]) (hrc : d.rhsContracting = [0]) (hln : d.lhsNonContracting = [0])
    (hrn : d.rhsNonContracting = [1]) (hlb : d.lhsBatch = []) (hrb : d.rhsBatch = []) (p q : Fin 8192) :
    Host.dotGeneral (F := Ideal) d none (transpose ⟨2, ![8192, C]⟩ [1, 0] f htr) f (ix2 p q) = gram f p q := by
  rw [hostDot_eq_matProd d hlc hrc hln hrn hlb hrb, matProd_apply]
  exact Finset.sum_congr rfl fun c _ => congrArg (· * f (ix2 c q))
    (transpose_apply [1, 0] f htr (ix2 p c) (ix2 c p) fun b => by
      match b with
      | ⟨0, _⟩ => rfl
      | ⟨1, _⟩ => rfl)

/-- The reference's chain for a Gaussian kernel — the squared norms down the rows plus the squared norms along the
    columns, less twice the Gram matrix, clamped at zero, halved and negated, exponentiated — is the array of
    affinities. -/
theorem gauss_stage (f : FVec Ideal ⟨2, ![C, 8192]⟩ .f32)
    (hS : 0 < (⟨0, ![]⟩ : Shape).numel)
    (hsc : (⟨0, ![]⟩ : Shape).BroadcastsInDim ⟨2, ![8192, 8192]⟩ ![])
    (hc1 : (⟨1, ![8192]⟩ : Shape).BroadcastsInDim ⟨2, ![8192, 1]⟩ ![0])
    (hc2 : (⟨2, ![8192, 1]⟩ : Shape).BroadcastsInDim ⟨2, ![8192, 8192]⟩ ![0, 1])
    (hr1 : (⟨1, ![8192]⟩ : Shape).BroadcastsInDim ⟨2, ![1, 8192]⟩ ![1])
    (hr2 : (⟨2, ![1, 8192]⟩ : Shape).BroadcastsInDim ⟨2, ![8192, 8192]⟩ ![0, 1])
    (hred : (⟨2, ![C, 8192]⟩ : Shape).ReducesTo [0] ⟨1, ![8192]⟩)
    (htr : (⟨2, ![C, 8192]⟩ : Shape).Transposes [1, 0] ⟨2, ![8192, C]⟩)
    (d : DotDims ⟨2, ![8192, C]⟩ ⟨2, ![C, 8192]⟩ ⟨2, ![8192, 8192]⟩)
    (hlc : d.lhsContracting = [1]) (hrc : d.rhsContracting = [0]) (hln : d.lhsNonContracting = [0])
    (hrn : d.rhsNonContracting = [1]) (hlb : d.lhsBatch = []) (hrb : d.rhsBatch = []) :
    Host.exp (F := Ideal)
      (mulf (broadcastInDim ⟨2, ![8192, 8192]⟩ ![] hsc (constant (F := Ideal) ⟨0, ![]⟩ .f32 0xBF000000#32))
        (maximumf
          (subf
            (addf
              (broadcastInDim ⟨2, ![8192, 8192]⟩ ![0, 1] hc2 (broadcastInDim ⟨2, ![8192, 1]⟩ ![0] hc1
                (Host.reduceAdd (F := Ideal) (mulf f f) (constant (F := Ideal) ⟨0, ![]⟩ .f32 0x00000000#32) hred hS)))
              (broadcastInDim ⟨2, ![8192, 8192]⟩ ![0, 1] hr2 (broadcastInDim ⟨2, ![1, 8192]⟩ ![1] hr1
                (Host.reduceAdd (F := Ideal) (mulf f f) (constant (F := Ideal) ⟨0, ![]⟩ .f32 0x00000000#32) hred hS))))
            (mulf (broadcastInDim ⟨2, ![8192, 8192]⟩ ![] hsc (constant (F := Ideal) ⟨0, ![]⟩ .f32 0x40000000#32))
              (Host.dotGeneral (F := Ideal) d none (transpose ⟨2, ![8192, C]⟩ [1, 0] f htr) f)))
          (broadcastInDim ⟨2, ![8192, 8192]⟩ ![] hsc (constant (F := Ideal) ⟨0, ![]⟩ .f32 0x00000000#32))))
      = gaussMat f := by
  funext i
  obtain ⟨p, q, rfl⟩ : ∃ (p q : Fin 8192), i = ix2 p q := ⟨i 0, i 1, eq_ix2 i⟩
  refine (gauss_pointwise _ _ _ _ _ _ (ix2 p q)).trans ?_
  rw [scalarBcast_apply 0xBF000000#32 hsc, scalarBcast_apply 0x40000000#32 hsc, scalarBcast_apply 0x00000000#32 hsc,
    colBcast_apply _ hc1 hc2 p q, rowBcast_apply _ hr1 hr2 p q, sqNorm_stage f hred hS p, sqNorm_stage f hred hS q,
    gram_stage f htr d hlc hrc hln hrn hlb hrb p q]
  rfl

/-- The sum along each row of the affinities is the normalizer of the row's site. -/
theorem rowNorm_stage (f : FVec Ideal ⟨2, ![C, 8192]⟩ .f32)
    (hred : (⟨2, ![8192, 8192]⟩ : Shape).ReducesTo [1] ⟨1, ![8192]⟩) (hS : 0 < (⟨0, ![]⟩ : Shape).numel) :
    Host.reduceAdd (F := Ideal) (gaussMat f : FVec Ideal ⟨2, ![8192, 8192]⟩ .f32)
      (constant (F := Ideal) ⟨0, ![]⟩ .f32 0x00000000#32) hred hS = fun j => rowNorm f (j 0) := by
  funext j
  obtain ⟨i, rfl⟩ : ∃ i : Fin 8192, j = ix1 i := ⟨j 0, eq_ix1 j⟩
  exact Cert.Lib.HostRows.host_rowsum_apply (gaussMat f : FVec Ideal ⟨2, ![8192, 8192]⟩ .f32) _ hred hS i

end Gauss

/-! ## The softmax over the labels -/

/-- The exponential of a difference of arrays, element by element. -/
theorem expShift_pointwise {s : Shape} (x m : FVec Ideal s .f32) (i : s.Idx) :
    Host.exp (F := Ideal) (subf x m) i = Ideal.exp (x i - m i) := rfl

/-- The reference's exponentials of a 21 × 8192 array less its column maxima: the maximum down each column from −∞,
    once more the maximum with −∞, repeated down the rows, subtracted, exponentiated. -/
def expOps (cur : FVec Ideal ⟨2, ![21, 8192]⟩ .f32) (hS : 0 < (⟨0, ![]⟩ : Shape).numel)
    (hs1 : (⟨0, ![]⟩ : Shape).BroadcastsInDim ⟨1, ![8192]⟩ ![])
    (hr1 : (⟨1, ![8192]⟩ : Shape).BroadcastsInDim ⟨2, ![1, 8192]⟩ ![1])
    (hr2 : (⟨2, ![1, 8192]⟩ : Shape).BroadcastsInDim ⟨2, ![21, 8192]⟩ ![0, 1])
    (hred : (⟨2, ![21, 8192]⟩ : Shape).ReducesTo [0] ⟨1, ![8192]⟩) : FVec Ideal ⟨2, ![21, 8192]⟩ .f32 :=
  Host.exp (F := Ideal) (subf cur (broadcastInDim ⟨2, ![21, 8192]⟩ ![0, 1] hr2 (broadcastInDim ⟨2, ![1, 8192]⟩ ![1] hr1
    (maximumf (broadcastInDim ⟨1, ![8192]⟩ ![] hs1 (constant (F := Ideal) ⟨0, ![]⟩ .f32 0xFF800000#32))
      (Host.reduce (FloatOps.maximumf (F := Ideal) (φ := .f32)) cur (constant (F := Ideal) ⟨0, ![]⟩ .f32 0xFF800000#32)
        hred hS)))))

theorem expOps_apply (cur : FVec Ideal ⟨2, ![21, 8192]⟩ .f32) (hS : 0 < (⟨0, ![]⟩ : Shape).numel)
    (hs1 : (⟨0, ![]⟩ : Shape).BroadcastsInDim ⟨1, ![8192]⟩ ![])
    (hr1 : (⟨1, ![8192]⟩ : Shape).BroadcastsInDim ⟨2, ![1, 8192]⟩ ![1])
    (hr2 : (⟨2, ![1, 8192]⟩ : Shape).BroadcastsInDim ⟨2, ![21, 8192]⟩ ![0, 1])
    (hred : (⟨2, ![21, 8192]⟩ : Shape).ReducesTo [0] ⟨1, ![8192]⟩) (l : Fin 21) (n : Fin 8192) :
    expOps cur hS hs1 hr1 hr2 hred (ix2 l n) = expShift cur l n := by
  unfold expOps
  refine (expShift_pointwise _ _ _).trans ?_
  rw [rowBcast_apply _ hr1 hr2 l n, maximumf_apply, scalarBcast_apply _ hs1,
    Cert.Lib.HostColumnMax.host_colmax_apply cur _ hred hS n]
  rfl

/-- The reference's softmax over the labels: those exponentials divided by their sums down each column. -/
def softmaxOps (cur : FVec Ideal ⟨2, ![21, 8192]⟩ .f32) (hS : 0 < (⟨0, ![]⟩ : Shape).numel)
    (hs1 : (⟨0, ![]⟩ : Shape).BroadcastsInDim ⟨1, ![8192]⟩ ![])
    (hr1 : (⟨1, ![8192]⟩ : Shape).BroadcastsInDim ⟨2, ![1, 8192]⟩ ![1])
    (hr2 : (⟨2, ![1, 8192]⟩ : Shape).BroadcastsInDim ⟨2, ![21, 8192]⟩ ![0, 1])
    (hred : (⟨2, ![21, 8192]⟩ : Shape).ReducesTo [0] ⟨1, ![8192]⟩) : FVec Ideal ⟨2, ![21, 8192]⟩ .f32 :=
  Host.divf (F := Ideal) (expOps cur hS hs1 hr1 hr2 hred)
    (broadcastInDim ⟨2, ![21, 8192]⟩ ![0, 1] hr2 (broadcastInDim ⟨2, ![1, 8192]⟩ ![1] hr1
      (Host.reduceAdd (F := Ideal) (expOps cur hS hs1 hr1 hr2 hred) (constant (F := Ideal) ⟨0, ![]⟩ .f32 0x00000000#32)
        hred hS)))

theorem softmaxOps_eq (cur : FVec Ideal ⟨2, ![21, 8192]⟩ .f32) (hS : 0 < (⟨0, ![]⟩ : Shape).numel)
    (hs1 : (⟨0, ![]⟩ : Shape).BroadcastsInDim ⟨1, ![8192]⟩ ![])
    (hr1 : (⟨1, ![8192]⟩ : Shape).BroadcastsInDim ⟨2, ![1, 8192]⟩ ![1])
    (hr2 : (⟨2, ![1, 8192]⟩ : Shape).BroadcastsInDim ⟨2, ![21, 8192]⟩ ![0, 1])
    (hred : (⟨2, ![21, 8192]⟩ : Shape).ReducesTo [0] ⟨1, ![8192]⟩) :
    softmaxOps cur hS hs1 hr1 hr2 hred = softmax0 cur := by
  funext i
  obtain ⟨l, n, rfl⟩ : ∃ (l : Fin 21) (n : Fin 8192), i = ix2 l n := ⟨i 0, i 1, eq_ix2 i⟩
  have h : (⟨2, ![21, 8192]⟩ : Shape).Reduces [0] ⟨1, ![8192]⟩ := ⟨hred.1, Nat.one_pos, hred.2⟩
  unfold softmaxOps
  rw [hostDivf_apply, rowBcast_apply _ hr1 hr2 l n, expOps_apply, hostReduceAdd_apply,
    Cert.Lib.ColumnSums.host_colsum_apply hred h]
  exact congrArg (Ideal.div (expShift cur l n))
    (congrArg (_ + ·) (Finset.sum_congr rfl fun k _ => expOps_apply cur hS hs1 hr1 hr2 hred k n))

/-! ## One mean-field update -/

/-- A label array times an affinity array, each column divided by its site's normalizer. -/
theorem filtered_stage (q : FVec Ideal ⟨2, ![21, 8192]⟩ .f32) (K : FVec Ideal ⟨2, ![8192, 8192]⟩ .f32)
    (nrm : FVec Ideal ⟨1, ![8192]⟩ .f32)
    (hr1 : (⟨1, ![8192]⟩ : Shape).BroadcastsInDim ⟨2, ![1, 8192]⟩ ![1])
    (hr2 : (⟨2, ![1, 8192]⟩ : Shape).BroadcastsInDim ⟨2, ![21, 8192]⟩ ![0, 1])
    (d : DotDims ⟨2, ![21, 8192]⟩ ⟨2, ![8192, 8192]⟩ ⟨2, ![21, 8192]⟩)
    (hlc : d.lhsContracting = [1]) (hrc : d.rhsContracting = [0]) (hln : d.lhsNonContracting = [0])
    (hrn : d.rhsNonContracting = [1]) (hlb : d.lhsBatch = []) (hrb : d.rhsBatch = []) :
    Host.divf (F := Ideal) (Host.dotGeneral (F := Ideal) d none q K)
      (broadcastInDim ⟨2, ![21, 8192]⟩ ![0, 1] hr2 (broadcastInDim ⟨2, ![1, 8192]⟩ ![1] hr1 nrm))
      = filtered q K (fun n => nrm (ix1 n)) := by
  funext i
  obtain ⟨l, n, rfl⟩ : ∃ (l : Fin 21) (n : Fin 8192), i = ix2 l n := ⟨i 0, i 1, eq_ix2 i⟩
  rw [hostDivf_apply, hostDot_eq_matProd d hlc hrc hln hrn hlb hrb, rowBcast_apply _ hr1 hr2 l n]
  rfl

/-- The reference's chain for one update of the scores: the label array filtered by each affinity array, each
    multiplied by its weight array, added, multiplied by the compatibility array, added to the unary scores. -/
theorem update_stage (q un : FVec Ideal ⟨2, ![21, 8192]⟩ .f32) (K1 K2 : FVec Ideal ⟨2, ![8192, 8192]⟩ .f32)
    (n1 n2 : FVec Ideal ⟨1, ![8192]⟩ .f32) (W3 W4 W5 : FVec Ideal ⟨2, ![21, 21]⟩ .f32)
    (hr1 : (⟨1, ![8192]⟩ : Shape).BroadcastsInDim ⟨2, ![1, 8192]⟩ ![1])
    (hr2 : (⟨2, ![1, 8192]⟩ : Shape).BroadcastsInDim ⟨2, ![21, 8192]⟩ ![0, 1])
    (dq : DotDims ⟨2, ![21, 8192]⟩ ⟨2, ![8192, 8192]⟩ ⟨2, ![21, 8192]⟩)
    (qlc : dq.lhsContracting = [1]) (qrc : dq.rhsContracting = [0]) (qln : dq.lhsNonContracting = [0])
    (qrn : dq.rhsNonContracting = [1]) (qlb : dq.lhsBatch = []) (qrb : dq.rhsBatch = [])
    (dw : DotDims ⟨2, ![21, 21]⟩ ⟨2, ![21, 8192]⟩ ⟨2, ![21, 8192]⟩)
    (wlc : dw.lhsContracting = [1]) (wrc : dw.rhsContracting = [0]) (wln : dw.lhsNonContracting = [0])
    (wrn : dw.rhsNonContracting = [1]) (wlb : dw.lhsBatch = []) (wrb : dw.rhsBatch = []) :
    addf un (Host.dotGeneral (F := Ideal) dw none W5
      (addf
        (Host.dotGeneral (F := Ideal) dw none W3 (Host.divf (F := Ideal) (Host.dotGeneral (F := Ideal) dq none q K1)
          (broadcastInDim ⟨2, ![21, 8192]⟩ ![0, 1] hr2 (broadcastInDim ⟨2, ![1, 8192]⟩ ![1] hr1 n1))))
        (Host.dotGeneral (F := Ideal) dw none W4 (Host.divf (F := Ideal) (Host.dotGeneral (F := Ideal) dq none q K2)
          (broadcastInDim ⟨2, ![21, 8192]⟩ ![0, 1] hr2 (broadcastInDim ⟨2, ![1, 8192]⟩ ![1] hr1 n2))))))
      = meanFieldUpdate K1 K2 (fun n => n1 (ix1 n)) (fun n => n2 (ix1 n)) un W3 W4 W5 q := by
  rw [filtered_stage q K1 n1 hr1 hr2 dq qlc qrc qln qrn qlb qrb, filtered_stage q K2 n2 hr1 hr2 dq qlc qrc qln qrn qlb qrb,
    hostDot_eq_matProd dw wlc wrc wln wrn wlb wrb W3, hostDot_eq_matProd dw wlc wrc wln wrn wlb wrb W4,
    hostDot_eq_matProd dw wlc wrc wln wrn wlb wrb W5]
  rfl

/-! ## The volume as 8192 sites, and back -/

section Layout
variable {l : Nat}

/-- An array over the volume re-shaped in one step to l rows of 8192 sites. -/
theorem flat_of_shapeCast (x : Vol l) (h : (⟨5, ![1, l, 8, 32, 32]⟩ : Shape).ShapeCasts ⟨2, ![l, 8192]⟩) :
    shapeCast ⟨2, ![l, 8192]⟩ x h = flat x := by
  funext i
  obtain ⟨a, n, rfl⟩ : ∃ (a : Fin l) (n : Fin 8192), i = ix2 a n := ⟨i 0, i 1, eq_ix2 i⟩
  refine shapeCast_apply x h _ _ ?_
  rw [Shape.rowMajor_val_five, Shape.rowMajor_val_two]
  show ((((0 : Nat) * l + a.val) * 8 + n.val / 1024) * 32 + n.val / 32 % 32) * 32 + n.val % 32 = a.val * 8192 + n.val
  have := n.isLt
  omega

/-- The same through the l × 8 × 32 × 32 array, as the reference re-shapes it. -/
theorem flat_stage (x : Vol l) (h1 : (⟨5, ![1, l, 8, 32, 32]⟩ : Shape).ShapeCasts ⟨4, ![l, 8, 32, 32]⟩)
    (h2 : (⟨4, ![l, 8, 32, 32]⟩ : Shape).ShapeCasts ⟨2, ![l, 8192]⟩) :
    shapeCast ⟨2, ![l, 8192]⟩ (shapeCast ⟨4, ![l, 8, 32, 32]⟩ x h1) h2 = flat x := by
  funext i
  obtain ⟨a, n, rfl⟩ : ∃ (a : Fin l) (n : Fin 8192), i = ix2 a n := ⟨i 0, i 1, eq_ix2 i⟩
  have hn := n.isLt
  refine (shapeCast_apply _ h2 (ix2 a n)
    (ix4 a (⟨n.val / 1024, by omega⟩ : Fin 8) (⟨n.val / 32 % 32, Nat.mod_lt _ (by decide)⟩ : Fin 32)
      (⟨n.val % 32, Nat.mod_lt _ (by decide)⟩ : Fin 32)) ?_).trans ?_
  · rw [Shape.rowMajor_val_four, Shape.rowMajor_val_two]
    show ((a.val * 8 + n.val / 1024) * 32 + n.val / 32 % 32) * 32 + n.val % 32 = a.val * 8192 + n.val
    omega
  · refine shapeCast_apply x h1 _ _ ?_
    rw [Shape.rowMajor_val_five, Shape.rowMajor_val_four]
    show ((((0 : Nat) * l + a.val) * 8 + n.val / 1024) * 32 + n.val / 32 % 32) * 32 + n.val % 32
      = ((a.val * 8 + n.val / 1024) * 32 + n.val / 32 % 32) * 32 + n.val % 32
    omega

/-- l rows of 8192 sites re-shaped to an array over the volume. -/
theorem unflat_stage (y : Mat l 8192) (h : (⟨2, ![l, 8192]⟩ : Shape).ShapeCasts ⟨5, ![1, l, 8, 32, 32]⟩) :
    shapeCast ⟨5, ![1, l, 8, 32, 32]⟩ y h = unflat y := by
  funext i
  obtain ⟨z, a, d, hh, w, rfl⟩ : ∃ (z : Fin 1) (a : Fin l) (d : Fin 8) (hh w : Fin 32), i = ix5 z a d hh w :=
    ⟨i 0, i 1, i 2, i 3, i 4, eq_ix5 i⟩
  refine shapeCast_apply y h _ _ ?_
  rw [Shape.rowMajor_val_two, Shape.rowMajor_val_five]
  show a.val * 8192 + (1024 * d.val + 32 * hh.val + w.val) = (((z.val * l + a.val) * 8 + d.val) * 32 + hh.val) * 32 + w.val
  have hz : z.val = 0 := by have := z.isLt; omega
  rw [hz, Nat.zero_mul]
  have := d.isLt
  have := hh.isLt
  have := w.isLt
  omega

end Layout

/-! ## The positions of the sites and the two feature arrays -/

section Features

/-- One coordinate grid of the volume — an iota along one axis repeated over the volume, with a leading axis of
    extent one — read at a voxel: the voxel's coordinate on that axis, as a word. -/
theorem grid_apply {e : Nat} (a : Fin 3) (hb0 : (⟨1, ![e]⟩ : Shape).BroadcastsInDim ⟨3, ![8, 32, 32]⟩ ![a])
    (hb : (⟨3, ![8, 32, 32]⟩ : Shape).BroadcastsInDim ⟨4, ![1, 8, 32, 32]⟩ ![1, 2, 3])
    (he : e ≠ 1) (z : Fin 1) (d : Fin 8) (h w : Fin 32) (k : Fin e) (hk : k.val = ((ix3 d h w) a).val) :
    broadcastInDim ⟨4, ![1, 8, 32, 32]⟩ ![1, 2, 3] hb
      (broadcastInDim ⟨3, ![8, 32, 32]⟩ ![a] hb0 (iotaInDim ⟨1, ![e]⟩ 32 0)) (ix4 z d h w)
      = BitVec.ofNat 32 k.val := by
  refine (broadcastInDim_apply ![1, 2, 3] hb _ (ix4 z d h w) (ix3 d h w) ?_).trans ?_
  · intro b
    match b with
    | ⟨0, _⟩ => rfl
    | ⟨1, _⟩ => rfl
    | ⟨2, _⟩ => rfl
  · refine (broadcastInDim_apply ![a] hb0 _ (ix3 d h w) (ix1 k) ?_).trans ?_
    · intro b
      match b with
      | ⟨0, _⟩ =>
        show k.val = if e = 1 then 0 else _
        rw [if_neg he]; exact hk
    · rfl

/-- Three arrays over the volume with a leading axis of extent one, stacked along that axis: channel c of the stack
    is the c-th array. -/
theorem stack3_apply {α : Type} (x0 x1 x2 : (⟨4, ![1, 8, 32, 32]⟩ : Shape).Idx → α)
    (hcat : Shape.Concatenates [(⟨4, ![1, 8, 32, 32]⟩ : Shape), ⟨4, ![1, 8, 32, 32]⟩, ⟨4, ![1, 8, 32, 32]⟩]
      ⟨4, ![3, 8, 32, 32]⟩ 0) (d : Fin 8) (h w : Fin 32) :
    concatenate ⟨4, ![3, 8, 32, 32]⟩ 0
        [⟨⟨4, ![1, 8, 32, 32]⟩, x0⟩, ⟨⟨4, ![1, 8, 32, 32]⟩, x1⟩, ⟨⟨4, ![1, 8, 32, 32]⟩, x2⟩] hcat (ix4 (0 : Fin 3) d h w)
      = x0 (ix4 (0 : Fin 1) d h w)
    ∧ concatenate ⟨4, ![3, 8, 32, 32]⟩ 0
        [⟨⟨4, ![1, 8, 32, 32]⟩, x0⟩, ⟨⟨4, ![1, 8, 32, 32]⟩, x1⟩, ⟨⟨4, ![1, 8, 32, 32]⟩, x2⟩] hcat (ix4 (1 : Fin 3) d h w)
      = x1 (ix4 (0 : Fin 1) d h w)
    ∧ concatenate ⟨4, ![3, 8, 32, 32]⟩ 0
        [⟨⟨4, ![1, 8, 32, 32]⟩, x0⟩, ⟨⟨4, ![1, 8, 32, 32]⟩, x1⟩, ⟨⟨4, ![1, 8, 32, 32]⟩, x2⟩] hcat (ix4 (2 : Fin 3) d h w)
      = x2 (ix4 (0 : Fin 1) d h w) := by
  have hi : ∀ (c : Fin 3) (b : Fin 4), b.cast (rfl : (4 : Nat) = 4) ≠ (0 : Fin 4) →
      ((ix4 (0 : Fin 1) d h w) b).val = ((ix4 c d h w) (b.cast rfl)).val := by
    intro c b hb
    match b with
    | ⟨0, _⟩ => exact absurd rfl hb
    | ⟨1, _⟩ => rfl
    | ⟨2, _⟩ => rfl
    | ⟨3, _⟩ => rfl
  refine ⟨?_, ?_, ?_⟩
  · exact concatenate_apply_piece 0 [⟨⟨4, ![1, 8, 32, 32]⟩, x0⟩, ⟨⟨4, ![1, 8, 32, 32]⟩, x1⟩, ⟨⟨4, ![1, 8, 32, 32]⟩, x2⟩] hcat
      (ix4 (0 : Fin 3) d h w) 0 (by simp) ⟨4, ![1, 8, 32, 32]⟩ x0 rfl rfl 0 rfl (ix4 (0 : Fin 1) d h w) (hi 0) rfl
  · exact concatenate_apply_piece 0 [⟨⟨4, ![1, 8, 32, 32]⟩, x0⟩, ⟨⟨4, ![1, 8, 32, 32]⟩, x1⟩, ⟨⟨4, ![1, 8, 32, 32]⟩, x2⟩] hcat
      (ix4 (1 : Fin 3) d h w) 1 (by simp) ⟨4, ![1, 8, 32, 32]⟩ x1 rfl rfl 1 rfl (ix4 (0 : Fin 1) d h w) (hi 1) rfl
  · exact concatenate_apply_piece 0 [⟨⟨4, ![1, 8, 32, 32]⟩, x0⟩, ⟨⟨4, ![1, 8, 32, 32]⟩, x1⟩, ⟨⟨4, ![1, 8, 32, 32]⟩, x2⟩] hcat
      (ix4 (2 : Fin 3) d h w) 2 (by simp) ⟨4, ![1, 8, 32, 32]⟩ x2 rfl rfl 2 rfl (ix4 (0 : Fin 1) d h w) (hi 2) rfl

/-- The three coordinate grids stacked, laid out as 3 rows of 8192 sites and converted to floats: the positions. -/
theorem positions_stage
    (hb0 : (⟨1, ![8]⟩ : Shape).BroadcastsInDim ⟨3, ![8, 32, 32]⟩ ![0])
    (hb1 : (⟨1, ![32]⟩ : Shape).BroadcastsInDim ⟨3, ![8, 32, 32]⟩ ![1])
    (hb2 : (⟨1, ![32]⟩ : Shape).BroadcastsInDim ⟨3, ![8, 32, 32]⟩ ![2])
    (hb : (⟨3, ![8, 32, 32]⟩ : Shape).BroadcastsInDim ⟨4, ![1, 8, 32, 32]⟩ ![1, 2, 3])
    (hcat : Shape.Concatenates [(⟨4, ![1, 8, 32, 32]⟩ : Shape), ⟨4, ![1, 8, 32, 32]⟩, ⟨4, ![1, 8, 32, 32]⟩]
      ⟨4, ![3, 8, 32, 32]⟩ 0)
    (hsc : (⟨4, ![3, 8, 32, 32]⟩ : Shape).ShapeCasts ⟨2, ![3, 8192]⟩) :
    sitofp (F := Ideal) .f32 (shapeCast ⟨2, ![3, 8192]⟩ (concatenate ⟨4, ![3, 8, 32, 32]⟩ 0
      [⟨⟨4, ![1, 8, 32, 32]⟩, broadcastInDim ⟨4, ![1, 8, 32, 32]⟩ ![1, 2, 3] hb
          (broadcastInDim ⟨3, ![8, 32, 32]⟩ ![0] hb0 (iotaInDim ⟨1, ![8]⟩ 32 0))⟩,
        ⟨⟨4, ![1, 8, 32, 32]⟩, broadcastInDim ⟨4, ![1, 8, 32, 32]⟩ ![1, 2, 3] hb
          (broadcastInDim ⟨3, ![8, 32, 32]⟩ ![1] hb1 (iotaInDim ⟨1, ![32]⟩ 32 0))⟩,
        ⟨⟨4, ![1, 8, 32, 32]⟩, broadcastInDim ⟨4, ![1, 8, 32, 32]⟩ ![1, 2, 3] hb
          (broadcastInDim ⟨3, ![8, 32, 32]⟩ ![2] hb2 (iotaInDim ⟨1, ![32]⟩ 32 0))⟩] hcat) hsc)
      = positions := by
  funext i
  obtain ⟨c, n, rfl⟩ : ∃ (c : Fin 3) (n : Fin 8192), i = ix2 c n := ⟨i 0, i 1, eq_ix2 i⟩
  have hn := n.isLt
  rw [sitofp_apply, positions_apply]
  refine congrArg (fun b : BitVec 32 => ((b.toInt : ℝ) : EReal)) ?_
  refine (shapeCast_apply _ hsc (ix2 c n)
    (ix4 c (⟨n.val / 1024, by omega⟩ : Fin 8) (⟨n.val / 32 % 32, Nat.mod_lt _ (by decide)⟩ : Fin 32)
      (⟨n.val % 32, Nat.mod_lt _ (by decide)⟩ : Fin 32)) ?_).trans ?_
  · rw [Shape.rowMajor_val_four, Shape.rowMajor_val_two]
    show ((c.val * 8 + n.val / 1024) * 32 + n.val / 32 % 32) * 32 + n.val % 32 = c.val * 8192 + n.val
    omega
  · match c with
    | ⟨0, _⟩ =>
      refine (stack3_apply _ _ _ hcat _ _ _).1.trans ?_
      exact grid_apply 0 hb0 hb (by decide) _ _ _ _ (⟨n.val / 1024, by omega⟩ : Fin 8) rfl
    | ⟨1, _⟩ =>
      refine (stack3_apply _ _ _ hcat _ _ _).2.1.trans ?_
      exact grid_apply 1 hb1 hb (by decide) _ _ _ _ (⟨n.val / 32 % 32, Nat.mod_lt _ (by decide)⟩ : Fin 32) rfl
    | ⟨2, _⟩ =>
      refine (stack3_apply _ _ _ hcat _ _ _).2.2.trans ?_
      exact grid_apply 2 hb2 hb (by decide) _ _ _ _ (⟨n.val % 32, Nat.mod_lt _ (by decide)⟩ : Fin 32) rfl

/-- The positions divided by the broadcast word of 3: the spatial features. -/
theorem spFeat_stage (hs : (⟨0, ![]⟩ : Shape).BroadcastsInDim ⟨2, ![3, 8192]⟩ ![]) :
    Host.divf (F := Ideal) (positions : FVec Ideal ⟨2, ![3, 8192]⟩ .f32)
      (broadcastInDim ⟨2, ![3, 8192]⟩ ![] hs (constant (F := Ideal) ⟨0, ![]⟩ .f32 0x40400000#32)) = spFeat := by
  funext i
  rw [hostDivf_apply, scalarBcast_apply 0x40400000#32 hs]
  rfl

/-- The positions divided by the word of 160 stacked over the image, laid out over the sites and divided by the
    word of 3: the bilateral features. -/
theorem biFeat_stage (image : Vol 3) (hs : (⟨0, ![]⟩ : Shape).BroadcastsInDim ⟨2, ![3, 8192]⟩ ![])
    (h1 : (⟨5, ![1, 3, 8, 32, 32]⟩ : Shape).ShapeCasts ⟨4, ![3, 8, 32, 32]⟩)
    (h2 : (⟨4, ![3, 8, 32, 32]⟩ : Shape).ShapeCasts ⟨2, ![3, 8192]⟩)
    (hcat : Shape.Concatenates [(⟨2, ![3, 8192]⟩ : Shape), ⟨2, ![3, 8192]⟩] ⟨2, ![6, 8192]⟩ 0) :
    concatenate ⟨2, ![6, 8192]⟩ 0
      [⟨⟨2, ![3, 8192]⟩, Host.divf (F := Ideal) (positions : FVec Ideal ⟨2, ![3, 8192]⟩ .f32)
          (broadcastInDim ⟨2, ![3, 8192]⟩ ![] hs (constant (F := Ideal) ⟨0, ![]⟩ .f32 0x43200000#32))⟩,
        ⟨⟨2, ![3, 8192]⟩, Host.divf (F := Ideal)
          (shapeCast ⟨2, ![3, 8192]⟩ (shapeCast ⟨4, ![3, 8, 32, 32]⟩ image h1) h2)
          (broadcastInDim ⟨2, ![3, 8192]⟩ ![] hs (constant (F := Ideal) ⟨0, ![]⟩ .f32 0x40400000#32))⟩] hcat
      = biFeat image := by
  funext i
  obtain ⟨c, n, rfl⟩ : ∃ (c : Fin 6) (n : Fin 8192), i = ix2 c n := ⟨i 0, i 1, eq_ix2 i⟩
  by_cases h : c.val < 3
  · refine (concatenate_pair_apply_left 0 _ _ hcat (ix2 c n) rfl (ix2 (⟨c.val, h⟩ : Fin 3) n) ?_).trans ?_
    · intro b
      match b with
      | ⟨0, _⟩ => rfl
      | ⟨1, _⟩ => rfl
    · rw [hostDivf_apply, scalarBcast_apply 0x43200000#32 hs, biFeat_apply_lo image c n h]
  · have hc := c.isLt
    refine (concatenate_pair_apply_right 0 _ _ hcat (ix2 c n) rfl rfl (ix2 (⟨c.val - 3, by omega⟩ : Fin 3) n) ?_ ?_).trans ?_
    · intro b hb
      match b with
      | ⟨0, _⟩ => exact absurd rfl hb
      | ⟨1, _⟩ => rfl
    · show c.val - 3 + 3 = c.val
      omega
    · rw [hostDivf_apply, scalarBcast_apply 0x40400000#32 hs, flat_stage image h1 h2, biFeat_apply_hi image c n h]

end Features

end Cert.ReferenceIdeal.RefValue

end
-- ==== Proof.IdealHost.lean ====
import proofs.«162179_j58609123721967_2_alg».proof.Proof.Gen.KernelIdeal.Launch
import proofs.«162179_j58609123721967_2_alg».proof.Proof.RefStages
import Idealize.ShloMosaic.Lib.StableHlo.Run

/-
  What the three stretches of host operations of the idealized kernel leave in the buffers the regions read, as
  whole-array functions of what they found, on the extended reals. The first stretch builds the two feature arrays: the
  integer coordinates (depth, height, width) of the 8192 sites, converted and divided by the spatial bandwidth; and the
  same coordinates divided by the bilateral spatial bandwidth stacked over the image's three channels divided by the
  colour bandwidth. The second lays the two 8192 × 1 normalizer columns out as rows and the logits and the unary scores
  as 21 rows of 8192 sites. The last lays the 21 × 8192 result back over the volume.
-/

set_option maxRecDepth 16384

noncomputable section

namespace Idealize.ShloMosaic.StableHlo

variable {τ : Topo} {sig : RefSig} {Val : EltTy → Type} {x a b y : Ref sig .tc}

/-- An operation over a literal family of three operands (a concatenation of three arrays): its result with each
    operand's contents read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

namespace Cert.KernelIdeal.Hand

open Cert.KernelIdeal Cert.KernelIdeal.Gen
open Idealize.ShloMosaic Idealize.ShloMosaic.TcCoe Idealize.ShloMosaic.ValueIdx
open Cert.ReferenceIdeal.RefValue

variable (V : Valuation τ sig (Elt Ideal))

/-! ## The re-shapings before the first mean-field step -/

/-- The logits are laid out as 21 rows of 8192 sites. -/
theorem host1_logits :
    (StableHlo.after (hostOps1 (F := Ideal)) V (Proc.devRef .tc main_v25) : Mat 21 8192) = flat (V (Proc.devRef .tc main_arg1)) := by
  after_results
  exact flat_stage _ _ _

/-- The unary scores are laid out as 21 rows of 8192 sites. -/
theorem host1_unary :
    (StableHlo.after (hostOps1 (F := Ideal)) V (Proc.devRef .tc main_v27) : Mat 21 8192) = flat (V (Proc.devRef .tc main_arg2)) := by
  after_results
  exact flat_stage _ _ _

/-- The spatial normalizers, an 8192 × 1 column, are laid out as a row: entry n is the column's entry n. -/
theorem host1_nsp (n : Fin 8192) :
    (StableHlo.after (hostOps1 (F := Ideal)) V (Proc.devRef .tc main_v22) : Mat 1 8192) (ix2 (0 : Fin 1) n)
      = (V (Proc.devRef .tc main_v21_2) : Mat 8192 1) (ix2 n (0 : Fin 1)) := by
  after_results
  show shapeCast (⟨2, ![1, 8192]⟩ : Shape) (V (Proc.devRef .tc main_v21_2) : Mat 8192 1) shapeCasts_S8192x1_S1x8192 (ix2 (0 : Fin 1) n) = _
  refine shapeCast_apply _ _ _ _ ?_
  rw [Shape.rowMajor_val_two]
  show ((⟨2, ![8192, 1]⟩ : Shape).rowMajor (ix2 n (0 : Fin 1))).val = _
  rw [Shape.rowMajor_val_two]
  show n.val * 1 + 0 = 0 * 8192 + n.val
  omega

/-- The bilateral normalizers likewise. -/
theorem host1_nbi (n : Fin 8192) :
    (StableHlo.after (hostOps1 (F := Ideal)) V (Proc.devRef .tc main_v23) : Mat 1 8192) (ix2 (0 : Fin 1) n)
      = (V (Proc.devRef .tc main_v21_3) : Mat 8192 1) (ix2 n (0 : Fin 1)) := by
  after_results
  show shapeCast (⟨2, ![1, 8192]⟩ : Shape) (V (Proc.devRef .tc main_v21_3) : Mat 8192 1) shapeCasts_S8192x1_S1x8192 (ix2 (0 : Fin 1) n) = _
  refine shapeCast_apply _ _ _ _ ?_
  rw [Shape.rowMajor_val_two]
  show ((⟨2, ![8192, 1]⟩ : Shape).rowMajor (ix2 n (0 : Fin 1))).val = _
  rw [Shape.rowMajor_val_two]
  show n.val * 1 + 0 = 0 * 8192 + n.val
  omega

/-! ## The last re-shaping -/

/-- The 21 × 8192 result is laid back over the volume. -/
theorem host6_result :
    (StableHlo.after (hostOps6 (F := Ideal)) V (Proc.devRef .tc main_v33) : Vol 21) = unflat (V (Proc.devRef .tc main_v32)) := by
  after_results
  exact unflat_stage _ _

/-! ## The feature arrays -/

/-- The host operations' results read one operation at a time, a three-operand concatenation with each operand at its
    own reference. -/
local macro "host_results" : tactic =>
  `(tactic| (simp only [StableHlo.after_cons, StableHlo.after_nil]
             repeat (first
               | rw [StableHlo.nary3_result]
               | rw [StableHlo.nullary_result] | rw [StableHlo.unary_result] | rw [StableHlo.binary_result] | rw [StableHlo.reshape_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-- The converted coordinates of the sites, as the first stretch computes them. -/
theorem host0_positions :
    (StableHlo.after (hostOps0 (F := Ideal)) V (Proc.devRef .tc main_v13) : Mat 3 8192) = positions := by
  host_results
  exact positions_stage bcast_S8_S8x32x32_0 bcast_S32_S8x32x32_1 bcast_S32_S8x32x32_2 bcast_S8x32x32_S1x8x32x32_1_2_3
    concatenates_S1x8x32x32_S1x8x32x32_S1x8x32x32_S3x8x32x32_d0 shapeCasts_S3x8x32x32_S3x8192

/-- The spatial feature array: the coordinates divided by the spatial bandwidth. -/
theorem host0_sp :
    (StableHlo.after (hostOps0 (F := Ideal)) V (Proc.devRef .tc main_v15) : Mat 3 8192) = spFeat := by
  host_results
  refine Eq.trans ?_ (spFeat_stage bcast_S_S3x8192)
  exact congrArg (fun p : Mat 3 8192 => Host.divf (F := Ideal) (p : FVec Ideal ⟨2, ![3, 8192]⟩ .f32) _)
    (positions_stage bcast_S8_S8x32x32_0 bcast_S32_S8x32x32_1 bcast_S32_S8x32x32_2 bcast_S8x32x32_S1x8x32x32_1_2_3
      concatenates_S1x8x32x32_S1x8x32x32_S1x8x32x32_S3x8x32x32_d0 shapeCasts_S3x8x32x32_S3x8192)

set_option maxHeartbeats 4000000 in
/-- The bilateral feature array: the coordinates divided by the bilateral spatial bandwidth over the image's channels
    divided by the colour bandwidth. -/
theorem host0_bi :
    (StableHlo.after (hostOps0 (F := Ideal)) V (Proc.devRef .tc main_v20) : Mat 6 8192) = biFeat (V (Proc.devRef .tc main_arg0)) := by
  host_results
  refine Eq.trans ?_ (biFeat_stage (V (Proc.devRef .tc main_arg0)) bcast_S_S3x8192 shapeCasts_S1x3x8x32x32_S3x8x32x32 shapeCasts_S3x8x32x32_S3x8192
    concatenates_S3x8192_S3x8192_S6x8192_d0)
  exact congrArg (fun p : Mat 3 8192 => concatenate (⟨2, ![6, 8192]⟩ : Shape) 0
      [⟨⟨2, ![3, 8192]⟩, Host.divf (F := Ideal) (p : FVec Ideal ⟨2, ![3, 8192]⟩ .f32)
          (broadcastInDim ⟨2, ![3, 8192]⟩ ![] bcast_S_S3x8192 (constant (F := Ideal) ⟨0, ![]⟩ .f32 0x43200000#32))⟩,
       ⟨⟨2, ![3, 8192]⟩, Host.divf (F := Ideal)
          (shapeCast ⟨2, ![3, 8192]⟩ (shapeCast ⟨4, ![3, 8, 32, 32]⟩ (V (Proc.devRef .tc main_arg0) : Vol 3) shapeCasts_S1x3x8x32x32_S3x8x32x32)
            shapeCasts_S3x8x32x32_S3x8192)
          (broadcastInDim ⟨2, ![3, 8192]⟩ ![] bcast_S_S3x8192 (constant (F := Ideal) ⟨0, ![]⟩ .f32 0x40400000#32))⟩]
      concatenates_S3x8192_S3x8192_S6x8192_d0)
    (positions_stage bcast_S8_S8x32x32_0 bcast_S32_S8x32x32_1 bcast_S32_S8x32x32_2 bcast_S8x32x32_S1x8x32x32_1_2_3
      concatenates_S1x8x32x32_S1x8x32x32_S1x8x32x32_S3x8x32x32_d0 shapeCasts_S3x8x32x32_S3x8192)

end Cert.KernelIdeal.Hand
end
-- ==== Proof.IdealPay0.lean ====
/-
  The payloads of the kernel that builds the two Gaussian kernel matrices, read at an index, on the extended reals.

  A grid point holds 512 "row" pixels and 512 "column" pixels, each with c features (c = 3 for the spatial kernel,
  c = 6 for the bilateral one), stored feature by pixel. The body forms, for every pair (r, s), the squared distance
  |x_r|² + |y_s|² − 2 x_r·y_s — the two squared norms by reductions over the features, the inner products by a matrix
  product of the transposed row features with the column features — clamps it at zero from below, and stores
  e^(−½ · that). It also adds each row's sum over the 512 columns to a running per-row norm.

  Each statement below reads one of these values at a pair of pixels. A change of float format is the identity on
  extended reals, a matrix product into zeros is the plain sum over the contracted coordinate, and a reduction over
  the features is the sum over the c features.
-/
import proofs.«162179_j58609123721967_2_alg».proof.Proof.Gen.KernelIdeal.Skeleton
import proofs.«162179_j58609123721967_2_alg».proof.Proof.LibBlockReads
import proofs.«162179_j58609123721967_2_alg».proof.Proof.LibRowReductions
import proofs.«162179_j58609123721967_2_alg».proof.Proof.LibColumnSums
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.Pay

open Idealize.ShloMosaic Idealize.ShloMosaic.ValueIdx Cert.KernelIdeal Cert.KernelIdeal.Gen
open Cert.Lib.BlockReads Cert.Lib.RowReductions Cert.Lib.ColumnSums

/-! ## The Gaussian of the squared distance between two pixels' feature vectors -/

section Gauss
variable {c : Nat}

/-- |x_r|² + |y_s|² − 2 · x_r·y_s, the 2 as the word 40000000, over the c features. -/
def sqDist (x y : (⟨2, ![c, 512]⟩ : Shape).Idx → EReal) (r s : Fin 512) : EReal :=
  ((∑ k : Fin c, x (ix2 k r) * x (ix2 k r)) + ∑ k : Fin c, y (ix2 k s) * y (ix2 k s))
    - Ideal.ofBits .f32 0x40000000#32 * ∑ k : Fin c, x (ix2 k r) * y (ix2 k s)

/-- e^(−½ · max(squared distance, 0)), the −½ as the word BF000000 and the 0 as the zero word. -/
def gauss (x y : (⟨2, ![c, 512]⟩ : Shape).Idx → EReal) (r s : Fin 512) : EReal :=
  Ideal.exp (Ideal.ofBits .f32 0xBF000000#32 * max (sqDist x y r s) (Ideal.ofBits .f32 0x00000000#32))

/-- The vector operations that compute it, as the kernel spells them. -/
def gaussVec (x y : FVec Ideal ⟨2, ![c, 512]⟩ .f32)
    (ht : (⟨2, ![c, 512]⟩ : Shape).Transposes [1, 0] ⟨2, ![512, c]⟩)
    (hr1 : (⟨2, ![512, c]⟩ : Shape).Reduces [1] ⟨1, ![512]⟩)
    (hsc : (⟨1, ![512]⟩ : Shape).ShapeCasts ⟨2, ![512, 1]⟩)
    (hr0 : (⟨2, ![c, 512]⟩ : Shape).Reduces [0] ⟨1, ![512]⟩)
    (hsr : (⟨1, ![512]⟩ : Shape).ShapeCasts ⟨2, ![1, 512]⟩)
    (d : DotDims ⟨2, ![512, c]⟩ ⟨2, ![c, 512]⟩ ⟨2, ![512, 512]⟩)
    (hbc : (⟨2, ![512, 1]⟩ : Shape).Broadcasts ⟨2, ![512, 512]⟩)
    (hbr : (⟨2, ![1, 512]⟩ : Shape).Broadcasts ⟨2, ![512, 512]⟩) : FVec Ideal ⟨2, ![512, 512]⟩ .f32 :=
  exp (mulf (broadcast ⟨2, ![512, 512]⟩ (Scalar.ofBits (F := Ideal) .f32 0xBF000000#32))
    (maximumf
      (subf
        (addf
          (broadcastTo ⟨2, ![512, 512]⟩ (shapeCast ⟨2, ![512, 1]⟩
            (multiReduction .add [1] ⟨1, ![512]⟩
              (mulf (transpose ⟨2, ![512, c]⟩ [1, 0] x ht) (transpose ⟨2, ![512, c]⟩ [1, 0] x ht))
              0x00000000#32 hr1 (.inl rfl) rfl) hsc) hbc)
          (broadcastTo ⟨2, ![512, 512]⟩ (shapeCast ⟨2, ![1, 512]⟩
            (multiReduction .add [0] ⟨1, ![512]⟩ (mulf y y) 0x00000000#32 hr0 (.inl rfl) rfl) hsr) hbr))
        (mulf (broadcast ⟨2, ![512, 512]⟩ (Scalar.ofBits (F := Ideal) .f32 0x40000000#32))
          (matmul d (some .fp32) (transpose ⟨2, ![512, c]⟩ [1, 0] x ht) y
            (constant ⟨2, ![512, 512]⟩ .f32 0x00000000#32))))
      (broadcast ⟨2, ![512, 512]⟩ (Scalar.ofBits (F := Ideal) .f32 0x00000000#32))))

/-- Those operations read at (r, s) are the Gaussian of the squared distance between row pixel r and column pixel s. -/
theorem gaussVec_apply (x y : FVec Ideal ⟨2, ![c, 512]⟩ .f32)
    (ht : (⟨2, ![c, 512]⟩ : Shape).Transposes [1, 0] ⟨2, ![512, c]⟩)
    (hr1 : (⟨2, ![512, c]⟩ : Shape).Reduces [1] ⟨1, ![512]⟩)
    (hsc : (⟨1, ![512]⟩ : Shape).ShapeCasts ⟨2, ![512, 1]⟩)
    (hr0 : (⟨2, ![c, 512]⟩ : Shape).Reduces [0] ⟨1, ![512]⟩)
    (hsr : (⟨1, ![512]⟩ : Shape).ShapeCasts ⟨2, ![1, 512]⟩)
    (d : DotDims ⟨2, ![512, c]⟩ ⟨2, ![c, 512]⟩ ⟨2, ![512, 512]⟩)
    (hlc : d.lhsContracting = [1]) (hrc : d.rhsContracting = [0]) (hln : d.lhsNonContracting = [0])
    (hrn : d.rhsNonContracting = [1]) (hlb : d.lhsBatch = []) (hrb : d.rhsBatch = [])
    (hbc : (⟨2, ![512, 1]⟩ : Shape).Broadcasts ⟨2, ![512, 512]⟩)
    (hbr : (⟨2, ![1, 512]⟩ : Shape).Broadcasts ⟨2, ![512, 512]⟩) (r s : Fin 512) :
    gaussVec x y ht hr1 hsc hr0 hsr d hbc hbr (ix2 r s) = gauss x y r s := by
  unfold gaussVec gauss sqDist
  refine congrArg (fun t => Ideal.exp (Ideal.ofBits .f32 0xBF000000#32 * max t (Ideal.ofBits .f32 0x00000000#32))) ?_
  refine congrArg₂ (· - ·) (congrArg₂ (· + ·) ?_ ?_) (congrArg (Ideal.ofBits .f32 0x40000000#32 * ·) ?_)
  · refine (broadcast_col_apply _ hbc r s).trans ((shapeCast_col_apply _ hsc r).trans
      ((rowsum_apply _ 0x00000000#32 hr1 (.inl rfl) rfl r).trans (Finset.sum_congr rfl fun k _ => ?_)))
    exact congrArg₂ (· * ·) (transpose_ix2_apply x ht r k) (transpose_ix2_apply x ht r k)
  · exact (broadcast_row_apply _ hbr r s).trans ((shapeCast_rowvec_apply _ hsr s).trans
      (colsum_apply _ 0x00000000#32 hr0 (.inl rfl) rfl s))
  · exact (matmul_zero_rows_apply d hlc hrc hln hrn hlb hrb (some .fp32) _ y r s).trans
      (Finset.sum_congr rfl fun k _ => congrArg (· * y (ix2 k s)) (transpose_ix2_apply x ht r k))

end Gauss

/-! ## The spatial kernel (3 features) -/

/-- The spatial kernel's entry for row pixel r and column pixel s. -/
theorem k0_pay6_apply (x y : Vec Ideal S3x512 .f32) (r s : Fin 512) :
    k0_pay6 (F := Ideal) x y (ix2 r s) = gauss x y r s := by
  have e : k0_pay6 (F := Ideal) x y
      = gaussVec (shapeCast S3x512 x shapeCasts_S3x512_S3x512) (shapeCast S3x512 y shapeCasts_S3x512_S3x512)
          transposes_S3x512_p1_0_S512x3 reduces_S512x3_S512 shapeCasts_S512_S512x1 reduces_S3x512_S512
          shapeCasts_S512_S1x512 dot_S512x3_S3x512_S512x512_1_0_0_1_n_n broadcasts_S512x1_S512x512
          broadcasts_S1x512_S512x512 := rfl
  refine (congrFun e (ix2 r s)).trans ?_
  refine (gaussVec_apply _ _ _ _ _ _ _ _ rfl rfl rfl rfl rfl rfl _ _ r s).trans ?_
  exact congrArg₂ (fun a b => gauss a b r s) (shapeCast_self x shapeCasts_S3x512_S3x512)
    (shapeCast_self y shapeCasts_S3x512_S3x512)

/-- Its rounding to the storage format is the identity on extended reals. -/
theorem k0_pay7_apply (x y : Vec Ideal S3x512 .f32) (i : S512x512.Idx) :
    k0_pay7 (F := Ideal) x y i = k0_pay6 (F := Ideal) x y i := rfl

/-- The running per-row norm after the step: what it held plus the row's sum over the 512 column pixels. -/
theorem k0_pay8_apply (x y : Vec Ideal S3x512 .f32) (acc : Vec Ideal S512x1 .f32) (r : Fin 512) :
    k0_pay8 (F := Ideal) x y acc (ix2 r 0) = acc (ix2 r 0) + ∑ s : Fin 512, gauss x y r s := by
  unfold k0_pay8
  refine (congrFun (shapeCast_self _ _) (ix2 r 0)).trans ?_
  refine congrArg (acc (ix2 r 0) + ·) ?_
  exact (shapeCast_col_apply _ shapeCasts_S512_S512x1 r).trans
    ((rowsum_apply _ 0x00000000#32 reduces_S512x512_S512 (.inl rfl) rfl r).trans
      (Finset.sum_congr rfl fun s _ => k0_pay6_apply x y r s))

/-! ## The bilateral kernel (6 features) -/

/-- The bilateral kernel's entry for row pixel r and column pixel s. -/
theorem k0_pay1_apply (x y : Vec Ideal S6x512 .f32) (r s : Fin 512) :
    k0_pay1 (F := Ideal) x y (ix2 r s) = gauss x y r s := by
  have e : k0_pay1 (F := Ideal) x y
      = gaussVec (shapeCast S6x512 x shapeCasts_S6x512_S6x512) (shapeCast S6x512 y shapeCasts_S6x512_S6x512)
          transposes_S6x512_p1_0_S512x6 reduces_S512x6_S512 shapeCasts_S512_S512x1 reduces_S6x512_S512
          shapeCasts_S512_S1x512 dot_S512x6_S6x512_S512x512_1_0_0_1_n_n broadcasts_S512x1_S512x512
          broadcasts_S1x512_S512x512 := rfl
  refine (congrFun e (ix2 r s)).trans ?_
  refine (gaussVec_apply _ _ _ _ _ _ _ _ rfl rfl rfl rfl rfl rfl _ _ r s).trans ?_
  exact congrArg₂ (fun a b => gauss a b r s) (shapeCast_self x shapeCasts_S6x512_S6x512)
    (shapeCast_self y shapeCasts_S6x512_S6x512)

/-- Its rounding to the storage format is the identity on extended reals. -/
theorem k0_pay2_apply (x y : Vec Ideal S6x512 .f32) (i : S512x512.Idx) :
    k0_pay2 (F := Ideal) x y i = k0_pay1 (F := Ideal) x y i := rfl

/-- The running per-row norm after the step: what it held plus the row's sum over the 512 column pixels. -/
theorem k0_pay3_apply (x y : Vec Ideal S6x512 .f32) (acc : Vec Ideal S512x1 .f32) (r : Fin 512) :
    k0_pay3 (F := Ideal) x y acc (ix2 r 0) = acc (ix2 r 0) + ∑ s : Fin 512, gauss x y r s := by
  unfold k0_pay3
  refine (congrFun (shapeCast_self _ _) (ix2 r 0)).trans ?_
  refine congrArg (acc (ix2 r 0) + ·) ?_
  exact (shapeCast_col_apply _ shapeCasts_S512_S512x1 r).trans
    ((rowsum_apply _ 0x00000000#32 reduces_S512x512_S512 (.inl rfl) rfl r).trans
      (Finset.sum_congr rfl fun s _ => k0_pay1_apply x y r s))

/-! ## The first column step of a row: the two running norms are cleared -/

/-- The spatial norm is cleared: the zero word everywhere. -/
theorem k0_pay4_apply (i : S512x1.Idx) : k0_pay4 (F := Ideal) i = Ideal.ofBits .f32 0x00000000#32 :=
  congrFun (shapeCast_self (broadcast S512x1 (Scalar.ofBits (F := Ideal) .f32 0x00000000#32)) shapeCasts_S512x1_S512x1) i

/-- The bilateral norm is cleared: the zero word everywhere. -/
theorem k0_pay5_apply (i : S512x1.Idx) : k0_pay5 (F := Ideal) i = Ideal.ofBits .f32 0x00000000#32 :=
  congrFun (shapeCast_self (broadcast S512x1 (Scalar.ofBits (F := Ideal) .f32 0x00000000#32)) shapeCasts_S512x1_S512x1) i

/-- The zero word is the extended real 0. -/
theorem k0_pay4_apply_zero (i : S512x1.Idx) : k0_pay4 (F := Ideal) i = 0 :=
  (k0_pay4_apply i).trans Ideal.ofBits_zero_f32

theorem k0_pay5_apply_zero (i : S512x1.Idx) : k0_pay5 (F := Ideal) i = 0 :=
  (k0_pay5_apply i).trans Ideal.ofBits_zero_f32

end Cert.KernelIdeal.Pay
-- ==== Proof.LibFinGroups.lean ====
/-
  A sum over a·b consecutive naturals, grouped into a groups of b: ∑_{n < a·b} f n = ∑_{g < a} ∑_{j < b} f (b·g + j),
  in any commutative additive monoid.
-/
import Mathlib.Algebra.BigOperators.Fin
import Mathlib.Logic.Equiv.Fin.Basic

open scoped BigOperators

namespace Cert.Lib.FinGroups

/-- The sum over n < a·b of f n is the sum over the a groups of the sums over each group's b members. -/
theorem sum_fin_groups {M : Type*} [AddCommMonoid M] (a b : ℕ) (f : ℕ → M) :
    ∑ n : Fin (a * b), f n.val = ∑ g : Fin a, ∑ j : Fin b, f (b * g.val + j.val) := by
  rw [← Fintype.sum_prod_type']
  refine (Fintype.sum_equiv (finProdFinEquiv (m := a) (n := b)) _ (fun n => f n.val) fun x => ?_).symm
  show f (b * x.1.val + x.2.val) = f (x.2.val + b * x.1.val)
  rw [Nat.add_comm]

end Cert.Lib.FinGroups
-- ==== Proof.IdealR0Value.lean ====
/-
  Region 0's value on the extended reals: what the sixteen by sixteen grid of 512 x 512 blocks leaves in its four
  output arrays, as whole-array functions of the two feature arrays the region reads.

  At the point (i, j) of the grid the body reads column blocks i and j of a feature array f (C rows, 8192 columns) and
  stores, for every pair (r, s) of the two blocks' columns, the Gaussian affinity of the sites 512 i + r and 512 j + s;
  the two squared norms enter the kernel's squared distance as bare sums and the specification's as the zero word's
  value plus the sum, which is the same extended real. Each row's sum over the 512 columns of the block is added to a
  running normalizer that is cleared at j = 0 and copied out at j = 15: after the step j the normalizer of row r holds
  the zero word's value plus the sum over the column blocks 0 … j of the block sums, and the sixteen block sums regroup
  the sum over all 8192 sites. The block (i, j) of an affinity array is written back at the point 16 i + j, and block i
  of a normalizer column at the point 16 i + 15, so every entry of the four arrays is covered by one write-back.
-/
import proofs.«162179_j58609123721967_2_alg».proof.Proof.IdealR0Frame
import proofs.«162179_j58609123721967_2_alg».proof.Proof.IdealPay0
import proofs.«162179_j58609123721967_2_alg».proof.Proof.RefSpec
import proofs.«162179_j58609123721967_2_alg».proof.Proof.LibFinGroups
import Idealize.ShloMosaic.Lib.Pipeline.Value
import Idealize.ShloMosaic.Lib.Tactic

set_option maxRecDepth 16384

open scoped BigOperators

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.ReferenceIdeal.RefValue Cert.KernelIdeal.Pay

namespace R0Val

/-! ## Column blocks of a feature array, and the running normalizer -/

section Blocks
variable {C : Nat}

/-- Column s of the column block B: site 512 B + s. -/
def col (B : Fin 16) (s : Fin 512) : Fin 8192 :=
  ⟨512 * B.val + s.val, by have h1 := B.isLt; have h2 := s.isLt; omega⟩

theorem col_val (B : Fin 16) (s : Fin 512) : (col B s).val = 512 * B.val + s.val := rfl

/-- Column block B of a feature array: its C rows over the block's 512 columns. -/
def fblk (f : Mat C 8192) (B : Fin 16) : (⟨2, ![C, 512]⟩ : Shape).Idx → EReal := fun i => f (ix2 (i 0) (col B (i 1)))

theorem fblk_apply (f : Mat C 8192) (B : Fin 16) (k : Fin C) (s : Fin 512) :
    fblk f B (ix2 k s) = f (ix2 k (col B s)) := rfl

/-- The Gaussian of the squared distance between column r of block I and column s of block J is the affinity of the
    two sites: the zero word's value is 0, so the squared norms agree. -/
theorem gauss_fblk (f : Mat C 8192) (I J : Fin 16) (r s : Fin 512) :
    gauss (fblk f I) (fblk f J) r s = gaussK f (col I r) (col J s) := by
  simp only [gauss, sqDist, gaussK, sqNorm, gram, fblk_apply, Ideal.ofBits_zero_f32, zero_add]

/-- The affinity of site R and site number n; 0 beyond the last site. -/
def affN (f : Mat C 8192) (R : Fin 8192) (n : ℕ) : EReal := if h : n < 8192 then gaussK f R ⟨n, h⟩ else 0

theorem affN_col (f : Mat C 8192) (R : Fin 8192) (B : Fin 16) (s : Fin 512) :
    affN f R (512 * B.val + s.val) = gaussK f R (col B s) := dif_pos (col B s).isLt

/-- The sum of site R's affinities over the 512 sites of column block b. -/
def blockSum (f : Mat C 8192) (R : Fin 8192) (b : ℕ) : EReal := ∑ s : Fin 512, affN f R (512 * b + s.val)

/-- The row sums of the Gaussians of two blocks are the block sums of the affinities. -/
theorem sum_gauss_fblk (f : Mat C 8192) (I J : Fin 16) (r : Fin 512) :
    ∑ s : Fin 512, gauss (fblk f I) (fblk f J) r s = blockSum f (col I r) J.val :=
  Finset.sum_congr rfl fun s _ => (gauss_fblk f I J r s).trans (affN_col f (col I r) J s).symm

/-- The running normalizer of site R after n column blocks: the zero word's value plus the first n block sums. -/
def partNorm (f : Mat C 8192) (R : Fin 8192) (n : ℕ) : EReal :=
  Ideal.ofBits .f32 0x00000000#32 + ∑ b ∈ Finset.range n, blockSum f R b

theorem partNorm_one (f : Mat C 8192) (R : Fin 8192) :
    partNorm f R 1 = Ideal.ofBits .f32 0x00000000#32 + blockSum f R 0 := by
  unfold partNorm; rw [Finset.sum_range_one]

theorem partNorm_succ (f : Mat C 8192) (R : Fin 8192) (n : ℕ) :
    partNorm f R (n + 1) = partNorm f R n + blockSum f R n := by
  unfold partNorm; rw [Finset.sum_range_succ, add_assoc]

/-- After all sixteen column blocks the running normalizer is the normalizer: the sixteen block sums regroup the sum
    over the 8192 sites. -/
theorem partNorm_sixteen (f : Mat C 8192) (R : Fin 8192) : partNorm f R 16 = rowNorm f R := by
  unfold partNorm rowNorm
  refine congrArg (Ideal.ofBits .f32 0x00000000#32 + ·) ?_
  rw [Finset.sum_range (fun b => blockSum f R b)]
  refine (Cert.Lib.FinGroups.sum_fin_groups 16 512 (affN f R)).symm.trans ?_
  show ∑ n : Fin 8192, affN f R n.val = _
  exact Finset.sum_congr rfl fun n _ => dif_pos n.isLt

end Blocks

/-! ## What each case's stores leave, as payloads of the point's blocks

Every stored buffer receives whole stores, so what it holds afterwards is the last store's payload; a load of a whole
buffer reads its contents. -/

section Pieces

variable {F : FTy → Type} [FloatOps F]

theorem hz2 : (![0, 0] : Fin 2 → Nat) = fun _ => 0 := funext fun a => by fin_cases a <;> rfl

variable (c : Dev nD) (i : grid0.Coords)
  (arg2 : Memref sig .tc .vmem S3x512 .f32) (harg2 : arg2.IsWhole) (arg3 : Memref sig .tc .vmem S3x512 .f32) (harg3 : arg3.IsWhole)
  (arg4 : Memref sig .tc .vmem S6x512 .f32) (harg4 : arg4.IsWhole) (arg5 : Memref sig .tc .vmem S6x512 .f32) (harg5 : arg5.IsWhole)
  (arg6 : Memref sig .tc .vmem S512x512 .bf16) (harg6 : arg6.IsWhole) (arg7 : Memref sig .tc .vmem S512x512 .bf16) (harg7 : arg7.IsWhole)
  (arg8 : Memref sig .tc .vmem S512x1 .f32) (harg8 : arg8.IsWhole) (arg9 : Memref sig .tc .vmem S512x1 .f32) (harg9 : arg9.IsWhole)
  (arg10 : Memref sig .tc .vmem S512x1 .f32) (harg10 : arg10.IsWhole) (arg11 : Memref sig .tc .vmem S512x1 .f32) (harg11 : arg11.IsWhole)

/-- At the first step of a row the spatial block holds the spatial kernel of the two spatial blocks. -/
theorem out0_A_4_eq (hc0 : cond0_0 i) (hc1 : ¬cond0_1 i) (x0 x1 : Vec F S3x512 .f32) (x2 x3 : Vec F S6x512 .f32) :
    out0_A_4 c i arg2 harg2 arg3 harg3 arg4 harg4 arg5 harg5 arg6 harg6 arg7 harg7 arg8 harg8 arg9 harg9 arg10 harg10 arg11 harg11 hc0 hc1 x0 x1 x2 x3 = k0_pay7 x0 x1 := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  try sl_unfold_words
  rw [View.canon_unit_zero hz2]
  try rw [View.readCov_unit_zero (S := S512x1) _ hz2]
  try simp only [View.readAt_eq_ld, harg2.read_unread, harg3.read_unread, harg4.read_unread, harg5.read_unread, harg10.read_unread, harg11.read_unread, View.ld_unit_zero (S := S3x512) hz2, View.ld_unit_zero (S := S6x512) hz2, View.ld_unit_zero (S := S512x1) hz2, shapeCast_self]

/-- At the first step of a row the bilateral block holds the bilateral kernel of the two bilateral blocks. -/
theorem out0_A_5_eq (hc0 : cond0_0 i) (hc1 : ¬cond0_1 i) (x0 x1 : Vec F S3x512 .f32) (x2 x3 : Vec F S6x512 .f32) :
    out0_A_5 c i arg2 harg2 arg3 harg3 arg4 harg4 arg5 harg5 arg6 harg6 arg7 harg7 arg8 harg8 arg9 harg9 arg10 harg10 arg11 harg11 hc0 hc1 x0 x1 x2 x3 = k0_pay2 x2 x3 := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  try sl_unfold_words
  rw [View.canon_unit_zero hz2]
  try rw [View.readCov_unit_zero (S := S512x1) _ hz2]
  try simp only [View.readAt_eq_ld, harg2.read_unread, harg3.read_unread, harg4.read_unread, harg5.read_unread, harg10.read_unread, harg11.read_unread, View.ld_unit_zero (S := S3x512) hz2, View.ld_unit_zero (S := S6x512) hz2, View.ld_unit_zero (S := S512x1) hz2, shapeCast_self]

/-- At the first step of a row the spatial accumulator is cleared and then takes the block's row sums. -/
theorem sout0_A_0_eq (hc0 : cond0_0 i) (hc1 : ¬cond0_1 i) (x0 x1 : Vec F S3x512 .f32) (x2 x3 : Vec F S6x512 .f32) :
    sout0_A_0 c i arg2 harg2 arg3 harg3 arg4 harg4 arg5 harg5 arg6 harg6 arg7 harg7 arg8 harg8 arg9 harg9 arg10 harg10 arg11 harg11 hc0 hc1 x0 x1 x2 x3 = k0_pay8 x0 x1 k0_pay4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  try sl_unfold_words
  rw [View.canon_cons_unit_zero (S := S512x1) hz2]
  try rw [View.readCov_unit_zero (S := S512x1) _ hz2]
  try simp only [View.readAt_eq_ld, harg2.read_unread, harg3.read_unread, harg4.read_unread, harg5.read_unread, harg10.read_unread, harg11.read_unread, View.ld_unit_zero (S := S3x512) hz2, View.ld_unit_zero (S := S6x512) hz2, View.ld_unit_zero (S := S512x1) hz2, shapeCast_self]

/-- At the first step of a row the bilateral accumulator is cleared and then takes the block's row sums. -/
theorem sout0_A_1_eq (hc0 : cond0_0 i) (hc1 : ¬cond0_1 i) (x0 x1 : Vec F S3x512 .f32) (x2 x3 : Vec F S6x512 .f32) :
    sout0_A_1 c i arg2 harg2 arg3 harg3 arg4 harg4 arg5 harg5 arg6 harg6 arg7 harg7 arg8 harg8 arg9 harg9 arg10 harg10 arg11 harg11 hc0 hc1 x0 x1 x2 x3 = k0_pay3 x2 x3 k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  try sl_unfold_words
  rw [View.canon_cons_unit_zero (S := S512x1) hz2]
  try rw [View.readCov_unit_zero (S := S512x1) _ hz2]
  try simp only [View.readAt_eq_ld, harg2.read_unread, harg3.read_unread, harg4.read_unread, harg5.read_unread, harg10.read_unread, harg11.read_unread, View.ld_unit_zero (S := S3x512) hz2, View.ld_unit_zero (S := S6x512) hz2, View.ld_unit_zero (S := S512x1) hz2, shapeCast_self]

/-- At a middle step the spatial block holds the spatial kernel of the two spatial blocks. -/
theorem out0_B_4_eq (hc0 : ¬cond0_0 i) (hc1 : ¬cond0_1 i) (x0 x1 : Vec F S3x512 .f32) (x2 x3 : Vec F S6x512 .f32) (xs0 xs1 : Vec F S512x1 .f32) :
    out0_B_4 c i arg2 harg2 arg3 harg3 arg4 harg4 arg5 harg5 arg6 harg6 arg7 harg7 arg8 harg8 arg9 harg9 arg10 harg10 arg11 harg11 hc0 hc1 x0 x1 x2 x3 xs0 xs1 = k0_pay7 x0 x1 := by
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 hc0 hc1 x0 x1 x2 x3 xs0 xs1)]
  unfold kernelRun0_B
  dsimp only
  try sl_unfold_words
  rw [View.canon_unit_zero hz2]
  try rw [View.readCov_unit_zero (S := S512x1) _ hz2]
  try simp only [View.readAt_eq_ld, harg2.read_unread, harg3.read_unread, harg4.read_unread, harg5.read_unread, harg10.read_unread, harg11.read_unread, View.ld_unit_zero (S := S3x512) hz2, View.ld_unit_zero (S := S6x512) hz2, View.ld_unit_zero (S := S512x1) hz2, shapeCast_self]

/-- At a middle step the bilateral block holds the bilateral kernel of the two bilateral blocks. -/
theorem out0_B_5_eq (hc0 : ¬cond0_0 i) (hc1 : ¬cond0_1 i) (x0 x1 : Vec F S3x512 .f32) (x2 x3 : Vec F S6x512 .f32) (xs0 xs1 : Vec F S512x1 .f32) :
    out0_B_5 c i arg2 harg2 arg3 harg3 arg4 harg4 arg5 harg5 arg6 harg6 arg7 harg7 arg8 harg8 arg9 harg9 arg10 harg10 arg11 harg11 hc0 hc1 x0 x1 x2 x3 xs0 xs1 = k0_pay2 x2 x3 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 hc0 hc1 x0 x1 x2 x3 xs0 xs1)]
  unfold kernelRun0_B
  dsimp only
  try sl_unfold_words
  rw [View.canon_unit_zero hz2]
  try rw [View.readCov_unit_zero (S := S512x1) _ hz2]
  try simp only [View.readAt_eq_ld, harg2.read_unread, harg3.read_unread, harg4.read_unread, harg5.read_unread, harg10.read_unread, harg11.read_unread, View.ld_unit_zero (S := S3x512) hz2, View.ld_unit_zero (S := S6x512) hz2, View.ld_unit_zero (S := S512x1) hz2, shapeCast_self]

/-- At a middle step the spatial accumulator takes the block's row sums over what it held. -/
theorem sout0_B_0_eq (hc0 : ¬cond0_0 i) (hc1 : ¬cond0_1 i) (x0 x1 : Vec F S3x512 .f32) (x2 x3 : Vec F S6x512 .f32) (xs0 xs1 : Vec F S512x1 .f32) :
    sout0_B_0 c i arg2 harg2 arg3 harg3 arg4 harg4 arg5 harg5 arg6 harg6 arg7 harg7 arg8 harg8 arg9 harg9 arg10 harg10 arg11 harg11 hc0 hc1 x0 x1 x2 x3 xs0 xs1 = k0_pay8 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 xs0 xs1)]
  unfold kernelRun0_B
  dsimp only
  try sl_unfold_words
  rw [View.canon_unit_zero hz2]
  try rw [View.readCov_unit_zero (S := S512x1) _ hz2]
  try simp only [View.readAt_eq_ld, harg2.read_unread, harg3.read_unread, harg4.read_unread, harg5.read_unread, harg10.read_unread, harg11.read_unread, View.ld_unit_zero (S := S3x512) hz2, View.ld_unit_zero (S := S6x512) hz2, View.ld_unit_zero (S := S512x1) hz2, shapeCast_self]

/-- At a middle step the bilateral accumulator takes the block's row sums over what it held. -/
theorem sout0_B_1_eq (hc0 : ¬cond0_0 i) (hc1 : ¬cond0_1 i) (x0 x1 : Vec F S3x512 .f32) (x2 x3 : Vec F S6x512 .f32) (xs0 xs1 : Vec F S512x1 .f32) :
    sout0_B_1 c i arg2 harg2 arg3 harg3 arg4 harg4 arg5 harg5 arg6 harg6 arg7 harg7 arg8 harg8 arg9 harg9 arg10 harg10 arg11 harg11 hc0 hc1 x0 x1 x2 x3 xs0 xs1 = k0_pay3 x2 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 xs0 xs1)]
  unfold kernelRun0_B
  dsimp only
  try sl_unfold_words
  rw [View.canon_unit_zero hz2]
  try rw [View.readCov_unit_zero (S := S512x1) _ hz2]
  try simp only [View.readAt_eq_ld, harg2.read_unread, harg3.read_unread, harg4.read_unread, harg5.read_unread, harg10.read_unread, harg11.read_unread, View.ld_unit_zero (S := S3x512) hz2, View.ld_unit_zero (S := S6x512) hz2, View.ld_unit_zero (S := S512x1) hz2, shapeCast_self]

/-- At the last step of a row the spatial block holds the spatial kernel of the two spatial blocks. -/
theorem out0_C_4_eq (hc0 : ¬cond0_0 i) (hc1 : cond0_1 i) (x0 x1 : Vec F S3x512 .f32) (x2 x3 : Vec F S6x512 .f32) (xs0 xs1 : Vec F S512x1 .f32) :
    out0_C_4 c i arg2 harg2 arg3 harg3 arg4 harg4 arg5 harg5 arg6 harg6 arg7 harg7 arg8 harg8 arg9 harg9 arg10 harg10 arg11 harg11 hc0 hc1 x0 x1 x2 x3 xs0 xs1 = k0_pay7 x0 x1 := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 x3 xs0 xs1)]
  unfold kernelRun0_C
  dsimp only
  try sl_unfold_words
  rw [View.canon_unit_zero hz2]
  try rw [View.readCov_unit_zero (S := S512x1) _ hz2]
  try simp only [View.readAt_eq_ld, harg2.read_unread, harg3.read_unread, harg4.read_unread, harg5.read_unread, harg10.read_unread, harg11.read_unread, View.ld_unit_zero (S := S3x512) hz2, View.ld_unit_zero (S := S6x512) hz2, View.ld_unit_zero (S := S512x1) hz2, shapeCast_self]

/-- At the last step of a row the bilateral block holds the bilateral kernel of the two bilateral blocks. -/
theorem out0_C_5_eq (hc0 : ¬cond0_0 i) (hc1 : cond0_1 i) (x0 x1 : Vec F S3x512 .f32) (x2 x3 : Vec F S6x512 .f32) (xs0 xs1 : Vec F S512x1 .f32) :
    out0_C_5 c i arg2 harg2 arg3 harg3 arg4 harg4 arg5 harg5 arg6 harg6 arg7 harg7 arg8 harg8 arg9 harg9 arg10 harg10 arg11 harg11 hc0 hc1 x0 x1 x2 x3 xs0 xs1 = k0_pay2 x2 x3 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 xs0 xs1)]
  unfold kernelRun0_C
  dsimp only
  try sl_unfold_words
  rw [View.canon_unit_zero hz2]
  try rw [View.readCov_unit_zero (S := S512x1) _ hz2]
  try simp only [View.readAt_eq_ld, harg2.read_unread, harg3.read_unread, harg4.read_unread, harg5.read_unread, harg10.read_unread, harg11.read_unread, View.ld_unit_zero (S := S3x512) hz2, View.ld_unit_zero (S := S6x512) hz2, View.ld_unit_zero (S := S512x1) hz2, shapeCast_self]

/-- At the last step of a row the spatial normalizer column is the accumulator after the step. -/
theorem out0_C_6_eq (hc0 : ¬cond0_0 i) (hc1 : cond0_1 i) (x0 x1 : Vec F S3x512 .f32) (x2 x3 : Vec F S6x512 .f32) (xs0 xs1 : Vec F S512x1 .f32) :
    out0_C_6 c i arg2 harg2 arg3 harg3 arg4 harg4 arg5 harg5 arg6 harg6 arg7 harg7 arg8 harg8 arg9 harg9 arg10 harg10 arg11 harg11 hc0 hc1 x0 x1 x2 x3 xs0 xs1 = k0_pay8 x0 x1 xs0 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 xs0 xs1)]
  unfold kernelRun0_C
  dsimp only
  try sl_unfold_words
  rw [View.canon_unit_zero hz2]
  try rw [View.readCov_unit_zero (S := S512x1) _ hz2]
  try simp only [View.readAt_eq_ld, harg2.read_unread, harg3.read_unread, harg4.read_unread, harg5.read_unread, harg10.read_unread, harg11.read_unread, View.ld_unit_zero (S := S3x512) hz2, View.ld_unit_zero (S := S6x512) hz2, View.ld_unit_zero (S := S512x1) hz2, shapeCast_self]

/-- At the last step of a row the bilateral normalizer column is the accumulator after the step. -/
theorem out0_C_7_eq (hc0 : ¬cond0_0 i) (hc1 : cond0_1 i) (x0 x1 : Vec F S3x512 .f32) (x2 x3 : Vec F S6x512 .f32) (xs0 xs1 : Vec F S512x1 .f32) :
    out0_C_7 c i arg2 harg2 arg3 harg3 arg4 harg4 arg5 harg5 arg6 harg6 arg7 harg7 arg8 harg8 arg9 harg9 arg10 harg10 arg11 harg11 hc0 hc1 x0 x1 x2 x3 xs0 xs1 = k0_pay3 x2 x3 xs1 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 xs0 xs1)]
  unfold kernelRun0_C
  dsimp only
  try sl_unfold_words
  rw [View.canon_unit_zero hz2]
  try rw [View.readCov_unit_zero (S := S512x1) _ hz2]
  try simp only [View.readAt_eq_ld, harg2.read_unread, harg3.read_unread, harg4.read_unread, harg5.read_unread, harg10.read_unread, harg11.read_unread, View.ld_unit_zero (S := S3x512) hz2, View.ld_unit_zero (S := S6x512) hz2, View.ld_unit_zero (S := S512x1) hz2, shapeCast_self]

/-- At the last step of a row the spatial accumulator takes the block's row sums over what it held. -/
theorem sout0_C_0_eq (hc0 : ¬cond0_0 i) (hc1 : cond0_1 i) (x0 x1 : Vec F S3x512 .f32) (x2 x3 : Vec F S6x512 .f32) (xs0 xs1 : Vec F S512x1 .f32) :
    sout0_C_0 c i arg2 harg2 arg3 harg3 arg4 harg4 arg5 harg5 arg6 harg6 arg7 harg7 arg8 harg8 arg9 harg9 arg10 harg10 arg11 harg11 hc0 hc1 x0 x1 x2 x3 xs0 xs1 = k0_pay8 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 xs0 xs1)]
  unfold kernelRun0_C
  dsimp only
  try sl_unfold_words
  rw [View.canon_unit_zero hz2]
  try rw [View.readCov_unit_zero (S := S512x1) _ hz2]
  try simp only [View.readAt_eq_ld, harg2.read_unread, harg3.read_unread, harg4.read_unread, harg5.read_unread, harg10.read_unread, harg11.read_unread, View.ld_unit_zero (S := S3x512) hz2, View.ld_unit_zero (S := S6x512) hz2, View.ld_unit_zero (S := S512x1) hz2, shapeCast_self]

/-- At the last step of a row the bilateral accumulator takes the block's row sums over what it held. -/
theorem sout0_C_1_eq (hc0 : ¬cond0_0 i) (hc1 : cond0_1 i) (x0 x1 : Vec F S3x512 .f32) (x2 x3 : Vec F S6x512 .f32) (xs0 xs1 : Vec F S512x1 .f32) :
    sout0_C_1 c i arg2 harg2 arg3 harg3 arg4 harg4 arg5 harg5 arg6 harg6 arg7 harg7 arg8 harg8 arg9 harg9 arg10 harg10 arg11 harg11 hc0 hc1 x0 x1 x2 x3 xs0 xs1 = k0_pay3 x2 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 xs0 xs1)]
  unfold kernelRun0_C
  dsimp only
  try sl_unfold_words
  rw [View.canon_unit_zero hz2]
  try rw [View.readCov_unit_zero (S := S512x1) _ hz2]
  try simp only [View.readAt_eq_ld, harg2.read_unread, harg3.read_unread, harg4.read_unread, harg5.read_unread, harg10.read_unread, harg11.read_unread, View.ld_unit_zero (S := S3x512) hz2, View.ld_unit_zero (S := S6x512) hz2, View.ld_unit_zero (S := S512x1) hz2, shapeCast_self]

end Pieces

/-! ## After any point: the outputs and the accumulators as payloads of the point's blocks -/

section AfterPoint

variable {F : FTy → Type} [FloatOps F]
variable (V : (c : Dev nD) → (b : Ref sig .tc) → Buf (Elt F) ((c : Thread nD τ).loc b))

/-- After any point the spatial block holds the spatial kernel of the point's two spatial blocks. -/
theorem outs0_4 (c : Dev nD) (t : Fin cfg0.N) :
    (outsAt0 V c t.val t.isLt).1 = k0_pay7 (iblk0 V c 0 t) (iblk0 V c 1 t) := by
  by_cases h0 : t.val % 16 = 0
  · have h1 : ¬t.val % 16 = 15 := by omega
    rw [outsAt0_A V c t h0 h1]; unfold atA0; dsimp only
    exact out0_A_4_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)
  · by_cases h1 : t.val % 16 = 15
    · rw [outsAt0_C V c t h0 h1]; unfold atC0; dsimp only
      exact out0_C_4_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2
    · rw [outsAt0_B V c t h0 h1]; unfold atB0; dsimp only
      exact out0_B_4_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

/-- After any point the bilateral block holds the bilateral kernel of the point's two bilateral blocks. -/
theorem outs0_5 (c : Dev nD) (t : Fin cfg0.N) :
    (outsAt0 V c t.val t.isLt).2.1 = k0_pay2 (iblk0 V c 2 t) (iblk0 V c 3 t) := by
  by_cases h0 : t.val % 16 = 0
  · have h1 : ¬t.val % 16 = 15 := by omega
    rw [outsAt0_A V c t h0 h1]; unfold atA0; dsimp only
    exact out0_A_5_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)
  · by_cases h1 : t.val % 16 = 15
    · rw [outsAt0_C V c t h0 h1]; unfold atC0; dsimp only
      exact out0_C_5_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2
    · rw [outsAt0_B V c t h0 h1]; unfold atB0; dsimp only
      exact out0_B_5_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

/-- After the first step of a row the spatial accumulator is the block's row sums over the cleared accumulator. -/
theorem acc0_0_first (c : Dev nD) (t : Fin cfg0.N) (h0 : t.val % 16 = 0) :
    (outsAt0 V c t.val t.isLt).2.2.2.2.1 = k0_pay8 (iblk0 V c 0 t) (iblk0 V c 1 t) k0_pay4 := by
  have h1 : ¬t.val % 16 = 15 := by omega
  rw [outsAt0_A V c t h0 h1]; unfold atA0; dsimp only
  exact sout0_A_0_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)

/-- The bilateral accumulator likewise. -/
theorem acc0_1_first (c : Dev nD) (t : Fin cfg0.N) (h0 : t.val % 16 = 0) :
    (outsAt0 V c t.val t.isLt).2.2.2.2.2 = k0_pay3 (iblk0 V c 2 t) (iblk0 V c 3 t) k0_pay5 := by
  have h1 : ¬t.val % 16 = 15 := by omega
  rw [outsAt0_A V c t h0 h1]; unfold atA0; dsimp only
  exact sout0_A_1_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)

/-- After a later step of a row the spatial accumulator is the block's row sums over what the step before left. -/
theorem acc0_0_later (c : Dev nD) (t : Fin cfg0.N) (h0 : ¬t.val % 16 = 0) :
    (outsAt0 V c t.val t.isLt).2.2.2.2.1 = k0_pay8 (iblk0 V c 0 t) (iblk0 V c 1 t)
      (outsAt0 V c (t.val - 1) (Nat.lt_of_le_of_lt (Nat.sub_le _ _) t.isLt)).2.2.2.2.1 := by
  by_cases h1 : t.val % 16 = 15
  · rw [outsAt0_C V c t h0 h1]; unfold atC0; dsimp only
    exact sout0_C_0_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2
  · rw [outsAt0_B V c t h0 h1]; unfold atB0; dsimp only
    exact sout0_B_0_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

/-- The bilateral accumulator likewise. -/
theorem acc0_1_later (c : Dev nD) (t : Fin cfg0.N) (h0 : ¬t.val % 16 = 0) :
    (outsAt0 V c t.val t.isLt).2.2.2.2.2 = k0_pay3 (iblk0 V c 2 t) (iblk0 V c 3 t)
      (outsAt0 V c (t.val - 1) (Nat.lt_of_le_of_lt (Nat.sub_le _ _) t.isLt)).2.2.2.2.2 := by
  by_cases h1 : t.val % 16 = 15
  · rw [outsAt0_C V c t h0 h1]; unfold atC0; dsimp only
    exact sout0_C_1_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2
  · rw [outsAt0_B V c t h0 h1]; unfold atB0; dsimp only
    exact sout0_B_1_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

/-- After the last step of a row the spatial normalizer column is the accumulator after that step. -/
theorem outs0_6 (c : Dev nD) (t : Fin cfg0.N) (h1 : t.val % 16 = 15) :
    (outsAt0 V c t.val t.isLt).2.2.1 = (outsAt0 V c t.val t.isLt).2.2.2.2.1 := by
  have h0 : ¬t.val % 16 = 0 := by omega
  rw [outsAt0_C V c t h0 h1]; unfold atC0; dsimp only
  exact (out0_C_6_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2).trans (sout0_C_0_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2).symm

/-- The bilateral normalizer column likewise. -/
theorem outs0_7 (c : Dev nD) (t : Fin cfg0.N) (h1 : t.val % 16 = 15) :
    (outsAt0 V c t.val t.isLt).2.2.2.1 = (outsAt0 V c t.val t.isLt).2.2.2.2.2 := by
  have h0 : ¬t.val % 16 = 0 := by omega
  rw [outsAt0_C V c t h0 h1]; unfold atC0; dsimp only
  exact (out0_C_7_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2).trans (sout0_C_1_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2).symm

end AfterPoint

/-! ## At the ideal instance: the blocks a point reads, and what it leaves, on the extended reals -/

section AtIdeal

variable (V : (c : Dev nD) → (b : Ref sig .tc) → Buf (Elt Ideal) ((c : Thread nD τ).loc b)) (c : Dev nD)

/-- The row of blocks a point is in. -/
def rowB (t : Fin cfg0.N) : Fin 16 := ⟨t.val / 16, by have h : t.val < 256 := lt_of_lt_of_eq t.isLt (show cfg0.N = 256 from N_0); omega⟩
/-- A point's position in its row of blocks. -/
def colB (t : Fin cfg0.N) : Fin 16 := ⟨t.val % 16, Nat.mod_lt _ (by decide)⟩

/-- Where each window's block sits in its array, decided over the grid. -/
theorem index0_0 : ∀ t : Fin cfg0.N, win0_0.index t 0 = 0 ∧ win0_0.index t 1 = t.val / 16 :=
  (by decide +kernel : ∀ t : Fin grid0.N, win0_0.index t 0 = 0 ∧ win0_0.index t 1 = t.val / 16)
theorem index0_1 : ∀ t : Fin cfg0.N, win0_1.index t 0 = 0 ∧ win0_1.index t 1 = t.val % 16 :=
  (by decide +kernel : ∀ t : Fin grid0.N, win0_1.index t 0 = 0 ∧ win0_1.index t 1 = t.val % 16)
theorem index0_2 : ∀ t : Fin cfg0.N, win0_2.index t 0 = 0 ∧ win0_2.index t 1 = t.val / 16 :=
  (by decide +kernel : ∀ t : Fin grid0.N, win0_2.index t 0 = 0 ∧ win0_2.index t 1 = t.val / 16)
theorem index0_3 : ∀ t : Fin cfg0.N, win0_3.index t 0 = 0 ∧ win0_3.index t 1 = t.val % 16 :=
  (by decide +kernel : ∀ t : Fin grid0.N, win0_3.index t 0 = 0 ∧ win0_3.index t 1 = t.val % 16)
theorem index0_4 : ∀ t : Fin cfg0.N, win0_4.index t 0 = t.val / 16 ∧ win0_4.index t 1 = t.val % 16 :=
  (by decide +kernel : ∀ t : Fin grid0.N, win0_4.index t 0 = t.val / 16 ∧ win0_4.index t 1 = t.val % 16)
theorem index0_5 : ∀ t : Fin cfg0.N, win0_5.index t 0 = t.val / 16 ∧ win0_5.index t 1 = t.val % 16 :=
  (by decide +kernel : ∀ t : Fin grid0.N, win0_5.index t 0 = t.val / 16 ∧ win0_5.index t 1 = t.val % 16)
theorem index0_6 : ∀ t : Fin cfg0.N, win0_6.index t 0 = t.val / 16 ∧ win0_6.index t 1 = 0 :=
  (by decide +kernel : ∀ t : Fin grid0.N, win0_6.index t 0 = t.val / 16 ∧ win0_6.index t 1 = 0)
theorem index0_7 : ∀ t : Fin cfg0.N, win0_7.index t 0 = t.val / 16 ∧ win0_7.index t 1 = 0 :=
  (by decide +kernel : ∀ t : Fin grid0.N, win0_7.index t 0 = t.val / 16 ∧ win0_7.index t 1 = 0)

/-- Windows 0 and 2 hold the column block of the spatial / bilateral features that the point's row names, windows 1 and 3
    the column block that its position in the row names. -/
theorem iblk0_0_apply (t : Fin cfg0.N) (k : Fin 3) (s : Fin 512) :
    (iblk0 V c 0 t : Vec Ideal S3x512 .f32) (ix2 k s) = (V c main_v15 : Mat 3 8192) (ix2 k (col (rowB t) s)) := by
  have hi := index0_0 t
  unfold iblk0
  rw [View.read_apply]
  show (V c main_v15 : Mat 3 8192) _ = (V c main_v15 : Mat 3 8192) _
  congr 1
  funext a
  apply Fin.ext
  match a with
  | ⟨0, _⟩ => show win0_0.index t 0 * 3 + 1 * k.val = k.val; rw [hi.1]; omega
  | ⟨1, _⟩ => show win0_0.index t 1 * 512 + 1 * s.val = 512 * (t.val / 16) + s.val; rw [hi.2]; omega

theorem iblk0_0_eq (t : Fin cfg0.N) :
    (iblk0 V c 0 t : Vec Ideal S3x512 .f32) = fblk (V c main_v15 : Mat 3 8192) (rowB t) := by
  funext x
  obtain ⟨k, s, rfl⟩ : ∃ k s, x = ix2 k s := ⟨x 0, x 1, eq_ix2 x⟩
  exact iblk0_0_apply V c t k s

theorem iblk0_1_apply (t : Fin cfg0.N) (k : Fin 3) (s : Fin 512) :
    (iblk0 V c 1 t : Vec Ideal S3x512 .f32) (ix2 k s) = (V c main_v15 : Mat 3 8192) (ix2 k (col (colB t) s)) := by
  have hi := index0_1 t
  unfold iblk0
  rw [View.read_apply]
  show (V c main_v15 : Mat 3 8192) _ = (V c main_v15 : Mat 3 8192) _
  congr 1
  funext a
  apply Fin.ext
  match a with
  | ⟨0, _⟩ => show win0_1.index t 0 * 3 + 1 * k.val = k.val; rw [hi.1]; omega
  | ⟨1, _⟩ => show win0_1.index t 1 * 512 + 1 * s.val = 512 * (t.val % 16) + s.val; rw [hi.2]; omega

theorem iblk0_1_eq (t : Fin cfg0.N) :
    (iblk0 V c 1 t : Vec Ideal S3x512 .f32) = fblk (V c main_v15 : Mat 3 8192) (colB t) := by
  funext x
  obtain ⟨k, s, rfl⟩ : ∃ k s, x = ix2 k s := ⟨x 0, x 1, eq_ix2 x⟩
  exact iblk0_1_apply V c t k s

theorem iblk0_2_apply (t : Fin cfg0.N) (k : Fin 6) (s : Fin 512) :
    (iblk0 V c 2 t : Vec Ideal S6x512 .f32) (ix2 k s) = (V c main_v20 : Mat 6 8192) (ix2 k (col (rowB t) s)) := by
  have hi := index0_2 t
  unfold iblk0
  rw [View.read_apply]
  show (V c main_v20 : Mat 6 8192) _ = (V c main_v20 : Mat 6 8192) _
  congr 1
  funext a
  apply Fin.ext
  match a with
  | ⟨0, _⟩ => show win0_2.index t 0 * 6 + 1 * k.val = k.val; rw [hi.1]; omega
  | ⟨1, _⟩ => show win0_2.index t 1 * 512 + 1 * s.val = 512 * (t.val / 16) + s.val; rw [hi.2]; omega

theorem iblk0_2_eq (t : Fin cfg0.N) :
    (iblk0 V c 2 t : Vec Ideal S6x512 .f32) = fblk (V c main_v20 : Mat 6 8192) (rowB t) := by
  funext x
  obtain ⟨k, s, rfl⟩ : ∃ k s, x = ix2 k s := ⟨x 0, x 1, eq_ix2 x⟩
  exact iblk0_2_apply V c t k s

theorem iblk0_3_apply (t : Fin cfg0.N) (k : Fin 6) (s : Fin 512) :
    (iblk0 V c 3 t : Vec Ideal S6x512 .f32) (ix2 k s) = (V c main_v20 : Mat 6 8192) (ix2 k (col (colB t) s)) := by
  have hi := index0_3 t
  unfold iblk0
  rw [View.read_apply]
  show (V c main_v20 : Mat 6 8192) _ = (V c main_v20 : Mat 6 8192) _
  congr 1
  funext a
  apply Fin.ext
  match a with
  | ⟨0, _⟩ => show win0_3.index t 0 * 6 + 1 * k.val = k.val; rw [hi.1]; omega
  | ⟨1, _⟩ => show win0_3.index t 1 * 512 + 1 * s.val = 512 * (t.val % 16) + s.val; rw [hi.2]; omega

theorem iblk0_3_eq (t : Fin cfg0.N) :
    (iblk0 V c 3 t : Vec Ideal S6x512 .f32) = fblk (V c main_v20 : Mat 6 8192) (colB t) := by
  funext x
  obtain ⟨k, s, rfl⟩ : ∃ k s, x = ix2 k s := ⟨x 0, x 1, eq_ix2 x⟩
  exact iblk0_3_apply V c t k s

/-- After any point the spatial block holds, at (r, s), the affinity of the two sites under the spatial features. -/
theorem outs0_4_apply (t : Fin cfg0.N) (r s : Fin 512) :
    ((outsAt0 V c t.val t.isLt).1 : Vec Ideal S512x512 .bf16) (ix2 r s)
      = gaussK (V c main_v15 : Mat 3 8192) (col (rowB t) r) (col (colB t) s) := by
  rw [outs0_4, k0_pay7_apply, k0_pay6_apply, iblk0_0_eq, iblk0_1_eq, gauss_fblk]

/-- After any point the bilateral block holds, at (r, s), the affinity of the two sites under the bilateral features. -/
theorem outs0_5_apply (t : Fin cfg0.N) (r s : Fin 512) :
    ((outsAt0 V c t.val t.isLt).2.1 : Vec Ideal S512x512 .bf16) (ix2 r s)
      = gaussK (V c main_v20 : Mat 6 8192) (col (rowB t) r) (col (colB t) s) := by
  rw [outs0_5, k0_pay2_apply, k0_pay1_apply, iblk0_2_eq, iblk0_3_eq, gauss_fblk]

/-- THE INVARIANT of the spatial accumulator: after the step j of a row it holds, at row r, the running normalizer of the
    row's site after the j + 1 column blocks 0 … j. By induction on the point: the first step of a row clears the
    accumulator and adds block 0's sum; a later step adds its block's sum to what the step before left, in the same row. -/
theorem acc0_0_apply (n : ℕ) : ∀ (hn : n < cfg0.N) (r : Fin 512),
    ((outsAt0 V c n hn).2.2.2.2.1 : Vec Ideal S512x1 .f32) (ix2 r 0)
      = partNorm (V c main_v15 : Mat 3 8192) (col (rowB ⟨n, hn⟩) r) (n % 16 + 1) := by
  induction n using Nat.strong_induction_on with
  | _ n ih =>
    intro hn r
    by_cases h0 : n % 16 = 0
    · have hc : (colB ⟨n, hn⟩).val = 0 := h0
      rw [acc0_0_first V c ⟨n, hn⟩ h0, k0_pay8_apply, k0_pay4_apply, iblk0_0_eq, iblk0_1_eq, sum_gauss_fblk, hc, h0]
      exact (partNorm_one _ _).symm
    · have hN : n < 256 := lt_of_lt_of_eq hn (show cfg0.N = 256 from N_0)
      have hp : n - 1 < cfg0.N := Nat.lt_of_le_of_lt (Nat.sub_le _ _) hn
      have hc : (colB ⟨n, hn⟩).val = n % 16 := rfl
      rw [acc0_0_later V c ⟨n, hn⟩ h0, k0_pay8_apply, iblk0_0_eq, iblk0_1_eq, sum_gauss_fblk, hc]
      have hih := ih (n - 1) (by omega) hp r
      have e1 : rowB ⟨n - 1, hp⟩ = rowB ⟨n, hn⟩ := Fin.ext (by show (n - 1) / 16 = n / 16; omega)
      have e2 : (n - 1) % 16 + 1 = n % 16 := by omega
      rw [e1, e2] at hih
      exact (congrArg (· + blockSum (V c main_v15 : Mat 3 8192) (col (rowB ⟨n, hn⟩) r) (n % 16)) hih).trans
        (partNorm_succ _ _ _).symm

/-- THE INVARIANT of the bilateral accumulator, likewise. -/
theorem acc0_1_apply (n : ℕ) : ∀ (hn : n < cfg0.N) (r : Fin 512),
    ((outsAt0 V c n hn).2.2.2.2.2 : Vec Ideal S512x1 .f32) (ix2 r 0)
      = partNorm (V c main_v20 : Mat 6 8192) (col (rowB ⟨n, hn⟩) r) (n % 16 + 1) := by
  induction n using Nat.strong_induction_on with
  | _ n ih =>
    intro hn r
    by_cases h0 : n % 16 = 0
    · have hc : (colB ⟨n, hn⟩).val = 0 := h0
      rw [acc0_1_first V c ⟨n, hn⟩ h0, k0_pay3_apply, k0_pay5_apply, iblk0_2_eq, iblk0_3_eq, sum_gauss_fblk, hc, h0]
      exact (partNorm_one _ _).symm
    · have hN : n < 256 := lt_of_lt_of_eq hn (show cfg0.N = 256 from N_0)
      have hp : n - 1 < cfg0.N := Nat.lt_of_le_of_lt (Nat.sub_le _ _) hn
      have hc : (colB ⟨n, hn⟩).val = n % 16 := rfl
      rw [acc0_1_later V c ⟨n, hn⟩ h0, k0_pay3_apply, iblk0_2_eq, iblk0_3_eq, sum_gauss_fblk, hc]
      have hih := ih (n - 1) (by omega) hp r
      have e1 : rowB ⟨n - 1, hp⟩ = rowB ⟨n, hn⟩ := Fin.ext (by show (n - 1) / 16 = n / 16; omega)
      have e2 : (n - 1) % 16 + 1 = n % 16 := by omega
      rw [e1, e2] at hih
      exact (congrArg (· + blockSum (V c main_v20 : Mat 6 8192) (col (rowB ⟨n, hn⟩) r) (n % 16)) hih).trans
        (partNorm_succ _ _ _).symm

end AtIdeal

/-! ## The write-backs: what each flushing point writes, and which point covers an entry -/

section WriteBacks

variable (V : (c : Dev nD) → (b : Ref sig .tc) → Buf (Elt Ideal) ((c : Thread nD τ).loc b)) (c : Dev nD)

/-- What the point t writes back into the spatial affinity array is its block of the affinity array of the spatial features. -/
theorem flushed0_4 (t : Fin cfg0.N) (hf : (cfg0.win 4).flush t = true) :
    (dat0 V c).flushed 4 t = ((cfg0.win 4).blk t).view.read (Elt Ideal) (gaussMat (V c main_v15 : Mat 3 8192)) := by
  show (cfg0.win 4).cut (grid0.coords t) ((dat0 V c).after 4 t) = _
  rw [after0_4]
  have hi := index0_4 t
  funext y
  obtain ⟨r, s, rfl⟩ : ∃ (r s : Fin 512), y = ix2 r s := ⟨y 0, y 1, eq_ix2 y⟩
  rw [View.read_apply]
  show ((outsAt0 V c t.val t.isLt).1 : Vec Ideal S512x512 .bf16) (ix2 r s) = gaussK (V c main_v15 : Mat 3 8192) _ _
  rw [outs0_4_apply]
  congr 1 <;> apply Fin.ext
  · show 512 * (t.val / 16) + r.val = win0_4.index t 0 * 512 + 1 * r.val; rw [hi.1]; omega
  · show 512 * (t.val % 16) + s.val = win0_4.index t 1 * 512 + 1 * s.val; rw [hi.2]; omega

/-- Every entry (r, s) of the array is in the block written back at the point 16 (r / 512) + s / 512. -/
theorem covered0_4 (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 8192 := (i 0).isLt
  have h1 : (i 1 : Nat) < 8192 := (i 1).isLt
  have hN : cfg0.N = 256 := N_0
  have ht : 16 * ((i 0 : Nat) / 512) + (i 1 : Nat) / 512 < cfg0.N := by rw [hN]; omega
  refine ⟨⟨16 * ((i 0 : Nat) / 512) + (i 1 : Nat) / 512, ht⟩, flush0_4 _, ?_⟩
  have hi := index0_4 ⟨16 * ((i 0 : Nat) / 512) + (i 1 : Nat) / 512, ht⟩
  show i ∈ ((View.whole main_v21_0).slice (win0_4.rect ⟨16 * ((i 0 : Nat) / 512) + (i 1 : Nat) / 512, ht⟩)).set
  rw [View.set_slice_whole, Rect.mem_set_unit]
  intro a
  match a with
  | ⟨0, _⟩ =>
    show win0_4.index ⟨16 * ((i 0 : Nat) / 512) + (i 1 : Nat) / 512, ht⟩ 0 * 512 ≤ (i 0 : Nat)
      ∧ (i 0 : Nat) < win0_4.index ⟨16 * ((i 0 : Nat) / 512) + (i 1 : Nat) / 512, ht⟩ 0 * 512 + 512
    rw [hi.1]; dsimp only; omega
  | ⟨1, _⟩ =>
    show win0_4.index ⟨16 * ((i 0 : Nat) / 512) + (i 1 : Nat) / 512, ht⟩ 1 * 512 ≤ (i 1 : Nat)
      ∧ (i 1 : Nat) < win0_4.index ⟨16 * ((i 0 : Nat) / 512) + (i 1 : Nat) / 512, ht⟩ 1 * 512 + 512
    rw [hi.2]; dsimp only; omega

/-- What the point t writes back into the bilateral affinity array is its block of the affinity array of the bilateral features. -/
theorem flushed0_5 (t : Fin cfg0.N) (hf : (cfg0.win 5).flush t = true) :
    (dat0 V c).flushed 5 t = ((cfg0.win 5).blk t).view.read (Elt Ideal) (gaussMat (V c main_v20 : Mat 6 8192)) := by
  show (cfg0.win 5).cut (grid0.coords t) ((dat0 V c).after 5 t) = _
  rw [after0_5]
  have hi := index0_5 t
  funext y
  obtain ⟨r, s, rfl⟩ : ∃ (r s : Fin 512), y = ix2 r s := ⟨y 0, y 1, eq_ix2 y⟩
  rw [View.read_apply]
  show ((outsAt0 V c t.val t.isLt).2.1 : Vec Ideal S512x512 .bf16) (ix2 r s) = gaussK (V c main_v20 : Mat 6 8192) _ _
  rw [outs0_5_apply]
  congr 1 <;> apply Fin.ext
  · show 512 * (t.val / 16) + r.val = win0_5.index t 0 * 512 + 1 * r.val; rw [hi.1]; omega
  · show 512 * (t.val % 16) + s.val = win0_5.index t 1 * 512 + 1 * s.val; rw [hi.2]; omega

/-- Every entry (r, s) of the array is in the block written back at the point 16 (r / 512) + s / 512. -/
theorem covered0_5 (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 8192 := (i 0).isLt
  have h1 : (i 1 : Nat) < 8192 := (i 1).isLt
  have hN : cfg0.N = 256 := N_0
  have ht : 16 * ((i 0 : Nat) / 512) + (i 1 : Nat) / 512 < cfg0.N := by rw [hN]; omega
  refine ⟨⟨16 * ((i 0 : Nat) / 512) + (i 1 : Nat) / 512, ht⟩, flush0_5 _, ?_⟩
  have hi := index0_5 ⟨16 * ((i 0 : Nat) / 512) + (i 1 : Nat) / 512, ht⟩
  show i ∈ ((View.whole main_v21_1).slice (win0_5.rect ⟨16 * ((i 0 : Nat) / 512) + (i 1 : Nat) / 512, ht⟩)).set
  rw [View.set_slice_whole, Rect.mem_set_unit]
  intro a
  match a with
  | ⟨0, _⟩ =>
    show win0_5.index ⟨16 * ((i 0 : Nat) / 512) + (i 1 : Nat) / 512, ht⟩ 0 * 512 ≤ (i 0 : Nat)
      ∧ (i 0 : Nat) < win0_5.index ⟨16 * ((i 0 : Nat) / 512) + (i 1 : Nat) / 512, ht⟩ 0 * 512 + 512
    rw [hi.1]; dsimp only; omega
  | ⟨1, _⟩ =>
    show win0_5.index ⟨16 * ((i 0 : Nat) / 512) + (i 1 : Nat) / 512, ht⟩ 1 * 512 ≤ (i 1 : Nat)
      ∧ (i 1 : Nat) < win0_5.index ⟨16 * ((i 0 : Nat) / 512) + (i 1 : Nat) / 512, ht⟩ 1 * 512 + 512
    rw [hi.2]; dsimp only; omega

/-- What the last point of a row writes back into the spatial normalizer column is its block of the normalizers. -/
theorem flushed0_6 (t : Fin cfg0.N) (hf : (cfg0.win 6).flush t = true) :
    (dat0 V c).flushed 6 t
      = ((cfg0.win 6).blk t).view.read (Elt Ideal) (fun i : S8192x1.Idx => rowNorm (V c main_v15 : Mat 3 8192) (i 0)) := by
  have h15 : t.val % 16 = 15 := (flush0_6 t).mp hf
  show (cfg0.win 6).cut (grid0.coords t) ((dat0 V c).after 6 t) = _
  rw [after0_6, outs0_6 V c t h15]
  have hi := index0_6 t
  funext y
  obtain ⟨r, z, rfl⟩ : ∃ (r : Fin 512) (z : Fin 1), y = ix2 r z := ⟨y 0, y 1, eq_ix2 y⟩
  obtain rfl : z = 0 := Subsingleton.elim _ _
  rw [View.read_apply]
  show ((outsAt0 V c t.val t.isLt).2.2.2.2.1 : Vec Ideal S512x1 .f32) (ix2 r 0) = rowNorm (V c main_v15 : Mat 3 8192) _
  rw [acc0_0_apply V c t.val t.isLt r, h15, partNorm_sixteen]
  congr 1; apply Fin.ext
  show 512 * (t.val / 16) + r.val = win0_6.index t 0 * 512 + 1 * r.val; rw [hi.1]; omega

/-- Every row r of the column is in the block written back at the point 16 (r / 512) + 15. -/
theorem covered0_6 (i : ((cfg0.win 6).arr.view.loc (c.tc : Thread nD τ)).2.ty.Idx) :
    ∃ t : Fin cfg0.N, (cfg0.win 6).flush t = true ∧ i ∈ ((cfg0.win 6).blk t).view.set := by
  have h0 : (i 0 : Nat) < 8192 := (i 0).isLt
  have h1 : (i 1 : Nat) < 1 := (i 1).isLt
  have hN : cfg0.N = 256 := N_0
  have ht : 16 * ((i 0 : Nat) / 512) + 15 < cfg0.N := by rw [hN]; omega
  refine ⟨⟨16 * ((i 0 : Nat) / 512) + 15, ht⟩, (flush0_6 _).mpr (by show (16 * ((i 0 : Nat) / 512) + 15) % 16 = 15; omega), ?_⟩
  have hi := index0_6 ⟨16 * ((i 0 : Nat) / 512) + 15, ht⟩
  show i ∈ ((View.whole main_v21_2).slice (win0_6.rect ⟨16 * ((i 0 : Nat) / 512) + 15, ht⟩)).set
  rw [View.set_slice_whole, Rect.mem_set_unit]
  intro a
  match a with
  | ⟨0, _⟩ =>
    show win0_6.index ⟨16 * ((i 0 : Nat) / 512) + 15, ht⟩ 0 * 512 ≤ (i 0 : Nat)
      ∧ (i 0 : Nat) < win0_6.index ⟨16 * ((i 0 : Nat) / 512) + 15, ht⟩ 0 * 512 + 512
    rw [hi.1]; dsimp only; omega
  | ⟨1, _⟩ =>
    show win0_6.index ⟨16 * ((i 0 : Nat) / 512) + 15, ht⟩ 1 * 1 ≤ (i 1 : Nat)
      ∧ (i 1 : Nat) < win0_6.index ⟨16 * ((i 0 : Nat) / 512) + 15, ht⟩ 1 * 1 + 1
    rw [hi.2]; omega

/-- What the last point of a row writes back into the bilateral normalizer column is its block of the normalizers. -/
theorem flushed0_7 (t : Fin cfg0.N) (hf : (cfg0.win 7).flush t = true) :
    (dat0 V c).flushed 7 t
      = ((cfg0.win 7).blk t).view.read (Elt Ideal) (fun i : S8192x1.Idx => rowNorm (V c main_v20 : Mat 6 8192) (i 0)) := by
  have h15 : t.val % 16 = 15 := (flush0_7 t).mp hf
  show (cfg0.win 7).cut (grid0.coords t) ((dat0 V c).after 7 t) = _
  rw [after0_7, outs0_7 V c t h15]
  have hi := index0_7 t
  funext y
  obtain ⟨r, z, rfl⟩ : ∃ (r : Fin 512) (z : Fin 1), y = ix2 r z := ⟨y 0, y 1, eq_ix2 y⟩
  obtain rfl : z = 0 := Subsingleton.elim _ _
  rw [View.read_apply]
  show ((outsAt0 V c t.val t.isLt).2.2.2.2.2 : Vec Ideal S512x1 .f32) (ix2 r 0) = rowNorm (V c main_v20 : Mat 6 8192) _
  rw [acc0_1_apply V c t.val t.isLt r, h15, partNorm_sixteen]
  congr 1; apply Fin.ext
  show 512 * (t.val / 16) + r.val = win0_7.index t 0 * 512 + 1 * r.val; rw [hi.1]; omega

/-- Every row r of the column is in the block written back at the point 16 (r / 512) + 15. -/
theorem covered0_7 (i : ((cfg0.win 7).arr.view.loc (c.tc : Thread nD τ)).2.ty.Idx) :
    ∃ t : Fin cfg0.N, (cfg0.win 7).flush t = true ∧ i ∈ ((cfg0.win 7).blk t).view.set := by
  have h0 : (i 0 : Nat) < 8192 := (i 0).isLt
  have h1 : (i 1 : Nat) < 1 := (i 1).isLt
  have hN : cfg0.N = 256 := N_0
  have ht : 16 * ((i 0 : Nat) / 512) + 15 < cfg0.N := by rw [hN]; omega
  refine ⟨⟨16 * ((i 0 : Nat) / 512) + 15, ht⟩, (flush0_7 _).mpr (by show (16 * ((i 0 : Nat) / 512) + 15) % 16 = 15; omega), ?_⟩
  have hi := index0_7 ⟨16 * ((i 0 : Nat) / 512) + 15, ht⟩
  show i ∈ ((View.whole main_v21_3).slice (win0_7.rect ⟨16 * ((i 0 : Nat) / 512) + 15, ht⟩)).set
  rw [View.set_slice_whole, Rect.mem_set_unit]
  intro a
  match a with
  | ⟨0, _⟩ =>
    show win0_7.index ⟨16 * ((i 0 : Nat) / 512) + 15, ht⟩ 0 * 512 ≤ (i 0 : Nat)
      ∧ (i 0 : Nat) < win0_7.index ⟨16 * ((i 0 : Nat) / 512) + 15, ht⟩ 0 * 512 + 512
    rw [hi.1]; dsimp only; omega
  | ⟨1, _⟩ =>
    show win0_7.index ⟨16 * ((i 0 : Nat) / 512) + 15, ht⟩ 1 * 1 ≤ (i 1 : Nat)
      ∧ (i 1 : Nat) < win0_7.index ⟨16 * ((i 0 : Nat) / 512) + 15, ht⟩ 1 * 1 + 1
    rw [hi.2]; omega

end WriteBacks

end R0Val

open R0Val

/-! ## The four arrays after the region -/

section Finals

variable (V : (c : Dev nD) → (b : Ref sig .tc) → Buf (Elt Ideal) ((c : Thread nD τ).loc b)) (c : Dev nD)

/-- Region 0 leaves, in its first output array, the affinity array of the spatial features. -/
theorem final0_4 : (dat0 (F := Ideal) V c).arrAt 4 cfg0.N = gaussMat (V c main_v15 : Mat 3 8192) :=
  (dat0 V c).arrAt_eq_of_cover 4 (gaussMat (V c main_v15 : Mat 3 8192)) (flushed0_4 V c) (covered0_4 c)

/-- Region 0 leaves, in its second output array, the affinity array of the bilateral features. -/
theorem final0_5 : (dat0 (F := Ideal) V c).arrAt 5 cfg0.N = gaussMat (V c main_v20 : Mat 6 8192) :=
  (dat0 V c).arrAt_eq_of_cover 5 (gaussMat (V c main_v20 : Mat 6 8192)) (flushed0_5 V c) (covered0_5 c)

/-- Region 0 leaves, in its third output array, the normalizers of the spatial features, one per site. -/
theorem final0_6 : (dat0 (F := Ideal) V c).arrAt 6 cfg0.N
    = fun i : S8192x1.Idx => rowNorm (V c main_v15 : Mat 3 8192) (i 0) :=
  (dat0 V c).arrAt_eq_of_cover 6 (fun i : S8192x1.Idx => rowNorm (V c main_v15 : Mat 3 8192) (i 0)) (flushed0_6 V c) (covered0_6 c)

/-- Region 0 leaves, in its fourth output array, the normalizers of the bilateral features, one per site. -/
theorem final0_7 : (dat0 (F := Ideal) V c).arrAt 7 cfg0.N
    = fun i : S8192x1.Idx => rowNorm (V c main_v20 : Mat 6 8192) (i 0) :=
  (dat0 V c).arrAt_eq_of_cover 7 (fun i : S8192x1.Idx => rowNorm (V c main_v20 : Mat 6 8192) (i 0)) (flushed0_7 V c) (covered0_7 c)

end Finals

end Cert.KernelIdeal.Hand

end
-- ==== Proof.IdealPay1.lean ====
/-
  The payloads of the message-passing kernel (one iteration of the mean-field update) read at an index, on the
  extended reals.

  The body of that kernel keeps three buffers between grid points: the current label distribution q (21 labels by
  8192 pixels) and two accumulators (21 labels by 4096 pixels of the current half). At the first step of a row it
  takes the softmax of the unary scores over the 21 labels and clears the accumulators; at every step it adds to
  each accumulator the product of 256 columns of q with a 256-row slab of a kernel matrix; at the last step it
  normalises the two accumulators by their per-pixel norms, mixes them through two 21×21 weight matrices and the
  21×21 compatibility matrix, and adds the result to the unary scores.

  Each statement below reads one of these values at a label l and a pixel n. A change of float format is the
  identity on extended reals, a matrix product into zeros is the plain sum over the contracted coordinate, a
  reduction along the label axis is the sum (or the fold of max from the accumulator's value) over the 21 labels.
-/
import proofs.«162179_j58609123721967_2_alg».proof.Proof.Gen.KernelIdeal.Skeleton
import proofs.«162179_j58609123721967_2_alg».proof.Proof.LibBlockReads
import proofs.«162179_j58609123721967_2_alg».proof.Proof.LibRowReductions
import proofs.«162179_j58609123721967_2_alg».proof.Proof.LibColumnSums
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.Pay

open Idealize.ShloMosaic Idealize.ShloMosaic.ValueIdx Cert.KernelIdeal Cert.KernelIdeal.Gen
open Cert.Lib.BlockReads Cert.Lib.RowReductions Cert.Lib.ColumnSums

/-! ## A maximum along the first axis, and a row vector put beside a block -/

section ColMax
variable {a b : Nat} {φ : FTy}

/-- The maximum along the first axis of an a×b block is at column q the fold of max, from the accumulator's value,
    over the entries (k, q) of that column. -/
theorem colmax_apply (src : FVec Ideal ⟨2, ![a, b]⟩ φ) (acc : BitVec φ.bits)
    (h : (⟨2, ![a, b]⟩ : Shape).Reduces [0] ⟨1, ![b]⟩) (hφ : FKind.Formats φ)
    (hacc : acc = FKind.maximumf.neutral φ hφ) (q : Fin b) :
    multiReduction .maximumf [0] ⟨1, ![b]⟩ src acc h hφ hacc (ix1 q)
      = (Finset.univ : Finset (Fin a)).fold max (FloatOps.ofBits (F := Ideal) φ acc) (fun k => src (ix2 k q)) := by
  rw [Ideal.multiReduction_maximumf_single]
  have hf : (src ∘ h.lift (ix1 q)) = fun k : Fin a => src (ix2 k q) :=
    funext fun k => congrArg src (lift_col h q k)
  exact congrArg (fun f => Finset.fold max (FloatOps.ofBits (F := Ideal) φ acc) f (Finset.univ : Finset (Fin a))) hf

/-- A vector of b entries viewed as a 1×b row and broadcast down a rows reads its entry n at every (l, n). -/
theorem rowvec_bcast_apply {α : Type} (z : (⟨1, ![b]⟩ : Shape).Idx → α)
    (hs : (⟨1, ![b]⟩ : Shape).ShapeCasts ⟨2, ![1, b]⟩) (hb : (⟨2, ![1, b]⟩ : Shape).Broadcasts ⟨2, ![a, b]⟩)
    (l : Fin a) (n : Fin b) :
    broadcastTo ⟨2, ![a, b]⟩ (shapeCast ⟨2, ![1, b]⟩ z hs) hb (ix2 l n) = z (ix1 n) :=
  (broadcast_row_apply _ hb l n).trans (shapeCast_rowvec_apply z hs n)

end ColMax

/-! ## The softmax over the first axis -/

section Softmax
variable {a b : Nat}

/-- The maximum of column n as the kernels take it: the maximum of the word FF800000 (−∞) with the fold of max,
    from that same word, over the column's entries. -/
def colMax (x : (⟨2, ![a, b]⟩ : Shape).Idx → EReal) (n : Fin b) : EReal :=
  max (Ideal.ofBits .f32 0xFF800000#32)
    ((Finset.univ : Finset (Fin a)).fold max (Ideal.ofBits .f32 0xFF800000#32) fun k => x (ix2 k n))

/-- The softmax over the first axis at (l, n): e^(x(l,n) − the column's maximum) over the sum, over the labels k, of
    e^(x(k,n) − the column's maximum). -/
def softmaxCol (x : (⟨2, ![a, b]⟩ : Shape).Idx → EReal) (l : Fin a) (n : Fin b) : EReal :=
  Ideal.div (Ideal.exp (x (ix2 l n) - colMax x n)) (∑ k : Fin a, Ideal.exp (x (ix2 k n) - colMax x n))

/-- The column's maximum is the fold of max from −∞ over the column. -/
theorem colMax_eq_fold (x : (⟨2, ![a, b]⟩ : Shape).Idx → EReal) (n : Fin b) :
    colMax x n = (Finset.univ : Finset (Fin a)).fold max (⊥ : EReal) fun k => x (ix2 k n) := by
  unfold colMax
  rw [ofBits_neg_inf_f32, fold_max_bot]

/-- The vector operations of the softmax over the first axis, as the kernels spell them: the column maxima (joined
    with −∞), broadcast back; the exponentials of the differences; their column sums, broadcast back; the quotient. -/
def softmaxVec (x : FVec Ideal ⟨2, ![a, b]⟩ .f32) (hr : (⟨2, ![a, b]⟩ : Shape).Reduces [0] ⟨1, ![b]⟩)
    (hs : (⟨1, ![b]⟩ : Shape).ShapeCasts ⟨2, ![1, b]⟩) (hb : (⟨2, ![1, b]⟩ : Shape).Broadcasts ⟨2, ![a, b]⟩) :
    FVec Ideal ⟨2, ![a, b]⟩ .f32 :=
  divf
    (exp (subf x (broadcastTo ⟨2, ![a, b]⟩ (shapeCast ⟨2, ![1, b]⟩
      (maximumf (broadcast ⟨1, ![b]⟩ (Scalar.ofBits (F := Ideal) .f32 0xFF800000#32))
        (multiReduction .maximumf [0] ⟨1, ![b]⟩ x 0xFF800000#32 hr (.inl rfl) rfl)) hs) hb)))
    (broadcastTo ⟨2, ![a, b]⟩ (shapeCast ⟨2, ![1, b]⟩
      (multiReduction .add [0] ⟨1, ![b]⟩
        (exp (subf x (broadcastTo ⟨2, ![a, b]⟩ (shapeCast ⟨2, ![1, b]⟩
          (maximumf (broadcast ⟨1, ![b]⟩ (Scalar.ofBits (F := Ideal) .f32 0xFF800000#32))
            (multiReduction .maximumf [0] ⟨1, ![b]⟩ x 0xFF800000#32 hr (.inl rfl) rfl)) hs) hb)))
        0x00000000#32 hr (.inl rfl) rfl) hs) hb)

/-- Those operations read at (l, n) are the softmax over the first axis. -/
theorem softmaxVec_apply (x : FVec Ideal ⟨2, ![a, b]⟩ .f32) (hr : (⟨2, ![a, b]⟩ : Shape).Reduces [0] ⟨1, ![b]⟩)
    (hs : (⟨1, ![b]⟩ : Shape).ShapeCasts ⟨2, ![1, b]⟩) (hb : (⟨2, ![1, b]⟩ : Shape).Broadcasts ⟨2, ![a, b]⟩)
    (l : Fin a) (n : Fin b) : softmaxVec x hr hs hb (ix2 l n) = softmaxCol x l n := by
  have hm : ∀ (l : Fin a) (n : Fin b),
      broadcastTo ⟨2, ![a, b]⟩ (shapeCast ⟨2, ![1, b]⟩
        (maximumf (broadcast ⟨1, ![b]⟩ (Scalar.ofBits (F := Ideal) .f32 0xFF800000#32))
          (multiReduction .maximumf [0] ⟨1, ![b]⟩ x 0xFF800000#32 hr (.inl rfl) rfl)) hs) hb (ix2 l n)
        = colMax x n := fun l n =>
    (rowvec_bcast_apply _ hs hb l n).trans
      (congrArg (max (Ideal.ofBits .f32 0xFF800000#32)) (colmax_apply x 0xFF800000#32 hr (.inl rfl) rfl n))
  have he : ∀ (k : Fin a),
      exp (subf x (broadcastTo ⟨2, ![a, b]⟩ (shapeCast ⟨2, ![1, b]⟩
        (maximumf (broadcast ⟨1, ![b]⟩ (Scalar.ofBits (F := Ideal) .f32 0xFF800000#32))
          (multiReduction .maximumf [0] ⟨1, ![b]⟩ x 0xFF800000#32 hr (.inl rfl) rfl)) hs) hb)) (ix2 k n)
        = Ideal.exp (x (ix2 k n) - colMax x n) := fun k =>
    congrArg (fun m => Ideal.exp (x (ix2 k n) - m)) (hm k n)
  unfold softmaxVec softmaxCol
  refine (congrArg (Ideal.div _) ((rowvec_bcast_apply _ hs hb l n).trans
    ((colsum_apply _ 0x00000000#32 hr (.inl rfl) rfl n).trans (Finset.sum_congr rfl fun k _ => he k)))).trans ?_
  exact congrArg (fun e => Ideal.div e _) (he l)

end Softmax

/-! ## The first step of a row: the softmax of the unary scores, and the cleared accumulators -/

/-- The new label distribution is the softmax of the scores over the 21 labels. -/
theorem k1_pay1_apply (v : Vec Ideal S21x8192 .f32) (l : Fin 21) (n : Fin 8192) :
    k1_pay1 (F := Ideal) v (ix2 l n) = softmaxCol v l n := by
  have e : k1_pay1 (F := Ideal) v
      = shapeCast S21x8192 (softmaxVec (shapeCast S21x8192 v shapeCasts_S21x8192_S21x8192)
          reduces_S21x8192_S8192 shapeCasts_S8192_S1x8192 broadcasts_S1x8192_S21x8192) shapeCasts_S21x8192_S21x8192 := rfl
  refine (congrFun e (ix2 l n)).trans ?_
  refine (congrFun (shapeCast_self _ _) (ix2 l n)).trans ?_
  refine (softmaxVec_apply _ _ _ _ l n).trans ?_
  exact congrArg (fun x => softmaxCol x l n) (shapeCast_self v shapeCasts_S21x8192_S21x8192)

/-- The first accumulator is cleared: the zero word everywhere. -/
theorem k1_pay2_apply (i : S21x4096.Idx) : k1_pay2 (F := Ideal) i = Ideal.ofBits .f32 0x00000000#32 :=
  congrFun (shapeCast_self (broadcast S21x4096 (Scalar.ofBits (F := Ideal) .f32 0x00000000#32)) shapeCasts_S21x4096_S21x4096) i

/-- The second accumulator is cleared: the zero word everywhere. -/
theorem k1_pay3_apply (i : S21x4096.Idx) : k1_pay3 (F := Ideal) i = Ideal.ofBits .f32 0x00000000#32 :=
  congrFun (shapeCast_self (broadcast S21x4096 (Scalar.ofBits (F := Ideal) .f32 0x00000000#32)) shapeCasts_S21x4096_S21x4096) i

/-- The zero word is the extended real 0. -/
theorem k1_pay2_apply_zero (i : S21x4096.Idx) : k1_pay2 (F := Ideal) i = 0 :=
  (k1_pay2_apply i).trans Ideal.ofBits_zero_f32

theorem k1_pay3_apply_zero (i : S21x4096.Idx) : k1_pay3 (F := Ideal) i = 0 :=
  (k1_pay3_apply i).trans Ideal.ofBits_zero_f32

/-! ## Every step: a 256-column slab of q times a 256-row slab of a kernel matrix, added to the accumulator -/

/-- The rounding of the slab of q to the matrix unit's input format is the identity on extended reals. -/
theorem k1_pay4_apply (q : Vec Ideal S21x256 .f32) (i : S21x256.Idx) : k1_pay4 (F := Ideal) q i = q i := rfl

/-- The first accumulator after the step: what it held plus, over the 256 rows r of the slab, q(l, r) · K(r, n). -/
theorem k1_pay5_apply (q : Vec Ideal S21x256 .f32) (acc : Vec Ideal S21x4096 .f32) (K : Vec Ideal S256x4096 .bf16)
    (l : Fin 21) (n : Fin 4096) :
    k1_pay5 (F := Ideal) q acc K (ix2 l n) = acc (ix2 l n) + ∑ r : Fin 256, q (ix2 l r) * K (ix2 r n) := by
  unfold k1_pay5
  refine (congrFun (shapeCast_self _ _) (ix2 l n)).trans ?_
  refine congrArg (acc (ix2 l n) + ·) ?_
  refine (matmul_zero_rows_apply dot_S21x256_S256x4096_S21x4096_1_0_0_1_n_n rfl rfl rfl rfl rfl rfl none
    (k1_pay4 q) _ l n).trans ?_
  exact Finset.sum_congr rfl fun r _ =>
    congrArg (q (ix2 l r) * ·) (congrFun (shapeCast_self K shapeCasts_S256x4096_S256x4096) (ix2 r n))

/-- The second accumulator after the step, likewise. -/
theorem k1_pay6_apply (q : Vec Ideal S21x256 .f32) (acc : Vec Ideal S21x4096 .f32) (K : Vec Ideal S256x4096 .bf16)
    (l : Fin 21) (n : Fin 4096) :
    k1_pay6 (F := Ideal) q acc K (ix2 l n) = acc (ix2 l n) + ∑ r : Fin 256, q (ix2 l r) * K (ix2 r n) := by
  unfold k1_pay6
  refine (congrFun (shapeCast_self _ _) (ix2 l n)).trans ?_
  refine congrArg (acc (ix2 l n) + ·) ?_
  refine (matmul_zero_rows_apply dot_S21x256_S256x4096_S21x4096_1_0_0_1_n_n rfl rfl rfl rfl rfl rfl none
    (k1_pay4 q) _ l n).trans ?_
  exact Finset.sum_congr rfl fun r _ =>
    congrArg (q (ix2 l r) * ·) (congrFun (shapeCast_self K shapeCasts_S256x4096_S256x4096) (ix2 r n))

/-! ## The last step: normalise, mix, add to the unary scores -/

/-- A block divided entry by entry by a 1×b row of per-column norms reads, at (p, n), the entry over the norm of
    column n. -/
theorem div_row_apply (x : FVec Ideal S21x4096 .f32) (nrm : FVec Ideal S1x4096 .f32) (p : Fin 21) (n : Fin 4096) :
    divf (F := Ideal) x (broadcastTo S21x4096 (shapeCast S1x4096 nrm shapeCasts_S1x4096_S1x4096) broadcasts_S1x4096_S21x4096) (ix2 p n)
      = Ideal.div (x (ix2 p n)) (nrm (ix2 0 n)) :=
  congrArg (Ideal.div (x (ix2 p n)))
    ((broadcast_row_apply _ broadcasts_S1x4096_S21x4096 p n).trans
      (congrFun (shapeCast_self nrm shapeCasts_S1x4096_S1x4096) (ix2 0 n)))

/-- The message at (l, n): the unary score plus, over the labels a, the compatibility (l, a) times the sum of the
    two filter responses at (a, n), each a 21×21 weight matrix applied to its accumulator over its per-pixel norm. -/
def message (sp : S21x4096.Idx → EReal) (nsp : S1x4096.Idx → EReal) (bi : S21x4096.Idx → EReal)
    (nbi : S1x4096.Idx → EReal) (spw biw compat : S21x21.Idx → EReal) (unary : S21x4096.Idx → EReal)
    (l : Fin 21) (n : Fin 4096) : EReal :=
  unary (ix2 l n) + ∑ a : Fin 21, compat (ix2 l a) *
    ((∑ b : Fin 21, spw (ix2 a b) * Ideal.div (sp (ix2 b n)) (nsp (ix2 0 n)))
      + ∑ b : Fin 21, biw (ix2 a b) * Ideal.div (bi (ix2 b n)) (nbi (ix2 0 n)))

/-- The value stored at the last step is the message. -/
theorem k1_pay7_apply (sp : Vec Ideal S21x4096 .f32) (nsp : Vec Ideal S1x4096 .f32) (bi : Vec Ideal S21x4096 .f32)
    (nbi : Vec Ideal S1x4096 .f32) (spw biw compat : Vec Ideal S21x21 .f32) (unary : Vec Ideal S21x4096 .f32)
    (l : Fin 21) (n : Fin 4096) :
    k1_pay7 (F := Ideal) sp nsp bi nbi spw biw compat unary (ix2 l n)
      = message sp nsp bi nbi spw biw compat unary l n := by
  unfold k1_pay7 message
  refine congrArg₂ (· + ·) (congrFun (shapeCast_self unary shapeCasts_S21x4096_S21x4096) (ix2 l n)) ?_
  refine (matmul_zero_rows_apply dot_S21x21_S21x4096_S21x4096_1_0_0_1_n_n rfl rfl rfl rfl rfl rfl (some .fp32)
    compat _ l n).trans ?_
  refine Finset.sum_congr rfl fun a _ => congrArg (compat (ix2 l a) * ·) ?_
  refine congrArg₂ (· + ·) ?_ ?_
  · refine (matmul_zero_rows_apply dot_S21x21_S21x4096_S21x4096_1_0_0_1_n_n rfl rfl rfl rfl rfl rfl (some .fp32)
      spw _ a n).trans ?_
    exact Finset.sum_congr rfl fun b _ => congrArg (spw (ix2 a b) * ·) (div_row_apply sp nsp b n)
  · refine (matmul_zero_rows_apply dot_S21x21_S21x4096_S21x4096_1_0_0_1_n_n rfl rfl rfl rfl rfl rfl (some .fp32)
      biw _ a n).trans ?_
    exact Finset.sum_congr rfl fun b _ => congrArg (biw (ix2 a b) * ·) (div_row_apply bi nbi b n)

end Cert.KernelIdeal.Pay
-- ==== Proof.IdealPay5.lean ====
/-
  The payloads of the later iterations of the mean-field update, read at an index, on the extended reals.

  The second, third and fourth iterations run the very same body as the first, so their values are the first
  iteration's, operation for operation. The fifth and last iteration differs in one place: what it stores at the last
  step of a row is not the message itself but the softmax of the message over the 21 labels.
-/
import proofs.«162179_j58609123721967_2_alg».proof.Proof.IdealPay1

open scoped BigOperators

noncomputable section

namespace Cert.KernelIdeal.Pay

open Idealize.ShloMosaic Idealize.ShloMosaic.ValueIdx Cert.KernelIdeal Cert.KernelIdeal.Gen
open Cert.Lib.BlockReads Cert.Lib.RowReductions Cert.Lib.ColumnSums

/-! ## The iterations with the same body: the same values, in every float instance -/

section Same
variable {F : FTy → Type} [FloatOps F]

theorem k2_pay1_eq : k2_pay1 (F := F) = k1_pay1 := rfl
theorem k2_pay2_eq : k2_pay2 (F := F) = k1_pay2 := rfl
theorem k2_pay3_eq : k2_pay3 (F := F) = k1_pay3 := rfl
theorem k2_pay4_eq : k2_pay4 (F := F) = k1_pay4 := rfl
theorem k2_pay5_eq : k2_pay5 (F := F) = k1_pay5 := rfl
theorem k2_pay6_eq : k2_pay6 (F := F) = k1_pay6 := rfl
theorem k2_pay7_eq : k2_pay7 (F := F) = k1_pay7 := rfl

theorem k3_pay1_eq : k3_pay1 (F := F) = k1_pay1 := rfl
theorem k3_pay2_eq : k3_pay2 (F := F) = k1_pay2 := rfl
theorem k3_pay3_eq : k3_pay3 (F := F) = k1_pay3 := rfl
theorem k3_pay4_eq : k3_pay4 (F := F) = k1_pay4 := rfl
theorem k3_pay5_eq : k3_pay5 (F := F) = k1_pay5 := rfl
theorem k3_pay6_eq : k3_pay6 (F := F) = k1_pay6 := rfl
theorem k3_pay7_eq : k3_pay7 (F := F) = k1_pay7 := rfl

theorem k4_pay1_eq : k4_pay1 (F := F) = k1_pay1 := rfl
theorem k4_pay2_eq : k4_pay2 (F := F) = k1_pay2 := rfl
theorem k4_pay3_eq : k4_pay3 (F := F) = k1_pay3 := rfl
theorem k4_pay4_eq : k4_pay4 (F := F) = k1_pay4 := rfl
theorem k4_pay5_eq : k4_pay5 (F := F) = k1_pay5 := rfl
theorem k4_pay6_eq : k4_pay6 (F := F) = k1_pay6 := rfl
theorem k4_pay7_eq : k4_pay7 (F := F) = k1_pay7 := rfl

theorem k5_pay1_eq : k5_pay1 (F := F) = k1_pay1 := rfl
theorem k5_pay2_eq : k5_pay2 (F := F) = k1_pay2 := rfl
theorem k5_pay3_eq : k5_pay3 (F := F) = k1_pay3 := rfl
theorem k5_pay4_eq : k5_pay4 (F := F) = k1_pay4 := rfl
theorem k5_pay5_eq : k5_pay5 (F := F) = k1_pay5 := rfl
theorem k5_pay6_eq : k5_pay6 (F := F) = k1_pay6 := rfl

end Same

/-! ## The last iteration's last step: the softmax of the message over the labels -/

/-- The value stored at the last step of the last iteration is the softmax, over the 21 labels, of the value the
    earlier iterations store there. -/
theorem k5_pay7_eq_softmax (sp : Vec Ideal S21x4096 .f32) (nsp : Vec Ideal S1x4096 .f32) (bi : Vec Ideal S21x4096 .f32)
    (nbi : Vec Ideal S1x4096 .f32) (spw biw compat : Vec Ideal S21x21 .f32) (unary : Vec Ideal S21x4096 .f32)
    (l : Fin 21) (n : Fin 4096) :
    k5_pay7 (F := Ideal) sp nsp bi nbi spw biw compat unary (ix2 l n)
      = softmaxCol (k1_pay7 (F := Ideal) sp nsp bi nbi spw biw compat unary) l n := by
  have e : k5_pay7 (F := Ideal) sp nsp bi nbi spw biw compat unary
      = softmaxVec (k1_pay7 (F := Ideal) sp nsp bi nbi spw biw compat unary)
          reduces_S21x4096_S4096 shapeCasts_S4096_S1x4096 broadcasts_S1x4096_S21x4096 := rfl
  exact (congrFun e (ix2 l n)).trans (softmaxVec_apply _ _ _ _ l n)

/-- The maximum of the message over the labels at pixel n, as the kernel takes it (joined with −∞). -/
def messageMax (sp : S21x4096.Idx → EReal) (nsp : S1x4096.Idx → EReal) (bi : S21x4096.Idx → EReal)
    (nbi : S1x4096.Idx → EReal) (spw biw compat : S21x21.Idx → EReal) (unary : S21x4096.Idx → EReal)
    (n : Fin 4096) : EReal :=
  max (Ideal.ofBits .f32 0xFF800000#32)
    ((Finset.univ : Finset (Fin 21)).fold max (Ideal.ofBits .f32 0xFF800000#32)
      fun k => message sp nsp bi nbi spw biw compat unary k n)

/-- The same with the message spelt out: e^(message(l,n) − its maximum over the labels) over the sum, over the labels
    k, of e^(message(k,n) − that maximum). -/
theorem k5_pay7_apply (sp : Vec Ideal S21x4096 .f32) (nsp : Vec Ideal S1x4096 .f32) (bi : Vec Ideal S21x4096 .f32)
    (nbi : Vec Ideal S1x4096 .f32) (spw biw compat : Vec Ideal S21x21 .f32) (unary : Vec Ideal S21x4096 .f32)
    (l : Fin 21) (n : Fin 4096) :
    k5_pay7 (F := Ideal) sp nsp bi nbi spw biw compat unary (ix2 l n)
      = Ideal.div
          (Ideal.exp (message sp nsp bi nbi spw biw compat unary l n - messageMax sp nsp bi nbi spw biw compat unary n))
          (∑ k : Fin 21,
            Ideal.exp (message sp nsp bi nbi spw biw compat unary k n - messageMax sp nsp bi nbi spw biw compat unary n)) := by
  have hx : ∀ k : Fin 21, k1_pay7 (F := Ideal) sp nsp bi nbi spw biw compat unary (ix2 k n)
      = message sp nsp bi nbi spw biw compat unary k n := fun k => k1_pay7_apply sp nsp bi nbi spw biw compat unary k n
  have hM : colMax (k1_pay7 (F := Ideal) sp nsp bi nbi spw biw compat unary) n
      = messageMax sp nsp bi nbi spw biw compat unary n :=
    congrArg (max (Ideal.ofBits .f32 0xFF800000#32))
      (congrArg (fun f => Finset.fold max (Ideal.ofBits .f32 0xFF800000#32) f (Finset.univ : Finset (Fin 21))) (funext hx))
  refine (k5_pay7_eq_softmax sp nsp bi nbi spw biw compat unary l n).trans ?_
  unfold softmaxCol
  rw [hM, hx l]
  exact congrArg (Ideal.div _) (Finset.sum_congr rfl fun k _ => by rw [hx k])

end Cert.KernelIdeal.Pay
-- ==== Proof.IdealStepValue.lean ====
/-
  One mean-field step, as the message-passing kernel computes it, against the whole-array specification: the
  arithmetic that every one of the five iterations shares, stated over plain arrays of extended reals. Nothing here
  mentions a program.

  The kernel's softmax over the labels divides by the bare sum of the exponentials, the specification's by the zero
  word's value plus that sum: the same number, since the zero word is 0. A softmax over the labels of a column
  depends on that column alone, so the softmax of a block of columns is the softmax of the whole array at those
  columns.

  The kernel forms an entry of q · K as a running sum over 32 slabs of 256 contracted coordinates, from 0: after
  slab k the accumulator holds the sum of the first k + 1 groups of 256 terms, and after slab 31 the whole sum over
  the 8192 coordinates, by regrouping a sum over 32 · 256 naturals (addition on the extended reals is commutative
  and associative, so no finiteness is asked).

  The value stored at the last slab — the unary score plus the compatibility matrix applied to the two weighted,
  normalised filter responses — is then the specification's update at that label and site, term for term.
-/
import proofs.«162179_j58609123721967_2_alg».proof.Proof.IdealPay5
import proofs.«162179_j58609123721967_2_alg».proof.Proof.RefSpec
import proofs.«162179_j58609123721967_2_alg».proof.Proof.LibFinGroups

open scoped BigOperators

noncomputable section

namespace Cert.KernelIdeal.StepValue

open Idealize.ShloMosaic Idealize.ShloMosaic.ValueIdx Cert.KernelIdeal Cert.KernelIdeal.Gen
open Cert.ReferenceIdeal.RefValue Cert.Lib.MatProd

/-! ## The softmax over the labels -/

/-- The kernel's softmax of a 21 × 8192 array is the specification's: the divisor differs by the zero word's value,
    which is 0. -/
theorem softmaxCol_eq_softmax0 (x : Mat 21 8192) (l : Fin 21) (n : Fin 8192) :
    Pay.softmaxCol x l n = softmax0 x (ix2 l n) := by
  rw [softmax0_apply]
  unfold Pay.softmaxCol expSum expShift
  rw [Ideal.ofBits_zero_f32, zero_add]
  rfl

/-- The softmax over the first axis at column n depends on that column alone. -/
theorem softmaxCol_congr {a b b' : Nat} (x : (⟨2, ![a, b]⟩ : Shape).Idx → EReal)
    (y : (⟨2, ![a, b']⟩ : Shape).Idx → EReal) (l : Fin a) (n : Fin b) (n' : Fin b')
    (h : ∀ k : Fin a, x (ix2 k n) = y (ix2 k n')) : Pay.softmaxCol x l n = Pay.softmaxCol y l n' := by
  have hM : Pay.colMax x n = Pay.colMax y n' := by
    unfold Pay.colMax
    exact congrArg (max _) (congrArg (fun f => Finset.fold max _ f (Finset.univ : Finset (Fin a))) (funext h))
  unfold Pay.softmaxCol
  rw [hM, h l]
  exact congrArg (Ideal.div _) (Finset.sum_congr rfl fun k _ => by rw [h k])

/-- So the softmax of a block whose column n is column N of a 21 × 8192 array is the specification's softmax of
    that array at column N. -/
theorem softmaxCol_block {b : Nat} (y : (⟨2, ![21, b]⟩ : Shape).Idx → EReal) (Y : Mat 21 8192) (l : Fin 21)
    (n : Fin b) (N : Fin 8192) (h : ∀ k : Fin 21, y (ix2 k n) = Y (ix2 k N)) :
    Pay.softmaxCol y l n = softmax0 Y (ix2 l N) :=
  (softmaxCol_congr y Y l n N h).trans (softmaxCol_eq_softmax0 Y l N)

/-! ## An entry of q · K as a running sum over 32 slabs of 256 -/

section Slabs
variable (q : Mat 21 8192) (K : Mat 8192 8192) (l : Fin 21) (N : Fin 8192)

/-- The term of entry (l, N) of q · K at the contracted coordinate j (0 beyond the range). -/
def term (j : ℕ) : EReal := if h : j < 8192 then q (ix2 l ⟨j, h⟩) * K (ix2 ⟨j, h⟩ N) else 0

/-- The sum of the first m groups of 256 terms. -/
def groupSum (m : ℕ) : EReal := ∑ g ∈ Finset.range m, ∑ r : Fin 256, term q K l N (256 * g + r.val)

theorem groupSum_zero : groupSum q K l N 0 = 0 := Finset.sum_range_zero _

theorem groupSum_succ (m : ℕ) :
    groupSum q K l N (m + 1) = groupSum q K l N m + ∑ r : Fin 256, term q K l N (256 * m + r.val) :=
  Finset.sum_range_succ _ _

/-- All 32 groups: the entry of the product. -/
theorem groupSum_full : groupSum q K l N 32 = matProd q K (ix2 l N) := by
  rw [matProd_apply]
  unfold groupSum
  rw [Finset.sum_range (fun g => ∑ r : Fin 256, term q K l N (256 * g + r.val)),
    ← Cert.Lib.FinGroups.sum_fin_groups 32 256 (term q K l N)]
  show ∑ j : Fin 8192, term q K l N j.val = _
  exact Finset.sum_congr rfl fun j _ => by unfold term; rw [dif_pos j.isLt]

/-- The product of slab k of row l of q with slab k of column N of K — read off a 21 × 256 block of q and a
    256 × 4096 block of K — is the k-th group of terms. -/
theorem slab_sum (k : ℕ) (hk : k < 32) (qb : (⟨2, ![21, 256]⟩ : Shape).Idx → EReal)
    (Kb : (⟨2, ![256, 4096]⟩ : Shape).Idx → EReal) (col : Fin 4096)
    (hq : ∀ r : Fin 256, qb (ix2 l r) = q (ix2 l ⟨256 * k + r.val, by have := r.isLt; omega⟩))
    (hK : ∀ r : Fin 256, Kb (ix2 r col) = K (ix2 ⟨256 * k + r.val, by have := r.isLt; omega⟩ N)) :
    ∑ r : Fin 256, qb (ix2 l r) * Kb (ix2 r col) = ∑ r : Fin 256, term q K l N (256 * k + r.val) :=
  Finset.sum_congr rfl fun r _ => by
    unfold term
    rw [dif_pos (by have := r.isLt; omega), hq r, hK r]

/-- One step of the accumulation: an accumulator at the first k groups, plus slab k's product, is at the first
    k + 1 groups. -/
theorem acc_step (k : ℕ) (hk : k < 32) (acc : EReal) (hacc : acc = groupSum q K l N k)
    (qb : (⟨2, ![21, 256]⟩ : Shape).Idx → EReal) (Kb : (⟨2, ![256, 4096]⟩ : Shape).Idx → EReal) (col : Fin 4096)
    (hq : ∀ r : Fin 256, qb (ix2 l r) = q (ix2 l ⟨256 * k + r.val, by have := r.isLt; omega⟩))
    (hK : ∀ r : Fin 256, Kb (ix2 r col) = K (ix2 ⟨256 * k + r.val, by have := r.isLt; omega⟩ N)) :
    acc + ∑ r : Fin 256, qb (ix2 l r) * Kb (ix2 r col) = groupSum q K l N (k + 1) := by
  rw [groupSum_succ, hacc, slab_sum q K l N k hk qb Kb col hq hK]

end Slabs

/-! ## The value stored at the last slab is the specification's update -/

/-- With the two accumulators at the entries of q · Ksp and q · Kbi, the norms, the unary scores and the three
    21 × 21 arrays read at site N, the kernel's message at (l, n) is the specification's update at (l, N). -/
theorem message_eq_update (Ksp Kbi : Mat 8192 8192) (nspF nbiF : Fin 8192 → EReal) (un : Mat 21 8192)
    (spw biw compat : Mat 21 21) (q : Mat 21 8192)
    (sp bi unary : (⟨2, ![21, 4096]⟩ : Shape).Idx → EReal) (nsp nbi : (⟨2, ![1, 4096]⟩ : Shape).Idx → EReal)
    (l : Fin 21) (n : Fin 4096) (N : Fin 8192)
    (hsp : ∀ b : Fin 21, sp (ix2 b n) = matProd q Ksp (ix2 b N))
    (hbi : ∀ b : Fin 21, bi (ix2 b n) = matProd q Kbi (ix2 b N))
    (hnsp : nsp (ix2 0 n) = nspF N) (hnbi : nbi (ix2 0 n) = nbiF N)
    (hun : unary (ix2 l n) = un (ix2 l N)) :
    Pay.message sp nsp bi nbi spw biw compat unary l n
      = meanFieldUpdate Ksp Kbi nspF nbiF un spw biw compat q (ix2 l N) := by
  unfold Pay.message
  rw [hun, hnsp, hnbi]
  show _ = un (ix2 l N) + matProd compat (weighted spw biw (filtered q Ksp nspF) (filtered q Kbi nbiF)) (ix2 l N)
  rw [matProd_apply]
  refine congrArg (un (ix2 l N) + ·) (Finset.sum_congr rfl fun a _ => congrArg (compat (ix2 l a) * ·) ?_)
  show _ = matProd spw (filtered q Ksp nspF) (ix2 a N) + matProd biw (filtered q Kbi nbiF) (ix2 a N)
  rw [matProd_apply, matProd_apply]
  refine congrArg₂ (· + ·) (Finset.sum_congr rfl fun b _ => ?_) (Finset.sum_congr rfl fun b _ => ?_)
  · rw [hsp b]; rfl
  · rw [hbi b]; rfl

/-! ## The payloads at an index, under names of their own

The five iterations' payloads are one function each (the later iterations' unfold to the first's), so these
statements serve every iteration. -/

theorem softmax_payload_apply (v : (⟨2, ![21, 8192]⟩ : Shape).Idx → EReal) (l : Fin 21) (n : Fin 8192) :
    k1_pay1 (F := Ideal) v (ix2 l n) = Pay.softmaxCol v l n := Pay.k1_pay1_apply v l n

theorem clear_payload_apply (i : (⟨2, ![21, 4096]⟩ : Shape).Idx) : k1_pay2 (F := Ideal) i = 0 :=
  Pay.k1_pay2_apply_zero i

theorem clear_payload_apply' (i : (⟨2, ![21, 4096]⟩ : Shape).Idx) : k1_pay3 (F := Ideal) i = 0 :=
  Pay.k1_pay3_apply_zero i

theorem accum_payload_apply (q : (⟨2, ![21, 256]⟩ : Shape).Idx → EReal) (acc : (⟨2, ![21, 4096]⟩ : Shape).Idx → EReal)
    (K : (⟨2, ![256, 4096]⟩ : Shape).Idx → EReal) (l : Fin 21) (n : Fin 4096) :
    k1_pay5 (F := Ideal) q acc K (ix2 l n) = acc (ix2 l n) + ∑ r : Fin 256, q (ix2 l r) * K (ix2 r n) :=
  Pay.k1_pay5_apply q acc K l n

theorem accum_payload_apply' (q : (⟨2, ![21, 256]⟩ : Shape).Idx → EReal) (acc : (⟨2, ![21, 4096]⟩ : Shape).Idx → EReal)
    (K : (⟨2, ![256, 4096]⟩ : Shape).Idx → EReal) (l : Fin 21) (n : Fin 4096) :
    k1_pay6 (F := Ideal) q acc K (ix2 l n) = acc (ix2 l n) + ∑ r : Fin 256, q (ix2 l r) * K (ix2 r n) :=
  Pay.k1_pay6_apply q acc K l n

theorem message_payload_apply (sp : (⟨2, ![21, 4096]⟩ : Shape).Idx → EReal) (nsp : (⟨2, ![1, 4096]⟩ : Shape).Idx → EReal)
    (bi : (⟨2, ![21, 4096]⟩ : Shape).Idx → EReal) (nbi : (⟨2, ![1, 4096]⟩ : Shape).Idx → EReal)
    (spw biw compat : (⟨2, ![21, 21]⟩ : Shape).Idx → EReal) (unary : (⟨2, ![21, 4096]⟩ : Shape).Idx → EReal)
    (l : Fin 21) (n : Fin 4096) :
    k1_pay7 (F := Ideal) sp nsp bi nbi spw biw compat unary (ix2 l n)
      = Pay.message sp nsp bi nbi spw biw compat unary l n :=
  Pay.k1_pay7_apply sp nsp bi nbi spw biw compat unary l n

theorem last_payload_apply (sp : (⟨2, ![21, 4096]⟩ : Shape).Idx → EReal) (nsp : (⟨2, ![1, 4096]⟩ : Shape).Idx → EReal)
    (bi : (⟨2, ![21, 4096]⟩ : Shape).Idx → EReal) (nbi : (⟨2, ![1, 4096]⟩ : Shape).Idx → EReal)
    (spw biw compat : (⟨2, ![21, 21]⟩ : Shape).Idx → EReal) (unary : (⟨2, ![21, 4096]⟩ : Shape).Idx → EReal)
    (l : Fin 21) (n : Fin 4096) :
    k5_pay7 (F := Ideal) sp nsp bi nbi spw biw compat unary (ix2 l n)
      = Pay.softmaxCol (k1_pay7 (F := Ideal) sp nsp bi nbi spw biw compat unary) l n :=
  Pay.k5_pay7_eq_softmax sp nsp bi nbi spw biw compat unary l n

/-! ## The three carried buffers along a row of 32 points -/

/-- An a × b block of extended reals. -/
abbrev Blk (a b : Nat) : Type := (⟨2, ![a, b]⟩ : Shape).Idx → EReal

/-- What the three carried buffers hold after the point (h, k) of the grid (h the half of the sites, k the slab),
    at the current scores cur and the affinity arrays Ksp, Kbi: the softmax of cur; and at (l, col) the sum of the
    first k + 1 groups of 256 terms of entry (l, 4096 h + col) of softmax cur · Ksp, of softmax cur · Kbi. -/
def CarriedAt (cur : Mat 21 8192) (Ksp Kbi : Mat 8192 8192) (h k : ℕ) (s0 : Mat 21 8192) (s1 s2 : Blk 21 4096) :
    Prop :=
  (∀ (l : Fin 21) (j : Fin 8192), s0 (ix2 l j) = softmax0 cur (ix2 l j)) ∧
  (∀ (l : Fin 21) (col : Fin 4096) (N : Fin 8192), N.val = 4096 * h + col.val →
      s1 (ix2 l col) = groupSum (softmax0 cur) Ksp l N (k + 1)) ∧
  (∀ (l : Fin 21) (col : Fin 4096) (N : Fin 8192), N.val = 4096 * h + col.val →
      s2 (ix2 l col) = groupSum (softmax0 cur) Kbi l N (k + 1))

/-- One point's work on the carried buffers: with the first at the softmax, the accumulators (as the point finds
    them, a1 and a2) at the first k groups, slab k of the first buffer (qb) and the blocks (k, h) of the two affinity
    arrays (K2, K3), accumulators that end at a + qb · K are at the first k + 1 groups. -/
theorem carried_step (cur : Mat 21 8192) (Ksp Kbi : Mat 8192 8192) (h k : ℕ) (hk : k < 32)
    (s0 : Mat 21 8192) (hs0 : ∀ (l : Fin 21) (j : Fin 8192), s0 (ix2 l j) = softmax0 cur (ix2 l j))
    (a1 a2 : Blk 21 4096)
    (ha1 : ∀ (l : Fin 21) (col : Fin 4096) (N : Fin 8192), N.val = 4096 * h + col.val →
      a1 (ix2 l col) = groupSum (softmax0 cur) Ksp l N k)
    (ha2 : ∀ (l : Fin 21) (col : Fin 4096) (N : Fin 8192), N.val = 4096 * h + col.val →
      a2 (ix2 l col) = groupSum (softmax0 cur) Kbi l N k)
    (qb : Blk 21 256)
    (hqb : ∀ (l : Fin 21) (r : Fin 256) (J : Fin 8192), J.val = 256 * k + r.val → qb (ix2 l r) = s0 (ix2 l J))
    (K2 K3 : Blk 256 4096)
    (hK2 : ∀ (r : Fin 256) (col : Fin 4096) (R C : Fin 8192), R.val = 256 * k + r.val → C.val = 4096 * h + col.val →
      K2 (ix2 r col) = Ksp (ix2 R C))
    (hK3 : ∀ (r : Fin 256) (col : Fin 4096) (R C : Fin 8192), R.val = 256 * k + r.val → C.val = 4096 * h + col.val →
      K3 (ix2 r col) = Kbi (ix2 R C))
    (s1 s2 : Blk 21 4096)
    (hs1 : ∀ (l : Fin 21) (col : Fin 4096), s1 (ix2 l col) = a1 (ix2 l col) + ∑ r : Fin 256, qb (ix2 l r) * K2 (ix2 r col))
    (hs2 : ∀ (l : Fin 21) (col : Fin 4096), s2 (ix2 l col) = a2 (ix2 l col) + ∑ r : Fin 256, qb (ix2 l r) * K3 (ix2 r col)) :
    CarriedAt cur Ksp Kbi h k s0 s1 s2 := by
  refine ⟨hs0, fun l col N hN => ?_, fun l col N hN => ?_⟩
  · rw [hs1 l col]
    exact acc_step (softmax0 cur) Ksp l N k hk _ (ha1 l col N hN) qb K2 col
      (fun r => (hqb l r ⟨256 * k + r.val, by have := r.isLt; omega⟩ rfl).trans (hs0 l _))
      (fun r => hK2 r col ⟨256 * k + r.val, by have := r.isLt; omega⟩ N rfl hN)
  · rw [hs2 l col]
    exact acc_step (softmax0 cur) Kbi l N k hk _ (ha2 l col N hN) qb K3 col
      (fun r => (hqb l r ⟨256 * k + r.val, by have := r.isLt; omega⟩ rfl).trans (hs0 l _))
      (fun r => hK3 r col ⟨256 * k + r.val, by have := r.isLt; omega⟩ N rfl hN)

/-- A block that agrees entry by entry with an array of its own shape is that array. -/
theorem blk_eq {a b : Nat} (x y : Blk a b) (hxy : ∀ (p : Fin a) (q : Fin b), x (ix2 p q) = y (ix2 p q)) : x = y :=
  funext fun i => by rw [eq_ix2 i]; exact hxy _ _

/-- After the last slab of a row the message formed from the carried accumulators is the mean-field step of the
    current scores at that label and site. -/
theorem message_value (cur : Mat 21 8192) (Ksp Kbi : Mat 8192 8192) (nspF nbiF : Fin 8192 → EReal) (un : Mat 21 8192)
    (spw biw compat : Mat 21 21) (h : ℕ) (s0 : Mat 21 8192) (s1 s2 : Blk 21 4096)
    (hc : CarriedAt cur Ksp Kbi h 31 s0 s1 s2)
    (unary : Blk 21 4096) (nsp nbi : Blk 1 4096) (spwB biwB compatB : Blk 21 21)
    (hun : ∀ (l : Fin 21) (col : Fin 4096) (N : Fin 8192), N.val = 4096 * h + col.val → unary (ix2 l col) = un (ix2 l N))
    (hnsp : ∀ (col : Fin 4096) (N : Fin 8192), N.val = 4096 * h + col.val → nsp (ix2 0 col) = nspF N)
    (hnbi : ∀ (col : Fin 4096) (N : Fin 8192), N.val = 4096 * h + col.val → nbi (ix2 0 col) = nbiF N)
    (hspw : ∀ (p q : Fin 21), spwB (ix2 p q) = spw (ix2 p q))
    (hbiw : ∀ (p q : Fin 21), biwB (ix2 p q) = biw (ix2 p q))
    (hcompat : ∀ (p q : Fin 21), compatB (ix2 p q) = compat (ix2 p q))
    (l : Fin 21) (col : Fin 4096) (N : Fin 8192) (hN : N.val = 4096 * h + col.val) :
    Pay.message s1 nsp s2 nbi spwB biwB compatB unary l col
      = meanFieldStep Ksp Kbi nspF nbiF un spw biw compat cur (ix2 l N) := by
  obtain rfl := blk_eq spwB spw hspw
  obtain rfl := blk_eq biwB biw hbiw
  obtain rfl := blk_eq compatB compat hcompat
  exact message_eq_update Ksp Kbi nspF nbiF un spwB biwB compatB (softmax0 cur) s1 s2 unary nsp nbi l col N
    (fun b => (hc.2.1 b col N hN).trans (groupSum_full (softmax0 cur) Ksp b N))
    (fun b => (hc.2.2 b col N hN).trans (groupSum_full (softmax0 cur) Kbi b N))
    (hnsp col N hN) (hnbi col N hN) (hun l col N hN)

/-- The last iteration's stored value — the softmax over the labels of the message block — is the softmax of the
    mean-field step at that label and site. -/
theorem softmax_message_value (step : Mat 21 8192) (msg : Blk 21 4096) (l : Fin 21) (col : Fin 4096) (N : Fin 8192)
    (hmsg : ∀ k : Fin 21, msg (ix2 k col) = step (ix2 k N)) :
    Pay.softmaxCol msg l col = softmax0 step (ix2 l N) :=
  softmaxCol_block msg step l col N hmsg

end Cert.KernelIdeal.StepValue

end
-- ==== Proof.IdealR1Value.lean ====
/-
  Region 1 (the first mean-field iteration): the array its output window ends holding is one mean-field step of the
  current scores.

  The grid is 2 halves of the 8192 sites by 32 slabs of 256 contracted coordinates; point t is (t / 32, t mod 32).
  Three buffers are carried from point to point. At the first slab of a half the first is set to the softmax of the
  current scores over the 21 labels and the two accumulators are cleared; at every slab each accumulator gains the
  product of slab k of the first buffer (its columns 256 k … 256 k + 255) with the block (k, h) of an affinity array;
  at the last slab the message formed from the accumulators, the normalizers, the three 21 × 21 arrays and the unary
  scores is stored into the output's block, which is then written back to columns 4096 h … 4096 h + 4095.

  First each case's stores are read back as payloads of the point's blocks; then each window's block is read as
  entries of its array; then, by induction along the grid, after point 32 h + k the first carried buffer holds the
  softmax and the accumulators the first k + 1 groups of 256 terms of the entries of softmax · K at the sites of half
  h, so that after slab 31 they hold the whole sums (a sum over 32 · 256 coordinates regrouped) and the stored message
  is the mean-field step at that label and site; the two write-backs cover the output array.
-/
import proofs.«162179_j58609123721967_2_alg».proof.Proof.IdealR1Frame
import proofs.«162179_j58609123721967_2_alg».proof.Proof.IdealStepValue
import Idealize.ShloMosaic.Lib.Pipeline.Value
import Idealize.ShloMosaic.Lib.Tactic

set_option maxRecDepth 16384

open scoped BigOperators

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx
open Cert.ReferenceIdeal.RefValue Cert.KernelIdeal.StepValue

/-! ## What each case's stores leave, as the payloads of the point's blocks -/

section Pieces
variable {F : FTy → Type} [FloatOps F]

theorem hz1 : (![0, 0] : Fin 2 → Nat) = fun _ => 0 := funext fun a => by fin_cases a <;> rfl

/-- Slab k of a 21 × 8192 buffer: its columns 256 k … 256 k + 255, what the load at offsets (0, 256 k) reads (k the
    point's second grid coordinate). -/
abbrev slab1 (i : grid1.Coords) (X : Vec F S21x8192 .f32) : Vec F S21x256 .f32 :=
  View.ld X (Rect.unit (s := S21x8192) (k1_off1 i) S21x256.size (k1_off1_inb i))

/-- A middle step adds slab k's product with the first affinity block onto the first accumulator. -/
theorem sout1_B_1_eq (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : ¬cond1_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout1_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k1_pay5 (slab1 i xs0) xs1 x2 := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun1_B
  dsimp only
  try sl_unfold_words
  rw [View.canon_unit_zero hz1]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz1, View.ld_unit_zero (S := S256x4096) hz1, View.ld_unit_zero (S := S21x8192) hz1, View.ld_unit_zero (S := S1x4096) hz1, View.ld_unit_zero (S := S21x21) hz1]
  rfl

/-- A middle step adds slab k's product with the second affinity block onto the second accumulator. -/
theorem sout1_B_2_eq (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : ¬cond1_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout1_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k1_pay6 (slab1 i xs0) xs2 x3 := by
  unfold sout1_B_2
  rw [View.read_writes_eq_canon _ _ _ (scover1_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun1_B
  dsimp only
  try sl_unfold_words
  rw [View.canon_unit_zero hz1]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz1, View.ld_unit_zero (S := S256x4096) hz1, View.ld_unit_zero (S := S21x8192) hz1, View.ld_unit_zero (S := S1x4096) hz1, View.ld_unit_zero (S := S21x21) hz1]
  rfl

/-- The last step does the same to the first accumulator, -/
theorem sout1_C_1_eq (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout1_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k1_pay5 (slab1 i xs0) xs1 x2 := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun1_C
  dsimp only
  try sl_unfold_words
  rw [View.canon_unit_zero hz1]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz1, View.ld_unit_zero (S := S256x4096) hz1, View.ld_unit_zero (S := S21x8192) hz1, View.ld_unit_zero (S := S1x4096) hz1, View.ld_unit_zero (S := S21x21) hz1]
  rfl

/-- and to the second, -/
theorem sout1_C_2_eq (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout1_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k1_pay6 (slab1 i xs0) xs2 x3 := by
  unfold sout1_C_2
  rw [View.read_writes_eq_canon _ _ _ (scover1_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun1_C
  dsimp only
  try sl_unfold_words
  rw [View.canon_unit_zero hz1]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz1, View.ld_unit_zero (S := S256x4096) hz1, View.ld_unit_zero (S := S21x8192) hz1, View.ld_unit_zero (S := S1x4096) hz1, View.ld_unit_zero (S := S21x21) hz1]
  rfl

/-- and stores into the output's block the message formed from the two accumulators as it has just left them. -/
theorem out1_C_9_eq (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond1_0 i) (hc1 : cond1_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    out1_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2
      = k1_pay7 (k1_pay5 (slab1 i xs0) xs1 x2) x4 (k1_pay6 (slab1 i xs0) xs2 x3) x5 x6 x7 x8 x1 := by
  unfold out1_C_9
  rw [View.read_writes_eq_canon _ _ _ (cover1_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun1_C
  dsimp only
  try sl_unfold_words
  rw [View.canon_unit_zero hz1]
  simp only [View.readCov_unit_zero (S := S21x4096) _ hz1, View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz1, View.ld_unit_zero (S := S256x4096) hz1, View.ld_unit_zero (S := S21x8192) hz1, View.ld_unit_zero (S := S1x4096) hz1, View.ld_unit_zero (S := S21x21) hz1]
  rfl

/-- The first step of a row stores the softmax of the current scores into the first carried buffer, -/
theorem sout1_A_0_eq (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    sout1_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k1_pay1 x0 := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun1_A
  dsimp only
  try sl_unfold_words
  rw [View.canon_unit_zero hz1]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz1, View.ld_unit_zero (S := S256x4096) hz1, View.ld_unit_zero (S := S21x8192) hz1, View.ld_unit_zero (S := S1x4096) hz1, View.ld_unit_zero (S := S21x21) hz1]

/-- clears the first accumulator and adds slab 0's product onto it, -/
theorem sout1_A_1_eq (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    sout1_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k1_pay5 (slab1 i (k1_pay1 x0)) k1_pay2 x2 := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun1_A
  dsimp only
  try sl_unfold_words
  rw [View.canon_cons_unit_zero (S := S21x4096) hz1]
  simp only [View.readCov_unit_zero (S := S21x4096) _ hz1, View.readAt_eq_ld, View.read_writes_junk_eq_canon, View.canon_unit_zero (S := S21x8192) hz1, View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz1, View.ld_unit_zero (S := S256x4096) hz1, View.ld_unit_zero (S := S21x8192) hz1, View.ld_unit_zero (S := S1x4096) hz1, View.ld_unit_zero (S := S21x21) hz1]
  rfl

/-- and likewise the second. -/
theorem sout1_A_2_eq (c : Dev nD) (i : grid1.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond1_0 i) (hc1 : ¬cond1_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    sout1_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k1_pay6 (slab1 i (k1_pay1 x0)) k1_pay3 x3 := by
  unfold sout1_A_2
  rw [View.read_writes_eq_canon _ _ _ (scover1_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun1_A
  dsimp only
  try sl_unfold_words
  rw [View.canon_cons_unit_zero (S := S21x4096) hz1]
  simp only [View.readCov_unit_zero (S := S21x4096) _ hz1, View.readAt_eq_ld, View.read_writes_junk_eq_canon, View.canon_unit_zero (S := S21x8192) hz1, View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz1, View.ld_unit_zero (S := S256x4096) hz1, View.ld_unit_zero (S := S21x8192) hz1, View.ld_unit_zero (S := S1x4096) hz1, View.ld_unit_zero (S := S21x21) hz1]
  rfl

/-- The grid point t is (t / 32, t mod 32): the half of the sites, then the slab. -/
theorem coords1 (t : Fin cfg1.N) : ((grid1.coords t) 0).val = t.val / 32 ∧ ((grid1.coords t) 1).val = t.val % 32 :=
  (by decide +kernel : ∀ t : Fin grid1.N, ((grid1.coords t) 0).val = t.val / 32 ∧ ((grid1.coords t) 1).val = t.val % 32) t

/-- The slab's column offset, as the kernel computes it from the slab number k < 32, is 256 k. -/
theorem off1 (k : Fin 32) : (Scalar.indexCast (Scalar.muli (BitVec.ofNat 32 k.val) 256#32)).toNat = 256 * k.val := by
  revert k; decide +kernel

/-- Slab k of a buffer at (l, r) is the buffer at (l, 256 k + r). -/
theorem slab1_apply (i : grid1.Coords) (X : Vec F S21x8192 .f32) (l : Fin 21) (r : Fin 256) (J : Fin 8192)
    (hJ : J.val = 256 * (i 1).val + r.val) : slab1 i X (ix2 l r) = X (ix2 l J) := by
  show X _ = X _
  congr 1
  funext d
  apply Fin.ext
  match d with
  | ⟨0, _⟩ => show k1_off1 i 0 + 1 * l.val = l.val; show 0 + 1 * l.val = l.val; omega
  | ⟨1, _⟩ => show k1_off1 i 1 + 1 * r.val = J.val; rw [hJ]; show (Scalar.indexCast (Scalar.muli (BitVec.ofNat 32 (i 1).val) 256#32)).toNat + 1 * r.val = _; rw [off1 (i 1)]; omega

/-! ## The windows' blocks as entries of their arrays -/

variable (V : (c : Dev nD) → (b : Ref sig .tc) → Buf (Elt F) ((c : Thread nD τ).loc b))

/-- Window 0's block at point t, entry (a, b), is entry (21 · (0) + a, 8192 · (0) + b) of its array. -/
theorem iblk1_0_apply (c : Dev nD) (t : Fin cfg1.N) (a : Fin 21) (b : Fin 8192) (A : Fin 21) (B : Fin 8192)
    (hA : A.val = 21 * (0) + a.val) (hB : B.val = 8192 * (0) + b.val) :
    (iblk1 V c 0 t : Vec F S21x8192 .f32) (ix2 a b) = (V c main_v25 : S21x8192.Idx → Elt F .f32) (ix2 A B) := by
  have hi : win1_0.index t 0 = 0 ∧ win1_0.index t 1 = 0 :=
    (by decide +kernel : ∀ t : Fin grid1.N, win1_0.index t 0 = 0 ∧ win1_0.index t 1 = 0) t
  unfold iblk1
  rw [View.read_apply]
  show V c main_v25 _ = V c main_v25 _
  congr 1
  funext d
  apply Fin.ext
  match d with
  | ⟨0, _⟩ => show win1_0.index t 0 * 21 + 1 * a.val = A.val; rw [hi.1, hA]; omega
  | ⟨1, _⟩ => show win1_0.index t 1 * 8192 + 1 * b.val = B.val; rw [hi.2, hB]; omega

/-- Window 1's block at point t, entry (a, b), is entry (21 · (0) + a, 4096 · (t.val / 32) + b) of its array. -/
theorem iblk1_1_apply (c : Dev nD) (t : Fin cfg1.N) (a : Fin 21) (b : Fin 4096) (A : Fin 21) (B : Fin 8192)
    (hA : A.val = 21 * (0) + a.val) (hB : B.val = 4096 * (t.val / 32) + b.val) :
    (iblk1 V c 1 t : Vec F S21x4096 .f32) (ix2 a b) = (V c main_v27 : S21x8192.Idx → Elt F .f32) (ix2 A B) := by
  have hi : win1_1.index t 0 = 0 ∧ win1_1.index t 1 = t.val / 32 :=
    (by decide +kernel : ∀ t : Fin grid1.N, win1_1.index t 0 = 0 ∧ win1_1.index t 1 = t.val / 32) t
  unfold iblk1
  rw [View.read_apply]
  show V c main_v27 _ = V c main_v27 _
  congr 1
  funext d
  apply Fin.ext
  match d with
  | ⟨0, _⟩ => show win1_1.index t 0 * 21 + 1 * a.val = A.val; rw [hi.1, hA]; omega
  | ⟨1, _⟩ => show win1_1.index t 1 * 4096 + 1 * b.val = B.val; rw [hi.2, hB]; omega

/-- Window 2's block at point t, entry (a, b), is entry (256 · (t.val % 32) + a, 4096 · (t.val / 32) + b) of its array. -/
theorem iblk1_2_apply (c : Dev nD) (t : Fin cfg1.N) (a : Fin 256) (b : Fin 4096) (A : Fin 8192) (B : Fin 8192)
    (hA : A.val = 256 * (t.val % 32) + a.val) (hB : B.val = 4096 * (t.val / 32) + b.val) :
    (iblk1 V c 2 t : Vec F S256x4096 .bf16) (ix2 a b) = (V c main_v21_0 : S8192x8192.Idx → Elt F .bf16) (ix2 A B) := by
  have hi : win1_2.index t 0 = t.val % 32 ∧ win1_2.index t 1 = t.val / 32 :=
    (by decide +kernel : ∀ t : Fin grid1.N, win1_2.index t 0 = t.val % 32 ∧ win1_2.index t 1 = t.val / 32) t
  unfold iblk1
  rw [View.read_apply]
  show V c main_v21_0 _ = V c main_v21_0 _
  congr 1
  funext d
  apply Fin.ext
  match d with
  | ⟨0, _⟩ => show win1_2.index t 0 * 256 + 1 * a.val = A.val; rw [hi.1, hA]; omega
  | ⟨1, _⟩ => show win1_2.index t 1 * 4096 + 1 * b.val = B.val; rw [hi.2, hB]; omega

/-- Window 3's block at point t, entry (a, b), is entry (256 · (t.val % 32) + a, 4096 · (t.val / 32) + b) of its array. -/
theorem iblk1_3_apply (c : Dev nD) (t : Fin cfg1.N) (a : Fin 256) (b : Fin 4096) (A : Fin 8192) (B : Fin 8192)
    (hA : A.val = 256 * (t.val % 32) + a.val) (hB : B.val = 4096 * (t.val / 32) + b.val) :
    (iblk1 V c 3 t : Vec F S256x4096 .bf16) (ix2 a b) = (V c main_v21_1 : S8192x8192.Idx → Elt F .bf16) (ix2 A B) := by
  have hi : win1_3.index t 0 = t.val % 32 ∧ win1_3.index t 1 = t.val / 32 :=
    (by decide +kernel : ∀ t : Fin grid1.N, win1_3.index t 0 = t.val % 32 ∧ win1_3.index t 1 = t.val / 32) t
  unfold iblk1
  rw [View.read_apply]
  show V c main_v21_1 _ = V c main_v21_1 _
  congr 1
  funext d
  apply Fin.ext
  match d with
  | ⟨0, _⟩ => show win1_3.index t 0 * 256 + 1 * a.val = A.val; rw [hi.1, hA]; omega
  | ⟨1, _⟩ => show win1_3.index t 1 * 4096 + 1 * b.val = B.val; rw [hi.2, hB]; omega

/-- Window 4's block at point t, entry (a, b), is entry (1 · (0) + a, 4096 · (t.val / 32) + b) of its array. -/
theorem iblk1_4_apply (c : Dev nD) (t : Fin cfg1.N) (a : Fin 1) (b : Fin 4096) (A : Fin 1) (B : Fin 8192)
    (hA : A.val = 1 * (0) + a.val) (hB : B.val = 4096 * (t.val / 32) + b.val) :
    (iblk1 V c 4 t : Vec F S1x4096 .f32) (ix2 a b) = (V c main_v22 : S1x8192.Idx → Elt F .f32) (ix2 A B) := by
  have hi : win1_4.index t 0 = 0 ∧ win1_4.index t 1 = t.val / 32 :=
    (by decide +kernel : ∀ t : Fin grid1.N, win1_4.index t 0 = 0 ∧ win1_4.index t 1 = t.val / 32) t
  unfold iblk1
  rw [View.read_apply]
  show V c main_v22 _ = V c main_v22 _
  congr 1
  funext d
  apply Fin.ext
  match d with
  | ⟨0, _⟩ => show win1_4.index t 0 * 1 + 1 * a.val = A.val; rw [hi.1, hA]; omega
  | ⟨1, _⟩ => show win1_4.index t 1 * 4096 + 1 * b.val = B.val; rw [hi.2, hB]; omega

/-- Window 5's block at point t, entry (a, b), is entry (1 · (0) + a, 4096 · (t.val / 32) + b) of its array. -/
theorem iblk1_5_apply (c : Dev nD) (t : Fin cfg1.N) (a : Fin 1) (b : Fin 4096) (A : Fin 1) (B : Fin 8192)
    (hA : A.val = 1 * (0) + a.val) (hB : B.val = 4096 * (t.val / 32) + b.val) :
    (iblk1 V c 5 t : Vec F S1x4096 .f32) (ix2 a b) = (V c main_v23 : S1x8192.Idx → Elt F .f32) (ix2 A B) := by
  have hi : win1_5.index t 0 = 0 ∧ win1_5.index t 1 = t.val / 32 :=
    (by decide +kernel : ∀ t : Fin grid1.N, win1_5.index t 0 = 0 ∧ win1_5.index t 1 = t.val / 32) t
  unfold iblk1
  rw [View.read_apply]
  show V c main_v23 _ = V c main_v23 _
  congr 1
  funext d
  apply Fin.ext
  match d with
  | ⟨0, _⟩ => show win1_5.index t 0 * 1 + 1 * a.val = A.val; rw [hi.1, hA]; omega
  | ⟨1, _⟩ => show win1_5.index t 1 * 4096 + 1 * b.val = B.val; rw [hi.2, hB]; omega

/-- Window 6's block at point t, entry (a, b), is entry (21 · (0) + a, 21 · (0) + b) of its array. -/
theorem iblk1_6_apply (c : Dev nD) (t : Fin cfg1.N) (a : Fin 21) (b : Fin 21) (A : Fin 21) (B : Fin 21)
    (hA : A.val = 21 * (0) + a.val) (hB : B.val = 21 * (0) + b.val) :
    (iblk1 V c 6 t : Vec F S21x21 .f32) (ix2 a b) = (V c main_arg3 : S21x21.Idx → Elt F .f32) (ix2 A B) := by
  have hi : win1_6.index t 0 = 0 ∧ win1_6.index t 1 = 0 :=
    (by decide +kernel : ∀ t : Fin grid1.N, win1_6.index t 0 = 0 ∧ win1_6.index t 1 = 0) t
  unfold iblk1
  rw [View.read_apply]
  show V c main_arg3 _ = V c main_arg3 _
  congr 1
  funext d
  apply Fin.ext
  match d with
  | ⟨0, _⟩ => show win1_6.index t 0 * 21 + 1 * a.val = A.val; rw [hi.1, hA]; omega
  | ⟨1, _⟩ => show win1_6.index t 1 * 21 + 1 * b.val = B.val; rw [hi.2, hB]; omega

/-- Window 7's block at point t, entry (a, b), is entry (21 · (0) + a, 21 · (0) + b) of its array. -/
theorem iblk1_7_apply (c : Dev nD) (t : Fin cfg1.N) (a : Fin 21) (b : Fin 21) (A : Fin 21) (B : Fin 21)
    (hA : A.val = 21 * (0) + a.val) (hB : B.val = 21 * (0) + b.val) :
    (iblk1 V c 7 t : Vec F S21x21 .f32) (ix2 a b) = (V c main_arg4 : S21x21.Idx → Elt F .f32) (ix2 A B) := by
  have hi : win1_7.index t 0 = 0 ∧ win1_7.index t 1 = 0 :=
    (by decide +kernel : ∀ t : Fin grid1.N, win1_7.index t 0 = 0 ∧ win1_7.index t 1 = 0) t
  unfold iblk1
  rw [View.read_apply]
  show V c main_arg4 _ = V c main_arg4 _
  congr 1
  funext d
  apply Fin.ext
  match d with
  | ⟨0, _⟩ => show win1_7.index t 0 * 21 + 1 * a.val = A.val; rw [hi.1, hA]; omega
  | ⟨1, _⟩ => show win1_7.index t 1 * 21 + 1 * b.val = B.val; rw [hi.2, hB]; omega

/-- Window 8's block at point t, entry (a, b), is entry (21 · (0) + a, 21 · (0) + b) of its array. -/
theorem iblk1_8_apply (c : Dev nD) (t : Fin cfg1.N) (a : Fin 21) (b : Fin 21) (A : Fin 21) (B : Fin 21)
    (hA : A.val = 21 * (0) + a.val) (hB : B.val = 21 * (0) + b.val) :
    (iblk1 V c 8 t : Vec F S21x21 .f32) (ix2 a b) = (V c main_arg5 : S21x21.Idx → Elt F .f32) (ix2 A B) := by
  have hi : win1_8.index t 0 = 0 ∧ win1_8.index t 1 = 0 :=
    (by decide +kernel : ∀ t : Fin grid1.N, win1_8.index t 0 = 0 ∧ win1_8.index t 1 = 0) t
  unfold iblk1
  rw [View.read_apply]
  show V c main_arg5 _ = V c main_arg5 _
  congr 1
  funext d
  apply Fin.ext
  match d with
  | ⟨0, _⟩ => show win1_8.index t 0 * 21 + 1 * a.val = A.val; rw [hi.1, hA]; omega
  | ⟨1, _⟩ => show win1_8.index t 1 * 21 + 1 * b.val = B.val; rw [hi.2, hB]; omega

/-- At the last step of a row the output's block is the message of the accumulators the step has just left. -/
theorem out1_at_C (c : Dev nD) (t : Fin cfg1.N) (h0 : ¬t.val % 32 = 0) (h1 : t.val % 32 = 31) :
    (outsAt1 V c t.val t.isLt).1
      = k1_pay7 (outsAt1 V c t.val t.isLt).2.2.1 (iblk1 V c 4 t) (outsAt1 V c t.val t.isLt).2.2.2 (iblk1 V c 5 t)
          (iblk1 V c 6 t) (iblk1 V c 7 t) (iblk1 V c 8 t) (iblk1 V c 1 t) := by
  rw [outsAt1_C V c t h0 h1]
  dsimp only
  rw [out1_C_9_eq, sout1_C_1_eq, sout1_C_2_eq]

end Pieces

/-! ## The carried buffers point by point, on the extended reals -/

section Value
variable (V : (c : Dev nD) → (b : Ref sig .tc) → Buf (Elt Ideal) ((c : Thread nD τ).loc b))

/-- The region's arrays as it finds them: the current scores, the two affinity arrays, their normalizers (one row
    each), the unary scores and the three 21 × 21 arrays. -/
abbrev cur1 (c : Dev nD) : Mat 21 8192 := (V c main_v25 : S21x8192.Idx → Elt Ideal .f32)
abbrev ksp1 (c : Dev nD) : Mat 8192 8192 := (V c main_v21_0 : S8192x8192.Idx → Elt Ideal .bf16)
abbrev kbi1 (c : Dev nD) : Mat 8192 8192 := (V c main_v21_1 : S8192x8192.Idx → Elt Ideal .bf16)
abbrev nsp1 (c : Dev nD) : Fin 8192 → EReal := fun n => (V c main_v22 : S1x8192.Idx → Elt Ideal .f32) (ix2 0 n)
abbrev nbi1 (c : Dev nD) : Fin 8192 → EReal := fun n => (V c main_v23 : S1x8192.Idx → Elt Ideal .f32) (ix2 0 n)
abbrev un1 (c : Dev nD) : Mat 21 8192 := (V c main_v27 : S21x8192.Idx → Elt Ideal .f32)
abbrev spw1 (c : Dev nD) : Mat 21 21 := (V c main_arg3 : S21x21.Idx → Elt Ideal .f32)
abbrev biw1 (c : Dev nD) : Mat 21 21 := (V c main_arg4 : S21x21.Idx → Elt Ideal .f32)
abbrev compat1 (c : Dev nD) : Mat 21 21 := (V c main_arg5 : S21x21.Idx → Elt Ideal .f32)

/-- The first step of a row leaves the softmax of the current scores in the first carried buffer and the first
    group of 256 terms in each accumulator. -/
theorem carried1_A (c : Dev nD) (t : Fin cfg1.N) (h0 : t.val % 32 = 0) :
    CarriedAt (cur1 V c) (ksp1 V c) (kbi1 V c) (t.val / 32) (0)
      (outsAt1 V c t.val t.isLt).2.1 (outsAt1 V c t.val t.isLt).2.2.1 (outsAt1 V c t.val t.isLt).2.2.2 := by
  have h1 : ¬t.val % 32 = 31 := by omega
  have hco := coords1 t
  rw [outsAt1_A V c t h0 h1]
  dsimp only
  refine carried_step (cur1 V c) (ksp1 V c) (kbi1 V c) (t.val / 32) 0 (by omega) _ ?hs0
    (k1_pay2 (F := Ideal)) (k1_pay3 (F := Ideal)) ?ha1 ?ha2
    (slab1 (grid1.coords t) (k1_pay1 (iblk1 V c 0 t : Vec Ideal S21x8192 .f32))) ?hqb
    (iblk1 V c 2 t : Vec Ideal S256x4096 .bf16) (iblk1 V c 3 t : Vec Ideal S256x4096 .bf16) ?hK2 ?hK3 _ _ ?hsA ?hsB
  case hs0 =>
    intro l j
    rw [sout1_A_0_eq]
    refine (softmax_payload_apply _ l j).trans ?_
    exact softmaxCol_block (b := 8192) (iblk1 V c 0 t : Vec Ideal S21x8192 .f32) (cur1 V c) l j j
      fun k => iblk1_0_apply V c t k j k j (by omega) (by omega)
  case ha1 => intro l col N _; exact (clear_payload_apply _).trans (groupSum_zero _ _ _ _).symm
  case ha2 => intro l col N _; exact (clear_payload_apply' _).trans (groupSum_zero _ _ _ _).symm
  case hqb =>
    intro l r J hJ
    rw [sout1_A_0_eq]
    exact slab1_apply (grid1.coords t) _ l r J (by rw [hJ, hco.2, h0])
  case hK2 => intro r col R C hR hC; exact iblk1_2_apply V c t r col R C (by rw [hR, h0]) hC
  case hK3 => intro r col R C hR hC; exact iblk1_3_apply V c t r col R C (by rw [hR, h0]) hC
  case hsA => intro l col; rw [sout1_A_1_eq]; exact accum_payload_apply _ _ _ l col
  case hsB => intro l col; rw [sout1_A_2_eq]; exact accum_payload_apply' _ _ _ l col

/-- A middle step keeps the first carried buffer and adds its slab's group of 256 terms to each accumulator. -/
theorem carried1_B (c : Dev nD) (t : Fin cfg1.N) (h0 : ¬t.val % 32 = 0) (h1 : ¬t.val % 32 = 31)
    (ih : CarriedAt (cur1 V c) (ksp1 V c) (kbi1 V c) ((t.val - 1) / 32) ((t.val - 1) % 32)
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) :
    CarriedAt (cur1 V c) (ksp1 V c) (kbi1 V c) (t.val / 32) (t.val % 32)
      (outsAt1 V c t.val t.isLt).2.1 (outsAt1 V c t.val t.isLt).2.2.1 (outsAt1 V c t.val t.isLt).2.2.2 := by
  have hco := coords1 t
  have e1 : (t.val - 1) / 32 = t.val / 32 := by omega
  have e2 : (t.val - 1) % 32 + 1 = t.val % 32 := by omega
  obtain ⟨ih0, ih1, ih2⟩ := ih
  rw [e1, e2] at ih1 ih2
  rw [outsAt1_B V c t h0 h1]
  dsimp only
  refine carried_step (cur1 V c) (ksp1 V c) (kbi1 V c) (t.val / 32) (t.val % 32) (Nat.mod_lt _ (by decide)) _ ih0
    (outsAt1 V c (t.val - 1) (Nat.lt_of_le_of_lt (Nat.sub_le _ _) t.isLt)).2.2.1 (outsAt1 V c (t.val - 1) (Nat.lt_of_le_of_lt (Nat.sub_le _ _) t.isLt)).2.2.2 ih1 ih2
    (slab1 (grid1.coords t) (outsAt1 V c (t.val - 1) (Nat.lt_of_le_of_lt (Nat.sub_le _ _) t.isLt)).2.1) ?hqb
    (iblk1 V c 2 t : Vec Ideal S256x4096 .bf16) (iblk1 V c 3 t : Vec Ideal S256x4096 .bf16) ?hK2 ?hK3 _ _ ?hsA ?hsB
  case hqb =>
    intro l r J hJ
    exact slab1_apply (grid1.coords t) _ l r J (by rw [hJ, hco.2])
  case hK2 => intro r col R C hR hC; exact iblk1_2_apply V c t r col R C hR hC
  case hK3 => intro r col R C hR hC; exact iblk1_3_apply V c t r col R C hR hC
  case hsA => intro l col; rw [sout1_B_1_eq]; exact accum_payload_apply _ _ _ l col
  case hsB => intro l col; rw [sout1_B_2_eq]; exact accum_payload_apply' _ _ _ l col

/-- So does the last step. -/
theorem carried1_C (c : Dev nD) (t : Fin cfg1.N) (h0 : ¬t.val % 32 = 0) (h1 : t.val % 32 = 31)
    (ih : CarriedAt (cur1 V c) (ksp1 V c) (kbi1 V c) ((t.val - 1) / 32) ((t.val - 1) % 32)
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) :
    CarriedAt (cur1 V c) (ksp1 V c) (kbi1 V c) (t.val / 32) (t.val % 32)
      (outsAt1 V c t.val t.isLt).2.1 (outsAt1 V c t.val t.isLt).2.2.1 (outsAt1 V c t.val t.isLt).2.2.2 := by
  have hco := coords1 t
  have e1 : (t.val - 1) / 32 = t.val / 32 := by omega
  have e2 : (t.val - 1) % 32 + 1 = t.val % 32 := by omega
  obtain ⟨ih0, ih1, ih2⟩ := ih
  rw [e1, e2] at ih1 ih2
  rw [outsAt1_C V c t h0 h1]
  dsimp only
  refine carried_step (cur1 V c) (ksp1 V c) (kbi1 V c) (t.val / 32) (t.val % 32) (Nat.mod_lt _ (by decide)) _ ih0
    (outsAt1 V c (t.val - 1) (Nat.lt_of_le_of_lt (Nat.sub_le _ _) t.isLt)).2.2.1 (outsAt1 V c (t.val - 1) (Nat.lt_of_le_of_lt (Nat.sub_le _ _) t.isLt)).2.2.2 ih1 ih2
    (slab1 (grid1.coords t) (outsAt1 V c (t.val - 1) (Nat.lt_of_le_of_lt (Nat.sub_le _ _) t.isLt)).2.1) ?hqb
    (iblk1 V c 2 t : Vec Ideal S256x4096 .bf16) (iblk1 V c 3 t : Vec Ideal S256x4096 .bf16) ?hK2 ?hK3 _ _ ?hsA ?hsB
  case hqb =>
    intro l r J hJ
    exact slab1_apply (grid1.coords t) _ l r J (by rw [hJ, hco.2])
  case hK2 => intro r col R C hR hC; exact iblk1_2_apply V c t r col R C hR hC
  case hK3 => intro r col R C hR hC; exact iblk1_3_apply V c t r col R C hR hC
  case hsA => intro l col; rw [sout1_C_1_eq]; exact accum_payload_apply _ _ _ l col
  case hsB => intro l col; rw [sout1_C_2_eq]; exact accum_payload_apply' _ _ _ l col

/-- After the point n = 32 h + k the first carried buffer holds the softmax of the current scores and the
    accumulators the first k + 1 groups of 256 terms of the products' entries at the sites of half h: by induction
    along the grid. -/
theorem carried1 (c : Dev nD) : ∀ (n : ℕ) (hn : n < cfg1.N),
    CarriedAt (cur1 V c) (ksp1 V c) (kbi1 V c) (n / 32) (n % 32)
      (outsAt1 V c n hn).2.1 (outsAt1 V c n hn).2.2.1 (outsAt1 V c n hn).2.2.2
  | 0, hn => carried1_A V c ⟨0, hn⟩ rfl
  | n + 1, hn => by
    by_cases h0 : (n + 1) % 32 = 0
    · have h := carried1_A V c ⟨n + 1, hn⟩ h0
      rw [h0]; exact h
    · by_cases h1 : (n + 1) % 32 = 31
      · exact carried1_C V c ⟨n + 1, hn⟩ h0 h1 (carried1 c n (Nat.lt_of_succ_lt hn))
      · exact carried1_B V c ⟨n + 1, hn⟩ h0 h1 (carried1 c n (Nat.lt_of_succ_lt hn))

/-- One mean-field step of the region's arrays. -/
abbrev step1 (c : Dev nD) : Mat 21 8192 :=
  meanFieldStep (ksp1 V c) (kbi1 V c) (nsp1 V c) (nbi1 V c) (un1 V c) (spw1 V c) (biw1 V c) (compat1 V c) (cur1 V c)

/-- At the last step of row h the output's block holds, at (l, col), the mean-field step at label l and site
    4096 h + col. -/
theorem out1_9_value (c : Dev nD) (t : Fin cfg1.N) (h1 : t.val % 32 = 31) (l : Fin 21) (col : Fin 4096) (N : Fin 8192)
    (hN : N.val = 4096 * (t.val / 32) + col.val) :
    (outsAt1 V c t.val t.isLt).1 (ix2 l col) = step1 V c (ix2 l N) := by
  have h0 : ¬t.val % 32 = 0 := by omega
  have hc := carried1 V c t.val t.isLt
  rw [h1] at hc
  rw [out1_at_C V c t h0 h1]
  refine (message_payload_apply _ _ _ _ _ _ _ _ l col).trans ?_
  exact message_value (cur1 V c) (ksp1 V c) (kbi1 V c) (nsp1 V c) (nbi1 V c) (un1 V c) (spw1 V c) (biw1 V c) (compat1 V c)
    (t.val / 32) _ _ _ hc
    (iblk1 V c 1 t : Vec Ideal S21x4096 .f32) (iblk1 V c 4 t : Vec Ideal S1x4096 .f32) (iblk1 V c 5 t : Vec Ideal S1x4096 .f32)
    (iblk1 V c 6 t : Vec Ideal S21x21 .f32) (iblk1 V c 7 t : Vec Ideal S21x21 .f32) (iblk1 V c 8 t : Vec Ideal S21x21 .f32)
    (fun l col N hN => iblk1_1_apply V c t l col l N (by omega) hN)
    (fun col N hN => iblk1_4_apply V c t 0 col 0 N (by decide) hN)
    (fun col N hN => iblk1_5_apply V c t 0 col 0 N (by decide) hN)
    (fun p q => iblk1_6_apply V c t p q p q (by omega) (by omega))
    (fun p q => iblk1_7_apply V c t p q p q (by omega) (by omega))
    (fun p q => iblk1_8_apply V c t p q p q (by omega) (by omega))
    l col N hN

/-- The output's block index at point t is (0, t / 32). -/
theorem index1_9 (t : Fin cfg1.N) : win1_9.index t 0 = 0 ∧ win1_9.index t 1 = t.val / 32 :=
  (by decide +kernel : ∀ t : Fin grid1.N, win1_9.index t 0 = 0 ∧ win1_9.index t 1 = t.val / 32) t

/-- What the last step of row h writes back, entry by entry: the mean-field step at the sites of half h. -/
theorem flushed_entry1 (c : Dev nD) (t : Fin cfg1.N) (h1 : t.val % 32 = 31) (x : S21x4096.Idx) :
    (cfg1.win 9).cut (grid1.coords t) (outsAt1 V c t.val t.isLt).1 x
      = step1 V c (((cfg1.win 9).blk t).view.emb x) := by
  have hi := index1_9 t
  have ht : t.val < 64 := t.isLt
  have hx1 : (x 1).val < 4096 := (x 1).isLt
  show (outsAt1 V c t.val t.isLt).1 ((cfg1.win 9).xinj (grid1.coords t) x) = _
  rw [show (cfg1.win 9).xinj (grid1.coords t) x = x from funext fun a => Fin.ext rfl]
  have hx : x = ix2 (x 0) (x 1) := eq_ix2 x
  rw [hx]
  refine (out1_9_value V c t h1 (x 0) (x 1) ⟨4096 * (t.val / 32) + (x 1).val, by omega⟩ rfl).trans ?_
  show step1 V c _ = step1 V c _
  congr 1
  funext d
  apply Fin.ext
  match d with
  | ⟨0, _⟩ => show (x 0).val = win1_9.index t 0 * 21 + 1 * (x 0).val; rw [hi.1]; omega
  | ⟨1, _⟩ => show 4096 * (t.val / 32) + (x 1).val = win1_9.index t 1 * 4096 + 1 * (x 1).val; rw [hi.2]; omega

/-- Every write-back of the output's window writes its block of the mean-field step. -/
theorem flushed_eq1 (c : Dev nD) (t : Fin cfg1.N) (hf : (cfg1.win 9).flush t = true) :
    (dat1 V c).flushed 9 t = ((cfg1.win 9).blk t).view.read (Elt Ideal) (step1 V c) := by
  have h1 : t.val % 32 = 31 := (flush1_9 t).mp hf
  show (cfg1.win 9).cut (grid1.coords t) ((dat1 V c).after 9 t) = _
  rw [after1_9]
  funext x
  rw [View.read_apply]
  exact flushed_entry1 V c t h1 x

/-- The two write-backs cover the output array (columns below 4096 at point 31, the others at point 63), so it ends
    holding one mean-field step of the current scores. -/
theorem final1_9 (c : Dev nD) : (dat1 (F := Ideal) V c).arrAt 9 cfg1.N
    = meanFieldStep (ksp1 V c) (kbi1 V c) (nsp1 V c) (nbi1 V c) (un1 V c) (spw1 V c) (biw1 V c) (compat1 V c) (cur1 V c) :=
  (dat1 V c).arrAt_eq_of_cover 9 (step1 V c) (flushed_eq1 V c) fun i => by
    have hi1 : (i 1 : Nat) < 8192 := (i 1).isLt
    have hi0 : (i 0 : Nat) < 21 := (i 0).isLt
    obtain ⟨T, hT⟩ : ∃ T : Fin cfg1.N, T.val = 32 * ((i 1 : Nat) / 4096) + 31 :=
      ⟨⟨32 * ((i 1 : Nat) / 4096) + 31, by show _ < 64; omega⟩, rfl⟩
    have hi := index1_9 T
    refine ⟨T, (flush1_9 T).mpr (by rw [hT]; omega), ?_⟩
    show i ∈ ((View.whole main_v28).slice (win1_9.rect T)).set
    rw [View.set_slice_whole, Rect.mem_set_unit]
    intro a
    match a with
    | ⟨0, _⟩ =>
      show win1_9.index T 0 * 21 ≤ (i 0 : Nat) ∧ (i 0 : Nat) < win1_9.index T 0 * 21 + 21
      rw [hi.1]; omega
    | ⟨1, _⟩ =>
      show win1_9.index T 1 * 4096 ≤ (i 1 : Nat) ∧ (i 1 : Nat) < win1_9.index T 1 * 4096 + 4096
      rw [hi.2, hT]; omega

end Value

end Cert.KernelIdeal.Hand

end
-- ==== Proof.IdealR2Value.lean ====
/-
  Region 2 (the second mean-field iteration): the array its output window ends holding is one mean-field step of the
  current scores.

  The grid is 2 halves of the 8192 sites by 32 slabs of 256 contracted coordinates; point t is (t / 32, t mod 32).
  Three buffers are carried from point to point. At the first slab of a half the first is set to the softmax of the
  current scores over the 21 labels and the two accumulators are cleared; at every slab each accumulator gains the
  product of slab k of the first buffer (its columns 256 k … 256 k + 255) with the block (k, h) of an affinity array;
  at the last slab the message formed from the accumulators, the normalizers, the three 21 × 21 arrays and the unary
  scores is stored into the output's block, which is then written back to columns 4096 h … 4096 h + 4095.

  First each case's stores are read back as payloads of the point's blocks; then each window's block is read as
  entries of its array; then, by induction along the grid, after point 32 h + k the first carried buffer holds the
  softmax and the accumulators the first k + 1 groups of 256 terms of the entries of softmax · K at the sites of half
  h, so that after slab 31 they hold the whole sums (a sum over 32 · 256 coordinates regrouped) and the stored message
  is the mean-field step at that label and site; the two write-backs cover the output array.
-/
import proofs.«162179_j58609123721967_2_alg».proof.Proof.IdealR2Frame
import proofs.«162179_j58609123721967_2_alg».proof.Proof.IdealStepValue
import Idealize.ShloMosaic.Lib.Pipeline.Value
import Idealize.ShloMosaic.Lib.Tactic

set_option maxRecDepth 16384

open scoped BigOperators

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx
open Cert.ReferenceIdeal.RefValue Cert.KernelIdeal.StepValue

/-! ## What each case's stores leave, as the payloads of the point's blocks -/

section Pieces
variable {F : FTy → Type} [FloatOps F]

theorem hz2 : (![0, 0] : Fin 2 → Nat) = fun _ => 0 := funext fun a => by fin_cases a <;> rfl

/-- Slab k of a 21 × 8192 buffer: its columns 256 k … 256 k + 255, what the load at offsets (0, 256 k) reads (k the
    point's second grid coordinate). -/
abbrev slab2 (i : grid2.Coords) (X : Vec F S21x8192 .f32) : Vec F S21x256 .f32 :=
  View.ld X (Rect.unit (s := S21x8192) (k2_off1 i) S21x256.size (k2_off1_inb i))

/-- A middle step adds slab k's product with the first affinity block onto the first accumulator. -/
theorem sout2_B_1_eq (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : ¬cond2_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout2_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k2_pay5 (slab2 i xs0) xs1 x2 := by
  unfold sout2_B_1
  rw [View.read_writes_eq_canon _ _ _ (scover2_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun2_B
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz2, View.ld_unit_zero (S := S256x4096) hz2, View.ld_unit_zero (S := S21x8192) hz2, View.ld_unit_zero (S := S1x4096) hz2, View.ld_unit_zero (S := S21x21) hz2]
  rfl

/-- A middle step adds slab k's product with the second affinity block onto the second accumulator. -/
theorem sout2_B_2_eq (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : ¬cond2_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout2_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k2_pay6 (slab2 i xs0) xs2 x3 := by
  unfold sout2_B_2
  rw [View.read_writes_eq_canon _ _ _ (scover2_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun2_B
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz2, View.ld_unit_zero (S := S256x4096) hz2, View.ld_unit_zero (S := S21x8192) hz2, View.ld_unit_zero (S := S1x4096) hz2, View.ld_unit_zero (S := S21x21) hz2]
  rfl

/-- The last step does the same to the first accumulator, -/
theorem sout2_C_1_eq (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout2_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k2_pay5 (slab2 i xs0) xs1 x2 := by
  unfold sout2_C_1
  rw [View.read_writes_eq_canon _ _ _ (scover2_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun2_C
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz2, View.ld_unit_zero (S := S256x4096) hz2, View.ld_unit_zero (S := S21x8192) hz2, View.ld_unit_zero (S := S1x4096) hz2, View.ld_unit_zero (S := S21x21) hz2]
  rfl

/-- and to the second, -/
theorem sout2_C_2_eq (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout2_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k2_pay6 (slab2 i xs0) xs2 x3 := by
  unfold sout2_C_2
  rw [View.read_writes_eq_canon _ _ _ (scover2_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun2_C
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz2, View.ld_unit_zero (S := S256x4096) hz2, View.ld_unit_zero (S := S21x8192) hz2, View.ld_unit_zero (S := S1x4096) hz2, View.ld_unit_zero (S := S21x21) hz2]
  rfl

/-- and stores into the output's block the message formed from the two accumulators as it has just left them. -/
theorem out2_C_9_eq (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond2_0 i) (hc1 : cond2_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    out2_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2
      = k2_pay7 (k2_pay5 (slab2 i xs0) xs1 x2) x4 (k2_pay6 (slab2 i xs0) xs2 x3) x5 x6 x7 x8 x1 := by
  unfold out2_C_9
  rw [View.read_writes_eq_canon _ _ _ (cover2_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun2_C
  dsimp only
  try sl_unfold_words
  rw [View.canon_unit_zero hz2]
  simp only [View.readCov_unit_zero (S := S21x4096) _ hz2, View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz2, View.ld_unit_zero (S := S256x4096) hz2, View.ld_unit_zero (S := S21x8192) hz2, View.ld_unit_zero (S := S1x4096) hz2, View.ld_unit_zero (S := S21x21) hz2]
  rfl

/-- The first step of a row stores the softmax of the current scores into the first carried buffer, -/
theorem sout2_A_0_eq (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    sout2_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k2_pay1 x0 := by
  unfold sout2_A_0
  rw [View.read_writes_eq_canon _ _ _ (scover2_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun2_A
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz2, View.ld_unit_zero (S := S256x4096) hz2, View.ld_unit_zero (S := S21x8192) hz2, View.ld_unit_zero (S := S1x4096) hz2, View.ld_unit_zero (S := S21x21) hz2]

/-- clears the first accumulator and adds slab 0's product onto it, -/
theorem sout2_A_1_eq (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    sout2_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k2_pay5 (slab2 i (k2_pay1 x0)) k2_pay2 x2 := by
  unfold sout2_A_1
  rw [View.read_writes_eq_canon _ _ _ (scover2_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun2_A
  dsimp only
  try sl_unfold_words
  rw [View.canon_cons_unit_zero (S := S21x4096) hz2]
  simp only [View.readCov_unit_zero (S := S21x4096) _ hz2, View.readAt_eq_ld, View.read_writes_junk_eq_canon, View.canon_unit_zero (S := S21x8192) hz2, View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz2, View.ld_unit_zero (S := S256x4096) hz2, View.ld_unit_zero (S := S21x8192) hz2, View.ld_unit_zero (S := S1x4096) hz2, View.ld_unit_zero (S := S21x21) hz2]
  rfl

/-- and likewise the second. -/
theorem sout2_A_2_eq (c : Dev nD) (i : grid2.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond2_0 i) (hc1 : ¬cond2_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    sout2_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k2_pay6 (slab2 i (k2_pay1 x0)) k2_pay3 x3 := by
  unfold sout2_A_2
  rw [View.read_writes_eq_canon _ _ _ (scover2_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun2_A
  dsimp only
  try sl_unfold_words
  rw [View.canon_cons_unit_zero (S := S21x4096) hz2]
  simp only [View.readCov_unit_zero (S := S21x4096) _ hz2, View.readAt_eq_ld, View.read_writes_junk_eq_canon, View.canon_unit_zero (S := S21x8192) hz2, View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz2, View.ld_unit_zero (S := S256x4096) hz2, View.ld_unit_zero (S := S21x8192) hz2, View.ld_unit_zero (S := S1x4096) hz2, View.ld_unit_zero (S := S21x21) hz2]
  rfl

/-- The grid point t is (t / 32, t mod 32): the half of the sites, then the slab. -/
theorem coords2 (t : Fin cfg2.N) : ((grid2.coords t) 0).val = t.val / 32 ∧ ((grid2.coords t) 1).val = t.val % 32 :=
  (by decide +kernel : ∀ t : Fin grid2.N, ((grid2.coords t) 0).val = t.val / 32 ∧ ((grid2.coords t) 1).val = t.val % 32) t

/-- The slab's column offset, as the kernel computes it from the slab number k < 32, is 256 k. -/
theorem off2 (k : Fin 32) : (Scalar.indexCast (Scalar.muli (BitVec.ofNat 32 k.val) 256#32)).toNat = 256 * k.val := by
  revert k; decide +kernel

/-- Slab k of a buffer at (l, r) is the buffer at (l, 256 k + r). -/
theorem slab2_apply (i : grid2.Coords) (X : Vec F S21x8192 .f32) (l : Fin 21) (r : Fin 256) (J : Fin 8192)
    (hJ : J.val = 256 * (i 1).val + r.val) : slab2 i X (ix2 l r) = X (ix2 l J) := by
  show X _ = X _
  congr 1
  funext d
  apply Fin.ext
  match d with
  | ⟨0, _⟩ => show k2_off1 i 0 + 1 * l.val = l.val; show 0 + 1 * l.val = l.val; omega
  | ⟨1, _⟩ => show k2_off1 i 1 + 1 * r.val = J.val; rw [hJ]; show (Scalar.indexCast (Scalar.muli (BitVec.ofNat 32 (i 1).val) 256#32)).toNat + 1 * r.val = _; rw [off2 (i 1)]; omega

/-! ## The windows' blocks as entries of their arrays -/

variable (V : (c : Dev nD) → (b : Ref sig .tc) → Buf (Elt F) ((c : Thread nD τ).loc b))

/-- Window 0's block at point t, entry (a, b), is entry (21 · (0) + a, 8192 · (0) + b) of its array. -/
theorem iblk2_0_apply (c : Dev nD) (t : Fin cfg2.N) (a : Fin 21) (b : Fin 8192) (A : Fin 21) (B : Fin 8192)
    (hA : A.val = 21 * (0) + a.val) (hB : B.val = 8192 * (0) + b.val) :
    (iblk2 V c 0 t : Vec F S21x8192 .f32) (ix2 a b) = (V c main_v28 : S21x8192.Idx → Elt F .f32) (ix2 A B) := by
  have hi : win2_0.index t 0 = 0 ∧ win2_0.index t 1 = 0 :=
    (by decide +kernel : ∀ t : Fin grid2.N, win2_0.index t 0 = 0 ∧ win2_0.index t 1 = 0) t
  unfold iblk2
  rw [View.read_apply]
  show V c main_v28 _ = V c main_v28 _
  congr 1
  funext d
  apply Fin.ext
  match d with
  | ⟨0, _⟩ => show win2_0.index t 0 * 21 + 1 * a.val = A.val; rw [hi.1, hA]; omega
  | ⟨1, _⟩ => show win2_0.index t 1 * 8192 + 1 * b.val = B.val; rw [hi.2, hB]; omega

/-- Window 1's block at point t, entry (a, b), is entry (21 · (0) + a, 4096 · (t.val / 32) + b) of its array. -/
theorem iblk2_1_apply (c : Dev nD) (t : Fin cfg2.N) (a : Fin 21) (b : Fin 4096) (A : Fin 21) (B : Fin 8192)
    (hA : A.val = 21 * (0) + a.val) (hB : B.val = 4096 * (t.val / 32) + b.val) :
    (iblk2 V c 1 t : Vec F S21x4096 .f32) (ix2 a b) = (V c main_v27 : S21x8192.Idx → Elt F .f32) (ix2 A B) := by
  have hi : win2_1.index t 0 = 0 ∧ win2_1.index t 1 = t.val / 32 :=
    (by decide +kernel : ∀ t : Fin grid2.N, win2_1.index t 0 = 0 ∧ win2_1.index t 1 = t.val / 32) t
  unfold iblk2
  rw [View.read_apply]
  show V c main_v27 _ = V c main_v27 _
  congr 1
  funext d
  apply Fin.ext
  match d with
  | ⟨0, _⟩ => show win2_1.index t 0 * 21 + 1 * a.val = A.val; rw [hi.1, hA]; omega
  | ⟨1, _⟩ => show win2_1.index t 1 * 4096 + 1 * b.val = B.val; rw [hi.2, hB]; omega

/-- Window 2's block at point t, entry (a, b), is entry (256 · (t.val % 32) + a, 4096 · (t.val / 32) + b) of its array. -/
theorem iblk2_2_apply (c : Dev nD) (t : Fin cfg2.N) (a : Fin 256) (b : Fin 4096) (A : Fin 8192) (B : Fin 8192)
    (hA : A.val = 256 * (t.val % 32) + a.val) (hB : B.val = 4096 * (t.val / 32) + b.val) :
    (iblk2 V c 2 t : Vec F S256x4096 .bf16) (ix2 a b) = (V c main_v21_0 : S8192x8192.Idx → Elt F .bf16) (ix2 A B) := by
  have hi : win2_2.index t 0 = t.val % 32 ∧ win2_2.index t 1 = t.val / 32 :=
    (by decide +kernel : ∀ t : Fin grid2.N, win2_2.index t 0 = t.val % 32 ∧ win2_2.index t 1 = t.val / 32) t
  unfold iblk2
  rw [View.read_apply]
  show V c main_v21_0 _ = V c main_v21_0 _
  congr 1
  funext d
  apply Fin.ext
  match d with
  | ⟨0, _⟩ => show win2_2.index t 0 * 256 + 1 * a.val = A.val; rw [hi.1, hA]; omega
  | ⟨1, _⟩ => show win2_2.index t 1 * 4096 + 1 * b.val = B.val; rw [hi.2, hB]; omega

/-- Window 3's block at point t, entry (a, b), is entry (256 · (t.val % 32) + a, 4096 · (t.val / 32) + b) of its array. -/
theorem iblk2_3_apply (c : Dev nD) (t : Fin cfg2.N) (a : Fin 256) (b : Fin 4096) (A : Fin 8192) (B : Fin 8192)
    (hA : A.val = 256 * (t.val % 32) + a.val) (hB : B.val = 4096 * (t.val / 32) + b.val) :
    (iblk2 V c 3 t : Vec F S256x4096 .bf16) (ix2 a b) = (V c main_v21_1 : S8192x8192.Idx → Elt F .bf16) (ix2 A B) := by
  have hi : win2_3.index t 0 = t.val % 32 ∧ win2_3.index t 1 = t.val / 32 :=
    (by decide +kernel : ∀ t : Fin grid2.N, win2_3.index t 0 = t.val % 32 ∧ win2_3.index t 1 = t.val / 32) t
  unfold iblk2
  rw [View.read_apply]
  show V c main_v21_1 _ = V c main_v21_1 _
  congr 1
  funext d
  apply Fin.ext
  match d with
  | ⟨0, _⟩ => show win2_3.index t 0 * 256 + 1 * a.val = A.val; rw [hi.1, hA]; omega
  | ⟨1, _⟩ => show win2_3.index t 1 * 4096 + 1 * b.val = B.val; rw [hi.2, hB]; omega

/-- Window 4's block at point t, entry (a, b), is entry (1 · (0) + a, 4096 · (t.val / 32) + b) of its array. -/
theorem iblk2_4_apply (c : Dev nD) (t : Fin cfg2.N) (a : Fin 1) (b : Fin 4096) (A : Fin 1) (B : Fin 8192)
    (hA : A.val = 1 * (0) + a.val) (hB : B.val = 4096 * (t.val / 32) + b.val) :
    (iblk2 V c 4 t : Vec F S1x4096 .f32) (ix2 a b) = (V c main_v22 : S1x8192.Idx → Elt F .f32) (ix2 A B) := by
  have hi : win2_4.index t 0 = 0 ∧ win2_4.index t 1 = t.val / 32 :=
    (by decide +kernel : ∀ t : Fin grid2.N, win2_4.index t 0 = 0 ∧ win2_4.index t 1 = t.val / 32) t
  unfold iblk2
  rw [View.read_apply]
  show V c main_v22 _ = V c main_v22 _
  congr 1
  funext d
  apply Fin.ext
  match d with
  | ⟨0, _⟩ => show win2_4.index t 0 * 1 + 1 * a.val = A.val; rw [hi.1, hA]; omega
  | ⟨1, _⟩ => show win2_4.index t 1 * 4096 + 1 * b.val = B.val; rw [hi.2, hB]; omega

/-- Window 5's block at point t, entry (a, b), is entry (1 · (0) + a, 4096 · (t.val / 32) + b) of its array. -/
theorem iblk2_5_apply (c : Dev nD) (t : Fin cfg2.N) (a : Fin 1) (b : Fin 4096) (A : Fin 1) (B : Fin 8192)
    (hA : A.val = 1 * (0) + a.val) (hB : B.val = 4096 * (t.val / 32) + b.val) :
    (iblk2 V c 5 t : Vec F S1x4096 .f32) (ix2 a b) = (V c main_v23 : S1x8192.Idx → Elt F .f32) (ix2 A B) := by
  have hi : win2_5.index t 0 = 0 ∧ win2_5.index t 1 = t.val / 32 :=
    (by decide +kernel : ∀ t : Fin grid2.N, win2_5.index t 0 = 0 ∧ win2_5.index t 1 = t.val / 32) t
  unfold iblk2
  rw [View.read_apply]
  show V c main_v23 _ = V c main_v23 _
  congr 1
  funext d
  apply Fin.ext
  match d with
  | ⟨0, _⟩ => show win2_5.index t 0 * 1 + 1 * a.val = A.val; rw [hi.1, hA]; omega
  | ⟨1, _⟩ => show win2_5.index t 1 * 4096 + 1 * b.val = B.val; rw [hi.2, hB]; omega

/-- Window 6's block at point t, entry (a, b), is entry (21 · (0) + a, 21 · (0) + b) of its array. -/
theorem iblk2_6_apply (c : Dev nD) (t : Fin cfg2.N) (a : Fin 21) (b : Fin 21) (A : Fin 21) (B : Fin 21)
    (hA : A.val = 21 * (0) + a.val) (hB : B.val = 21 * (0) + b.val) :
    (iblk2 V c 6 t : Vec F S21x21 .f32) (ix2 a b) = (V c main_arg3 : S21x21.Idx → Elt F .f32) (ix2 A B) := by
  have hi : win2_6.index t 0 = 0 ∧ win2_6.index t 1 = 0 :=
    (by decide +kernel : ∀ t : Fin grid2.N, win2_6.index t 0 = 0 ∧ win2_6.index t 1 = 0) t
  unfold iblk2
  rw [View.read_apply]
  show V c main_arg3 _ = V c main_arg3 _
  congr 1
  funext d
  apply Fin.ext
  match d with
  | ⟨0, _⟩ => show win2_6.index t 0 * 21 + 1 * a.val = A.val; rw [hi.1, hA]; omega
  | ⟨1, _⟩ => show win2_6.index t 1 * 21 + 1 * b.val = B.val; rw [hi.2, hB]; omega

/-- Window 7's block at point t, entry (a, b), is entry (21 · (0) + a, 21 · (0) + b) of its array. -/
theorem iblk2_7_apply (c : Dev nD) (t : Fin cfg2.N) (a : Fin 21) (b : Fin 21) (A : Fin 21) (B : Fin 21)
    (hA : A.val = 21 * (0) + a.val) (hB : B.val = 21 * (0) + b.val) :
    (iblk2 V c 7 t : Vec F S21x21 .f32) (ix2 a b) = (V c main_arg4 : S21x21.Idx → Elt F .f32) (ix2 A B) := by
  have hi : win2_7.index t 0 = 0 ∧ win2_7.index t 1 = 0 :=
    (by decide +kernel : ∀ t : Fin grid2.N, win2_7.index t 0 = 0 ∧ win2_7.index t 1 = 0) t
  unfold iblk2
  rw [View.read_apply]
  show V c main_arg4 _ = V c main_arg4 _
  congr 1
  funext d
  apply Fin.ext
  match d with
  | ⟨0, _⟩ => show win2_7.index t 0 * 21 + 1 * a.val = A.val; rw [hi.1, hA]; omega
  | ⟨1, _⟩ => show win2_7.index t 1 * 21 + 1 * b.val = B.val; rw [hi.2, hB]; omega

/-- Window 8's block at point t, entry (a, b), is entry (21 · (0) + a, 21 · (0) + b) of its array. -/
theorem iblk2_8_apply (c : Dev nD) (t : Fin cfg2.N) (a : Fin 21) (b : Fin 21) (A : Fin 21) (B : Fin 21)
    (hA : A.val = 21 * (0) + a.val) (hB : B.val = 21 * (0) + b.val) :
    (iblk2 V c 8 t : Vec F S21x21 .f32) (ix2 a b) = (V c main_arg5 : S21x21.Idx → Elt F .f32) (ix2 A B) := by
  have hi : win2_8.index t 0 = 0 ∧ win2_8.index t 1 = 0 :=
    (by decide +kernel : ∀ t : Fin grid2.N, win2_8.index t 0 = 0 ∧ win2_8.index t 1 = 0) t
  unfold iblk2
  rw [View.read_apply]
  show V c main_arg5 _ = V c main_arg5 _
  congr 1
  funext d
  apply Fin.ext
  match d with
  | ⟨0, _⟩ => show win2_8.index t 0 * 21 + 1 * a.val = A.val; rw [hi.1, hA]; omega
  | ⟨1, _⟩ => show win2_8.index t 1 * 21 + 1 * b.val = B.val; rw [hi.2, hB]; omega

/-- At the last step of a row the output's block is the message of the accumulators the step has just left. -/
theorem out2_at_C (c : Dev nD) (t : Fin cfg2.N) (h0 : ¬t.val % 32 = 0) (h1 : t.val % 32 = 31) :
    (outsAt2 V c t.val t.isLt).1
      = k2_pay7 (outsAt2 V c t.val t.isLt).2.2.1 (iblk2 V c 4 t) (outsAt2 V c t.val t.isLt).2.2.2 (iblk2 V c 5 t)
          (iblk2 V c 6 t) (iblk2 V c 7 t) (iblk2 V c 8 t) (iblk2 V c 1 t) := by
  rw [outsAt2_C V c t h0 h1]
  dsimp only
  rw [out2_C_9_eq, sout2_C_1_eq, sout2_C_2_eq]

end Pieces

/-! ## The carried buffers point by point, on the extended reals -/

section Value
variable (V : (c : Dev nD) → (b : Ref sig .tc) → Buf (Elt Ideal) ((c : Thread nD τ).loc b))

/-- The region's arrays as it finds them: the current scores, the two affinity arrays, their normalizers (one row
    each), the unary scores and the three 21 × 21 arrays. -/
abbrev cur2 (c : Dev nD) : Mat 21 8192 := (V c main_v28 : S21x8192.Idx → Elt Ideal .f32)
abbrev ksp2 (c : Dev nD) : Mat 8192 8192 := (V c main_v21_0 : S8192x8192.Idx → Elt Ideal .bf16)
abbrev kbi2 (c : Dev nD) : Mat 8192 8192 := (V c main_v21_1 : S8192x8192.Idx → Elt Ideal .bf16)
abbrev nsp2 (c : Dev nD) : Fin 8192 → EReal := fun n => (V c main_v22 : S1x8192.Idx → Elt Ideal .f32) (ix2 0 n)
abbrev nbi2 (c : Dev nD) : Fin 8192 → EReal := fun n => (V c main_v23 : S1x8192.Idx → Elt Ideal .f32) (ix2 0 n)
abbrev un2 (c : Dev nD) : Mat 21 8192 := (V c main_v27 : S21x8192.Idx → Elt Ideal .f32)
abbrev spw2 (c : Dev nD) : Mat 21 21 := (V c main_arg3 : S21x21.Idx → Elt Ideal .f32)
abbrev biw2 (c : Dev nD) : Mat 21 21 := (V c main_arg4 : S21x21.Idx → Elt Ideal .f32)
abbrev compat2 (c : Dev nD) : Mat 21 21 := (V c main_arg5 : S21x21.Idx → Elt Ideal .f32)

/-- The first step of a row leaves the softmax of the current scores in the first carried buffer and the first
    group of 256 terms in each accumulator. -/
theorem carried2_A (c : Dev nD) (t : Fin cfg2.N) (h0 : t.val % 32 = 0) :
    CarriedAt (cur2 V c) (ksp2 V c) (kbi2 V c) (t.val / 32) (0)
      (outsAt2 V c t.val t.isLt).2.1 (outsAt2 V c t.val t.isLt).2.2.1 (outsAt2 V c t.val t.isLt).2.2.2 := by
  have h1 : ¬t.val % 32 = 31 := by omega
  have hco := coords2 t
  rw [outsAt2_A V c t h0 h1]
  dsimp only
  refine carried_step (cur2 V c) (ksp2 V c) (kbi2 V c) (t.val / 32) 0 (by omega) _ ?hs0
    (k2_pay2 (F := Ideal)) (k2_pay3 (F := Ideal)) ?ha1 ?ha2
    (slab2 (grid2.coords t) (k2_pay1 (iblk2 V c 0 t : Vec Ideal S21x8192 .f32))) ?hqb
    (iblk2 V c 2 t : Vec Ideal S256x4096 .bf16) (iblk2 V c 3 t : Vec Ideal S256x4096 .bf16) ?hK2 ?hK3 _ _ ?hsA ?hsB
  case hs0 =>
    intro l j
    rw [sout2_A_0_eq]
    refine (softmax_payload_apply _ l j).trans ?_
    exact softmaxCol_block (b := 8192) (iblk2 V c 0 t : Vec Ideal S21x8192 .f32) (cur2 V c) l j j
      fun k => iblk2_0_apply V c t k j k j (by omega) (by omega)
  case ha1 => intro l col N _; exact (clear_payload_apply _).trans (groupSum_zero _ _ _ _).symm
  case ha2 => intro l col N _; exact (clear_payload_apply' _).trans (groupSum_zero _ _ _ _).symm
  case hqb =>
    intro l r J hJ
    rw [sout2_A_0_eq]
    exact slab2_apply (grid2.coords t) _ l r J (by rw [hJ, hco.2, h0])
  case hK2 => intro r col R C hR hC; exact iblk2_2_apply V c t r col R C (by rw [hR, h0]) hC
  case hK3 => intro r col R C hR hC; exact iblk2_3_apply V c t r col R C (by rw [hR, h0]) hC
  case hsA => intro l col; rw [sout2_A_1_eq]; exact accum_payload_apply _ _ _ l col
  case hsB => intro l col; rw [sout2_A_2_eq]; exact accum_payload_apply' _ _ _ l col

/-- A middle step keeps the first carried buffer and adds its slab's group of 256 terms to each accumulator. -/
theorem carried2_B (c : Dev nD) (t : Fin cfg2.N) (h0 : ¬t.val % 32 = 0) (h1 : ¬t.val % 32 = 31)
    (ih : CarriedAt (cur2 V c) (ksp2 V c) (kbi2 V c) ((t.val - 1) / 32) ((t.val - 1) % 32)
      (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2) :
    CarriedAt (cur2 V c) (ksp2 V c) (kbi2 V c) (t.val / 32) (t.val % 32)
      (outsAt2 V c t.val t.isLt).2.1 (outsAt2 V c t.val t.isLt).2.2.1 (outsAt2 V c t.val t.isLt).2.2.2 := by
  have hco := coords2 t
  have e1 : (t.val - 1) / 32 = t.val / 32 := by omega
  have e2 : (t.val - 1) % 32 + 1 = t.val % 32 := by omega
  obtain ⟨ih0, ih1, ih2⟩ := ih
  rw [e1, e2] at ih1 ih2
  rw [outsAt2_B V c t h0 h1]
  dsimp only
  refine carried_step (cur2 V c) (ksp2 V c) (kbi2 V c) (t.val / 32) (t.val % 32) (Nat.mod_lt _ (by decide)) _ ih0
    (outsAt2 V c (t.val - 1) (Nat.lt_of_le_of_lt (Nat.sub_le _ _) t.isLt)).2.2.1 (outsAt2 V c (t.val - 1) (Nat.lt_of_le_of_lt (Nat.sub_le _ _) t.isLt)).2.2.2 ih1 ih2
    (slab2 (grid2.coords t) (outsAt2 V c (t.val - 1) (Nat.lt_of_le_of_lt (Nat.sub_le _ _) t.isLt)).2.1) ?hqb
    (iblk2 V c 2 t : Vec Ideal S256x4096 .bf16) (iblk2 V c 3 t : Vec Ideal S256x4096 .bf16) ?hK2 ?hK3 _ _ ?hsA ?hsB
  case hqb =>
    intro l r J hJ
    exact slab2_apply (grid2.coords t) _ l r J (by rw [hJ, hco.2])
  case hK2 => intro r col R C hR hC; exact iblk2_2_apply V c t r col R C hR hC
  case hK3 => intro r col R C hR hC; exact iblk2_3_apply V c t r col R C hR hC
  case hsA => intro l col; rw [sout2_B_1_eq]; exact accum_payload_apply _ _ _ l col
  case hsB => intro l col; rw [sout2_B_2_eq]; exact accum_payload_apply' _ _ _ l col

/-- So does the last step. -/
theorem carried2_C (c : Dev nD) (t : Fin cfg2.N) (h0 : ¬t.val % 32 = 0) (h1 : t.val % 32 = 31)
    (ih : CarriedAt (cur2 V c) (ksp2 V c) (kbi2 V c) ((t.val - 1) / 32) ((t.val - 1) % 32)
      (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2) :
    CarriedAt (cur2 V c) (ksp2 V c) (kbi2 V c) (t.val / 32) (t.val % 32)
      (outsAt2 V c t.val t.isLt).2.1 (outsAt2 V c t.val t.isLt).2.2.1 (outsAt2 V c t.val t.isLt).2.2.2 := by
  have hco := coords2 t
  have e1 : (t.val - 1) / 32 = t.val / 32 := by omega
  have e2 : (t.val - 1) % 32 + 1 = t.val % 32 := by omega
  obtain ⟨ih0, ih1, ih2⟩ := ih
  rw [e1, e2] at ih1 ih2
  rw [outsAt2_C V c t h0 h1]
  dsimp only
  refine carried_step (cur2 V c) (ksp2 V c) (kbi2 V c) (t.val / 32) (t.val % 32) (Nat.mod_lt _ (by decide)) _ ih0
    (outsAt2 V c (t.val - 1) (Nat.lt_of_le_of_lt (Nat.sub_le _ _) t.isLt)).2.2.1 (outsAt2 V c (t.val - 1) (Nat.lt_of_le_of_lt (Nat.sub_le _ _) t.isLt)).2.2.2 ih1 ih2
    (slab2 (grid2.coords t) (outsAt2 V c (t.val - 1) (Nat.lt_of_le_of_lt (Nat.sub_le _ _) t.isLt)).2.1) ?hqb
    (iblk2 V c 2 t : Vec Ideal S256x4096 .bf16) (iblk2 V c 3 t : Vec Ideal S256x4096 .bf16) ?hK2 ?hK3 _ _ ?hsA ?hsB
  case hqb =>
    intro l r J hJ
    exact slab2_apply (grid2.coords t) _ l r J (by rw [hJ, hco.2])
  case hK2 => intro r col R C hR hC; exact iblk2_2_apply V c t r col R C hR hC
  case hK3 => intro r col R C hR hC; exact iblk2_3_apply V c t r col R C hR hC
  case hsA => intro l col; rw [sout2_C_1_eq]; exact accum_payload_apply _ _ _ l col
  case hsB => intro l col; rw [sout2_C_2_eq]; exact accum_payload_apply' _ _ _ l col

/-- After the point n = 32 h + k the first carried buffer holds the softmax of the current scores and the
    accumulators the first k + 1 groups of 256 terms of the products' entries at the sites of half h: by induction
    along the grid. -/
theorem carried2 (c : Dev nD) : ∀ (n : ℕ) (hn : n < cfg2.N),
    CarriedAt (cur2 V c) (ksp2 V c) (kbi2 V c) (n / 32) (n % 32)
      (outsAt2 V c n hn).2.1 (outsAt2 V c n hn).2.2.1 (outsAt2 V c n hn).2.2.2
  | 0, hn => carried2_A V c ⟨0, hn⟩ rfl
  | n + 1, hn => by
    by_cases h0 : (n + 1) % 32 = 0
    · have h := carried2_A V c ⟨n + 1, hn⟩ h0
      rw [h0]; exact h
    · by_cases h1 : (n + 1) % 32 = 31
      · exact carried2_C V c ⟨n + 1, hn⟩ h0 h1 (carried2 c n (Nat.lt_of_succ_lt hn))
      · exact carried2_B V c ⟨n + 1, hn⟩ h0 h1 (carried2 c n (Nat.lt_of_succ_lt hn))

/-- One mean-field step of the region's arrays. -/
abbrev step2 (c : Dev nD) : Mat 21 8192 :=
  meanFieldStep (ksp2 V c) (kbi2 V c) (nsp2 V c) (nbi2 V c) (un2 V c) (spw2 V c) (biw2 V c) (compat2 V c) (cur2 V c)

/-- At the last step of row h the output's block holds, at (l, col), the mean-field step at label l and site
    4096 h + col. -/
theorem out2_9_value (c : Dev nD) (t : Fin cfg2.N) (h1 : t.val % 32 = 31) (l : Fin 21) (col : Fin 4096) (N : Fin 8192)
    (hN : N.val = 4096 * (t.val / 32) + col.val) :
    (outsAt2 V c t.val t.isLt).1 (ix2 l col) = step2 V c (ix2 l N) := by
  have h0 : ¬t.val % 32 = 0 := by omega
  have hc := carried2 V c t.val t.isLt
  rw [h1] at hc
  rw [out2_at_C V c t h0 h1]
  refine (message_payload_apply _ _ _ _ _ _ _ _ l col).trans ?_
  exact message_value (cur2 V c) (ksp2 V c) (kbi2 V c) (nsp2 V c) (nbi2 V c) (un2 V c) (spw2 V c) (biw2 V c) (compat2 V c)
    (t.val / 32) _ _ _ hc
    (iblk2 V c 1 t : Vec Ideal S21x4096 .f32) (iblk2 V c 4 t : Vec Ideal S1x4096 .f32) (iblk2 V c 5 t : Vec Ideal S1x4096 .f32)
    (iblk2 V c 6 t : Vec Ideal S21x21 .f32) (iblk2 V c 7 t : Vec Ideal S21x21 .f32) (iblk2 V c 8 t : Vec Ideal S21x21 .f32)
    (fun l col N hN => iblk2_1_apply V c t l col l N (by omega) hN)
    (fun col N hN => iblk2_4_apply V c t 0 col 0 N (by decide) hN)
    (fun col N hN => iblk2_5_apply V c t 0 col 0 N (by decide) hN)
    (fun p q => iblk2_6_apply V c t p q p q (by omega) (by omega))
    (fun p q => iblk2_7_apply V c t p q p q (by omega) (by omega))
    (fun p q => iblk2_8_apply V c t p q p q (by omega) (by omega))
    l col N hN

/-- The output's block index at point t is (0, t / 32). -/
theorem index2_9 (t : Fin cfg2.N) : win2_9.index t 0 = 0 ∧ win2_9.index t 1 = t.val / 32 :=
  (by decide +kernel : ∀ t : Fin grid2.N, win2_9.index t 0 = 0 ∧ win2_9.index t 1 = t.val / 32) t

/-- What the last step of row h writes back, entry by entry: the mean-field step at the sites of half h. -/
theorem flushed_entry2 (c : Dev nD) (t : Fin cfg2.N) (h1 : t.val % 32 = 31) (x : S21x4096.Idx) :
    (cfg2.win 9).cut (grid2.coords t) (outsAt2 V c t.val t.isLt).1 x
      = step2 V c (((cfg2.win 9).blk t).view.emb x) := by
  have hi := index2_9 t
  have ht : t.val < 64 := t.isLt
  have hx1 : (x 1).val < 4096 := (x 1).isLt
  show (outsAt2 V c t.val t.isLt).1 ((cfg2.win 9).xinj (grid2.coords t) x) = _
  rw [show (cfg2.win 9).xinj (grid2.coords t) x = x from funext fun a => Fin.ext rfl]
  have hx : x = ix2 (x 0) (x 1) := eq_ix2 x
  rw [hx]
  refine (out2_9_value V c t h1 (x 0) (x 1) ⟨4096 * (t.val / 32) + (x 1).val, by omega⟩ rfl).trans ?_
  show step2 V c _ = step2 V c _
  congr 1
  funext d
  apply Fin.ext
  match d with
  | ⟨0, _⟩ => show (x 0).val = win2_9.index t 0 * 21 + 1 * (x 0).val; rw [hi.1]; omega
  | ⟨1, _⟩ => show 4096 * (t.val / 32) + (x 1).val = win2_9.index t 1 * 4096 + 1 * (x 1).val; rw [hi.2]; omega

/-- Every write-back of the output's window writes its block of the mean-field step. -/
theorem flushed_eq2 (c : Dev nD) (t : Fin cfg2.N) (hf : (cfg2.win 9).flush t = true) :
    (dat2 V c).flushed 9 t = ((cfg2.win 9).blk t).view.read (Elt Ideal) (step2 V c) := by
  have h1 : t.val % 32 = 31 := (flush2_9 t).mp hf
  show (cfg2.win 9).cut (grid2.coords t) ((dat2 V c).after 9 t) = _
  rw [after2_9]
  funext x
  rw [View.read_apply]
  exact flushed_entry2 V c t h1 x

/-- The two write-backs cover the output array (columns below 4096 at point 31, the others at point 63), so it ends
    holding one mean-field step of the current scores. -/
theorem final2_9 (c : Dev nD) : (dat2 (F := Ideal) V c).arrAt 9 cfg2.N
    = meanFieldStep (ksp2 V c) (kbi2 V c) (nsp2 V c) (nbi2 V c) (un2 V c) (spw2 V c) (biw2 V c) (compat2 V c) (cur2 V c) :=
  (dat2 V c).arrAt_eq_of_cover 9 (step2 V c) (flushed_eq2 V c) fun i => by
    have hi1 : (i 1 : Nat) < 8192 := (i 1).isLt
    have hi0 : (i 0 : Nat) < 21 := (i 0).isLt
    obtain ⟨T, hT⟩ : ∃ T : Fin cfg2.N, T.val = 32 * ((i 1 : Nat) / 4096) + 31 :=
      ⟨⟨32 * ((i 1 : Nat) / 4096) + 31, by show _ < 64; omega⟩, rfl⟩
    have hi := index2_9 T
    refine ⟨T, (flush2_9 T).mpr (by rw [hT]; omega), ?_⟩
    show i ∈ ((View.whole main_v29).slice (win2_9.rect T)).set
    rw [View.set_slice_whole, Rect.mem_set_unit]
    intro a
    match a with
    | ⟨0, _⟩ =>
      show win2_9.index T 0 * 21 ≤ (i 0 : Nat) ∧ (i 0 : Nat) < win2_9.index T 0 * 21 + 21
      rw [hi.1]; omega
    | ⟨1, _⟩ =>
      show win2_9.index T 1 * 4096 ≤ (i 1 : Nat) ∧ (i 1 : Nat) < win2_9.index T 1 * 4096 + 4096
      rw [hi.2, hT]; omega

end Value

end Cert.KernelIdeal.Hand

end
-- ==== Proof.IdealR3Value.lean ====
/-
  Region 3 (the third mean-field iteration): the array its output window ends holding is one mean-field step of the
  current scores.

  The grid is 2 halves of the 8192 sites by 32 slabs of 256 contracted coordinates; point t is (t / 32, t mod 32).
  Three buffers are carried from point to point. At the first slab of a half the first is set to the softmax of the
  current scores over the 21 labels and the two accumulators are cleared; at every slab each accumulator gains the
  product of slab k of the first buffer (its columns 256 k … 256 k + 255) with the block (k, h) of an affinity array;
  at the last slab the message formed from the accumulators, the normalizers, the three 21 × 21 arrays and the unary
  scores is stored into the output's block, which is then written back to columns 4096 h … 4096 h + 4095.

  First each case's stores are read back as payloads of the point's blocks; then each window's block is read as
  entries of its array; then, by induction along the grid, after point 32 h + k the first carried buffer holds the
  softmax and the accumulators the first k + 1 groups of 256 terms of the entries of softmax · K at the sites of half
  h, so that after slab 31 they hold the whole sums (a sum over 32 · 256 coordinates regrouped) and the stored message
  is the mean-field step at that label and site; the two write-backs cover the output array.
-/
import proofs.«162179_j58609123721967_2_alg».proof.Proof.IdealR3Frame
import proofs.«162179_j58609123721967_2_alg».proof.Proof.IdealStepValue
import Idealize.ShloMosaic.Lib.Pipeline.Value
import Idealize.ShloMosaic.Lib.Tactic

set_option maxRecDepth 16384

open scoped BigOperators

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx
open Cert.ReferenceIdeal.RefValue Cert.KernelIdeal.StepValue

/-! ## What each case's stores leave, as the payloads of the point's blocks -/

section Pieces
variable {F : FTy → Type} [FloatOps F]

theorem hz3 : (![0, 0] : Fin 2 → Nat) = fun _ => 0 := funext fun a => by fin_cases a <;> rfl

/-- Slab k of a 21 × 8192 buffer: its columns 256 k … 256 k + 255, what the load at offsets (0, 256 k) reads (k the
    point's second grid coordinate). -/
abbrev slab3 (i : grid3.Coords) (X : Vec F S21x8192 .f32) : Vec F S21x256 .f32 :=
  View.ld X (Rect.unit (s := S21x8192) (k3_off1 i) S21x256.size (k3_off1_inb i))

/-- A middle step adds slab k's product with the first affinity block onto the first accumulator. -/
theorem sout3_B_1_eq (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : ¬cond3_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout3_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k3_pay5 (slab3 i xs0) xs1 x2 := by
  unfold sout3_B_1
  rw [View.read_writes_eq_canon _ _ _ (scover3_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun3_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz3, View.ld_unit_zero (S := S256x4096) hz3, View.ld_unit_zero (S := S21x8192) hz3, View.ld_unit_zero (S := S1x4096) hz3, View.ld_unit_zero (S := S21x21) hz3]
  rfl

/-- A middle step adds slab k's product with the second affinity block onto the second accumulator. -/
theorem sout3_B_2_eq (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : ¬cond3_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout3_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k3_pay6 (slab3 i xs0) xs2 x3 := by
  unfold sout3_B_2
  rw [View.read_writes_eq_canon _ _ _ (scover3_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun3_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz3, View.ld_unit_zero (S := S256x4096) hz3, View.ld_unit_zero (S := S21x8192) hz3, View.ld_unit_zero (S := S1x4096) hz3, View.ld_unit_zero (S := S21x21) hz3]
  rfl

/-- The last step does the same to the first accumulator, -/
theorem sout3_C_1_eq (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout3_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k3_pay5 (slab3 i xs0) xs1 x2 := by
  unfold sout3_C_1
  rw [View.read_writes_eq_canon _ _ _ (scover3_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun3_C
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz3, View.ld_unit_zero (S := S256x4096) hz3, View.ld_unit_zero (S := S21x8192) hz3, View.ld_unit_zero (S := S1x4096) hz3, View.ld_unit_zero (S := S21x21) hz3]
  rfl

/-- and to the second, -/
theorem sout3_C_2_eq (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout3_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k3_pay6 (slab3 i xs0) xs2 x3 := by
  unfold sout3_C_2
  rw [View.read_writes_eq_canon _ _ _ (scover3_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun3_C
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz3, View.ld_unit_zero (S := S256x4096) hz3, View.ld_unit_zero (S := S21x8192) hz3, View.ld_unit_zero (S := S1x4096) hz3, View.ld_unit_zero (S := S21x21) hz3]
  rfl

/-- and stores into the output's block the message formed from the two accumulators as it has just left them. -/
theorem out3_C_9_eq (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond3_0 i) (hc1 : cond3_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    out3_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2
      = k3_pay7 (k3_pay5 (slab3 i xs0) xs1 x2) x4 (k3_pay6 (slab3 i xs0) xs2 x3) x5 x6 x7 x8 x1 := by
  unfold out3_C_9
  rw [View.read_writes_eq_canon _ _ _ (cover3_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun3_C
  dsimp only
  try sl_unfold_words
  rw [View.canon_unit_zero hz3]
  simp only [View.readCov_unit_zero (S := S21x4096) _ hz3, View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz3, View.ld_unit_zero (S := S256x4096) hz3, View.ld_unit_zero (S := S21x8192) hz3, View.ld_unit_zero (S := S1x4096) hz3, View.ld_unit_zero (S := S21x21) hz3]
  rfl

/-- The first step of a row stores the softmax of the current scores into the first carried buffer, -/
theorem sout3_A_0_eq (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    sout3_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k3_pay1 x0 := by
  unfold sout3_A_0
  rw [View.read_writes_eq_canon _ _ _ (scover3_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun3_A
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz3, View.ld_unit_zero (S := S256x4096) hz3, View.ld_unit_zero (S := S21x8192) hz3, View.ld_unit_zero (S := S1x4096) hz3, View.ld_unit_zero (S := S21x21) hz3]

/-- clears the first accumulator and adds slab 0's product onto it, -/
theorem sout3_A_1_eq (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    sout3_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k3_pay5 (slab3 i (k3_pay1 x0)) k3_pay2 x2 := by
  unfold sout3_A_1
  rw [View.read_writes_eq_canon _ _ _ (scover3_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun3_A
  dsimp only
  try sl_unfold_words
  rw [View.canon_cons_unit_zero (S := S21x4096) hz3]
  simp only [View.readCov_unit_zero (S := S21x4096) _ hz3, View.readAt_eq_ld, View.read_writes_junk_eq_canon, View.canon_unit_zero (S := S21x8192) hz3, View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz3, View.ld_unit_zero (S := S256x4096) hz3, View.ld_unit_zero (S := S21x8192) hz3, View.ld_unit_zero (S := S1x4096) hz3, View.ld_unit_zero (S := S21x21) hz3]
  rfl

/-- and likewise the second. -/
theorem sout3_A_2_eq (c : Dev nD) (i : grid3.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond3_0 i) (hc1 : ¬cond3_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    sout3_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k3_pay6 (slab3 i (k3_pay1 x0)) k3_pay3 x3 := by
  unfold sout3_A_2
  rw [View.read_writes_eq_canon _ _ _ (scover3_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun3_A
  dsimp only
  try sl_unfold_words
  rw [View.canon_cons_unit_zero (S := S21x4096) hz3]
  simp only [View.readCov_unit_zero (S := S21x4096) _ hz3, View.readAt_eq_ld, View.read_writes_junk_eq_canon, View.canon_unit_zero (S := S21x8192) hz3, View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz3, View.ld_unit_zero (S := S256x4096) hz3, View.ld_unit_zero (S := S21x8192) hz3, View.ld_unit_zero (S := S1x4096) hz3, View.ld_unit_zero (S := S21x21) hz3]
  rfl

/-- The grid point t is (t / 32, t mod 32): the half of the sites, then the slab. -/
theorem coords3 (t : Fin cfg3.N) : ((grid3.coords t) 0).val = t.val / 32 ∧ ((grid3.coords t) 1).val = t.val % 32 :=
  (by decide +kernel : ∀ t : Fin grid3.N, ((grid3.coords t) 0).val = t.val / 32 ∧ ((grid3.coords t) 1).val = t.val % 32) t

/-- The slab's column offset, as the kernel computes it from the slab number k < 32, is 256 k. -/
theorem off3 (k : Fin 32) : (Scalar.indexCast (Scalar.muli (BitVec.ofNat 32 k.val) 256#32)).toNat = 256 * k.val := by
  revert k; decide +kernel

/-- Slab k of a buffer at (l, r) is the buffer at (l, 256 k + r). -/
theorem slab3_apply (i : grid3.Coords) (X : Vec F S21x8192 .f32) (l : Fin 21) (r : Fin 256) (J : Fin 8192)
    (hJ : J.val = 256 * (i 1).val + r.val) : slab3 i X (ix2 l r) = X (ix2 l J) := by
  show X _ = X _
  congr 1
  funext d
  apply Fin.ext
  match d with
  | ⟨0, _⟩ => show k3_off1 i 0 + 1 * l.val = l.val; show 0 + 1 * l.val = l.val; omega
  | ⟨1, _⟩ => show k3_off1 i 1 + 1 * r.val = J.val; rw [hJ]; show (Scalar.indexCast (Scalar.muli (BitVec.ofNat 32 (i 1).val) 256#32)).toNat + 1 * r.val = _; rw [off3 (i 1)]; omega

/-! ## The windows' blocks as entries of their arrays -/

variable (V : (c : Dev nD) → (b : Ref sig .tc) → Buf (Elt F) ((c : Thread nD τ).loc b))

/-- Window 0's block at point t, entry (a, b), is entry (21 · (0) + a, 8192 · (0) + b) of its array. -/
theorem iblk3_0_apply (c : Dev nD) (t : Fin cfg3.N) (a : Fin 21) (b : Fin 8192) (A : Fin 21) (B : Fin 8192)
    (hA : A.val = 21 * (0) + a.val) (hB : B.val = 8192 * (0) + b.val) :
    (iblk3 V c 0 t : Vec F S21x8192 .f32) (ix2 a b) = (V c main_v29 : S21x8192.Idx → Elt F .f32) (ix2 A B) := by
  have hi : win3_0.index t 0 = 0 ∧ win3_0.index t 1 = 0 :=
    (by decide +kernel : ∀ t : Fin grid3.N, win3_0.index t 0 = 0 ∧ win3_0.index t 1 = 0) t
  unfold iblk3
  rw [View.read_apply]
  show V c main_v29 _ = V c main_v29 _
  congr 1
  funext d
  apply Fin.ext
  match d with
  | ⟨0, _⟩ => show win3_0.index t 0 * 21 + 1 * a.val = A.val; rw [hi.1, hA]; omega
  | ⟨1, _⟩ => show win3_0.index t 1 * 8192 + 1 * b.val = B.val; rw [hi.2, hB]; omega

/-- Window 1's block at point t, entry (a, b), is entry (21 · (0) + a, 4096 · (t.val / 32) + b) of its array. -/
theorem iblk3_1_apply (c : Dev nD) (t : Fin cfg3.N) (a : Fin 21) (b : Fin 4096) (A : Fin 21) (B : Fin 8192)
    (hA : A.val = 21 * (0) + a.val) (hB : B.val = 4096 * (t.val / 32) + b.val) :
    (iblk3 V c 1 t : Vec F S21x4096 .f32) (ix2 a b) = (V c main_v27 : S21x8192.Idx → Elt F .f32) (ix2 A B) := by
  have hi : win3_1.index t 0 = 0 ∧ win3_1.index t 1 = t.val / 32 :=
    (by decide +kernel : ∀ t : Fin grid3.N, win3_1.index t 0 = 0 ∧ win3_1.index t 1 = t.val / 32) t
  unfold iblk3
  rw [View.read_apply]
  show V c main_v27 _ = V c main_v27 _
  congr 1
  funext d
  apply Fin.ext
  match d with
  | ⟨0, _⟩ => show win3_1.index t 0 * 21 + 1 * a.val = A.val; rw [hi.1, hA]; omega
  | ⟨1, _⟩ => show win3_1.index t 1 * 4096 + 1 * b.val = B.val; rw [hi.2, hB]; omega

/-- Window 2's block at point t, entry (a, b), is entry (256 · (t.val % 32) + a, 4096 · (t.val / 32) + b) of its array. -/
theorem iblk3_2_apply (c : Dev nD) (t : Fin cfg3.N) (a : Fin 256) (b : Fin 4096) (A : Fin 8192) (B : Fin 8192)
    (hA : A.val = 256 * (t.val % 32) + a.val) (hB : B.val = 4096 * (t.val / 32) + b.val) :
    (iblk3 V c 2 t : Vec F S256x4096 .bf16) (ix2 a b) = (V c main_v21_0 : S8192x8192.Idx → Elt F .bf16) (ix2 A B) := by
  have hi : win3_2.index t 0 = t.val % 32 ∧ win3_2.index t 1 = t.val / 32 :=
    (by decide +kernel : ∀ t : Fin grid3.N, win3_2.index t 0 = t.val % 32 ∧ win3_2.index t 1 = t.val / 32) t
  unfold iblk3
  rw [View.read_apply]
  show V c main_v21_0 _ = V c main_v21_0 _
  congr 1
  funext d
  apply Fin.ext
  match d with
  | ⟨0, _⟩ => show win3_2.index t 0 * 256 + 1 * a.val = A.val; rw [hi.1, hA]; omega
  | ⟨1, _⟩ => show win3_2.index t 1 * 4096 + 1 * b.val = B.val; rw [hi.2, hB]; omega

/-- Window 3's block at point t, entry (a, b), is entry (256 · (t.val % 32) + a, 4096 · (t.val / 32) + b) of its array. -/
theorem iblk3_3_apply (c : Dev nD) (t : Fin cfg3.N) (a : Fin 256) (b : Fin 4096) (A : Fin 8192) (B : Fin 8192)
    (hA : A.val = 256 * (t.val % 32) + a.val) (hB : B.val = 4096 * (t.val / 32) + b.val) :
    (iblk3 V c 3 t : Vec F S256x4096 .bf16) (ix2 a b) = (V c main_v21_1 : S8192x8192.Idx → Elt F .bf16) (ix2 A B) := by
  have hi : win3_3.index t 0 = t.val % 32 ∧ win3_3.index t 1 = t.val / 32 :=
    (by decide +kernel : ∀ t : Fin grid3.N, win3_3.index t 0 = t.val % 32 ∧ win3_3.index t 1 = t.val / 32) t
  unfold iblk3
  rw [View.read_apply]
  show V c main_v21_1 _ = V c main_v21_1 _
  congr 1
  funext d
  apply Fin.ext
  match d with
  | ⟨0, _⟩ => show win3_3.index t 0 * 256 + 1 * a.val = A.val; rw [hi.1, hA]; omega
  | ⟨1, _⟩ => show win3_3.index t 1 * 4096 + 1 * b.val = B.val; rw [hi.2, hB]; omega

/-- Window 4's block at point t, entry (a, b), is entry (1 · (0) + a, 4096 · (t.val / 32) + b) of its array. -/
theorem iblk3_4_apply (c : Dev nD) (t : Fin cfg3.N) (a : Fin 1) (b : Fin 4096) (A : Fin 1) (B : Fin 8192)
    (hA : A.val = 1 * (0) + a.val) (hB : B.val = 4096 * (t.val / 32) + b.val) :
    (iblk3 V c 4 t : Vec F S1x4096 .f32) (ix2 a b) = (V c main_v22 : S1x8192.Idx → Elt F .f32) (ix2 A B) := by
  have hi : win3_4.index t 0 = 0 ∧ win3_4.index t 1 = t.val / 32 :=
    (by decide +kernel : ∀ t : Fin grid3.N, win3_4.index t 0 = 0 ∧ win3_4.index t 1 = t.val / 32) t
  unfold iblk3
  rw [View.read_apply]
  show V c main_v22 _ = V c main_v22 _
  congr 1
  funext d
  apply Fin.ext
  match d with
  | ⟨0, _⟩ => show win3_4.index t 0 * 1 + 1 * a.val = A.val; rw [hi.1, hA]; omega
  | ⟨1, _⟩ => show win3_4.index t 1 * 4096 + 1 * b.val = B.val; rw [hi.2, hB]; omega

/-- Window 5's block at point t, entry (a, b), is entry (1 · (0) + a, 4096 · (t.val / 32) + b) of its array. -/
theorem iblk3_5_apply (c : Dev nD) (t : Fin cfg3.N) (a : Fin 1) (b : Fin 4096) (A : Fin 1) (B : Fin 8192)
    (hA : A.val = 1 * (0) + a.val) (hB : B.val = 4096 * (t.val / 32) + b.val) :
    (iblk3 V c 5 t : Vec F S1x4096 .f32) (ix2 a b) = (V c main_v23 : S1x8192.Idx → Elt F .f32) (ix2 A B) := by
  have hi : win3_5.index t 0 = 0 ∧ win3_5.index t 1 = t.val / 32 :=
    (by decide +kernel : ∀ t : Fin grid3.N, win3_5.index t 0 = 0 ∧ win3_5.index t 1 = t.val / 32) t
  unfold iblk3
  rw [View.read_apply]
  show V c main_v23 _ = V c main_v23 _
  congr 1
  funext d
  apply Fin.ext
  match d with
  | ⟨0, _⟩ => show win3_5.index t 0 * 1 + 1 * a.val = A.val; rw [hi.1, hA]; omega
  | ⟨1, _⟩ => show win3_5.index t 1 * 4096 + 1 * b.val = B.val; rw [hi.2, hB]; omega

/-- Window 6's block at point t, entry (a, b), is entry (21 · (0) + a, 21 · (0) + b) of its array. -/
theorem iblk3_6_apply (c : Dev nD) (t : Fin cfg3.N) (a : Fin 21) (b : Fin 21) (A : Fin 21) (B : Fin 21)
    (hA : A.val = 21 * (0) + a.val) (hB : B.val = 21 * (0) + b.val) :
    (iblk3 V c 6 t : Vec F S21x21 .f32) (ix2 a b) = (V c main_arg3 : S21x21.Idx → Elt F .f32) (ix2 A B) := by
  have hi : win3_6.index t 0 = 0 ∧ win3_6.index t 1 = 0 :=
    (by decide +kernel : ∀ t : Fin grid3.N, win3_6.index t 0 = 0 ∧ win3_6.index t 1 = 0) t
  unfold iblk3
  rw [View.read_apply]
  show V c main_arg3 _ = V c main_arg3 _
  congr 1
  funext d
  apply Fin.ext
  match d with
  | ⟨0, _⟩ => show win3_6.index t 0 * 21 + 1 * a.val = A.val; rw [hi.1, hA]; omega
  | ⟨1, _⟩ => show win3_6.index t 1 * 21 + 1 * b.val = B.val; rw [hi.2, hB]; omega

/-- Window 7's block at point t, entry (a, b), is entry (21 · (0) + a, 21 · (0) + b) of its array. -/
theorem iblk3_7_apply (c : Dev nD) (t : Fin cfg3.N) (a : Fin 21) (b : Fin 21) (A : Fin 21) (B : Fin 21)
    (hA : A.val = 21 * (0) + a.val) (hB : B.val = 21 * (0) + b.val) :
    (iblk3 V c 7 t : Vec F S21x21 .f32) (ix2 a b) = (V c main_arg4 : S21x21.Idx → Elt F .f32) (ix2 A B) := by
  have hi : win3_7.index t 0 = 0 ∧ win3_7.index t 1 = 0 :=
    (by decide +kernel : ∀ t : Fin grid3.N, win3_7.index t 0 = 0 ∧ win3_7.index t 1 = 0) t
  unfold iblk3
  rw [View.read_apply]
  show V c main_arg4 _ = V c main_arg4 _
  congr 1
  funext d
  apply Fin.ext
  match d with
  | ⟨0, _⟩ => show win3_7.index t 0 * 21 + 1 * a.val = A.val; rw [hi.1, hA]; omega
  | ⟨1, _⟩ => show win3_7.index t 1 * 21 + 1 * b.val = B.val; rw [hi.2, hB]; omega

/-- Window 8's block at point t, entry (a, b), is entry (21 · (0) + a, 21 · (0) + b) of its array. -/
theorem iblk3_8_apply (c : Dev nD) (t : Fin cfg3.N) (a : Fin 21) (b : Fin 21) (A : Fin 21) (B : Fin 21)
    (hA : A.val = 21 * (0) + a.val) (hB : B.val = 21 * (0) + b.val) :
    (iblk3 V c 8 t : Vec F S21x21 .f32) (ix2 a b) = (V c main_arg5 : S21x21.Idx → Elt F .f32) (ix2 A B) := by
  have hi : win3_8.index t 0 = 0 ∧ win3_8.index t 1 = 0 :=
    (by decide +kernel : ∀ t : Fin grid3.N, win3_8.index t 0 = 0 ∧ win3_8.index t 1 = 0) t
  unfold iblk3
  rw [View.read_apply]
  show V c main_arg5 _ = V c main_arg5 _
  congr 1
  funext d
  apply Fin.ext
  match d with
  | ⟨0, _⟩ => show win3_8.index t 0 * 21 + 1 * a.val = A.val; rw [hi.1, hA]; omega
  | ⟨1, _⟩ => show win3_8.index t 1 * 21 + 1 * b.val = B.val; rw [hi.2, hB]; omega

/-- At the last step of a row the output's block is the message of the accumulators the step has just left. -/
theorem out3_at_C (c : Dev nD) (t : Fin cfg3.N) (h0 : ¬t.val % 32 = 0) (h1 : t.val % 32 = 31) :
    (outsAt3 V c t.val t.isLt).1
      = k3_pay7 (outsAt3 V c t.val t.isLt).2.2.1 (iblk3 V c 4 t) (outsAt3 V c t.val t.isLt).2.2.2 (iblk3 V c 5 t)
          (iblk3 V c 6 t) (iblk3 V c 7 t) (iblk3 V c 8 t) (iblk3 V c 1 t) := by
  rw [outsAt3_C V c t h0 h1]
  dsimp only
  rw [out3_C_9_eq, sout3_C_1_eq, sout3_C_2_eq]

end Pieces

/-! ## The carried buffers point by point, on the extended reals -/

section Value
variable (V : (c : Dev nD) → (b : Ref sig .tc) → Buf (Elt Ideal) ((c : Thread nD τ).loc b))

/-- The region's arrays as it finds them: the current scores, the two affinity arrays, their normalizers (one row
    each), the unary scores and the three 21 × 21 arrays. -/
abbrev cur3 (c : Dev nD) : Mat 21 8192 := (V c main_v29 : S21x8192.Idx → Elt Ideal .f32)
abbrev ksp3 (c : Dev nD) : Mat 8192 8192 := (V c main_v21_0 : S8192x8192.Idx → Elt Ideal .bf16)
abbrev kbi3 (c : Dev nD) : Mat 8192 8192 := (V c main_v21_1 : S8192x8192.Idx → Elt Ideal .bf16)
abbrev nsp3 (c : Dev nD) : Fin 8192 → EReal := fun n => (V c main_v22 : S1x8192.Idx → Elt Ideal .f32) (ix2 0 n)
abbrev nbi3 (c : Dev nD) : Fin 8192 → EReal := fun n => (V c main_v23 : S1x8192.Idx → Elt Ideal .f32) (ix2 0 n)
abbrev un3 (c : Dev nD) : Mat 21 8192 := (V c main_v27 : S21x8192.Idx → Elt Ideal .f32)
abbrev spw3 (c : Dev nD) : Mat 21 21 := (V c main_arg3 : S21x21.Idx → Elt Ideal .f32)
abbrev biw3 (c : Dev nD) : Mat 21 21 := (V c main_arg4 : S21x21.Idx → Elt Ideal .f32)
abbrev compat3 (c : Dev nD) : Mat 21 21 := (V c main_arg5 : S21x21.Idx → Elt Ideal .f32)

/-- The first step of a row leaves the softmax of the current scores in the first carried buffer and the first
    group of 256 terms in each accumulator. -/
theorem carried3_A (c : Dev nD) (t : Fin cfg3.N) (h0 : t.val % 32 = 0) :
    CarriedAt (cur3 V c) (ksp3 V c) (kbi3 V c) (t.val / 32) (0)
      (outsAt3 V c t.val t.isLt).2.1 (outsAt3 V c t.val t.isLt).2.2.1 (outsAt3 V c t.val t.isLt).2.2.2 := by
  have h1 : ¬t.val % 32 = 31 := by omega
  have hco := coords3 t
  rw [outsAt3_A V c t h0 h1]
  dsimp only
  refine carried_step (cur3 V c) (ksp3 V c) (kbi3 V c) (t.val / 32) 0 (by omega) _ ?hs0
    (k3_pay2 (F := Ideal)) (k3_pay3 (F := Ideal)) ?ha1 ?ha2
    (slab3 (grid3.coords t) (k3_pay1 (iblk3 V c 0 t : Vec Ideal S21x8192 .f32))) ?hqb
    (iblk3 V c 2 t : Vec Ideal S256x4096 .bf16) (iblk3 V c 3 t : Vec Ideal S256x4096 .bf16) ?hK2 ?hK3 _ _ ?hsA ?hsB
  case hs0 =>
    intro l j
    rw [sout3_A_0_eq]
    refine (softmax_payload_apply _ l j).trans ?_
    exact softmaxCol_block (b := 8192) (iblk3 V c 0 t : Vec Ideal S21x8192 .f32) (cur3 V c) l j j
      fun k => iblk3_0_apply V c t k j k j (by omega) (by omega)
  case ha1 => intro l col N _; exact (clear_payload_apply _).trans (groupSum_zero _ _ _ _).symm
  case ha2 => intro l col N _; exact (clear_payload_apply' _).trans (groupSum_zero _ _ _ _).symm
  case hqb =>
    intro l r J hJ
    rw [sout3_A_0_eq]
    exact slab3_apply (grid3.coords t) _ l r J (by rw [hJ, hco.2, h0])
  case hK2 => intro r col R C hR hC; exact iblk3_2_apply V c t r col R C (by rw [hR, h0]) hC
  case hK3 => intro r col R C hR hC; exact iblk3_3_apply V c t r col R C (by rw [hR, h0]) hC
  case hsA => intro l col; rw [sout3_A_1_eq]; exact accum_payload_apply _ _ _ l col
  case hsB => intro l col; rw [sout3_A_2_eq]; exact accum_payload_apply' _ _ _ l col

/-- A middle step keeps the first carried buffer and adds its slab's group of 256 terms to each accumulator. -/
theorem carried3_B (c : Dev nD) (t : Fin cfg3.N) (h0 : ¬t.val % 32 = 0) (h1 : ¬t.val % 32 = 31)
    (ih : CarriedAt (cur3 V c) (ksp3 V c) (kbi3 V c) ((t.val - 1) / 32) ((t.val - 1) % 32)
      (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) :
    CarriedAt (cur3 V c) (ksp3 V c) (kbi3 V c) (t.val / 32) (t.val % 32)
      (outsAt3 V c t.val t.isLt).2.1 (outsAt3 V c t.val t.isLt).2.2.1 (outsAt3 V c t.val t.isLt).2.2.2 := by
  have hco := coords3 t
  have e1 : (t.val - 1) / 32 = t.val / 32 := by omega
  have e2 : (t.val - 1) % 32 + 1 = t.val % 32 := by omega
  obtain ⟨ih0, ih1, ih2⟩ := ih
  rw [e1, e2] at ih1 ih2
  rw [outsAt3_B V c t h0 h1]
  dsimp only
  refine carried_step (cur3 V c) (ksp3 V c) (kbi3 V c) (t.val / 32) (t.val % 32) (Nat.mod_lt _ (by decide)) _ ih0
    (outsAt3 V c (t.val - 1) (Nat.lt_of_le_of_lt (Nat.sub_le _ _) t.isLt)).2.2.1 (outsAt3 V c (t.val - 1) (Nat.lt_of_le_of_lt (Nat.sub_le _ _) t.isLt)).2.2.2 ih1 ih2
    (slab3 (grid3.coords t) (outsAt3 V c (t.val - 1) (Nat.lt_of_le_of_lt (Nat.sub_le _ _) t.isLt)).2.1) ?hqb
    (iblk3 V c 2 t : Vec Ideal S256x4096 .bf16) (iblk3 V c 3 t : Vec Ideal S256x4096 .bf16) ?hK2 ?hK3 _ _ ?hsA ?hsB
  case hqb =>
    intro l r J hJ
    exact slab3_apply (grid3.coords t) _ l r J (by rw [hJ, hco.2])
  case hK2 => intro r col R C hR hC; exact iblk3_2_apply V c t r col R C hR hC
  case hK3 => intro r col R C hR hC; exact iblk3_3_apply V c t r col R C hR hC
  case hsA => intro l col; rw [sout3_B_1_eq]; exact accum_payload_apply _ _ _ l col
  case hsB => intro l col; rw [sout3_B_2_eq]; exact accum_payload_apply' _ _ _ l col

/-- So does the last step. -/
theorem carried3_C (c : Dev nD) (t : Fin cfg3.N) (h0 : ¬t.val % 32 = 0) (h1 : t.val % 32 = 31)
    (ih : CarriedAt (cur3 V c) (ksp3 V c) (kbi3 V c) ((t.val - 1) / 32) ((t.val - 1) % 32)
      (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) :
    CarriedAt (cur3 V c) (ksp3 V c) (kbi3 V c) (t.val / 32) (t.val % 32)
      (outsAt3 V c t.val t.isLt).2.1 (outsAt3 V c t.val t.isLt).2.2.1 (outsAt3 V c t.val t.isLt).2.2.2 := by
  have hco := coords3 t
  have e1 : (t.val - 1) / 32 = t.val / 32 := by omega
  have e2 : (t.val - 1) % 32 + 1 = t.val % 32 := by omega
  obtain ⟨ih0, ih1, ih2⟩ := ih
  rw [e1, e2] at ih1 ih2
  rw [outsAt3_C V c t h0 h1]
  dsimp only
  refine carried_step (cur3 V c) (ksp3 V c) (kbi3 V c) (t.val / 32) (t.val % 32) (Nat.mod_lt _ (by decide)) _ ih0
    (outsAt3 V c (t.val - 1) (Nat.lt_of_le_of_lt (Nat.sub_le _ _) t.isLt)).2.2.1 (outsAt3 V c (t.val - 1) (Nat.lt_of_le_of_lt (Nat.sub_le _ _) t.isLt)).2.2.2 ih1 ih2
    (slab3 (grid3.coords t) (outsAt3 V c (t.val - 1) (Nat.lt_of_le_of_lt (Nat.sub_le _ _) t.isLt)).2.1) ?hqb
    (iblk3 V c 2 t : Vec Ideal S256x4096 .bf16) (iblk3 V c 3 t : Vec Ideal S256x4096 .bf16) ?hK2 ?hK3 _ _ ?hsA ?hsB
  case hqb =>
    intro l r J hJ
    exact slab3_apply (grid3.coords t) _ l r J (by rw [hJ, hco.2])
  case hK2 => intro r col R C hR hC; exact iblk3_2_apply V c t r col R C hR hC
  case hK3 => intro r col R C hR hC; exact iblk3_3_apply V c t r col R C hR hC
  case hsA => intro l col; rw [sout3_C_1_eq]; exact accum_payload_apply _ _ _ l col
  case hsB => intro l col; rw [sout3_C_2_eq]; exact accum_payload_apply' _ _ _ l col

/-- After the point n = 32 h + k the first carried buffer holds the softmax of the current scores and the
    accumulators the first k + 1 groups of 256 terms of the products' entries at the sites of half h: by induction
    along the grid. -/
theorem carried3 (c : Dev nD) : ∀ (n : ℕ) (hn : n < cfg3.N),
    CarriedAt (cur3 V c) (ksp3 V c) (kbi3 V c) (n / 32) (n % 32)
      (outsAt3 V c n hn).2.1 (outsAt3 V c n hn).2.2.1 (outsAt3 V c n hn).2.2.2
  | 0, hn => carried3_A V c ⟨0, hn⟩ rfl
  | n + 1, hn => by
    by_cases h0 : (n + 1) % 32 = 0
    · have h := carried3_A V c ⟨n + 1, hn⟩ h0
      rw [h0]; exact h
    · by_cases h1 : (n + 1) % 32 = 31
      · exact carried3_C V c ⟨n + 1, hn⟩ h0 h1 (carried3 c n (Nat.lt_of_succ_lt hn))
      · exact carried3_B V c ⟨n + 1, hn⟩ h0 h1 (carried3 c n (Nat.lt_of_succ_lt hn))

/-- One mean-field step of the region's arrays. -/
abbrev step3 (c : Dev nD) : Mat 21 8192 :=
  meanFieldStep (ksp3 V c) (kbi3 V c) (nsp3 V c) (nbi3 V c) (un3 V c) (spw3 V c) (biw3 V c) (compat3 V c) (cur3 V c)

/-- At the last step of row h the output's block holds, at (l, col), the mean-field step at label l and site
    4096 h + col. -/
theorem out3_9_value (c : Dev nD) (t : Fin cfg3.N) (h1 : t.val % 32 = 31) (l : Fin 21) (col : Fin 4096) (N : Fin 8192)
    (hN : N.val = 4096 * (t.val / 32) + col.val) :
    (outsAt3 V c t.val t.isLt).1 (ix2 l col) = step3 V c (ix2 l N) := by
  have h0 : ¬t.val % 32 = 0 := by omega
  have hc := carried3 V c t.val t.isLt
  rw [h1] at hc
  rw [out3_at_C V c t h0 h1]
  refine (message_payload_apply _ _ _ _ _ _ _ _ l col).trans ?_
  exact message_value (cur3 V c) (ksp3 V c) (kbi3 V c) (nsp3 V c) (nbi3 V c) (un3 V c) (spw3 V c) (biw3 V c) (compat3 V c)
    (t.val / 32) _ _ _ hc
    (iblk3 V c 1 t : Vec Ideal S21x4096 .f32) (iblk3 V c 4 t : Vec Ideal S1x4096 .f32) (iblk3 V c 5 t : Vec Ideal S1x4096 .f32)
    (iblk3 V c 6 t : Vec Ideal S21x21 .f32) (iblk3 V c 7 t : Vec Ideal S21x21 .f32) (iblk3 V c 8 t : Vec Ideal S21x21 .f32)
    (fun l col N hN => iblk3_1_apply V c t l col l N (by omega) hN)
    (fun col N hN => iblk3_4_apply V c t 0 col 0 N (by decide) hN)
    (fun col N hN => iblk3_5_apply V c t 0 col 0 N (by decide) hN)
    (fun p q => iblk3_6_apply V c t p q p q (by omega) (by omega))
    (fun p q => iblk3_7_apply V c t p q p q (by omega) (by omega))
    (fun p q => iblk3_8_apply V c t p q p q (by omega) (by omega))
    l col N hN

/-- The output's block index at point t is (0, t / 32). -/
theorem index3_9 (t : Fin cfg3.N) : win3_9.index t 0 = 0 ∧ win3_9.index t 1 = t.val / 32 :=
  (by decide +kernel : ∀ t : Fin grid3.N, win3_9.index t 0 = 0 ∧ win3_9.index t 1 = t.val / 32) t

/-- What the last step of row h writes back, entry by entry: the mean-field step at the sites of half h. -/
theorem flushed_entry3 (c : Dev nD) (t : Fin cfg3.N) (h1 : t.val % 32 = 31) (x : S21x4096.Idx) :
    (cfg3.win 9).cut (grid3.coords t) (outsAt3 V c t.val t.isLt).1 x
      = step3 V c (((cfg3.win 9).blk t).view.emb x) := by
  have hi := index3_9 t
  have ht : t.val < 64 := t.isLt
  have hx1 : (x 1).val < 4096 := (x 1).isLt
  show (outsAt3 V c t.val t.isLt).1 ((cfg3.win 9).xinj (grid3.coords t) x) = _
  rw [show (cfg3.win 9).xinj (grid3.coords t) x = x from funext fun a => Fin.ext rfl]
  have hx : x = ix2 (x 0) (x 1) := eq_ix2 x
  rw [hx]
  refine (out3_9_value V c t h1 (x 0) (x 1) ⟨4096 * (t.val / 32) + (x 1).val, by omega⟩ rfl).trans ?_
  show step3 V c _ = step3 V c _
  congr 1
  funext d
  apply Fin.ext
  match d with
  | ⟨0, _⟩ => show (x 0).val = win3_9.index t 0 * 21 + 1 * (x 0).val; rw [hi.1]; omega
  | ⟨1, _⟩ => show 4096 * (t.val / 32) + (x 1).val = win3_9.index t 1 * 4096 + 1 * (x 1).val; rw [hi.2]; omega

/-- Every write-back of the output's window writes its block of the mean-field step. -/
theorem flushed_eq3 (c : Dev nD) (t : Fin cfg3.N) (hf : (cfg3.win 9).flush t = true) :
    (dat3 V c).flushed 9 t = ((cfg3.win 9).blk t).view.read (Elt Ideal) (step3 V c) := by
  have h1 : t.val % 32 = 31 := (flush3_9 t).mp hf
  show (cfg3.win 9).cut (grid3.coords t) ((dat3 V c).after 9 t) = _
  rw [after3_9]
  funext x
  rw [View.read_apply]
  exact flushed_entry3 V c t h1 x

/-- The two write-backs cover the output array (columns below 4096 at point 31, the others at point 63), so it ends
    holding one mean-field step of the current scores. -/
theorem final3_9 (c : Dev nD) : (dat3 (F := Ideal) V c).arrAt 9 cfg3.N
    = meanFieldStep (ksp3 V c) (kbi3 V c) (nsp3 V c) (nbi3 V c) (un3 V c) (spw3 V c) (biw3 V c) (compat3 V c) (cur3 V c) :=
  (dat3 V c).arrAt_eq_of_cover 9 (step3 V c) (flushed_eq3 V c) fun i => by
    have hi1 : (i 1 : Nat) < 8192 := (i 1).isLt
    have hi0 : (i 0 : Nat) < 21 := (i 0).isLt
    obtain ⟨T, hT⟩ : ∃ T : Fin cfg3.N, T.val = 32 * ((i 1 : Nat) / 4096) + 31 :=
      ⟨⟨32 * ((i 1 : Nat) / 4096) + 31, by show _ < 64; omega⟩, rfl⟩
    have hi := index3_9 T
    refine ⟨T, (flush3_9 T).mpr (by rw [hT]; omega), ?_⟩
    show i ∈ ((View.whole main_v30).slice (win3_9.rect T)).set
    rw [View.set_slice_whole, Rect.mem_set_unit]
    intro a
    match a with
    | ⟨0, _⟩ =>
      show win3_9.index T 0 * 21 ≤ (i 0 : Nat) ∧ (i 0 : Nat) < win3_9.index T 0 * 21 + 21
      rw [hi.1]; omega
    | ⟨1, _⟩ =>
      show win3_9.index T 1 * 4096 ≤ (i 1 : Nat) ∧ (i 1 : Nat) < win3_9.index T 1 * 4096 + 4096
      rw [hi.2, hT]; omega

end Value

end Cert.KernelIdeal.Hand

end
-- ==== Proof.IdealR4Value.lean ====
/-
  Region 4 (the fourth mean-field iteration): the array its output window ends holding is one mean-field step of the
  current scores.

  The grid is 2 halves of the 8192 sites by 32 slabs of 256 contracted coordinates; point t is (t / 32, t mod 32).
  Three buffers are carried from point to point. At the first slab of a half the first is set to the softmax of the
  current scores over the 21 labels and the two accumulators are cleared; at every slab each accumulator gains the
  product of slab k of the first buffer (its columns 256 k … 256 k + 255) with the block (k, h) of an affinity array;
  at the last slab the message formed from the accumulators, the normalizers, the three 21 × 21 arrays and the unary
  scores is stored into the output's block, which is then written back to columns 4096 h … 4096 h + 4095.

  First each case's stores are read back as payloads of the point's blocks; then each window's block is read as
  entries of its array; then, by induction along the grid, after point 32 h + k the first carried buffer holds the
  softmax and the accumulators the first k + 1 groups of 256 terms of the entries of softmax · K at the sites of half
  h, so that after slab 31 they hold the whole sums (a sum over 32 · 256 coordinates regrouped) and the stored message
  is the mean-field step at that label and site; the two write-backs cover the output array.
-/
import proofs.«162179_j58609123721967_2_alg».proof.Proof.IdealR4Frame
import proofs.«162179_j58609123721967_2_alg».proof.Proof.IdealStepValue
import Idealize.ShloMosaic.Lib.Pipeline.Value
import Idealize.ShloMosaic.Lib.Tactic

set_option maxRecDepth 16384

open scoped BigOperators

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx
open Cert.ReferenceIdeal.RefValue Cert.KernelIdeal.StepValue

/-! ## What each case's stores leave, as the payloads of the point's blocks -/

section Pieces
variable {F : FTy → Type} [FloatOps F]

theorem hz4 : (![0, 0] : Fin 2 → Nat) = fun _ => 0 := funext fun a => by fin_cases a <;> rfl

/-- Slab k of a 21 × 8192 buffer: its columns 256 k … 256 k + 255, what the load at offsets (0, 256 k) reads (k the
    point's second grid coordinate). -/
abbrev slab4 (i : grid4.Coords) (X : Vec F S21x8192 .f32) : Vec F S21x256 .f32 :=
  View.ld X (Rect.unit (s := S21x8192) (k4_off1 i) S21x256.size (k4_off1_inb i))

/-- A middle step adds slab k's product with the first affinity block onto the first accumulator. -/
theorem sout4_B_1_eq (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : ¬cond4_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout4_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k4_pay5 (slab4 i xs0) xs1 x2 := by
  unfold sout4_B_1
  rw [View.read_writes_eq_canon _ _ _ (scover4_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun4_B
  dsimp only
  try sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz4, View.ld_unit_zero (S := S256x4096) hz4, View.ld_unit_zero (S := S21x8192) hz4, View.ld_unit_zero (S := S1x4096) hz4, View.ld_unit_zero (S := S21x21) hz4]
  rfl

/-- A middle step adds slab k's product with the second affinity block onto the second accumulator. -/
theorem sout4_B_2_eq (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : ¬cond4_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout4_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k4_pay6 (slab4 i xs0) xs2 x3 := by
  unfold sout4_B_2
  rw [View.read_writes_eq_canon _ _ _ (scover4_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun4_B
  dsimp only
  try sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz4, View.ld_unit_zero (S := S256x4096) hz4, View.ld_unit_zero (S := S21x8192) hz4, View.ld_unit_zero (S := S1x4096) hz4, View.ld_unit_zero (S := S21x21) hz4]
  rfl

/-- The last step does the same to the first accumulator, -/
theorem sout4_C_1_eq (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout4_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k4_pay5 (slab4 i xs0) xs1 x2 := by
  unfold sout4_C_1
  rw [View.read_writes_eq_canon _ _ _ (scover4_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun4_C
  dsimp only
  try sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz4, View.ld_unit_zero (S := S256x4096) hz4, View.ld_unit_zero (S := S21x8192) hz4, View.ld_unit_zero (S := S1x4096) hz4, View.ld_unit_zero (S := S21x21) hz4]
  rfl

/-- and to the second, -/
theorem sout4_C_2_eq (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout4_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k4_pay6 (slab4 i xs0) xs2 x3 := by
  unfold sout4_C_2
  rw [View.read_writes_eq_canon _ _ _ (scover4_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun4_C
  dsimp only
  try sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz4, View.ld_unit_zero (S := S256x4096) hz4, View.ld_unit_zero (S := S21x8192) hz4, View.ld_unit_zero (S := S1x4096) hz4, View.ld_unit_zero (S := S21x21) hz4]
  rfl

/-- and stores into the output's block the message formed from the two accumulators as it has just left them. -/
theorem out4_C_9_eq (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond4_0 i) (hc1 : cond4_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    out4_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2
      = k4_pay7 (k4_pay5 (slab4 i xs0) xs1 x2) x4 (k4_pay6 (slab4 i xs0) xs2 x3) x5 x6 x7 x8 x1 := by
  unfold out4_C_9
  rw [View.read_writes_eq_canon _ _ _ (cover4_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun4_C
  dsimp only
  try sl_unfold_words
  rw [View.canon_unit_zero hz4]
  simp only [View.readCov_unit_zero (S := S21x4096) _ hz4, View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz4, View.ld_unit_zero (S := S256x4096) hz4, View.ld_unit_zero (S := S21x8192) hz4, View.ld_unit_zero (S := S1x4096) hz4, View.ld_unit_zero (S := S21x21) hz4]
  rfl

/-- The first step of a row stores the softmax of the current scores into the first carried buffer, -/
theorem sout4_A_0_eq (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    sout4_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k4_pay1 x0 := by
  unfold sout4_A_0
  rw [View.read_writes_eq_canon _ _ _ (scover4_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun4_A
  dsimp only
  try sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz4, View.ld_unit_zero (S := S256x4096) hz4, View.ld_unit_zero (S := S21x8192) hz4, View.ld_unit_zero (S := S1x4096) hz4, View.ld_unit_zero (S := S21x21) hz4]

/-- clears the first accumulator and adds slab 0's product onto it, -/
theorem sout4_A_1_eq (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    sout4_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k4_pay5 (slab4 i (k4_pay1 x0)) k4_pay2 x2 := by
  unfold sout4_A_1
  rw [View.read_writes_eq_canon _ _ _ (scover4_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun4_A
  dsimp only
  try sl_unfold_words
  rw [View.canon_cons_unit_zero (S := S21x4096) hz4]
  simp only [View.readCov_unit_zero (S := S21x4096) _ hz4, View.readAt_eq_ld, View.read_writes_junk_eq_canon, View.canon_unit_zero (S := S21x8192) hz4, View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz4, View.ld_unit_zero (S := S256x4096) hz4, View.ld_unit_zero (S := S21x8192) hz4, View.ld_unit_zero (S := S1x4096) hz4, View.ld_unit_zero (S := S21x21) hz4]
  rfl

/-- and likewise the second. -/
theorem sout4_A_2_eq (c : Dev nD) (i : grid4.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond4_0 i) (hc1 : ¬cond4_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    sout4_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k4_pay6 (slab4 i (k4_pay1 x0)) k4_pay3 x3 := by
  unfold sout4_A_2
  rw [View.read_writes_eq_canon _ _ _ (scover4_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun4_A
  dsimp only
  try sl_unfold_words
  rw [View.canon_cons_unit_zero (S := S21x4096) hz4]
  simp only [View.readCov_unit_zero (S := S21x4096) _ hz4, View.readAt_eq_ld, View.read_writes_junk_eq_canon, View.canon_unit_zero (S := S21x8192) hz4, View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz4, View.ld_unit_zero (S := S256x4096) hz4, View.ld_unit_zero (S := S21x8192) hz4, View.ld_unit_zero (S := S1x4096) hz4, View.ld_unit_zero (S := S21x21) hz4]
  rfl

/-- The grid point t is (t / 32, t mod 32): the half of the sites, then the slab. -/
theorem coords4 (t : Fin cfg4.N) : ((grid4.coords t) 0).val = t.val / 32 ∧ ((grid4.coords t) 1).val = t.val % 32 :=
  (by decide +kernel : ∀ t : Fin grid4.N, ((grid4.coords t) 0).val = t.val / 32 ∧ ((grid4.coords t) 1).val = t.val % 32) t

/-- The slab's column offset, as the kernel computes it from the slab number k < 32, is 256 k. -/
theorem off4 (k : Fin 32) : (Scalar.indexCast (Scalar.muli (BitVec.ofNat 32 k.val) 256#32)).toNat = 256 * k.val := by
  revert k; decide +kernel

/-- Slab k of a buffer at (l, r) is the buffer at (l, 256 k + r). -/
theorem slab4_apply (i : grid4.Coords) (X : Vec F S21x8192 .f32) (l : Fin 21) (r : Fin 256) (J : Fin 8192)
    (hJ : J.val = 256 * (i 1).val + r.val) : slab4 i X (ix2 l r) = X (ix2 l J) := by
  show X _ = X _
  congr 1
  funext d
  apply Fin.ext
  match d with
  | ⟨0, _⟩ => show k4_off1 i 0 + 1 * l.val = l.val; show 0 + 1 * l.val = l.val; omega
  | ⟨1, _⟩ => show k4_off1 i 1 + 1 * r.val = J.val; rw [hJ]; show (Scalar.indexCast (Scalar.muli (BitVec.ofNat 32 (i 1).val) 256#32)).toNat + 1 * r.val = _; rw [off4 (i 1)]; omega

/-! ## The windows' blocks as entries of their arrays -/

variable (V : (c : Dev nD) → (b : Ref sig .tc) → Buf (Elt F) ((c : Thread nD τ).loc b))

/-- Window 0's block at point t, entry (a, b), is entry (21 · (0) + a, 8192 · (0) + b) of its array. -/
theorem iblk4_0_apply (c : Dev nD) (t : Fin cfg4.N) (a : Fin 21) (b : Fin 8192) (A : Fin 21) (B : Fin 8192)
    (hA : A.val = 21 * (0) + a.val) (hB : B.val = 8192 * (0) + b.val) :
    (iblk4 V c 0 t : Vec F S21x8192 .f32) (ix2 a b) = (V c main_v30 : S21x8192.Idx → Elt F .f32) (ix2 A B) := by
  have hi : win4_0.index t 0 = 0 ∧ win4_0.index t 1 = 0 :=
    (by decide +kernel : ∀ t : Fin grid4.N, win4_0.index t 0 = 0 ∧ win4_0.index t 1 = 0) t
  unfold iblk4
  rw [View.read_apply]
  show V c main_v30 _ = V c main_v30 _
  congr 1
  funext d
  apply Fin.ext
  match d with
  | ⟨0, _⟩ => show win4_0.index t 0 * 21 + 1 * a.val = A.val; rw [hi.1, hA]; omega
  | ⟨1, _⟩ => show win4_0.index t 1 * 8192 + 1 * b.val = B.val; rw [hi.2, hB]; omega

/-- Window 1's block at point t, entry (a, b), is entry (21 · (0) + a, 4096 · (t.val / 32) + b) of its array. -/
theorem iblk4_1_apply (c : Dev nD) (t : Fin cfg4.N) (a : Fin 21) (b : Fin 4096) (A : Fin 21) (B : Fin 8192)
    (hA : A.val = 21 * (0) + a.val) (hB : B.val = 4096 * (t.val / 32) + b.val) :
    (iblk4 V c 1 t : Vec F S21x4096 .f32) (ix2 a b) = (V c main_v27 : S21x8192.Idx → Elt F .f32) (ix2 A B) := by
  have hi : win4_1.index t 0 = 0 ∧ win4_1.index t 1 = t.val / 32 :=
    (by decide +kernel : ∀ t : Fin grid4.N, win4_1.index t 0 = 0 ∧ win4_1.index t 1 = t.val / 32) t
  unfold iblk4
  rw [View.read_apply]
  show V c main_v27 _ = V c main_v27 _
  congr 1
  funext d
  apply Fin.ext
  match d with
  | ⟨0, _⟩ => show win4_1.index t 0 * 21 + 1 * a.val = A.val; rw [hi.1, hA]; omega
  | ⟨1, _⟩ => show win4_1.index t 1 * 4096 + 1 * b.val = B.val; rw [hi.2, hB]; omega

/-- Window 2's block at point t, entry (a, b), is entry (256 · (t.val % 32) + a, 4096 · (t.val / 32) + b) of its array. -/
theorem iblk4_2_apply (c : Dev nD) (t : Fin cfg4.N) (a : Fin 256) (b : Fin 4096) (A : Fin 8192) (B : Fin 8192)
    (hA : A.val = 256 * (t.val % 32) + a.val) (hB : B.val = 4096 * (t.val / 32) + b.val) :
    (iblk4 V c 2 t : Vec F S256x4096 .bf16) (ix2 a b) = (V c main_v21_0 : S8192x8192.Idx → Elt F .bf16) (ix2 A B) := by
  have hi : win4_2.index t 0 = t.val % 32 ∧ win4_2.index t 1 = t.val / 32 :=
    (by decide +kernel : ∀ t : Fin grid4.N, win4_2.index t 0 = t.val % 32 ∧ win4_2.index t 1 = t.val / 32) t
  unfold iblk4
  rw [View.read_apply]
  show V c main_v21_0 _ = V c main_v21_0 _
  congr 1
  funext d
  apply Fin.ext
  match d with
  | ⟨0, _⟩ => show win4_2.index t 0 * 256 + 1 * a.val = A.val; rw [hi.1, hA]; omega
  | ⟨1, _⟩ => show win4_2.index t 1 * 4096 + 1 * b.val = B.val; rw [hi.2, hB]; omega

/-- Window 3's block at point t, entry (a, b), is entry (256 · (t.val % 32) + a, 4096 · (t.val / 32) + b) of its array. -/
theorem iblk4_3_apply (c : Dev nD) (t : Fin cfg4.N) (a : Fin 256) (b : Fin 4096) (A : Fin 8192) (B : Fin 8192)
    (hA : A.val = 256 * (t.val % 32) + a.val) (hB : B.val = 4096 * (t.val / 32) + b.val) :
    (iblk4 V c 3 t : Vec F S256x4096 .bf16) (ix2 a b) = (V c main_v21_1 : S8192x8192.Idx → Elt F .bf16) (ix2 A B) := by
  have hi : win4_3.index t 0 = t.val % 32 ∧ win4_3.index t 1 = t.val / 32 :=
    (by decide +kernel : ∀ t : Fin grid4.N, win4_3.index t 0 = t.val % 32 ∧ win4_3.index t 1 = t.val / 32) t
  unfold iblk4
  rw [View.read_apply]
  show V c main_v21_1 _ = V c main_v21_1 _
  congr 1
  funext d
  apply Fin.ext
  match d with
  | ⟨0, _⟩ => show win4_3.index t 0 * 256 + 1 * a.val = A.val; rw [hi.1, hA]; omega
  | ⟨1, _⟩ => show win4_3.index t 1 * 4096 + 1 * b.val = B.val; rw [hi.2, hB]; omega

/-- Window 4's block at point t, entry (a, b), is entry (1 · (0) + a, 4096 · (t.val / 32) + b) of its array. -/
theorem iblk4_4_apply (c : Dev nD) (t : Fin cfg4.N) (a : Fin 1) (b : Fin 4096) (A : Fin 1) (B : Fin 8192)
    (hA : A.val = 1 * (0) + a.val) (hB : B.val = 4096 * (t.val / 32) + b.val) :
    (iblk4 V c 4 t : Vec F S1x4096 .f32) (ix2 a b) = (V c main_v22 : S1x8192.Idx → Elt F .f32) (ix2 A B) := by
  have hi : win4_4.index t 0 = 0 ∧ win4_4.index t 1 = t.val / 32 :=
    (by decide +kernel : ∀ t : Fin grid4.N, win4_4.index t 0 = 0 ∧ win4_4.index t 1 = t.val / 32) t
  unfold iblk4
  rw [View.read_apply]
  show V c main_v22 _ = V c main_v22 _
  congr 1
  funext d
  apply Fin.ext
  match d with
  | ⟨0, _⟩ => show win4_4.index t 0 * 1 + 1 * a.val = A.val; rw [hi.1, hA]; omega
  | ⟨1, _⟩ => show win4_4.index t 1 * 4096 + 1 * b.val = B.val; rw [hi.2, hB]; omega

/-- Window 5's block at point t, entry (a, b), is entry (1 · (0) + a, 4096 · (t.val / 32) + b) of its array. -/
theorem iblk4_5_apply (c : Dev nD) (t : Fin cfg4.N) (a : Fin 1) (b : Fin 4096) (A : Fin 1) (B : Fin 8192)
    (hA : A.val = 1 * (0) + a.val) (hB : B.val = 4096 * (t.val / 32) + b.val) :
    (iblk4 V c 5 t : Vec F S1x4096 .f32) (ix2 a b) = (V c main_v23 : S1x8192.Idx → Elt F .f32) (ix2 A B) := by
  have hi : win4_5.index t 0 = 0 ∧ win4_5.index t 1 = t.val / 32 :=
    (by decide +kernel : ∀ t : Fin grid4.N, win4_5.index t 0 = 0 ∧ win4_5.index t 1 = t.val / 32) t
  unfold iblk4
  rw [View.read_apply]
  show V c main_v23 _ = V c main_v23 _
  congr 1
  funext d
  apply Fin.ext
  match d with
  | ⟨0, _⟩ => show win4_5.index t 0 * 1 + 1 * a.val = A.val; rw [hi.1, hA]; omega
  | ⟨1, _⟩ => show win4_5.index t 1 * 4096 + 1 * b.val = B.val; rw [hi.2, hB]; omega

/-- Window 6's block at point t, entry (a, b), is entry (21 · (0) + a, 21 · (0) + b) of its array. -/
theorem iblk4_6_apply (c : Dev nD) (t : Fin cfg4.N) (a : Fin 21) (b : Fin 21) (A : Fin 21) (B : Fin 21)
    (hA : A.val = 21 * (0) + a.val) (hB : B.val = 21 * (0) + b.val) :
    (iblk4 V c 6 t : Vec F S21x21 .f32) (ix2 a b) = (V c main_arg3 : S21x21.Idx → Elt F .f32) (ix2 A B) := by
  have hi : win4_6.index t 0 = 0 ∧ win4_6.index t 1 = 0 :=
    (by decide +kernel : ∀ t : Fin grid4.N, win4_6.index t 0 = 0 ∧ win4_6.index t 1 = 0) t
  unfold iblk4
  rw [View.read_apply]
  show V c main_arg3 _ = V c main_arg3 _
  congr 1
  funext d
  apply Fin.ext
  match d with
  | ⟨0, _⟩ => show win4_6.index t 0 * 21 + 1 * a.val = A.val; rw [hi.1, hA]; omega
  | ⟨1, _⟩ => show win4_6.index t 1 * 21 + 1 * b.val = B.val; rw [hi.2, hB]; omega

/-- Window 7's block at point t, entry (a, b), is entry (21 · (0) + a, 21 · (0) + b) of its array. -/
theorem iblk4_7_apply (c : Dev nD) (t : Fin cfg4.N) (a : Fin 21) (b : Fin 21) (A : Fin 21) (B : Fin 21)
    (hA : A.val = 21 * (0) + a.val) (hB : B.val = 21 * (0) + b.val) :
    (iblk4 V c 7 t : Vec F S21x21 .f32) (ix2 a b) = (V c main_arg4 : S21x21.Idx → Elt F .f32) (ix2 A B) := by
  have hi : win4_7.index t 0 = 0 ∧ win4_7.index t 1 = 0 :=
    (by decide +kernel : ∀ t : Fin grid4.N, win4_7.index t 0 = 0 ∧ win4_7.index t 1 = 0) t
  unfold iblk4
  rw [View.read_apply]
  show V c main_arg4 _ = V c main_arg4 _
  congr 1
  funext d
  apply Fin.ext
  match d with
  | ⟨0, _⟩ => show win4_7.index t 0 * 21 + 1 * a.val = A.val; rw [hi.1, hA]; omega
  | ⟨1, _⟩ => show win4_7.index t 1 * 21 + 1 * b.val = B.val; rw [hi.2, hB]; omega

/-- Window 8's block at point t, entry (a, b), is entry (21 · (0) + a, 21 · (0) + b) of its array. -/
theorem iblk4_8_apply (c : Dev nD) (t : Fin cfg4.N) (a : Fin 21) (b : Fin 21) (A : Fin 21) (B : Fin 21)
    (hA : A.val = 21 * (0) + a.val) (hB : B.val = 21 * (0) + b.val) :
    (iblk4 V c 8 t : Vec F S21x21 .f32) (ix2 a b) = (V c main_arg5 : S21x21.Idx → Elt F .f32) (ix2 A B) := by
  have hi : win4_8.index t 0 = 0 ∧ win4_8.index t 1 = 0 :=
    (by decide +kernel : ∀ t : Fin grid4.N, win4_8.index t 0 = 0 ∧ win4_8.index t 1 = 0) t
  unfold iblk4
  rw [View.read_apply]
  show V c main_arg5 _ = V c main_arg5 _
  congr 1
  funext d
  apply Fin.ext
  match d with
  | ⟨0, _⟩ => show win4_8.index t 0 * 21 + 1 * a.val = A.val; rw [hi.1, hA]; omega
  | ⟨1, _⟩ => show win4_8.index t 1 * 21 + 1 * b.val = B.val; rw [hi.2, hB]; omega

/-- At the last step of a row the output's block is the message of the accumulators the step has just left. -/
theorem out4_at_C (c : Dev nD) (t : Fin cfg4.N) (h0 : ¬t.val % 32 = 0) (h1 : t.val % 32 = 31) :
    (outsAt4 V c t.val t.isLt).1
      = k4_pay7 (outsAt4 V c t.val t.isLt).2.2.1 (iblk4 V c 4 t) (outsAt4 V c t.val t.isLt).2.2.2 (iblk4 V c 5 t)
          (iblk4 V c 6 t) (iblk4 V c 7 t) (iblk4 V c 8 t) (iblk4 V c 1 t) := by
  rw [outsAt4_C V c t h0 h1]
  dsimp only
  rw [out4_C_9_eq, sout4_C_1_eq, sout4_C_2_eq]

end Pieces

/-! ## The carried buffers point by point, on the extended reals -/

section Value
variable (V : (c : Dev nD) → (b : Ref sig .tc) → Buf (Elt Ideal) ((c : Thread nD τ).loc b))

/-- The region's arrays as it finds them: the current scores, the two affinity arrays, their normalizers (one row
    each), the unary scores and the three 21 × 21 arrays. -/
abbrev cur4 (c : Dev nD) : Mat 21 8192 := (V c main_v30 : S21x8192.Idx → Elt Ideal .f32)
abbrev ksp4 (c : Dev nD) : Mat 8192 8192 := (V c main_v21_0 : S8192x8192.Idx → Elt Ideal .bf16)
abbrev kbi4 (c : Dev nD) : Mat 8192 8192 := (V c main_v21_1 : S8192x8192.Idx → Elt Ideal .bf16)
abbrev nsp4 (c : Dev nD) : Fin 8192 → EReal := fun n => (V c main_v22 : S1x8192.Idx → Elt Ideal .f32) (ix2 0 n)
abbrev nbi4 (c : Dev nD) : Fin 8192 → EReal := fun n => (V c main_v23 : S1x8192.Idx → Elt Ideal .f32) (ix2 0 n)
abbrev un4 (c : Dev nD) : Mat 21 8192 := (V c main_v27 : S21x8192.Idx → Elt Ideal .f32)
abbrev spw4 (c : Dev nD) : Mat 21 21 := (V c main_arg3 : S21x21.Idx → Elt Ideal .f32)
abbrev biw4 (c : Dev nD) : Mat 21 21 := (V c main_arg4 : S21x21.Idx → Elt Ideal .f32)
abbrev compat4 (c : Dev nD) : Mat 21 21 := (V c main_arg5 : S21x21.Idx → Elt Ideal .f32)

/-- The first step of a row leaves the softmax of the current scores in the first carried buffer and the first
    group of 256 terms in each accumulator. -/
theorem carried4_A (c : Dev nD) (t : Fin cfg4.N) (h0 : t.val % 32 = 0) :
    CarriedAt (cur4 V c) (ksp4 V c) (kbi4 V c) (t.val / 32) (0)
      (outsAt4 V c t.val t.isLt).2.1 (outsAt4 V c t.val t.isLt).2.2.1 (outsAt4 V c t.val t.isLt).2.2.2 := by
  have h1 : ¬t.val % 32 = 31 := by omega
  have hco := coords4 t
  rw [outsAt4_A V c t h0 h1]
  dsimp only
  refine carried_step (cur4 V c) (ksp4 V c) (kbi4 V c) (t.val / 32) 0 (by omega) _ ?hs0
    (k4_pay2 (F := Ideal)) (k4_pay3 (F := Ideal)) ?ha1 ?ha2
    (slab4 (grid4.coords t) (k4_pay1 (iblk4 V c 0 t : Vec Ideal S21x8192 .f32))) ?hqb
    (iblk4 V c 2 t : Vec Ideal S256x4096 .bf16) (iblk4 V c 3 t : Vec Ideal S256x4096 .bf16) ?hK2 ?hK3 _ _ ?hsA ?hsB
  case hs0 =>
    intro l j
    rw [sout4_A_0_eq]
    refine (softmax_payload_apply _ l j).trans ?_
    exact softmaxCol_block (b := 8192) (iblk4 V c 0 t : Vec Ideal S21x8192 .f32) (cur4 V c) l j j
      fun k => iblk4_0_apply V c t k j k j (by omega) (by omega)
  case ha1 => intro l col N _; exact (clear_payload_apply _).trans (groupSum_zero _ _ _ _).symm
  case ha2 => intro l col N _; exact (clear_payload_apply' _).trans (groupSum_zero _ _ _ _).symm
  case hqb =>
    intro l r J hJ
    rw [sout4_A_0_eq]
    exact slab4_apply (grid4.coords t) _ l r J (by rw [hJ, hco.2, h0])
  case hK2 => intro r col R C hR hC; exact iblk4_2_apply V c t r col R C (by rw [hR, h0]) hC
  case hK3 => intro r col R C hR hC; exact iblk4_3_apply V c t r col R C (by rw [hR, h0]) hC
  case hsA => intro l col; rw [sout4_A_1_eq]; exact accum_payload_apply _ _ _ l col
  case hsB => intro l col; rw [sout4_A_2_eq]; exact accum_payload_apply' _ _ _ l col

/-- A middle step keeps the first carried buffer and adds its slab's group of 256 terms to each accumulator. -/
theorem carried4_B (c : Dev nD) (t : Fin cfg4.N) (h0 : ¬t.val % 32 = 0) (h1 : ¬t.val % 32 = 31)
    (ih : CarriedAt (cur4 V c) (ksp4 V c) (kbi4 V c) ((t.val - 1) / 32) ((t.val - 1) % 32)
      (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2) :
    CarriedAt (cur4 V c) (ksp4 V c) (kbi4 V c) (t.val / 32) (t.val % 32)
      (outsAt4 V c t.val t.isLt).2.1 (outsAt4 V c t.val t.isLt).2.2.1 (outsAt4 V c t.val t.isLt).2.2.2 := by
  have hco := coords4 t
  have e1 : (t.val - 1) / 32 = t.val / 32 := by omega
  have e2 : (t.val - 1) % 32 + 1 = t.val % 32 := by omega
  obtain ⟨ih0, ih1, ih2⟩ := ih
  rw [e1, e2] at ih1 ih2
  rw [outsAt4_B V c t h0 h1]
  dsimp only
  refine carried_step (cur4 V c) (ksp4 V c) (kbi4 V c) (t.val / 32) (t.val % 32) (Nat.mod_lt _ (by decide)) _ ih0
    (outsAt4 V c (t.val - 1) (Nat.lt_of_le_of_lt (Nat.sub_le _ _) t.isLt)).2.2.1 (outsAt4 V c (t.val - 1) (Nat.lt_of_le_of_lt (Nat.sub_le _ _) t.isLt)).2.2.2 ih1 ih2
    (slab4 (grid4.coords t) (outsAt4 V c (t.val - 1) (Nat.lt_of_le_of_lt (Nat.sub_le _ _) t.isLt)).2.1) ?hqb
    (iblk4 V c 2 t : Vec Ideal S256x4096 .bf16) (iblk4 V c 3 t : Vec Ideal S256x4096 .bf16) ?hK2 ?hK3 _ _ ?hsA ?hsB
  case hqb =>
    intro l r J hJ
    exact slab4_apply (grid4.coords t) _ l r J (by rw [hJ, hco.2])
  case hK2 => intro r col R C hR hC; exact iblk4_2_apply V c t r col R C hR hC
  case hK3 => intro r col R C hR hC; exact iblk4_3_apply V c t r col R C hR hC
  case hsA => intro l col; rw [sout4_B_1_eq]; exact accum_payload_apply _ _ _ l col
  case hsB => intro l col; rw [sout4_B_2_eq]; exact accum_payload_apply' _ _ _ l col

/-- So does the last step. -/
theorem carried4_C (c : Dev nD) (t : Fin cfg4.N) (h0 : ¬t.val % 32 = 0) (h1 : t.val % 32 = 31)
    (ih : CarriedAt (cur4 V c) (ksp4 V c) (kbi4 V c) ((t.val - 1) / 32) ((t.val - 1) % 32)
      (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2) :
    CarriedAt (cur4 V c) (ksp4 V c) (kbi4 V c) (t.val / 32) (t.val % 32)
      (outsAt4 V c t.val t.isLt).2.1 (outsAt4 V c t.val t.isLt).2.2.1 (outsAt4 V c t.val t.isLt).2.2.2 := by
  have hco := coords4 t
  have e1 : (t.val - 1) / 32 = t.val / 32 := by omega
  have e2 : (t.val - 1) % 32 + 1 = t.val % 32 := by omega
  obtain ⟨ih0, ih1, ih2⟩ := ih
  rw [e1, e2] at ih1 ih2
  rw [outsAt4_C V c t h0 h1]
  dsimp only
  refine carried_step (cur4 V c) (ksp4 V c) (kbi4 V c) (t.val / 32) (t.val % 32) (Nat.mod_lt _ (by decide)) _ ih0
    (outsAt4 V c (t.val - 1) (Nat.lt_of_le_of_lt (Nat.sub_le _ _) t.isLt)).2.2.1 (outsAt4 V c (t.val - 1) (Nat.lt_of_le_of_lt (Nat.sub_le _ _) t.isLt)).2.2.2 ih1 ih2
    (slab4 (grid4.coords t) (outsAt4 V c (t.val - 1) (Nat.lt_of_le_of_lt (Nat.sub_le _ _) t.isLt)).2.1) ?hqb
    (iblk4 V c 2 t : Vec Ideal S256x4096 .bf16) (iblk4 V c 3 t : Vec Ideal S256x4096 .bf16) ?hK2 ?hK3 _ _ ?hsA ?hsB
  case hqb =>
    intro l r J hJ
    exact slab4_apply (grid4.coords t) _ l r J (by rw [hJ, hco.2])
  case hK2 => intro r col R C hR hC; exact iblk4_2_apply V c t r col R C hR hC
  case hK3 => intro r col R C hR hC; exact iblk4_3_apply V c t r col R C hR hC
  case hsA => intro l col; rw [sout4_C_1_eq]; exact accum_payload_apply _ _ _ l col
  case hsB => intro l col; rw [sout4_C_2_eq]; exact accum_payload_apply' _ _ _ l col

/-- After the point n = 32 h + k the first carried buffer holds the softmax of the current scores and the
    accumulators the first k + 1 groups of 256 terms of the products' entries at the sites of half h: by induction
    along the grid. -/
theorem carried4 (c : Dev nD) : ∀ (n : ℕ) (hn : n < cfg4.N),
    CarriedAt (cur4 V c) (ksp4 V c) (kbi4 V c) (n / 32) (n % 32)
      (outsAt4 V c n hn).2.1 (outsAt4 V c n hn).2.2.1 (outsAt4 V c n hn).2.2.2
  | 0, hn => carried4_A V c ⟨0, hn⟩ rfl
  | n + 1, hn => by
    by_cases h0 : (n + 1) % 32 = 0
    · have h := carried4_A V c ⟨n + 1, hn⟩ h0
      rw [h0]; exact h
    · by_cases h1 : (n + 1) % 32 = 31
      · exact carried4_C V c ⟨n + 1, hn⟩ h0 h1 (carried4 c n (Nat.lt_of_succ_lt hn))
      · exact carried4_B V c ⟨n + 1, hn⟩ h0 h1 (carried4 c n (Nat.lt_of_succ_lt hn))

/-- One mean-field step of the region's arrays. -/
abbrev step4 (c : Dev nD) : Mat 21 8192 :=
  meanFieldStep (ksp4 V c) (kbi4 V c) (nsp4 V c) (nbi4 V c) (un4 V c) (spw4 V c) (biw4 V c) (compat4 V c) (cur4 V c)

/-- At the last step of row h the output's block holds, at (l, col), the mean-field step at label l and site
    4096 h + col. -/
theorem out4_9_value (c : Dev nD) (t : Fin cfg4.N) (h1 : t.val % 32 = 31) (l : Fin 21) (col : Fin 4096) (N : Fin 8192)
    (hN : N.val = 4096 * (t.val / 32) + col.val) :
    (outsAt4 V c t.val t.isLt).1 (ix2 l col) = step4 V c (ix2 l N) := by
  have h0 : ¬t.val % 32 = 0 := by omega
  have hc := carried4 V c t.val t.isLt
  rw [h1] at hc
  rw [out4_at_C V c t h0 h1]
  refine (message_payload_apply _ _ _ _ _ _ _ _ l col).trans ?_
  exact message_value (cur4 V c) (ksp4 V c) (kbi4 V c) (nsp4 V c) (nbi4 V c) (un4 V c) (spw4 V c) (biw4 V c) (compat4 V c)
    (t.val / 32) _ _ _ hc
    (iblk4 V c 1 t : Vec Ideal S21x4096 .f32) (iblk4 V c 4 t : Vec Ideal S1x4096 .f32) (iblk4 V c 5 t : Vec Ideal S1x4096 .f32)
    (iblk4 V c 6 t : Vec Ideal S21x21 .f32) (iblk4 V c 7 t : Vec Ideal S21x21 .f32) (iblk4 V c 8 t : Vec Ideal S21x21 .f32)
    (fun l col N hN => iblk4_1_apply V c t l col l N (by omega) hN)
    (fun col N hN => iblk4_4_apply V c t 0 col 0 N (by decide) hN)
    (fun col N hN => iblk4_5_apply V c t 0 col 0 N (by decide) hN)
    (fun p q => iblk4_6_apply V c t p q p q (by omega) (by omega))
    (fun p q => iblk4_7_apply V c t p q p q (by omega) (by omega))
    (fun p q => iblk4_8_apply V c t p q p q (by omega) (by omega))
    l col N hN

/-- The output's block index at point t is (0, t / 32). -/
theorem index4_9 (t : Fin cfg4.N) : win4_9.index t 0 = 0 ∧ win4_9.index t 1 = t.val / 32 :=
  (by decide +kernel : ∀ t : Fin grid4.N, win4_9.index t 0 = 0 ∧ win4_9.index t 1 = t.val / 32) t

/-- What the last step of row h writes back, entry by entry: the mean-field step at the sites of half h. -/
theorem flushed_entry4 (c : Dev nD) (t : Fin cfg4.N) (h1 : t.val % 32 = 31) (x : S21x4096.Idx) :
    (cfg4.win 9).cut (grid4.coords t) (outsAt4 V c t.val t.isLt).1 x
      = step4 V c (((cfg4.win 9).blk t).view.emb x) := by
  have hi := index4_9 t
  have ht : t.val < 64 := t.isLt
  have hx1 : (x 1).val < 4096 := (x 1).isLt
  show (outsAt4 V c t.val t.isLt).1 ((cfg4.win 9).xinj (grid4.coords t) x) = _
  rw [show (cfg4.win 9).xinj (grid4.coords t) x = x from funext fun a => Fin.ext rfl]
  have hx : x = ix2 (x 0) (x 1) := eq_ix2 x
  rw [hx]
  refine (out4_9_value V c t h1 (x 0) (x 1) ⟨4096 * (t.val / 32) + (x 1).val, by omega⟩ rfl).trans ?_
  show step4 V c _ = step4 V c _
  congr 1
  funext d
  apply Fin.ext
  match d with
  | ⟨0, _⟩ => show (x 0).val = win4_9.index t 0 * 21 + 1 * (x 0).val; rw [hi.1]; omega
  | ⟨1, _⟩ => show 4096 * (t.val / 32) + (x 1).val = win4_9.index t 1 * 4096 + 1 * (x 1).val; rw [hi.2]; omega

/-- Every write-back of the output's window writes its block of the mean-field step. -/
theorem flushed_eq4 (c : Dev nD) (t : Fin cfg4.N) (hf : (cfg4.win 9).flush t = true) :
    (dat4 V c).flushed 9 t = ((cfg4.win 9).blk t).view.read (Elt Ideal) (step4 V c) := by
  have h1 : t.val % 32 = 31 := (flush4_9 t).mp hf
  show (cfg4.win 9).cut (grid4.coords t) ((dat4 V c).after 9 t) = _
  rw [after4_9]
  funext x
  rw [View.read_apply]
  exact flushed_entry4 V c t h1 x

/-- The two write-backs cover the output array (columns below 4096 at point 31, the others at point 63), so it ends
    holding one mean-field step of the current scores. -/
theorem final4_9 (c : Dev nD) : (dat4 (F := Ideal) V c).arrAt 9 cfg4.N
    = meanFieldStep (ksp4 V c) (kbi4 V c) (nsp4 V c) (nbi4 V c) (un4 V c) (spw4 V c) (biw4 V c) (compat4 V c) (cur4 V c) :=
  (dat4 V c).arrAt_eq_of_cover 9 (step4 V c) (flushed_eq4 V c) fun i => by
    have hi1 : (i 1 : Nat) < 8192 := (i 1).isLt
    have hi0 : (i 0 : Nat) < 21 := (i 0).isLt
    obtain ⟨T, hT⟩ : ∃ T : Fin cfg4.N, T.val = 32 * ((i 1 : Nat) / 4096) + 31 :=
      ⟨⟨32 * ((i 1 : Nat) / 4096) + 31, by show _ < 64; omega⟩, rfl⟩
    have hi := index4_9 T
    refine ⟨T, (flush4_9 T).mpr (by rw [hT]; omega), ?_⟩
    show i ∈ ((View.whole main_v31).slice (win4_9.rect T)).set
    rw [View.set_slice_whole, Rect.mem_set_unit]
    intro a
    match a with
    | ⟨0, _⟩ =>
      show win4_9.index T 0 * 21 ≤ (i 0 : Nat) ∧ (i 0 : Nat) < win4_9.index T 0 * 21 + 21
      rw [hi.1]; omega
    | ⟨1, _⟩ =>
      show win4_9.index T 1 * 4096 ≤ (i 1 : Nat) ∧ (i 1 : Nat) < win4_9.index T 1 * 4096 + 4096
      rw [hi.2, hT]; omega

end Value

end Cert.KernelIdeal.Hand

end
-- ==== Proof.IdealR5Value.lean ====
/-
  Region 5 (the fifth and last mean-field iteration): the array its output window ends holding is the softmax over
  the labels of one mean-field step of the current scores.

  The grid is 2 halves of the 8192 sites by 32 slabs of 256 contracted coordinates; point t is (t / 32, t mod 32).
  Three buffers are carried from point to point. At the first slab of a half the first is set to the softmax of the
  current scores over the 21 labels and the two accumulators are cleared; at every slab each accumulator gains the
  product of slab k of the first buffer (its columns 256 k … 256 k + 255) with the block (k, h) of an affinity array;
  at the last slab the message formed from the accumulators, the normalizers, the three 21 × 21 arrays and the unary
  scores is formed and its softmax over the 21 labels, column by column, is stored into the output's block, which is
  then written back to columns 4096 h … 4096 h + 4095. Up to that last softmax the body is the first iteration's,
  operation for operation, so its stores are read back as the first iteration's payloads.

  First each case's stores are read back as payloads of the point's blocks; then each window's block is read as
  entries of its array; then, by induction along the grid, after point 32 h + k the first carried buffer holds the
  softmax and the accumulators the first k + 1 groups of 256 terms of the entries of softmax · K at the sites of half
  h, so that after slab 31 they hold the whole sums (a sum over 32 · 256 coordinates regrouped) and the message is
  the mean-field step at that label and site; a softmax over the labels of a column depends on that column alone, so
  the stored block is the softmax of the mean-field step at those sites; the two write-backs cover the output array.
-/
import proofs.«162179_j58609123721967_2_alg».proof.Proof.IdealR5Frame
import proofs.«162179_j58609123721967_2_alg».proof.Proof.IdealStepValue
import Idealize.ShloMosaic.Lib.Pipeline.Value
import Idealize.ShloMosaic.Lib.Tactic

set_option maxRecDepth 16384

open scoped BigOperators

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx
open Cert.ReferenceIdeal.RefValue Cert.KernelIdeal.StepValue

/-! ## What each case's stores leave, as the payloads of the point's blocks -/

section Pieces
variable {F : FTy → Type} [FloatOps F]

theorem hz5 : (![0, 0] : Fin 2 → Nat) = fun _ => 0 := funext fun a => by fin_cases a <;> rfl

/-- Slab k of a 21 × 8192 buffer: its columns 256 k … 256 k + 255, what the load at offsets (0, 256 k) reads (k the
    point's second grid coordinate). -/
abbrev slab5 (i : grid5.Coords) (X : Vec F S21x8192 .f32) : Vec F S21x256 .f32 :=
  View.ld X (Rect.unit (s := S21x8192) (k5_off1 i) S21x256.size (k5_off1_inb i))

/-- A middle step adds slab k's product with the first affinity block onto the first accumulator. -/
theorem sout5_B_1_eq (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : ¬cond5_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout5_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k1_pay5 (slab5 i xs0) xs1 x2 := by
  unfold sout5_B_1
  rw [View.read_writes_eq_canon _ _ _ (scover5_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun5_B
  dsimp only
  try sl_unfold_words
  rw [View.canon_unit_zero hz5]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz5, View.ld_unit_zero (S := S256x4096) hz5, View.ld_unit_zero (S := S21x8192) hz5, View.ld_unit_zero (S := S1x4096) hz5, View.ld_unit_zero (S := S21x21) hz5]
  rfl

/-- A middle step adds slab k's product with the second affinity block onto the second accumulator. -/
theorem sout5_B_2_eq (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : ¬cond5_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout5_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k1_pay6 (slab5 i xs0) xs2 x3 := by
  unfold sout5_B_2
  rw [View.read_writes_eq_canon _ _ _ (scover5_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun5_B
  dsimp only
  try sl_unfold_words
  rw [View.canon_unit_zero hz5]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz5, View.ld_unit_zero (S := S256x4096) hz5, View.ld_unit_zero (S := S21x8192) hz5, View.ld_unit_zero (S := S1x4096) hz5, View.ld_unit_zero (S := S21x21) hz5]
  rfl

/-- The last step does the same to the first accumulator, -/
theorem sout5_C_1_eq (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout5_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k1_pay5 (slab5 i xs0) xs1 x2 := by
  unfold sout5_C_1
  rw [View.read_writes_eq_canon _ _ _ (scover5_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun5_C
  dsimp only
  try sl_unfold_words
  rw [View.canon_unit_zero hz5]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz5, View.ld_unit_zero (S := S256x4096) hz5, View.ld_unit_zero (S := S21x8192) hz5, View.ld_unit_zero (S := S1x4096) hz5, View.ld_unit_zero (S := S21x21) hz5]
  rfl

/-- and to the second, -/
theorem sout5_C_2_eq (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    sout5_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k1_pay6 (slab5 i xs0) xs2 x3 := by
  unfold sout5_C_2
  rw [View.read_writes_eq_canon _ _ _ (scover5_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun5_C
  dsimp only
  try sl_unfold_words
  rw [View.canon_unit_zero hz5]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz5, View.ld_unit_zero (S := S256x4096) hz5, View.ld_unit_zero (S := S21x8192) hz5, View.ld_unit_zero (S := S1x4096) hz5, View.ld_unit_zero (S := S21x21) hz5]
  rfl

/-- and stores into the output's block the last iteration's value of the two accumulators as it has just left them:
    the softmax over the labels of the message formed from them. -/
theorem out5_C_9_eq (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : ¬cond5_0 i) (hc1 : cond5_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) (xs0 : Vec F S21x8192 .f32) (xs1 : Vec F S21x4096 .f32) (xs2 : Vec F S21x4096 .f32) :
    out5_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2
      = k5_pay7 (k1_pay5 (slab5 i xs0) xs1 x2) x4 (k1_pay6 (slab5 i xs0) xs2 x3) x5 x6 x7 x8 x1 := by
  unfold out5_C_9
  rw [View.read_writes_eq_canon _ _ _ (cover5_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun5_C
  dsimp only
  try sl_unfold_words
  rw [View.canon_unit_zero hz5]
  simp only [View.readCov_unit_zero (S := S21x4096) _ hz5, View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz5, View.ld_unit_zero (S := S256x4096) hz5, View.ld_unit_zero (S := S21x8192) hz5, View.ld_unit_zero (S := S1x4096) hz5, View.ld_unit_zero (S := S21x21) hz5]
  rfl

/-- The first step of a row stores the softmax of the current scores into the first carried buffer, -/
theorem sout5_A_0_eq (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    sout5_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k1_pay1 x0 := by
  unfold sout5_A_0
  rw [View.read_writes_eq_canon _ _ _ (scover5_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun5_A
  dsimp only
  try sl_unfold_words
  rw [View.canon_unit_zero hz5]
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz5, View.ld_unit_zero (S := S256x4096) hz5, View.ld_unit_zero (S := S21x8192) hz5, View.ld_unit_zero (S := S1x4096) hz5, View.ld_unit_zero (S := S21x21) hz5]
  all_goals rfl

/-- clears the first accumulator and adds slab 0's product onto it, -/
theorem sout5_A_1_eq (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    sout5_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k1_pay5 (slab5 i (k1_pay1 x0)) k1_pay2 x2 := by
  unfold sout5_A_1
  rw [View.read_writes_eq_canon _ _ _ (scover5_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun5_A
  dsimp only
  try sl_unfold_words
  rw [View.canon_cons_unit_zero (S := S21x4096) hz5]
  simp only [View.readCov_unit_zero (S := S21x4096) _ hz5, View.readAt_eq_ld, View.read_writes_junk_eq_canon, View.canon_unit_zero (S := S21x8192) hz5, View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz5, View.ld_unit_zero (S := S256x4096) hz5, View.ld_unit_zero (S := S21x8192) hz5, View.ld_unit_zero (S := S1x4096) hz5, View.ld_unit_zero (S := S21x21) hz5]
  rfl

/-- and likewise the second. -/
theorem sout5_A_2_eq (c : Dev nD) (i : grid5.Coords) (arg2 : Memref sig .tc .vmem S21x8192 .f32) (harg2 : arg2.IsWhole) (arg3 : Memref sig .tc .vmem S21x4096 .f32) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x4096 .f32) (harg11 : arg11.IsWhole) (arg12 : Memref sig .tc .vmem S21x8192 .f32) (harg12 : arg12.IsWhole) (arg13 : Memref sig .tc .vmem S21x4096 .f32) (harg13 : arg13.IsWhole) (arg14 : Memref sig .tc .vmem S21x4096 .f32) (harg14 : arg14.IsWhole) (hc0 : cond5_0 i) (hc1 : ¬cond5_1 i) (x0 : Vec F S21x8192 .f32) (x1 : Vec F S21x4096 .f32) (x2 : Vec F S256x4096 .bf16) (x3 : Vec F S256x4096 .bf16) (x4 : Vec F S1x4096 .f32) (x5 : Vec F S1x4096 .f32) (x6 : Vec F S21x21 .f32) (x7 : Vec F S21x21 .f32) (x8 : Vec F S21x21 .f32) :
    sout5_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k1_pay6 (slab5 i (k1_pay1 x0)) k1_pay3 x3 := by
  unfold sout5_A_2
  rw [View.read_writes_eq_canon _ _ _ (scover5_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun5_A
  dsimp only
  try sl_unfold_words
  rw [View.canon_cons_unit_zero (S := S21x4096) hz5]
  simp only [View.readCov_unit_zero (S := S21x4096) _ hz5, View.readAt_eq_ld, View.read_writes_junk_eq_canon, View.canon_unit_zero (S := S21x8192) hz5, View.readAt_eq_ld, harg2.read_unread, harg3.read_unread, harg4.read_unread, harg5.read_unread, harg6.read_unread, harg7.read_unread, harg8.read_unread, harg9.read_unread, harg10.read_unread, harg12.read_unread, harg13.read_unread, harg14.read_unread, View.ld_unit_zero (S := S21x4096) hz5, View.ld_unit_zero (S := S256x4096) hz5, View.ld_unit_zero (S := S21x8192) hz5, View.ld_unit_zero (S := S1x4096) hz5, View.ld_unit_zero (S := S21x21) hz5]
  rfl

/-- The grid point t is (t / 32, t mod 32): the half of the sites, then the slab. -/
theorem coords5 (t : Fin cfg5.N) : ((grid5.coords t) 0).val = t.val / 32 ∧ ((grid5.coords t) 1).val = t.val % 32 :=
  (by decide +kernel : ∀ t : Fin grid5.N, ((grid5.coords t) 0).val = t.val / 32 ∧ ((grid5.coords t) 1).val = t.val % 32) t

/-- The slab's column offset, as the kernel computes it from the slab number k < 32, is 256 k. -/
theorem off5 (k : Fin 32) : (Scalar.indexCast (Scalar.muli (BitVec.ofNat 32 k.val) 256#32)).toNat = 256 * k.val := by
  revert k; decide +kernel

/-- Slab k of a buffer at (l, r) is the buffer at (l, 256 k + r). -/
theorem slab5_apply (i : grid5.Coords) (X : Vec F S21x8192 .f32) (l : Fin 21) (r : Fin 256) (J : Fin 8192)
    (hJ : J.val = 256 * (i 1).val + r.val) : slab5 i X (ix2 l r) = X (ix2 l J) := by
  show X _ = X _
  congr 1
  funext d
  apply Fin.ext
  match d with
  | ⟨0, _⟩ => show k5_off1 i 0 + 1 * l.val = l.val; show 0 + 1 * l.val = l.val; omega
  | ⟨1, _⟩ => show k5_off1 i 1 + 1 * r.val = J.val; rw [hJ]; show (Scalar.indexCast (Scalar.muli (BitVec.ofNat 32 (i 1).val) 256#32)).toNat + 1 * r.val = _; rw [off5 (i 1)]; omega

/-! ## The windows' blocks as entries of their arrays -/

variable (V : (c : Dev nD) → (b : Ref sig .tc) → Buf (Elt F) ((c : Thread nD τ).loc b))

/-- Window 0's block at point t, entry (a, b), is entry (21 · (0) + a, 8192 · (0) + b) of its array. -/
theorem iblk5_0_apply (c : Dev nD) (t : Fin cfg5.N) (a : Fin 21) (b : Fin 8192) (A : Fin 21) (B : Fin 8192)
    (hA : A.val = 21 * (0) + a.val) (hB : B.val = 8192 * (0) + b.val) :
    (iblk5 V c 0 t : Vec F S21x8192 .f32) (ix2 a b) = (V c main_v31 : S21x8192.Idx → Elt F .f32) (ix2 A B) := by
  have hi : win5_0.index t 0 = 0 ∧ win5_0.index t 1 = 0 :=
    (by decide +kernel : ∀ t : Fin grid5.N, win5_0.index t 0 = 0 ∧ win5_0.index t 1 = 0) t
  unfold iblk5
  rw [View.read_apply]
  show V c main_v31 _ = V c main_v31 _
  congr 1
  funext d
  apply Fin.ext
  match d with
  | ⟨0, _⟩ => show win5_0.index t 0 * 21 + 1 * a.val = A.val; rw [hi.1, hA]; omega
  | ⟨1, _⟩ => show win5_0.index t 1 * 8192 + 1 * b.val = B.val; rw [hi.2, hB]; omega

/-- Window 1's block at point t, entry (a, b), is entry (21 · (0) + a, 4096 · (t.val / 32) + b) of its array. -/
theorem iblk5_1_apply (c : Dev nD) (t : Fin cfg5.N) (a : Fin 21) (b : Fin 4096) (A : Fin 21) (B : Fin 8192)
    (hA : A.val = 21 * (0) + a.val) (hB : B.val = 4096 * (t.val / 32) + b.val) :
    (iblk5 V c 1 t : Vec F S21x4096 .f32) (ix2 a b) = (V c main_v27 : S21x8192.Idx → Elt F .f32) (ix2 A B) := by
  have hi : win5_1.index t 0 = 0 ∧ win5_1.index t 1 = t.val / 32 :=
    (by decide +kernel : ∀ t : Fin grid5.N, win5_1.index t 0 = 0 ∧ win5_1.index t 1 = t.val / 32) t
  unfold iblk5
  rw [View.read_apply]
  show V c main_v27 _ = V c main_v27 _
  congr 1
  funext d
  apply Fin.ext
  match d with
  | ⟨0, _⟩ => show win5_1.index t 0 * 21 + 1 * a.val = A.val; rw [hi.1, hA]; omega
  | ⟨1, _⟩ => show win5_1.index t 1 * 4096 + 1 * b.val = B.val; rw [hi.2, hB]; omega

/-- Window 2's block at point t, entry (a, b), is entry (256 · (t.val % 32) + a, 4096 · (t.val / 32) + b) of its array. -/
theorem iblk5_2_apply (c : Dev nD) (t : Fin cfg5.N) (a : Fin 256) (b : Fin 4096) (A : Fin 8192) (B : Fin 8192)
    (hA : A.val = 256 * (t.val % 32) + a.val) (hB : B.val = 4096 * (t.val / 32) + b.val) :
    (iblk5 V c 2 t : Vec F S256x4096 .bf16) (ix2 a b) = (V c main_v21_0 : S8192x8192.Idx → Elt F .bf16) (ix2 A B) := by
  have hi : win5_2.index t 0 = t.val % 32 ∧ win5_2.index t 1 = t.val / 32 :=
    (by decide +kernel : ∀ t : Fin grid5.N, win5_2.index t 0 = t.val % 32 ∧ win5_2.index t 1 = t.val / 32) t
  unfold iblk5
  rw [View.read_apply]
  show V c main_v21_0 _ = V c main_v21_0 _
  congr 1
  funext d
  apply Fin.ext
  match d with
  | ⟨0, _⟩ => show win5_2.index t 0 * 256 + 1 * a.val = A.val; rw [hi.1, hA]; omega
  | ⟨1, _⟩ => show win5_2.index t 1 * 4096 + 1 * b.val = B.val; rw [hi.2, hB]; omega

/-- Window 3's block at point t, entry (a, b), is entry (256 · (t.val % 32) + a, 4096 · (t.val / 32) + b) of its array. -/
theorem iblk5_3_apply (c : Dev nD) (t : Fin cfg5.N) (a : Fin 256) (b : Fin 4096) (A : Fin 8192) (B : Fin 8192)
    (hA : A.val = 256 * (t.val % 32) + a.val) (hB : B.val = 4096 * (t.val / 32) + b.val) :
    (iblk5 V c 3 t : Vec F S256x4096 .bf16) (ix2 a b) = (V c main_v21_1 : S8192x8192.Idx → Elt F .bf16) (ix2 A B) := by
  have hi : win5_3.index t 0 = t.val % 32 ∧ win5_3.index t 1 = t.val / 32 :=
    (by decide +kernel : ∀ t : Fin grid5.N, win5_3.index t 0 = t.val % 32 ∧ win5_3.index t 1 = t.val / 32) t
  unfold iblk5
  rw [View.read_apply]
  show V c main_v21_1 _ = V c main_v21_1 _
  congr 1
  funext d
  apply Fin.ext
  match d with
  | ⟨0, _⟩ => show win5_3.index t 0 * 256 + 1 * a.val = A.val; rw [hi.1, hA]; omega
  | ⟨1, _⟩ => show win5_3.index t 1 * 4096 + 1 * b.val = B.val; rw [hi.2, hB]; omega

/-- Window 4's block at point t, entry (a, b), is entry (1 · (0) + a, 4096 · (t.val / 32) + b) of its array. -/
theorem iblk5_4_apply (c : Dev nD) (t : Fin cfg5.N) (a : Fin 1) (b : Fin 4096) (A : Fin 1) (B : Fin 8192)
    (hA : A.val = 1 * (0) + a.val) (hB : B.val = 4096 * (t.val / 32) + b.val) :
    (iblk5 V c 4 t : Vec F S1x4096 .f32) (ix2 a b) = (V c main_v22 : S1x8192.Idx → Elt F .f32) (ix2 A B) := by
  have hi : win5_4.index t 0 = 0 ∧ win5_4.index t 1 = t.val / 32 :=
    (by decide +kernel : ∀ t : Fin grid5.N, win5_4.index t 0 = 0 ∧ win5_4.index t 1 = t.val / 32) t
  unfold iblk5
  rw [View.read_apply]
  show V c main_v22 _ = V c main_v22 _
  congr 1
  funext d
  apply Fin.ext
  match d with
  | ⟨0, _⟩ => show win5_4.index t 0 * 1 + 1 * a.val = A.val; rw [hi.1, hA]; omega
  | ⟨1, _⟩ => show win5_4.index t 1 * 4096 + 1 * b.val = B.val; rw [hi.2, hB]; omega

/-- Window 5's block at point t, entry (a, b), is entry (1 · (0) + a, 4096 · (t.val / 32) + b) of its array. -/
theorem iblk5_5_apply (c : Dev nD) (t : Fin cfg5.N) (a : Fin 1) (b : Fin 4096) (A : Fin 1) (B : Fin 8192)
    (hA : A.val = 1 * (0) + a.val) (hB : B.val = 4096 * (t.val / 32) + b.val) :
    (iblk5 V c 5 t : Vec F S1x4096 .f32) (ix2 a b) = (V c main_v23 : S1x8192.Idx → Elt F .f32) (ix2 A B) := by
  have hi : win5_5.index t 0 = 0 ∧ win5_5.index t 1 = t.val / 32 :=
    (by decide +kernel : ∀ t : Fin grid5.N, win5_5.index t 0 = 0 ∧ win5_5.index t 1 = t.val / 32) t
  unfold iblk5
  rw [View.read_apply]
  show V c main_v23 _ = V c main_v23 _
  congr 1
  funext d
  apply Fin.ext
  match d with
  | ⟨0, _⟩ => show win5_5.index t 0 * 1 + 1 * a.val = A.val; rw [hi.1, hA]; omega
  | ⟨1, _⟩ => show win5_5.index t 1 * 4096 + 1 * b.val = B.val; rw [hi.2, hB]; omega

/-- Window 6's block at point t, entry (a, b), is entry (21 · (0) + a, 21 · (0) + b) of its array. -/
theorem iblk5_6_apply (c : Dev nD) (t : Fin cfg5.N) (a : Fin 21) (b : Fin 21) (A : Fin 21) (B : Fin 21)
    (hA : A.val = 21 * (0) + a.val) (hB : B.val = 21 * (0) + b.val) :
    (iblk5 V c 6 t : Vec F S21x21 .f32) (ix2 a b) = (V c main_arg3 : S21x21.Idx → Elt F .f32) (ix2 A B) := by
  have hi : win5_6.index t 0 = 0 ∧ win5_6.index t 1 = 0 :=
    (by decide +kernel : ∀ t : Fin grid5.N, win5_6.index t 0 = 0 ∧ win5_6.index t 1 = 0) t
  unfold iblk5
  rw [View.read_apply]
  show V c main_arg3 _ = V c main_arg3 _
  congr 1
  funext d
  apply Fin.ext
  match d with
  | ⟨0, _⟩ => show win5_6.index t 0 * 21 + 1 * a.val = A.val; rw [hi.1, hA]; omega
  | ⟨1, _⟩ => show win5_6.index t 1 * 21 + 1 * b.val = B.val; rw [hi.2, hB]; omega

/-- Window 7's block at point t, entry (a, b), is entry (21 · (0) + a, 21 · (0) + b) of its array. -/
theorem iblk5_7_apply (c : Dev nD) (t : Fin cfg5.N) (a : Fin 21) (b : Fin 21) (A : Fin 21) (B : Fin 21)
    (hA : A.val = 21 * (0) + a.val) (hB : B.val = 21 * (0) + b.val) :
    (iblk5 V c 7 t : Vec F S21x21 .f32) (ix2 a b) = (V c main_arg4 : S21x21.Idx → Elt F .f32) (ix2 A B) := by
  have hi : win5_7.index t 0 = 0 ∧ win5_7.index t 1 = 0 :=
    (by decide +kernel : ∀ t : Fin grid5.N, win5_7.index t 0 = 0 ∧ win5_7.index t 1 = 0) t
  unfold iblk5
  rw [View.read_apply]
  show V c main_arg4 _ = V c main_arg4 _
  congr 1
  funext d
  apply Fin.ext
  match d with
  | ⟨0, _⟩ => show win5_7.index t 0 * 21 + 1 * a.val = A.val; rw [hi.1, hA]; omega
  | ⟨1, _⟩ => show win5_7.index t 1 * 21 + 1 * b.val = B.val; rw [hi.2, hB]; omega

/-- Window 8's block at point t, entry (a, b), is entry (21 · (0) + a, 21 · (0) + b) of its array. -/
theorem iblk5_8_apply (c : Dev nD) (t : Fin cfg5.N) (a : Fin 21) (b : Fin 21) (A : Fin 21) (B : Fin 21)
    (hA : A.val = 21 * (0) + a.val) (hB : B.val = 21 * (0) + b.val) :
    (iblk5 V c 8 t : Vec F S21x21 .f32) (ix2 a b) = (V c main_arg5 : S21x21.Idx → Elt F .f32) (ix2 A B) := by
  have hi : win5_8.index t 0 = 0 ∧ win5_8.index t 1 = 0 :=
    (by decide +kernel : ∀ t : Fin grid5.N, win5_8.index t 0 = 0 ∧ win5_8.index t 1 = 0) t
  unfold iblk5
  rw [View.read_apply]
  show V c main_arg5 _ = V c main_arg5 _
  congr 1
  funext d
  apply Fin.ext
  match d with
  | ⟨0, _⟩ => show win5_8.index t 0 * 21 + 1 * a.val = A.val; rw [hi.1, hA]; omega
  | ⟨1, _⟩ => show win5_8.index t 1 * 21 + 1 * b.val = B.val; rw [hi.2, hB]; omega

/-- At the last step of a row the output's block is the last iteration's value — the softmax of the message — of the
    accumulators the step has just left. -/
theorem out5_at_C (c : Dev nD) (t : Fin cfg5.N) (h0 : ¬t.val % 32 = 0) (h1 : t.val % 32 = 31) :
    (outsAt5 V c t.val t.isLt).1
      = k5_pay7 (outsAt5 V c t.val t.isLt).2.2.1 (iblk5 V c 4 t) (outsAt5 V c t.val t.isLt).2.2.2 (iblk5 V c 5 t)
          (iblk5 V c 6 t) (iblk5 V c 7 t) (iblk5 V c 8 t) (iblk5 V c 1 t) := by
  rw [outsAt5_C V c t h0 h1]
  dsimp only
  rw [out5_C_9_eq, sout5_C_1_eq, sout5_C_2_eq]

end Pieces

/-! ## The carried buffers point by point, on the extended reals -/

section Value
variable (V : (c : Dev nD) → (b : Ref sig .tc) → Buf (Elt Ideal) ((c : Thread nD τ).loc b))

/-- The region's arrays as it finds them: the current scores, the two affinity arrays, their normalizers (one row
    each), the unary scores and the three 21 × 21 arrays. -/
abbrev cur5 (c : Dev nD) : Mat 21 8192 := (V c main_v31 : S21x8192.Idx → Elt Ideal .f32)
abbrev ksp5 (c : Dev nD) : Mat 8192 8192 := (V c main_v21_0 : S8192x8192.Idx → Elt Ideal .bf16)
abbrev kbi5 (c : Dev nD) : Mat 8192 8192 := (V c main_v21_1 : S8192x8192.Idx → Elt Ideal .bf16)
abbrev nsp5 (c : Dev nD) : Fin 8192 → EReal := fun n => (V c main_v22 : S1x8192.Idx → Elt Ideal .f32) (ix2 0 n)
abbrev nbi5 (c : Dev nD) : Fin 8192 → EReal := fun n => (V c main_v23 : S1x8192.Idx → Elt Ideal .f32) (ix2 0 n)
abbrev un5 (c : Dev nD) : Mat 21 8192 := (V c main_v27 : S21x8192.Idx → Elt Ideal .f32)
abbrev spw5 (c : Dev nD) : Mat 21 21 := (V c main_arg3 : S21x21.Idx → Elt Ideal .f32)
abbrev biw5 (c : Dev nD) : Mat 21 21 := (V c main_arg4 : S21x21.Idx → Elt Ideal .f32)
abbrev compat5 (c : Dev nD) : Mat 21 21 := (V c main_arg5 : S21x21.Idx → Elt Ideal .f32)

/-- The first step of a row leaves the softmax of the current scores in the first carried buffer and the first
    group of 256 terms in each accumulator. -/
theorem carried5_A (c : Dev nD) (t : Fin cfg5.N) (h0 : t.val % 32 = 0) :
    CarriedAt (cur5 V c) (ksp5 V c) (kbi5 V c) (t.val / 32) (0)
      (outsAt5 V c t.val t.isLt).2.1 (outsAt5 V c t.val t.isLt).2.2.1 (outsAt5 V c t.val t.isLt).2.2.2 := by
  have h1 : ¬t.val % 32 = 31 := by omega
  have hco := coords5 t
  rw [outsAt5_A V c t h0 h1]
  dsimp only
  refine carried_step (cur5 V c) (ksp5 V c) (kbi5 V c) (t.val / 32) 0 (by omega) _ ?hs0
    (k1_pay2 (F := Ideal)) (k1_pay3 (F := Ideal)) ?ha1 ?ha2
    (slab5 (grid5.coords t) (k1_pay1 (iblk5 V c 0 t : Vec Ideal S21x8192 .f32))) ?hqb
    (iblk5 V c 2 t : Vec Ideal S256x4096 .bf16) (iblk5 V c 3 t : Vec Ideal S256x4096 .bf16) ?hK2 ?hK3 _ _ ?hs1 ?hs2
  case hs0 =>
    intro l j
    rw [sout5_A_0_eq]
    refine (softmax_payload_apply _ l j).trans ?_
    exact softmaxCol_block (b := 8192) (iblk5 V c 0 t : Vec Ideal S21x8192 .f32) (cur5 V c) l j j
      fun k => iblk5_0_apply V c t k j k j (by omega) (by omega)
  case ha1 => intro l col N _; exact (clear_payload_apply _).trans (groupSum_zero _ _ _ _).symm
  case ha2 => intro l col N _; exact (clear_payload_apply' _).trans (groupSum_zero _ _ _ _).symm
  case hqb =>
    intro l r J hJ
    rw [sout5_A_0_eq]
    exact slab5_apply (grid5.coords t) _ l r J (by rw [hJ, hco.2, h0])
  case hK2 => intro r col R C hR hC; exact iblk5_2_apply V c t r col R C (by rw [hR, h0]) hC
  case hK3 => intro r col R C hR hC; exact iblk5_3_apply V c t r col R C (by rw [hR, h0]) hC
  case hs1 => intro l col; rw [sout5_A_1_eq]; exact accum_payload_apply _ _ _ l col
  case hs2 => intro l col; rw [sout5_A_2_eq]; exact accum_payload_apply' _ _ _ l col

/-- A middle step keeps the first carried buffer and adds its slab's group of 256 terms to each accumulator. -/
theorem carried5_B (c : Dev nD) (t : Fin cfg5.N) (h0 : ¬t.val % 32 = 0) (h1 : ¬t.val % 32 = 31)
    (ih : CarriedAt (cur5 V c) (ksp5 V c) (kbi5 V c) ((t.val - 1) / 32) ((t.val - 1) % 32)
      (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2) :
    CarriedAt (cur5 V c) (ksp5 V c) (kbi5 V c) (t.val / 32) (t.val % 32)
      (outsAt5 V c t.val t.isLt).2.1 (outsAt5 V c t.val t.isLt).2.2.1 (outsAt5 V c t.val t.isLt).2.2.2 := by
  have hco := coords5 t
  have e1 : (t.val - 1) / 32 = t.val / 32 := by omega
  have e2 : (t.val - 1) % 32 + 1 = t.val % 32 := by omega
  obtain ⟨ih0, ih1, ih2⟩ := ih
  rw [e1, e2] at ih1 ih2
  rw [outsAt5_B V c t h0 h1]
  dsimp only
  refine carried_step (cur5 V c) (ksp5 V c) (kbi5 V c) (t.val / 32) (t.val % 32) (Nat.mod_lt _ (by decide)) _ ih0
    (outsAt5 V c (t.val - 1) (Nat.lt_of_le_of_lt (Nat.sub_le _ _) t.isLt)).2.2.1 (outsAt5 V c (t.val - 1) (Nat.lt_of_le_of_lt (Nat.sub_le _ _) t.isLt)).2.2.2 ih1 ih2
    (slab5 (grid5.coords t) (outsAt5 V c (t.val - 1) (Nat.lt_of_le_of_lt (Nat.sub_le _ _) t.isLt)).2.1) ?hqb
    (iblk5 V c 2 t : Vec Ideal S256x4096 .bf16) (iblk5 V c 3 t : Vec Ideal S256x4096 .bf16) ?hK2 ?hK3 _ _ ?hs1 ?hs2
  case hqb =>
    intro l r J hJ
    exact slab5_apply (grid5.coords t) _ l r J (by rw [hJ, hco.2])
  case hK2 => intro r col R C hR hC; exact iblk5_2_apply V c t r col R C hR hC
  case hK3 => intro r col R C hR hC; exact iblk5_3_apply V c t r col R C hR hC
  case hs1 => intro l col; rw [sout5_B_1_eq]; exact accum_payload_apply _ _ _ l col
  case hs2 => intro l col; rw [sout5_B_2_eq]; exact accum_payload_apply' _ _ _ l col

/-- So does the last step. -/
theorem carried5_C (c : Dev nD) (t : Fin cfg5.N) (h0 : ¬t.val % 32 = 0) (h1 : t.val % 32 = 31)
    (ih : CarriedAt (cur5 V c) (ksp5 V c) (kbi5 V c) ((t.val - 1) / 32) ((t.val - 1) % 32)
      (outsAt5 V c (t.val - 1) (Nat.lt_of_le_of_lt (Nat.sub_le _ _) t.isLt)).2.1 (outsAt5 V c (t.val - 1) (Nat.lt_of_le_of_lt (Nat.sub_le _ _) t.isLt)).2.2.1 (outsAt5 V c (t.val - 1) (Nat.lt_of_le_of_lt (Nat.sub_le _ _) t.isLt)).2.2.2) :
    CarriedAt (cur5 V c) (ksp5 V c) (kbi5 V c) (t.val / 32) (t.val % 32)
      (outsAt5 V c t.val t.isLt).2.1 (outsAt5 V c t.val t.isLt).2.2.1 (outsAt5 V c t.val t.isLt).2.2.2 := by
  have hco := coords5 t
  have e1 : (t.val - 1) / 32 = t.val / 32 := by omega
  have e2 : (t.val - 1) % 32 + 1 = t.val % 32 := by omega
  obtain ⟨ih0, ih1, ih2⟩ := ih
  rw [e1, e2] at ih1 ih2
  rw [outsAt5_C V c t h0 h1]
  dsimp only
  refine carried_step (cur5 V c) (ksp5 V c) (kbi5 V c) (t.val / 32) (t.val % 32) (Nat.mod_lt _ (by decide)) _ ih0
    (outsAt5 V c (t.val - 1) (Nat.lt_of_le_of_lt (Nat.sub_le _ _) t.isLt)).2.2.1 (outsAt5 V c (t.val - 1) (Nat.lt_of_le_of_lt (Nat.sub_le _ _) t.isLt)).2.2.2 ih1 ih2
    (slab5 (grid5.coords t) (outsAt5 V c (t.val - 1) (Nat.lt_of_le_of_lt (Nat.sub_le _ _) t.isLt)).2.1) ?hqb
    (iblk5 V c 2 t : Vec Ideal S256x4096 .bf16) (iblk5 V c 3 t : Vec Ideal S256x4096 .bf16) ?hK2 ?hK3 _ _ ?hs1 ?hs2
  case hqb =>
    intro l r J hJ
    exact slab5_apply (grid5.coords t) _ l r J (by rw [hJ, hco.2])
  case hK2 => intro r col R C hR hC; exact iblk5_2_apply V c t r col R C hR hC
  case hK3 => intro r col R C hR hC; exact iblk5_3_apply V c t r col R C hR hC
  case hs1 => intro l col; rw [sout5_C_1_eq]; exact accum_payload_apply _ _ _ l col
  case hs2 => intro l col; rw [sout5_C_2_eq]; exact accum_payload_apply' _ _ _ l col

/-- After the point n = 32 h + k the first carried buffer holds the softmax of the current scores and the
    accumulators the first k + 1 groups of 256 terms of the products' entries at the sites of half h: by induction
    along the grid. -/
theorem carried5 (c : Dev nD) : ∀ (n : ℕ) (hn : n < cfg5.N),
    CarriedAt (cur5 V c) (ksp5 V c) (kbi5 V c) (n / 32) (n % 32)
      (outsAt5 V c n hn).2.1 (outsAt5 V c n hn).2.2.1 (outsAt5 V c n hn).2.2.2
  | 0, hn => carried5_A V c ⟨0, hn⟩ rfl
  | n + 1, hn => by
    by_cases h0 : (n + 1) % 32 = 0
    · have h := carried5_A V c ⟨n + 1, hn⟩ h0
      rw [h0]; exact h
    · by_cases h1 : (n + 1) % 32 = 31
      · exact carried5_C V c ⟨n + 1, hn⟩ h0 h1 (carried5 c n (Nat.lt_of_succ_lt hn))
      · exact carried5_B V c ⟨n + 1, hn⟩ h0 h1 (carried5 c n (Nat.lt_of_succ_lt hn))

/-- One mean-field step of the region's arrays. -/
abbrev step5 (c : Dev nD) : Mat 21 8192 :=
  meanFieldStep (ksp5 V c) (kbi5 V c) (nsp5 V c) (nbi5 V c) (un5 V c) (spw5 V c) (biw5 V c) (compat5 V c) (cur5 V c)

/-- At the last step of row h the output's block holds, at (l, col), the softmax over the labels of the mean-field
    step at label l and site 4096 h + col. -/
theorem out5_9_value (c : Dev nD) (t : Fin cfg5.N) (h1 : t.val % 32 = 31) (l : Fin 21) (col : Fin 4096) (N : Fin 8192)
    (hN : N.val = 4096 * (t.val / 32) + col.val) :
    (outsAt5 V c t.val t.isLt).1 (ix2 l col) = softmax0 (step5 V c) (ix2 l N) := by
  have h0 : ¬t.val % 32 = 0 := by omega
  have hc := carried5 V c t.val t.isLt
  rw [h1] at hc
  rw [out5_at_C V c t h0 h1]
  refine (last_payload_apply _ _ _ _ _ _ _ _ l col).trans ?_
  refine softmax_message_value (step5 V c) _ l col N fun k => ?_
  refine (message_payload_apply _ _ _ _ _ _ _ _ k col).trans ?_
  exact message_value (cur5 V c) (ksp5 V c) (kbi5 V c) (nsp5 V c) (nbi5 V c) (un5 V c) (spw5 V c) (biw5 V c) (compat5 V c)
    (t.val / 32) _ _ _ hc
    (iblk5 V c 1 t : Vec Ideal S21x4096 .f32) (iblk5 V c 4 t : Vec Ideal S1x4096 .f32) (iblk5 V c 5 t : Vec Ideal S1x4096 .f32)
    (iblk5 V c 6 t : Vec Ideal S21x21 .f32) (iblk5 V c 7 t : Vec Ideal S21x21 .f32) (iblk5 V c 8 t : Vec Ideal S21x21 .f32)
    (fun l col N hN => iblk5_1_apply V c t l col l N (by omega) hN)
    (fun col N hN => iblk5_4_apply V c t 0 col 0 N (by decide) hN)
    (fun col N hN => iblk5_5_apply V c t 0 col 0 N (by decide) hN)
    (fun p q => iblk5_6_apply V c t p q p q (by omega) (by omega))
    (fun p q => iblk5_7_apply V c t p q p q (by omega) (by omega))
    (fun p q => iblk5_8_apply V c t p q p q (by omega) (by omega))
    k col N hN

/-- The output's block index at point t is (0, t / 32). -/
theorem index5_9 (t : Fin cfg5.N) : win5_9.index t 0 = 0 ∧ win5_9.index t 1 = t.val / 32 :=
  (by decide +kernel : ∀ t : Fin grid5.N, win5_9.index t 0 = 0 ∧ win5_9.index t 1 = t.val / 32) t

/-- What the last step of row h writes back, entry by entry: the softmax of the mean-field step at the sites of half h. -/
theorem flushed_entry5 (c : Dev nD) (t : Fin cfg5.N) (h1 : t.val % 32 = 31) (x : S21x4096.Idx) :
    (cfg5.win 9).cut (grid5.coords t) (outsAt5 V c t.val t.isLt).1 x
      = softmax0 (step5 V c) (((cfg5.win 9).blk t).view.emb x) := by
  have hi := index5_9 t
  have ht : t.val < 64 := t.isLt
  have hx1 : (x 1).val < 4096 := (x 1).isLt
  show (outsAt5 V c t.val t.isLt).1 ((cfg5.win 9).xinj (grid5.coords t) x) = _
  rw [show (cfg5.win 9).xinj (grid5.coords t) x = x from funext fun a => Fin.ext rfl]
  have hx : x = ix2 (x 0) (x 1) := eq_ix2 x
  rw [hx]
  refine (out5_9_value V c t h1 (x 0) (x 1) ⟨4096 * (t.val / 32) + (x 1).val, by omega⟩ rfl).trans ?_
  show softmax0 (step5 V c) _ = softmax0 (step5 V c) _
  congr 1
  funext d
  apply Fin.ext
  match d with
  | ⟨0, _⟩ => show (x 0).val = win5_9.index t 0 * 21 + 1 * (x 0).val; rw [hi.1]; omega
  | ⟨1, _⟩ => show 4096 * (t.val / 32) + (x 1).val = win5_9.index t 1 * 4096 + 1 * (x 1).val; rw [hi.2]; omega

/-- Every write-back of the output's window writes its block of the softmax of the mean-field step. -/
theorem flushed_eq5 (c : Dev nD) (t : Fin cfg5.N) (hf : (cfg5.win 9).flush t = true) :
    (dat5 V c).flushed 9 t = ((cfg5.win 9).blk t).view.read (Elt Ideal) (softmax0 (step5 V c)) := by
  have h1 : t.val % 32 = 31 := (flush5_9 t).mp hf
  show (cfg5.win 9).cut (grid5.coords t) ((dat5 V c).after 9 t) = _
  rw [after5_9]
  funext x
  rw [View.read_apply]
  exact flushed_entry5 V c t h1 x

/-- The two write-backs cover the output array (columns below 4096 at point 31, the others at point 63), so it ends
    holding the softmax over the labels of one mean-field step of the current scores. -/
theorem final5_9 (c : Dev nD) : (dat5 (F := Ideal) V c).arrAt 9 cfg5.N
    = softmax0 (meanFieldStep (ksp5 V c) (kbi5 V c) (nsp5 V c) (nbi5 V c) (un5 V c) (spw5 V c) (biw5 V c) (compat5 V c) (cur5 V c)) :=
  (dat5 V c).arrAt_eq_of_cover 9 (softmax0 (step5 V c)) (flushed_eq5 V c) fun i => by
    have hi1 : (i 1 : Nat) < 8192 := (i 1).isLt
    have hi0 : (i 0 : Nat) < 21 := (i 0).isLt
    obtain ⟨T, hT⟩ : ∃ T : Fin cfg5.N, T.val = 32 * ((i 1 : Nat) / 4096) + 31 :=
      ⟨⟨32 * ((i 1 : Nat) / 4096) + 31, by show _ < 64; omega⟩, rfl⟩
    have hi := index5_9 T
    refine ⟨T, (flush5_9 T).mpr (by rw [hT]; omega), ?_⟩
    show i ∈ ((View.whole main_v32).slice (win5_9.rect T)).set
    rw [View.set_slice_whole, Rect.mem_set_unit]
    intro a
    match a with
    | ⟨0, _⟩ =>
      show win5_9.index T 0 * 21 ≤ (i 0 : Nat) ∧ (i 0 : Nat) < win5_9.index T 0 * 21 + 21
      rw [hi.1]; omega
    | ⟨1, _⟩ =>
      show win5_9.index T 1 * 4096 ≤ (i 1 : Nat) ∧ (i 1 : Nat) < win5_9.index T 1 * 4096 + 4096
      rw [hi.2, hT]; omega

end Value

end Cert.KernelIdeal.Hand

end
-- ==== Proof.IdealValue.lean ====
import proofs.«162179_j58609123721967_2_alg».proof.Proof.IdealRun
import proofs.«162179_j58609123721967_2_alg».proof.Proof.IdealHost
import proofs.«162179_j58609123721967_2_alg».proof.Proof.IdealR0Value
import proofs.«162179_j58609123721967_2_alg».proof.Proof.IdealR1Value
import proofs.«162179_j58609123721967_2_alg».proof.Proof.IdealR2Value
import proofs.«162179_j58609123721967_2_alg».proof.Proof.IdealR3Value
import proofs.«162179_j58609123721967_2_alg».proof.Proof.IdealR4Value
import proofs.«162179_j58609123721967_2_alg».proof.Proof.IdealR5Value

/-
  The idealized kernel's result as a function of its arguments. The run leaves every buffer at the last of ten
  contents; followed back item by item, the result buffer is the volume layout of the 21 × 8192 array that the last
  region leaves, which is the softmax over the labels of the fifth mean-field update; each of the five regions reads the
  two affinity arrays and the two normalizer rows as the first region and the re-shapings left them (no later item
  writes them), the unary scores and the three weight arrays as launched, and the scores as the region before left
  them — the first, the logits laid out as 21 rows of 8192 sites. The affinity arrays and normalizers are those of the
  two feature arrays the first stretch of host operations builds from the site coordinates and the image.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.ReferenceIdeal.RefValue

variable (m : (ℓ : Loc nD τ sig) → Buf (Elt Ideal) ℓ) (ρ : Dev nD → PrngReg) (c : Dev nD)

/-! ## What each item leaves alone -/

theorem W1_of (r : Ref sig .tc) (h : r ∉ hostOps0_W) : W1 m ρ c (Proc.devRef .tc r) = m ((c : Thread nD τ).loc r) :=
  (StableHlo.after_of_writes_sub hostOps0 _ hostOps0_writes h).trans rfl

theorem W2_of (r : Ref sig .tc) (n0 : r ≠ main_v21_0) (n1 : r ≠ main_v21_1) (n2 : r ≠ main_v21_2) (n3 : r ≠ main_v21_3) :
    W2 m ρ c (Proc.devRef .tc r) = W1 m ρ c (Proc.devRef .tc r) := by
  unfold W2
  rw [Function.update_of_ne (StableHlo.devRef_ne_of_ne n3), Function.update_of_ne (StableHlo.devRef_ne_of_ne n2),
    Function.update_of_ne (StableHlo.devRef_ne_of_ne n1), Function.update_of_ne (StableHlo.devRef_ne_of_ne n0)]

theorem W3_of (r : Ref sig .tc) (h : r ∉ hostOps1_W) : W3 m ρ c (Proc.devRef .tc r) = W2 m ρ c (Proc.devRef .tc r) :=
  StableHlo.after_of_writes_sub hostOps1 _ hostOps1_writes h

theorem W4_of (r : Ref sig .tc) (h : r ≠ main_v28) : W4 m ρ c (Proc.devRef .tc r) = W3 m ρ c (Proc.devRef .tc r) := by
  unfold W4; rw [Function.update_of_ne (StableHlo.devRef_ne_of_ne h)]
theorem W5_of (r : Ref sig .tc) (h : r ≠ main_v29) : W5 m ρ c (Proc.devRef .tc r) = W4 m ρ c (Proc.devRef .tc r) := by
  unfold W5; rw [Function.update_of_ne (StableHlo.devRef_ne_of_ne h)]
theorem W6_of (r : Ref sig .tc) (h : r ≠ main_v30) : W6 m ρ c (Proc.devRef .tc r) = W5 m ρ c (Proc.devRef .tc r) := by
  unfold W6; rw [Function.update_of_ne (StableHlo.devRef_ne_of_ne h)]
theorem W7_of (r : Ref sig .tc) (h : r ≠ main_v31) : W7 m ρ c (Proc.devRef .tc r) = W6 m ρ c (Proc.devRef .tc r) := by
  unfold W7; rw [Function.update_of_ne (StableHlo.devRef_ne_of_ne h)]
theorem W8_of (r : Ref sig .tc) (h : r ≠ main_v32) : W8 m ρ c (Proc.devRef .tc r) = W7 m ρ c (Proc.devRef .tc r) := by
  unfold W8; rw [Function.update_of_ne (StableHlo.devRef_ne_of_ne h)]

/-! ## The arguments and what is computed from them -/

/-- The image, the logits, the unary scores and the three weight arrays as launched on core `c`. -/
abbrev image : Vol 3 := m ((c : Thread nD τ).loc main_arg0)
abbrev logits : Vol 21 := m ((c : Thread nD τ).loc main_arg1)
abbrev unary : Vol 21 := m ((c : Thread nD τ).loc main_arg2)
abbrev spw : Mat 21 21 := m ((c : Thread nD τ).loc main_arg3)
abbrev biw : Mat 21 21 := m ((c : Thread nD τ).loc main_arg4)
abbrev compat : Mat 21 21 := m ((c : Thread nD τ).loc main_arg5)

/-- One mean-field step with this launch's affinity arrays, normalizers, unary scores and weights. -/
abbrev step : Mat 21 8192 → Mat 21 8192 :=
  meanFieldStep (gaussMat spFeat) (gaussMat (biFeat (image m c))) (rowNorm spFeat) (rowNorm (biFeat (image m c)))
    (flat (unary m c)) (spw m c) (biw m c) (compat m c)

/-! ## After the first region -/

theorem W1_sp : (W1 m ρ c (Proc.devRef .tc main_v15) : Mat 3 8192) = spFeat := host0_sp (W0 m ρ c)
theorem W1_bi : (W1 m ρ c (Proc.devRef .tc main_v20) : Mat 6 8192) = biFeat (image m c) := host0_bi (W0 m ρ c)

theorem W2_ksp : (W2 m ρ c (Proc.devRef .tc main_v21_0) : Mat 8192 8192) = gaussMat spFeat :=
  ((hF0 m ρ c 4).symm.trans (final0_4 (V1 m ρ) c)).trans (congrArg gaussMat (W1_sp m ρ c))
theorem W2_kbi : (W2 m ρ c (Proc.devRef .tc main_v21_1) : Mat 8192 8192) = gaussMat (biFeat (image m c)) :=
  ((hF0 m ρ c 5).symm.trans (final0_5 (V1 m ρ) c)).trans (congrArg gaussMat (W1_bi m ρ c))
theorem W2_nsp : (W2 m ρ c (Proc.devRef .tc main_v21_2) : Mat 8192 1) = fun i => rowNorm spFeat (i 0) :=
  ((hF0 m ρ c 6).symm.trans (final0_6 (V1 m ρ) c)).trans (congrArg (fun f : Mat 3 8192 => fun i : (⟨2, ![8192, 1]⟩ : Shape).Idx => rowNorm f (i 0)) (W1_sp m ρ c))
theorem W2_nbi : (W2 m ρ c (Proc.devRef .tc main_v21_3) : Mat 8192 1) = fun i => rowNorm (biFeat (image m c)) (i 0) :=
  ((hF0 m ρ c 7).symm.trans (final0_7 (V1 m ρ) c)).trans (congrArg (fun f : Mat 6 8192 => fun i : (⟨2, ![8192, 1]⟩ : Shape).Idx => rowNorm f (i 0)) (W1_bi m ρ c))

theorem W2_arg (r : Ref sig .tc) (h : r ∉ hostOps0_W) (n0 : r ≠ main_v21_0) (n1 : r ≠ main_v21_1) (n2 : r ≠ main_v21_2) (n3 : r ≠ main_v21_3) :
    W2 m ρ c (Proc.devRef .tc r) = m ((c : Thread nD τ).loc r) :=
  (W2_of m ρ c r n0 n1 n2 n3).trans (W1_of m ρ c r h)

/-! ## What the five mean-field regions read, beside the scores -/

/-- The buffers a mean-field region reads beside the scores hold, in contents `W`, this launch's affinity arrays,
    normalizer rows, unary scores and weights. -/
structure Inputs (W : Valuation τ sig (Elt Ideal)) : Prop where
  ksp : (W (Proc.devRef .tc main_v21_0) : Mat 8192 8192) = gaussMat spFeat
  kbi : (W (Proc.devRef .tc main_v21_1) : Mat 8192 8192) = gaussMat (biFeat (image m c))
  nsp : (fun n : Fin 8192 => (W (Proc.devRef .tc main_v22) : Mat 1 8192) (ix2 (0 : Fin 1) n)) = rowNorm spFeat
  nbi : (fun n : Fin 8192 => (W (Proc.devRef .tc main_v23) : Mat 1 8192) (ix2 (0 : Fin 1) n)) = rowNorm (biFeat (image m c))
  un : (W (Proc.devRef .tc main_v27) : Mat 21 8192) = flat (unary m c)
  w1 : (W (Proc.devRef .tc main_arg3) : Mat 21 21) = spw m c
  w2 : (W (Proc.devRef .tc main_arg4) : Mat 21 21) = biw m c
  w3 : (W (Proc.devRef .tc main_arg5) : Mat 21 21) = compat m c

theorem inputs3 : Inputs m c (W3 m ρ c) where
  ksp := (W3_of m ρ c main_v21_0 (by decide)).trans (W2_ksp m ρ c)
  kbi := (W3_of m ρ c main_v21_1 (by decide)).trans (W2_kbi m ρ c)
  nsp := funext fun n => (host1_nsp (W2 m ρ c) n).trans (congrFun (W2_nsp m ρ c) (ix2 n (0 : Fin 1)))
  nbi := funext fun n => (host1_nbi (W2 m ρ c) n).trans (congrFun (W2_nbi m ρ c) (ix2 n (0 : Fin 1)))
  un := (host1_unary (W2 m ρ c)).trans (congrArg flat (W2_arg m ρ c main_arg2 (by decide) (by decide) (by decide) (by decide) (by decide)))
  w1 := (W3_of m ρ c main_arg3 (by decide)).trans (W2_arg m ρ c main_arg3 (by decide) (by decide) (by decide) (by decide) (by decide))
  w2 := (W3_of m ρ c main_arg4 (by decide)).trans (W2_arg m ρ c main_arg4 (by decide) (by decide) (by decide) (by decide) (by decide))
  w3 := (W3_of m ρ c main_arg5 (by decide)).trans (W2_arg m ρ c main_arg5 (by decide) (by decide) (by decide) (by decide) (by decide))

/-- A contents that agrees with one satisfying `Inputs` on the eight buffers satisfies it. -/
theorem Inputs.of_agree {W W' : Valuation τ sig (Elt Ideal)} (h : Inputs m c W)
    (e : ∀ r : Ref sig .tc, r ∈ ([main_v21_0, main_v21_1, main_v22, main_v23, main_v27, main_arg3, main_arg4, main_arg5] : List (Ref sig .tc)) →
      W' (Proc.devRef .tc r) = W (Proc.devRef .tc r)) : Inputs m c W' where
  ksp := by rw [e main_v21_0 (by decide)]; exact h.ksp
  kbi := by rw [e main_v21_1 (by decide)]; exact h.kbi
  nsp := by rw [e main_v22 (by decide)]; exact h.nsp
  nbi := by rw [e main_v23 (by decide)]; exact h.nbi
  un := by rw [e main_v27 (by decide)]; exact h.un
  w1 := by rw [e main_arg3 (by decide)]; exact h.w1
  w2 := by rw [e main_arg4 (by decide)]; exact h.w2
  w3 := by rw [e main_arg5 (by decide)]; exact h.w3

theorem inputs4 : Inputs m c (W4 m ρ c) :=
  (inputs3 m ρ c).of_agree m c fun r hr => W4_of m ρ c r (by rintro rfl; revert hr; decide)
theorem inputs5 : Inputs m c (W5 m ρ c) :=
  (inputs4 m ρ c).of_agree m c fun r hr => W5_of m ρ c r (by rintro rfl; revert hr; decide)
theorem inputs6 : Inputs m c (W6 m ρ c) :=
  (inputs5 m ρ c).of_agree m c fun r hr => W6_of m ρ c r (by rintro rfl; revert hr; decide)
theorem inputs7 : Inputs m c (W7 m ρ c) :=
  (inputs6 m ρ c).of_agree m c fun r hr => W7_of m ρ c r (by rintro rfl; revert hr; decide)

/-! ## The scores, step by step -/

theorem W3_cur : (W3 m ρ c (Proc.devRef .tc main_v25) : Mat 21 8192) = flat (logits m c) :=
  (host1_logits (W2 m ρ c)).trans (congrArg flat (W2_arg m ρ c main_arg1 (by decide) (by decide) (by decide) (by decide) (by decide)))

theorem W4_cur : (W4 m ρ c (Proc.devRef .tc main_v28) : Mat 21 8192) = step m c (flat (logits m c)) := by
  refine ((hF1 m ρ c 9).symm.trans (final1_9 (V3 m ρ) c)).trans ?_
  have h := inputs3 m ρ c
  show meanFieldStep (W3 m ρ c (Proc.devRef .tc main_v21_0)) (W3 m ρ c (Proc.devRef .tc main_v21_1))
      (fun n => (W3 m ρ c (Proc.devRef .tc main_v22) : Mat 1 8192) (ix2 (0 : Fin 1) n)) (fun n => (W3 m ρ c (Proc.devRef .tc main_v23) : Mat 1 8192) (ix2 (0 : Fin 1) n))
      (W3 m ρ c (Proc.devRef .tc main_v27)) (W3 m ρ c (Proc.devRef .tc main_arg3)) (W3 m ρ c (Proc.devRef .tc main_arg4)) (W3 m ρ c (Proc.devRef .tc main_arg5))
      (W3 m ρ c (Proc.devRef .tc main_v25)) = _
  rw [h.ksp, h.kbi, h.nsp, h.nbi, h.un, h.w1, h.w2, h.w3, W3_cur]

theorem W5_cur : (W5 m ρ c (Proc.devRef .tc main_v29) : Mat 21 8192) = step m c (step m c (flat (logits m c))) := by
  refine ((hF2 m ρ c 9).symm.trans (final2_9 (V4 m ρ) c)).trans ?_
  have h := inputs4 m ρ c
  show meanFieldStep (W4 m ρ c (Proc.devRef .tc main_v21_0)) (W4 m ρ c (Proc.devRef .tc main_v21_1))
      (fun n => (W4 m ρ c (Proc.devRef .tc main_v22) : Mat 1 8192) (ix2 (0 : Fin 1) n)) (fun n => (W4 m ρ c (Proc.devRef .tc main_v23) : Mat 1 8192) (ix2 (0 : Fin 1) n))
      (W4 m ρ c (Proc.devRef .tc main_v27)) (W4 m ρ c (Proc.devRef .tc main_arg3)) (W4 m ρ c (Proc.devRef .tc main_arg4)) (W4 m ρ c (Proc.devRef .tc main_arg5))
      (W4 m ρ c (Proc.devRef .tc main_v28)) = _
  rw [h.ksp, h.kbi, h.nsp, h.nbi, h.un, h.w1, h.w2, h.w3, W4_cur]

theorem W6_cur : (W6 m ρ c (Proc.devRef .tc main_v30) : Mat 21 8192) = step m c (step m c (step m c (flat (logits m c)))) := by
  refine ((hF3 m ρ c 9).symm.trans (final3_9 (V5 m ρ) c)).trans ?_
  have h := inputs5 m ρ c
  show meanFieldStep (W5 m ρ c (Proc.devRef .tc main_v21_0)) (W5 m ρ c (Proc.devRef .tc main_v21_1))
      (fun n => (W5 m ρ c (Proc.devRef .tc main_v22) : Mat 1 8192) (ix2 (0 : Fin 1) n)) (fun n => (W5 m ρ c (Proc.devRef .tc main_v23) : Mat 1 8192) (ix2 (0 : Fin 1) n))
      (W5 m ρ c (Proc.devRef .tc main_v27)) (W5 m ρ c (Proc.devRef .tc main_arg3)) (W5 m ρ c (Proc.devRef .tc main_arg4)) (W5 m ρ c (Proc.devRef .tc main_arg5))
      (W5 m ρ c (Proc.devRef .tc main_v29)) = _
  rw [h.ksp, h.kbi, h.nsp, h.nbi, h.un, h.w1, h.w2, h.w3, W5_cur]

theorem W7_cur : (W7 m ρ c (Proc.devRef .tc main_v31) : Mat 21 8192) = step m c (step m c (step m c (step m c (flat (logits m c))))) := by
  refine ((hF4 m ρ c 9).symm.trans (final4_9 (V6 m ρ) c)).trans ?_
  have h := inputs6 m ρ c
  show meanFieldStep (W6 m ρ c (Proc.devRef .tc main_v21_0)) (W6 m ρ c (Proc.devRef .tc main_v21_1))
      (fun n => (W6 m ρ c (Proc.devRef .tc main_v22) : Mat 1 8192) (ix2 (0 : Fin 1) n)) (fun n => (W6 m ρ c (Proc.devRef .tc main_v23) : Mat 1 8192) (ix2 (0 : Fin 1) n))
      (W6 m ρ c (Proc.devRef .tc main_v27)) (W6 m ρ c (Proc.devRef .tc main_arg3)) (W6 m ρ c (Proc.devRef .tc main_arg4)) (W6 m ρ c (Proc.devRef .tc main_arg5))
      (W6 m ρ c (Proc.devRef .tc main_v30)) = _
  rw [h.ksp, h.kbi, h.nsp, h.nbi, h.un, h.w1, h.w2, h.w3, W6_cur]

theorem W8_out : (W8 m ρ c (Proc.devRef .tc main_v32) : Mat 21 8192)
    = softmax0 (fiveSteps (step m c) (flat (logits m c))) := by
  refine ((hF5 m ρ c 9).symm.trans (final5_9 (V7 m ρ) c)).trans ?_
  have h := inputs7 m ρ c
  show softmax0 (meanFieldStep (W7 m ρ c (Proc.devRef .tc main_v21_0)) (W7 m ρ c (Proc.devRef .tc main_v21_1))
      (fun n => (W7 m ρ c (Proc.devRef .tc main_v22) : Mat 1 8192) (ix2 (0 : Fin 1) n)) (fun n => (W7 m ρ c (Proc.devRef .tc main_v23) : Mat 1 8192) (ix2 (0 : Fin 1) n))
      (W7 m ρ c (Proc.devRef .tc main_v27)) (W7 m ρ c (Proc.devRef .tc main_arg3)) (W7 m ρ c (Proc.devRef .tc main_arg4)) (W7 m ρ c (Proc.devRef .tc main_arg5))
      (W7 m ρ c (Proc.devRef .tc main_v31))) = _
  rw [h.ksp, h.kbi, h.nsp, h.nbi, h.un, h.w1, h.w2, h.w3, W7_cur]
  rfl

/-! ## The result -/

theorem W9_result : (W9 m ρ c (Proc.devRef .tc main_v33) : Vol 21)
    = crfOut spFeat (biFeat (image m c)) (logits m c) (unary m c) (spw m c) (biw m c) (compat m c) :=
  (host6_result (W8 m ρ c)).trans (congrArg unflat (W8_out m ρ c))

/-- THE VALUE. Every weakly fair execution of the idealized kernel terminates, nothing faulting, with the result buffer at
    the mean-field inference of its arguments and each argument as launched. -/
theorem value_run : θ_run defs (onTc (τ := τ) (main (F := Ideal))) ⟨m, fun _ => 0, ρ⟩ (fun r => ∀ c : Dev nD,
      r.2.mem ((c.tc : Thread nD τ).loc main_v33)
        = crfOut spFeat (biFeat (m ((c.tc : Thread nD τ).loc main_arg0))) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v33 (by decide))).trans (W9_result m ρ c),
     (h c _ (mem_uc main_arg0 (by decide))).trans (W9_kept m ρ c main_arg0 (by decide) (by decide) (by decide) (by decide) (by decide) (by decide) (by decide) (by decide) (by decide) (by decide) (by decide) (by decide)),
     (h c _ (mem_uc main_arg1 (by decide))).trans (W9_kept m ρ c main_arg1 (by decide) (by decide) (by decide) (by decide) (by decide) (by decide) (by decide) (by decide) (by decide) (by decide) (by decide) (by decide)),
     (h c _ (mem_uc main_arg2 (by decide))).trans (W9_kept m ρ c main_arg2 (by decide) (by decide) (by decide) (by decide) (by decide) (by decide) (by decide) (by decide) (by decide) (by decide) (by decide) (by decide)),
     (h c _ (mem_uc main_arg3 (by decide))).trans (W9_kept m ρ c main_arg3 (by decide) (by decide) (by decide) (by decide) (by decide) (by decide) (by decide) (by decide) (by decide) (by decide) (by decide) (by decide)),
     (h c _ (mem_uc main_arg4 (by decide))).trans (W9_kept m ρ c main_arg4 (by decide) (by decide) (by decide) (by decide) (by decide) (by decide) (by decide) (by decide) (by decide) (by decide) (by decide) (by decide)),
     (h c _ (mem_uc main_arg5 (by decide))).trans (W9_kept m ρ c main_arg5 (by decide) (by decide) (by decide) (by decide) (by decide) (by decide) (by decide) (by decide) (by decide) (by decide) (by decide) (by decide))⟩)
    (run m ρ)

end Cert.KernelIdeal.Hand
end
-- ==== Proof.RefRun.lean ====
import proofs.«162179_j58609123721967_2_alg».proof.Proof.Gen.ReferenceIdeal.Run
-- ==== Proof.RefValue.lean ====
/-
  The reference's result, as the specification's function of the six arguments.

  The reference's run ends with its result array at the composed term of the arguments' contents when the program
  starts: a chain of named intermediate arrays. Each is read here as the specification's whole-array function, in
  the order the program computes them — the positions of the sites and the two feature arrays; the two arrays of
  Gaussian affinities and their normalizers; the unary scores and the logits laid out over the 8192 sites; then five
  times the softmax over the labels followed by one mean-field update; and at the end the softmax of the fifth
  update's scores laid back over the volume. Every step is one of the stage lemmas, applied to the shape facts the
  program states.
-/
import proofs.«162179_j58609123721967_2_alg».proof.Proof.RefRun
import proofs.«162179_j58609123721967_2_alg».proof.Proof.RefStages

open scoped BigOperators

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.Lib.MatProd

variable (V : Valuation τ sig (Elt Ideal))

/-! ## The arguments -/

/-- The image: three channels over the volume. -/
abbrev image : Vol 3 := V (Proc.devRef .tc main_arg0)
/-- The logits: 21 labels over the volume. -/
abbrev logits : Vol 21 := V (Proc.devRef .tc main_arg1)
/-- The unary scores: 21 labels over the volume. -/
abbrev unaryScores : Vol 21 := V (Proc.devRef .tc main_arg2)
/-- The weights of the spatially filtered distributions. -/
abbrev spw : Mat 21 21 := V (Proc.devRef .tc main_arg3)
/-- The weights of the bilaterally filtered distributions. -/
abbrev biw : Mat 21 21 := V (Proc.devRef .tc main_arg4)
/-- The label compatibilities. -/
abbrev compat : Mat 21 21 := V (Proc.devRef .tc main_arg5)

/-- One mean-field step of the reference, as the specification's function of the arguments. -/
def step : Mat 21 8192 → Mat 21 8192 :=
  meanFieldStep (gaussMat spFeat) (gaussMat (biFeat (image V))) (rowNorm spFeat) (rowNorm (biFeat (image V)))
    (flat (unaryScores V)) (spw V) (biw V) (compat V)

/-! ## The features, the affinities, the normalizers -/

theorem v12_eq : res_main_v12 (F := Ideal) V = positions := by
  unfold res_main_v12
  exact positions_stage bcast_S8_S8x32x32_0 bcast_S32_S8x32x32_1 bcast_S32_S8x32x32_2 bcast_S8x32x32_S1x8x32x32_1_2_3
    concatenates_S1x8x32x32_S1x8x32x32_S1x8x32x32_S3x8x32x32_d0 shapeCasts_S3x8x32x32_S3x8192

theorem v14_eq : res_main_v14 (F := Ideal) V = spFeat := by
  unfold res_main_v14
  rw [v12_eq]
  exact spFeat_stage bcast_S_S3x8192

theorem v37_eq : res_main_v37 (F := Ideal) V = biFeat (image V) := by
  unfold res_main_v37
  rw [v12_eq]
  exact biFeat_stage (image V) bcast_S_S3x8192 shapeCasts_S1x3x8x32x32_S3x8x32x32 shapeCasts_S3x8x32x32_S3x8192
    concatenates_S3x8192_S3x8192_S6x8192_d0

theorem v31_eq : res_main_v31 (F := Ideal) V = gaussMat spFeat := by
  unfold res_main_v31 res_main_v16
  rw [v14_eq]
  exact gauss_stage spFeat h_S_ bcast_S_S8192x8192 bcast_S8192_S8192x1_0 bcast_S8192x1_S8192x8192_0_1
    bcast_S8192_S1x8192_1 bcast_S1x8192_S8192x8192_0_1 reducesTo_S3x8192_S8192_d0 transposes_S3x8192_S8192x3_1_0
    dot_S8192x3_S3x8192_S8192x8192_1_0_0_1_n_n rfl rfl rfl rfl rfl rfl

theorem v54_eq : res_main_v54 (F := Ideal) V = gaussMat (biFeat (image V)) := by
  unfold res_main_v54 res_main_v39
  rw [v37_eq]
  exact gauss_stage (biFeat (image V)) h_S_ bcast_S_S8192x8192 bcast_S8192_S8192x1_0 bcast_S8192x1_S8192x8192_0_1
    bcast_S8192_S1x8192_1 bcast_S1x8192_S8192x8192_0_1 reducesTo_S6x8192_S8192_d0 transposes_S6x8192_S8192x6_1_0
    dot_S8192x6_S6x8192_S8192x8192_1_0_0_1_n_n rfl rfl rfl rfl rfl rfl

theorem v55_eq : res_main_v55 (F := Ideal) V = fun j => rowNorm spFeat (j 0) := by
  unfold res_main_v55
  rw [v31_eq]
  exact rowNorm_stage spFeat reducesTo_S8192x8192_S8192_d1 h_S_

theorem v56_eq : res_main_v56 (F := Ideal) V = fun j => rowNorm (biFeat (image V)) (j 0) := by
  unfold res_main_v56
  rw [v54_eq]
  exact rowNorm_stage (biFeat (image V)) reducesTo_S8192x8192_S8192_d1 h_S_

/-! ## The unary scores and the logits over the sites -/

theorem v58_eq : res_main_v58 (F := Ideal) V = flat (unaryScores V) := by
  unfold res_main_v58
  exact flat_stage (unaryScores V) shapeCasts_S1x21x8x32x32_S21x8x32x32 shapeCasts_S21x8x32x32_S21x8192

theorem v60_eq : res_main_v60 (F := Ideal) V = flat (logits V) := by
  unfold res_main_v60
  exact flat_stage (logits V) shapeCasts_S1x21x8x32x32_S21x8x32x32 shapeCasts_S21x8x32x32_S21x8192

/-! ## The softmax and the update, as the reference spells them over any current scores -/

/-- The reference's softmax chain over any 21 × 8192 array is the specification's softmax. -/
theorem softmax_chain (cur : FVec Ideal S21x8192 .f32) :
    softmaxOps cur h_S_ bcast_S_S8192 bcast_S8192_S1x8192_1 bcast_S1x8192_S21x8192_0_1 reducesTo_S21x8192_S8192_d0
      = softmax0 cur :=
  softmaxOps_eq cur h_S_ bcast_S_S8192 bcast_S8192_S1x8192_1 bcast_S1x8192_S21x8192_0_1 reducesTo_S21x8192_S8192_d0

/-- The reference's update chain over any label distributions q is the specification's update. -/
theorem update_chain (q : FVec Ideal S21x8192 .f32) :
    addf (res_main_v58 (F := Ideal) V) (Host.dotGeneral (F := Ideal) (φ₁ := .f32) (φ₂ := .f32) dot_S21x21_S21x8192_S21x8192_1_0_0_1_n_n none (V (Proc.devRef .tc main_arg5))
      (addf
        (Host.dotGeneral (F := Ideal) (φ₁ := .f32) (φ₂ := .f32) dot_S21x21_S21x8192_S21x8192_1_0_0_1_n_n none (V (Proc.devRef .tc main_arg3))
          (Host.divf (Host.dotGeneral (F := Ideal) (φ₁ := .f32) (φ₂ := .f32) dot_S21x8192_S8192x8192_S21x8192_1_0_0_1_n_n none q (res_main_v31 (F := Ideal) V))
            (broadcastInDim S21x8192 ![0, 1] bcast_S1x8192_S21x8192_0_1
              (broadcastInDim S1x8192 ![1] bcast_S8192_S1x8192_1 (res_main_v55 (F := Ideal) V)))))
        (Host.dotGeneral (F := Ideal) (φ₁ := .f32) (φ₂ := .f32) dot_S21x21_S21x8192_S21x8192_1_0_0_1_n_n none (V (Proc.devRef .tc main_arg4))
          (Host.divf (Host.dotGeneral (F := Ideal) (φ₁ := .f32) (φ₂ := .f32) dot_S21x8192_S8192x8192_S21x8192_1_0_0_1_n_n none q (res_main_v54 (F := Ideal) V))
            (broadcastInDim S21x8192 ![0, 1] bcast_S1x8192_S21x8192_0_1
              (broadcastInDim S1x8192 ![1] bcast_S8192_S1x8192_1 (res_main_v56 (F := Ideal) V)))))))
      = meanFieldUpdate (gaussMat spFeat) (gaussMat (biFeat (image V))) (rowNorm spFeat) (rowNorm (biFeat (image V)))
          (flat (unaryScores V)) (spw V) (biw V) (compat V) q := by
  refine (update_stage q (res_main_v58 (F := Ideal) V) (res_main_v31 (F := Ideal) V) (res_main_v54 (F := Ideal) V)
    (res_main_v55 (F := Ideal) V) (res_main_v56 (F := Ideal) V) (V (Proc.devRef .tc main_arg3)) (V (Proc.devRef .tc main_arg4))
    (V (Proc.devRef .tc main_arg5)) bcast_S8192_S1x8192_1 bcast_S1x8192_S21x8192_0_1
    dot_S21x8192_S8192x8192_S21x8192_1_0_0_1_n_n rfl rfl rfl rfl rfl rfl
    dot_S21x21_S21x8192_S21x8192_1_0_0_1_n_n rfl rfl rfl rfl rfl rfl).trans ?_
  rw [v58_eq, v31_eq, v54_eq, v55_eq, v56_eq]
  rfl

/-! ## The five steps -/

theorem v71_eq : res_main_v71 (F := Ideal) V = softmax0 (flat (logits V)) := by
  unfold res_main_v71 res_main_v67
  rw [v60_eq]
  exact softmax_chain (flat (logits V))

theorem v84_eq : res_main_v84 (F := Ideal) V = step V (flat (logits V)) := by
  unfold res_main_v84
  rw [v71_eq]
  exact update_chain V _

theorem v95_eq : res_main_v95 (F := Ideal) V = softmax0 (step V (flat (logits V))) := by
  unfold res_main_v95 res_main_v91
  rw [v84_eq]
  exact softmax_chain _

theorem v108_eq : res_main_v108 (F := Ideal) V = step V (step V (flat (logits V))) := by
  unfold res_main_v108
  rw [v95_eq]
  exact update_chain V _

theorem v119_eq : res_main_v119 (F := Ideal) V = softmax0 (step V (step V (flat (logits V)))) := by
  unfold res_main_v119 res_main_v115
  rw [v108_eq]
  exact softmax_chain _

theorem v132_eq : res_main_v132 (F := Ideal) V = step V (step V (step V (flat (logits V)))) := by
  unfold res_main_v132
  rw [v119_eq]
  exact update_chain V _

theorem v143_eq : res_main_v143 (F := Ideal) V = softmax0 (step V (step V (step V (flat (logits V))))) := by
  unfold res_main_v143 res_main_v139
  rw [v132_eq]
  exact softmax_chain _

theorem v156_eq : res_main_v156 (F := Ideal) V = step V (step V (step V (step V (flat (logits V))))) := by
  unfold res_main_v156
  rw [v143_eq]
  exact update_chain V _

theorem v167_eq : res_main_v167 (F := Ideal) V = softmax0 (step V (step V (step V (step V (flat (logits V)))))) := by
  unfold res_main_v167 res_main_v163
  rw [v156_eq]
  exact softmax_chain _

theorem v180_eq : res_main_v180 (F := Ideal) V = step V (step V (step V (step V (step V (flat (logits V)))))) := by
  unfold res_main_v180
  rw [v167_eq]
  exact update_chain V _

/-! ## The result -/

/-- The reference's result term is the specification's function of the arguments. -/
theorem result_eq :
    (shapeCast S1x21x8x32x32 (Host.divf (F := Ideal) (res_main_v187 (F := Ideal) V)
      (broadcastInDim S21x8192 ![0, 1] bcast_S1x8192_S21x8192_0_1 (broadcastInDim S1x8192 ![1] bcast_S8192_S1x8192_1
        (Host.reduceAdd (F := Ideal) (res_main_v187 (F := Ideal) V) (constant (F := Ideal) S_ .f32 0x00000000#32)
          reducesTo_S21x8192_S8192_d0 h_S_))))
      shapeCasts_S21x8192_S1x21x8x32x32 : Vol 21)
      = crfOut spFeat (biFeat (image V)) (logits V) (unaryScores V) (spw V) (biw V) (compat V) := by
  unfold res_main_v187
  rw [v180_eq]
  refine (congrArg (fun y => shapeCast S1x21x8x32x32 y shapeCasts_S21x8192_S1x21x8x32x32) (softmax_chain _)).trans ?_
  exact unflat_stage _ shapeCasts_S21x8192_S1x21x8x32x32

/-! ## The run -/

/-- On every device, from any memory with zero counters, every weakly fair execution of the reference terminates with
    its result array at the specification's function of the six arguments' contents at the start, the arguments
    unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v192)
        = crfOut spFeat (biFeat (m ((c.tc : Thread nD τ).loc main_arg0))) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result_eq (launchContents m c)), (h c).2⟩)
    (Cert.ReferenceIdeal.Value.run (F := Ideal) m ρ)

end Cert.ReferenceIdeal.RefValue

end
-- ==== Proof.lean ====
/- The certificate of a dense conditional random field's mean-field inference: a kernel that builds the two Gaussian
   affinity arrays of 8192 sites tile by tile with their row sums and then runs five mean-field steps, each a pass over
   the affinity arrays in blocks of 256 rows accumulated into scratch, against the same inference written with whole
   arrays. Three frames — each program runs to the end, faults nowhere and leaves its arguments as launched: the two
   kernels' from the run of their nine items (three stretches of host operations and six regions), the reference's from
   its run read back —, the two roundings through the 16-bit format that the idealized kernel drops, and the equality
   of the two results on the extended reals: both are the function `crfOut` of the arguments, the kernel's sums being the
   reference's regrouped by tile. -/
import proofs.«162179_j58609123721967_2_alg».proof.Defs
import proofs.«162179_j58609123721967_2_alg».proof.Proof.Gen.Kernel
import proofs.«162179_j58609123721967_2_alg».proof.Proof.Gen.Kernel.Skeleton
import proofs.«162179_j58609123721967_2_alg».proof.Proof.Gen.Kernel.Launch
import proofs.«162179_j58609123721967_2_alg».proof.Proof.Gen.Kernel.Regions
import proofs.«162179_j58609123721967_2_alg».proof.Proof.Gen.Kernel.Points
import proofs.«162179_j58609123721967_2_alg».proof.Proof.Gen.KernelIdeal
import proofs.«162179_j58609123721967_2_alg».proof.Proof.Gen.KernelIdeal.Skeleton
import proofs.«162179_j58609123721967_2_alg».proof.Proof.Gen.KernelIdeal.Launch
import proofs.«162179_j58609123721967_2_alg».proof.Proof.Gen.KernelIdeal.Regions
import proofs.«162179_j58609123721967_2_alg».proof.Proof.Gen.KernelIdeal.Points
import proofs.«162179_j58609123721967_2_alg».proof.Proof.Gen.ReferenceIdeal
import proofs.«162179_j58609123721967_2_alg».proof.Proof.Gen.ReferenceIdeal.Run
import proofs.«162179_j58609123721967_2_alg».proof.Proof.Gen.Pre_finite_inputs
import proofs.«162179_j58609123721967_2_alg».proof.Proof.BitsRun
import proofs.«162179_j58609123721967_2_alg».proof.Proof.IdealValue
import proofs.«162179_j58609123721967_2_alg».proof.Proof.RefValue
import Idealize.ShloMosaic.Adequacy
import Idealize.ShloMosaic.Init

noncomputable section

namespace Cert.Proof

open Idealize.ShloMosaic Idealize.SL.Sem Cert.Kernel

/-- The kernel as printed runs to the end and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel drops two roundings of a 512 × 512 tile through the 16-bit format and back. -/
theorem preserves : Cert.preserves_Kernel_KernelIdeal :=
  ⟨IdealRules.truncf_extf.statement _ .f32 .bf16, IdealRules.truncf_extf.statement _ .f32 .bf16⟩

/-- On the extended reals both programs compute the mean-field inference of their arguments. -/
theorem algebraic : Cert.algebraic_KernelIdeal_ReferenceIdeal := fun m ρ m' ρ' _ hagree =>
  ⟨fun c => Cert.ReferenceIdeal.RefValue.crfOut Cert.ReferenceIdeal.RefValue.spFeat
      (Cert.ReferenceIdeal.RefValue.biFeat (m ((c.tc : Thread Cert.KernelIdeal.nD Cert.KernelIdeal.τ).loc Cert.KernelIdeal.main_arg0)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Hand.value_run m ρ,
    (θ_run Cert.ReferenceIdeal.defs _ _).mono (fun _ h c => ⟨(h c).1.trans (by
        rw [(hagree c).1, (hagree c).2.1, (hagree c).2.2.1, (hagree c).2.2.2.1, (hagree c).2.2.2.2.1, (hagree c).2.2.2.2.2]), (h c).2⟩)
      (Cert.ReferenceIdeal.RefValue.ref_run m' ρ')⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
